-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35)) (m ((c.tc : Thread Cert.Kernel.nD Cert.Kernel.τ).loc Cert.Kernel.main_arg36)) (m ((c.tc : Thread Cert.Kernel.nD Cert.Kernel.τ).loc Cert.Kernel.main_arg37)) (m ((c.tc : Thread Cert.Kernel.nD Cert.Kernel.τ).loc Cert.Kernel.main_arg38)) (m ((c.tc : Thread Cert.Kernel.nD Cert.Kernel.τ).loc Cert.Kernel.main_arg39)) (m ((c.tc : Thread Cert.Kernel.nD Cert.Kernel.τ).loc Cert.Kernel.main_arg40)) (m ((c.tc : Thread Cert.Kernel.nD Cert.Kernel.τ).loc Cert.Kernel.main_arg41))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36)) (m ((c.tc : Thread Cert.KernelIdeal.nD Cert.KernelIdeal.τ).loc Cert.KernelIdeal.main_arg37)) (m ((c.tc : Thread Cert.KernelIdeal.nD Cert.KernelIdeal.τ).loc Cert.KernelIdeal.main_arg38)) (m ((c.tc : Thread Cert.KernelIdeal.nD Cert.KernelIdeal.τ).loc Cert.KernelIdeal.main_arg39)) (m ((c.tc : Thread Cert.KernelIdeal.nD Cert.KernelIdeal.τ).loc Cert.KernelIdeal.main_arg40)) (m ((c.tc : Thread Cert.KernelIdeal.nD Cert.KernelIdeal.τ).loc Cert.KernelIdeal.main_arg41))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35)) (m ((c.tc : Thread Cert.ReferenceIdeal.nD Cert.ReferenceIdeal.τ).loc Cert.ReferenceIdeal.main_arg36)) (m ((c.tc : Thread Cert.ReferenceIdeal.nD Cert.ReferenceIdeal.τ).loc Cert.ReferenceIdeal.main_arg37)) (m ((c.tc : Thread Cert.ReferenceIdeal.nD Cert.ReferenceIdeal.τ).loc Cert.ReferenceIdeal.main_arg38)) (m ((c.tc : Thread Cert.ReferenceIdeal.nD Cert.ReferenceIdeal.τ).loc Cert.ReferenceIdeal.main_arg39)) (m ((c.tc : Thread Cert.ReferenceIdeal.nD Cert.ReferenceIdeal.τ).loc Cert.ReferenceIdeal.main_arg40)) (m ((c.tc : Thread Cert.ReferenceIdeal.nD Cert.ReferenceIdeal.τ).loc Cert.ReferenceIdeal.main_arg41))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35)
      ∧ r.2.mem ((c.tc : Thread Cert.Kernel.nD Cert.Kernel.τ).loc Cert.Kernel.main_arg36) = m ((c.tc : Thread Cert.Kernel.nD Cert.Kernel.τ).loc Cert.Kernel.main_arg36)
      ∧ r.2.mem ((c.tc : Thread Cert.Kernel.nD Cert.Kernel.τ).loc Cert.Kernel.main_arg37) = m ((c.tc : Thread Cert.Kernel.nD Cert.Kernel.τ).loc Cert.Kernel.main_arg37)
      ∧ r.2.mem ((c.tc : Thread Cert.Kernel.nD Cert.Kernel.τ).loc Cert.Kernel.main_arg38) = m ((c.tc : Thread Cert.Kernel.nD Cert.Kernel.τ).loc Cert.Kernel.main_arg38)
      ∧ r.2.mem ((c.tc : Thread Cert.Kernel.nD Cert.Kernel.τ).loc Cert.Kernel.main_arg39) = m ((c.tc : Thread Cert.Kernel.nD Cert.Kernel.τ).loc Cert.Kernel.main_arg39)
      ∧ r.2.mem ((c.tc : Thread Cert.Kernel.nD Cert.Kernel.τ).loc Cert.Kernel.main_arg40) = m ((c.tc : Thread Cert.Kernel.nD Cert.Kernel.τ).loc Cert.Kernel.main_arg40)
      ∧ r.2.mem ((c.tc : Thread Cert.Kernel.nD Cert.Kernel.τ).loc Cert.Kernel.main_arg41) = m ((c.tc : Thread Cert.Kernel.nD Cert.Kernel.τ).loc Cert.Kernel.main_arg41))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
      ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
      ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
      ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39)
      ∧ r.2.mem ((c.tc : Thread Cert.KernelIdeal.nD Cert.KernelIdeal.τ).loc Cert.KernelIdeal.main_arg40) = m ((c.tc : Thread Cert.KernelIdeal.nD Cert.KernelIdeal.τ).loc Cert.KernelIdeal.main_arg40)
      ∧ r.2.mem ((c.tc : Thread Cert.KernelIdeal.nD Cert.KernelIdeal.τ).loc Cert.KernelIdeal.main_arg41) = m ((c.tc : Thread Cert.KernelIdeal.nD Cert.KernelIdeal.τ).loc Cert.KernelIdeal.main_arg41))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36)
      ∧ r.2.mem ((c.tc : Thread Cert.ReferenceIdeal.nD Cert.ReferenceIdeal.τ).loc Cert.ReferenceIdeal.main_arg37) = m ((c.tc : Thread Cert.ReferenceIdeal.nD Cert.ReferenceIdeal.τ).loc Cert.ReferenceIdeal.main_arg37)
      ∧ r.2.mem ((c.tc : Thread Cert.ReferenceIdeal.nD Cert.ReferenceIdeal.τ).loc Cert.ReferenceIdeal.main_arg38) = m ((c.tc : Thread Cert.ReferenceIdeal.nD Cert.ReferenceIdeal.τ).loc Cert.ReferenceIdeal.main_arg38)
      ∧ r.2.mem ((c.tc : Thread Cert.ReferenceIdeal.nD Cert.ReferenceIdeal.τ).loc Cert.ReferenceIdeal.main_arg39) = m ((c.tc : Thread Cert.ReferenceIdeal.nD Cert.ReferenceIdeal.τ).loc Cert.ReferenceIdeal.main_arg39)
      ∧ r.2.mem ((c.tc : Thread Cert.ReferenceIdeal.nD Cert.ReferenceIdeal.τ).loc Cert.ReferenceIdeal.main_arg40) = m ((c.tc : Thread Cert.ReferenceIdeal.nD Cert.ReferenceIdeal.τ).loc Cert.ReferenceIdeal.main_arg40)
      ∧ r.2.mem ((c.tc : Thread Cert.ReferenceIdeal.nD Cert.ReferenceIdeal.τ).loc Cert.ReferenceIdeal.main_arg41) = m ((c.tc : Thread Cert.ReferenceIdeal.nD Cert.ReferenceIdeal.τ).loc Cert.ReferenceIdeal.main_arg41))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)
      ∧ m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37)
      ∧ m' ((c.tc : Thread Cert.ReferenceIdeal.nD Cert.ReferenceIdeal.τ).loc Cert.ReferenceIdeal.main_arg38) = m ((c.tc : Thread Cert.KernelIdeal.nD Cert.KernelIdeal.τ).loc Cert.KernelIdeal.main_arg38)
      ∧ m' ((c.tc : Thread Cert.ReferenceIdeal.nD Cert.ReferenceIdeal.τ).loc Cert.ReferenceIdeal.main_arg39) = m ((c.tc : Thread Cert.KernelIdeal.nD Cert.KernelIdeal.τ).loc Cert.KernelIdeal.main_arg39)
      ∧ m' ((c.tc : Thread Cert.ReferenceIdeal.nD Cert.ReferenceIdeal.τ).loc Cert.ReferenceIdeal.main_arg40) = m ((c.tc : Thread Cert.KernelIdeal.nD Cert.KernelIdeal.τ).loc Cert.KernelIdeal.main_arg40)
      ∧ m' ((c.tc : Thread Cert.ReferenceIdeal.nD Cert.ReferenceIdeal.τ).loc Cert.ReferenceIdeal.main_arg41) = m ((c.tc : Thread Cert.KernelIdeal.nD Cert.KernelIdeal.τ).loc Cert.KernelIdeal.main_arg41)) →
    ∃ (v0 : (c : Dev Cert.KernelIdeal.nD) → Buf (Elt Ideal) ((c.tc : Thread Cert.KernelIdeal.nD Cert.KernelIdeal.τ).loc Cert.KernelIdeal.main_v179)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v179) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
          ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
          ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
          ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
          ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39)
          ∧ r.2.mem ((c.tc : Thread Cert.KernelIdeal.nD Cert.KernelIdeal.τ).loc Cert.KernelIdeal.main_arg40) = m ((c.tc : Thread Cert.KernelIdeal.nD Cert.KernelIdeal.τ).loc Cert.KernelIdeal.main_arg40)
          ∧ r.2.mem ((c.tc : Thread Cert.KernelIdeal.nD Cert.KernelIdeal.τ).loc Cert.KernelIdeal.main_arg41) = m ((c.tc : Thread Cert.KernelIdeal.nD Cert.KernelIdeal.τ).loc Cert.KernelIdeal.main_arg41))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v288) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36)
          ∧ r.2.mem ((c.tc : Thread Cert.ReferenceIdeal.nD Cert.ReferenceIdeal.τ).loc Cert.ReferenceIdeal.main_arg37) = m' ((c.tc : Thread Cert.ReferenceIdeal.nD Cert.ReferenceIdeal.τ).loc Cert.ReferenceIdeal.main_arg37)
          ∧ r.2.mem ((c.tc : Thread Cert.ReferenceIdeal.nD Cert.ReferenceIdeal.τ).loc Cert.ReferenceIdeal.main_arg38) = m' ((c.tc : Thread Cert.ReferenceIdeal.nD Cert.ReferenceIdeal.τ).loc Cert.ReferenceIdeal.main_arg38)
          ∧ r.2.mem ((c.tc : Thread Cert.ReferenceIdeal.nD Cert.ReferenceIdeal.τ).loc Cert.ReferenceIdeal.main_arg39) = m' ((c.tc : Thread Cert.ReferenceIdeal.nD Cert.ReferenceIdeal.τ).loc Cert.ReferenceIdeal.main_arg39)
          ∧ r.2.mem ((c.tc : Thread Cert.ReferenceIdeal.nD Cert.ReferenceIdeal.τ).loc Cert.ReferenceIdeal.main_arg40) = m' ((c.tc : Thread Cert.ReferenceIdeal.nD Cert.ReferenceIdeal.τ).loc Cert.ReferenceIdeal.main_arg40)
          ∧ r.2.mem ((c.tc : Thread Cert.ReferenceIdeal.nD Cert.ReferenceIdeal.τ).loc Cert.ReferenceIdeal.main_arg41) = m' ((c.tc : Thread Cert.ReferenceIdeal.nD Cert.ReferenceIdeal.τ).loc Cert.ReferenceIdeal.main_arg41))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x256 : Shape := ⟨2, ![40000, 256]⟩
abbrev S200000x256 : Shape := ⟨2, ![200000, 256]⟩
abbrev S60000x256 : Shape := ⟨2, ![60000, 256]⟩
abbrev S512x256 : Shape := ⟨2, ![512, 256]⟩
abbrev S256 : Shape := ⟨1, ![256]⟩
abbrev S256x256 : Shape := ⟨2, ![256, 256]⟩
abbrev S768x256 : Shape := ⟨2, ![768, 256]⟩
abbrev S1 : Shape := ⟨1, ![1]⟩
abbrev S2x200000 : Shape := ⟨2, ![2, 200000]⟩
abbrev S2x120000 : Shape := ⟨2, ![2, 120000]⟩
abbrev S_ : Shape := ⟨0, ![]⟩
abbrev S1x200000 : Shape := ⟨2, ![1, 200000]⟩
abbrev S200000 : Shape := ⟨1, ![200000]⟩
abbrev S1x120000 : Shape := ⟨2, ![1, 120000]⟩
abbrev S120000 : Shape := ⟨1, ![120000]⟩

class Facts : Prop where
  bcast_S_S40000x256 : S_.BroadcastsInDim S40000x256 (![] : Fin 0 → Fin S40000x256.rank)
  reducesTo_S40000x256_S_d0_1 : S40000x256.ReducesTo [0, 1] S_
  h_S_ : 0 < S_.numel
  bcast_S_S200000x256 : S_.BroadcastsInDim S200000x256 (![] : Fin 0 → Fin S200000x256.rank)
  reducesTo_S200000x256_S_d0_1 : S200000x256.ReducesTo [0, 1] S_
  bcast_S_S60000x256 : S_.BroadcastsInDim S60000x256 (![] : Fin 0 → Fin S60000x256.rank)
  reducesTo_S60000x256_S_d0_1 : S60000x256.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S768x256 : S_.BroadcastsInDim S768x256 (![] : Fin 0 → Fin S768x256.rank)
  reducesTo_S768x256_S_d0_1 : S768x256.ReducesTo [0, 1] S_
  bcast_S_S1 : S_.BroadcastsInDim S1 (![] : Fin 0 → Fin S1.rank)
  reducesTo_S1_S_d0 : S1.ReducesTo [0] S_
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  reducesTo_S200000_S_d0 : S200000.ReducesTo [0] S_
  slices_S2x120000_S1x120000_0_0 : S2x120000.Slices ![0, 0] S1x120000
  shapeCasts_S1x120000_S120000 : S1x120000.ShapeCasts S120000
  bcast_S_S120000 : S_.BroadcastsInDim S120000 (![] : Fin 0 → Fin S120000.rank)
  reducesTo_S120000_S_d0 : S120000.ReducesTo [0] S_

variable [Facts]

def fn_part13 {F : FTy → Type} [FloatOps F] (main_v215 : IVec S_ 1) (main_v224 : IVec S120000 1) (main_c_84 : IVec S_ 1) : IVec S_ 1 :=
  let main_v225 : IVec S_ 1 := (fun x v => Host.reduce IntOp.andi x v reducesTo_S120000_S_d0 h_S_) main_v224 main_c_84
  let main_v226 : IVec S_ 1 := andi main_v215 main_v225
  main_v226

def fn_part12 {F : FTy → Type} [FloatOps F] (main_arg40 : IVec S2x200000 32) (main_arg41 : IVec S2x120000 32) (main_v204 : IVec S_ 1) (main_v206 : IVec S200000 32) : IVec S_ 1 :=
  let main_c_79 : IVec S_ 32 := constantI S_ 32 0#32
  let main_v207 : IVec S200000 32 := broadcastInDim S200000 ![] bcast_S_S200000 main_c_79
  let main_v208 : IVec S200000 1 := cmpi .sge main_v206 main_v207
  let main_v209 : IVec S1x200000 32 := (extractStridedSlice S1x200000 ![0, 0] · slices_S2x200000_S1x200000_0_0) main_arg40
  let main_v210 : IVec S200000 32 := shapeCast S200000 main_v209 shapeCasts_S1x200000_S200000
  let main_c_80 : IVec S_ 32 := constantI S_ 32 40000#32
  let main_v211 : IVec S200000 32 := broadcastInDim S200000 ![] bcast_S_S200000 main_c_80
  let main_v212 : IVec S200000 1 := cmpi .slt main_v210 main_v211
  let main_v213 : IVec S200000 1 := andi main_v208 main_v212
  let main_c_81 : IVec S_ 1 := constantI S_ 1 1#1
  let main_v214 : IVec S_ 1 := (fun x v => Host.reduce IntOp.andi x v reducesTo_S200000_S_d0 h_S_) main_v213 main_c_81
  let main_v215 : IVec S_ 1 := andi main_v204 main_v214
  let main_v216 : IVec S1x120000 32 := (extractStridedSlice S1x120000 ![0, 0] · slices_S2x120000_S1x120000_0_0) main_arg41
  let main_v217 : IVec S120000 32 := shapeCast S120000 main_v216 shapeCasts_S1x120000_S120000
  let main_c_82 : IVec S_ 32 := constantI S_ 32 0#32
  let main_v218 : IVec S120000 32 := broadcastInDim S120000 ![] bcast_S_S120000 main_c_82
  let main_v219 : IVec S120000 1 := cmpi .sge main_v217 main_v218
  let main_v220 : IVec S1x120000 32 := (extractStridedSlice S1x120000 ![0, 0] · slices_S2x120000_S1x120000_0_0) main_arg41
  let main_v221 : IVec S120000 32 := shapeCast S120000 main_v220 shapeCasts_S1x120000_S120000
  let main_c_83 : IVec S_ 32 := constantI S_ 32 60000#32
  let main_v222 : IVec S120000 32 := broadcastInDim S120000 ![] bcast_S_S120000 main_c_83
  let main_v223 : IVec S120000 1 := cmpi .slt main_v221 main_v222
  let main_v224 : IVec S120000 1 := andi main_v219 main_v223
  let main_c_84 : IVec S_ 1 := constantI S_ 1 1#1
  fn_part13 (F := F) main_v215 main_v224 main_c_84

def fn_part11 {F : FTy → Type} [FloatOps F] (main_arg38 : FVec F S1 .f32) (main_arg39 : IVec S2x200000 32) (main_arg40 : IVec S2x200000 32) (main_arg41 : IVec S2x120000 32) (main_v183 : IVec S_ 1) (main_v187 : IVec S_ 1) : IVec S_ 1 :=
  let main_v188 : IVec S_ 1 := andi main_v183 main_v187
  let main_v189 : FVec F S1 .f32 := Host.absf main_arg38
  let main_cst_74 : FVec F S_ .f32 := constant S_ .f32 0x7F800000#32
  let main_v190 : FVec F S1 .f32 := broadcastInDim S1 ![] bcast_S_S1 main_cst_74
  let main_v191 : IVec S1 1 := cmpf .olt main_v189 main_v190
  let main_c_75 : IVec S_ 1 := constantI S_ 1 1#1
  let main_v192 : IVec S_ 1 := (fun x v => Host.reduce IntOp.andi x v reducesTo_S1_S_d0 h_S_) main_v191 main_c_75
  let main_v193 : IVec S_ 1 := andi main_v188 main_v192
  let main_v194 : IVec S1x200000 32 := (extractStridedSlice S1x200000 ![0, 0] · slices_S2x200000_S1x200000_0_0) main_arg39
  let main_v195 : IVec S200000 32 := shapeCast S200000 main_v194 shapeCasts_S1x200000_S200000
  let main_c_76 : IVec S_ 32 := constantI S_ 32 0#32
  let main_v196 : IVec S200000 32 := broadcastInDim S200000 ![] bcast_S_S200000 main_c_76
  let main_v197 : IVec S200000 1 := cmpi .sge main_v195 main_v196
  let main_v198 : IVec S1x200000 32 := (extractStridedSlice S1x200000 ![0, 0] · slices_S2x200000_S1x200000_0_0) main_arg39
  let main_v199 : IVec S200000 32 := shapeCast S200000 main_v198 shapeCasts_S1x200000_S200000
  let main_c_77 : IVec S_ 32 := constantI S_ 32 40000#32
  let main_v200 : IVec S200000 32 := broadcastInDim S200000 ![] bcast_S_S200000 main_c_77
  let main_v201 : IVec S200000 1 := cmpi .slt main_v199 main_v200
  let main_v202 : IVec S200000 1 := andi main_v197 main_v201
  let main_c_78 : IVec S_ 1 := constantI S_ 1 1#1
  let main_v203 : IVec S_ 1 := (fun x v => Host.reduce IntOp.andi x v reducesTo_S200000_S_d0 h_S_) main_v202 main_c_78
  let main_v204 : IVec S_ 1 := andi main_v193 main_v203
  let main_v205 : IVec S1x200000 32 := (extractStridedSlice S1x200000 ![0, 0] · slices_S2x200000_S1x200000_0_0) main_arg40
  let main_v206 : IVec S200000 32 := shapeCast S200000 main_v205 shapeCasts_S1x200000_S200000
  fn_part12 (F := F) main_arg40 main_arg41 main_v204 main_v206

def fn_part10 {F : FTy → Type} [FloatOps F] (main_arg35 : FVec F S256 .f32) (main_arg36 : FVec F S1 .f32) (main_arg37 : FVec F S1 .f32) (main_arg38 : FVec F S1 .f32) (main_arg39 : IVec S2x200000 32) (main_arg40 : IVec S2x200000 32) (main_arg41 : IVec S2x120000 32) (main_v168 : IVec S_ 1) (main_v169 : FVec F S256 .f32) (main_v170 : FVec F S256 .f32) : IVec S_ 1 :=
  let main_v171 : IVec S256 1 := cmpf .olt main_v169 main_v170
  let main_c_67 : IVec S_ 1 := constantI S_ 1 1#1
  let main_v172 : IVec S_ 1 := (fun x v => Host.reduce IntOp.andi x v reducesTo_S256_S_d0 h_S_) main_v171 main_c_67
  let main_v173 : IVec S_ 1 := andi main_v168 main_v172
  let main_v174 : FVec F S256 .f32 := Host.absf main_arg35
  let main_cst_68 : FVec F S_ .f32 := constant S_ .f32 0x7F800000#32
  let main_v175 : FVec F S256 .f32 := broadcastInDim S256 ![] bcast_S_S256 main_cst_68
  let main_v176 : IVec S256 1 := cmpf .olt main_v174 main_v175
  let main_c_69 : IVec S_ 1 := constantI S_ 1 1#1
  let main_v177 : IVec S_ 1 := (fun x v => Host.reduce IntOp.andi x v reducesTo_S256_S_d0 h_S_) main_v176 main_c_69
  let main_v178 : IVec S_ 1 := andi main_v173 main_v177
  let main_v179 : FVec F S1 .f32 := Host.absf main_arg36
  let main_cst_70 : FVec F S_ .f32 := constant S_ .f32 0x7F800000#32
  let main_v180 : FVec F S1 .f32 := broadcastInDim S1 ![] bcast_S_S1 main_cst_70
  let main_v181 : IVec S1 1 := cmpf .olt main_v179 main_v180
  let main_c_71 : IVec S_ 1 := constantI S_ 1 1#1
  let main_v182 : IVec S_ 1 := (fun x v => Host.reduce IntOp.andi x v reducesTo_S1_S_d0 h_S_) main_v181 main_c_71
  let main_v183 : IVec S_ 1 := andi main_v178 main_v182
  let main_v184 : FVec F S1 .f32 := Host.absf main_arg37
  let main_cst_72 : FVec F S_ .f32 := constant S_ .f32 0x7F800000#32
  let main_v185 : FVec F S1 .f32 := broadcastInDim S1 ![] bcast_S_S1 main_cst_72
  let main_v186 : IVec S1 1 := cmpf .olt main_v184 main_v185
  let main_c_73 : IVec S_ 1 := constantI S_ 1 1#1
  let main_v187 : IVec S_ 1 := (fun x v => Host.reduce IntOp.andi x v reducesTo_S1_S_d0 h_S_) main_v186 main_c_73
  fn_part11 (F := F) main_arg38 main_arg39 main_arg40 main_arg41 main_v183 main_v187

def fn_part9 {F : FTy → Type} [FloatOps F] (main_arg31 : FVec F S256 .f32) (main_arg32 : FVec F S768x256 .f32) (main_arg33 : FVec F S256 .f32) (main_arg34 : FVec F S256 .f32) (main_arg35 : FVec F S256 .f32) (main_arg36 : FVec F S1 .f32) (main_arg37 : FVec F S1 .f32) (main_arg38 : FVec F S1 .f32) (main_arg39 : IVec S2x200000 32) (main_arg40 : IVec S2x200000 32) (main_arg41 : IVec S2x120000 32) (main_v153 : IVec S_ 1) : IVec S_ 1 :=
  let main_v154 : FVec F S256 .f32 := Host.absf main_arg31
  let main_cst_60 : FVec F S_ .f32 := constant S_ .f32 0x7F800000#32
  let main_v155 : FVec F S256 .f32 := broadcastInDim S256 ![] bcast_S_S256 main_cst_60
  let main_v156 : IVec S256 1 := cmpf .olt main_v154 main_v155
  let main_c_61 : IVec S_ 1 := constantI S_ 1 1#1
  let main_v157 : IVec S_ 1 := (fun x v => Host.reduce IntOp.andi x v reducesTo_S256_S_d0 h_S_) main_v156 main_c_61
  let main_v158 : IVec S_ 1 := andi main_v153 main_v157
  let main_v159 : FVec F S768x256 .f32 := Host.absf main_arg32
  let main_cst_62 : FVec F S_ .f32 := constant S_ .f32 0x7F800000#32
  let main_v160 : FVec F S768x256 .f32 := broadcastInDim S768x256 ![] bcast_S_S768x256 main_cst_62
  let main_v161 : IVec S768x256 1 := cmpf .olt main_v159 main_v160
  let main_c_63 : IVec S_ 1 := constantI S_ 1 1#1
  let main_v162 : IVec S_ 1 := (fun x v => Host.reduce IntOp.andi x v reducesTo_S768x256_S_d0_1 h_S_) main_v161 main_c_63
  let main_v163 : IVec S_ 1 := andi main_v158 main_v162
  let main_v164 : FVec F S256 .f32 := Host.absf main_arg33
  let main_cst_64 : FVec F S_ .f32 := constant S_ .f32 0x7F800000#32
  let main_v165 : FVec F S256 .f32 := broadcastInDim S256 ![] bcast_S_S256 main_cst_64
  let main_v166 : IVec S256 1 := cmpf .olt main_v164 main_v165
  let main_c_65 : IVec S_ 1 := constantI S_ 1 1#1
  let main_v167 : IVec S_ 1 := (fun x v => Host.reduce IntOp.andi x v reducesTo_S256_S_d0 h_S_) main_v166 main_c_65
  let main_v168 : IVec S_ 1 := andi main_v163 main_v167
  let main_v169 : FVec F S256 .f32 := Host.absf main_arg34
  let main_cst_66 : FVec F S_ .f32 := constant S_ .f32 0x7F800000#32
  let main_v170 : FVec F S256 .f32 := broadcastInDim S256 ![] bcast_S_S256 main_cst_66
  fn_part10 (F := F) main_arg35 main_arg36 main_arg37 main_arg38 main_arg39 main_arg40 main_arg41 main_v168 main_v169 main_v170

def fn_part8 {F : FTy → Type} [FloatOps F] (main_arg28 : FVec F S256x256 .f32) (main_arg29 : FVec F S256 .f32) (main_arg30 : FVec F S256 .f32) (main_arg31 : FVec F S256 .f32) (main_arg32 : FVec F S768x256 .f32) (main_arg33 : FVec F S256 .f32) (main_arg34 : FVec F S256 .f32) (main_arg35 : FVec F S256 .f32) (main_arg36 : FVec F S1 .f32) (main_arg37 : FVec F S1 .f32) (main_arg38 : FVec F S1 .f32) (main_arg39 : IVec S2x200000 32) (main_arg40 : IVec S2x200000 32) (main_arg41 : IVec S2x120000 32) (main_v133 : IVec S_ 1) (main_v136 : IVec S256 1) : IVec S_ 1 :=
  let main_c_53 : IVec S_ 1 := constantI S_ 1 1#1
  let main_v137 : IVec S_ 1 := (fun x v => Host.reduce IntOp.andi x v reducesTo_S256_S_d0 h_S_) main_v136 main_c_53
  let main_v138 : IVec S_ 1 := andi main_v133 main_v137
  let main_v139 : FVec F S256x256 .f32 := Host.absf main_arg28
  let main_cst_54 : FVec F S_ .f32 := constant S_ .f32 0x7F800000#32
  let main_v140 : FVec F S256x256 .f32 := broadcastInDim S256x256 ![] bcast_S_S256x256 main_cst_54
  let main_v141 : IVec S256x256 1 := cmpf .olt main_v139 main_v140
  let main_c_55 : IVec S_ 1 := constantI S_ 1 1#1
  let main_v142 : IVec S_ 1 := (fun x v => Host.reduce IntOp.andi x v reducesTo_S256x256_S_d0_1 h_S_) main_v141 main_c_55
  let main_v143 : IVec S_ 1 := andi main_v138 main_v142
  let main_v144 : FVec F S256 .f32 := Host.absf main_arg29
  let main_cst_56 : FVec F S_ .f32 := constant S_ .f32 0x7F800000#32
  let main_v145 : FVec F S256 .f32 := broadcastInDim S256 ![] bcast_S_S256 main_cst_56
  let main_v146 : IVec S256 1 := cmpf .olt main_v144 main_v145
  let main_c_57 : IVec S_ 1 := constantI S_ 1 1#1
  let main_v147 : IVec S_ 1 := (fun x v => Host.reduce IntOp.andi x v reducesTo_S256_S_d0 h_S_) main_v146 main_c_57
  let main_v148 : IVec S_ 1 := andi main_v143 main_v147
  let main_v149 : FVec F S256 .f32 := Host.absf main_arg30
  let main_cst_58 : FVec F S_ .f32 := constant S_ .f32 0x7F800000#32
  let main_v150 : FVec F S256 .f32 := broadcastInDim S256 ![] bcast_S_S256 main_cst_58
  let main_v151 : IVec S256 1 := cmpf .olt main_v149 main_v150
  let main_c_59 : IVec S_ 1 := constantI S_ 1 1#1
  let main_v152 : IVec S_ 1 := (fun x v => Host.reduce IntOp.andi x v reducesTo_S256_S_d0 h_S_) main_v151 main_c_59
  let main_v153 : IVec S_ 1 := andi main_v148 main_v152
  fn_part9 (F := F) main_arg31 main_arg32 main_arg33 main_arg34 main_arg35 main_arg36 main_arg37 main_arg38 main_arg39 main_arg40 main_arg41 main_v153

def fn_part7 {F : FTy → Type} [FloatOps F] (main_arg25 : FVec F S256 .f32) (main_arg26 : FVec F S256 .f32) (main_arg27 : FVec F S256 .f32) (main_arg28 : FVec F S256x256 .f32) (main_arg29 : FVec F S256 .f32) (main_arg30 : FVec F S256 .f32) (main_arg31 : FVec F S256 .f32) (main_arg32 : FVec F S768x256 .f32) (main_arg33 : FVec F S256 .f32) (main_arg34 : FVec F S256 .f32) (main_arg35 : FVec F S256 .f32) (main_arg36 : FVec F S1 .f32) (main_arg37 : FVec F S1 .f32) (main_arg38 : FVec F S1 .f32) (main_arg39 : IVec S2x200000 32) (main_arg40 : IVec S2x200000 32) (main_arg41 : IVec S2x120000 32) (main_v118 : IVec S_ 1) (main_v119 : FVec F S256x256 .f32) : IVec S_ 1 :=
  let main_cst_46 : FVec F S_ .f32 := constant S_ .f32 0x7F800000#32
  let main_v120 : FVec F S256x256 .f32 := broadcastInDim S256x256 ![] bcast_S_S256x256 main_cst_46
  let main_v121 : IVec S256x256 1 := cmpf .olt main_v119 main_v120
  let main_c_47 : IVec S_ 1 := constantI S_ 1 1#1
  let main_v122 : IVec S_ 1 := (fun x v => Host.reduce IntOp.andi x v reducesTo_S256x256_S_d0_1 h_S_) main_v121 main_c_47
  let main_v123 : IVec S_ 1 := andi main_v118 main_v122
  let main_v124 : FVec F S256 .f32 := Host.absf main_arg25
  let main_cst_48 : FVec F S_ .f32 := constant S_ .f32 0x7F800000#32
  let main_v125 : FVec F S256 .f32 := broadcastInDim S256 ![] bcast_S_S256 main_cst_48
  let main_v126 : IVec S256 1 := cmpf .olt main_v124 main_v125
  let main_c_49 : IVec S_ 1 := constantI S_ 1 1#1
  let main_v127 : IVec S_ 1 := (fun x v => Host.reduce IntOp.andi x v reducesTo_S256_S_d0 h_S_) main_v126 main_c_49
  let main_v128 : IVec S_ 1 := andi main_v123 main_v127
  let main_v129 : FVec F S256 .f32 := Host.absf main_arg26
  let main_cst_50 : FVec F S_ .f32 := constant S_ .f32 0x7F800000#32
  let main_v130 : FVec F S256 .f32 := broadcastInDim S256 ![] bcast_S_S256 main_cst_50
  let main_v131 : IVec S256 1 := cmpf .olt main_v129 main_v130
  let main_c_51 : IVec S_ 1 := constantI S_ 1 1#1
  let main_v132 : IVec S_ 1 := (fun x v => Host.reduce IntOp.andi x v reducesTo_S256_S_d0 h_S_) main_v131 main_c_51
  let main_v133 : IVec S_ 1 := andi main_v128 main_v132
  let main_v134 : FVec F S256 .f32 := Host.absf main_arg27
  let main_cst_52 : FVec F S_ .f32 := constant S_ .f32 0x7F800000#32
  let main_v135 : FVec F S256 .f32 := broadcastInDim S256 ![] bcast_S_S256 main_cst_52
  let main_v136 : IVec S256 1 := cmpf .olt main_v134 main_v135
  fn_part8 (F := F) main_arg28 main_arg29 main_arg30 main_arg31 main_arg32 main_arg33 main_arg34 main_arg35 main_arg36 main_arg37 main_arg38 main_arg39 main_arg40 main_arg41 main_v133 main_v136

def fn_part6 {F : FTy → Type} [FloatOps F] (main_arg21 : FVec F S256 .f32) (main_arg22 : FVec F S256 .f32) (main_arg23 : FVec F S256 .f32) (main_arg24 : FVec F S256x256 .f32) (main_arg25 : FVec F S256 .f32) (main_arg26 : FVec F S256 .f32) (main_arg27 : FVec F S256 .f32) (main_arg28 : FVec F S256x256 .f32) (main_arg29 : FVec F S256 .f32) (main_arg30 : FVec F S256 .f32) (main_arg31 : FVec F S256 .f32) (main_arg32 : FVec F S768x256 .f32) (main_arg33 : FVec F S256 .f32) (main_arg34 : FVec F S256 .f32) (main_arg35 : FVec F S256 .f32) (main_arg36 : FVec F S1 .f32) (main_arg37 : FVec F S1 .f32) (main_arg38 : FVec F S1 .f32) (main_arg39 : IVec S2x200000 32) (main_arg40 : IVec S2x200000 32) (main_arg41 : IVec S2x120000 32) (main_v98 : IVec S_ 1) (main_v101 : IVec S256x256 1) (main_c_39 : IVec S_ 1) : IVec S_ 1 :=
  let main_v102 : IVec S_ 1 := (fun x v => Host.reduce IntOp.andi x v reducesTo_S256x256_S_d0_1 h_S_) main_v101 main_c_39
  let main_v103 : IVec S_ 1 := andi main_v98 main_v102
  let main_v104 : FVec F S256 .f32 := Host.absf main_arg21
  let main_cst_40 : FVec F S_ .f32 := constant S_ .f32 0x7F800000#32
  let main_v105 : FVec F S256 .f32 := broadcastInDim S256 ![] bcast_S_S256 main_cst_40
  let main_v106 : IVec S256 1 := cmpf .olt main_v104 main_v105
  let main_c_41 : IVec S_ 1 := constantI S_ 1 1#1
  let main_v107 : IVec S_ 1 := (fun x v => Host.reduce IntOp.andi x v reducesTo_S256_S_d0 h_S_) main_v106 main_c_41
  let main_v108 : IVec S_ 1 := andi main_v103 main_v107
  let main_v109 : FVec F S256 .f32 := Host.absf main_arg22
  let main_cst_42 : FVec F S_ .f32 := constant S_ .f32 0x7F800000#32
  let main_v110 : FVec F S256 .f32 := broadcastInDim S256 ![] bcast_S_S256 main_cst_42
  let main_v111 : IVec S256 1 := cmpf .olt main_v109 main_v110
  let main_c_43 : IVec S_ 1 := constantI S_ 1 1#1
  let main_v112 : IVec S_ 1 := (fun x v => Host.reduce IntOp.andi x v reducesTo_S256_S_d0 h_S_) main_v111 main_c_43
  let main_v113 : IVec S_ 1 := andi main_v108 main_v112
  let main_v114 : FVec F S256 .f32 := Host.absf main_arg23
  let main_cst_44 : FVec F S_ .f32 := constant S_ .f32 0x7F800000#32
  let main_v115 : FVec F S256 .f32 := broadcastInDim S256 ![] bcast_S_S256 main_cst_44
  let main_v116 : IVec S256 1 := cmpf .olt main_v114 main_v115
  let main_c_45 : IVec S_ 1 := constantI S_ 1 1#1
  let main_v117 : IVec S_ 1 := (fun x v => Host.reduce IntOp.andi x v reducesTo_S256_S_d0 h_S_) main_v116 main_c_45
  let main_v118 : IVec S_ 1 := andi main_v113 main_v117
  let main_v119 : FVec F S256x256 .f32 := Host.absf main_arg24
  fn_part7 (F := F) main_arg25 main_arg26 main_arg27 main_arg28 main_arg29 main_arg30 main_arg31 main_arg32 main_arg33 main_arg34 main_arg35 main_arg36 main_arg37 main_arg38 main_arg39 main_arg40 main_arg41 main_v118 main_v119

def fn_part5 {F : FTy → Type} [FloatOps F] (main_arg18 : FVec F S256 .f32) (main_arg19 : FVec F S256 .f32) (main_arg20 : FVec F S256x256 .f32) (main_arg21 : FVec F S256 .f32) (main_arg22 : FVec F S256 .f32) (main_arg23 : FVec F S256 .f32) (main_arg24 : FVec F S256x256 .f32) (main_arg25 : FVec F S256 .f32) (main_arg26 : FVec F S256 .f32) (main_arg27 : FVec F S256 .f32) (main_arg28 : FVec F S256x256 .f32) (main_arg29 : FVec F S256 .f32) (main_arg30 : FVec F S256 .f32) (main_arg31 : FVec F S256 .f32) (main_arg32 : FVec F S768x256 .f32) (main_arg33 : FVec F S256 .f32) (main_arg34 : FVec F S256 .f32) (main_arg35 : FVec F S256 .f32) (main_arg36 : FVec F S1 .f32) (main_arg37 : FVec F S1 .f32) (main_arg38 : FVec F S1 .f32) (main_arg39 : IVec S2x200000 32) (main_arg40 : IVec S2x200000 32) (main_arg41 : IVec S2x120000 32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256 .f32 := Host.absf main_arg18
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S256 .f32 := Host.absf main_arg19
  let main_cst_36 : FVec F S_ .f32 := constant S_ .f32 0x7F800000#32
  let main_v95 : FVec F S256 .f32 := broadcastInDim S256 ![] bcast_S_S256 main_cst_36
  let main_v96 : IVec S256 1 := cmpf .olt main_v94 main_v95
  let main_c_37 : IVec S_ 1 := constantI S_ 1 1#1
  let main_v97 : IVec S_ 1 := (fun x v => Host.reduce IntOp.andi x v reducesTo_S256_S_d0 h_S_) main_v96 main_c_37
  let main_v98 : IVec S_ 1 := andi main_v93 main_v97
  let main_v99 : FVec F S256x256 .f32 := Host.absf main_arg20
  let main_cst_38 : FVec F S_ .f32 := constant S_ .f32 0x7F800000#32
  let main_v100 : FVec F S256x256 .f32 := broadcastInDim S256x256 ![] bcast_S_S256x256 main_cst_38
  let main_v101 : IVec S256x256 1 := cmpf .olt main_v99 main_v100
  let main_c_39 : IVec S_ 1 := constantI S_ 1 1#1
  fn_part6 (F := F) main_arg21 main_arg22 main_arg23 main_arg24 main_arg25 main_arg26 main_arg27 main_arg28 main_arg29 main_arg30 main_arg31 main_arg32 main_arg33 main_arg34 main_arg35 main_arg36 main_arg37 main_arg38 main_arg39 main_arg40 main_arg41 main_v98 main_v101 main_c_39

def fn_part4 {F : FTy → Type} [FloatOps F] (main_arg14 : FVec F S256 .f32) (main_arg15 : FVec F S256 .f32) (main_arg16 : FVec F S256x256 .f32) (main_arg17 : FVec F S256 .f32) (main_arg18 : FVec F S256 .f32) (main_arg19 : FVec F S256 .f32) (main_arg20 : FVec F S256x256 .f32) (main_arg21 : FVec F S256 .f32) (main_arg22 : FVec F S256 .f32) (main_arg23 : FVec F S256 .f32) (main_arg24 : FVec F S256x256 .f32) (main_arg25 : FVec F S256 .f32) (main_arg26 : FVec F S256 .f32) (main_arg27 : FVec F S256 .f32) (main_arg28 : FVec F S256x256 .f32) (main_arg29 : FVec F S256 .f32) (main_arg30 : FVec F S256 .f32) (main_arg31 : FVec F S256 .f32) (main_arg32 : FVec F S768x256 .f32) (main_arg33 : FVec F S256 .f32) (main_arg34 : FVec F S256 .f32) (main_arg35 : FVec F S256 .f32) (main_arg36 : FVec F S1 .f32) (main_arg37 : FVec F S1 .f32) (main_arg38 : FVec F S1 .f32) (main_arg39 : IVec S2x200000 32) (main_arg40 : IVec S2x200000 32) (main_arg41 : IVec S2x120000 32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256 .f32 := Host.absf main_arg15
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x256 .f32 := Host.absf main_arg16
  let main_cst_30 : FVec F S_ .f32 := constant S_ .f32 0x7F800000#32
  let main_v80 : FVec F S256x256 .f32 := broadcastInDim S256x256 ![] bcast_S_S256x256 main_cst_30
  let main_v81 : IVec S256x256 1 := cmpf .olt main_v79 main_v80
  let main_c_31 : IVec S_ 1 := constantI S_ 1 1#1
  let main_v82 : IVec S_ 1 := (fun x v => Host.reduce IntOp.andi x v reducesTo_S256x256_S_d0_1 h_S_) main_v81 main_c_31
  let main_v83 : IVec S_ 1 := andi main_v78 main_v82
  let main_v84 : FVec F S256 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_arg41 main_v83 main_v84 main_cst_32

def fn_part3 {F : FTy → Type} [FloatOps F] (main_arg11 : FVec F S256 .f32) (main_arg12 : FVec F S256x256 .f32) (main_arg13 : FVec F S256 .f32) (main_arg14 : FVec F S256 .f32) (main_arg15 : FVec F S256 .f32) (main_arg16 : FVec F S256x256 .f32) (main_arg17 : FVec F S256 .f32) (main_arg18 : FVec F S256 .f32) (main_arg19 : FVec F S256 .f32) (main_arg20 : FVec F S256x256 .f32) (main_arg21 : FVec F S256 .f32) (main_arg22 : FVec F S256 .f32) (main_arg23 : FVec F S256 .f32) (main_arg24 : FVec F S256x256 .f32) (main_arg25 : FVec F S256 .f32) (main_arg26 : FVec F S256 .f32) (main_arg27 : FVec F S256 .f32) (main_arg28 : FVec F S256x256 .f32) (main_arg29 : FVec F S256 .f32) (main_arg30 : FVec F S256 .f32) (main_arg31 : FVec F S256 .f32) (main_arg32 : FVec F S768x256 .f32) (main_arg33 : FVec F S256 .f32) (main_arg34 : FVec F S256 .f32) (main_arg35 : FVec F S256 .f32) (main_arg36 : FVec F S1 .f32) (main_arg37 : FVec F S1 .f32) (main_arg38 : FVec F S1 .f32) (main_arg39 : IVec S2x200000 32) (main_arg40 : IVec S2x200000 32) (main_arg41 : IVec S2x120000 32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg12
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_arg41 main_v63 main_v67

def fn_part2 {F : FTy → Type} [FloatOps F] (main_arg7 : FVec F S256 .f32) (main_arg8 : FVec F S256x256 .f32) (main_arg9 : FVec F S256 .f32) (main_arg10 : FVec F S256 .f32) (main_arg11 : FVec F S256 .f32) (main_arg12 : FVec F S256x256 .f32) (main_arg13 : FVec F S256 .f32) (main_arg14 : FVec F S256 .f32) (main_arg15 : FVec F S256 .f32) (main_arg16 : FVec F S256x256 .f32) (main_arg17 : FVec F S256 .f32) (main_arg18 : FVec F S256 .f32) (main_arg19 : FVec F S256 .f32) (main_arg20 : FVec F S256x256 .f32) (main_arg21 : FVec F S256 .f32) (main_arg22 : FVec F S256 .f32) (main_arg23 : FVec F S256 .f32) (main_arg24 : FVec F S256x256 .f32) (main_arg25 : FVec F S256 .f32) (main_arg26 : FVec F S256 .f32) (main_arg27 : FVec F S256 .f32) (main_arg28 : FVec F S256x256 .f32) (main_arg29 : FVec F S256 .f32) (main_arg30 : FVec F S256 .f32) (main_arg31 : FVec F S256 .f32) (main_arg32 : FVec F S768x256 .f32) (main_arg33 : FVec F S256 .f32) (main_arg34 : FVec F S256 .f32) (main_arg35 : FVec F S256 .f32) (main_arg36 : FVec F S1 .f32) (main_arg37 : FVec F S1 .f32) (main_arg38 : FVec F S1 .f32) (main_arg39 : IVec S2x200000 32) (main_arg40 : IVec S2x200000 32) (main_arg41 : IVec S2x120000 32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_arg41 main_v48 main_v49 main_v50

def fn_part1 {F : FTy → Type} [FloatOps F] (main_arg4 : FVec F S512x256 .f32) (main_arg5 : FVec F S256 .f32) (main_arg6 : FVec F S512x256 .f32) (main_arg7 : FVec F S256 .f32) (main_arg8 : FVec F S256x256 .f32) (main_arg9 : FVec F S256 .f32) (main_arg10 : FVec F S256 .f32) (main_arg11 : FVec F S256 .f32) (main_arg12 : FVec F S256x256 .f32) (main_arg13 : FVec F S256 .f32) (main_arg14 : FVec F S256 .f32) (main_arg15 : FVec F S256 .f32) (main_arg16 : FVec F S256x256 .f32) (main_arg17 : FVec F S256 .f32) (main_arg18 : FVec F S256 .f32) (main_arg19 : FVec F S256 .f32) (main_arg20 : FVec F S256x256 .f32) (main_arg21 : FVec F S256 .f32) (main_arg22 : FVec F S256 .f32) (main_arg23 : FVec F S256 .f32) (main_arg24 : FVec F S256x256 .f32) (main_arg25 : FVec F S256 .f32) (main_arg26 : FVec F S256 .f32) (main_arg27 : FVec F S256 .f32) (main_arg28 : FVec F S256x256 .f32) (main_arg29 : FVec F S256 .f32) (main_arg30 : FVec F S256 .f32) (main_arg31 : FVec F S256 .f32) (main_arg32 : FVec F S768x256 .f32) (main_arg33 : FVec F S256 .f32) (main_arg34 : FVec F S256 .f32) (main_arg35 : FVec F S256 .f32) (main_arg36 : FVec F S1 .f32) (main_arg37 : FVec F S1 .f32) (main_arg38 : FVec F S1 .f32) (main_arg39 : IVec S2x200000 32) (main_arg40 : IVec S2x200000 32) (main_arg41 : IVec S2x120000 32) (main_v13 : IVec S_ 1) (main_v16 : IVec S60000x256 1) : IVec S_ 1 :=
  let main_c_5 : IVec S_ 1 := constantI S_ 1 1#1
  let main_v17 : IVec S_ 1 := (fun x v => Host.reduce IntOp.andi x v reducesTo_S60000x256_S_d0_1 h_S_) main_v16 main_c_5
  let main_v18 : IVec S_ 1 := andi main_v13 main_v17
  let main_v19 : FVec F S512x256 .f32 := Host.absf main_arg4
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S512x256 .f32 := Host.absf main_arg6
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_arg41 main_v33

def fn {F : FTy → Type} [FloatOps F] (main_arg0 : FVec F S40000x256 .f32) (main_arg1 : FVec F S200000x256 .f32) (main_arg2 : FVec F S200000x256 .f32) (main_arg3 : FVec F S60000x256 .f32) (main_arg4 : FVec F S512x256 .f32) (main_arg5 : FVec F S256 .f32) (main_arg6 : FVec F S512x256 .f32) (main_arg7 : FVec F S256 .f32) (main_arg8 : FVec F S256x256 .f32) (main_arg9 : FVec F S256 .f32) (main_arg10 : FVec F S256 .f32) (main_arg11 : FVec F S256 .f32) (main_arg12 : FVec F S256x256 .f32) (main_arg13 : FVec F S256 .f32) (main_arg14 : FVec F S256 .f32) (main_arg15 : FVec F S256 .f32) (main_arg16 : FVec F S256x256 .f32) (main_arg17 : FVec F S256 .f32) (main_arg18 : FVec F S256 .f32) (main_arg19 : FVec F S256 .f32) (main_arg20 : FVec F S256x256 .f32) (main_arg21 : FVec F S256 .f32) (main_arg22 : FVec F S256 .f32) (main_arg23 : FVec F S256 .f32) (main_arg24 : FVec F S256x256 .f32) (main_arg25 : FVec F S256 .f32) (main_arg26 : FVec F S256 .f32) (main_arg27 : FVec F S256 .f32) (main_arg28 : FVec F S256x256 .f32) (main_arg29 : FVec F S256 .f32) (main_arg30 : FVec F S256 .f32) (main_arg31 : FVec F S256 .f32) (main_arg32 : FVec F S768x256 .f32) (main_arg33 : FVec F S256 .f32) (main_arg34 : FVec F S256 .f32) (main_arg35 : FVec F S256 .f32) (main_arg36 : FVec F S1 .f32) (main_arg37 : FVec F S1 .f32) (main_arg38 : FVec F S1 .f32) (main_arg39 : IVec S2x200000 32) (main_arg40 : IVec S2x200000 32) (main_arg41 : IVec S2x120000 32) : IVec S_ 1 :=
  let main_v0 : FVec F S40000x256 .f32 := Host.absf main_arg0
  let main_cst : FVec F S_ .f32 := constant S_ .f32 0x7F800000#32
  let main_v1 : FVec F S40000x256 .f32 := broadcastInDim S40000x256 ![] bcast_S_S40000x256 main_cst
  let main_v2 : IVec S40000x256 1 := cmpf .olt main_v0 main_v1
  let main_c : IVec S_ 1 := constantI S_ 1 1#1
  let main_v3 : IVec S_ 1 := (fun x v => Host.reduce IntOp.andi x v reducesTo_S40000x256_S_d0_1 h_S_) main_v2 main_c
  let main_v4 : FVec F S200000x256 .f32 := Host.absf main_arg1
  let main_cst_0 : FVec F S_ .f32 := constant S_ .f32 0x7F800000#32
  let main_v5 : FVec F S200000x256 .f32 := broadcastInDim S200000x256 ![] bcast_S_S200000x256 main_cst_0
  let main_v6 : IVec S200000x256 1 := cmpf .olt main_v4 main_v5
  let main_c_1 : IVec S_ 1 := constantI S_ 1 1#1
  let main_v7 : IVec S_ 1 := (fun x v => Host.reduce IntOp.andi x v reducesTo_S200000x256_S_d0_1 h_S_) main_v6 main_c_1
  let main_v8 : IVec S_ 1 := andi main_v3 main_v7
  let main_v9 : FVec F S200000x256 .f32 := Host.absf main_arg2
  let main_cst_2 : FVec F S_ .f32 := constant S_ .f32 0x7F800000#32
  let main_v10 : FVec F S200000x256 .f32 := broadcastInDim S200000x256 ![] bcast_S_S200000x256 main_cst_2
  let main_v11 : IVec S200000x256 1 := cmpf .olt main_v9 main_v10
  let main_c_3 : IVec S_ 1 := constantI S_ 1 1#1
  let main_v12 : IVec S_ 1 := (fun x v => Host.reduce IntOp.andi x v reducesTo_S200000x256_S_d0_1 h_S_) main_v11 main_c_3
  let main_v13 : IVec S_ 1 := andi main_v8 main_v12
  let main_v14 : FVec F S60000x256 .f32 := Host.absf main_arg3
  let main_cst_4 : FVec F S_ .f32 := constant S_ .f32 0x7F800000#32
  let main_v15 : FVec F S60000x256 .f32 := broadcastInDim S60000x256 ![] bcast_S_S60000x256 main_cst_4
  let main_v16 : IVec S60000x256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_arg41 main_v13 main_v16
-- ==== Kernel.lean ====
abbrev S40000x256 : Shape := ⟨2, ![40000, 256]⟩
abbrev S200000x256 : Shape := ⟨2, ![200000, 256]⟩
abbrev S60000x256 : Shape := ⟨2, ![60000, 256]⟩
abbrev S512x256 : Shape := ⟨2, ![512, 256]⟩
abbrev S256 : Shape := ⟨1, ![256]⟩
abbrev S256x256 : Shape := ⟨2, ![256, 256]⟩
abbrev S768x256 : Shape := ⟨2, ![768, 256]⟩
abbrev S1 : Shape := ⟨1, ![1]⟩
abbrev S2x200000 : Shape := ⟨2, ![2, 200000]⟩
abbrev S2x120000 : Shape := ⟨2, ![2, 120000]⟩
abbrev S1x200000 : Shape := ⟨2, ![1, 200000]⟩
abbrev S200000 : Shape := ⟨1, ![200000]⟩
abbrev S_ : Shape := ⟨0, ![]⟩
abbrev S200000x1 : Shape := ⟨2, ![200000, 1]⟩
abbrev S1x1 : Shape := ⟨2, ![1, 1]⟩
abbrev S1x120000 : Shape := ⟨2, ![1, 120000]⟩
abbrev S120000 : Shape := ⟨1, ![120000]⟩
abbrev S120000x1 : Shape := ⟨2, ![120000, 1]⟩
abbrev S120000x256 : Shape := ⟨2, ![120000, 256]⟩
abbrev S1x256 : Shape := ⟨2, ![1, 256]⟩
abbrev S5000x256 : Shape := ⟨2, ![5000, 256]⟩
abbrev S8x8x256 : Shape := ⟨3, ![8, 8, 256]⟩
abbrev S1x8x256 : Shape := ⟨3, ![1, 8, 256]⟩
abbrev S1x1x256 : Shape := ⟨3, ![1, 1, 256]⟩
abbrev S8x1x256 : Shape := ⟨3, ![8, 1, 256]⟩
abbrev S8x256 : Shape := ⟨2, ![8, 256]⟩

abbrev nBuf : Space → Nat
  | .hbm => 339
  | .vmem => 150
  | .smem => 0
  | _ => 0

abbrev hbmTy0_0 (i : Nat) : BufTy := match i % 128 with
  | 0 => ⟨S40000x256, .f32⟩
  | 1 => ⟨S200000x256, .f32⟩
  | 2 => ⟨S200000x256, .f32⟩
  | 3 => ⟨S60000x256, .f32⟩
  | 4 => ⟨S512x256, .f32⟩
  | 5 => ⟨S256, .f32⟩
  | 6 => ⟨S512x256, .f32⟩
  | 7 => ⟨S256, .f32⟩
  | 8 => ⟨S256x256, .f32⟩
  | 9 => ⟨S256, .f32⟩
  | 10 => ⟨S256, .f32⟩
  | 11 => ⟨S256, .f32⟩
  | 12 => ⟨S256x256, .f32⟩
  | 13 => ⟨S256, .f32⟩
  | 14 => ⟨S256, .f32⟩
  | 15 => ⟨S256, .f32⟩
  | 16 => ⟨S256x256, .f32⟩
  | 17 => ⟨S256, .f32⟩
  | 18 => ⟨S256, .f32⟩
  | 19 => ⟨S256, .f32⟩
  | 20 => ⟨S256x256, .f32⟩
  | 21 => ⟨S256, .f32⟩
  | 22 => ⟨S256, .f32⟩
  | 23 => ⟨S256, .f32⟩
  | 24 => ⟨S256x256, .f32⟩
  | 25 => ⟨S256, .f32⟩
  | 26 => ⟨S256, .f32⟩
  | 27 => ⟨S256, .f32⟩
  | 28 => ⟨S256x256, .f32⟩
  | 29 => ⟨S256, .f32⟩
  | 30 => ⟨S256, .f32⟩
  | 31 => ⟨S256, .f32⟩
  | 32 => ⟨S768x256, .f32⟩
  | 33 => ⟨S256, .f32⟩
  | 34 => ⟨S256, .f32⟩
  | 35 => ⟨S256, .f32⟩
  | 36 => ⟨S1, .f32⟩
  | 37 => ⟨S1, .f32⟩
  | 38 => ⟨S1, .f32⟩
  | 39 => ⟨S2x200000, .i32⟩
  | 40 => ⟨S2x200000, .i32⟩
  | 41 => ⟨S2x120000, .i32⟩
  | 42 => ⟨S1x200000, .i32⟩
  | 43 => ⟨S200000, .i32⟩
  | 44 => ⟨S_, .i32⟩
  | 45 => ⟨S200000, .i32⟩
  | 46 => ⟨S200000, .i1⟩
  | 47 => ⟨S_, .i32⟩
  | 48 => ⟨S200000, .i32⟩
  | 49 => ⟨S200000, .i32⟩
  | 50 => ⟨S200000, .i32⟩
  | 51 => ⟨S200000x1, .i32⟩
  | 52 => ⟨S1, .i32⟩
  | 53 => ⟨S_, .i32⟩
  | 54 => ⟨S200000x1, .i32⟩
  | 55 => ⟨S200000x1, .i1⟩
  | 56 => ⟨S1x1, .i32⟩
  | 57 => ⟨S200000x1, .i32⟩
  | 58 => ⟨S200000x1, .i1⟩
  | 59 => ⟨S200000x1, .i1⟩
  | 60 => ⟨S_, .i1⟩
  | 61 => ⟨S200000, .i1⟩
  | 62 => ⟨S200000x256, .f32⟩
  | 63 => ⟨S200000x256, .i1⟩
  | 64 => ⟨S_, .f32⟩
  | 65 => ⟨S200000x256, .f32⟩
  | 66 => ⟨S200000x256, .f32⟩
  | 67 => ⟨S1x200000, .i32⟩
  | 68 => ⟨S200000, .i32⟩
  | 69 => ⟨S_, .i32⟩
  | 70 => ⟨S200000, .i32⟩
  | 71 => ⟨S200000, .i1⟩
  | 72 => ⟨S_, .i32⟩
  | 73 => ⟨S200000, .i32⟩
  | 74 => ⟨S200000, .i32⟩
  | 75 => ⟨S200000, .i32⟩
  | 76 => ⟨S200000x1, .i32⟩
  | 77 => ⟨S1, .i32⟩
  | 78 => ⟨S_, .i32⟩
  | 79 => ⟨S200000x1, .i32⟩
  | 80 => ⟨S200000x1, .i1⟩
  | 81 => ⟨S1x1, .i32⟩
  | 82 => ⟨S200000x1, .i32⟩
  | 83 => ⟨S200000x1, .i1⟩
  | 84 => ⟨S200000x1, .i1⟩
  | 85 => ⟨S_, .i1⟩
  | 86 => ⟨S200000, .i1⟩
  | 87 => ⟨S200000x256, .f32⟩
  | 88 => ⟨S200000x256, .i1⟩
  | 89 => ⟨S_, .f32⟩
  | 90 => ⟨S200000x256, .f32⟩
  | 91 => ⟨S200000x256, .f32⟩
  | 92 => ⟨S1x120000, .i32⟩
  | 93 => ⟨S120000, .i32⟩
  | 94 => ⟨S_, .i32⟩
  | 95 => ⟨S120000, .i32⟩
  | 96 => ⟨S120000, .i1⟩
  | 97 => ⟨S_, .i32⟩
  | 98 => ⟨S120000, .i32⟩
  | 99 => ⟨S120000, .i32⟩
  | 100 => ⟨S120000, .i32⟩
  | 101 => ⟨S120000x1, .i32⟩
  | 102 => ⟨S1, .i32⟩
  | 103 => ⟨S_, .i32⟩
  | 104 => ⟨S120000x1, .i32⟩
  | 105 => ⟨S120000x1, .i1⟩
  | 106 => ⟨S1x1, .i32⟩
  | 107 => ⟨S120000x1, .i32⟩
  | 108 => ⟨S120000x1, .i1⟩
  | 109 => ⟨S120000x1, .i1⟩
  | 110 => ⟨S_, .i1⟩
  | 111 => ⟨S120000, .i1⟩
  | 112 => ⟨S120000x256, .f32⟩
  | 113 => ⟨S120000x256, .i1⟩
  | 114 => ⟨S_, .f32⟩
  | 115 => ⟨S120000x256, .f32⟩
  | 116 => ⟨S120000x256, .f32⟩
  | 117 => ⟨S256x256, .f32⟩
  | 118 => ⟨S256x256, .f32⟩
  | 119 => ⟨S1x256, .f32⟩
  | 120 => ⟨S200000x256, .f32⟩
  | 121 => ⟨S256x256, .f32⟩
  | 122 => ⟨S256x256, .f32⟩
  | 123 => ⟨S1x256, .f32⟩
  | 124 => ⟨S200000x256, .f32⟩
  | 125 => ⟨S1x200000, .i32⟩
  | 126 => ⟨S200000, .i32⟩
  | 127 => ⟨S_, .f32⟩
  | _ => ⟨S40000x256, .f32⟩

abbrev hbmTy0_1 (i : Nat) : BufTy := match i % 128 with
  | 0 => ⟨S40000x256, .f32⟩
  | 1 => ⟨S200000x1, .i32⟩
  | 2 => ⟨S40000x256, .f32⟩
  | 3 => ⟨S1x200000, .i32⟩
  | 4 => ⟨S200000, .i32⟩
  | 5 => ⟨S_, .f32⟩
  | 6 => ⟨S40000x256, .f32⟩
  | 7 => ⟨S200000x1, .i32⟩
  | 8 => ⟨S40000x256, .f32⟩
  | 9 => ⟨S1x120000, .i32⟩
  | 10 => ⟨S120000, .i32⟩
  | 11 => ⟨S_, .f32⟩
  | 12 => ⟨S40000x256, .f32⟩
  | 13 => ⟨S120000x1, .i32⟩
  | 14 => ⟨S40000x256, .f32⟩
  | 15 => ⟨S256x256, .f32⟩
  | 16 => ⟨S256x256, .f32⟩
  | 17 => ⟨S256x256, .f32⟩
  | 18 => ⟨S_, .f32⟩
  | 19 => ⟨S_, .f32⟩
  | 20 => ⟨S_, .f32⟩
  | 21 => ⟨S1x1, .f32⟩
  | 22 => ⟨S1x256, .f32⟩
  | 23 => ⟨S40000x256, .f32⟩
  | 24 => ⟨S8x8x256, .f32⟩
  | 25 => ⟨S8x8x256, .f32⟩
  | 26 => ⟨S8x1x256, .f32⟩
  | 27 => ⟨S8x256, .f32⟩
  | 28 => ⟨S_, .f32⟩
  | 29 => ⟨S256, .f32⟩
  | 30 => ⟨S8x1x256, .f32⟩
  | 31 => ⟨S8x256, .f32⟩
  | 32 => ⟨S_, .f32⟩
  | 33 => ⟨S256, .f32⟩
  | 34 => ⟨S_, .f32⟩
  | 35 => ⟨S256, .f32⟩
  | 36 => ⟨S256, .f32⟩
  | 37 => ⟨S_, .f32⟩
  | 38 => ⟨S256, .f32⟩
  | 39 => ⟨S256, .f32⟩
  | 40 => ⟨S256, .f32⟩
  | 41 => ⟨S256, .f32⟩
  | 42 => ⟨S1x256, .f32⟩
  | 43 => ⟨S1x256, .f32⟩
  | 44 => ⟨S1x256, .f32⟩
  | 45 => ⟨S1x256, .f32⟩
  | 46 => ⟨S1x256, .f32⟩
  | 47 => ⟨S40000x256, .f32⟩
  | 48 => ⟨S8x8x256, .f32⟩
  | 49 => ⟨S8x8x256, .f32⟩
  | 50 => ⟨S8x1x256, .f32⟩
  | 51 => ⟨S8x256, .f32⟩
  | 52 => ⟨S_, .f32⟩
  | 53 => ⟨S256, .f32⟩
  | 54 => ⟨S8x1x256, .f32⟩
  | 55 => ⟨S8x256, .f32⟩
  | 56 => ⟨S_, .f32⟩
  | 57 => ⟨S256, .f32⟩
  | 58 => ⟨S_, .f32⟩
  | 59 => ⟨S256, .f32⟩
  | 60 => ⟨S256, .f32⟩
  | 61 => ⟨S_, .f32⟩
  | 62 => ⟨S256, .f32⟩
  | 63 => ⟨S256, .f32⟩
  | 64 => ⟨S256, .f32⟩
  | 65 => ⟨S256, .f32⟩
  | 66 => ⟨S_, .f32⟩
  | 67 => ⟨S256, .f32⟩
  | 68 => ⟨S1x256, .f32⟩
  | 69 => ⟨S1x256, .f32⟩
  | 70 => ⟨S1x256, .f32⟩
  | 71 => ⟨S1x256, .f32⟩
  | 72 => ⟨S1x256, .f32⟩
  | 73 => ⟨S40000x256, .f32⟩
  | 74 => ⟨S_, .f32⟩
  | 75 => ⟨S_, .f32⟩
  | 76 => ⟨S_, .f32⟩
  | 77 => ⟨S1x1, .f32⟩
  | 78 => ⟨S1x256, .f32⟩
  | 79 => ⟨S40000x256, .f32⟩
  | 80 => ⟨S8x8x256, .f32⟩
  | 81 => ⟨S8x8x256, .f32⟩
  | 82 => ⟨S8x1x256, .f32⟩
  | 83 => ⟨S8x256, .f32⟩
  | 84 => ⟨S_, .f32⟩
  | 85 => ⟨S256, .f32⟩
  | 86 => ⟨S8x1x256, .f32⟩
  | 87 => ⟨S8x256, .f32⟩
  | 88 => ⟨S_, .f32⟩
  | 89 => ⟨S256, .f32⟩
  | 90 => ⟨S_, .f32⟩
  | 91 => ⟨S256, .f32⟩
  | 92 => ⟨S256, .f32⟩
  | 93 => ⟨S_, .f32⟩
  | 94 => ⟨S256, .f32⟩
  | 95 => ⟨S256, .f32⟩
  | 96 => ⟨S256, .f32⟩
  | 97 => ⟨S256, .f32⟩
  | 98 => ⟨S1x256, .f32⟩
  | 99 => ⟨S1x256, .f32⟩
  | 100 => ⟨S1x256, .f32⟩
  | 101 => ⟨S1x256, .f32⟩
  | 102 => ⟨S1x256, .f32⟩
  | 103 => ⟨S40000x256, .f32⟩
  | 104 => ⟨S8x8x256, .f32⟩
  | 105 => ⟨S8x8x256, .f32⟩
  | 106 => ⟨S8x1x256, .f32⟩
  | 107 => ⟨S8x256, .f32⟩
  | 108 => ⟨S_, .f32⟩
  | 109 => ⟨S256, .f32⟩
  | 110 => ⟨S8x1x256, .f32⟩
  | 111 => ⟨S8x256, .f32⟩
  | 112 => ⟨S_, .f32⟩
  | 113 => ⟨S256, .f32⟩
  | 114 => ⟨S_, .f32⟩
  | 115 => ⟨S256, .f32⟩
  | 116 => ⟨S256, .f32⟩
  | 117 => ⟨S_, .f32⟩
  | 118 => ⟨S256, .f32⟩
  | 119 => ⟨S256, .f32⟩
  | 120 => ⟨S256, .f32⟩
  | 121 => ⟨S256, .f32⟩
  | 122 => ⟨S_, .f32⟩
  | 123 => ⟨S256, .f32⟩
  | 124 => ⟨S1x256, .f32⟩
  | 125 => ⟨S1x256, .f32⟩
  | 126 => ⟨S1x256, .f32⟩
  | 127 => ⟨S1x256, .f32⟩
  | _ => ⟨S40000x256, .f32⟩

abbrev hbmTy0_2 (i : Nat) : BufTy := match i % 128 with
  | 0 => ⟨S1x256, .f32⟩
  | 1 => ⟨S40000x256, .f32⟩
  | 2 => ⟨S_, .f32⟩
  | 3 => ⟨S_, .f32⟩
  | 4 => ⟨S_, .f32⟩
  | 5 => ⟨S1x1, .f32⟩
  | 6 => ⟨S1x256, .f32⟩
  | 7 => ⟨S40000x256, .f32⟩
  | 8 => ⟨S8x8x256, .f32⟩
  | 9 => ⟨S8x8x256, .f32⟩
  | 10 => ⟨S8x1x256, .f32⟩
  | 11 => ⟨S8x256, .f32⟩
  | 12 => ⟨S_, .f32⟩
  | 13 => ⟨S256, .f32⟩
  | 14 => ⟨S8x1x256, .f32⟩
  | 15 => ⟨S8x256, .f32⟩
  | 16 => ⟨S_, .f32⟩
  | 17 => ⟨S256, .f32⟩
  | 18 => ⟨S_, .f32⟩
  | 19 => ⟨S256, .f32⟩
  | 20 => ⟨S256, .f32⟩
  | 21 => ⟨S_, .f32⟩
  | 22 => ⟨S256, .f32⟩
  | 23 => ⟨S256, .f32⟩
  | 24 => ⟨S256, .f32⟩
  | 25 => ⟨S256, .f32⟩
  | 26 => ⟨S1x256, .f32⟩
  | 27 => ⟨S1x256, .f32⟩
  | 28 => ⟨S1x256, .f32⟩
  | 29 => ⟨S1x256, .f32⟩
  | 30 => ⟨S1x256, .f32⟩
  | 31 => ⟨S40000x256, .f32⟩
  | 32 => ⟨S8x8x256, .f32⟩
  | 33 => ⟨S8x8x256, .f32⟩
  | 34 => ⟨S8x1x256, .f32⟩
  | 35 => ⟨S8x256, .f32⟩
  | 36 => ⟨S_, .f32⟩
  | 37 => ⟨S256, .f32⟩
  | 38 => ⟨S8x1x256, .f32⟩
  | 39 => ⟨S8x256, .f32⟩
  | 40 => ⟨S_, .f32⟩
  | 41 => ⟨S256, .f32⟩
  | 42 => ⟨S_, .f32⟩
  | 43 => ⟨S256, .f32⟩
  | 44 => ⟨S256, .f32⟩
  | 45 => ⟨S_, .f32⟩
  | 46 => ⟨S256, .f32⟩
  | 47 => ⟨S256, .f32⟩
  | 48 => ⟨S256, .f32⟩
  | 49 => ⟨S256, .f32⟩
  | 50 => ⟨S_, .f32⟩
  | 51 => ⟨S256, .f32⟩
  | 52 => ⟨S1x256, .f32⟩
  | 53 => ⟨S1x256, .f32⟩
  | 54 => ⟨S1x256, .f32⟩
  | 55 => ⟨S1x256, .f32⟩
  | 56 => ⟨S1x256, .f32⟩
  | 57 => ⟨S40000x256, .f32⟩
  | 58 => ⟨S1x256, .f32⟩
  | 59 => ⟨S40000x256, .f32⟩
  | 60 => ⟨S8x8x256, .f32⟩
  | 61 => ⟨S8x8x256, .f32⟩
  | 62 => ⟨S8x1x256, .f32⟩
  | 63 => ⟨S8x256, .f32⟩
  | 64 => ⟨S_, .f32⟩
  | 65 => ⟨S256, .f32⟩
  | 66 => ⟨S8x1x256, .f32⟩
  | 67 => ⟨S8x256, .f32⟩
  | 68 => ⟨S_, .f32⟩
  | 69 => ⟨S256, .f32⟩
  | 70 => ⟨S_, .f32⟩
  | 71 => ⟨S256, .f32⟩
  | 72 => ⟨S256, .f32⟩
  | 73 => ⟨S_, .f32⟩
  | 74 => ⟨S256, .f32⟩
  | 75 => ⟨S256, .f32⟩
  | 76 => ⟨S256, .f32⟩
  | 77 => ⟨S256, .f32⟩
  | 78 => ⟨S1x256, .f32⟩
  | 79 => ⟨S1x256, .f32⟩
  | 80 => ⟨S1x256, .f32⟩
  | 81 => ⟨S1x256, .f32⟩
  | 82 => ⟨S40000x256, .f32⟩
  | _ => ⟨S40000x256, .f32⟩

abbrev hbmTy (i : Nat) : BufTy := match i / 128 with
  | 0 => hbmTy0_0 i
  | 1 => hbmTy0_1 i
  | 2 => hbmTy0_2 i
  | _ => ⟨S40000x256, .f32⟩

abbrev vmemTy0_0 (i : Nat) : BufTy := match i % 128 with
  | 0 => ⟨S5000x256, .f32⟩
  | 1 => ⟨S5000x256, .f32⟩
  | 2 => ⟨S5000x256, .f32⟩
  | 3 => ⟨S5000x256, .f32⟩
  | 4 => ⟨S256x256, .f32⟩
  | 5 => ⟨S256x256, .f32⟩
  | 6 => ⟨S1x256, .f32⟩
  | 7 => ⟨S5000x256, .f32⟩
  | 8 => ⟨S5000x256, .f32⟩
  | 9 => ⟨S5000x256, .f32⟩
  | 10 => ⟨S5000x256, .f32⟩
  | 11 => ⟨S5000x256, .f32⟩
  | 12 => ⟨S5000x256, .f32⟩
  | 13 => ⟨S256x256, .f32⟩
  | 14 => ⟨S256x256, .f32⟩
  | 15 => ⟨S1x256, .f32⟩
  | 16 => ⟨S5000x256, .f32⟩
  | 17 => ⟨S5000x256, .f32⟩
  | 18 => ⟨S5000x256, .f32⟩
  | 19 => ⟨S5000x256, .f32⟩
  | 20 => ⟨S5000x256, .f32⟩
  | 21 => ⟨S5000x256, .f32⟩
  | 22 => ⟨S1x1, .f32⟩
  | 23 => ⟨S256x256, .f32⟩
  | 24 => ⟨S1x256, .f32⟩
  | 25 => ⟨S5000x256, .f32⟩
  | 26 => ⟨S5000x256, .f32⟩
  | 27 => ⟨S1x8x256, .f32⟩
  | 28 => ⟨S1x8x256, .f32⟩
  | 29 => ⟨S1x8x256, .f32⟩
  | 30 => ⟨S1x8x256, .f32⟩
  | 31 => ⟨S5000x256, .f32⟩
  | 32 => ⟨S5000x256, .f32⟩
  | 33 => ⟨S1x256, .f32⟩
  | 34 => ⟨S1x256, .f32⟩
  | 35 => ⟨S1x256, .f32⟩
  | 36 => ⟨S1x256, .f32⟩
  | 37 => ⟨S256x256, .f32⟩
  | 38 => ⟨S1x256, .f32⟩
  | 39 => ⟨S5000x256, .f32⟩
  | 40 => ⟨S5000x256, .f32⟩
  | 41 => ⟨S1x8x256, .f32⟩
  | 42 => ⟨S1x8x256, .f32⟩
  | 43 => ⟨S1x8x256, .f32⟩
  | 44 => ⟨S1x8x256, .f32⟩
  | 45 => ⟨S5000x256, .f32⟩
  | 46 => ⟨S5000x256, .f32⟩
  | 47 => ⟨S1x256, .f32⟩
  | 48 => ⟨S1x256, .f32⟩
  | 49 => ⟨S1x256, .f32⟩
  | 50 => ⟨S1x256, .f32⟩
  | 51 => ⟨S256x256, .f32⟩
  | 52 => ⟨S1x256, .f32⟩
  | 53 => ⟨S5000x256, .f32⟩
  | 54 => ⟨S5000x256, .f32⟩
  | 55 => ⟨S5000x256, .f32⟩
  | 56 => ⟨S5000x256, .f32⟩
  | 57 => ⟨S5000x256, .f32⟩
  | 58 => ⟨S5000x256, .f32⟩
  | 59 => ⟨S1x1, .f32⟩
  | 60 => ⟨S256x256, .f32⟩
  | 61 => ⟨S1x256, .f32⟩
  | 62 => ⟨S5000x256, .f32⟩
  | 63 => ⟨S5000x256, .f32⟩
  | 64 => ⟨S1x8x256, .f32⟩
  | 65 => ⟨S1x8x256, .f32⟩
  | 66 => ⟨S1x8x256, .f32⟩
  | 67 => ⟨S1x8x256, .f32⟩
  | 68 => ⟨S5000x256, .f32⟩
  | 69 => ⟨S5000x256, .f32⟩
  | 70 => ⟨S1x256, .f32⟩
  | 71 => ⟨S1x256, .f32⟩
  | 72 => ⟨S1x256, .f32⟩
  | 73 => ⟨S1x256, .f32⟩
  | 74 => ⟨S256x256, .f32⟩
  | 75 => ⟨S1x256, .f32⟩
  | 76 => ⟨S5000x256, .f32⟩
  | 77 => ⟨S5000x256, .f32⟩
  | 78 => ⟨S1x8x256, .f32⟩
  | 79 => ⟨S1x8x256, .f32⟩
  | 80 => ⟨S1x8x256, .f32⟩
  | 81 => ⟨S1x8x256, .f32⟩
  | 82 => ⟨S5000x256, .f32⟩
  | 83 => ⟨S5000x256, .f32⟩
  | 84 => ⟨S1x256, .f32⟩
  | 85 => ⟨S1x256, .f32⟩
  | 86 => ⟨S1x256, .f32⟩
  | 87 => ⟨S1x256, .f32⟩
  | 88 => ⟨S256x256, .f32⟩
  | 89 => ⟨S1x256, .f32⟩
  | 90 => ⟨S5000x256, .f32⟩
  | 91 => ⟨S5000x256, .f32⟩
  | 92 => ⟨S5000x256, .f32⟩
  | 93 => ⟨S5000x256, .f32⟩
  | 94 => ⟨S5000x256, .f32⟩
  | 95 => ⟨S5000x256, .f32⟩
  | 96 => ⟨S1x1, .f32⟩
  | 97 => ⟨S256x256, .f32⟩
  | 98 => ⟨S1x256, .f32⟩
  | 99 => ⟨S5000x256, .f32⟩
  | 100 => ⟨S5000x256, .f32⟩
  | 101 => ⟨S1x8x256, .f32⟩
  | 102 => ⟨S1x8x256, .f32⟩
  | 103 => ⟨S1x8x256, .f32⟩
  | 104 => ⟨S1x8x256, .f32⟩
  | 105 => ⟨S5000x256, .f32⟩
  | 106 => ⟨S5000x256, .f32⟩
  | 107 => ⟨S1x256, .f32⟩
  | 108 => ⟨S1x256, .f32⟩
  | 109 => ⟨S1x256, .f32⟩
  | 110 => ⟨S1x256, .f32⟩
  | 111 => ⟨S256x256, .f32⟩
  | 112 => ⟨S1x256, .f32⟩
  | 113 => ⟨S5000x256, .f32⟩
  | 114 => ⟨S5000x256, .f32⟩
  | 115 => ⟨S1x8x256, .f32⟩
  | 116 => ⟨S1x8x256, .f32⟩
  | 117 => ⟨S1x8x256, .f32⟩
  | 118 => ⟨S1x8x256, .f32⟩
  | 119 => ⟨S5000x256, .f32⟩
  | 120 => ⟨S5000x256, .f32⟩
  | 121 => ⟨S1x256, .f32⟩
  | 122 => ⟨S1x256, .f32⟩
  | 123 => ⟨S1x256, .f32⟩
  | 124 => ⟨S1x256, .f32⟩
  | 125 => ⟨S256x256, .f32⟩
  | 126 => ⟨S1x256, .f32⟩
  | 127 => ⟨S5000x256, .f32⟩
  | _ => ⟨S40000x256, .f32⟩

abbrev vmemTy0_1 (i : Nat) : BufTy := match i % 128 with
  | 0 => ⟨S5000x256, .f32⟩
  | 1 => ⟨S5000x256, .f32⟩
  | 2 => ⟨S5000x256, .f32⟩
  | 3 => ⟨S5000x256, .f32⟩
  | 4 => ⟨S5000x256, .f32⟩
  | 5 => ⟨S5000x256, .f32⟩
  | 6 => ⟨S5000x256, .f32⟩
  | 7 => ⟨S1x256, .f32⟩
  | 8 => ⟨S5000x256, .f32⟩
  | 9 => ⟨S5000x256, .f32⟩
  | 10 => ⟨S1x8x256, .f32⟩
  | 11 => ⟨S1x8x256, .f32⟩
  | 12 => ⟨S1x8x256, .f32⟩
  | 13 => ⟨S1x8x256, .f32⟩
  | 14 => ⟨S5000x256, .f32⟩
  | 15 => ⟨S5000x256, .f32⟩
  | 16 => ⟨S1x256, .f32⟩
  | 17 => ⟨S1x256, .f32⟩
  | 18 => ⟨S1x256, .f32⟩
  | 19 => ⟨S1x256, .f32⟩
  | 20 => ⟨S5000x256, .f32⟩
  | 21 => ⟨S5000x256, .f32⟩
  | _ => ⟨S40000x256, .f32⟩

abbrev vmemTy (i : Nat) : BufTy := match i / 128 with
  | 0 => vmemTy0_0 i
  | 1 => vmemTy0_1 i
  | _ => ⟨S40000x256, .f32⟩

abbrev bufTy : (tb : Table) → Fin (tcTables nBuf tb) → BufTy
  | .hbm, ⟨i, _⟩ => hbmTy i
  | .local _ .vmem, ⟨i, _⟩ => vmemTy i
  | _, _ => ⟨S40000x256, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 150 → Bool
  | ⟨i, _⟩ => dmaSemScopedAt i

abbrev sig : RefSig :=
  ofTc nBuf bufTy 0 150 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_v0 : Ref sig .tc := ⟨.hbm, 42, rfl⟩
abbrev main_v1 : Ref sig .tc := ⟨.hbm, 43, rfl⟩
abbrev main_call0_c : Ref sig .tc := ⟨.hbm, 44, rfl⟩
abbrev main_call0_v0 : Ref sig .tc := ⟨.hbm, 45, rfl⟩
abbrev main_call0_v1 : Ref sig .tc := ⟨.hbm, 46, rfl⟩
abbrev main_call0_c_0 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_v5 : Ref sig .tc := ⟨.hbm, 51, rfl⟩
abbrev main_call0_c_1 : Ref sig .tc := ⟨.hbm, 52, rfl⟩
abbrev main_call0_c_2 : Ref sig .tc := ⟨.hbm, 53, rfl⟩
abbrev main_call0_v6 : Ref sig .tc := ⟨.hbm, 54, rfl⟩
abbrev main_call0_v7 : Ref sig .tc := ⟨.hbm, 55, rfl⟩
abbrev main_call0_v8 : Ref sig .tc := ⟨.hbm, 56, rfl⟩
abbrev main_call0_v9 : Ref sig .tc := ⟨.hbm, 57, rfl⟩
abbrev main_call0_v10 : Ref sig .tc := ⟨.hbm, 58, rfl⟩
abbrev main_call0_v11 : Ref sig .tc := ⟨.hbm, 59, rfl⟩
abbrev main_call0_c_3 : Ref sig .tc := ⟨.hbm, 60, rfl⟩
abbrev main_call0_v12 : Ref sig .tc := ⟨.hbm, 61, rfl⟩
abbrev main_call0_v13 : Ref sig .tc := ⟨.hbm, 62, rfl⟩
abbrev main_call0_v14 : Ref sig .tc := ⟨.hbm, 63, rfl⟩
abbrev main_call0_cst : Ref sig .tc := ⟨.hbm, 64, rfl⟩
abbrev main_call0_v15 : Ref sig .tc := ⟨.hbm, 65, rfl⟩
abbrev main_v2 : Ref sig .tc := ⟨.hbm, 66, rfl⟩
abbrev main_v3 : Ref sig .tc := ⟨.hbm, 67, rfl⟩
abbrev main_v4 : Ref sig .tc := ⟨.hbm, 68, rfl⟩
abbrev main_call1_c : Ref sig .tc := ⟨.hbm, 69, rfl⟩
abbrev main_call1_v0 : Ref sig .tc := ⟨.hbm, 70, rfl⟩
abbrev main_call1_v1 : Ref sig .tc := ⟨.hbm, 71, rfl⟩
abbrev main_call1_c_0 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_call1_v5 : Ref sig .tc := ⟨.hbm, 76, rfl⟩
abbrev main_call1_c_1 : Ref sig .tc := ⟨.hbm, 77, rfl⟩
abbrev main_call1_c_2 : Ref sig .tc := ⟨.hbm, 78, rfl⟩
abbrev main_call1_v6 : Ref sig .tc := ⟨.hbm, 79, rfl⟩
abbrev main_call1_v7 : Ref sig .tc := ⟨.hbm, 80, rfl⟩
abbrev main_call1_v8 : Ref sig .tc := ⟨.hbm, 81, rfl⟩
abbrev main_call1_v9 : Ref sig .tc := ⟨.hbm, 82, rfl⟩
abbrev main_call1_v10 : Ref sig .tc := ⟨.hbm, 83, rfl⟩
abbrev main_call1_v11 : Ref sig .tc := ⟨.hbm, 84, rfl⟩
abbrev main_call1_c_3 : Ref sig .tc := ⟨.hbm, 85, rfl⟩
abbrev main_call1_v12 : Ref sig .tc := ⟨.hbm, 86, rfl⟩
abbrev main_call1_v13 : Ref sig .tc := ⟨.hbm, 87, rfl⟩
abbrev main_call1_v14 : Ref sig .tc := ⟨.hbm, 88, rfl⟩
abbrev main_call1_cst : Ref sig .tc := ⟨.hbm, 89, rfl⟩
abbrev main_call1_v15 : Ref sig .tc := ⟨.hbm, 90, rfl⟩
abbrev main_v5 : Ref sig .tc := ⟨.hbm, 91, rfl⟩
abbrev main_v6 : Ref sig .tc := ⟨.hbm, 92, rfl⟩
abbrev main_v7 : Ref sig .tc := ⟨.hbm, 93, rfl⟩
abbrev main_call2_c : Ref sig .tc := ⟨.hbm, 94, rfl⟩
abbrev main_call2_v0 : Ref sig .tc := ⟨.hbm, 95, rfl⟩
abbrev main_call2_v1 : Ref sig .tc := ⟨.hbm, 96, rfl⟩
abbrev main_call2_c_0 : Ref sig .tc := ⟨.hbm, 97, rfl⟩
abbrev main_call2_v2 : Ref sig .tc := ⟨.hbm, 98, rfl⟩
abbrev main_call2_v3 : Ref sig .tc := ⟨.hbm, 99, rfl⟩
abbrev main_call2_v4 : Ref sig .tc := ⟨.hbm, 100, rfl⟩
abbrev main_call2_v5 : Ref sig .tc := ⟨.hbm, 101, rfl⟩
abbrev main_call2_c_1 : Ref sig .tc := ⟨.hbm, 102, rfl⟩
abbrev main_call2_c_2 : Ref sig .tc := ⟨.hbm, 103, rfl⟩
abbrev main_call2_v6 : Ref sig .tc := ⟨.hbm, 104, rfl⟩
abbrev main_call2_v7 : Ref sig .tc := ⟨.hbm, 105, rfl⟩
abbrev main_call2_v8 : Ref sig .tc := ⟨.hbm, 106, rfl⟩
abbrev main_call2_v9 : Ref sig .tc := ⟨.hbm, 107, rfl⟩
abbrev main_call2_v10 : Ref sig .tc := ⟨.hbm, 108, rfl⟩
abbrev main_call2_v11 : Ref sig .tc := ⟨.hbm, 109, rfl⟩
abbrev main_call2_c_3 : Ref sig .tc := ⟨.hbm, 110, rfl⟩
abbrev main_call2_v12 : Ref sig .tc := ⟨.hbm, 111, rfl⟩
abbrev main_call2_v13 : Ref sig .tc := ⟨.hbm, 112, rfl⟩
abbrev main_call2_v14 : Ref sig .tc := ⟨.hbm, 113, rfl⟩
abbrev main_call2_cst : Ref sig .tc := ⟨.hbm, 114, rfl⟩
abbrev main_call2_v15 : Ref sig .tc := ⟨.hbm, 115, rfl⟩
abbrev main_v8 : Ref sig .tc := ⟨.hbm, 116, rfl⟩
abbrev main_v9 : Ref sig .tc := ⟨.hbm, 117, rfl⟩
abbrev main_v10 : Ref sig .tc := ⟨.hbm, 118, rfl⟩
abbrev main_v11 : Ref sig .tc := ⟨.hbm, 119, rfl⟩
abbrev main_v12 : Ref sig .tc := ⟨.hbm, 120, rfl⟩
abbrev main_v13 : Ref sig .tc := ⟨.hbm, 121, rfl⟩
abbrev main_v14 : Ref sig .tc := ⟨.hbm, 122, rfl⟩
abbrev main_v15 : Ref sig .tc := ⟨.hbm, 123, rfl⟩
abbrev main_v16 : Ref sig .tc := ⟨.hbm, 124, rfl⟩
abbrev main_v17 : Ref sig .tc := ⟨.hbm, 125, rfl⟩
abbrev main_v18 : Ref sig .tc := ⟨.hbm, 126, rfl⟩
abbrev main_cst : Ref sig .tc := ⟨.hbm, 127, rfl⟩
abbrev main_v19 : Ref sig .tc := ⟨.hbm, 128, rfl⟩
abbrev main_v20 : Ref sig .tc := ⟨.hbm, 129, rfl⟩
abbrev main_v21 : Ref sig .tc := ⟨.hbm, 130, rfl⟩
abbrev main_v22 : Ref sig .tc := ⟨.hbm, 131, rfl⟩
abbrev main_v23 : Ref sig .tc := ⟨.hbm, 132, rfl⟩
abbrev main_cst_0 : Ref sig .tc := ⟨.hbm, 133, rfl⟩
abbrev main_v24 : Ref sig .tc := ⟨.hbm, 134, rfl⟩
abbrev main_v25 : Ref sig .tc := ⟨.hbm, 135, rfl⟩
abbrev main_v26 : Ref sig .tc := ⟨.hbm, 136, rfl⟩
abbrev main_v27 : Ref sig .tc := ⟨.hbm, 137, rfl⟩
abbrev main_v28 : Ref sig .tc := ⟨.hbm, 138, rfl⟩
abbrev main_cst_1 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_cst_2 : Ref sig .tc := ⟨.hbm, 147, rfl⟩
abbrev main_v36 : Ref sig .tc := ⟨.hbm, 148, rfl⟩
abbrev main_v37 : Ref sig .tc := ⟨.hbm, 149, rfl⟩
abbrev main_v38 : Ref sig .tc := ⟨.hbm, 150, rfl⟩
abbrev main_v39_0 : Ref sig .tc := ⟨.hbm, 151, rfl⟩
abbrev main_v39_1 : Ref sig .tc := ⟨.hbm, 152, rfl⟩
abbrev main_v39_2 : Ref sig .tc := ⟨.hbm, 153, rfl⟩
abbrev main_v40 : Ref sig .tc := ⟨.hbm, 154, rfl⟩
abbrev main_v41 : Ref sig .tc := ⟨.hbm, 155, rfl⟩
abbrev main_cst_3 : Ref sig .tc := ⟨.hbm, 156, rfl⟩
abbrev main_v42 : Ref sig .tc := ⟨.hbm, 157, rfl⟩
abbrev main_v43 : Ref sig .tc := ⟨.hbm, 158, rfl⟩
abbrev main_v44 : Ref sig .tc := ⟨.hbm, 159, rfl⟩
abbrev main_cst_4 : Ref sig .tc := ⟨.hbm, 160, rfl⟩
abbrev main_v45 : Ref sig .tc := ⟨.hbm, 161, rfl⟩
abbrev main_cst_5 : Ref sig .tc := ⟨.hbm, 162, rfl⟩
abbrev main_v46 : Ref sig .tc := ⟨.hbm, 163, rfl⟩
abbrev main_v47 : Ref sig .tc := ⟨.hbm, 164, rfl⟩
abbrev main_cst_6 : Ref sig .tc := ⟨.hbm, 165, rfl⟩
abbrev main_v48 : Ref sig .tc := ⟨.hbm, 166, rfl⟩
abbrev main_v49 : Ref sig .tc := ⟨.hbm, 167, rfl⟩
abbrev main_v50 : Ref sig .tc := ⟨.hbm, 168, rfl⟩
abbrev main_v51 : Ref sig .tc := ⟨.hbm, 169, rfl⟩
abbrev main_v52 : Ref sig .tc := ⟨.hbm, 170, rfl⟩
abbrev main_v53 : Ref sig .tc := ⟨.hbm, 171, rfl⟩
abbrev main_v54 : Ref sig .tc := ⟨.hbm, 172, rfl⟩
abbrev main_v55 : Ref sig .tc := ⟨.hbm, 173, rfl⟩
abbrev main_v56 : Ref sig .tc := ⟨.hbm, 174, rfl⟩
abbrev main_v57_0 : Ref sig .tc := ⟨.hbm, 175, rfl⟩
abbrev main_v57_1 : Ref sig .tc := ⟨.hbm, 176, rfl⟩
abbrev main_v57_2 : Ref sig .tc := ⟨.hbm, 177, rfl⟩
abbrev main_v58 : Ref sig .tc := ⟨.hbm, 178, rfl⟩
abbrev main_v59 : Ref sig .tc := ⟨.hbm, 179, rfl⟩
abbrev main_cst_7 : Ref sig .tc := ⟨.hbm, 180, rfl⟩
abbrev main_v60 : Ref sig .tc := ⟨.hbm, 181, rfl⟩
abbrev main_v61 : Ref sig .tc := ⟨.hbm, 182, rfl⟩
abbrev main_v62 : Ref sig .tc := ⟨.hbm, 183, rfl⟩
abbrev main_cst_8 : Ref sig .tc := ⟨.hbm, 184, rfl⟩
abbrev main_v63 : Ref sig .tc := ⟨.hbm, 185, rfl⟩
abbrev main_cst_9 : Ref sig .tc := ⟨.hbm, 186, rfl⟩
abbrev main_v64 : Ref sig .tc := ⟨.hbm, 187, rfl⟩
abbrev main_v65 : Ref sig .tc := ⟨.hbm, 188, rfl⟩
abbrev main_cst_10 : Ref sig .tc := ⟨.hbm, 189, rfl⟩
abbrev main_v66 : Ref sig .tc := ⟨.hbm, 190, rfl⟩
abbrev main_v67 : Ref sig .tc := ⟨.hbm, 191, rfl⟩
abbrev main_v68 : Ref sig .tc := ⟨.hbm, 192, rfl⟩
abbrev main_v69 : Ref sig .tc := ⟨.hbm, 193, rfl⟩
abbrev main_cst_11 : Ref sig .tc := ⟨.hbm, 194, rfl⟩
abbrev main_v70 : Ref sig .tc := ⟨.hbm, 195, rfl⟩
abbrev main_v71 : Ref sig .tc := ⟨.hbm, 196, rfl⟩
abbrev main_v72 : Ref sig .tc := ⟨.hbm, 197, rfl⟩
abbrev main_v73 : Ref sig .tc := ⟨.hbm, 198, rfl⟩
abbrev main_v74 : Ref sig .tc := ⟨.hbm, 199, rfl⟩
abbrev main_v75 : Ref sig .tc := ⟨.hbm, 200, rfl⟩
abbrev main_v76 : Ref sig .tc := ⟨.hbm, 201, rfl⟩
abbrev main_v77 : Ref sig .tc := ⟨.hbm, 202, rfl⟩
abbrev main_cst_12 : Ref sig .tc := ⟨.hbm, 203, rfl⟩
abbrev main_v78 : Ref sig .tc := ⟨.hbm, 204, rfl⟩
abbrev main_v79 : Ref sig .tc := ⟨.hbm, 205, rfl⟩
abbrev main_v80 : Ref sig .tc := ⟨.hbm, 206, rfl⟩
abbrev main_v81_0 : Ref sig .tc := ⟨.hbm, 207, rfl⟩
abbrev main_v81_1 : Ref sig .tc := ⟨.hbm, 208, rfl⟩
abbrev main_v81_2 : Ref sig .tc := ⟨.hbm, 209, rfl⟩
abbrev main_v82 : Ref sig .tc := ⟨.hbm, 210, rfl⟩
abbrev main_v83 : Ref sig .tc := ⟨.hbm, 211, rfl⟩
abbrev main_cst_13 : Ref sig .tc := ⟨.hbm, 212, rfl⟩
abbrev main_v84 : Ref sig .tc := ⟨.hbm, 213, rfl⟩
abbrev main_v85 : Ref sig .tc := ⟨.hbm, 214, rfl⟩
abbrev main_v86 : Ref sig .tc := ⟨.hbm, 215, rfl⟩
abbrev main_cst_14 : Ref sig .tc := ⟨.hbm, 216, rfl⟩
abbrev main_v87 : Ref sig .tc := ⟨.hbm, 217, rfl⟩
abbrev main_cst_15 : Ref sig .tc := ⟨.hbm, 218, rfl⟩
abbrev main_v88 : Ref sig .tc := ⟨.hbm, 219, rfl⟩
abbrev main_v89 : Ref sig .tc := ⟨.hbm, 220, rfl⟩
abbrev main_cst_16 : Ref sig .tc := ⟨.hbm, 221, rfl⟩
abbrev main_v90 : Ref sig .tc := ⟨.hbm, 222, rfl⟩
abbrev main_v91 : Ref sig .tc := ⟨.hbm, 223, rfl⟩
abbrev main_v92 : Ref sig .tc := ⟨.hbm, 224, rfl⟩
abbrev main_v93 : Ref sig .tc := ⟨.hbm, 225, rfl⟩
abbrev main_v94 : Ref sig .tc := ⟨.hbm, 226, rfl⟩
abbrev main_v95 : Ref sig .tc := ⟨.hbm, 227, rfl⟩
abbrev main_v96 : Ref sig .tc := ⟨.hbm, 228, rfl⟩
abbrev main_v97 : Ref sig .tc := ⟨.hbm, 229, rfl⟩
abbrev main_v98 : Ref sig .tc := ⟨.hbm, 230, rfl⟩
abbrev main_v99_0 : Ref sig .tc := ⟨.hbm, 231, rfl⟩
abbrev main_v99_1 : Ref sig .tc := ⟨.hbm, 232, rfl⟩
abbrev main_v99_2 : Ref sig .tc := ⟨.hbm, 233, rfl⟩
abbrev main_v100 : Ref sig .tc := ⟨.hbm, 234, rfl⟩
abbrev main_v101 : Ref sig .tc := ⟨.hbm, 235, rfl⟩
abbrev main_cst_17 : Ref sig .tc := ⟨.hbm, 236, rfl⟩
abbrev main_v102 : Ref sig .tc := ⟨.hbm, 237, rfl⟩
abbrev main_v103 : Ref sig .tc := ⟨.hbm, 238, rfl⟩
abbrev main_v104 : Ref sig .tc := ⟨.hbm, 239, rfl⟩
abbrev main_cst_18 : Ref sig .tc := ⟨.hbm, 240, rfl⟩
abbrev main_v105 : Ref sig .tc := ⟨.hbm, 241, rfl⟩
abbrev main_cst_19 : Ref sig .tc := ⟨.hbm, 242, rfl⟩
abbrev main_v106 : Ref sig .tc := ⟨.hbm, 243, rfl⟩
abbrev main_v107 : Ref sig .tc := ⟨.hbm, 244, rfl⟩
abbrev main_cst_20 : Ref sig .tc := ⟨.hbm, 245, rfl⟩
abbrev main_v108 : Ref sig .tc := ⟨.hbm, 246, rfl⟩
abbrev main_v109 : Ref sig .tc := ⟨.hbm, 247, rfl⟩
abbrev main_v110 : Ref sig .tc := ⟨.hbm, 248, rfl⟩
abbrev main_v111 : Ref sig .tc := ⟨.hbm, 249, rfl⟩
abbrev main_cst_21 : Ref sig .tc := ⟨.hbm, 250, rfl⟩
abbrev main_v112 : Ref sig .tc := ⟨.hbm, 251, rfl⟩
abbrev main_v113 : Ref sig .tc := ⟨.hbm, 252, rfl⟩
abbrev main_v114 : Ref sig .tc := ⟨.hbm, 253, rfl⟩
abbrev main_v115 : Ref sig .tc := ⟨.hbm, 254, rfl⟩
abbrev main_v116 : Ref sig .tc := ⟨.hbm, 255, rfl⟩
abbrev main_v117 : Ref sig .tc := ⟨.hbm, 256, rfl⟩
abbrev main_v118 : Ref sig .tc := ⟨.hbm, 257, rfl⟩
abbrev main_v119 : Ref sig .tc := ⟨.hbm, 258, rfl⟩
abbrev main_cst_22 : Ref sig .tc := ⟨.hbm, 259, rfl⟩
abbrev main_v120 : Ref sig .tc := ⟨.hbm, 260, rfl⟩
abbrev main_v121 : Ref sig .tc := ⟨.hbm, 261, rfl⟩
abbrev main_v122 : Ref sig .tc := ⟨.hbm, 262, rfl⟩
abbrev main_v123_0 : Ref sig .tc := ⟨.hbm, 263, rfl⟩
abbrev main_v123_1 : Ref sig .tc := ⟨.hbm, 264, rfl⟩
abbrev main_v123_2 : Ref sig .tc := ⟨.hbm, 265, rfl⟩
abbrev main_v124 : Ref sig .tc := ⟨.hbm, 266, rfl⟩
abbrev main_v125 : Ref sig .tc := ⟨.hbm, 267, rfl⟩
abbrev main_cst_23 : Ref sig .tc := ⟨.hbm, 268, rfl⟩
abbrev main_v126 : Ref sig .tc := ⟨.hbm, 269, rfl⟩
abbrev main_v127 : Ref sig .tc := ⟨.hbm, 270, rfl⟩
abbrev main_v128 : Ref sig .tc := ⟨.hbm, 271, rfl⟩
abbrev main_cst_24 : Ref sig .tc := ⟨.hbm, 272, rfl⟩
abbrev main_v129 : Ref sig .tc := ⟨.hbm, 273, rfl⟩
abbrev main_cst_25 : Ref sig .tc := ⟨.hbm, 274, rfl⟩
abbrev main_v130 : Ref sig .tc := ⟨.hbm, 275, rfl⟩
abbrev main_v131 : Ref sig .tc := ⟨.hbm, 276, rfl⟩
abbrev main_cst_26 : Ref sig .tc := ⟨.hbm, 277, rfl⟩
abbrev main_v132 : Ref sig .tc := ⟨.hbm, 278, rfl⟩
abbrev main_v133 : Ref sig .tc := ⟨.hbm, 279, rfl⟩
abbrev main_v134 : Ref sig .tc := ⟨.hbm, 280, rfl⟩
abbrev main_v135 : Ref sig .tc := ⟨.hbm, 281, rfl⟩
abbrev main_v136 : Ref sig .tc := ⟨.hbm, 282, rfl⟩
abbrev main_v137 : Ref sig .tc := ⟨.hbm, 283, rfl⟩
abbrev main_v138 : Ref sig .tc := ⟨.hbm, 284, rfl⟩
abbrev main_v139 : Ref sig .tc := ⟨.hbm, 285, rfl⟩
abbrev main_v140 : Ref sig .tc := ⟨.hbm, 286, rfl⟩
abbrev main_v141_0 : Ref sig .tc := ⟨.hbm, 287, rfl⟩
abbrev main_v141_1 : Ref sig .tc := ⟨.hbm, 288, rfl⟩
abbrev main_v141_2 : Ref sig .tc := ⟨.hbm, 289, rfl⟩
abbrev main_v142 : Ref sig .tc := ⟨.hbm, 290, rfl⟩
abbrev main_v143 : Ref sig .tc := ⟨.hbm, 291, rfl⟩
abbrev main_cst_27 : Ref sig .tc := ⟨.hbm, 292, rfl⟩
abbrev main_v144 : Ref sig .tc := ⟨.hbm, 293, rfl⟩
abbrev main_v145 : Ref sig .tc := ⟨.hbm, 294, rfl⟩
abbrev main_v146 : Ref sig .tc := ⟨.hbm, 295, rfl⟩
abbrev main_cst_28 : Ref sig .tc := ⟨.hbm, 296, rfl⟩
abbrev main_v147 : Ref sig .tc := ⟨.hbm, 297, rfl⟩
abbrev main_cst_29 : Ref sig .tc := ⟨.hbm, 298, rfl⟩
abbrev main_v148 : Ref sig .tc := ⟨.hbm, 299, rfl⟩
abbrev main_v149 : Ref sig .tc := ⟨.hbm, 300, rfl⟩
abbrev main_cst_30 : Ref sig .tc := ⟨.hbm, 301, rfl⟩
abbrev main_v150 : Ref sig .tc := ⟨.hbm, 302, rfl⟩
abbrev main_v151 : Ref sig .tc := ⟨.hbm, 303, rfl⟩
abbrev main_v152 : Ref sig .tc := ⟨.hbm, 304, rfl⟩
abbrev main_v153 : Ref sig .tc := ⟨.hbm, 305, rfl⟩
abbrev main_cst_31 : Ref sig .tc := ⟨.hbm, 306, rfl⟩
abbrev main_v154 : Ref sig .tc := ⟨.hbm, 307, rfl⟩
abbrev main_v155 : Ref sig .tc := ⟨.hbm, 308, rfl⟩
abbrev main_v156 : Ref sig .tc := ⟨.hbm, 309, rfl⟩
abbrev main_v157 : Ref sig .tc := ⟨.hbm, 310, rfl⟩
abbrev main_v158 : Ref sig .tc := ⟨.hbm, 311, rfl⟩
abbrev main_v159 : Ref sig .tc := ⟨.hbm, 312, rfl⟩
abbrev main_v160 : Ref sig .tc := ⟨.hbm, 313, rfl⟩
abbrev main_v161 : Ref sig .tc := ⟨.hbm, 314, rfl⟩
abbrev main_v162_0 : Ref sig .tc := ⟨.hbm, 315, rfl⟩
abbrev main_v162_1 : Ref sig .tc := ⟨.hbm, 316, rfl⟩
abbrev main_v162_2 : Ref sig .tc := ⟨.hbm, 317, rfl⟩
abbrev main_v163 : Ref sig .tc := ⟨.hbm, 318, rfl⟩
abbrev main_v164 : Ref sig .tc := ⟨.hbm, 319, rfl⟩
abbrev main_cst_32 : Ref sig .tc := ⟨.hbm, 320, rfl⟩
abbrev main_v165 : Ref sig .tc := ⟨.hbm, 321, rfl⟩
abbrev main_v166 : Ref sig .tc := ⟨.hbm, 322, rfl⟩
abbrev main_v167 : Ref sig .tc := ⟨.hbm, 323, rfl⟩
abbrev main_cst_33 : Ref sig .tc := ⟨.hbm, 324, rfl⟩
abbrev main_v168 : Ref sig .tc := ⟨.hbm, 325, rfl⟩
abbrev main_cst_34 : Ref sig .tc := ⟨.hbm, 326, rfl⟩
abbrev main_v169 : Ref sig .tc := ⟨.hbm, 327, rfl⟩
abbrev main_v170 : Ref sig .tc := ⟨.hbm, 328, rfl⟩
abbrev main_cst_35 : Ref sig .tc := ⟨.hbm, 329, rfl⟩
abbrev main_v171 : Ref sig .tc := ⟨.hbm, 330, rfl⟩
abbrev main_v172 : Ref sig .tc := ⟨.hbm, 331, rfl⟩
abbrev main_v173 : Ref sig .tc := ⟨.hbm, 332, rfl⟩
abbrev main_v174 : Ref sig .tc := ⟨.hbm, 333, rfl⟩
abbrev main_v175 : Ref sig .tc := ⟨.hbm, 334, rfl⟩
abbrev main_v176 : Ref sig .tc := ⟨.hbm, 335, rfl⟩
abbrev main_v177 : Ref sig .tc := ⟨.hbm, 336, rfl⟩
abbrev main_v178 : Ref sig .tc := ⟨.hbm, 337, rfl⟩
abbrev main_v179 : Ref sig .tc := ⟨.hbm, 338, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc2_stg6_0 : Ref sig .tc := ⟨.vmem, 27, rfl⟩
abbrev cc2_stg6_1 : Ref sig .tc := ⟨.vmem, 28, rfl⟩
abbrev cc2_stg7_0 : Ref sig .tc := ⟨.vmem, 29, rfl⟩
abbrev cc2_stg7_1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg7_0 : Ref sig .tc := ⟨.vmem, 39, rfl⟩
abbrev cc3_stg7_1 : Ref sig .tc := ⟨.vmem, 40, rfl⟩
abbrev cc3_stg8_0 : Ref sig .tc := ⟨.vmem, 41, rfl⟩
abbrev cc3_stg8_1 : Ref sig .tc := ⟨.vmem, 42, rfl⟩
abbrev cc3_stg9_0 : Ref sig .tc := ⟨.vmem, 43, rfl⟩
abbrev cc3_stg9_1 : Ref sig .tc := ⟨.vmem, 44, rfl⟩
abbrev cc4_stg0_0 : Ref sig .tc := ⟨.vmem, 45, rfl⟩
abbrev cc4_stg0_1 : Ref sig .tc := ⟨.vmem, 46, rfl⟩
abbrev cc4_stg1_0 : Ref sig .tc := ⟨.vmem, 47, rfl⟩
abbrev cc4_stg2_0 : Ref sig .tc := ⟨.vmem, 48, rfl⟩
abbrev cc4_stg3_0 : Ref sig .tc := ⟨.vmem, 49, rfl⟩
abbrev cc4_stg4_0 : Ref sig .tc := ⟨.vmem, 50, rfl⟩
abbrev cc4_stg5_0 : Ref sig .tc := ⟨.vmem, 51, rfl⟩
abbrev cc4_stg6_0 : Ref sig .tc := ⟨.vmem, 52, rfl⟩
abbrev cc4_stg7_0 : Ref sig .tc := ⟨.vmem, 53, rfl⟩
abbrev cc4_stg7_1 : Ref sig .tc := ⟨.vmem, 54, rfl⟩
abbrev cc5_stg0_0 : Ref sig .tc := ⟨.vmem, 55, rfl⟩
abbrev cc5_stg0_1 : Ref sig .tc := ⟨.vmem, 56, rfl⟩
abbrev cc5_stg1_0 : Ref sig .tc := ⟨.vmem, 57, rfl⟩
abbrev cc5_stg1_1 : Ref sig .tc := ⟨.vmem, 58, rfl⟩
abbrev cc5_stg2_0 : Ref sig .tc := ⟨.vmem, 59, rfl⟩
abbrev cc5_stg3_0 : Ref sig .tc := ⟨.vmem, 60, rfl⟩
abbrev cc5_stg4_0 : Ref sig .tc := ⟨.vmem, 61, rfl⟩
abbrev cc5_stg5_0 : Ref sig .tc := ⟨.vmem, 62, rfl⟩
abbrev cc5_stg5_1 : Ref sig .tc := ⟨.vmem, 63, rfl⟩
abbrev cc5_stg6_0 : Ref sig .tc := ⟨.vmem, 64, rfl⟩
abbrev cc5_stg6_1 : Ref sig .tc := ⟨.vmem, 65, rfl⟩
abbrev cc5_stg7_0 : Ref sig .tc := ⟨.vmem, 66, rfl⟩
abbrev cc5_stg7_1 : Ref sig .tc := ⟨.vmem, 67, rfl⟩
abbrev cc6_stg0_0 : Ref sig .tc := ⟨.vmem, 68, rfl⟩
abbrev cc6_stg0_1 : Ref sig .tc := ⟨.vmem, 69, rfl⟩
abbrev cc6_stg1_0 : Ref sig .tc := ⟨.vmem, 70, rfl⟩
abbrev cc6_stg2_0 : Ref sig .tc := ⟨.vmem, 71, rfl⟩
abbrev cc6_stg3_0 : Ref sig .tc := ⟨.vmem, 72, rfl⟩
abbrev cc6_stg4_0 : Ref sig .tc := ⟨.vmem, 73, rfl⟩
abbrev cc6_stg5_0 : Ref sig .tc := ⟨.vmem, 74, rfl⟩
abbrev cc6_stg6_0 : Ref sig .tc := ⟨.vmem, 75, rfl⟩
abbrev cc6_stg7_0 : Ref sig .tc := ⟨.vmem, 76, rfl⟩
abbrev cc6_stg7_1 : Ref sig .tc := ⟨.vmem, 77, rfl⟩
abbrev cc6_stg8_0 : Ref sig .tc := ⟨.vmem, 78, rfl⟩
abbrev cc6_stg8_1 : Ref sig .tc := ⟨.vmem, 79, rfl⟩
abbrev cc6_stg9_0 : Ref sig .tc := ⟨.vmem, 80, rfl⟩
abbrev cc6_stg9_1 : Ref sig .tc := ⟨.vmem, 81, rfl⟩
abbrev cc7_stg0_0 : Ref sig .tc := ⟨.vmem, 82, rfl⟩
abbrev cc7_stg0_1 : Ref sig .tc := ⟨.vmem, 83, rfl⟩
abbrev cc7_stg1_0 : Ref sig .tc := ⟨.vmem, 84, rfl⟩
abbrev cc7_stg2_0 : Ref sig .tc := ⟨.vmem, 85, rfl⟩
abbrev cc7_stg3_0 : Ref sig .tc := ⟨.vmem, 86, rfl⟩
abbrev cc7_stg4_0 : Ref sig .tc := ⟨.vmem, 87, rfl⟩
abbrev cc7_stg5_0 : Ref sig .tc := ⟨.vmem, 88, rfl⟩
abbrev cc7_stg6_0 : Ref sig .tc := ⟨.vmem, 89, rfl⟩
abbrev cc7_stg7_0 : Ref sig .tc := ⟨.vmem, 90, rfl⟩
abbrev cc7_stg7_1 : Ref sig .tc := ⟨.vmem, 91, rfl⟩
abbrev cc8_stg0_0 : Ref sig .tc := ⟨.vmem, 92, rfl⟩
abbrev cc8_stg0_1 : Ref sig .tc := ⟨.vmem, 93, rfl⟩
abbrev cc8_stg1_0 : Ref sig .tc := ⟨.vmem, 94, rfl⟩
abbrev cc8_stg1_1 : Ref sig .tc := ⟨.vmem, 95, rfl⟩
abbrev cc8_stg2_0 : Ref sig .tc := ⟨.vmem, 96, rfl⟩
abbrev cc8_stg3_0 : Ref sig .tc := ⟨.vmem, 97, rfl⟩
abbrev cc8_stg4_0 : Ref sig .tc := ⟨.vmem, 98, rfl⟩
abbrev cc8_stg5_0 : Ref sig .tc := ⟨.vmem, 99, rfl⟩
abbrev cc8_stg5_1 : Ref sig .tc := ⟨.vmem, 100, rfl⟩
abbrev cc8_stg6_0 : Ref sig .tc := ⟨.vmem, 101, rfl⟩
abbrev cc8_stg6_1 : Ref sig .tc := ⟨.vmem, 102, rfl⟩
abbrev cc8_stg7_0 : Ref sig .tc := ⟨.vmem, 103, rfl⟩
abbrev cc8_stg7_1 : Ref sig .tc := ⟨.vmem, 104, rfl⟩
abbrev cc9_stg0_0 : Ref sig .tc := ⟨.vmem, 105, rfl⟩
abbrev cc9_stg0_1 : Ref sig .tc := ⟨.vmem, 106, rfl⟩
abbrev cc9_stg1_0 : Ref sig .tc := ⟨.vmem, 107, rfl⟩
abbrev cc9_stg2_0 : Ref sig .tc := ⟨.vmem, 108, rfl⟩
abbrev cc9_stg3_0 : Ref sig .tc := ⟨.vmem, 109, rfl⟩
abbrev cc9_stg4_0 : Ref sig .tc := ⟨.vmem, 110, rfl⟩
abbrev cc9_stg5_0 : Ref sig .tc := ⟨.vmem, 111, rfl⟩
abbrev cc9_stg6_0 : Ref sig .tc := ⟨.vmem, 112, rfl⟩
abbrev cc9_stg7_0 : Ref sig .tc := ⟨.vmem, 113, rfl⟩
abbrev cc9_stg7_1 : Ref sig .tc := ⟨.vmem, 114, rfl⟩
abbrev cc9_stg8_0 : Ref sig .tc := ⟨.vmem, 115, rfl⟩
abbrev cc9_stg8_1 : Ref sig .tc := ⟨.vmem, 116, rfl⟩
abbrev cc9_stg9_0 : Ref sig .tc := ⟨.vmem, 117, rfl⟩
abbrev cc9_stg9_1 : Ref sig .tc := ⟨.vmem, 118, rfl⟩
abbrev cc10_stg0_0 : Ref sig .tc := ⟨.vmem, 119, rfl⟩
abbrev cc10_stg0_1 : Ref sig .tc := ⟨.vmem, 120, rfl⟩
abbrev cc10_stg1_0 : Ref sig .tc := ⟨.vmem, 121, rfl⟩
abbrev cc10_stg2_0 : Ref sig .tc := ⟨.vmem, 122, rfl⟩
abbrev cc10_stg3_0 : Ref sig .tc := ⟨.vmem, 123, rfl⟩
abbrev cc10_stg4_0 : Ref sig .tc := ⟨.vmem, 124, rfl⟩
abbrev cc10_stg5_0 : Ref sig .tc := ⟨.vmem, 125, rfl⟩
abbrev cc10_stg6_0 : Ref sig .tc := ⟨.vmem, 126, rfl⟩
abbrev cc10_stg7_0 : Ref sig .tc := ⟨.vmem, 127, rfl⟩
abbrev cc10_stg7_1 : Ref sig .tc := ⟨.vmem, 128, rfl⟩
abbrev cc11_stg0_0 : Ref sig .tc := ⟨.vmem, 129, rfl⟩
abbrev cc11_stg0_1 : Ref sig .tc := ⟨.vmem, 130, rfl⟩
abbrev cc11_stg1_0 : Ref sig .tc := ⟨.vmem, 131, rfl⟩
abbrev cc11_stg1_1 : Ref sig .tc := ⟨.vmem, 132, rfl⟩
abbrev cc11_stg2_0 : Ref sig .tc := ⟨.vmem, 133, rfl⟩
abbrev cc11_stg2_1 : Ref sig .tc := ⟨.vmem, 134, rfl⟩
abbrev cc11_stg3_0 : Ref sig .tc := ⟨.vmem, 135, rfl⟩
abbrev cc11_stg4_0 : Ref sig .tc := ⟨.vmem, 136, rfl⟩
abbrev cc11_stg4_1 : Ref sig .tc := ⟨.vmem, 137, rfl⟩
abbrev cc11_stg5_0 : Ref sig .tc := ⟨.vmem, 138, rfl⟩
abbrev cc11_stg5_1 : Ref sig .tc := ⟨.vmem, 139, rfl⟩
abbrev cc11_stg6_0 : Ref sig .tc := ⟨.vmem, 140, rfl⟩
abbrev cc11_stg6_1 : Ref sig .tc := ⟨.vmem, 141, rfl⟩
abbrev cc12_stg0_0 : Ref sig .tc := ⟨.vmem, 142, rfl⟩
abbrev cc12_stg0_1 : Ref sig .tc := ⟨.vmem, 143, rfl⟩
abbrev cc12_stg1_0 : Ref sig .tc := ⟨.vmem, 144, rfl⟩
abbrev cc12_stg2_0 : Ref sig .tc := ⟨.vmem, 145, rfl⟩
abbrev cc12_stg3_0 : Ref sig .tc := ⟨.vmem, 146, rfl⟩
abbrev cc12_stg4_0 : Ref sig .tc := ⟨.vmem, 147, rfl⟩
abbrev cc12_stg5_0 : Ref sig .tc := ⟨.vmem, 148, rfl⟩
abbrev cc12_stg5_1 : Ref sig .tc := ⟨.vmem, 149, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc2_sem6_0 : DmaSem sig := 27
abbrev cc2_sem6_1 : DmaSem sig := 28
abbrev cc2_sem7_0 : DmaSem sig := 29
abbrev cc2_sem7_1 : DmaSem sig := 30
abbrev cc3_sem0_0 : DmaSem sig := 31
abbrev cc3_sem0_1 : DmaSem sig := 32
abbrev cc3_sem1_0 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem7_0 : DmaSem sig := 39
abbrev cc3_sem7_1 : DmaSem sig := 40
abbrev cc3_sem8_0 : DmaSem sig := 41
abbrev cc3_sem8_1 : DmaSem sig := 42
abbrev cc3_sem9_0 : DmaSem sig := 43
abbrev cc3_sem9_1 : DmaSem sig := 44
abbrev cc4_sem0_0 : DmaSem sig := 45
abbrev cc4_sem0_1 : DmaSem sig := 46
abbrev cc4_sem1_0 : DmaSem sig := 47
abbrev cc4_sem2_0 : DmaSem sig := 48
abbrev cc4_sem3_0 : DmaSem sig := 49
abbrev cc4_sem4_0 : DmaSem sig := 50
abbrev cc4_sem5_0 : DmaSem sig := 51
abbrev cc4_sem6_0 : DmaSem sig := 52
abbrev cc4_sem7_0 : DmaSem sig := 53
abbrev cc4_sem7_1 : DmaSem sig := 54
abbrev cc5_sem0_0 : DmaSem sig := 55
abbrev cc5_sem0_1 : DmaSem sig := 56
abbrev cc5_sem1_0 : DmaSem sig := 57
abbrev cc5_sem1_1 : DmaSem sig := 58
abbrev cc5_sem2_0 : DmaSem sig := 59
abbrev cc5_sem3_0 : DmaSem sig := 60
abbrev cc5_sem4_0 : DmaSem sig := 61
abbrev cc5_sem5_0 : DmaSem sig := 62
abbrev cc5_sem5_1 : DmaSem sig := 63
abbrev cc5_sem6_0 : DmaSem sig := 64
abbrev cc5_sem6_1 : DmaSem sig := 65
abbrev cc5_sem7_0 : DmaSem sig := 66
abbrev cc5_sem7_1 : DmaSem sig := 67
abbrev cc6_sem0_0 : DmaSem sig := 68
abbrev cc6_sem0_1 : DmaSem sig := 69
abbrev cc6_sem1_0 : DmaSem sig := 70
abbrev cc6_sem2_0 : DmaSem sig := 71
abbrev cc6_sem3_0 : DmaSem sig := 72
abbrev cc6_sem4_0 : DmaSem sig := 73
abbrev cc6_sem5_0 : DmaSem sig := 74
abbrev cc6_sem6_0 : DmaSem sig := 75
abbrev cc6_sem7_0 : DmaSem sig := 76
abbrev cc6_sem7_1 : DmaSem sig := 77
abbrev cc6_sem8_0 : DmaSem sig := 78
abbrev cc6_sem8_1 : DmaSem sig := 79
abbrev cc6_sem9_0 : DmaSem sig := 80
abbrev cc6_sem9_1 : DmaSem sig := 81
abbrev cc7_sem0_0 : DmaSem sig := 82
abbrev cc7_sem0_1 : DmaSem sig := 83
abbrev cc7_sem1_0 : DmaSem sig := 84
abbrev cc7_sem2_0 : DmaSem sig := 85
abbrev cc7_sem3_0 : DmaSem sig := 86
abbrev cc7_sem4_0 : DmaSem sig := 87
abbrev cc7_sem5_0 : DmaSem sig := 88
abbrev cc7_sem6_0 : DmaSem sig := 89
abbrev cc7_sem7_0 : DmaSem sig := 90
abbrev cc7_sem7_1 : DmaSem sig := 91
abbrev cc8_sem0_0 : DmaSem sig := 92
abbrev cc8_sem0_1 : DmaSem sig := 93
abbrev cc8_sem1_0 : DmaSem sig := 94
abbrev cc8_sem1_1 : DmaSem sig := 95
abbrev cc8_sem2_0 : DmaSem sig := 96
abbrev cc8_sem3_0 : DmaSem sig := 97
abbrev cc8_sem4_0 : DmaSem sig := 98
abbrev cc8_sem5_0 : DmaSem sig := 99
abbrev cc8_sem5_1 : DmaSem sig := 100
abbrev cc8_sem6_0 : DmaSem sig := 101
abbrev cc8_sem6_1 : DmaSem sig := 102
abbrev cc8_sem7_0 : DmaSem sig := 103
abbrev cc8_sem7_1 : DmaSem sig := 104
abbrev cc9_sem0_0 : DmaSem sig := 105
abbrev cc9_sem0_1 : DmaSem sig := 106
abbrev cc9_sem1_0 : DmaSem sig := 107
abbrev cc9_sem2_0 : DmaSem sig := 108
abbrev cc9_sem3_0 : DmaSem sig := 109
abbrev cc9_sem4_0 : DmaSem sig := 110
abbrev cc9_sem5_0 : DmaSem sig := 111
abbrev cc9_sem6_0 : DmaSem sig := 112
abbrev cc9_sem7_0 : DmaSem sig := 113
abbrev cc9_sem7_1 : DmaSem sig := 114
abbrev cc9_sem8_0 : DmaSem sig := 115
abbrev cc9_sem8_1 : DmaSem sig := 116
abbrev cc9_sem9_0 : DmaSem sig := 117
abbrev cc9_sem9_1 : DmaSem sig := 118
abbrev cc10_sem0_0 : DmaSem sig := 119
abbrev cc10_sem0_1 : DmaSem sig := 120
abbrev cc10_sem1_0 : DmaSem sig := 121
abbrev cc10_sem2_0 : DmaSem sig := 122
abbrev cc10_sem3_0 : DmaSem sig := 123
abbrev cc10_sem4_0 : DmaSem sig := 124
abbrev cc10_sem5_0 : DmaSem sig := 125
abbrev cc10_sem6_0 : DmaSem sig := 126
abbrev cc10_sem7_0 : DmaSem sig := 127
abbrev cc10_sem7_1 : DmaSem sig := 128
abbrev cc11_sem0_0 : DmaSem sig := 129
abbrev cc11_sem0_1 : DmaSem sig := 130
abbrev cc11_sem1_0 : DmaSem sig := 131
abbrev cc11_sem1_1 : DmaSem sig := 132
abbrev cc11_sem2_0 : DmaSem sig := 133
abbrev cc11_sem2_1 : DmaSem sig := 134
abbrev cc11_sem3_0 : DmaSem sig := 135
abbrev cc11_sem4_0 : DmaSem sig := 136
abbrev cc11_sem4_1 : DmaSem sig := 137
abbrev cc11_sem5_0 : DmaSem sig := 138
abbrev cc11_sem5_1 : DmaSem sig := 139
abbrev cc11_sem6_0 : DmaSem sig := 140
abbrev cc11_sem6_1 : DmaSem sig := 141
abbrev cc12_sem0_0 : DmaSem sig := 142
abbrev cc12_sem0_1 : DmaSem sig := 143
abbrev cc12_sem1_0 : DmaSem sig := 144
abbrev cc12_sem2_0 : DmaSem sig := 145
abbrev cc12_sem3_0 : DmaSem sig := 146
abbrev cc12_sem4_0 : DmaSem sig := 147
abbrev cc12_sem5_0 : DmaSem sig := 148
abbrev cc12_sem5_1 : DmaSem sig := 149

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x8x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x8x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_9 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x256 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S1x8x256 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S1x8x256 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S256x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S5000x256 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_7 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S5000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S256x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S1x8x256 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S1x8x256 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_8 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_9 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S5000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S256x256 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x256 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S5000x256 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev stage6_8 : Fin 2 → Memref sig .tc .vmem S1x8x256 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

abbrev stage6_9 : Fin 2 → Memref sig .tc .vmem S1x8x256 .f32 := fun | 0 => Memref.whole cc6_stg9_0 | 1 => Memref.whole cc6_stg9_1 | ⟨_ + 2, h⟩ => absurd h (Nat.not_lt.2 (Nat.le_add_left _ _))
abbrev sem6_9 : Fin 2 → DmaSem sig := fun | 0 => cc6_sem9_0 | 1 => cc6_sem9_1 | ⟨_ + 2, h⟩ => absurd h (Nat.not_lt.2 (Nat.le_add_left _ _))
abbrev reads6_9 : Fin grid6.rank → Bool := ![true]

abbrev grid7 : Pipeline.Grid := ⟨1, ![8], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x256 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S256x256 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x256 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S5000x256 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev grid8 : Pipeline.Grid := ⟨1, ![8], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc8_transform_7 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage8_0 : Fin 2 → Memref sig .tc .vmem S5000x256 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x256 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S1x1 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S256x256 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x256 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x256 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 2 → Memref sig .tc .vmem S1x8x256 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev stage8_7 : Fin 2 → Memref sig .tc .vmem S1x8x256 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]

abbrev grid9 : Pipeline.Grid := ⟨1, ![8], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_8 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc9_transform_9 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage9_0 : Fin 2 → Memref sig .tc .vmem S5000x256 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x256 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x256 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x256 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x256 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S256x256 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x256 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 2 → Memref sig .tc .vmem S5000x256 .f32 := fun | 0 => Memref.whole cc9_stg7_0 | 1 => Memref.whole cc9_stg7_1 | ⟨_ + 2, h⟩ => absurd h (Nat.not_lt.2 (Nat.le_add_left _ _))
abbrev sem9_7 : Fin 2 → DmaSem sig := fun | 0 => cc9_sem7_0 | 1 => cc9_sem7_1 | ⟨_ + 2, h⟩ => absurd h (Nat.not_lt.2 (Nat.le_add_left _ _))
abbrev reads9_7 : Fin grid9.rank → Bool := ![true]

abbrev stage9_8 : Fin 2 → Memref sig .tc .vmem S1x8x256 .f32 := fun | 0 => Memref.whole cc9_stg8_0 | 1 => Memref.whole cc9_stg8_1 | ⟨_ + 2, h⟩ => absurd h (Nat.not_lt.2 (Nat.le_add_left _ _))
abbrev sem9_8 : Fin 2 → DmaSem sig := fun | 0 => cc9_sem8_0 | 1 => cc9_sem8_1 | ⟨_ + 2, h⟩ => absurd h (Nat.not_lt.2 (Nat.le_add_left _ _))
abbrev reads9_8 : Fin grid9.rank → Bool := ![true]

abbrev stage9_9 : Fin 2 → Memref sig .tc .vmem S1x8x256 .f32 := fun | 0 => Memref.whole cc9_stg9_0 | 1 => Memref.whole cc9_stg9_1 | ⟨_ + 2, h⟩ => absurd h (Nat.not_lt.2 (Nat.le_add_left _ _))
abbrev sem9_9 : Fin 2 → DmaSem sig := fun | 0 => cc9_sem9_0 | 1 => cc9_sem9_1 | ⟨_ + 2, h⟩ => absurd h (Nat.not_lt.2 (Nat.le_add_left _ _))
abbrev reads9_9 : Fin grid9.rank → Bool := ![true]

abbrev grid10 : Pipeline.Grid := ⟨1, ![8], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x256 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x256 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x256 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x256 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x256 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S256x256 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S1x256 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 2 → Memref sig .tc .vmem S5000x256 .f32 := fun | 0 => Memref.whole cc10_stg7_0 | 1 => Memref.whole cc10_stg7_1 | ⟨_ + 2, h⟩ => absurd h (Nat.not_lt.2 (Nat.le_add_left _ _))
abbrev sem10_7 : Fin 2 → DmaSem sig := fun | 0 => cc10_sem7_0 | 1 => cc10_sem7_1 | ⟨_ + 2, h⟩ => absurd h (Nat.not_lt.2 (Nat.le_add_left _ _))
abbrev reads10_7 : Fin grid10.rank → Bool := ![true]

abbrev grid11 : Pipeline.Grid := ⟨1, ![8], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_5 (i : grid11.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc11_transform_6 (i : grid11.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage11_0 : Fin 2 → Memref sig .tc .vmem S5000x256 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S5000x256 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S5000x256 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 1 → Memref sig .tc .vmem S1x256 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 2 → Memref sig .tc .vmem S5000x256 .f32 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true]

abbrev stage11_5 : Fin 2 → Memref sig .tc .vmem S1x8x256 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev stage11_6 : Fin 2 → Memref sig .tc .vmem S1x8x256 .f32 := fun | 0 => Memref.whole cc11_stg6_0 | 1 => Memref.whole cc11_stg6_1 | ⟨_ + 2, h⟩ => absurd h (Nat.not_lt.2 (Nat.le_add_left _ _))
abbrev sem11_6 : Fin 2 → DmaSem sig := fun | 0 => cc11_sem6_0 | 1 => cc11_sem6_1 | ⟨_ + 2, h⟩ => absurd h (Nat.not_lt.2 (Nat.le_add_left _ _))
abbrev reads11_6 : Fin grid11.rank → Bool := ![true]

abbrev grid12 : Pipeline.Grid := ⟨1, ![8], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S5000x256 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S1x256 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x256 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x256 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x256 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 2 → Memref sig .tc .vmem S5000x256 .f32 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true]

class Facts₀ : Prop where
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  reducesTo_S200000x1_S200000_d1 : S200000x1.ReducesTo [1] S200000
  h_S_ : 0 < S_.numel
  bcast_S200000_S200000x256_0 : S200000.BroadcastsInDim S200000x256 (![0] : Fin 1 → Fin S200000x256.rank)
  bcast_S_S200000x256 : S_.BroadcastsInDim S200000x256 (![] : Fin 0 → Fin S200000x256.rank)
  slices_S2x120000_S1x120000_0_0 : S2x120000.Slices ![0, 0] S1x120000
  shapeCasts_S1x120000_S120000 : S1x120000.ShapeCasts S120000
  bcast_S_S120000 : S_.BroadcastsInDim S120000 (![] : Fin 0 → Fin S120000.rank)
  bcast_S120000_S120000x1_0 : S120000.BroadcastsInDim S120000x1 (![0] : Fin 1 → Fin S120000x1.rank)
  bcast_S_S120000x1 : S_.BroadcastsInDim S120000x1 (![] : Fin 0 → Fin S120000x1.rank)
  bcast_S1x1_S120000x1_0_1 : S1x1.BroadcastsInDim S120000x1 (![0, 1] : Fin 2 → Fin S120000x1.rank)
  reducesTo_S120000x1_S120000_d1 : S120000x1.ReducesTo [1] S120000
  bcast_S120000_S120000x256_0 : S120000.BroadcastsInDim S120000x256 (![0] : Fin 1 → Fin S120000x256.rank)
  bcast_S_S120000x256 : S_.BroadcastsInDim S120000x256 (![] : Fin 0 → Fin S120000x256.rank)
  slices_S512x256_S256x256_0_0 : S512x256.Slices ![0, 0] S256x256
  slices_S512x256_S256x256_256_0 : S512x256.Slices ![256, 0] S256x256
  shapeCasts_S256_S1x256 : S256.ShapeCasts S1x256
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  slices_S2x200000_S1x200000_1_0 : S2x200000.Slices ![1, 0] S1x200000
  bcast_S_S40000x256 : S_.BroadcastsInDim S40000x256 (![] : Fin 0 → Fin S40000x256.rank)
  slices_S2x120000_S1x120000_1_0 : S2x120000.Slices ![1, 0] S1x120000
  slices_S768x256_S256x256_0_0 : S768x256.Slices ![0, 0] S256x256
  slices_S768x256_S256x256_256_0 : S768x256.Slices ![256, 0] S256x256
  slices_S768x256_S256x256_512_0 : S768x256.Slices ![512, 0] S256x256
  shapeCasts_S1_S_ : S1.ShapeCasts S_
  shapeCasts_S_S1x1 : S_.ShapeCasts S1x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  reduces_S5000x256_S256 : S5000x256.Reduces [0] S256
  shapeCasts_S1x256_S1x1x256 : S1x256.ShapeCasts S1x1x256
  shapeCasts_S1x1x256_S1x1x256 : S1x1x256.ShapeCasts S1x1x256
  broadcasts_S1x1x256_S1x8x256 : S1x1x256.Broadcasts S1x8x256
  inb_S1x8x256_S1x8x256_0_0_0 : ∀ a, (![0, 0, 0] : Fin 3 → Nat) a + S1x8x256.size a ≤ S1x8x256.size a
  h_S1x8x256 : 0 < S1x8x256.numel
  slices_S8x8x256_S8x1x256_0_0_0 : S8x8x256.Slices ![0, 0, 0] S8x1x256
  shapeCasts_S8x1x256_S8x256 : S8x1x256.ShapeCasts S8x256
  reducesTo_S8x256_S256_d0 : S8x256.ReducesTo [0] S256
  bcast_S_S256 : S_.BroadcastsInDim S256 (![] : Fin 0 → Fin S256.rank)
  gather_S40000x256_S200000x1_S200000x256_1_0_n_n_0_1_1256_wf : GatherDims.WF S40000x256 S200000x1 S200000x256 [1] [0] [] [0] [] 1 ![1, 256]
  gather_S60000x256_S120000x1_S120000x256_1_0_n_n_0_1_1256_wf : GatherDims.WF S60000x256 S120000x1 S120000x256 [1] [0] [] [0] [] 1 ![1, 256]
  dot_S5000x256_S256x256_S5000x256_1_0_0_1_n_n_wf : DotDims.WF S5000x256 S256x256 S5000x256 [1] [0] [0] [1] [] []
  scatter_S40000x256_S200000x1_S200000x256_1_0_0_1_wf : ScatterDims.WF S40000x256 S200000x1 S200000x256 [1] [0] [0] 1
  scatter_S40000x256_S120000x1_S120000x256_1_0_0_1_wf : ScatterDims.WF S40000x256 S120000x1 S120000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S200000x256.size a
  hwx0_0 : ∀ i : grid0.Coords, EltTy.bits .f32 = 32 ∨ (Rect.block (s := S200000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x256.size a ≤ S200000x256.size a
  hwx0_1 : ∀ i : grid0.Coords, EltTy.bits .f32 = 32 ∨ (Rect.block (s := S200000x256) S5000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x256.size a ≤ S200000x256.size a
  hwx0_5 : ∀ i : grid0.Coords, EltTy.bits .f32 = 32 ∨ (Rect.block (s := S200000x256) S5000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S200000x256.size a
  hwx1_0 : ∀ i : grid1.Coords, EltTy.bits .f32 = 32 ∨ (Rect.block (s := S200000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S200000x256.size a
  hwx1_1 : ∀ i : grid1.Coords, EltTy.bits .f32 = 32 ∨ (Rect.block (s := S200000x256) S5000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x256.size a ≤ S200000x256.size a
  hwx1_5 : ∀ i : grid1.Coords, EltTy.bits .f32 = 32 ∨ (Rect.block (s := S200000x256) S5000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S40000x256.size a
  hwx2_0 : ∀ i : grid2.Coords, EltTy.bits .f32 = 32 ∨ (Rect.block (s := S40000x256) S5000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x256.size a ≤ S40000x256.size a
  hwx2_1 : ∀ i : grid2.Coords, EltTy.bits .f32 = 32 ∨ (Rect.block (s := S40000x256) S5000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x256.size a ≤ S40000x256.size a
  hwx2_5 : ∀ i : grid2.Coords, EltTy.bits .f32 = 32 ∨ (Rect.block (s := S40000x256) S5000x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x8x256.size a ≤ S8x8x256.size a
  hwx2_6 : ∀ i : grid2.Coords, EltTy.bits .f32 = 32 ∨ (Rect.block (s := S8x8x256) S1x8x256.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x8x256.size a ≤ S8x8x256.size a
  hwx2_7 : ∀ i : grid2.Coords, EltTy.bits .f32 = 32 ∨ (Rect.block (s := S8x8x256) S1x8x256.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S40000x256.size a
  hwx3_0 : ∀ i : grid3.Coords, EltTy.bits .f32 = 32 ∨ (Rect.block (s := S40000x256) S5000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x256.size a ≤ S256x256.size a
  hwx3_5 : ∀ i : grid3.Coords, EltTy.bits .f32 = 32 ∨ (Rect.block (s := S256x256) S256x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x256.size a ≤ S1x256.size a
  hwx3_6 : ∀ i : grid3.Coords, EltTy.bits .f32 = 32 ∨ (Rect.block (s := S1x256) S1x256.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x256.size a ≤ S40000x256.size a
  hwx3_7 : ∀ i : grid3.Coords, EltTy.bits .f32 = 32 ∨ (Rect.block (s := S40000x256) S5000x256.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S1x8x256.size a ≤ S8x8x256.size a
  hwx3_8 : ∀ i : grid3.Coords, EltTy.bits .f32 = 32 ∨ (Rect.block (s := S8x8x256) S1x8x256.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S1x8x256.size a ≤ S8x8x256.size a
  hwx3_9 : ∀ i : grid3.Coords, EltTy.bits .f32 = 32 ∨ (Rect.block (s := S8x8x256) S1x8x256.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x256.size a ≤ S40000x256.size a
  hwx4_0 : ∀ i : grid4.Coords, EltTy.bits .f32 = 32 ∨ (Rect.block (s := S40000x256) S5000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x256.size a ≤ S1x256.size a
  hwx4_1 : ∀ i : grid4.Coords, EltTy.bits .f32 = 32 ∨ (Rect.block (s := S1x256) S1x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S256x256.size a ≤ S256x256.size a
  hwx4_5 : ∀ i : grid4.Coords, EltTy.bits .f32 = 32 ∨ (Rect.block (s := S256x256) S256x256.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x256.size a ≤ S1x256.size a
  hwx4_6 : ∀ i : grid4.Coords, EltTy.bits .f32 = 32 ∨ (Rect.block (s := S1x256) S1x256.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x256.size a ≤ S40000x256.size a
  hwx4_7 : ∀ i : grid4.Coords, EltTy.bits .f32 = 32 ∨ (Rect.block (s := S40000x256) S5000x256.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x256.size a ≤ S40000x256.size a
  hwx5_0 : ∀ i : grid5.Coords, EltTy.bits .f32 = 32 ∨ (Rect.block (s := S40000x256) S5000x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x256.size a ≤ S40000x256.size a
  hwx5_1 : ∀ i : grid5.Coords, EltTy.bits .f32 = 32 ∨ (Rect.block (s := S40000x256) S5000x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1.size a ≤ S1x1.size a
  hwx5_2 : ∀ i : grid5.Coords, EltTy.bits .f32 = 32 ∨ (Rect.block (s := S1x1) S1x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256x256.size a ≤ S256x256.size a
  hwx5_3 : ∀ i : grid5.Coords, EltTy.bits .f32 = 32 ∨ (Rect.block (s := S256x256) S256x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x256.size a ≤ S40000x256.size a
  hwx5_5 : ∀ i : grid5.Coords, EltTy.bits .f32 = 32 ∨ (Rect.block (s := S40000x256) S5000x256.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S1x8x256.size a ≤ S8x8x256.size a
  hwx5_6 : ∀ i : grid5.Coords, EltTy.bits .f32 = 32 ∨ (Rect.block (s := S8x8x256) S1x8x256.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S1x8x256.size a ≤ S8x8x256.size a
  hwx5_7 : ∀ i : grid5.Coords, EltTy.bits .f32 = 32 ∨ (Rect.block (s := S8x8x256) S1x8x256.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x256.size a ≤ S40000x256.size a
  hwx6_0 : ∀ i : grid6.Coords, EltTy.bits .f32 = 32 ∨ (Rect.block (s := S40000x256) S5000x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x256.size a ≤ S1x256.size a
  hwx6_1 : ∀ i : grid6.Coords, EltTy.bits .f32 = 32 ∨ (Rect.block (s := S1x256) S1x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x256.size a ≤ S1x256.size a
  hwx6_2 : ∀ i : grid6.Coords, EltTy.bits .f32 = 32 ∨ (Rect.block (s := S1x256) S1x256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x256.size a ≤ S1x256.size a
  hwx6_3 : ∀ i : grid6.Coords, EltTy.bits .f32 = 32 ∨ (Rect.block (s := S1x256) S1x256.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x256.size a ≤ S1x256.size a
  hwx6_4 : ∀ i : grid6.Coords, EltTy.bits .f32 = 32 ∨ (Rect.block (s := S1x256) S1x256.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S256x256.size a ≤ S256x256.size a
  hwx6_5 : ∀ i : grid6.Coords, EltTy.bits .f32 = 32 ∨ (Rect.block (s := S256x256) S256x256.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x256.size a ≤ S1x256.size a
  hwx6_6 : ∀ i : grid6.Coords, EltTy.bits .f32 = 32 ∨ (Rect.block (s := S1x256) S1x256.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S5000x256.size a ≤ S40000x256.size a
  hwx6_7 : ∀ i : grid6.Coords, EltTy.bits .f32 = 32 ∨ (Rect.block (s := S40000x256) S5000x256.size (cc6_transform_7 i) (hinb6_7 i)).WholeWords (EltTy.packing .f32)
  hstage6_8 : ∀ j, (stage6_8 j).IsWhole
  nbuf6_8 : grid6.bufCount reads6_8 false = 2
  hreads6_8 : ∀ i i' : grid6.Coords, (∀ a, reads6_8 a = true → i a = i' a) → cc6_transform_8 i = cc6_transform_8 i'
  hinb6_8 : ∀ (i : grid6.Coords) a, (cc6_transform_8 i a + 1) * S1x8x256.size a ≤ S8x8x256.size a
  hwx6_8 : ∀ i : grid6.Coords, EltTy.bits .f32 = 32 ∨ (Rect.block (s := S8x8x256) S1x8x256.size (cc6_transform_8 i) (hinb6_8 i)).WholeWords (EltTy.packing .f32)
  hstage6_9 : ∀ j, (stage6_9 j).IsWhole
  nbuf6_9 : grid6.bufCount reads6_9 false = 2
  hreads6_9 : ∀ i i' : grid6.Coords, (∀ a, reads6_9 a = true → i a = i' a) → cc6_transform_9 i = cc6_transform_9 i'
  hinb6_9 : ∀ (i : grid6.Coords) a, (cc6_transform_9 i a + 1) * S1x8x256.size a ≤ S8x8x256.size a
  hwx6_9 : ∀ i : grid6.Coords, EltTy.bits .f32 = 32 ∨ (Rect.block (s := S8x8x256) S1x8x256.size (cc6_transform_9 i) (hinb6_9 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x256.size a ≤ S40000x256.size a
  hwx7_0 : ∀ i : grid7.Coords, EltTy.bits .f32 = 32 ∨ (Rect.block (s := S40000x256) S5000x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x256.size a ≤ S1x256.size a
  hwx7_1 : ∀ i : grid7.Coords, EltTy.bits .f32 = 32 ∨ (Rect.block (s := S1x256) S1x256.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x256.size a ≤ S1x256.size a
  hwx7_2 : ∀ i : grid7.Coords, EltTy.bits .f32 = 32 ∨ (Rect.block (s := S1x256) S1x256.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x256.size a ≤ S1x256.size a
  hwx7_3 : ∀ i : grid7.Coords, EltTy.bits .f32 = 32 ∨ (Rect.block (s := S1x256) S1x256.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x256.size a ≤ S1x256.size a
  hwx7_4 : ∀ i : grid7.Coords, EltTy.bits .f32 = 32 ∨ (Rect.block (s := S1x256) S1x256.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S256x256.size a ≤ S256x256.size a
  hwx7_5 : ∀ i : grid7.Coords, EltTy.bits .f32 = 32 ∨ (Rect.block (s := S256x256) S256x256.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x256.size a ≤ S1x256.size a
  hwx7_6 : ∀ i : grid7.Coords, EltTy.bits .f32 = 32 ∨ (Rect.block (s := S1x256) S1x256.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S5000x256.size a ≤ S40000x256.size a
  hwx7_7 : ∀ i : grid7.Coords, EltTy.bits .f32 = 32 ∨ (Rect.block (s := S40000x256) S5000x256.size (cc7_transform_7 i) (hinb7_7 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x256.size a ≤ S40000x256.size a
  hwx8_0 : ∀ i : grid8.Coords, EltTy.bits .f32 = 32 ∨ (Rect.block (s := S40000x256) S5000x256.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x256.size a ≤ S40000x256.size a
  hwx8_1 : ∀ i : grid8.Coords, EltTy.bits .f32 = 32 ∨ (Rect.block (s := S40000x256) S5000x256.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x1.size a ≤ S1x1.size a
  hwx8_2 : ∀ i : grid8.Coords, EltTy.bits .f32 = 32 ∨ (Rect.block (s := S1x1) S1x1.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S256x256.size a ≤ S256x256.size a
  hwx8_3 : ∀ i : grid8.Coords, EltTy.bits .f32 = 32 ∨ (Rect.block (s := S256x256) S256x256.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x256.size a ≤ S1x256.size a
  hwx8_4 : ∀ i : grid8.Coords, EltTy.bits .f32 = 32 ∨ (Rect.block (s := S1x256) S1x256.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x256.size a ≤ S40000x256.size a
  hwx8_5 : ∀ i : grid8.Coords, EltTy.bits .f32 = 32 ∨ (Rect.block (s := S40000x256) S5000x256.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S1x8x256.size a ≤ S8x8x256.size a
  hwx8_6 : ∀ i : grid8.Coords, EltTy.bits .f32 = 32 ∨ (Rect.block (s := S8x8x256) S1x8x256.size (cc8_transform_6 i) (hinb8_6 i)).WholeWords (EltTy.packing .f32)
  hstage8_7 : ∀ j, (stage8_7 j).IsWhole
  nbuf8_7 : grid8.bufCount reads8_7 false = 2
  hreads8_7 : ∀ i i' : grid8.Coords, (∀ a, reads8_7 a = true → i a = i' a) → cc8_transform_7 i = cc8_transform_7 i'
  hinb8_7 : ∀ (i : grid8.Coords) a, (cc8_transform_7 i a + 1) * S1x8x256.size a ≤ S8x8x256.size a
  hwx8_7 : ∀ i : grid8.Coords, EltTy.bits .f32 = 32 ∨ (Rect.block (s := S8x8x256) S1x8x256.size (cc8_transform_7 i) (hinb8_7 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x256.size a ≤ S40000x256.size a
  hwx9_0 : ∀ i : grid9.Coords, EltTy.bits .f32 = 32 ∨ (Rect.block (s := S40000x256) S5000x256.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x256.size a ≤ S1x256.size a
  hwx9_1 : ∀ i : grid9.Coords, EltTy.bits .f32 = 32 ∨ (Rect.block (s := S1x256) S1x256.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x256.size a ≤ S1x256.size a
  hwx9_2 : ∀ i : grid9.Coords, EltTy.bits .f32 = 32 ∨ (Rect.block (s := S1x256) S1x256.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x256.size a ≤ S1x256.size a
  hwx9_3 : ∀ i : grid9.Coords, EltTy.bits .f32 = 32 ∨ (Rect.block (s := S1x256) S1x256.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x256.size a ≤ S1x256.size a
  hwx9_4 : ∀ i : grid9.Coords, EltTy.bits .f32 = 32 ∨ (Rect.block (s := S1x256) S1x256.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S256x256.size a ≤ S256x256.size a
  hwx9_5 : ∀ i : grid9.Coords, EltTy.bits .f32 = 32 ∨ (Rect.block (s := S256x256) S256x256.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x256.size a ≤ S1x256.size a
  hwx9_6 : ∀ i : grid9.Coords, EltTy.bits .f32 = 32 ∨ (Rect.block (s := S1x256) S1x256.size (cc9_transform_6 i) (hinb9_6 i)).WholeWords (EltTy.packing .f32)
  hstage9_7 : ∀ j, (stage9_7 j).IsWhole
  nbuf9_7 : grid9.bufCount reads9_7 false = 2
  hreads9_7 : ∀ i i' : grid9.Coords, (∀ a, reads9_7 a = true → i a = i' a) → cc9_transform_7 i = cc9_transform_7 i'
  hinb9_7 : ∀ (i : grid9.Coords) a, (cc9_transform_7 i a + 1) * S5000x256.size a ≤ S40000x256.size a
  hwx9_7 : ∀ i : grid9.Coords, EltTy.bits .f32 = 32 ∨ (Rect.block (s := S40000x256) S5000x256.size (cc9_transform_7 i) (hinb9_7 i)).WholeWords (EltTy.packing .f32)
  hstage9_8 : ∀ j, (stage9_8 j).IsWhole
  nbuf9_8 : grid9.bufCount reads9_8 false = 2
  hreads9_8 : ∀ i i' : grid9.Coords, (∀ a, reads9_8 a = true → i a = i' a) → cc9_transform_8 i = cc9_transform_8 i'
  hinb9_8 : ∀ (i : grid9.Coords) a, (cc9_transform_8 i a + 1) * S1x8x256.size a ≤ S8x8x256.size a
  hwx9_8 : ∀ i : grid9.Coords, EltTy.bits .f32 = 32 ∨ (Rect.block (s := S8x8x256) S1x8x256.size (cc9_transform_8 i) (hinb9_8 i)).WholeWords (EltTy.packing .f32)
  hstage9_9 : ∀ j, (stage9_9 j).IsWhole
  nbuf9_9 : grid9.bufCount reads9_9 false = 2
  hreads9_9 : ∀ i i' : grid9.Coords, (∀ a, reads9_9 a = true → i a = i' a) → cc9_transform_9 i = cc9_transform_9 i'
  hinb9_9 : ∀ (i : grid9.Coords) a, (cc9_transform_9 i a + 1) * S1x8x256.size a ≤ S8x8x256.size a
  hwx9_9 : ∀ i : grid9.Coords, EltTy.bits .f32 = 32 ∨ (Rect.block (s := S8x8x256) S1x8x256.size (cc9_transform_9 i) (hinb9_9 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x256.size a ≤ S40000x256.size a
  hwx10_0 : ∀ i : grid10.Coords, EltTy.bits .f32 = 32 ∨ (Rect.block (s := S40000x256) S5000x256.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x256.size a ≤ S1x256.size a
  hwx10_1 : ∀ i : grid10.Coords, EltTy.bits .f32 = 32 ∨ (Rect.block (s := S1x256) S1x256.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x256.size a ≤ S1x256.size a
  hwx10_2 : ∀ i : grid10.Coords, EltTy.bits .f32 = 32 ∨ (Rect.block (s := S1x256) S1x256.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x256.size a ≤ S1x256.size a
  hwx10_3 : ∀ i : grid10.Coords, EltTy.bits .f32 = 32 ∨ (Rect.block (s := S1x256) S1x256.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x256.size a ≤ S1x256.size a
  hwx10_4 : ∀ i : grid10.Coords, EltTy.bits .f32 = 32 ∨ (Rect.block (s := S1x256) S1x256.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S256x256.size a ≤ S256x256.size a
  hwx10_5 : ∀ i : grid10.Coords, EltTy.bits .f32 = 32 ∨ (Rect.block (s := S256x256) S256x256.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x256.size a ≤ S1x256.size a
  hwx10_6 : ∀ i : grid10.Coords, EltTy.bits .f32 = 32 ∨ (Rect.block (s := S1x256) S1x256.size (cc10_transform_6 i) (hinb10_6 i)).WholeWords (EltTy.packing .f32)
  hstage10_7 : ∀ j, (stage10_7 j).IsWhole
  nbuf10_7 : grid10.bufCount reads10_7 false = 2
  hreads10_7 : ∀ i i' : grid10.Coords, (∀ a, reads10_7 a = true → i a = i' a) → cc10_transform_7 i = cc10_transform_7 i'
  hinb10_7 : ∀ (i : grid10.Coords) a, (cc10_transform_7 i a + 1) * S5000x256.size a ≤ S40000x256.size a
  hwx10_7 : ∀ i : grid10.Coords, EltTy.bits .f32 = 32 ∨ (Rect.block (s := S40000x256) S5000x256.size (cc10_transform_7 i) (hinb10_7 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x256.size a ≤ S40000x256.size a
  hwx11_0 : ∀ i : grid11.Coords, EltTy.bits .f32 = 32 ∨ (Rect.block (s := S40000x256) S5000x256.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S5000x256.size a ≤ S40000x256.size a
  hwx11_1 : ∀ i : grid11.Coords, EltTy.bits .f32 = 32 ∨ (Rect.block (s := S40000x256) S5000x256.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S5000x256.size a ≤ S40000x256.size a
  hwx11_2 : ∀ i : grid11.Coords, EltTy.bits .f32 = 32 ∨ (Rect.block (s := S40000x256) S5000x256.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x256.size a ≤ S1x256.size a
  hwx11_3 : ∀ i : grid11.Coords, EltTy.bits .f32 = 32 ∨ (Rect.block (s := S1x256) S1x256.size (cc11_transform_3 i) (hinb11_3 i)).WholeWords (EltTy.packing .f32)
  hstage11_4 : ∀ j, (stage11_4 j).IsWhole
  nbuf11_4 : grid11.bufCount reads11_4 false = 2
  hreads11_4 : ∀ i i' : grid11.Coords, (∀ a, reads11_4 a = true → i a = i' a) → cc11_transform_4 i = cc11_transform_4 i'
  hinb11_4 : ∀ (i : grid11.Coords) a, (cc11_transform_4 i a + 1) * S5000x256.size a ≤ S40000x256.size a
  hwx11_4 : ∀ i : grid11.Coords, EltTy.bits .f32 = 32 ∨ (Rect.block (s := S40000x256) S5000x256.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S1x8x256.size a ≤ S8x8x256.size a
  hwx11_5 : ∀ i : grid11.Coords, EltTy.bits .f32 = 32 ∨ (Rect.block (s := S8x8x256) S1x8x256.size (cc11_transform_5 i) (hinb11_5 i)).WholeWords (EltTy.packing .f32)
  hstage11_6 : ∀ j, (stage11_6 j).IsWhole
  nbuf11_6 : grid11.bufCount reads11_6 false = 2
  hreads11_6 : ∀ i i' : grid11.Coords, (∀ a, reads11_6 a = true → i a = i' a) → cc11_transform_6 i = cc11_transform_6 i'
  hinb11_6 : ∀ (i : grid11.Coords) a, (cc11_transform_6 i a + 1) * S1x8x256.size a ≤ S8x8x256.size a
  hwx11_6 : ∀ i : grid11.Coords, EltTy.bits .f32 = 32 ∨ (Rect.block (s := S8x8x256) S1x8x256.size (cc11_transform_6 i) (hinb11_6 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x256.size a ≤ S40000x256.size a
  hwx12_0 : ∀ i : grid12.Coords, EltTy.bits .f32 = 32 ∨ (Rect.block (s := S40000x256) S5000x256.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S1x256.size a ≤ S1x256.size a
  hwx12_1 : ∀ i : grid12.Coords, EltTy.bits .f32 = 32 ∨ (Rect.block (s := S1x256) S1x256.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x256.size a ≤ S1x256.size a
  hwx12_2 : ∀ i : grid12.Coords, EltTy.bits .f32 = 32 ∨ (Rect.block (s := S1x256) S1x256.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x256.size a ≤ S1x256.size a
  hwx12_3 : ∀ i : grid12.Coords, EltTy.bits .f32 = 32 ∨ (Rect.block (s := S1x256) S1x256.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x256.size a ≤ S1x256.size a
  hwx12_4 : ∀ i : grid12.Coords, EltTy.bits .f32 = 32 ∨ (Rect.block (s := S1x256) S1x256.size (cc12_transform_4 i) (hinb12_4 i)).WholeWords (EltTy.packing .f32)
  hstage12_5 : ∀ j, (stage12_5 j).IsWhole
  nbuf12_5 : grid12.bufCount reads12_5 false = 2
  hreads12_5 : ∀ i i' : grid12.Coords, (∀ a, reads12_5 a = true → i a = i' a) → cc12_transform_5 i = cc12_transform_5 i'
  hinb12_5 : ∀ (i : grid12.Coords) a, (cc12_transform_5 i a + 1) * S5000x256.size a ≤ S40000x256.size a
  hwx12_5 : ∀ i : grid12.Coords, EltTy.bits .f32 = 32 ∨ (Rect.block (s := S40000x256) S5000x256.size (cc12_transform_5 i) (hinb12_5 i)).WholeWords (EltTy.packing .f32)

variable [Facts₀]

def gather_S40000x256_S200000x1_S200000x256_1_0_n_n_0_1_1256 : GatherDims S40000x256 S200000x1 S200000x256 where
  offsetDims := [1]
  collapsedSliceDims := [0]
  operandBatchingDims := []
  startIndicesBatchingDims := []
  startIndexMap := [0]
  indexVectorDim := 1
  sliceSizes := ![1, 256]
  wf := gather_S40000x256_S200000x1_S200000x256_1_0_n_n_0_1_1256_wf
def gather_S60000x256_S120000x1_S120000x256_1_0_n_n_0_1_1256 : GatherDims S60000x256 S120000x1 S120000x256 where
  offsetDims := [1]
  collapsedSliceDims := [0]
  operandBatchingDims := []
  startIndicesBatchingDims := []
  startIndexMap := [0]
  indexVectorDim := 1
  sliceSizes := ![1, 256]
  wf := gather_S60000x256_S120000x1_S120000x256_1_0_n_n_0_1_1256_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def scatter_S40000x256_S200000x1_S200000x256_1_0_0_1 : ScatterDims S40000x256 S200000x1 S200000x256 where
  updateWindowDims := [1]
  insertedWindowDims := [0]
  scatterDimsToOperandDims := [0]
  indexVectorDim := 1
  wf := scatter_S40000x256_S200000x1_S200000x256_1_0_0_1_wf
def scatter_S40000x256_S120000x1_S120000x256_1_0_0_1 : ScatterDims S40000x256 S120000x1 S120000x256 where
  updateWindowDims := [1]
  insertedWindowDims := [0]
  scatterDimsToOperandDims := [0]
  indexVectorDim := 1
  wf := scatter_S40000x256_S120000x1_S120000x256_1_0_0_1_wf

abbrev win0_0 : Pipeline.Window sig grid0 :=
  Pipeline.Window.ofSpec (Memref.whole main_v2) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S5000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v5) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S5000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16) S5000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v21) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S5000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v37) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39_0) S5000x256.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v39_1) S1x8x256.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v39_2) S1x8x256.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v39_0) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v52) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v53) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v54) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v55) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg12) S256x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v56) S1x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v57_0) S5000x256.size cc3_transform_7 reads3_7 true false 2 stage3_7 sem3_7
    hrank3 hreads3_7 hinb3_7 nbuf3_7 (Memref.isWhole_whole _) hwx3_7 hstage3_7

abbrev win3_8 : Pipeline.Window sig grid3 :=
  Pipeline.Window.ofSpec (Memref.whole main_v57_1) S1x8x256.size cc3_transform_8 reads3_8 true false 2 stage3_8 sem3_8
    hrank3 hreads3_8 hinb3_8 nbuf3_8 (Memref.isWhole_whole _) hwx3_8 hstage3_8

abbrev win3_9 : Pipeline.Window sig grid3 :=
  Pipeline.Window.ofSpec (Memref.whole main_v57_2) S1x8x256.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v57_0) S5000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v71) S1x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v72) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v73) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v74) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v32) S256x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v75) S1x256.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v76) S5000x256.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v26) S5000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg0) S5000x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v79) S1x1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg16) S256x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v80) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v81_0) S5000x256.size cc5_transform_5 reads5_5 true false 2 stage5_5 sem5_5
    hrank5 hreads5_5 hinb5_5 nbuf5_5 (Memref.isWhole_whole _) hwx5_5 hstage5_5

abbrev win5_6 : Pipeline.Window sig grid5 :=
  Pipeline.Window.ofSpec (Memref.whole main_v81_1) S1x8x256.size cc5_transform_6 reads5_6 true false 2 stage5_6 sem5_6
    hrank5 hreads5_6 hinb5_6 nbuf5_6 (Memref.isWhole_whole _) hwx5_6 hstage5_6

abbrev win5_7 : Pipeline.Window sig grid5 :=
  Pipeline.Window.ofSpec (Memref.whole main_v81_2) S1x8x256.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v81_0) S5000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v94) S1x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v95) S1x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v96) S1x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v97) S1x256.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg20) S256x256.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v98) S1x256.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v99_0) S5000x256.size cc6_transform_7 reads6_7 true false 2 stage6_7 sem6_7
    hrank6 hreads6_7 hinb6_7 nbuf6_7 (Memref.isWhole_whole _) hwx6_7 hstage6_7

abbrev win6_8 : Pipeline.Window sig grid6 :=
  Pipeline.Window.ofSpec (Memref.whole main_v99_1) S1x8x256.size cc6_transform_8 reads6_8 true false 2 stage6_8 sem6_8
    hrank6 hreads6_8 hinb6_8 nbuf6_8 (Memref.isWhole_whole _) hwx6_8 hstage6_8

abbrev win6_9 : Pipeline.Window sig grid6 :=
  Pipeline.Window.ofSpec (Memref.whole main_v99_2) S1x8x256.size cc6_transform_9 reads6_9 true false 2 stage6_9 sem6_9
    hrank6 hreads6_9 hinb6_9 nbuf6_9 (Memref.isWhole_whole _) hwx6_9 hstage6_9

abbrev win6 : Fin 10 → Pipeline.Window sig grid6 := fun | 0 => win6_0 | 1 => win6_1 | 2 => win6_2 | 3 => win6_3 | 4 => win6_4 | 5 => win6_5 | 6 => win6_6 | 7 => win6_7 | 8 => win6_8 | 9 => win6_9 | ⟨_ + 10, h⟩ => absurd h (Nat.not_lt.2 (Nat.le_add_left _ _))
abbrev spec6 : Fin 10 → Pipeline.WinSpec sig grid6.rank := fun w => (win6 w).toWinSpec

abbrev win7_0 : Pipeline.Window sig grid7 :=
  Pipeline.Window.ofSpec (Memref.whole main_v99_0) S5000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v113) S1x256.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v114) S1x256.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v115) S1x256.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v116) S1x256.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v33) S256x256.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v117) S1x256.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v118) S5000x256.size cc7_transform_7 reads7_7 true false 2 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

abbrev win8_0 : Pipeline.Window sig grid8 :=
  Pipeline.Window.ofSpec (Memref.whole main_v31) S5000x256.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg0) S5000x256.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v121) S1x1.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_arg24) S256x256.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v122) S1x256.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v123_0) S5000x256.size cc8_transform_5 reads8_5 true false 2 stage8_5 sem8_5
    hrank8 hreads8_5 hinb8_5 nbuf8_5 (Memref.isWhole_whole _) hwx8_5 hstage8_5

abbrev win8_6 : Pipeline.Window sig grid8 :=
  Pipeline.Window.ofSpec (Memref.whole main_v123_1) S1x8x256.size cc8_transform_6 reads8_6 true false 2 stage8_6 sem8_6
    hrank8 hreads8_6 hinb8_6 nbuf8_6 (Memref.isWhole_whole _) hwx8_6 hstage8_6

abbrev win8_7 : Pipeline.Window sig grid8 :=
  Pipeline.Window.ofSpec (Memref.whole main_v123_2) S1x8x256.size cc8_transform_7 reads8_7 true false 2 stage8_7 sem8_7
    hrank8 hreads8_7 hinb8_7 nbuf8_7 (Memref.isWhole_whole _) hwx8_7 hstage8_7

abbrev win8 : Fin 8 → Pipeline.Window sig grid8 := fun | 0 => win8_0 | 1 => win8_1 | 2 => win8_2 | 3 => win8_3 | 4 => win8_4 | 5 => win8_5 | 6 => win8_6 | 7 => win8_7 | ⟨_ + 8, h⟩ => absurd h (Nat.not_lt.2 (Nat.le_add_left _ _))
abbrev spec8 : Fin 8 → Pipeline.WinSpec sig grid8.rank := fun w => (win8 w).toWinSpec

abbrev win9_0 : Pipeline.Window sig grid9 :=
  Pipeline.Window.ofSpec (Memref.whole main_v123_0) S5000x256.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v136) S1x256.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v137) S1x256.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v138) S1x256.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v139) S1x256.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_arg28) S256x256.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v140) S1x256.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_v141_0) S5000x256.size cc9_transform_7 reads9_7 true false 2 stage9_7 sem9_7
    hrank9 hreads9_7 hinb9_7 nbuf9_7 (Memref.isWhole_whole _) hwx9_7 hstage9_7

abbrev win9_8 : Pipeline.Window sig grid9 :=
  Pipeline.Window.ofSpec (Memref.whole main_v141_1) S1x8x256.size cc9_transform_8 reads9_8 true false 2 stage9_8 sem9_8
    hrank9 hreads9_8 hinb9_8 nbuf9_8 (Memref.isWhole_whole _) hwx9_8 hstage9_8

abbrev win9_9 : Pipeline.Window sig grid9 :=
  Pipeline.Window.ofSpec (Memref.whole main_v141_2) S1x8x256.size cc9_transform_9 reads9_9 true false 2 stage9_9 sem9_9
    hrank9 hreads9_9 hinb9_9 nbuf9_9 (Memref.isWhole_whole _) hwx9_9 hstage9_9

abbrev win9 : Fin 10 → Pipeline.Window sig grid9 := fun | 0 => win9_0 | 1 => win9_1 | 2 => win9_2 | 3 => win9_3 | 4 => win9_4 | 5 => win9_5 | 6 => win9_6 | 7 => win9_7 | 8 => win9_8 | 9 => win9_9 | ⟨_ + 10, h⟩ => absurd h (Nat.not_lt.2 (Nat.le_add_left _ _))
abbrev spec9 : Fin 10 → Pipeline.WinSpec sig grid9.rank := fun w => (win9 w).toWinSpec

abbrev win10_0 : Pipeline.Window sig grid10 :=
  Pipeline.Window.ofSpec (Memref.whole main_v141_0) S5000x256.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v155) S1x256.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v156) S1x256.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v157) S1x256.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v158) S1x256.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v34) S256x256.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v159) S1x256.size cc10_transform_6 reads10_6 false true 1 stage10_6 sem10_6
    hrank10 hreads10_6 hinb10_6 nbuf10_6 (Memref.isWhole_whole _) hwx10_6 hstage10_6

abbrev win10_7 : Pipeline.Window sig grid10 :=
  Pipeline.Window.ofSpec (Memref.whole main_v160) S5000x256.size cc10_transform_7 reads10_7 true false 2 stage10_7 sem10_7
    hrank10 hreads10_7 hinb10_7 nbuf10_7 (Memref.isWhole_whole _) hwx10_7 hstage10_7

abbrev win10 : Fin 8 → Pipeline.Window sig grid10 := fun | 0 => win10_0 | 1 => win10_1 | 2 => win10_2 | 3 => win10_3 | 4 => win10_4 | 5 => win10_5 | 6 => win10_6 | 7 => win10_7 | ⟨_ + 8, h⟩ => absurd h (Nat.not_lt.2 (Nat.le_add_left _ _))
abbrev spec10 : Fin 8 → Pipeline.WinSpec sig grid10.rank := fun w => (win10 w).toWinSpec

abbrev win11_0 : Pipeline.Window sig grid11 :=
  Pipeline.Window.ofSpec (Memref.whole main_v76) S5000x256.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v118) S5000x256.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v160) S5000x256.size cc11_transform_2 reads11_2 false false 2 stage11_2 sem11_2
    hrank11 hreads11_2 hinb11_2 nbuf11_2 (Memref.isWhole_whole _) hwx11_2 hstage11_2

abbrev win11_3 : Pipeline.Window sig grid11 :=
  Pipeline.Window.ofSpec (Memref.whole main_v161) S1x256.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v162_0) S5000x256.size cc11_transform_4 reads11_4 true false 2 stage11_4 sem11_4
    hrank11 hreads11_4 hinb11_4 nbuf11_4 (Memref.isWhole_whole _) hwx11_4 hstage11_4

abbrev win11_5 : Pipeline.Window sig grid11 :=
  Pipeline.Window.ofSpec (Memref.whole main_v162_1) S1x8x256.size cc11_transform_5 reads11_5 true false 2 stage11_5 sem11_5
    hrank11 hreads11_5 hinb11_5 nbuf11_5 (Memref.isWhole_whole _) hwx11_5 hstage11_5

abbrev win11_6 : Pipeline.Window sig grid11 :=
  Pipeline.Window.ofSpec (Memref.whole main_v162_2) S1x8x256.size cc11_transform_6 reads11_6 true false 2 stage11_6 sem11_6
    hrank11 hreads11_6 hinb11_6 nbuf11_6 (Memref.isWhole_whole _) hwx11_6 hstage11_6

abbrev win11 : Fin 7 → Pipeline.Window sig grid11 := fun | 0 => win11_0 | 1 => win11_1 | 2 => win11_2 | 3 => win11_3 | 4 => win11_4 | 5 => win11_5 | 6 => win11_6 | ⟨_ + 7, h⟩ => absurd h (Nat.not_lt.2 (Nat.le_add_left _ _))
abbrev spec11 : Fin 7 → Pipeline.WinSpec sig grid11.rank := fun w => (win11 w).toWinSpec

abbrev win12_0 : Pipeline.Window sig grid12 :=
  Pipeline.Window.ofSpec (Memref.whole main_v162_0) S5000x256.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v175) S1x256.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v176) S1x256.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v177) S1x256.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v178) S1x256.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v179) S5000x256.size cc12_transform_5 reads12_5 true false 2 stage12_5 sem12_5
    hrank12 hreads12_5 hinb12_5 nbuf12_5 (Memref.isWhole_whole _) hwx12_5 hstage12_5

abbrev win12 : Fin 6 → Pipeline.Window sig grid12 := fun | 0 => win12_0 | 1 => win12_1 | 2 => win12_2 | 3 => win12_3 | 4 => win12_4 | 5 => win12_5 | ⟨_ + 6, h⟩ => absurd h (Nat.not_lt.2 (Nat.le_add_left _ _))
abbrev spec12 : Fin 6 → Pipeline.WinSpec sig grid12.rank := fun w => (win12 w).toWinSpec

class Facts : Prop extends Facts₀ where

variable [Facts]
-- ==== ReferenceIdeal.lean ====
abbrev S40000x256 : Shape := ⟨2, ![40000, 256]⟩
abbrev S200000x256 : Shape := ⟨2, ![200000, 256]⟩
abbrev S60000x256 : Shape := ⟨2, ![60000, 256]⟩
abbrev S512x256 : Shape := ⟨2, ![512, 256]⟩
abbrev S256 : Shape := ⟨1, ![256]⟩
abbrev S256x256 : Shape := ⟨2, ![256, 256]⟩
abbrev S768x256 : Shape := ⟨2, ![768, 256]⟩
abbrev S1 : Shape := ⟨1, ![1]⟩
abbrev S2x200000 : Shape := ⟨2, ![2, 200000]⟩
abbrev S2x120000 : Shape := ⟨2, ![2, 120000]⟩
abbrev S1x200000 : Shape := ⟨2, ![1, 200000]⟩
abbrev S200000 : Shape := ⟨1, ![200000]⟩
abbrev S_ : Shape := ⟨0, ![]⟩
abbrev S200000x1 : Shape := ⟨2, ![200000, 1]⟩
abbrev S1x256 : Shape := ⟨2, ![1, 256]⟩
abbrev S1x120000 : Shape := ⟨2, ![1, 120000]⟩
abbrev S120000 : Shape := ⟨1, ![120000]⟩
abbrev S120000x1 : Shape := ⟨2, ![120000, 1]⟩
abbrev S120000x256 : Shape := ⟨2, ![120000, 256]⟩
abbrev S1x1 : Shape := ⟨2, ![1, 1]⟩
abbrev S40000x768 : Shape := ⟨2, ![40000, 768]⟩

abbrev nBuf : Space → Nat
  | .hbm => 396
  | .vmem => 0
  | .smem => 0
  | _ => 0

abbrev hbmTy0_0 (i : Nat) : BufTy := match i % 128 with
  | 0 => ⟨S40000x256, .f32⟩
  | 1 => ⟨S200000x256, .f32⟩
  | 2 => ⟨S200000x256, .f32⟩
  | 3 => ⟨S60000x256, .f32⟩
  | 4 => ⟨S512x256, .f32⟩
  | 5 => ⟨S256, .f32⟩
  | 6 => ⟨S512x256, .f32⟩
  | 7 => ⟨S256, .f32⟩
  | 8 => ⟨S256x256, .f32⟩
  | 9 => ⟨S256, .f32⟩
  | 10 => ⟨S256, .f32⟩
  | 11 => ⟨S256, .f32⟩
  | 12 => ⟨S256x256, .f32⟩
  | 13 => ⟨S256, .f32⟩
  | 14 => ⟨S256, .f32⟩
  | 15 => ⟨S256, .f32⟩
  | 16 => ⟨S256x256, .f32⟩
  | 17 => ⟨S256, .f32⟩
  | 18 => ⟨S256, .f32⟩
  | 19 => ⟨S256, .f32⟩
  | 20 => ⟨S256x256, .f32⟩
  | 21 => ⟨S256, .f32⟩
  | 22 => ⟨S256, .f32⟩
  | 23 => ⟨S256, .f32⟩
  | 24 => ⟨S256x256, .f32⟩
  | 25 => ⟨S256, .f32⟩
  | 26 => ⟨S256, .f32⟩
  | 27 => ⟨S256, .f32⟩
  | 28 => ⟨S256x256, .f32⟩
  | 29 => ⟨S256, .f32⟩
  | 30 => ⟨S256, .f32⟩
  | 31 => ⟨S256, .f32⟩
  | 32 => ⟨S768x256, .f32⟩
  | 33 => ⟨S256, .f32⟩
  | 34 => ⟨S256, .f32⟩
  | 35 => ⟨S256, .f32⟩
  | 36 => ⟨S1, .f32⟩
  | 37 => ⟨S1, .f32⟩
  | 38 => ⟨S1, .f32⟩
  | 39 => ⟨S2x200000, .i32⟩
  | 40 => ⟨S2x200000, .i32⟩
  | 41 => ⟨S2x120000, .i32⟩
  | 42 => ⟨S1x200000, .i32⟩
  | 43 => ⟨S200000, .i32⟩
  | 44 => ⟨S_, .i32⟩
  | 45 => ⟨S200000, .i32⟩
  | 46 => ⟨S200000, .i1⟩
  | 47 => ⟨S_, .i32⟩
  | 48 => ⟨S200000, .i32⟩
  | 49 => ⟨S200000, .i32⟩
  | 50 => ⟨S200000, .i32⟩
  | 51 => ⟨S200000x1, .i32⟩
  | 52 => ⟨S200000x256, .f32⟩
  | 53 => ⟨S256x256, .f32⟩
  | 54 => ⟨S200000x256, .f32⟩
  | 55 => ⟨S256x256, .f32⟩
  | 56 => ⟨S200000x256, .f32⟩
  | 57 => ⟨S200000x256, .f32⟩
  | 58 => ⟨S1x256, .f32⟩
  | 59 => ⟨S200000x256, .f32⟩
  | 60 => ⟨S200000x256, .f32⟩
  | 61 => ⟨S_, .f32⟩
  | 62 => ⟨S200000x256, .f32⟩
  | 63 => ⟨S200000x256, .f32⟩
  | 64 => ⟨S1x200000, .i32⟩
  | 65 => ⟨S200000, .i32⟩
  | 66 => ⟨S_, .f32⟩
  | 67 => ⟨S40000x256, .f32⟩
  | 68 => ⟨S200000x1, .i32⟩
  | 69 => ⟨S40000x256, .f32⟩
  | 70 => ⟨S1x200000, .i32⟩
  | 71 => ⟨S200000, .i32⟩
  | 72 => ⟨S_, .i32⟩
  | 73 => ⟨S200000, .i32⟩
  | 74 => ⟨S200000, .i1⟩
  | 75 => ⟨S_, .i32⟩
  | 76 => ⟨S200000, .i32⟩
  | 77 => ⟨S200000, .i32⟩
  | 78 => ⟨S200000, .i32⟩
  | 79 => ⟨S200000x1, .i32⟩
  | 80 => ⟨S200000x256, .f32⟩
  | 81 => ⟨S256x256, .f32⟩
  | 82 => ⟨S200000x256, .f32⟩
  | 83 => ⟨S256x256, .f32⟩
  | 84 => ⟨S200000x256, .f32⟩
  | 85 => ⟨S200000x256, .f32⟩
  | 86 => ⟨S1x256, .f32⟩
  | 87 => ⟨S200000x256, .f32⟩
  | 88 => ⟨S200000x256, .f32⟩
  | 89 => ⟨S_, .f32⟩
  | 90 => ⟨S200000x256, .f32⟩
  | 91 => ⟨S200000x256, .f32⟩
  | 92 => ⟨S1x200000, .i32⟩
  | 93 => ⟨S200000, .i32⟩
  | 94 => ⟨S_, .f32⟩
  | 95 => ⟨S40000x256, .f32⟩
  | 96 => ⟨S200000x1, .i32⟩
  | 97 => ⟨S40000x256, .f32⟩
  | 98 => ⟨S1x120000, .i32⟩
  | 99 => ⟨S120000, .i32⟩
  | 100 => ⟨S_, .i32⟩
  | 101 => ⟨S120000, .i32⟩
  | 102 => ⟨S120000, .i1⟩
  | 103 => ⟨S_, .i32⟩
  | 104 => ⟨S120000, .i32⟩
  | 105 => ⟨S120000, .i32⟩
  | 106 => ⟨S120000, .i32⟩
  | 107 => ⟨S120000x1, .i32⟩
  | 108 => ⟨S120000x256, .f32⟩
  | 109 => ⟨S1x120000, .i32⟩
  | 110 => ⟨S120000, .i32⟩
  | 111 => ⟨S_, .f32⟩
  | 112 => ⟨S40000x256, .f32⟩
  | 113 => ⟨S120000x1, .i32⟩
  | 114 => ⟨S40000x256, .f32⟩
  | 115 => ⟨S_, .f32⟩
  | 116 => ⟨S1, .f32⟩
  | 117 => ⟨S1, .f32⟩
  | 118 => ⟨S1x1, .f32⟩
  | 119 => ⟨S40000x256, .f32⟩
  | 120 => ⟨S40000x256, .f32⟩
  | 121 => ⟨S40000x256, .f32⟩
  | 122 => ⟨S40000x256, .f32⟩
  | 123 => ⟨S1x256, .f32⟩
  | 124 => ⟨S40000x256, .f32⟩
  | 125 => ⟨S40000x256, .f32⟩
  | 126 => ⟨S_, .f32⟩
  | 127 => ⟨S256, .f32⟩
  | _ => ⟨S40000x256, .f32⟩

abbrev hbmTy0_1 (i : Nat) : BufTy := match i % 128 with
  | 0 => ⟨S_, .f32⟩
  | 1 => ⟨S256, .f32⟩
  | 2 => ⟨S256, .f32⟩
  | 3 => ⟨S1x256, .f32⟩
  | 4 => ⟨S40000x256, .f32⟩
  | 5 => ⟨S40000x256, .f32⟩
  | 6 => ⟨S40000x256, .f32⟩
  | 7 => ⟨S_, .f32⟩
  | 8 => ⟨S256, .f32⟩
  | 9 => ⟨S_, .f32⟩
  | 10 => ⟨S256, .f32⟩
  | 11 => ⟨S256, .f32⟩
  | 12 => ⟨S1x256, .f32⟩
  | 13 => ⟨S40000x256, .f32⟩
  | 14 => ⟨S40000x256, .f32⟩
  | 15 => ⟨S1x256, .f32⟩
  | 16 => ⟨S40000x256, .f32⟩
  | 17 => ⟨S40000x256, .f32⟩
  | 18 => ⟨S_, .f32⟩
  | 19 => ⟨S256, .f32⟩
  | 20 => ⟨S256, .f32⟩
  | 21 => ⟨S256, .f32⟩
  | 22 => ⟨S1x256, .f32⟩
  | 23 => ⟨S40000x256, .f32⟩
  | 24 => ⟨S40000x256, .f32⟩
  | 25 => ⟨S1x256, .f32⟩
  | 26 => ⟨S40000x256, .f32⟩
  | 27 => ⟨S40000x256, .f32⟩
  | 28 => ⟨S_, .f32⟩
  | 29 => ⟨S40000x256, .f32⟩
  | 30 => ⟨S40000x256, .f32⟩
  | 31 => ⟨S40000x256, .f32⟩
  | 32 => ⟨S1x256, .f32⟩
  | 33 => ⟨S40000x256, .f32⟩
  | 34 => ⟨S40000x256, .f32⟩
  | 35 => ⟨S_, .f32⟩
  | 36 => ⟨S256, .f32⟩
  | 37 => ⟨S_, .f32⟩
  | 38 => ⟨S256, .f32⟩
  | 39 => ⟨S256, .f32⟩
  | 40 => ⟨S1x256, .f32⟩
  | 41 => ⟨S40000x256, .f32⟩
  | 42 => ⟨S40000x256, .f32⟩
  | 43 => ⟨S40000x256, .f32⟩
  | 44 => ⟨S_, .f32⟩
  | 45 => ⟨S256, .f32⟩
  | 46 => ⟨S_, .f32⟩
  | 47 => ⟨S256, .f32⟩
  | 48 => ⟨S256, .f32⟩
  | 49 => ⟨S1x256, .f32⟩
  | 50 => ⟨S40000x256, .f32⟩
  | 51 => ⟨S40000x256, .f32⟩
  | 52 => ⟨S1x256, .f32⟩
  | 53 => ⟨S40000x256, .f32⟩
  | 54 => ⟨S40000x256, .f32⟩
  | 55 => ⟨S_, .f32⟩
  | 56 => ⟨S256, .f32⟩
  | 57 => ⟨S256, .f32⟩
  | 58 => ⟨S256, .f32⟩
  | 59 => ⟨S1x256, .f32⟩
  | 60 => ⟨S40000x256, .f32⟩
  | 61 => ⟨S40000x256, .f32⟩
  | 62 => ⟨S1x256, .f32⟩
  | 63 => ⟨S40000x256, .f32⟩
  | 64 => ⟨S40000x256, .f32⟩
  | 65 => ⟨S_, .f32⟩
  | 66 => ⟨S40000x256, .f32⟩
  | 67 => ⟨S40000x256, .f32⟩
  | 68 => ⟨S_, .f32⟩
  | 69 => ⟨S1, .f32⟩
  | 70 => ⟨S1, .f32⟩
  | 71 => ⟨S1x1, .f32⟩
  | 72 => ⟨S40000x256, .f32⟩
  | 73 => ⟨S40000x256, .f32⟩
  | 74 => ⟨S40000x256, .f32⟩
  | 75 => ⟨S40000x256, .f32⟩
  | 76 => ⟨S1x256, .f32⟩
  | 77 => ⟨S40000x256, .f32⟩
  | 78 => ⟨S40000x256, .f32⟩
  | 79 => ⟨S_, .f32⟩
  | 80 => ⟨S256, .f32⟩
  | 81 => ⟨S_, .f32⟩
  | 82 => ⟨S256, .f32⟩
  | 83 => ⟨S256, .f32⟩
  | 84 => ⟨S1x256, .f32⟩
  | 85 => ⟨S40000x256, .f32⟩
  | 86 => ⟨S40000x256, .f32⟩
  | 87 => ⟨S40000x256, .f32⟩
  | 88 => ⟨S_, .f32⟩
  | 89 => ⟨S256, .f32⟩
  | 90 => ⟨S_, .f32⟩
  | 91 => ⟨S256, .f32⟩
  | 92 => ⟨S256, .f32⟩
  | 93 => ⟨S1x256, .f32⟩
  | 94 => ⟨S40000x256, .f32⟩
  | 95 => ⟨S40000x256, .f32⟩
  | 96 => ⟨S1x256, .f32⟩
  | 97 => ⟨S40000x256, .f32⟩
  | 98 => ⟨S40000x256, .f32⟩
  | 99 => ⟨S_, .f32⟩
  | 100 => ⟨S256, .f32⟩
  | 101 => ⟨S256, .f32⟩
  | 102 => ⟨S256, .f32⟩
  | 103 => ⟨S1x256, .f32⟩
  | 104 => ⟨S40000x256, .f32⟩
  | 105 => ⟨S40000x256, .f32⟩
  | 106 => ⟨S1x256, .f32⟩
  | 107 => ⟨S40000x256, .f32⟩
  | 108 => ⟨S40000x256, .f32⟩
  | 109 => ⟨S_, .f32⟩
  | 110 => ⟨S40000x256, .f32⟩
  | 111 => ⟨S40000x256, .f32⟩
  | 112 => ⟨S40000x256, .f32⟩
  | 113 => ⟨S1x256, .f32⟩
  | 114 => ⟨S40000x256, .f32⟩
  | 115 => ⟨S40000x256, .f32⟩
  | 116 => ⟨S_, .f32⟩
  | 117 => ⟨S256, .f32⟩
  | 118 => ⟨S_, .f32⟩
  | 119 => ⟨S256, .f32⟩
  | 120 => ⟨S256, .f32⟩
  | 121 => ⟨S1x256, .f32⟩
  | 122 => ⟨S40000x256, .f32⟩
  | 123 => ⟨S40000x256, .f32⟩
  | 124 => ⟨S40000x256, .f32⟩
  | 125 => ⟨S_, .f32⟩
  | 126 => ⟨S256, .f32⟩
  | 127 => ⟨S_, .f32⟩
  | _ => ⟨S40000x256, .f32⟩

abbrev hbmTy0_2 (i : Nat) : BufTy := match i % 128 with
  | 0 => ⟨S256, .f32⟩
  | 1 => ⟨S256, .f32⟩
  | 2 => ⟨S1x256, .f32⟩
  | 3 => ⟨S40000x256, .f32⟩
  | 4 => ⟨S40000x256, .f32⟩
  | 5 => ⟨S1x256, .f32⟩
  | 6 => ⟨S40000x256, .f32⟩
  | 7 => ⟨S40000x256, .f32⟩
  | 8 => ⟨S_, .f32⟩
  | 9 => ⟨S256, .f32⟩
  | 10 => ⟨S256, .f32⟩
  | 11 => ⟨S256, .f32⟩
  | 12 => ⟨S1x256, .f32⟩
  | 13 => ⟨S40000x256, .f32⟩
  | 14 => ⟨S40000x256, .f32⟩
  | 15 => ⟨S1x256, .f32⟩
  | 16 => ⟨S40000x256, .f32⟩
  | 17 => ⟨S40000x256, .f32⟩
  | 18 => ⟨S_, .f32⟩
  | 19 => ⟨S40000x256, .f32⟩
  | 20 => ⟨S40000x256, .f32⟩
  | 21 => ⟨S_, .f32⟩
  | 22 => ⟨S1, .f32⟩
  | 23 => ⟨S1, .f32⟩
  | 24 => ⟨S1x1, .f32⟩
  | 25 => ⟨S40000x256, .f32⟩
  | 26 => ⟨S40000x256, .f32⟩
  | 27 => ⟨S40000x256, .f32⟩
  | 28 => ⟨S40000x256, .f32⟩
  | 29 => ⟨S1x256, .f32⟩
  | 30 => ⟨S40000x256, .f32⟩
  | 31 => ⟨S40000x256, .f32⟩
  | 32 => ⟨S_, .f32⟩
  | 33 => ⟨S256, .f32⟩
  | 34 => ⟨S_, .f32⟩
  | 35 => ⟨S256, .f32⟩
  | 36 => ⟨S256, .f32⟩
  | 37 => ⟨S1x256, .f32⟩
  | 38 => ⟨S40000x256, .f32⟩
  | 39 => ⟨S40000x256, .f32⟩
  | 40 => ⟨S40000x256, .f32⟩
  | 41 => ⟨S_, .f32⟩
  | 42 => ⟨S256, .f32⟩
  | 43 => ⟨S_, .f32⟩
  | 44 => ⟨S256, .f32⟩
  | 45 => ⟨S256, .f32⟩
  | 46 => ⟨S1x256, .f32⟩
  | 47 => ⟨S40000x256, .f32⟩
  | 48 => ⟨S40000x256, .f32⟩
  | 49 => ⟨S1x256, .f32⟩
  | 50 => ⟨S40000x256, .f32⟩
  | 51 => ⟨S40000x256, .f32⟩
  | 52 => ⟨S_, .f32⟩
  | 53 => ⟨S256, .f32⟩
  | 54 => ⟨S256, .f32⟩
  | 55 => ⟨S256, .f32⟩
  | 56 => ⟨S1x256, .f32⟩
  | 57 => ⟨S40000x256, .f32⟩
  | 58 => ⟨S40000x256, .f32⟩
  | 59 => ⟨S1x256, .f32⟩
  | 60 => ⟨S40000x256, .f32⟩
  | 61 => ⟨S40000x256, .f32⟩
  | 62 => ⟨S_, .f32⟩
  | 63 => ⟨S40000x256, .f32⟩
  | 64 => ⟨S40000x256, .f32⟩
  | 65 => ⟨S40000x256, .f32⟩
  | 66 => ⟨S1x256, .f32⟩
  | 67 => ⟨S40000x256, .f32⟩
  | 68 => ⟨S40000x256, .f32⟩
  | 69 => ⟨S_, .f32⟩
  | 70 => ⟨S256, .f32⟩
  | 71 => ⟨S_, .f32⟩
  | 72 => ⟨S256, .f32⟩
  | 73 => ⟨S256, .f32⟩
  | 74 => ⟨S1x256, .f32⟩
  | 75 => ⟨S40000x256, .f32⟩
  | 76 => ⟨S40000x256, .f32⟩
  | 77 => ⟨S40000x256, .f32⟩
  | 78 => ⟨S_, .f32⟩
  | 79 => ⟨S256, .f32⟩
  | 80 => ⟨S_, .f32⟩
  | 81 => ⟨S256, .f32⟩
  | 82 => ⟨S256, .f32⟩
  | 83 => ⟨S1x256, .f32⟩
  | 84 => ⟨S40000x256, .f32⟩
  | 85 => ⟨S40000x256, .f32⟩
  | 86 => ⟨S1x256, .f32⟩
  | 87 => ⟨S40000x256, .f32⟩
  | 88 => ⟨S40000x256, .f32⟩
  | 89 => ⟨S_, .f32⟩
  | 90 => ⟨S256, .f32⟩
  | 91 => ⟨S256, .f32⟩
  | 92 => ⟨S256, .f32⟩
  | 93 => ⟨S1x256, .f32⟩
  | 94 => ⟨S40000x256, .f32⟩
  | 95 => ⟨S40000x256, .f32⟩
  | 96 => ⟨S1x256, .f32⟩
  | 97 => ⟨S40000x256, .f32⟩
  | 98 => ⟨S40000x256, .f32⟩
  | 99 => ⟨S_, .f32⟩
  | 100 => ⟨S40000x256, .f32⟩
  | 101 => ⟨S40000x256, .f32⟩
  | 102 => ⟨S40000x768, .f32⟩
  | 103 => ⟨S40000x256, .f32⟩
  | 104 => ⟨S1x256, .f32⟩
  | 105 => ⟨S40000x256, .f32⟩
  | 106 => ⟨S40000x256, .f32⟩
  | 107 => ⟨S_, .f32⟩
  | 108 => ⟨S256, .f32⟩
  | 109 => ⟨S_, .f32⟩
  | 110 => ⟨S256, .f32⟩
  | 111 => ⟨S256, .f32⟩
  | 112 => ⟨S1x256, .f32⟩
  | 113 => ⟨S40000x256, .f32⟩
  | 114 => ⟨S40000x256, .f32⟩
  | 115 => ⟨S40000x256, .f32⟩
  | 116 => ⟨S_, .f32⟩
  | 117 => ⟨S256, .f32⟩
  | 118 => ⟨S_, .f32⟩
  | 119 => ⟨S256, .f32⟩
  | 120 => ⟨S256, .f32⟩
  | 121 => ⟨S1x256, .f32⟩
  | 122 => ⟨S40000x256, .f32⟩
  | 123 => ⟨S40000x256, .f32⟩
  | 124 => ⟨S1x256, .f32⟩
  | 125 => ⟨S40000x256, .f32⟩
  | 126 => ⟨S40000x256, .f32⟩
  | 127 => ⟨S_, .f32⟩
  | _ => ⟨S40000x256, .f32⟩

abbrev hbmTy0_3 (i : Nat) : BufTy := match i % 128 with
  | 0 => ⟨S256, .f32⟩
  | 1 => ⟨S256, .f32⟩
  | 2 => ⟨S256, .f32⟩
  | 3 => ⟨S1x256, .f32⟩
  | 4 => ⟨S40000x256, .f32⟩
  | 5 => ⟨S40000x256, .f32⟩
  | 6 => ⟨S1x256, .f32⟩
  | 7 => ⟨S40000x256, .f32⟩
  | 8 => ⟨S40000x256, .f32⟩
  | 9 => ⟨S_, .f32⟩
  | 10 => ⟨S40000x256, .f32⟩
  | 11 => ⟨S40000x256, .f32⟩
  | _ => ⟨S40000x256, .f32⟩

abbrev hbmTy (i : Nat) : BufTy := match i / 128 with
  | 0 => hbmTy0_0 i
  | 1 => hbmTy0_1 i
  | 2 => hbmTy0_2 i
  | 3 => hbmTy0_3 i
  | _ => ⟨S40000x256, .f32⟩

abbrev bufTy : (tb : Table) → Fin (tcTables nBuf tb) → BufTy
  | .hbm, ⟨i, _⟩ => hbmTy i
  | _, _ => ⟨S40000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_v0 : Ref sig .tc := ⟨.hbm, 42, rfl⟩
abbrev main_v1 : Ref sig .tc := ⟨.hbm, 43, rfl⟩
abbrev main_c : Ref sig .tc := ⟨.hbm, 44, rfl⟩
abbrev main_v2 : Ref sig .tc := ⟨.hbm, 45, rfl⟩
abbrev main_v3 : Ref sig .tc := ⟨.hbm, 46, rfl⟩
abbrev main_c_0 : Ref sig .tc := ⟨.hbm, 47, rfl⟩
abbrev main_v4 : Ref sig .tc := ⟨.hbm, 48, rfl⟩
abbrev main_v5 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_call0_cst : Ref sig .tc := ⟨.hbm, 61, rfl⟩
abbrev main_call0_v0 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_cst : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_c_1 : Ref sig .tc := ⟨.hbm, 72, rfl⟩
abbrev main_v25 : Ref sig .tc := ⟨.hbm, 73, rfl⟩
abbrev main_v26 : Ref sig .tc := ⟨.hbm, 74, rfl⟩
abbrev main_c_2 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_call1_cst : Ref sig .tc := ⟨.hbm, 89, rfl⟩
abbrev main_call1_v0 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_cst_3 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_c_4 : Ref sig .tc := ⟨.hbm, 100, rfl⟩
abbrev main_v48 : Ref sig .tc := ⟨.hbm, 101, rfl⟩
abbrev main_v49 : Ref sig .tc := ⟨.hbm, 102, rfl⟩
abbrev main_c_5 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_cst_6 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_cst_7 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_cst_8 : Ref sig .tc := ⟨.hbm, 126, rfl⟩
abbrev main_v70 : Ref sig .tc := ⟨.hbm, 127, rfl⟩
abbrev main_cst_9 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_cst_10 : Ref sig .tc := ⟨.hbm, 135, rfl⟩
abbrev main_v77 : Ref sig .tc := ⟨.hbm, 136, rfl⟩
abbrev main_cst_11 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_cst_12 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_call2_cst : Ref sig .tc := ⟨.hbm, 156, rfl⟩
abbrev main_call2_v0 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_cst_13 : Ref sig .tc := ⟨.hbm, 163, rfl⟩
abbrev main_v100 : Ref sig .tc := ⟨.hbm, 164, rfl⟩
abbrev main_cst_14 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_cst_15 : Ref sig .tc := ⟨.hbm, 172, rfl⟩
abbrev main_v107 : Ref sig .tc := ⟨.hbm, 173, rfl⟩
abbrev main_cst_16 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_cst_17 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_call3_cst : Ref sig .tc := ⟨.hbm, 193, rfl⟩
abbrev main_call3_v0 : Ref sig .tc := ⟨.hbm, 194, rfl⟩
abbrev main_v125 : Ref sig .tc := ⟨.hbm, 195, rfl⟩
abbrev main_cst_18 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_cst_19 : Ref sig .tc := ⟨.hbm, 207, rfl⟩
abbrev main_v136 : Ref sig .tc := ⟨.hbm, 208, rfl⟩
abbrev main_cst_20 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_v141 : Ref sig .tc := ⟨.hbm, 214, rfl⟩
abbrev main_v142 : Ref sig .tc := ⟨.hbm, 215, rfl⟩
abbrev main_cst_21 : Ref sig .tc := ⟨.hbm, 216, rfl⟩
abbrev main_v143 : Ref sig .tc := ⟨.hbm, 217, rfl⟩
abbrev main_cst_22 : Ref sig .tc := ⟨.hbm, 218, rfl⟩
abbrev main_v144 : Ref sig .tc := ⟨.hbm, 219, rfl⟩
abbrev main_v145 : Ref sig .tc := ⟨.hbm, 220, rfl⟩
abbrev main_v146 : Ref sig .tc := ⟨.hbm, 221, rfl⟩
abbrev main_v147 : Ref sig .tc := ⟨.hbm, 222, rfl⟩
abbrev main_v148 : Ref sig .tc := ⟨.hbm, 223, rfl⟩
abbrev main_v149 : Ref sig .tc := ⟨.hbm, 224, rfl⟩
abbrev main_v150 : Ref sig .tc := ⟨.hbm, 225, rfl⟩
abbrev main_v151 : Ref sig .tc := ⟨.hbm, 226, rfl⟩
abbrev main_cst_23 : Ref sig .tc := ⟨.hbm, 227, rfl⟩
abbrev main_v152 : Ref sig .tc := ⟨.hbm, 228, rfl⟩
abbrev main_v153 : Ref sig .tc := ⟨.hbm, 229, rfl⟩
abbrev main_v154 : Ref sig .tc := ⟨.hbm, 230, rfl⟩
abbrev main_v155 : Ref sig .tc := ⟨.hbm, 231, rfl⟩
abbrev main_v156 : Ref sig .tc := ⟨.hbm, 232, rfl⟩
abbrev main_v157 : Ref sig .tc := ⟨.hbm, 233, rfl⟩
abbrev main_v158 : Ref sig .tc := ⟨.hbm, 234, rfl⟩
abbrev main_v159 : Ref sig .tc := ⟨.hbm, 235, rfl⟩
abbrev main_v160 : Ref sig .tc := ⟨.hbm, 236, rfl⟩
abbrev main_call4_cst : Ref sig .tc := ⟨.hbm, 237, rfl⟩
abbrev main_call4_v0 : Ref sig .tc := ⟨.hbm, 238, rfl⟩
abbrev main_v161 : Ref sig .tc := ⟨.hbm, 239, rfl⟩
abbrev main_v162 : Ref sig .tc := ⟨.hbm, 240, rfl⟩
abbrev main_v163 : Ref sig .tc := ⟨.hbm, 241, rfl⟩
abbrev main_v164 : Ref sig .tc := ⟨.hbm, 242, rfl⟩
abbrev main_v165 : Ref sig .tc := ⟨.hbm, 243, rfl⟩
abbrev main_cst_24 : Ref sig .tc := ⟨.hbm, 244, rfl⟩
abbrev main_v166 : Ref sig .tc := ⟨.hbm, 245, rfl⟩
abbrev main_cst_25 : Ref sig .tc := ⟨.hbm, 246, rfl⟩
abbrev main_v167 : Ref sig .tc := ⟨.hbm, 247, rfl⟩
abbrev main_v168 : Ref sig .tc := ⟨.hbm, 248, rfl⟩
abbrev main_v169 : Ref sig .tc := ⟨.hbm, 249, rfl⟩
abbrev main_v170 : Ref sig .tc := ⟨.hbm, 250, rfl⟩
abbrev main_v171 : Ref sig .tc := ⟨.hbm, 251, rfl⟩
abbrev main_v172 : Ref sig .tc := ⟨.hbm, 252, rfl⟩
abbrev main_cst_26 : Ref sig .tc := ⟨.hbm, 253, rfl⟩
abbrev main_v173 : Ref sig .tc := ⟨.hbm, 254, rfl⟩
abbrev main_cst_27 : Ref sig .tc := ⟨.hbm, 255, rfl⟩
abbrev main_v174 : Ref sig .tc := ⟨.hbm, 256, rfl⟩
abbrev main_v175 : Ref sig .tc := ⟨.hbm, 257, rfl⟩
abbrev main_v176 : Ref sig .tc := ⟨.hbm, 258, rfl⟩
abbrev main_v177 : Ref sig .tc := ⟨.hbm, 259, rfl⟩
abbrev main_v178 : Ref sig .tc := ⟨.hbm, 260, rfl⟩
abbrev main_v179 : Ref sig .tc := ⟨.hbm, 261, rfl⟩
abbrev main_v180 : Ref sig .tc := ⟨.hbm, 262, rfl⟩
abbrev main_v181 : Ref sig .tc := ⟨.hbm, 263, rfl⟩
abbrev main_cst_28 : Ref sig .tc := ⟨.hbm, 264, rfl⟩
abbrev main_v182 : Ref sig .tc := ⟨.hbm, 265, rfl⟩
abbrev main_v183 : Ref sig .tc := ⟨.hbm, 266, rfl⟩
abbrev main_v184 : Ref sig .tc := ⟨.hbm, 267, rfl⟩
abbrev main_v185 : Ref sig .tc := ⟨.hbm, 268, rfl⟩
abbrev main_v186 : Ref sig .tc := ⟨.hbm, 269, rfl⟩
abbrev main_v187 : Ref sig .tc := ⟨.hbm, 270, rfl⟩
abbrev main_v188 : Ref sig .tc := ⟨.hbm, 271, rfl⟩
abbrev main_v189 : Ref sig .tc := ⟨.hbm, 272, rfl⟩
abbrev main_v190 : Ref sig .tc := ⟨.hbm, 273, rfl⟩
abbrev main_call5_cst : Ref sig .tc := ⟨.hbm, 274, rfl⟩
abbrev main_call5_v0 : Ref sig .tc := ⟨.hbm, 275, rfl⟩
abbrev main_v191 : Ref sig .tc := ⟨.hbm, 276, rfl⟩
abbrev main_cst_29 : Ref sig .tc := ⟨.hbm, 277, rfl⟩
abbrev main_v192 : Ref sig .tc := ⟨.hbm, 278, rfl⟩
abbrev main_v193 : Ref sig .tc := ⟨.hbm, 279, rfl⟩
abbrev main_v194 : Ref sig .tc := ⟨.hbm, 280, rfl⟩
abbrev main_v195 : Ref sig .tc := ⟨.hbm, 281, rfl⟩
abbrev main_v196 : Ref sig .tc := ⟨.hbm, 282, rfl⟩
abbrev main_v197 : Ref sig .tc := ⟨.hbm, 283, rfl⟩
abbrev main_v198 : Ref sig .tc := ⟨.hbm, 284, rfl⟩
abbrev main_v199 : Ref sig .tc := ⟨.hbm, 285, rfl⟩
abbrev main_v200 : Ref sig .tc := ⟨.hbm, 286, rfl⟩
abbrev main_v201 : Ref sig .tc := ⟨.hbm, 287, rfl⟩
abbrev main_cst_30 : Ref sig .tc := ⟨.hbm, 288, rfl⟩
abbrev main_v202 : Ref sig .tc := ⟨.hbm, 289, rfl⟩
abbrev main_cst_31 : Ref sig .tc := ⟨.hbm, 290, rfl⟩
abbrev main_v203 : Ref sig .tc := ⟨.hbm, 291, rfl⟩
abbrev main_v204 : Ref sig .tc := ⟨.hbm, 292, rfl⟩
abbrev main_v205 : Ref sig .tc := ⟨.hbm, 293, rfl⟩
abbrev main_v206 : Ref sig .tc := ⟨.hbm, 294, rfl⟩
abbrev main_v207 : Ref sig .tc := ⟨.hbm, 295, rfl⟩
abbrev main_v208 : Ref sig .tc := ⟨.hbm, 296, rfl⟩
abbrev main_cst_32 : Ref sig .tc := ⟨.hbm, 297, rfl⟩
abbrev main_v209 : Ref sig .tc := ⟨.hbm, 298, rfl⟩
abbrev main_cst_33 : Ref sig .tc := ⟨.hbm, 299, rfl⟩
abbrev main_v210 : Ref sig .tc := ⟨.hbm, 300, rfl⟩
abbrev main_v211 : Ref sig .tc := ⟨.hbm, 301, rfl⟩
abbrev main_v212 : Ref sig .tc := ⟨.hbm, 302, rfl⟩
abbrev main_v213 : Ref sig .tc := ⟨.hbm, 303, rfl⟩
abbrev main_v214 : Ref sig .tc := ⟨.hbm, 304, rfl⟩
abbrev main_v215 : Ref sig .tc := ⟨.hbm, 305, rfl⟩
abbrev main_v216 : Ref sig .tc := ⟨.hbm, 306, rfl⟩
abbrev main_v217 : Ref sig .tc := ⟨.hbm, 307, rfl⟩
abbrev main_cst_34 : Ref sig .tc := ⟨.hbm, 308, rfl⟩
abbrev main_v218 : Ref sig .tc := ⟨.hbm, 309, rfl⟩
abbrev main_v219 : Ref sig .tc := ⟨.hbm, 310, rfl⟩
abbrev main_v220 : Ref sig .tc := ⟨.hbm, 311, rfl⟩
abbrev main_v221 : Ref sig .tc := ⟨.hbm, 312, rfl⟩
abbrev main_v222 : Ref sig .tc := ⟨.hbm, 313, rfl⟩
abbrev main_v223 : Ref sig .tc := ⟨.hbm, 314, rfl⟩
abbrev main_v224 : Ref sig .tc := ⟨.hbm, 315, rfl⟩
abbrev main_v225 : Ref sig .tc := ⟨.hbm, 316, rfl⟩
abbrev main_v226 : Ref sig .tc := ⟨.hbm, 317, rfl⟩
abbrev main_call6_cst : Ref sig .tc := ⟨.hbm, 318, rfl⟩
abbrev main_call6_v0 : Ref sig .tc := ⟨.hbm, 319, rfl⟩
abbrev main_v227 : Ref sig .tc := ⟨.hbm, 320, rfl⟩
abbrev main_v228 : Ref sig .tc := ⟨.hbm, 321, rfl⟩
abbrev main_v229 : Ref sig .tc := ⟨.hbm, 322, rfl⟩
abbrev main_v230 : Ref sig .tc := ⟨.hbm, 323, rfl⟩
abbrev main_v231 : Ref sig .tc := ⟨.hbm, 324, rfl⟩
abbrev main_cst_35 : Ref sig .tc := ⟨.hbm, 325, rfl⟩
abbrev main_v232 : Ref sig .tc := ⟨.hbm, 326, rfl⟩
abbrev main_cst_36 : Ref sig .tc := ⟨.hbm, 327, rfl⟩
abbrev main_v233 : Ref sig .tc := ⟨.hbm, 328, rfl⟩
abbrev main_v234 : Ref sig .tc := ⟨.hbm, 329, rfl⟩
abbrev main_v235 : Ref sig .tc := ⟨.hbm, 330, rfl⟩
abbrev main_v236 : Ref sig .tc := ⟨.hbm, 331, rfl⟩
abbrev main_v237 : Ref sig .tc := ⟨.hbm, 332, rfl⟩
abbrev main_v238 : Ref sig .tc := ⟨.hbm, 333, rfl⟩
abbrev main_cst_37 : Ref sig .tc := ⟨.hbm, 334, rfl⟩
abbrev main_v239 : Ref sig .tc := ⟨.hbm, 335, rfl⟩
abbrev main_cst_38 : Ref sig .tc := ⟨.hbm, 336, rfl⟩
abbrev main_v240 : Ref sig .tc := ⟨.hbm, 337, rfl⟩
abbrev main_v241 : Ref sig .tc := ⟨.hbm, 338, rfl⟩
abbrev main_v242 : Ref sig .tc := ⟨.hbm, 339, rfl⟩
abbrev main_v243 : Ref sig .tc := ⟨.hbm, 340, rfl⟩
abbrev main_v244 : Ref sig .tc := ⟨.hbm, 341, rfl⟩
abbrev main_v245 : Ref sig .tc := ⟨.hbm, 342, rfl⟩
abbrev main_v246 : Ref sig .tc := ⟨.hbm, 343, rfl⟩
abbrev main_v247 : Ref sig .tc := ⟨.hbm, 344, rfl⟩
abbrev main_cst_39 : Ref sig .tc := ⟨.hbm, 345, rfl⟩
abbrev main_v248 : Ref sig .tc := ⟨.hbm, 346, rfl⟩
abbrev main_v249 : Ref sig .tc := ⟨.hbm, 347, rfl⟩
abbrev main_v250 : Ref sig .tc := ⟨.hbm, 348, rfl⟩
abbrev main_v251 : Ref sig .tc := ⟨.hbm, 349, rfl⟩
abbrev main_v252 : Ref sig .tc := ⟨.hbm, 350, rfl⟩
abbrev main_v253 : Ref sig .tc := ⟨.hbm, 351, rfl⟩
abbrev main_v254 : Ref sig .tc := ⟨.hbm, 352, rfl⟩
abbrev main_v255 : Ref sig .tc := ⟨.hbm, 353, rfl⟩
abbrev main_v256 : Ref sig .tc := ⟨.hbm, 354, rfl⟩
abbrev main_call7_cst : Ref sig .tc := ⟨.hbm, 355, rfl⟩
abbrev main_call7_v0 : Ref sig .tc := ⟨.hbm, 356, rfl⟩
abbrev main_v257 : Ref sig .tc := ⟨.hbm, 357, rfl⟩
abbrev main_v258 : Ref sig .tc := ⟨.hbm, 358, rfl⟩
abbrev main_v259 : Ref sig .tc := ⟨.hbm, 359, rfl⟩
abbrev main_v260 : Ref sig .tc := ⟨.hbm, 360, rfl⟩
abbrev main_v261 : Ref sig .tc := ⟨.hbm, 361, rfl⟩
abbrev main_v262 : Ref sig .tc := ⟨.hbm, 362, rfl⟩
abbrev main_cst_40 : Ref sig .tc := ⟨.hbm, 363, rfl⟩
abbrev main_v263 : Ref sig .tc := ⟨.hbm, 364, rfl⟩
abbrev main_cst_41 : Ref sig .tc := ⟨.hbm, 365, rfl⟩
abbrev main_v264 : Ref sig .tc := ⟨.hbm, 366, rfl⟩
abbrev main_v265 : Ref sig .tc := ⟨.hbm, 367, rfl⟩
abbrev main_v266 : Ref sig .tc := ⟨.hbm, 368, rfl⟩
abbrev main_v267 : Ref sig .tc := ⟨.hbm, 369, rfl⟩
abbrev main_v268 : Ref sig .tc := ⟨.hbm, 370, rfl⟩
abbrev main_v269 : Ref sig .tc := ⟨.hbm, 371, rfl⟩
abbrev main_cst_42 : Ref sig .tc := ⟨.hbm, 372, rfl⟩
abbrev main_v270 : Ref sig .tc := ⟨.hbm, 373, rfl⟩
abbrev main_cst_43 : Ref sig .tc := ⟨.hbm, 374, rfl⟩
abbrev main_v271 : Ref sig .tc := ⟨.hbm, 375, rfl⟩
abbrev main_v272 : Ref sig .tc := ⟨.hbm, 376, rfl⟩
abbrev main_v273 : Ref sig .tc := ⟨.hbm, 377, rfl⟩
abbrev main_v274 : Ref sig .tc := ⟨.hbm, 378, rfl⟩
abbrev main_v275 : Ref sig .tc := ⟨.hbm, 379, rfl⟩
abbrev main_v276 : Ref sig .tc := ⟨.hbm, 380, rfl⟩
abbrev main_v277 : Ref sig .tc := ⟨.hbm, 381, rfl⟩
abbrev main_v278 : Ref sig .tc := ⟨.hbm, 382, rfl⟩
abbrev main_cst_44 : Ref sig .tc := ⟨.hbm, 383, rfl⟩
abbrev main_v279 : Ref sig .tc := ⟨.hbm, 384, rfl⟩
abbrev main_v280 : Ref sig .tc := ⟨.hbm, 385, rfl⟩
abbrev main_v281 : Ref sig .tc := ⟨.hbm, 386, rfl⟩
abbrev main_v282 : Ref sig .tc := ⟨.hbm, 387, rfl⟩
abbrev main_v283 : Ref sig .tc := ⟨.hbm, 388, rfl⟩
abbrev main_v284 : Ref sig .tc := ⟨.hbm, 389, rfl⟩
abbrev main_v285 : Ref sig .tc := ⟨.hbm, 390, rfl⟩
abbrev main_v286 : Ref sig .tc := ⟨.hbm, 391, rfl⟩
abbrev main_v287 : Ref sig .tc := ⟨.hbm, 392, rfl⟩
abbrev main_call8_cst : Ref sig .tc := ⟨.hbm, 393, rfl⟩
abbrev main_call8_v0 : Ref sig .tc := ⟨.hbm, 394, rfl⟩
abbrev main_v288 : Ref sig .tc := ⟨.hbm, 395, rfl⟩

abbrev nD : Nat := 1
abbrev τ : Topo := Topo.v7x

variable {F : FTy → Type} [FloatOps F]

class Facts₀ : Prop where
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S512x256_S256x256_0_0 : S512x256.Slices ![0, 0] S256x256
  slices_S512x256_S256x256_256_0 : S512x256.Slices ![256, 0] S256x256
  bcast_S256_S1x256_1 : S256.BroadcastsInDim S1x256 (![1] : Fin 1 → Fin S1x256.rank)
  bcast_S1x256_S200000x256_0_1 : S1x256.BroadcastsInDim S200000x256 (![0, 1] : Fin 2 → Fin S200000x256.rank)
  bcast_S_S200000x256 : S_.BroadcastsInDim S200000x256 (![] : Fin 0 → Fin S200000x256.rank)
  slices_S2x200000_S1x200000_1_0 : S2x200000.Slices ![1, 0] S1x200000
  bcast_S_S40000x256 : S_.BroadcastsInDim S40000x256 (![] : Fin 0 → Fin S40000x256.rank)
  slices_S2x120000_S1x120000_0_0 : S2x120000.Slices ![0, 0] S1x120000
  shapeCasts_S1x120000_S120000 : S1x120000.ShapeCasts S120000
  bcast_S_S120000 : S_.BroadcastsInDim S120000 (![] : Fin 0 → Fin S120000.rank)
  bcast_S120000_S120000x1_0 : S120000.BroadcastsInDim S120000x1 (![0] : Fin 1 → Fin S120000x1.rank)
  slices_S2x120000_S1x120000_1_0 : S2x120000.Slices ![1, 0] S1x120000
  bcast_S_S1 : S_.BroadcastsInDim S1 (![] : Fin 0 → Fin S1.rank)
  bcast_S1_S1x1_1 : S1.BroadcastsInDim S1x1 (![1] : Fin 1 → Fin S1x1.rank)
  bcast_S1x1_S40000x256_0_1 : S1x1.BroadcastsInDim S40000x256 (![0, 1] : Fin 2 → Fin S40000x256.rank)
  bcast_S1x256_S40000x256_0_1 : S1x256.BroadcastsInDim S40000x256 (![0, 1] : Fin 2 → Fin S40000x256.rank)
  reducesTo_S40000x256_S256_d0 : S40000x256.ReducesTo [0] S256
  h_S_ : 0 < S_.numel
  bcast_S_S256 : S_.BroadcastsInDim S256 (![] : Fin 0 → Fin S256.rank)
  concatenates_S40000x256_S40000x256_S40000x256_S40000x768_d1 : Shape.Concatenates [S40000x256, S40000x256, S40000x256] S40000x768 1
  gather_S40000x256_S200000x1_S200000x256_1_0_n_n_0_1_1256_wf : GatherDims.WF S40000x256 S200000x1 S200000x256 [1] [0] [] [0] [] 1 ![1, 256]
  dot_S200000x256_S256x256_S200000x256_1_0_0_1_n_n_wf : DotDims.WF S200000x256 S256x256 S200000x256 [1] [0] [0] [1] [] []
  scatter_S40000x256_S200000x1_S200000x256_1_0_0_1_wf : ScatterDims.WF S40000x256 S200000x1 S200000x256 [1] [0] [0] 1
  gather_S60000x256_S120000x1_S120000x256_1_0_n_n_0_1_1256_wf : GatherDims.WF S60000x256 S120000x1 S120000x256 [1] [0] [] [0] [] 1 ![1, 256]
  scatter_S40000x256_S120000x1_S120000x256_1_0_0_1_wf : ScatterDims.WF S40000x256 S120000x1 S120000x256 [1] [0] [0] 1
  dot_S40000x256_S256x256_S40000x256_1_0_0_1_n_n_wf : DotDims.WF S40000x256 S256x256 S40000x256 [1] [0] [0] [1] [] []
  dot_S40000x768_S768x256_S40000x256_1_0_0_1_n_n_wf : DotDims.WF S40000x768 S768x256 S40000x256 [1] [0] [0] [1] [] []

variable [Facts₀]

def gather_S40000x256_S200000x1_S200000x256_1_0_n_n_0_1_1256 : GatherDims S40000x256 S200000x1 S200000x256 where
  offsetDims := [1]
  collapsedSliceDims := [0]
  operandBatchingDims := []
  startIndicesBatchingDims := []
  startIndexMap := [0]
  indexVectorDim := 1
  sliceSizes := ![1, 256]
  wf := gather_S40000x256_S200000x1_S200000x256_1_0_n_n_0_1_1256_wf
def dot_S200000x256_S256x256_S200000x256_1_0_0_1_n_n : DotDims S200000x256 S256x256 S200000x256 where
  lhsContracting := [1]
  rhsContracting := [0]
  lhsNonContracting := [0]
  rhsNonContracting := [1]
  lhsBatch := []
  rhsBatch := []
  wf := dot_S200000x256_S256x256_S200000x256_1_0_0_1_n_n_wf
def scatter_S40000x256_S200000x1_S200000x256_1_0_0_1 : ScatterDims S40000x256 S200000x1 S200000x256 where
  updateWindowDims := [1]
  insertedWindowDims := [0]
  scatterDimsToOperandDims := [0]
  indexVectorDim := 1
  wf := scatter_S40000x256_S200000x1_S200000x256_1_0_0_1_wf
def gather_S60000x256_S120000x1_S120000x256_1_0_n_n_0_1_1256 : GatherDims S60000x256 S120000x1 S120000x256 where
  offsetDims := [1]
  collapsedSliceDims := [0]
  operandBatchingDims := []
  startIndicesBatchingDims := []
  startIndexMap := [0]
  indexVectorDim := 1
  sliceSizes := ![1, 256]
  wf := gather_S60000x256_S120000x1_S120000x256_1_0_n_n_0_1_1256_wf
def scatter_S40000x256_S120000x1_S120000x256_1_0_0_1 : ScatterDims S40000x256 S120000x1 S120000x256 where
  updateWindowDims := [1]
  insertedWindowDims := [0]
  scatterDimsToOperandDims := [0]
  indexVectorDim := 1
  wf := scatter_S40000x256_S120000x1_S120000x256_1_0_0_1_wf
def dot_S40000x256_S256x256_S40000x256_1_0_0_1_n_n : DotDims S40000x256 S256x256 S40000x256 where
  lhsContracting := [1]
  rhsContracting := [0]
  lhsNonContracting := [0]
  rhsNonContracting := [1]
  lhsBatch := []
  rhsBatch := []
  wf := dot_S40000x256_S256x256_S40000x256_1_0_0_1_n_n_wf
def dot_S40000x768_S768x256_S40000x256_1_0_0_1_n_n : DotDims S40000x768 S768x256 S40000x256 where
  lhsContracting := [1]
  rhsContracting := [0]
  lhsNonContracting := [0]
  rhsNonContracting := [1]
  lhsBatch := []
  rhsBatch := []
  wf := dot_S40000x768_S768x256_S40000x256_1_0_0_1_n_n_wf

class Facts : Prop extends Facts₀ where

variable [Facts]
-- ==== Proof.KernelRun.lean ====
/-
  The idealized kernel's run with its final buffer contents named.

  The program is thirteen kernel launches among stretches of host operations.  Every weakly fair execution ends with each
  unscoped buffer of a core at the contents the last segment boundary records: the launch memory carried through every
  host stretch and every launch's write-backs in program order.
-/
import proofs.«129683_j53085795779156_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with every unscoped TensorCore buffer at the last boundary's contents. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W32 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W32 m ρ c b)
    (hfin := fun c s' => by
      iintro ⟨⟨Hh, -⟩, HSI⟩
      unfold StableHlo.held
      imodintro
      iapply (pointsTo_read_all (Pipeline.ucRefs τ sig) (fun b => (((c : Thread nD τ)).1, b)) (W32 m ρ c) s')
      isplitl [Hh] <;> iassumption)
    (hQ := fun s h c => h c)

end Cert.KernelIdeal.RunValue

end
-- ==== Proof.LibBnStats.lean ====
/-
  Batch statistics over the extended reals.

  A column of finitely many REAL entries has a mean and two spellings of its variance: the mean of the squared
  deviations, and the mean of the squares minus the square of the mean. Over the reals they agree; here the entries live
  in the extended reals, division is by a nonzero real constant equal to the number of entries, and the agreement is
  proved by pushing every coercion outward.  Also: closure of "is a real number" under the operations a dense layer uses.
-/
import Mathlib
import Idealize.ShloMosaic.PureOps.Ideal

noncomputable section

namespace BnStats

open Idealize.ShloMosaic

/-- A finite sum of coerced reals is the coercion of the real sum. -/
theorem coe_finset_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- An extended real that is a real number. -/
def IsReal (x : EReal) : Prop := ∃ r : ℝ, x = (r : EReal)

theorem IsReal.coe (r : ℝ) : IsReal (r : EReal) := ⟨r, rfl⟩
theorem IsReal.zero : IsReal (0 : EReal) := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

theorem IsReal.sum {ι : Type*} (s : Finset ι) {f : ι → EReal} (hf : ∀ i ∈ s, IsReal (f i)) : IsReal (∑ i ∈ s, f i) := by
  classical
  induction s using Finset.induction_on with
  | empty => exact ⟨0, by simp⟩
  | insert a s ha ih =>
    rw [Finset.sum_insert ha]
    exact (hf a (Finset.mem_insert_self a s)).add (ih fun i hi => hf i (Finset.mem_insert_of_mem hi))

theorem IsReal.div_coe {x : EReal} (hx : IsReal x) {c : ℝ} (hc : c ≠ 0) : IsReal (Ideal.div x (c : EReal)) := by
  rw [Ideal.div_coe hc]; exact hx.mul ⟨_, rfl⟩

/-- The inverse square root of a POSITIVE real is a real. -/
theorem IsReal.rsqrt_pos {r : ℝ} (hr : 0 < r) : IsReal (Ideal.rsqrt (r : EReal)) := by
  rw [Ideal.rsqrt_coe, if_neg (not_lt.mpr hr.le), if_neg hr.ne']; exact ⟨_, rfl⟩

/-- The two spellings of the (biased) variance of finitely many real entries agree, the divisor being the number of
    entries: the mean of the squared deviations is the mean of the squares minus the squared mean. -/
theorem var_eq {ρ : Type*} [Fintype ρ] (L : ρ → EReal) (hL : ∀ r, IsReal (L r)) (c : ℝ)
    (hc : (Fintype.card ρ : ℝ) = c) (hc0 : c ≠ 0) :
    Ideal.div (∑ r, (L r - Ideal.div (∑ r, L r) (c : EReal)) * (L r - Ideal.div (∑ r, L r) (c : EReal))) (c : EReal)
      = Ideal.div (∑ r, L r * L r) (c : EReal)
          - Ideal.div (∑ r, L r) (c : EReal) * Ideal.div (∑ r, L r) (c : EReal) := by
  choose l hl using hL
  obtain rfl : L = fun r => ((l r : ℝ) : EReal) := funext hl
  simp only [Ideal.div_coe hc0, coe_finset_sum, ← EReal.coe_mul, ← EReal.coe_sub]
  rw [EReal.coe_eq_coe_iff]
  have h1 : ∑ r, (l r - (∑ r, l r) * (1 / c)) * (l r - (∑ r, l r) * (1 / c))
      = ∑ r, l r * l r - 2 * ((∑ r, l r) * (1 / c)) * ∑ r, l r
        + (Fintype.card ρ : ℝ) * (((∑ r, l r) * (1 / c)) * ((∑ r, l r) * (1 / c))) := by
    simp only [sub_mul, mul_sub, Finset.sum_sub_distrib, ← Finset.mul_sum, ← Finset.sum_mul, Finset.sum_const,
      Finset.card_univ, nsmul_eq_mul]
    ring
  rw [h1, hc]
  field_simp
  ring

/-- The variance of real entries, in its deviation spelling, is a non-negative real; so adding a positive real keeps it
    positive. -/
theorem var_dev_nonneg {ρ : Type*} [Fintype ρ] (l : ρ → ℝ) (μ c : ℝ) (hc : 0 < c) :
    0 ≤ (∑ r, (l r - μ) * (l r - μ)) * (1 / c) :=
  mul_nonneg (Finset.sum_nonneg fun r _ => mul_self_nonneg _) (by positivity)

/-- A sum over `a * b` rows is the sum over `a` tiles of the sums over the `b` rows of each tile. -/
theorem sum_tiles (a b : ℕ) {M : Type*} [AddCommMonoid M] (f : Fin (a * b) → M) :
    ∑ r : Fin (a * b), f r = ∑ t : Fin a, ∑ q : Fin b, f (finProdFinEquiv (t, q)) := by
  rw [← Fintype.sum_prod_type', ← Equiv.sum_comp finProdFinEquiv]

end BnStats

end
-- ==== Proof.Stages.lean ====
/-
  The layer's stages as functions of whole arrays, entry by entry, over the extended reals.

  An array of M rows and N columns is a function of its two-coordinate index.  The stages: a plain matrix product; the
  message layer max(x_src·W_top + attr·W_bottom + b, 0); the residual mix agg + s·x; a dense layer h·W + b; column sums
  and column sums of squares; the mean and the two spellings of the variance; BatchNorm followed by ReLU.
-/
import Idealize.ShloMosaic.PureOps.Ideal.Laws
import Idealize.ShloMosaic.Lib.ValueIdx
import proofs.«129683_j53085795779156_2_alg».proof.Proof.LibBnStats

noncomputable section

namespace Cell

open Idealize.ShloMosaic Idealize.ShloMosaic.ValueIdx BnStats

/-- An M × N array of extended reals. -/
abbrev Arr (M N : ℕ) : Type := (⟨2, ![M, N]⟩ : Shape).Idx → EReal

/-- The plain product of an M × K by a K × N array. -/
def dotP {M K N : ℕ} (l : Arr M K) (w : Arr K N) : Arr M N :=
  fun j => ∑ k : Fin K, l (ix2 (j 0) k) * w (ix2 k (j 1))

/-- A message: ReLU of the source features times the top half of the weight plus the edge attributes times the bottom
    half plus the bias. -/
def msg {E D : ℕ} (xs at_ : Arr E D) (wt wb : Arr D D) (b : Fin D → EReal) : Arr E D :=
  fun j => max (dotP xs wt j + dotP at_ wb j + b (j 1)) 0

/-- The residual mix: aggregated messages plus a scalar multiple of the features. -/
def mix {M N : ℕ} (agg x : Arr M N) (s : EReal) : Arr M N := fun j => agg j + s * x j

/-- A dense layer. -/
def lin {M K N : ℕ} (h : Arr M K) (w : Arr K N) (b : Fin N → EReal) : Arr M N := fun j => dotP h w j + b (j 1)

/-- Column sums. -/
def colSum {M N : ℕ} (L : Arr M N) : Fin N → EReal := fun c => ∑ r : Fin M, L (ix2 r c)

/-- Column sums of squares. -/
def colSumSq {M N : ℕ} (L : Arr M N) : Fin N → EReal := fun c => ∑ r : Fin M, L (ix2 r c) * L (ix2 r c)

/-- The column means, the divisor `n` given as an extended real. -/
def mean {M N : ℕ} (L : Arr M N) (n : EReal) : Fin N → EReal := fun c => Ideal.div (colSum L c) n

/-- The variance as mean of squares minus squared mean. -/
def varSq {M N : ℕ} (L : Arr M N) (n : EReal) : Fin N → EReal :=
  fun c => Ideal.div (colSumSq L c) n - mean L n c * mean L n c

/-- The variance as mean of squared deviations. -/
def varDev {M N : ℕ} (L : Arr M N) (n : EReal) : Fin N → EReal :=
  fun c => Ideal.div (∑ r : Fin M, (L (ix2 r c) - mean L n c) * (L (ix2 r c) - mean L n c)) n

/-- BatchNorm with given statistics, then ReLU. -/
def bnRelu {M N : ℕ} (L : Arr M N) (mu var g cc : Fin N → EReal) (eps : EReal) : Arr M N :=
  fun j => max (g (j 1) * (L j - mu (j 1)) * Ideal.rsqrt (var (j 1) + eps) + cc (j 1)) 0

/-- Every entry is a real number. -/
def RealArr {M N : ℕ} (L : Arr M N) : Prop := ∀ j, IsReal (L j)
/-- Every entry of a row vector is a real number. -/
def RealRow {N : ℕ} (v : Fin N → EReal) : Prop := ∀ c, IsReal (v c)

/-- For real entries and a divisor equal to the number of rows the two variances agree. -/
theorem varDev_eq_varSq {M N : ℕ} (L : Arr M N) (hL : RealArr L) (n : ℝ) (hn : (M : ℝ) = n) (hn0 : n ≠ 0) :
    varDev L (n : EReal) = varSq L (n : EReal) := by
  funext c
  unfold varDev varSq mean colSum colSumSq
  exact var_eq (fun r : Fin M => L (ix2 r c)) (fun r => hL _) n (by rw [Fintype.card_fin]; exact hn) hn0

theorem dotP_real {M K N : ℕ} {l : Arr M K} {w : Arr K N} (hl : RealArr l) (hw : RealArr w) : RealArr (dotP l w) :=
  fun j => IsReal.sum _ fun k _ => (hl _).mul (hw _)

theorem msg_real {E D : ℕ} {xs at_ : Arr E D} {wt wb : Arr D D} {b : Fin D → EReal} (h1 : RealArr xs) (h2 : RealArr at_)
    (h3 : RealArr wt) (h4 : RealArr wb) (h5 : RealRow b) : RealArr (msg xs at_ wt wb b) :=
  fun j => (((dotP_real h1 h3 j).add (dotP_real h2 h4 j)).add (h5 _)).max IsReal.zero

theorem mix_real {M N : ℕ} {agg x : Arr M N} {s : EReal} (h1 : RealArr agg) (h2 : RealArr x) (hs : IsReal s) :
    RealArr (mix agg x s) := fun j => (h1 j).add (hs.mul (h2 j))

theorem lin_real {M K N : ℕ} {h : Arr M K} {w : Arr K N} {b : Fin N → EReal} (h1 : RealArr h) (h2 : RealArr w)
    (h3 : RealRow b) : RealArr (lin h w b) := fun j => (dotP_real h1 h2 j).add (h3 _)

theorem mean_real {M N : ℕ} {L : Arr M N} (hL : RealArr L) {n : ℝ} (hn0 : n ≠ 0) : RealRow (mean L (n : EReal)) :=
  fun c => (IsReal.sum _ fun r _ => hL _).div_coe hn0

/-- The deviation variance of real entries plus a positive real is a positive real. -/
theorem varDev_add_pos {M N : ℕ} {L : Arr M N} (hL : RealArr L) {n : ℝ} (hn : 0 < n) {e : ℝ} (he : 0 < e) (c : Fin N) :
    ∃ r : ℝ, 0 < r ∧ varDev L (n : EReal) c + (e : EReal) = (r : EReal) := by
  obtain ⟨mu, hmu⟩ := mean_real hL hn.ne' c
  choose l hl using fun r : Fin M => hL (ix2 r c)
  refine ⟨(∑ r, (l r - mu) * (l r - mu)) * (1 / n) + e, ?_, ?_⟩
  · have := var_dev_nonneg l mu n hn; linarith
  · unfold varDev
    rw [hmu, Ideal.div_coe hn.ne']
    simp only [hl, ← EReal.coe_sub, ← EReal.coe_mul, coe_finset_sum, ← EReal.coe_add]

/-- BatchNorm-ReLU of real entries with real mean, scale and shift, at a variance that stays positive after adding
    epsilon, has real entries. -/
theorem bnRelu_real {M N : ℕ} {L : Arr M N} {mu var g cc : Fin N → EReal} {eps : EReal} (hL : RealArr L) (hmu : RealRow mu)
    (hg : RealRow g) (hc : RealRow cc) (hv : ∀ c, ∃ r : ℝ, 0 < r ∧ var c + eps = (r : EReal)) : RealArr (bnRelu L mu var g cc eps) := by
  intro j
  obtain ⟨r, hr, hre⟩ := hv (j 1)
  unfold bnRelu
  rw [hre]
  exact ((((hg _).mul ((hL j).sub (hmu _))).mul (IsReal.rsqrt_pos hr)).add (hc _)).max IsReal.zero

/-- A one-row array read as a row vector. -/
abbrev row {N : ℕ} (a : Arr 1 N) : Fin N → EReal := fun c => a (ix2 0 c)

/-- The three branch contributions and the bias, added in that order. -/
def comb {M N : ℕ} (a0 a1 a2 : Arr M N) (b : Fin N → EReal) : Arr M N := fun j => a0 j + a1 j + a2 j + b (j 1)

/-- An 8 × 8 × 256 array of per-tile statistics. -/
abbrev Tiles : Type := (⟨3, ![8, 8, 256]⟩ : Shape).Idx → EReal

/-- Row `q` of tile `t` of a 40000-row array, the tiles 5000 rows high. -/
def tileRow (t : Fin 8) (q : Fin 5000) : Fin 40000 := ⟨t.val * 5000 + q.val, by have := t.isLt; have := q.isLt; omega⟩

/-- Per tile of 5000 rows, the column sums, repeated along the middle axis. -/
def tileSum (L : Arr 40000 256) : Tiles := fun i => ∑ q : Fin 5000, L (ix2 (tileRow (i 0) q) (i 2))

/-- Per tile of 5000 rows, the column sums of squares, repeated along the middle axis. -/
def tileSumSq (L : Arr 40000 256) : Tiles :=
  fun i => ∑ q : Fin 5000, L (ix2 (tileRow (i 0) q) (i 2)) * L (ix2 (tileRow (i 0) q) (i 2))

/-- The tile rows enumerate all rows: a sum over the 40000 rows is the sum over the 8 tiles of the sums over each tile's
    5000 rows. -/
theorem sum_rows_eq_tiles {M : Type*} [AddCommMonoid M] (f : Fin 40000 → M) :
    ∑ r : Fin 40000, f r = ∑ t : Fin 8, ∑ q : Fin 5000, f (tileRow t q) := by
  have h := sum_tiles 8 5000 f
  rw [h]
  refine Finset.sum_congr rfl fun t _ => Finset.sum_congr rfl fun q _ => congrArg f (Fin.ext ?_)
  show q.val + 5000 * t.val = t.val * 5000 + q.val
  omega

theorem comb_real {M N : ℕ} {a0 a1 a2 : Arr M N} {b : Fin N → EReal} (h0 : RealArr a0) (h1 : RealArr a1) (h2 : RealArr a2)
    (hb : RealRow b) : RealArr (comb a0 a1 a2 b) := fun j => (((h0 j).add (h1 j)).add (h2 j)).add (hb _)

end Cell

end
-- ==== Proof.LibPlainDot.lean ====
/-
  A plain matrix product's contraction, read as a sum over the shared axis.

  For an `M × K` by `K × N` product with no batch axis the contraction index has one coordinate `k : Fin K`; at output
  entry `(r, c)` the left operand is read at `(r, k)` and the right at `(k, c)`.
-/
import Idealize.ShloMosaic.PureOps.Ideal.Laws
import Idealize.ShloMosaic.Lib.ValueIdx

noncomputable section

namespace Mpnn

open Idealize.ShloMosaic Idealize.ShloMosaic.ValueIdx

theorem plain_lhs0 (M K N : ℕ) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem plain_rhs1 (M K N : ℕ) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product as a sum over `Fin K`. -/
theorem plain_sum (M K N : ℕ) (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs0 M K N _ _
      | ⟨1, _⟩ => exact ((DotDims.plain M K N).lhsIdx_val_of_single rfl j _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl j _).trans hk
      | ⟨1, _⟩ => exact plain_rhs1 M K N _ _)
  exact congrArg₂ (fun x y : EReal => x * y) (congrArg l el) (congrArg r er)

/-- A kernel's matrix product into a zero accumulator, at `Ideal`, entry by entry. -/
theorem matmul_plain (M K N : ℕ) {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply _ prec l r j).trans (plain_sum M K N l r j)

/-- The host's `dot_general` of the same layout, at `Ideal`, entry by entry. -/
theorem dotGeneral_plain (M K N : ℕ) {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j = ∑ k : Fin K, l (ix2 (j 0) k) * r (ix2 k (j 1)) :=
  (Ideal.dotGeneral_apply _ prec sched l r j).trans (plain_sum M K N l r j)

end Mpnn

end
-- ==== Proof.RegionCommon.lean ====
/-
  Facts shared by the thirteen launches' bodies: a one-row array broadcast down a row block, the row-block product with a
  square weight as a sum over the shared axis, the scalar in a 1 × 1 block, a block's column sums as the statistics block
  holds them, and BatchNorm followed by ReLU with one-row statistics at explicit coordinates.
-/
import proofs.«129683_j53085795779156_2_alg».proof.Proof.Gen.KernelIdeal.Frame
import proofs.«129683_j53085795779156_2_alg».proof.Proof.Stages
import proofs.«129683_j53085795779156_2_alg».proof.Proof.LibPlainDot
import Idealize.ShloMosaic.Lib.Pipeline.Value
import Idealize.ShloMosaic.Lib.ValueLayout

set_option maxRecDepth 16384

noncomputable section

namespace Cert.KernelIdeal.RegCommon

open Idealize.ShloMosaic Idealize.ShloMosaic.TcCoe Idealize.SL.Sem Idealize.ShloMosaic.ValueIdx
open Cert.KernelIdeal Cert.KernelIdeal.Gen Cell

theorem hz : (![0, 0] : Fin 2 → Nat) = fun _ => 0 := funext fun a => by fin_cases a <;> rfl
theorem hz3 : (![0, 0, 0] : Fin 3 → Nat) = fun _ => 0 := funext fun a => by fin_cases a <;> rfl

/-- A one-row array broadcast down the rows reads the row's entry at the column. -/
theorem bcastRow (x : FVec Ideal S1x256 .f32) (j : S5000x256.Idx) :
    broadcastTo S5000x256 x broadcasts_S1x256_S5000x256 j = x (ix2 0 (j 1)) :=
  broadcastTo_apply x broadcasts_S1x256_S5000x256 j (ix2 0 (j 1)) (fun a => by
    match a with
    | ⟨0, _⟩ => rfl
    | ⟨1, _⟩ => rfl)

/-- The product of a row block with a square weight, entry by entry. -/
theorem mm (l : FVec Ideal S5000x256 .bf16) (r : FVec Ideal S256x256 .bf16) (j : S5000x256.Idx) :
    matmul dot_S5000x256_S256x256_S5000x256_1_0_0_1_n_n none l r (constant S5000x256 .f32 0x00000000#32) j
      = ∑ k : Fin 256, l (ix2 (j 0) k) * r (ix2 k (j 1)) :=
  Mpnn.matmul_plain 5000 256 256 none l r j

/-- The scalar held in a 1 × 1 block. -/
theorem scal (x : Vec Ideal S1x1 .f32) : extractAt ![0, 0] x inpos_S1x1_p0_0 = x (ix2 0 0) := by
  unfold extractAt
  exact congrArg x (funext fun a => Fin.ext (by match a with | ⟨0, _⟩ => rfl | ⟨1, _⟩ => rfl))

/-- A block's column sum, repeated along the middle axis of the statistics block. -/
theorem colBlock (v : FVec Ideal S5000x256 .f32) (y : S1x8x256.Idx) :
    broadcastTo S1x8x256 (shapeCast S1x1x256 (shapeCast S1x256
        (multiReduction .add [0] S256 v 0x00000000#32 reduces_S5000x256_S256 (.inl rfl) rfl) shapeCasts_S256_S1x256)
        shapeCasts_S1x256_S1x1x256) broadcasts_S1x1x256_S1x8x256 y
      = ∑ q : Fin 5000, v (ix2 q (y 2)) := by
  refine (broadcastTo_apply _ broadcasts_S1x1x256_S1x8x256 y (ix3 0 0 (y 2)) (fun a => by
    match a with
    | ⟨0, _⟩ => rfl
    | ⟨1, _⟩ => rfl
    | ⟨2, _⟩ => rfl)).trans ?_
  refine (shapeCast_apply _ shapeCasts_S1x256_S1x1x256 (ix3 0 0 (y 2)) (ix2 0 (y 2)) ?_).trans ?_
  · rw [Shape.rowMajor_val_two, Shape.rowMajor_val_three]; simp
  refine (shapeCast_apply _ shapeCasts_S256_S1x256 (ix2 0 (y 2)) (ix1 (y 2)) ?_).trans ?_
  · rw [Shape.rowMajor_val_two, Shape.rowMajor_val_one]; simp
  refine (Ideal.multiReduction_add_single v 0x00000000#32 reduces_S5000x256_S256 (.inl rfl) rfl (ix1 (y 2))).trans ?_
  exact Finset.sum_congr rfl fun q _ => congrArg v (funext fun a => Fin.ext (by match a with | ⟨0, _⟩ => rfl | ⟨1, _⟩ => rfl))

/-- The same read at explicit coordinates. -/
theorem bcastRowAt (x : FVec Ideal S1x256 .f32) (r : Fin 5000) (k : Fin 256) :
    broadcastTo S5000x256 x broadcasts_S1x256_S5000x256 (ix2 r k) = x (ix2 0 k) := bcastRow x (ix2 r k)

/-- The rounding constant of the normalization, as the extended real its word denotes. -/
abbrev bnEps : EReal := Ideal.ofBits .f32 0x3727C5AC#32

/-- BatchNorm then ReLU of a row block with one-row statistics, at explicit coordinates. -/
theorem bnAt (x0 : FVec Ideal S5000x256 .f32) (x1 x2 x3 x4 : FVec Ideal S1x256 .f32) (r : Fin 5000) (k : Fin 256) :
    maximumf (addf (mulf (mulf (broadcastTo S5000x256 x3 broadcasts_S1x256_S5000x256)
        (subf x0 (broadcastTo S5000x256 x1 broadcasts_S1x256_S5000x256)))
        (broadcastTo S5000x256 (rsqrt (addf x2 (broadcast S1x256 (Scalar.ofBits .f32 0x3727C5AC#32)))) broadcasts_S1x256_S5000x256))
        (broadcastTo S5000x256 x4 broadcasts_S1x256_S5000x256)) (broadcast S5000x256 (Scalar.ofBits .f32 0x00000000#32)) (ix2 r k)
      = max (x3 (ix2 0 k) * (x0 (ix2 r k) - x1 (ix2 0 k)) * Ideal.rsqrt (x2 (ix2 0 k) + bnEps) + x4 (ix2 0 k)) 0 := by
  rw [maximumf_apply, addf_apply, mulf_apply, mulf_apply, subf_apply, bcastRowAt, bcastRowAt, bcastRowAt, bcastRowAt, broadcast_apply]
  show max (x3 (ix2 0 k) * (x0 (ix2 r k) - x1 (ix2 0 k)) * Ideal.rsqrt (x2 (ix2 0 k) + Ideal.ofBits .f32 0x3727C5AC#32) + x4 (ix2 0 k))
      (Ideal.ofBits .f32 0x00000000#32) = _
  rw [Ideal.ofBits_zero_f32]

/-- The message layer of the arrays a launch finds: rows of source features and of edge attributes, the two halves of
    the weight, the bias as a one-row array. -/
abbrev messages (a0 a1 : S200000x256.Idx → EReal) (a2 a3 : S256x256.Idx → EReal) (a4 : S1x256.Idx → EReal) : S200000x256.Idx → EReal :=
  msg a0 a1 a2 a3 (row a4)

/-- The first dense layer of a branch, of the arrays a launch finds: aggregated messages, features, the 1 × 1 scale,
    the weight, the bias as a one-row array. -/
abbrev layer1 (a0 a1 : S40000x256.Idx → EReal) (a2 : S1x1.Idx → EReal) (a3 : S256x256.Idx → EReal) (a4 : S1x256.Idx → EReal) :
    S40000x256.Idx → EReal :=
  lin (mix a0 a1 (a2 (ix2 0 0))) a3 (row a4)

/-- BatchNorm with the given one-row statistics, ReLU, then a dense layer: of the arrays a launch finds. -/
abbrev layerBn (a0 : S40000x256.Idx → EReal) (a1 a2 a3 a4 : S1x256.Idx → EReal) (a5 : S256x256.Idx → EReal) (a6 : S1x256.Idx → EReal) :
    S40000x256.Idx → EReal :=
  lin (bnRelu a0 (row a1) (row a2) (row a3) (row a4) bnEps) a5 (row a6)

/-- The sum of the three branch contributions and the bias, of the arrays a launch finds. -/
abbrev combine (a0 a1 a2 : S40000x256.Idx → EReal) (a3 : S1x256.Idx → EReal) : S40000x256.Idx → EReal :=
  comb a0 a1 a2 (row a3)

/-- BatchNorm with the given one-row statistics, then ReLU: of the arrays a launch finds. -/
abbrev outBn (a0 : S40000x256.Idx → EReal) (a1 a2 a3 a4 : S1x256.Idx → EReal) : S40000x256.Idx → EReal :=
  bnRelu a0 (row a1) (row a2) (row a3) (row a4) bnEps

end Cert.KernelIdeal.RegCommon

end
-- ==== Proof.Region0.lean ====
/-
  A message launch: per block of 5000 edges, ReLU of source features times the top half of the weight plus edge attributes times the bottom half plus the bias; the blocks tile the edge array.
-/
import proofs.«129683_j53085795779156_2_alg».proof.Proof.RegionCommon

set_option maxRecDepth 16384

noncomputable section

namespace Cert.KernelIdeal.Reg0

open Idealize.ShloMosaic Idealize.ShloMosaic.TcCoe Idealize.SL.Sem Idealize.ShloMosaic.ValueIdx
open Idealize.ShloMosaic.Pipeline (Dat)
open Cert.KernelIdeal Cert.KernelIdeal.Gen Cell Cert.KernelIdeal.RegCommon

/-- The message body's value at an entry of its block. -/
theorem pay1 (x0 x1 : Vec Ideal S5000x256 .f32) (x2 x3 : Vec Ideal S256x256 .f32) (x4 : Vec Ideal S1x256 .f32) (j : S5000x256.Idx) :
    k0_pay1 x0 x1 x2 x3 x4 j
      = max ((∑ k : Fin 256, x0 (ix2 (j 0) k) * x2 (ix2 k (j 1))) + (∑ k : Fin 256, x1 (ix2 (j 0) k) * x3 (ix2 k (j 1)))
          + x4 (ix2 0 (j 1))) 0 := by
  unfold k0_pay1
  simp only [shapeCast_self]
  rw [maximumf_apply, addf_apply, addf_apply, mm, mm, bcastRow, broadcast_apply]
  simp only [truncf_apply]
  rw [Ideal.ofBits_def, Ideal.ofBits_zero_f32]

variable (V : (c : Dev nD) → (b : Ref sig .tc) → Buf (Elt Ideal) ((c : Thread nD τ).loc b))

/-- The index maps over the grid. -/
theorem idxf : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = t.val
    ∧ win0_5.index t (1 : Fin 2) = 0 :=
  (by decide +kernel : ∀ t : Fin grid0.N, _)

theorem point (c : Dev nD) (t : Fin cfg0.N) (y : S5000x256.Idx) (i : S200000x256.Idx)
    (hi0 : (i 0).val = t.val * 5000 + (y 0).val) (hi1 : (i 1).val = (y 1).val) :
    k0_pay1 (iblk0 V c 0 t) (iblk0 V c 1 t) (iblk0 V c 2 t) (iblk0 V c 3 t) (iblk0 V c 4 t) y = messages (V c main_v2) (V c main_arg1) (V c main_v9) (V c main_v10) (V c main_v11) i := by
  obtain ⟨e0, e1, e2, e3, e4, e5, e6, e7, e8, e9, e10, e11⟩ := idxf t
  rw [pay1]
  simp only [messages, msg, dotP, row]
  have hy1 : (y 1).val < 256 := (y 1).isLt
  have h0 : ∀ k : Fin 256, iblk0 V c 0 t (ix2 (y 0) k) = V c main_v2 (ix2 (i 0) k) := fun k => by
    show V c main_v2 (((cfg0.win 0).blk t).view.emb _) = _
    congr 1; funext a; apply Fin.ext
    match a with
    | ⟨0, _⟩ => show win0_0.index t (0 : Fin 2) * 5000 + 1 * (y 0).val = (i 0).val; omega
    | ⟨1, _⟩ => show win0_0.index t (1 : Fin 2) * 256 + 1 * k.val = k.val; omega
  have h1 : ∀ k : Fin 256, iblk0 V c 1 t (ix2 (y 0) k) = V c main_arg1 (ix2 (i 0) k) := fun k => by
    show V c main_arg1 (((cfg0.win 1).blk t).view.emb _) = _
    congr 1; funext a; apply Fin.ext
    match a with
    | ⟨0, _⟩ => show win0_1.index t (0 : Fin 2) * 5000 + 1 * (y 0).val = (i 0).val; omega
    | ⟨1, _⟩ => show win0_1.index t (1 : Fin 2) * 256 + 1 * k.val = k.val; omega
  have h2 : ∀ k : Fin 256, iblk0 V c 2 t (ix2 k (y 1)) = V c main_v9 (ix2 k (i 1)) := fun k => by
    show V c main_v9 (((cfg0.win 2).blk t).view.emb _) = _
    congr 1; funext a; apply Fin.ext
    match a with
    | ⟨0, _⟩ => show win0_2.index t (0 : Fin 2) * 256 + 1 * k.val = k.val; omega
    | ⟨1, _⟩ => show win0_2.index t (1 : Fin 2) * 256 + 1 * (y 1).val = (i 1).val; omega
  have h3 : ∀ k : Fin 256, iblk0 V c 3 t (ix2 k (y 1)) = V c main_v10 (ix2 k (i 1)) := fun k => by
    show V c main_v10 (((cfg0.win 3).blk t).view.emb _) = _
    congr 1; funext a; apply Fin.ext
    match a with
    | ⟨0, _⟩ => show win0_3.index t (0 : Fin 2) * 256 + 1 * k.val = k.val; omega
    | ⟨1, _⟩ => show win0_3.index t (1 : Fin 2) * 256 + 1 * (y 1).val = (i 1).val; omega
  have h4 : iblk0 V c 4 t (ix2 0 (y 1)) = V c main_v11 (ix2 0 (i 1)) := by
    show V c main_v11 (((cfg0.win 4).blk t).view.emb _) = _
    congr 1; funext a; apply Fin.ext
    match a with
    | ⟨0, _⟩ => show win0_4.index t (0 : Fin 2) * 1 + 1 * 0 = 0; omega
    | ⟨1, _⟩ => show win0_4.index t (1 : Fin 2) * 256 + 1 * (y 1).val = (i 1).val; omega
  simp only [h0, h1, h2, h3, h4]

/-- What point `t` writes back to the row-block output is block `t` of the stage's value on the arrays as found. -/
theorem flushed (c : Dev nD) (t : Fin cfg0.N) :
    (dat0 V c).flushed 5 t = ((cfg0.win 5).blk t).view.read (Elt Ideal) (messages (V c main_v2) (V c main_arg1) (V c main_v9) (V c main_v10) (V c main_v11)) := by
  show (cfg0.win 5).cut (grid0.coords t) ((dat0 V c).after 5 t) = _
  rw [after0_5]
  unfold out0_5
  rw [View.canon_unit_zero hz]
  simp only [View.ld_unit_zero (S := S5000x256) hz, View.ld_unit_zero (S := S256x256) hz, View.ld_unit_zero (S := S1x256) hz]
  obtain ⟨e0, e1, e2, e3, e4, e5, e6, e7, e8, e9, e10, e11⟩ := idxf t
  funext j
  refine point V c t j (((cfg0.win 5).blk t).view.emb j) ?_ ?_
  · show win0_5.index t (0 : Fin 2) * 5000 + 1 * (j 0).val = t.val * 5000 + (j 0).val; omega
  · show win0_5.index t (1 : Fin 2) * 256 + 1 * (j 1).val = (j 1).val; omega

theorem mem_blk (t : Fin cfg0.N) (i : S200000x256.Idx) :
    i ∈ ((cfg0.win 5).blk t).view.set ↔ ∀ a : Fin 2, win0_5.index t a * S5000x256.size a ≤ (i a).val
      ∧ (i a).val < win0_5.index t a * S5000x256.size a + S5000x256.size a := by
  show i ∈ ((View.whole main_v12).slice (win0_5.rect t)).set ↔ _
  rw [View.set_slice_whole, Rect.mem_set_unit]
  exact Iff.rfl

/-- Every row lies in the block of the point numbered by the row's quotient by the block height. -/
theorem cover (i : S200000x256.Idx) :
    ∃ t : Fin cfg0.N, (cfg0.win 5).flush t = true ∧ i ∈ ((cfg0.win 5).blk t).view.set := by
  have hN : grid0.N = 40 := N_0
  have hi0 : (i 0).val < 200000 := (i 0).isLt
  have hi1 : (i 1).val < 256 := (i 1).isLt
  have ht : (i 0).val / 5000 < grid0.N := by rw [hN]; omega
  obtain ⟨e0, e1, e2, e3, e4, e5, e6, e7, e8, e9, e10, e11⟩ := idxf ⟨(i 0).val / 5000, ht⟩
  refine ⟨⟨(i 0).val / 5000, ht⟩, flush0_5 _, ?_⟩
  rw [mem_blk]
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    rw [e10]; show (i 0).val / 5000 * 5000 ≤ (i 0).val ∧ (i 0).val < (i 0).val / 5000 * 5000 + 5000; omega
  | ⟨1, _⟩ =>
    show win0_5.index ⟨(i 0).val / 5000, ht⟩ (1 : Fin 2) * 256 ≤ (i 1).val
      ∧ (i 1).val < win0_5.index ⟨(i 0).val / 5000, ht⟩ (1 : Fin 2) * 256 + 256
    rw [e11]; omega

/-- After the launch the row-block output array is the stage's value on the arrays the launch found. -/
theorem final (c : Dev nD) : (dat0 V c).arrAt 5 cfg0.N = messages (V c main_v2) (V c main_arg1) (V c main_v9) (V c main_v10) (V c main_v11) :=
  (dat0 V c).arrAt_eq_of_cover 5 _ (fun t _ => flushed V c t) cover

end Cert.KernelIdeal.Reg0

end
-- ==== Proof.Region1.lean ====
/-
  A message launch: per block of 5000 edges, ReLU of source features times the top half of the weight plus edge attributes times the bottom half plus the bias; the blocks tile the edge array.
-/
import proofs.«129683_j53085795779156_2_alg».proof.Proof.RegionCommon

set_option maxRecDepth 16384

noncomputable section

namespace Cert.KernelIdeal.Reg1

open Idealize.ShloMosaic Idealize.ShloMosaic.TcCoe Idealize.SL.Sem Idealize.ShloMosaic.ValueIdx
open Idealize.ShloMosaic.Pipeline (Dat)
open Cert.KernelIdeal Cert.KernelIdeal.Gen Cell Cert.KernelIdeal.RegCommon

/-- The message body's value at an entry of its block. -/
theorem pay1 (x0 x1 : Vec Ideal S5000x256 .f32) (x2 x3 : Vec Ideal S256x256 .f32) (x4 : Vec Ideal S1x256 .f32) (j : S5000x256.Idx) :
    k1_pay1 x0 x1 x2 x3 x4 j
      = max ((∑ k : Fin 256, x0 (ix2 (j 0) k) * x2 (ix2 k (j 1))) + (∑ k : Fin 256, x1 (ix2 (j 0) k) * x3 (ix2 k (j 1)))
          + x4 (ix2 0 (j 1))) 0 := by
  unfold k1_pay1
  simp only [shapeCast_self]
  rw [maximumf_apply, addf_apply, addf_apply, mm, mm, bcastRow, broadcast_apply]
  simp only [truncf_apply]
  rw [Ideal.ofBits_def, Ideal.ofBits_zero_f32]

variable (V : (c : Dev nD) → (b : Ref sig .tc) → Buf (Elt Ideal) ((c : Thread nD τ).loc b))

/-- The index maps over the grid. -/
theorem idxf : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = t.val
    ∧ win1_5.index t (1 : Fin 2) = 0 :=
  (by decide +kernel : ∀ t : Fin grid1.N, _)

theorem point (c : Dev nD) (t : Fin cfg1.N) (y : S5000x256.Idx) (i : S200000x256.Idx)
    (hi0 : (i 0).val = t.val * 5000 + (y 0).val) (hi1 : (i 1).val = (y 1).val) :
    k1_pay1 (iblk1 V c 0 t) (iblk1 V c 1 t) (iblk1 V c 2 t) (iblk1 V c 3 t) (iblk1 V c 4 t) y = messages (V c main_v5) (V c main_arg2) (V c main_v13) (V c main_v14) (V c main_v15) i := by
  obtain ⟨e0, e1, e2, e3, e4, e5, e6, e7, e8, e9, e10, e11⟩ := idxf t
  rw [pay1]
  simp only [messages, msg, dotP, row]
  have hy1 : (y 1).val < 256 := (y 1).isLt
  have h0 : ∀ k : Fin 256, iblk1 V c 0 t (ix2 (y 0) k) = V c main_v5 (ix2 (i 0) k) := fun k => by
    show V c main_v5 (((cfg1.win 0).blk t).view.emb _) = _
    congr 1; funext a; apply Fin.ext
    match a with
    | ⟨0, _⟩ => show win1_0.index t (0 : Fin 2) * 5000 + 1 * (y 0).val = (i 0).val; omega
    | ⟨1, _⟩ => show win1_0.index t (1 : Fin 2) * 256 + 1 * k.val = k.val; omega
  have h1 : ∀ k : Fin 256, iblk1 V c 1 t (ix2 (y 0) k) = V c main_arg2 (ix2 (i 0) k) := fun k => by
    show V c main_arg2 (((cfg1.win 1).blk t).view.emb _) = _
    congr 1; funext a; apply Fin.ext
    match a with
    | ⟨0, _⟩ => show win1_1.index t (0 : Fin 2) * 5000 + 1 * (y 0).val = (i 0).val; omega
    | ⟨1, _⟩ => show win1_1.index t (1 : Fin 2) * 256 + 1 * k.val = k.val; omega
  have h2 : ∀ k : Fin 256, iblk1 V c 2 t (ix2 k (y 1)) = V c main_v13 (ix2 k (i 1)) := fun k => by
    show V c main_v13 (((cfg1.win 2).blk t).view.emb _) = _
    congr 1; funext a; apply Fin.ext
    match a with
    | ⟨0, _⟩ => show win1_2.index t (0 : Fin 2) * 256 + 1 * k.val = k.val; omega
    | ⟨1, _⟩ => show win1_2.index t (1 : Fin 2) * 256 + 1 * (y 1).val = (i 1).val; omega
  have h3 : ∀ k : Fin 256, iblk1 V c 3 t (ix2 k (y 1)) = V c main_v14 (ix2 k (i 1)) := fun k => by
    show V c main_v14 (((cfg1.win 3).blk t).view.emb _) = _
    congr 1; funext a; apply Fin.ext
    match a with
    | ⟨0, _⟩ => show win1_3.index t (0 : Fin 2) * 256 + 1 * k.val = k.val; omega
    | ⟨1, _⟩ => show win1_3.index t (1 : Fin 2) * 256 + 1 * (y 1).val = (i 1).val; omega
  have h4 : iblk1 V c 4 t (ix2 0 (y 1)) = V c main_v15 (ix2 0 (i 1)) := by
    show V c main_v15 (((cfg1.win 4).blk t).view.emb _) = _
    congr 1; funext a; apply Fin.ext
    match a with
    | ⟨0, _⟩ => show win1_4.index t (0 : Fin 2) * 1 + 1 * 0 = 0; omega
    | ⟨1, _⟩ => show win1_4.index t (1 : Fin 2) * 256 + 1 * (y 1).val = (i 1).val; omega
  simp only [h0, h1, h2, h3, h4]

/-- What point `t` writes back to the row-block output is block `t` of the stage's value on the arrays as found. -/
theorem flushed (c : Dev nD) (t : Fin cfg1.N) :
    (dat1 V c).flushed 5 t = ((cfg1.win 5).blk t).view.read (Elt Ideal) (messages (V c main_v5) (V c main_arg2) (V c main_v13) (V c main_v14) (V c main_v15)) := by
  show (cfg1.win 5).cut (grid1.coords t) ((dat1 V c).after 5 t) = _
  rw [after1_5]
  unfold out1_5
  rw [View.canon_unit_zero hz]
  simp only [View.ld_unit_zero (S := S5000x256) hz, View.ld_unit_zero (S := S256x256) hz, View.ld_unit_zero (S := S1x256) hz]
  obtain ⟨e0, e1, e2, e3, e4, e5, e6, e7, e8, e9, e10, e11⟩ := idxf t
  funext j
  refine point V c t j (((cfg1.win 5).blk t).view.emb j) ?_ ?_
  · show win1_5.index t (0 : Fin 2) * 5000 + 1 * (j 0).val = t.val * 5000 + (j 0).val; omega
  · show win1_5.index t (1 : Fin 2) * 256 + 1 * (j 1).val = (j 1).val; omega

theorem mem_blk (t : Fin cfg1.N) (i : S200000x256.Idx) :
    i ∈ ((cfg1.win 5).blk t).view.set ↔ ∀ a : Fin 2, win1_5.index t a * S5000x256.size a ≤ (i a).val
      ∧ (i a).val < win1_5.index t a * S5000x256.size a + S5000x256.size a := by
  show i ∈ ((View.whole main_v16).slice (win1_5.rect t)).set ↔ _
  rw [View.set_slice_whole, Rect.mem_set_unit]
  exact Iff.rfl

/-- Every row lies in the block of the point numbered by the row's quotient by the block height. -/
theorem cover (i : S200000x256.Idx) :
    ∃ t : Fin cfg1.N, (cfg1.win 5).flush t = true ∧ i ∈ ((cfg1.win 5).blk t).view.set := by
  have hN : grid1.N = 40 := N_1
  have hi0 : (i 0).val < 200000 := (i 0).isLt
  have hi1 : (i 1).val < 256 := (i 1).isLt
  have ht : (i 0).val / 5000 < grid1.N := by rw [hN]; omega
  obtain ⟨e0, e1, e2, e3, e4, e5, e6, e7, e8, e9, e10, e11⟩ := idxf ⟨(i 0).val / 5000, ht⟩
  refine ⟨⟨(i 0).val / 5000, ht⟩, flush1_5 _, ?_⟩
  rw [mem_blk]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    rw [e10]; show (i 0).val / 5000 * 5000 ≤ (i 0).val ∧ (i 0).val < (i 0).val / 5000 * 5000 + 5000; omega
  | ⟨1, _⟩ =>
    show win1_5.index ⟨(i 0).val / 5000, ht⟩ (1 : Fin 2) * 256 ≤ (i 1).val
      ∧ (i 1).val < win1_5.index ⟨(i 0).val / 5000, ht⟩ (1 : Fin 2) * 256 + 256
    rw [e11]; omega

/-- After the launch the row-block output array is the stage's value on the arrays the launch found. -/
theorem final (c : Dev nD) : (dat1 V c).arrAt 5 cfg1.N = messages (V c main_v5) (V c main_arg2) (V c main_v13) (V c main_v14) (V c main_v15) :=
  (dat1 V c).arrAt_eq_of_cover 5 _ (fun t _ => flushed V c t) cover

end Cert.KernelIdeal.Reg1

end
-- ==== Proof.HostGlue.lean ====
/-
  The host operations between launches that turn per-tile statistics into a mean and a variance, read at a column.

  From an 8 × 8 × 256 array of per-tile column sums the program keeps the first entry of the middle axis, adds the eight
  tiles, and divides by the number of rows; the variance is the same of the sums of squares minus the squared mean; both
  are then laid out as one-row arrays.  For the tile statistics of a 40000-row array these are the array's column mean and
  its variance in the mean-of-squares spelling.
-/
import proofs.«129683_j53085795779156_2_alg».proof.Proof.RegionCommon

set_option maxRecDepth 16384

noncomputable section

namespace Cert.KernelIdeal.HostGlue

open Idealize.ShloMosaic Idealize.ShloMosaic.TcCoe Idealize.SL.Sem Idealize.ShloMosaic.ValueIdx
open Cert.KernelIdeal Cert.KernelIdeal.Gen Cell BnStats

/-- The first entry of the middle axis of each tile, as an 8 × 256 array. -/
def tile0 (s : FVec Ideal S8x8x256 .f32) : FVec Ideal S8x256 .f32 :=
  shapeCast S8x256 (extractStridedSlice S8x1x256 ![0, 0, 0] s slices_S8x8x256_S8x1x256_0_0_0) shapeCasts_S8x1x256_S8x256

theorem tile0_apply (s : FVec Ideal S8x8x256 .f32) (t : Fin 8) (c : Fin 256) : tile0 s (ix2 t c) = s (ix3 t 0 c) := by
  unfold tile0
  refine (shapeCast_apply _ shapeCasts_S8x1x256_S8x256 (ix2 t c) (ix3 t 0 c) ?_).trans ?_
  · rw [Shape.rowMajor_val_three, Shape.rowMajor_val_two]; simp
  exact extractStridedSlice_apply ![0, 0, 0] s slices_S8x8x256_S8x1x256_0_0_0 (ix3 t 0 c) (ix3 t 0 c) (fun a => match a with
    | ⟨0, _⟩ => by show t.val = 0 + t.val; omega
    | ⟨1, _⟩ => by show (0 : Nat) = 0 + 0; omega
    | ⟨2, _⟩ => by show c.val = 0 + c.val; omega)

/-- The eight tiles added. -/
def colTot (s : FVec Ideal S8x8x256 .f32) : FVec Ideal S256 .f32 :=
  Host.reduceAdd (F := Ideal) (tile0 s) (constant (F := Ideal) S_ .f32 0x00000000#32) reducesTo_S8x256_S256_d0 h_S_

theorem colTot_apply (s : FVec Ideal S8x8x256 .f32) (c : Fin 256) : colTot s (ix1 c) = ∑ t : Fin 8, s (ix3 t 0 c) := by
  unfold colTot
  simp only [Host.reduceAdd, Ideal.hostReduceAdd_def]
  rw [Ideal.hostReduceAdd_single reducesTo_S8x256_S256_d0 (by decide)]
  rw [constant_apply, Ideal.ofBits_zero_f32, zero_add]
  refine Finset.sum_congr rfl fun t _ => ?_
  refine Eq.trans (congrArg (tile0 s) (funext fun a => Fin.ext (by match a with | ⟨0, _⟩ => rfl | ⟨1, _⟩ => rfl))) (tile0_apply s t c)

/-- The number of rows, as the host spells it: a splat of the 40000.0 word. -/
def rowsN : FVec Ideal S256 .f32 := broadcastInDim S256 ![] bcast_S_S256 (constant (F := Ideal) S_ .f32 0x471C4000#32)

/-- The extended real the 40000.0 word denotes. -/
abbrev n40 : EReal := Ideal.ofBits .f32 0x471C4000#32

theorem rowsN_apply (i : S256.Idx) : rowsN i = n40 :=
  (broadcastInDim_apply _ bcast_S_S256 (constant (F := Ideal) S_ .f32 0x471C4000#32) i (fun a => a.elim0) (fun a => a.elim0)).trans rfl

/-- The mean, as the host computes it from the tile sums. -/
def meanH (s : FVec Ideal S8x8x256 .f32) : FVec Ideal S256 .f32 := Host.divf (F := Ideal) (colTot s) rowsN

/-- The variance, as the host computes it from the tile sums and the tile sums of squares. -/
def varH (s q : FVec Ideal S8x8x256 .f32) : FVec Ideal S256 .f32 :=
  subf (Host.divf (F := Ideal) (colTot q) rowsN) (mulf (meanH s) (meanH s))

/-- A 256-vector laid out as a one-row array. -/
def asRow (v : FVec Ideal S256 .f32) : FVec Ideal S1x256 .f32 := shapeCast S1x256 v shapeCasts_S256_S1x256

theorem asRow_apply (v : FVec Ideal S256 .f32) (c : Fin 256) : asRow v (ix2 0 c) = v (ix1 c) := by
  unfold asRow
  refine shapeCast_apply _ shapeCasts_S256_S1x256 (ix2 0 c) (ix1 c) ?_
  rw [Shape.rowMajor_val_two, Shape.rowMajor_val_one]; simp

theorem meanH_apply (s : FVec Ideal S8x8x256 .f32) (c : Fin 256) :
    meanH s (ix1 c) = Ideal.div (∑ t : Fin 8, s (ix3 t 0 c)) n40 := by
  show FloatOps.hostDivf (colTot s (ix1 c)) (rowsN (ix1 c)) = _
  rw [colTot_apply, rowsN_apply, Ideal.hostDivf_def]

/-- For the tile sums of a 40000-row array the host's mean is the column mean. -/
theorem row_mean (L : Arr 40000 256) : row (asRow (meanH (tileSum L))) = mean L n40 := by
  funext c
  show asRow (meanH (tileSum L)) (ix2 0 c) = _
  rw [asRow_apply, meanH_apply]
  unfold mean colSum tileSum
  rw [sum_rows_eq_tiles]

/-- For the tile sums and tile sums of squares of a 40000-row array the host's variance is the mean of the squares
    minus the squared mean. -/
theorem row_var (L : Arr 40000 256) : row (asRow (varH (tileSum L) (tileSumSq L))) = varSq L n40 := by
  funext c
  show asRow (varH (tileSum L) (tileSumSq L)) (ix2 0 c) = _
  rw [asRow_apply]
  show FloatOps.hostDivf (colTot (tileSumSq L) (ix1 c)) (rowsN (ix1 c)) - meanH (tileSum L) (ix1 c) * meanH (tileSum L) (ix1 c) = _
  rw [colTot_apply, rowsN_apply, Ideal.hostDivf_def, meanH_apply]
  unfold varSq mean colSum colSumSq tileSum tileSumSq
  rw [sum_rows_eq_tiles, sum_rows_eq_tiles (fun r => L (ix2 r c))]

end Cert.KernelIdeal.HostGlue

end
-- ==== Proof.ChainA.lean ====
/-
  The program's run followed from the launch memory to the three aggregates: the two message launches read the taken rows, the edge attributes, the halves of the message weight and the bias; the host then sums the messages and the taken boundary rows into their target cells.
-/
import proofs.«129683_j53085795779156_2_alg».proof.Proof.KernelRun
import proofs.«129683_j53085795779156_2_alg».proof.Proof.Region0
import proofs.«129683_j53085795779156_2_alg».proof.Proof.Region1
import proofs.«129683_j53085795779156_2_alg».proof.Proof.HostGlue

set_option maxRecDepth 16384

noncomputable section

namespace Cert.KernelIdeal.Chain

open Idealize.ShloMosaic Idealize.ShloMosaic.TcCoe Idealize.SL.Sem Idealize.ShloMosaic.ValueIdx
open Idealize.ShloMosaic.Pipeline (Dat)
open Cert.KernelIdeal Cert.KernelIdeal.Gen Cell Cert.KernelIdeal.RegCommon Cert.KernelIdeal.HostGlue

variable (m : (ℓ : Loc nD τ sig) → Buf (Elt Ideal) ℓ) (ρ : Dev nD → PrngReg)

/-- No operation of a host stretch writes the buffer, so the stretch leaves it as it was. -/
local macro "host_keep" ops:ident : term => `(StableHlo.after_of_forall_not_mem _ _ (List.forall_iff_forall_mem.mp (by
  simp only [$ops:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide))))

/-- A 40000 × 256 array of zeros, as the host spells it. -/
def zeros40k : FVec Ideal S40000x256 .f32 :=
  broadcastInDim S40000x256 ![] bcast_S_S40000x256 (constant (F := Ideal) S_ .f32 0x00000000#32)

/-- A 256-vector of zeros, as the host spells it. -/
def zeros256 : FVec Ideal S256 .f32 := broadcastInDim S256 ![] bcast_S_S256 (constant (F := Ideal) S_ .f32 0x00000000#32)

/-- The target cells of 200000 edges: the second row of the 2 × 200000 index array, as a column of scatter indices. -/
def segIdx200 (ix : IVec S2x200000 32) : IVec S200000x1 32 :=
  broadcastInDim S200000x1 ![0] bcast_S200000_S200000x1_0
    (shapeCast S200000 (extractStridedSlice S1x200000 ![1, 0] ix slices_S2x200000_S1x200000_1_0) shapeCasts_S1x200000_S200000)

/-- The same for 120000 boundary relations. -/
def segIdx120 (ix : IVec S2x120000 32) : IVec S120000x1 32 :=
  broadcastInDim S120000x1 ![0] bcast_S120000_S120000x1_0
    (shapeCast S120000 (extractStridedSlice S1x120000 ![1, 0] ix slices_S2x120000_S1x120000_1_0) shapeCasts_S1x120000_S120000)

/-- Messages of 200000 edges summed into their target cells. -/
def aggOf200 (ix : IVec S2x200000 32) (u : FVec Ideal S200000x256 .f32) : FVec Ideal S40000x256 .f32 :=
  Host.scatterAdd (F := Ideal) scatter_S40000x256_S200000x1_S200000x256_1_0_0_1 zeros40k (segIdx200 ix) u

/-- Boundary features of 120000 relations summed into their target cells. -/
def aggOf120 (ix : IVec S2x120000 32) (u : FVec Ideal S120000x256 .f32) : FVec Ideal S40000x256 .f32 :=
  Host.scatterAdd (F := Ideal) scatter_S40000x256_S120000x1_S120000x256_1_0_0_1 zeros40k (segIdx120 ix) u

/-- The residual scale 1 + ε as a 1 × 1 array. -/
def scaleOf (e : FVec Ideal S1 .f32) : FVec Ideal S1x1 .f32 :=
  shapeCast S1x1 (addf (constant (F := Ideal) S_ .f32 0x3F800000#32) (shapeCast S_ e shapeCasts_S1_S_)) shapeCasts_S_S1x1

/-- The top and bottom halves of a 512 × 256 weight. -/
def topHalf (w : FVec Ideal S512x256 .f32) : FVec Ideal S256x256 .f32 := extractStridedSlice S256x256 ![0, 0] w slices_S512x256_S256x256_0_0
def botHalf (w : FVec Ideal S512x256 .f32) : FVec Ideal S256x256 .f32 := extractStridedSlice S256x256 ![256, 0] w slices_S512x256_S256x256_256_0

/-- The three 256-row blocks of the 768 × 256 combining weight. -/
def wcBlock0 (w : FVec Ideal S768x256 .f32) : FVec Ideal S256x256 .f32 := extractStridedSlice S256x256 ![0, 0] w slices_S768x256_S256x256_0_0
def wcBlock1 (w : FVec Ideal S768x256 .f32) : FVec Ideal S256x256 .f32 := extractStridedSlice S256x256 ![256, 0] w slices_S768x256_S256x256_256_0
def wcBlock2 (w : FVec Ideal S768x256 .f32) : FVec Ideal S256x256 .f32 := extractStridedSlice S256x256 ![512, 0] w slices_S768x256_S256x256_512_0

/-! ## Buffers that no step in between writes keep their contents -/

theorem keep_v2_2_7 (c : Dev nD) : W7 m ρ c (Proc.devRef .tc main_v2) = W2 m ρ c (Proc.devRef .tc main_v2) :=
  calc W7 m ρ c (Proc.devRef .tc main_v2)
    _ = W6 m ρ c (Proc.devRef .tc main_v2) := host_keep hostOps0_6
    _ = W5 m ρ c (Proc.devRef .tc main_v2) := host_keep hostOps0_5
    _ = W4 m ρ c (Proc.devRef .tc main_v2) := host_keep hostOps0_4
    _ = W3 m ρ c (Proc.devRef .tc main_v2) := host_keep hostOps0_3
    _ = W2 m ρ c (Proc.devRef .tc main_v2) := host_keep hostOps0_2

theorem keep_arg1_0_7 (c : Dev nD) : W7 m ρ c (Proc.devRef .tc main_arg1) = m ((c : Thread nD τ).loc main_arg1) :=
  calc W7 m ρ c (Proc.devRef .tc main_arg1)
    _ = W6 m ρ c (Proc.devRef .tc main_arg1) := host_keep hostOps0_6
    _ = W5 m ρ c (Proc.devRef .tc main_arg1) := host_keep hostOps0_5
    _ = W4 m ρ c (Proc.devRef .tc main_arg1) := host_keep hostOps0_4
    _ = W3 m ρ c (Proc.devRef .tc main_arg1) := host_keep hostOps0_3
    _ = W2 m ρ c (Proc.devRef .tc main_arg1) := host_keep hostOps0_2
    _ = W1 m ρ c (Proc.devRef .tc main_arg1) := host_keep hostOps0_1
    _ = W0 m ρ c (Proc.devRef .tc main_arg1) := host_keep hostOps0
    _ = m ((c : Thread nD τ).loc main_arg1) := rfl

theorem keep_arg4_0_6 (c : Dev nD) : W6 m ρ c (Proc.devRef .tc main_arg4) = m ((c : Thread nD τ).loc main_arg4) :=
  calc W6 m ρ c (Proc.devRef .tc main_arg4)
    _ = W5 m ρ c (Proc.devRef .tc main_arg4) := host_keep hostOps0_5
    _ = W4 m ρ c (Proc.devRef .tc main_arg4) := host_keep hostOps0_4
    _ = W3 m ρ c (Proc.devRef .tc main_arg4) := host_keep hostOps0_3
    _ = W2 m ρ c (Proc.devRef .tc main_arg4) := host_keep hostOps0_2
    _ = W1 m ρ c (Proc.devRef .tc main_arg4) := host_keep hostOps0_1
    _ = W0 m ρ c (Proc.devRef .tc main_arg4) := host_keep hostOps0
    _ = m ((c : Thread nD τ).loc main_arg4) := rfl

theorem keep_arg5_0_6 (c : Dev nD) : W6 m ρ c (Proc.devRef .tc main_arg5) = m ((c : Thread nD τ).loc main_arg5) :=
  calc W6 m ρ c (Proc.devRef .tc main_arg5)
    _ = W5 m ρ c (Proc.devRef .tc main_arg5) := host_keep hostOps0_5
    _ = W4 m ρ c (Proc.devRef .tc main_arg5) := host_keep hostOps0_4
    _ = W3 m ρ c (Proc.devRef .tc main_arg5) := host_keep hostOps0_3
    _ = W2 m ρ c (Proc.devRef .tc main_arg5) := host_keep hostOps0_2
    _ = W1 m ρ c (Proc.devRef .tc main_arg5) := host_keep hostOps0_1
    _ = W0 m ρ c (Proc.devRef .tc main_arg5) := host_keep hostOps0
    _ = m ((c : Thread nD τ).loc main_arg5) := rfl

theorem keep_v5_4_9 (c : Dev nD) : W9 m ρ c (Proc.devRef .tc main_v5) = W4 m ρ c (Proc.devRef .tc main_v5) :=
  calc W9 m ρ c (Proc.devRef .tc main_v5)
    _ = W8 m ρ c (Proc.devRef .tc main_v5) := host_keep hostOps1
    _ = W7 m ρ c (Proc.devRef .tc main_v5) := W8_of_ne m ρ c main_v5 (by decide)
    _ = W6 m ρ c (Proc.devRef .tc main_v5) := host_keep hostOps0_6
    _ = W5 m ρ c (Proc.devRef .tc main_v5) := host_keep hostOps0_5
    _ = W4 m ρ c (Proc.devRef .tc main_v5) := host_keep hostOps0_4

theorem keep_arg2_0_9 (c : Dev nD) : W9 m ρ c (Proc.devRef .tc main_arg2) = m ((c : Thread nD τ).loc main_arg2) :=
  calc W9 m ρ c (Proc.devRef .tc main_arg2)
    _ = W8 m ρ c (Proc.devRef .tc main_arg2) := host_keep hostOps1
    _ = W7 m ρ c (Proc.devRef .tc main_arg2) := W8_of_ne m ρ c main_arg2 (by decide)
    _ = W6 m ρ c (Proc.devRef .tc main_arg2) := host_keep hostOps0_6
    _ = W5 m ρ c (Proc.devRef .tc main_arg2) := host_keep hostOps0_5
    _ = W4 m ρ c (Proc.devRef .tc main_arg2) := host_keep hostOps0_4
    _ = W3 m ρ c (Proc.devRef .tc main_arg2) := host_keep hostOps0_3
    _ = W2 m ρ c (Proc.devRef .tc main_arg2) := host_keep hostOps0_2
    _ = W1 m ρ c (Proc.devRef .tc main_arg2) := host_keep hostOps0_1
    _ = W0 m ρ c (Proc.devRef .tc main_arg2) := host_keep hostOps0
    _ = m ((c : Thread nD τ).loc main_arg2) := rfl

theorem keep_arg6_0_8 (c : Dev nD) : W8 m ρ c (Proc.devRef .tc main_arg6) = m ((c : Thread nD τ).loc main_arg6) :=
  calc W8 m ρ c (Proc.devRef .tc main_arg6)
    _ = W7 m ρ c (Proc.devRef .tc main_arg6) := W8_of_ne m ρ c main_arg6 (by decide)
    _ = W6 m ρ c (Proc.devRef .tc main_arg6) := host_keep hostOps0_6
    _ = W5 m ρ c (Proc.devRef .tc main_arg6) := host_keep hostOps0_5
    _ = W4 m ρ c (Proc.devRef .tc main_arg6) := host_keep hostOps0_4
    _ = W3 m ρ c (Proc.devRef .tc main_arg6) := host_keep hostOps0_3
    _ = W2 m ρ c (Proc.devRef .tc main_arg6) := host_keep hostOps0_2
    _ = W1 m ρ c (Proc.devRef .tc main_arg6) := host_keep hostOps0_1
    _ = W0 m ρ c (Proc.devRef .tc main_arg6) := host_keep hostOps0
    _ = m ((c : Thread nD τ).loc main_arg6) := rfl

theorem keep_arg7_0_8 (c : Dev nD) : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := host_keep hostOps0_6
    _ = W5 m ρ c (Proc.devRef .tc main_arg7) := host_keep hostOps0_5
    _ = W4 m ρ c (Proc.devRef .tc main_arg7) := host_keep hostOps0_4
    _ = W3 m ρ c (Proc.devRef .tc main_arg7) := host_keep hostOps0_3
    _ = W2 m ρ c (Proc.devRef .tc main_arg7) := host_keep hostOps0_2
    _ = W1 m ρ c (Proc.devRef .tc main_arg7) := host_keep hostOps0_1
    _ = W0 m ρ c (Proc.devRef .tc main_arg7) := host_keep hostOps0
    _ = m ((c : Thread nD τ).loc main_arg7) := rfl

theorem keep_arg39_0_10 (c : Dev nD) : W10 m ρ c (Proc.devRef .tc main_arg39) = m ((c : Thread nD τ).loc main_arg39) :=
  calc W10 m ρ c (Proc.devRef .tc main_arg39)
    _ = W9 m ρ c (Proc.devRef .tc main_arg39) := W10_of_ne m ρ c main_arg39 (by decide)
    _ = W8 m ρ c (Proc.devRef .tc main_arg39) := host_keep hostOps1
    _ = W7 m ρ c (Proc.devRef .tc main_arg39) := W8_of_ne m ρ c main_arg39 (by decide)
    _ = W6 m ρ c (Proc.devRef .tc main_arg39) := host_keep hostOps0_6
    _ = W5 m ρ c (Proc.devRef .tc main_arg39) := host_keep hostOps0_5
    _ = W4 m ρ c (Proc.devRef .tc main_arg39) := host_keep hostOps0_4
    _ = W3 m ρ c (Proc.devRef .tc main_arg39) := host_keep hostOps0_3
    _ = W2 m ρ c (Proc.devRef .tc main_arg39) := host_keep hostOps0_2
    _ = W1 m ρ c (Proc.devRef .tc main_arg39) := host_keep hostOps0_1
    _ = W0 m ρ c (Proc.devRef .tc main_arg39) := host_keep hostOps0
    _ = m ((c : Thread nD τ).loc main_arg39) := rfl

theorem keep_v12_8_10 (c : Dev nD) : W10 m ρ c (Proc.devRef .tc main_v12) = W8 m ρ c (Proc.devRef .tc main_v12) :=
  calc W10 m ρ c (Proc.devRef .tc main_v12)
    _ = W9 m ρ c (Proc.devRef .tc main_v12) := W10_of_ne m ρ c main_v12 (by decide)
    _ = W8 m ρ c (Proc.devRef .tc main_v12) := host_keep hostOps1

theorem keep_arg40_0_10 (c : Dev nD) : W10 m ρ c (Proc.devRef .tc main_arg40) = m ((c : Thread nD τ).loc main_arg40) :=
  calc W10 m ρ c (Proc.devRef .tc main_arg40)
    _ = W9 m ρ c (Proc.devRef .tc main_arg40) := W10_of_ne m ρ c main_arg40 (by decide)
    _ = W8 m ρ c (Proc.devRef .tc main_arg40) := host_keep hostOps1
    _ = W7 m ρ c (Proc.devRef .tc main_arg40) := W8_of_ne m ρ c main_arg40 (by decide)
    _ = W6 m ρ c (Proc.devRef .tc main_arg40) := host_keep hostOps0_6
    _ = W5 m ρ c (Proc.devRef .tc main_arg40) := host_keep hostOps0_5
    _ = W4 m ρ c (Proc.devRef .tc main_arg40) := host_keep hostOps0_4
    _ = W3 m ρ c (Proc.devRef .tc main_arg40) := host_keep hostOps0_3
    _ = W2 m ρ c (Proc.devRef .tc main_arg40) := host_keep hostOps0_2
    _ = W1 m ρ c (Proc.devRef .tc main_arg40) := host_keep hostOps0_1
    _ = W0 m ρ c (Proc.devRef .tc main_arg40) := host_keep hostOps0
    _ = m ((c : Thread nD τ).loc main_arg40) := rfl

theorem keep_arg41_0_10 (c : Dev nD) : W10 m ρ c (Proc.devRef .tc main_arg41) = m ((c : Thread nD τ).loc main_arg41) :=
  calc W10 m ρ c (Proc.devRef .tc main_arg41)
    _ = W9 m ρ c (Proc.devRef .tc main_arg41) := W10_of_ne m ρ c main_arg41 (by decide)
    _ = W8 m ρ c (Proc.devRef .tc main_arg41) := host_keep hostOps1
    _ = W7 m ρ c (Proc.devRef .tc main_arg41) := W8_of_ne m ρ c main_arg41 (by decide)
    _ = W6 m ρ c (Proc.devRef .tc main_arg41) := host_keep hostOps0_6
    _ = W5 m ρ c (Proc.devRef .tc main_arg41) := host_keep hostOps0_5
    _ = W4 m ρ c (Proc.devRef .tc main_arg41) := host_keep hostOps0_4
    _ = W3 m ρ c (Proc.devRef .tc main_arg41) := host_keep hostOps0_3
    _ = W2 m ρ c (Proc.devRef .tc main_arg41) := host_keep hostOps0_2
    _ = W1 m ρ c (Proc.devRef .tc main_arg41) := host_keep hostOps0_1
    _ = W0 m ρ c (Proc.devRef .tc main_arg41) := host_keep hostOps0
    _ = m ((c : Thread nD τ).loc main_arg41) := rfl

theorem keep_v8_6_10 (c : Dev nD) : W10 m ρ c (Proc.devRef .tc main_v8) = W6 m ρ c (Proc.devRef .tc main_v8) :=
  calc W10 m ρ c (Proc.devRef .tc main_v8)
    _ = W9 m ρ c (Proc.devRef .tc main_v8) := W10_of_ne m ρ c main_v8 (by decide)
    _ = W8 m ρ c (Proc.devRef .tc main_v8) := host_keep hostOps1
    _ = W7 m ρ c (Proc.devRef .tc main_v8) := W8_of_ne m ρ c main_v8 (by decide)
    _ = W6 m ρ c (Proc.devRef .tc main_v8) := host_keep hostOps0_6

theorem keep_arg32_0_10 (c : Dev nD) : W10 m ρ c (Proc.devRef .tc main_arg32) = m ((c : Thread nD τ).loc main_arg32) :=
  calc W10 m ρ c (Proc.devRef .tc main_arg32)
    _ = W9 m ρ c (Proc.devRef .tc main_arg32) := W10_of_ne m ρ c main_arg32 (by decide)
    _ = W8 m ρ c (Proc.devRef .tc main_arg32) := host_keep hostOps1
    _ = W7 m ρ c (Proc.devRef .tc main_arg32) := W8_of_ne m ρ c main_arg32 (by decide)
    _ = W6 m ρ c (Proc.devRef .tc main_arg32) := host_keep hostOps0_6
    _ = W5 m ρ c (Proc.devRef .tc main_arg32) := host_keep hostOps0_5
    _ = W4 m ρ c (Proc.devRef .tc main_arg32) := host_keep hostOps0_4
    _ = W3 m ρ c (Proc.devRef .tc main_arg32) := host_keep hostOps0_3
    _ = W2 m ρ c (Proc.devRef .tc main_arg32) := host_keep hostOps0_2
    _ = W1 m ρ c (Proc.devRef .tc main_arg32) := host_keep hostOps0_1
    _ = W0 m ρ c (Proc.devRef .tc main_arg32) := host_keep hostOps0
    _ = m ((c : Thread nD τ).loc main_arg32) := rfl

theorem keep_arg36_0_10 (c : Dev nD) : W10 m ρ c (Proc.devRef .tc main_arg36) = m ((c : Thread nD τ).loc main_arg36) :=
  calc W10 m ρ c (Proc.devRef .tc main_arg36)
    _ = W9 m ρ c (Proc.devRef .tc main_arg36) := W10_of_ne m ρ c main_arg36 (by decide)
    _ = W8 m ρ c (Proc.devRef .tc main_arg36) := host_keep hostOps1
    _ = W7 m ρ c (Proc.devRef .tc main_arg36) := W8_of_ne m ρ c main_arg36 (by decide)
    _ = W6 m ρ c (Proc.devRef .tc main_arg36) := host_keep hostOps0_6
    _ = W5 m ρ c (Proc.devRef .tc main_arg36) := host_keep hostOps0_5
    _ = W4 m ρ c (Proc.devRef .tc main_arg36) := host_keep hostOps0_4
    _ = W3 m ρ c (Proc.devRef .tc main_arg36) := host_keep hostOps0_3
    _ = W2 m ρ c (Proc.devRef .tc main_arg36) := host_keep hostOps0_2
    _ = W1 m ρ c (Proc.devRef .tc main_arg36) := host_keep hostOps0_1
    _ = W0 m ρ c (Proc.devRef .tc main_arg36) := host_keep hostOps0
    _ = m ((c : Thread nD τ).loc main_arg36) := rfl

theorem keep_arg9_0_10 (c : Dev nD) : W10 m ρ c (Proc.devRef .tc main_arg9) = m ((c : Thread nD τ).loc main_arg9) :=
  calc W10 m ρ c (Proc.devRef .tc main_arg9)
    _ = W9 m ρ c (Proc.devRef .tc main_arg9) := W10_of_ne m ρ c main_arg9 (by decide)
    _ = W8 m ρ c (Proc.devRef .tc main_arg9) := host_keep hostOps1
    _ = W7 m ρ c (Proc.devRef .tc main_arg9) := W8_of_ne m ρ c main_arg9 (by decide)
    _ = W6 m ρ c (Proc.devRef .tc main_arg9) := host_keep hostOps0_6
    _ = W5 m ρ c (Proc.devRef .tc main_arg9) := host_keep hostOps0_5
    _ = W4 m ρ c (Proc.devRef .tc main_arg9) := host_keep hostOps0_4
    _ = W3 m ρ c (Proc.devRef .tc main_arg9) := host_keep hostOps0_3
    _ = W2 m ρ c (Proc.devRef .tc main_arg9) := host_keep hostOps0_2
    _ = W1 m ρ c (Proc.devRef .tc main_arg9) := host_keep hostOps0_1
    _ = W0 m ρ c (Proc.devRef .tc main_arg9) := host_keep hostOps0
    _ = m ((c : Thread nD τ).loc main_arg9) := rfl

/-- The rows of cell features taken at the source cells of the upper, lower and boundary relations, as the program's
    take leaves them. -/
def takeU (c : Dev nD) : FVec Ideal S200000x256 .f32 := (W2 m ρ c (Proc.devRef .tc main_v2))
def takeD (c : Dev nD) : FVec Ideal S200000x256 .f32 := (W4 m ρ c (Proc.devRef .tc main_v5))
def takeB (c : Dev nD) : FVec Ideal S120000x256 .f32 := (W6 m ρ c (Proc.devRef .tc main_v8))

/-- The upper and lower messages. -/
def msgU (c : Dev nD) : FVec Ideal S200000x256 .f32 :=
  messages (takeU m ρ c) (m ((c : Thread nD τ).loc main_arg1)) (topHalf (m ((c : Thread nD τ).loc main_arg4))) (botHalf (m ((c : Thread nD τ).loc main_arg4))) (asRow (m ((c : Thread nD τ).loc main_arg5)))
def msgD (c : Dev nD) : FVec Ideal S200000x256 .f32 :=
  messages (takeD m ρ c) (m ((c : Thread nD τ).loc main_arg2)) (topHalf (m ((c : Thread nD τ).loc main_arg6))) (botHalf (m ((c : Thread nD τ).loc main_arg6))) (asRow (m ((c : Thread nD τ).loc main_arg7)))

/-- The three aggregates. -/
def aggU (c : Dev nD) : FVec Ideal S40000x256 .f32 := aggOf200 (m ((c : Thread nD τ).loc main_arg39)) (msgU m ρ c)
def aggD (c : Dev nD) : FVec Ideal S40000x256 .f32 := aggOf200 (m ((c : Thread nD τ).loc main_arg40)) (msgD m ρ c)
def aggB (c : Dev nD) : FVec Ideal S40000x256 .f32 := aggOf120 (m ((c : Thread nD τ).loc main_arg41)) (takeB m ρ c)

/-! ## The launches' inputs and outputs -/

theorem e0_0 (c : Dev nD) : V7 m ρ c main_v2 = takeU m ρ c := keep_v2_2_7 m ρ c
theorem e0_1 (c : Dev nD) : V7 m ρ c main_arg1 = (m ((c : Thread nD τ).loc main_arg1)) := keep_arg1_0_7 m ρ c
theorem e0_2 (c : Dev nD) : V7 m ρ c main_v9 = topHalf (m ((c : Thread nD τ).loc main_arg4)) := by
  show StableHlo.after hostOps0_6 (W6 m ρ c) (Proc.devRef .tc main_v9) = _
  dsimp only [hostOps0_6]
  after_results
  all_goals rfl
theorem e0_3 (c : Dev nD) : V7 m ρ c main_v10 = botHalf (m ((c : Thread nD τ).loc main_arg4)) := by
  show StableHlo.after hostOps0_6 (W6 m ρ c) (Proc.devRef .tc main_v10) = _
  dsimp only [hostOps0_6]
  after_results
  all_goals rfl
theorem e0_4 (c : Dev nD) : V7 m ρ c main_v11 = asRow (m ((c : Thread nD τ).loc main_arg5)) := by
  show StableHlo.after hostOps0_6 (W6 m ρ c) (Proc.devRef .tc main_v11) = _
  dsimp only [hostOps0_6]
  after_results
  all_goals rfl
theorem o0 (c : Dev nD) : W8 m ρ c (Proc.devRef .tc main_v12) = msgU m ρ c :=
  (W8_arr m ρ c 5).trans ((Reg0.final (V7 m ρ) c).trans (by
    rw [e0_0 m ρ c, e0_1 m ρ c, e0_2 m ρ c, e0_3 m ρ c, e0_4 m ρ c]
    all_goals rfl))
theorem e1_0 (c : Dev nD) : V9 m ρ c main_v5 = takeD m ρ c := keep_v5_4_9 m ρ c
theorem e1_1 (c : Dev nD) : V9 m ρ c main_arg2 = (m ((c : Thread nD τ).loc main_arg2)) := keep_arg2_0_9 m ρ c
theorem e1_2 (c : Dev nD) : V9 m ρ c main_v13 = topHalf (m ((c : Thread nD τ).loc main_arg6)) := by
  show StableHlo.after hostOps1 (W8 m ρ c) (Proc.devRef .tc main_v13) = _
  dsimp only [hostOps1]
  after_results
  all_goals (rw [keep_arg6_0_8 m ρ c])
  all_goals rfl
theorem e1_3 (c : Dev nD) : V9 m ρ c main_v14 = botHalf (m ((c : Thread nD τ).loc main_arg6)) := by
  show StableHlo.after hostOps1 (W8 m ρ c) (Proc.devRef .tc main_v14) = _
  dsimp only [hostOps1]
  after_results
  all_goals (rw [keep_arg6_0_8 m ρ c])
  all_goals rfl
theorem e1_4 (c : Dev nD) : V9 m ρ c main_v15 = asRow (m ((c : Thread nD τ).loc main_arg7)) := by
  show StableHlo.after hostOps1 (W8 m ρ c) (Proc.devRef .tc main_v15) = _
  dsimp only [hostOps1]
  after_results
  all_goals (rw [keep_arg7_0_8 m ρ c])
  all_goals rfl
theorem o1 (c : Dev nD) : W10 m ρ c (Proc.devRef .tc main_v16) = msgD m ρ c :=
  (W10_arr m ρ c 5).trans ((Reg1.final (V9 m ρ) c).trans (by
    rw [e1_0 m ρ c, e1_1 m ρ c, e1_2 m ρ c, e1_3 m ρ c, e1_4 m ρ c]
    all_goals rfl))
theorem a_v21 (c : Dev nD) : W11 m ρ c (Proc.devRef .tc main_v21) = aggU m ρ c := by
  show StableHlo.after hostOps2 (W10 m ρ c) (Proc.devRef .tc main_v21) = _
  dsimp only [hostOps2]
  after_results
  all_goals (rw [keep_arg39_0_10 m ρ c, keep_v12_8_10 m ρ c, o0 m ρ c])
  all_goals rfl
theorem a_v26 (c : Dev nD) : W11 m ρ c (Proc.devRef .tc main_v26) = aggD m ρ c := by
  show StableHlo.after hostOps2 (W10 m ρ c) (Proc.devRef .tc main_v26) = _
  dsimp only [hostOps2]
  after_results
  all_goals (rw [keep_arg40_0_10 m ρ c, o1 m ρ c])
  all_goals rfl
theorem a_v31 (c : Dev nD) : W11 m ρ c (Proc.devRef .tc main_v31) = aggB m ρ c := by
  show StableHlo.after hostOps2 (W10 m ρ c) (Proc.devRef .tc main_v31) = _
  dsimp only [hostOps2]
  after_results
  all_goals (rw [keep_arg41_0_10 m ρ c, keep_v8_6_10 m ρ c])
  all_goals rfl
theorem a_v32 (c : Dev nD) : W11 m ρ c (Proc.devRef .tc main_v32) = wcBlock0 (m ((c : Thread nD τ).loc main_arg32)) := by
  show StableHlo.after hostOps2 (W10 m ρ c) (Proc.devRef .tc main_v32) = _
  dsimp only [hostOps2]
  after_results
  all_goals (rw [keep_arg32_0_10 m ρ c])
  all_goals rfl
theorem a_v33 (c : Dev nD) : W11 m ρ c (Proc.devRef .tc main_v33) = wcBlock1 (m ((c : Thread nD τ).loc main_arg32)) := by
  show StableHlo.after hostOps2 (W10 m ρ c) (Proc.devRef .tc main_v33) = _
  dsimp only [hostOps2]
  after_results
  all_goals (rw [keep_arg32_0_10 m ρ c])
  all_goals rfl
theorem a_v34 (c : Dev nD) : W11 m ρ c (Proc.devRef .tc main_v34) = wcBlock2 (m ((c : Thread nD τ).loc main_arg32)) := by
  show StableHlo.after hostOps2 (W10 m ρ c) (Proc.devRef .tc main_v34) = _
  dsimp only [hostOps2]
  after_results
  all_goals (rw [keep_arg32_0_10 m ρ c])
  all_goals rfl
theorem a_v37 (c : Dev nD) : W11 m ρ c (Proc.devRef .tc main_v37) = scaleOf (m ((c : Thread nD τ).loc main_arg36)) := by
  show StableHlo.after hostOps2 (W10 m ρ c) (Proc.devRef .tc main_v37) = _
  dsimp only [hostOps2]
  after_results
  all_goals (rw [keep_arg36_0_10 m ρ c])
  all_goals rfl
theorem a_v38 (c : Dev nD) : W11 m ρ c (Proc.devRef .tc main_v38) = asRow (m ((c : Thread nD τ).loc main_arg9)) := by
  show StableHlo.after hostOps2 (W10 m ρ c) (Proc.devRef .tc main_v38) = _
  dsimp only [hostOps2]
  after_results
  all_goals (rw [keep_arg9_0_10 m ρ c])
  all_goals rfl

end Cert.KernelIdeal.Chain

end
-- ==== Proof.Region2.lean ====
/-
  The first dense layer of a branch with its statistics: per block of 5000 cells, (aggregate + scale · features) · W + b, and the block's column sums and column sums of squares; the blocks tile the cell array and the statistics array.
-/
import proofs.«129683_j53085795779156_2_alg».proof.Proof.RegionCommon

set_option maxRecDepth 16384

noncomputable section

namespace Cert.KernelIdeal.Reg2

open Idealize.ShloMosaic Idealize.ShloMosaic.TcCoe Idealize.SL.Sem Idealize.ShloMosaic.ValueIdx
open Idealize.ShloMosaic.Pipeline (Dat)
open Cert.KernelIdeal Cert.KernelIdeal.Gen Cell Cert.KernelIdeal.RegCommon

/-- The dense layer over the residual mix, at an entry of the block. -/
theorem pay1 (x0 x1 : Vec Ideal S5000x256 .f32) (x2 : Vec Ideal S1x1 .f32) (x3 : Vec Ideal S256x256 .f32) (x4 : Vec Ideal S1x256 .f32)
    (j : S5000x256.Idx) :
    k2_pay1 x0 x1 x2 x3 x4 j
      = (∑ k : Fin 256, (x0 (ix2 (j 0) k) + x2 (ix2 0 0) * x1 (ix2 (j 0) k)) * x3 (ix2 k (j 1))) + x4 (ix2 0 (j 1)) := by
  unfold k2_pay1
  simp only [shapeCast_self]
  rw [addf_apply, mm, bcastRow]
  simp only [truncf_apply, addf_apply, mulf_apply, broadcast_apply]
  rw [scal x2]

theorem pay2 (x0 x1 : Vec Ideal S5000x256 .f32) (x2 : Vec Ideal S1x1 .f32) (x3 : Vec Ideal S256x256 .f32) (x4 : Vec Ideal S1x256 .f32)
    (y : S1x8x256.Idx) :
    k2_pay2 x0 x1 x2 x3 x4 y = ∑ q : Fin 5000, k2_pay1 x0 x1 x2 x3 x4 (ix2 q (y 2)) := by
  unfold k2_pay2
  simp only [shapeCast_self]
  exact colBlock _ y

theorem pay3 (x0 x1 : Vec Ideal S5000x256 .f32) (x2 : Vec Ideal S1x1 .f32) (x3 : Vec Ideal S256x256 .f32) (x4 : Vec Ideal S1x256 .f32)
    (y : S1x8x256.Idx) :
    k2_pay3 x0 x1 x2 x3 x4 y = ∑ q : Fin 5000, k2_pay1 x0 x1 x2 x3 x4 (ix2 q (y 2)) * k2_pay1 x0 x1 x2 x3 x4 (ix2 q (y 2)) := by
  unfold k2_pay3
  simp only [shapeCast_self]
  exact (colBlock _ y).trans (Finset.sum_congr rfl fun q _ => mulf_apply _ _ _)

variable (V : (c : Dev nD) → (b : Ref sig .tc) → Buf (Elt Ideal) ((c : Thread nD τ).loc b))

/-- The index maps over the grid. -/
theorem idxf : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = t.val
    ∧ win2_5.index t (1 : Fin 2) = 0
    ∧ win2_6.index t (0 : Fin 3) = t.val
    ∧ win2_6.index t (1 : Fin 3) = 0
    ∧ win2_6.index t (2 : Fin 3) = 0
    ∧ win2_7.index t (0 : Fin 3) = t.val
    ∧ win2_7.index t (1 : Fin 3) = 0
    ∧ win2_7.index t (2 : Fin 3) = 0 :=
  (by decide +kernel : ∀ t : Fin grid2.N, _)

/-- At a point, the body's value at a block entry is the layer's value at the array entry the block entry sits at. -/
theorem point (c : Dev nD) (t : Fin cfg2.N) (y : S5000x256.Idx) (i : S40000x256.Idx)
    (hi0 : (i 0).val = t.val * 5000 + (y 0).val) (hi1 : (i 1).val = (y 1).val) :
    k2_pay1 (iblk2 V c 0 t) (iblk2 V c 1 t) (iblk2 V c 2 t) (iblk2 V c 3 t) (iblk2 V c 4 t) y = layer1 (V c main_v21) (V c main_arg0) (V c main_v37) (V c main_arg8) (V c main_v38) i := by
  obtain ⟨e0, e1, e2, e3, e4, e5, e6, e7, e8, e9, e10, e11, e12, e13, e14, e15, e16, e17⟩ := idxf t
  rw [pay1]
  simp only [layer1, lin, mix, dotP, row]
  have hy1 : (y 1).val < 256 := (y 1).isLt
  have h0 : ∀ k : Fin 256, iblk2 V c 0 t (ix2 (y 0) k) = V c main_v21 (ix2 (i 0) k) := fun k => by
    show V c main_v21 (((cfg2.win 0).blk t).view.emb _) = _
    congr 1; funext a; apply Fin.ext
    match a with
    | ⟨0, _⟩ => show win2_0.index t (0 : Fin 2) * 5000 + 1 * (y 0).val = (i 0).val; omega
    | ⟨1, _⟩ => show win2_0.index t (1 : Fin 2) * 256 + 1 * k.val = k.val; omega
  have h1 : ∀ k : Fin 256, iblk2 V c 1 t (ix2 (y 0) k) = V c main_arg0 (ix2 (i 0) k) := fun k => by
    show V c main_arg0 (((cfg2.win 1).blk t).view.emb _) = _
    congr 1; funext a; apply Fin.ext
    match a with
    | ⟨0, _⟩ => show win2_1.index t (0 : Fin 2) * 5000 + 1 * (y 0).val = (i 0).val; omega
    | ⟨1, _⟩ => show win2_1.index t (1 : Fin 2) * 256 + 1 * k.val = k.val; omega
  have h2 : iblk2 V c 2 t (ix2 0 0) = V c main_v37 (ix2 0 0) := by
    show V c main_v37 (((cfg2.win 2).blk t).view.emb _) = _
    congr 1; funext a; apply Fin.ext
    match a with
    | ⟨0, _⟩ => show win2_2.index t (0 : Fin 2) * 1 + 1 * 0 = 0; omega
    | ⟨1, _⟩ => show win2_2.index t (1 : Fin 2) * 1 + 1 * 0 = 0; omega
  have h3 : ∀ k : Fin 256, iblk2 V c 3 t (ix2 k (y 1)) = V c main_arg8 (ix2 k (i 1)) := fun k => by
    show V c main_arg8 (((cfg2.win 3).blk t).view.emb _) = _
    congr 1; funext a; apply Fin.ext
    match a with
    | ⟨0, _⟩ => show win2_3.index t (0 : Fin 2) * 256 + 1 * k.val = k.val; omega
    | ⟨1, _⟩ => show win2_3.index t (1 : Fin 2) * 256 + 1 * (y 1).val = (i 1).val; omega
  have h4 : iblk2 V c 4 t (ix2 0 (y 1)) = V c main_v38 (ix2 0 (i 1)) := by
    show V c main_v38 (((cfg2.win 4).blk t).view.emb _) = _
    congr 1; funext a; apply Fin.ext
    match a with
    | ⟨0, _⟩ => show win2_4.index t (0 : Fin 2) * 1 + 1 * 0 = 0; omega
    | ⟨1, _⟩ => show win2_4.index t (1 : Fin 2) * 256 + 1 * (y 1).val = (i 1).val; omega
  simp only [h0, h1, h2, h3, h4]

/-- What point `t` writes back to the row-block output is block `t` of the stage's value on the arrays as found. -/
theorem flushed (c : Dev nD) (t : Fin cfg2.N) :
    (dat2 V c).flushed 5 t = ((cfg2.win 5).blk t).view.read (Elt Ideal) (layer1 (V c main_v21) (V c main_arg0) (V c main_v37) (V c main_arg8) (V c main_v38)) := by
  show (cfg2.win 5).cut (grid2.coords t) ((dat2 V c).after 5 t) = _
  rw [after2_5]
  unfold out2_5
  rw [View.canon_unit_zero hz]
  simp only [View.ld_unit_zero (S := S5000x256) hz, View.ld_unit_zero (S := S1x1) hz, View.ld_unit_zero (S := S256x256) hz, View.ld_unit_zero (S := S1x256) hz]
  obtain ⟨e0, e1, e2, e3, e4, e5, e6, e7, e8, e9, e10, e11, e12, e13, e14, e15, e16, e17⟩ := idxf t
  funext j
  refine point V c t j (((cfg2.win 5).blk t).view.emb j) ?_ ?_
  · show win2_5.index t (0 : Fin 2) * 5000 + 1 * (j 0).val = t.val * 5000 + (j 0).val; omega
  · show win2_5.index t (1 : Fin 2) * 256 + 1 * (j 1).val = (j 1).val; omega

theorem mem_blk (t : Fin cfg2.N) (i : S40000x256.Idx) :
    i ∈ ((cfg2.win 5).blk t).view.set ↔ ∀ a : Fin 2, win2_5.index t a * S5000x256.size a ≤ (i a).val
      ∧ (i a).val < win2_5.index t a * S5000x256.size a + S5000x256.size a := by
  show i ∈ ((View.whole main_v39_0).slice (win2_5.rect t)).set ↔ _
  rw [View.set_slice_whole, Rect.mem_set_unit]
  exact Iff.rfl

/-- Every row lies in the block of the point numbered by the row's quotient by the block height. -/
theorem cover (i : S40000x256.Idx) :
    ∃ t : Fin cfg2.N, (cfg2.win 5).flush t = true ∧ i ∈ ((cfg2.win 5).blk t).view.set := by
  have hN : grid2.N = 8 := N_2
  have hi0 : (i 0).val < 40000 := (i 0).isLt
  have hi1 : (i 1).val < 256 := (i 1).isLt
  have ht : (i 0).val / 5000 < grid2.N := by rw [hN]; omega
  obtain ⟨e0, e1, e2, e3, e4, e5, e6, e7, e8, e9, e10, e11, e12, e13, e14, e15, e16, e17⟩ := idxf ⟨(i 0).val / 5000, ht⟩
  refine ⟨⟨(i 0).val / 5000, ht⟩, flush2_5 _, ?_⟩
  rw [mem_blk]
  intro a
  match a with
  | ⟨0, _⟩ =>
    show win2_5.index ⟨(i 0).val / 5000, ht⟩ (0 : Fin 2) * 5000 ≤ (i 0).val
      ∧ (i 0).val < win2_5.index ⟨(i 0).val / 5000, ht⟩ (0 : Fin 2) * 5000 + 5000
    rw [e10]; show (i 0).val / 5000 * 5000 ≤ (i 0).val ∧ (i 0).val < (i 0).val / 5000 * 5000 + 5000; omega
  | ⟨1, _⟩ =>
    show win2_5.index ⟨(i 0).val / 5000, ht⟩ (1 : Fin 2) * 256 ≤ (i 1).val
      ∧ (i 1).val < win2_5.index ⟨(i 0).val / 5000, ht⟩ (1 : Fin 2) * 256 + 256
    rw [e11]; omega

/-- After the launch the row-block output array is the stage's value on the arrays the launch found. -/
theorem final (c : Dev nD) : (dat2 V c).arrAt 5 cfg2.N = layer1 (V c main_v21) (V c main_arg0) (V c main_v37) (V c main_arg8) (V c main_v38) :=
  (dat2 V c).arrAt_eq_of_cover 5 _ (fun t _ => flushed V c t) cover

/-- At a point, a statistics block entry is the tile statistic of the stage's value at the tile the point numbers. -/
theorem spointSum (c : Dev nD) (t : Fin cfg2.N) (y : S1x8x256.Idx) (i : S8x8x256.Idx)
    (hi0 : (i 0).val = t.val) (hi2 : (i 2).val = (y 2).val) :
    k2_pay2 (iblk2 V c 0 t) (iblk2 V c 1 t) (iblk2 V c 2 t) (iblk2 V c 3 t) (iblk2 V c 4 t) y = tileSum (layer1 (V c main_v21) (V c main_arg0) (V c main_v37) (V c main_arg8) (V c main_v38)) i := by
  rw [pay2]
  unfold tileSum
  refine Finset.sum_congr rfl fun q _ => ?_
  have hp := point V c t (ix2 q (y 2)) (ix2 (tileRow (i 0) q) (i 2))
    (by show (i 0).val * 5000 + q.val = t.val * 5000 + q.val; rw [hi0]) hi2
  exact hp

theorem sflushedSum (c : Dev nD) (t : Fin cfg2.N) :
    (dat2 V c).flushed 6 t = ((cfg2.win 6).blk t).view.read (Elt Ideal) (tileSum (layer1 (V c main_v21) (V c main_arg0) (V c main_v37) (V c main_arg8) (V c main_v38))) := by
  show (cfg2.win 6).cut (grid2.coords t) ((dat2 V c).after 6 t) = _
  rw [after2_6]
  unfold out2_6
  rw [View.canon_unit_zero hz3]
  simp only [View.ld_unit_zero (S := S5000x256) hz, View.ld_unit_zero (S := S1x1) hz, View.ld_unit_zero (S := S256x256) hz, View.ld_unit_zero (S := S1x256) hz]
  obtain ⟨e0, e1, e2, e3, e4, e5, e6, e7, e8, e9, e10, e11, e12, e13, e14, e15, e16, e17⟩ := idxf t
  funext j
  refine spointSum V c t j (((cfg2.win 6).blk t).view.emb j) ?_ ?_
  · have hj : (j 0).val < 1 := (j 0).isLt
    show win2_6.index t (0 : Fin 3) * 1 + 1 * (j 0).val = t.val; omega
  · show win2_6.index t (2 : Fin 3) * 256 + 1 * (j 2).val = (j 2).val; omega

theorem smem_blkSum (t : Fin cfg2.N) (i : S8x8x256.Idx) :
    i ∈ ((cfg2.win 6).blk t).view.set ↔ ∀ a : Fin 3, win2_6.index t a * S1x8x256.size a ≤ (i a).val
      ∧ (i a).val < win2_6.index t a * S1x8x256.size a + S1x8x256.size a := by
  show i ∈ ((View.whole main_v39_1).slice (win2_6.rect t)).set ↔ _
  rw [View.set_slice_whole, Rect.mem_set_unit]
  exact Iff.rfl

theorem scoverSum (i : S8x8x256.Idx) :
    ∃ t : Fin cfg2.N, (cfg2.win 6).flush t = true ∧ i ∈ ((cfg2.win 6).blk t).view.set := by
  have hN : grid2.N = 8 := N_2
  have hi0 : (i 0).val < 8 := (i 0).isLt
  have hi1 : (i 1).val < 8 := (i 1).isLt
  have hi2 : (i 2).val < 256 := (i 2).isLt
  have ht : (i 0).val < grid2.N := by rw [hN]; omega
  obtain ⟨e0, e1, e2, e3, e4, e5, e6, e7, e8, e9, e10, e11, e12, e13, e14, e15, e16, e17⟩ := idxf ⟨(i 0).val, ht⟩
  refine ⟨⟨(i 0).val, ht⟩, flush2_6 _, ?_⟩
  rw [smem_blkSum]
  intro a
  match a with
  | ⟨0, _⟩ =>
    show win2_6.index ⟨(i 0).val, ht⟩ (0 : Fin 3) * 1 ≤ (i 0).val
      ∧ (i 0).val < win2_6.index ⟨(i 0).val, ht⟩ (0 : Fin 3) * 1 + 1
    rw [e12]; show (i 0).val * 1 ≤ (i 0).val ∧ (i 0).val < (i 0).val * 1 + 1; omega
  | ⟨1, _⟩ =>
    show win2_6.index ⟨(i 0).val, ht⟩ (1 : Fin 3) * 8 ≤ (i 1).val
      ∧ (i 1).val < win2_6.index ⟨(i 0).val, ht⟩ (1 : Fin 3) * 8 + 8
    rw [e13]; omega
  | ⟨2, _⟩ =>
    show win2_6.index ⟨(i 0).val, ht⟩ (2 : Fin 3) * 256 ≤ (i 2).val
      ∧ (i 2).val < win2_6.index ⟨(i 0).val, ht⟩ (2 : Fin 3) * 256 + 256
    rw [e14]; omega

/-- After the launch the statistics array holds, per tile, the tile statistic of the stage's value. -/
theorem sfinalSum (c : Dev nD) : (dat2 V c).arrAt 6 cfg2.N = tileSum (layer1 (V c main_v21) (V c main_arg0) (V c main_v37) (V c main_arg8) (V c main_v38)) :=
  (dat2 V c).arrAt_eq_of_cover 6 _ (fun t _ => sflushedSum V c t) scoverSum

/-- At a point, a statistics block entry is the tile statistic of the stage's value at the tile the point numbers. -/
theorem spointSumSq (c : Dev nD) (t : Fin cfg2.N) (y : S1x8x256.Idx) (i : S8x8x256.Idx)
    (hi0 : (i 0).val = t.val) (hi2 : (i 2).val = (y 2).val) :
    k2_pay3 (iblk2 V c 0 t) (iblk2 V c 1 t) (iblk2 V c 2 t) (iblk2 V c 3 t) (iblk2 V c 4 t) y = tileSumSq (layer1 (V c main_v21) (V c main_arg0) (V c main_v37) (V c main_arg8) (V c main_v38)) i := by
  rw [pay3]
  unfold tileSumSq
  refine Finset.sum_congr rfl fun q _ => ?_
  have hp := point V c t (ix2 q (y 2)) (ix2 (tileRow (i 0) q) (i 2))
    (by show (i 0).val * 5000 + q.val = t.val * 5000 + q.val; rw [hi0]) hi2
  rw [hp]

theorem sflushedSumSq (c : Dev nD) (t : Fin cfg2.N) :
    (dat2 V c).flushed 7 t = ((cfg2.win 7).blk t).view.read (Elt Ideal) (tileSumSq (layer1 (V c main_v21) (V c main_arg0) (V c main_v37) (V c main_arg8) (V c main_v38))) := by
  show (cfg2.win 7).cut (grid2.coords t) ((dat2 V c).after 7 t) = _
  rw [after2_7]
  unfold out2_7
  rw [View.canon_unit_zero hz3]
  simp only [View.ld_unit_zero (S := S5000x256) hz, View.ld_unit_zero (S := S1x1) hz, View.ld_unit_zero (S := S256x256) hz, View.ld_unit_zero (S := S1x256) hz]
  obtain ⟨e0, e1, e2, e3, e4, e5, e6, e7, e8, e9, e10, e11, e12, e13, e14, e15, e16, e17⟩ := idxf t
  funext j
  refine spointSumSq V c t j (((cfg2.win 7).blk t).view.emb j) ?_ ?_
  · have hj : (j 0).val < 1 := (j 0).isLt
    show win2_7.index t (0 : Fin 3) * 1 + 1 * (j 0).val = t.val; omega
  · show win2_7.index t (2 : Fin 3) * 256 + 1 * (j 2).val = (j 2).val; omega

theorem smem_blkSumSq (t : Fin cfg2.N) (i : S8x8x256.Idx) :
    i ∈ ((cfg2.win 7).blk t).view.set ↔ ∀ a : Fin 3, win2_7.index t a * S1x8x256.size a ≤ (i a).val
      ∧ (i a).val < win2_7.index t a * S1x8x256.size a + S1x8x256.size a := by
  show i ∈ ((View.whole main_v39_2).slice (win2_7.rect t)).set ↔ _
  rw [View.set_slice_whole, Rect.mem_set_unit]
  exact Iff.rfl

theorem scoverSumSq (i : S8x8x256.Idx) :
    ∃ t : Fin cfg2.N, (cfg2.win 7).flush t = true ∧ i ∈ ((cfg2.win 7).blk t).view.set := by
  have hN : grid2.N = 8 := N_2
  have hi0 : (i 0).val < 8 := (i 0).isLt
  have hi1 : (i 1).val < 8 := (i 1).isLt
  have hi2 : (i 2).val < 256 := (i 2).isLt
  have ht : (i 0).val < grid2.N := by rw [hN]; omega
  obtain ⟨e0, e1, e2, e3, e4, e5, e6, e7, e8, e9, e10, e11, e12, e13, e14, e15, e16, e17⟩ := idxf ⟨(i 0).val, ht⟩
  refine ⟨⟨(i 0).val, ht⟩, flush2_7 _, ?_⟩
  rw [smem_blkSumSq]
  intro a
  match a with
  | ⟨0, _⟩ =>
    show win2_7.index ⟨(i 0).val, ht⟩ (0 : Fin 3) * 1 ≤ (i 0).val
      ∧ (i 0).val < win2_7.index ⟨(i 0).val, ht⟩ (0 : Fin 3) * 1 + 1
    rw [e15]; show (i 0).val * 1 ≤ (i 0).val ∧ (i 0).val < (i 0).val * 1 + 1; omega
  | ⟨1, _⟩ =>
    show win2_7.index ⟨(i 0).val, ht⟩ (1 : Fin 3) * 8 ≤ (i 1).val
      ∧ (i 1).val < win2_7.index ⟨(i 0).val, ht⟩ (1 : Fin 3) * 8 + 8
    rw [e16]; omega
  | ⟨2, _⟩ =>
    show win2_7.index ⟨(i 0).val, ht⟩ (2 : Fin 3) * 256 ≤ (i 2).val
      ∧ (i 2).val < win2_7.index ⟨(i 0).val, ht⟩ (2 : Fin 3) * 256 + 256
    rw [e17]; omega

/-- After the launch the statistics array holds, per tile, the tile statistic of the stage's value. -/
theorem sfinalSumSq (c : Dev nD) : (dat2 V c).arrAt 7 cfg2.N = tileSumSq (layer1 (V c main_v21) (V c main_arg0) (V c main_v37) (V c main_arg8) (V c main_v38)) :=
  (dat2 V c).arrAt_eq_of_cover 7 _ (fun t _ => sflushedSumSq V c t) scoverSumSq

end Cert.KernelIdeal.Reg2

end
-- ==== Proof.Region3.lean ====
/-
  BatchNorm with given statistics, ReLU, then a dense layer, with the result's per-block column sums and sums of squares.
-/
import proofs.«129683_j53085795779156_2_alg».proof.Proof.RegionCommon

set_option maxRecDepth 16384

noncomputable section

namespace Cert.KernelIdeal.Reg3

open Idealize.ShloMosaic Idealize.ShloMosaic.TcCoe Idealize.SL.Sem Idealize.ShloMosaic.ValueIdx
open Idealize.ShloMosaic.Pipeline (Dat)
open Cert.KernelIdeal Cert.KernelIdeal.Gen Cell Cert.KernelIdeal.RegCommon

/-- BatchNorm, ReLU and the dense layer, at an entry of the block. -/
theorem payMain (x0 : Vec Ideal S5000x256 .f32) (x1 x2 x3 x4 : Vec Ideal S1x256 .f32) (x5 : Vec Ideal S256x256 .f32) (x6 : Vec Ideal S1x256 .f32) (j : S5000x256.Idx) :
    k3_pay3 x0 x1 x2 x3 x4 x5 x6 j
      = (∑ k : Fin 256, max (x3 (ix2 0 k) * (x0 (ix2 (j 0) k) - x1 (ix2 0 k)) * Ideal.rsqrt (x2 (ix2 0 k) + bnEps) + x4 (ix2 0 k)) 0
            * x5 (ix2 k (j 1))) + x6 (ix2 0 (j 1)) := by
  unfold k3_pay3
  simp only [shapeCast_self]
  rw [addf_apply, mm, bcastRow]
  refine congrArg (· + _) (Finset.sum_congr rfl fun k _ => ?_)
  rw [truncf_apply, truncf_apply]
  exact congrArg (· * x5 (ix2 k (j 1))) (bnAt x0 x1 x2 x3 x4 (j 0) k)

/-- The statistics payloads of this body, as the frame composes them. -/
abbrev kS3 (x0 : Vec Ideal S5000x256 .f32) (x1 x2 x3 x4 : Vec Ideal S1x256 .f32) (x5 : Vec Ideal S256x256 .f32) (x6 : Vec Ideal S1x256 .f32) : FVec Ideal S1x8x256 .f32 := k3_pay1 (k3_pay4 x0 x1 x2 x3 x4 x5 x6)
abbrev kQ3 (x0 : Vec Ideal S5000x256 .f32) (x1 x2 x3 x4 : Vec Ideal S1x256 .f32) (x5 : Vec Ideal S256x256 .f32) (x6 : Vec Ideal S1x256 .f32) : FVec Ideal S1x8x256 .f32 := k3_pay2 (k3_pay5 x0 x1 x2 x3 x4 x5 x6)

theorem paySum (x0 : Vec Ideal S5000x256 .f32) (x1 x2 x3 x4 : Vec Ideal S1x256 .f32) (x5 : Vec Ideal S256x256 .f32) (x6 : Vec Ideal S1x256 .f32) (y : S1x8x256.Idx) :
    kS3 x0 x1 x2 x3 x4 x5 x6 y = ∑ q : Fin 5000, k3_pay3 x0 x1 x2 x3 x4 x5 x6 (ix2 q (y 2)) := by
  unfold kS3 k3_pay1 k3_pay4
  simp only [shapeCast_self]
  exact colBlock _ y

theorem paySumSq (x0 : Vec Ideal S5000x256 .f32) (x1 x2 x3 x4 : Vec Ideal S1x256 .f32) (x5 : Vec Ideal S256x256 .f32) (x6 : Vec Ideal S1x256 .f32) (y : S1x8x256.Idx) :
    kQ3 x0 x1 x2 x3 x4 x5 x6 y
      = ∑ q : Fin 5000, k3_pay3 x0 x1 x2 x3 x4 x5 x6 (ix2 q (y 2)) * k3_pay3 x0 x1 x2 x3 x4 x5 x6 (ix2 q (y 2)) := by
  unfold kQ3 k3_pay2 k3_pay5
  simp only [shapeCast_self]
  exact (colBlock _ y).trans (Finset.sum_congr rfl fun q _ => mulf_apply _ _ _)

variable (V : (c : Dev nD) → (b : Ref sig .tc) → Buf (Elt Ideal) ((c : Thread nD τ).loc b))

/-- The index maps over the grid. -/
theorem idxf : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = 0
    ∧ win3_6.index t (1 : Fin 2) = 0
    ∧ win3_7.index t (0 : Fin 2) = t.val
    ∧ win3_7.index t (1 : Fin 2) = 0
    ∧ win3_8.index t (0 : Fin 3) = t.val
    ∧ win3_8.index t (1 : Fin 3) = 0
    ∧ win3_8.index t (2 : Fin 3) = 0
    ∧ win3_9.index t (0 : Fin 3) = t.val
    ∧ win3_9.index t (1 : Fin 3) = 0
    ∧ win3_9.index t (2 : Fin 3) = 0 :=
  (by decide +kernel : ∀ t : Fin grid3.N, _)

/-- At a point, the body's value at a block entry is the stage's value at the array entry the block entry sits at. -/
theorem point (c : Dev nD) (t : Fin cfg3.N) (y : S5000x256.Idx) (i : S40000x256.Idx)
    (hi0 : (i 0).val = t.val * 5000 + (y 0).val) (hi1 : (i 1).val = (y 1).val) :
    k3_pay3 (iblk3 V c 0 t) (iblk3 V c 1 t) (iblk3 V c 2 t) (iblk3 V c 3 t) (iblk3 V c 4 t) (iblk3 V c 5 t) (iblk3 V c 6 t) y = layerBn (V c main_v39_0) (V c main_v52) (V c main_v53) (V c main_v54) (V c main_v55) (V c main_arg12) (V c main_v56) i := by
  obtain ⟨e0, e1, e2, e3, e4, e5, e6, e7, e8, e9, e10, e11, e12, e13, e14, e15, e16, e17, e18, e19, e20, e21⟩ := idxf t
  rw [payMain]
  have hy1 : (y 1).val < 256 := (y 1).isLt
  have h0 : ∀ k : Fin 256, iblk3 V c 0 t (ix2 (y 0) k) = V c main_v39_0 (ix2 (i 0) k) := fun k => by
    show V c main_v39_0 (((cfg3.win 0).blk t).view.emb _) = _
    congr 1; funext a; apply Fin.ext
    match a with
    | ⟨0, _⟩ => show win3_0.index t (0 : Fin 2) * 5000 + 1 * (y 0).val = (i 0).val; omega
    | ⟨1, _⟩ => show win3_0.index t (1 : Fin 2) * 256 + 1 * k.val = k.val; omega
  have h1 : ∀ k : Fin 256, iblk3 V c 1 t (ix2 0 k) = V c main_v52 (ix2 0 k) := fun k => by
    show V c main_v52 (((cfg3.win 1).blk t).view.emb _) = _
    congr 1; funext a; apply Fin.ext
    match a with
    | ⟨0, _⟩ => show win3_1.index t (0 : Fin 2) * 1 + 1 * 0 = 0; omega
    | ⟨1, _⟩ => show win3_1.index t (1 : Fin 2) * 256 + 1 * k.val = k.val; omega
  have h2 : ∀ k : Fin 256, iblk3 V c 2 t (ix2 0 k) = V c main_v53 (ix2 0 k) := fun k => by
    show V c main_v53 (((cfg3.win 2).blk t).view.emb _) = _
    congr 1; funext a; apply Fin.ext
    match a with
    | ⟨0, _⟩ => show win3_2.index t (0 : Fin 2) * 1 + 1 * 0 = 0; omega
    | ⟨1, _⟩ => show win3_2.index t (1 : Fin 2) * 256 + 1 * k.val = k.val; omega
  have h3 : ∀ k : Fin 256, iblk3 V c 3 t (ix2 0 k) = V c main_v54 (ix2 0 k) := fun k => by
    show V c main_v54 (((cfg3.win 3).blk t).view.emb _) = _
    congr 1; funext a; apply Fin.ext
    match a with
    | ⟨0, _⟩ => show win3_3.index t (0 : Fin 2) * 1 + 1 * 0 = 0; omega
    | ⟨1, _⟩ => show win3_3.index t (1 : Fin 2) * 256 + 1 * k.val = k.val; omega
  have h4 : ∀ k : Fin 256, iblk3 V c 4 t (ix2 0 k) = V c main_v55 (ix2 0 k) := fun k => by
    show V c main_v55 (((cfg3.win 4).blk t).view.emb _) = _
    congr 1; funext a; apply Fin.ext
    match a with
    | ⟨0, _⟩ => show win3_4.index t (0 : Fin 2) * 1 + 1 * 0 = 0; omega
    | ⟨1, _⟩ => show win3_4.index t (1 : Fin 2) * 256 + 1 * k.val = k.val; omega
  have h5 : ∀ k : Fin 256, iblk3 V c 5 t (ix2 k (y 1)) = V c main_arg12 (ix2 k (i 1)) := fun k => by
    show V c main_arg12 (((cfg3.win 5).blk t).view.emb _) = _
    congr 1; funext a; apply Fin.ext
    match a with
    | ⟨0, _⟩ => show win3_5.index t (0 : Fin 2) * 256 + 1 * k.val = k.val; omega
    | ⟨1, _⟩ => show win3_5.index t (1 : Fin 2) * 256 + 1 * (y 1).val = (i 1).val; omega
  have h6 : iblk3 V c 6 t (ix2 0 (y 1)) = V c main_v56 (ix2 0 (i 1)) := by
    show V c main_v56 (((cfg3.win 6).blk t).view.emb _) = _
    congr 1; funext a; apply Fin.ext
    match a with
    | ⟨0, _⟩ => show win3_6.index t (0 : Fin 2) * 1 + 1 * 0 = 0; omega
    | ⟨1, _⟩ => show win3_6.index t (1 : Fin 2) * 256 + 1 * (y 1).val = (i 1).val; omega
  simp only [h0, h1, h2, h3, h4, h5, h6]
  rfl

/-- What point `t` writes back to the row-block output is block `t` of the stage's value on the arrays as found. -/
theorem flushed (c : Dev nD) (t : Fin cfg3.N) :
    (dat3 V c).flushed 7 t = ((cfg3.win 7).blk t).view.read (Elt Ideal) (layerBn (V c main_v39_0) (V c main_v52) (V c main_v53) (V c main_v54) (V c main_v55) (V c main_arg12) (V c main_v56)) := by
  show (cfg3.win 7).cut (grid3.coords t) ((dat3 V c).after 7 t) = _
  rw [after3_7]
  unfold out3_7
  rw [View.canon_unit_zero hz]
  simp only [View.ld_unit_zero (S := S5000x256) hz, View.ld_unit_zero (S := S1x256) hz, View.ld_unit_zero (S := S256x256) hz]
  obtain ⟨e0, e1, e2, e3, e4, e5, e6, e7, e8, e9, e10, e11, e12, e13, e14, e15, e16, e17, e18, e19, e20, e21⟩ := idxf t
  funext j
  refine point V c t j (((cfg3.win 7).blk t).view.emb j) ?_ ?_
  · show win3_7.index t (0 : Fin 2) * 5000 + 1 * (j 0).val = t.val * 5000 + (j 0).val; omega
  · show win3_7.index t (1 : Fin 2) * 256 + 1 * (j 1).val = (j 1).val; omega

theorem mem_blk (t : Fin cfg3.N) (i : S40000x256.Idx) :
    i ∈ ((cfg3.win 7).blk t).view.set ↔ ∀ a : Fin 2, win3_7.index t a * S5000x256.size a ≤ (i a).val
      ∧ (i a).val < win3_7.index t a * S5000x256.size a + S5000x256.size a := by
  show i ∈ ((View.whole main_v57_0).slice (win3_7.rect t)).set ↔ _
  rw [View.set_slice_whole, Rect.mem_set_unit]
  exact Iff.rfl

/-- Every row lies in the block of the point numbered by the row's quotient by the block height. -/
theorem cover (i : S40000x256.Idx) :
    ∃ t : Fin cfg3.N, (cfg3.win 7).flush t = true ∧ i ∈ ((cfg3.win 7).blk t).view.set := by
  have hN : grid3.N = 8 := N_3
  have hi0 : (i 0).val < 40000 := (i 0).isLt
  have hi1 : (i 1).val < 256 := (i 1).isLt
  have ht : (i 0).val / 5000 < grid3.N := by rw [hN]; omega
  obtain ⟨e0, e1, e2, e3, e4, e5, e6, e7, e8, e9, e10, e11, e12, e13, e14, e15, e16, e17, e18, e19, e20, e21⟩ := idxf ⟨(i 0).val / 5000, ht⟩
  refine ⟨⟨(i 0).val / 5000, ht⟩, flush3_7 _, ?_⟩
  rw [mem_blk]
  intro a
  match a with
  | ⟨0, _⟩ =>
    show win3_7.index ⟨(i 0).val / 5000, ht⟩ (0 : Fin 2) * 5000 ≤ (i 0).val
      ∧ (i 0).val < win3_7.index ⟨(i 0).val / 5000, ht⟩ (0 : Fin 2) * 5000 + 5000
    rw [e14]; show (i 0).val / 5000 * 5000 ≤ (i 0).val ∧ (i 0).val < (i 0).val / 5000 * 5000 + 5000; omega
  | ⟨1, _⟩ =>
    show win3_7.index ⟨(i 0).val / 5000, ht⟩ (1 : Fin 2) * 256 ≤ (i 1).val
      ∧ (i 1).val < win3_7.index ⟨(i 0).val / 5000, ht⟩ (1 : Fin 2) * 256 + 256
    rw [e15]; omega

/-- After the launch the row-block output array is the stage's value on the arrays the launch found. -/
theorem final (c : Dev nD) : (dat3 V c).arrAt 7 cfg3.N = layerBn (V c main_v39_0) (V c main_v52) (V c main_v53) (V c main_v54) (V c main_v55) (V c main_arg12) (V c main_v56) :=
  (dat3 V c).arrAt_eq_of_cover 7 _ (fun t _ => flushed V c t) cover

/-- At a point, a statistics block entry is the tile statistic of the stage's value at the tile the point numbers. -/
theorem spointSum (c : Dev nD) (t : Fin cfg3.N) (y : S1x8x256.Idx) (i : S8x8x256.Idx)
    (hi0 : (i 0).val = t.val) (hi2 : (i 2).val = (y 2).val) :
    kS3 (iblk3 V c 0 t) (iblk3 V c 1 t) (iblk3 V c 2 t) (iblk3 V c 3 t) (iblk3 V c 4 t) (iblk3 V c 5 t) (iblk3 V c 6 t) y = tileSum (layerBn (V c main_v39_0) (V c main_v52) (V c main_v53) (V c main_v54) (V c main_v55) (V c main_arg12) (V c main_v56)) i := by
  rw [paySum]
  unfold tileSum
  refine Finset.sum_congr rfl fun q _ => ?_
  have hp := point V c t (ix2 q (y 2)) (ix2 (tileRow (i 0) q) (i 2))
    (by show (i 0).val * 5000 + q.val = t.val * 5000 + q.val; rw [hi0]) hi2
  exact hp

theorem sflushedSum (c : Dev nD) (t : Fin cfg3.N) :
    (dat3 V c).flushed 8 t = ((cfg3.win 8).blk t).view.read (Elt Ideal) (tileSum (layerBn (V c main_v39_0) (V c main_v52) (V c main_v53) (V c main_v54) (V c main_v55) (V c main_arg12) (V c main_v56))) := by
  show (cfg3.win 8).cut (grid3.coords t) ((dat3 V c).after 8 t) = _
  rw [after3_8]
  unfold out3_8
  rw [View.canon_unit_zero hz3]
  simp only [View.ld_unit_zero (S := S5000x256) hz, View.ld_unit_zero (S := S1x256) hz, View.ld_unit_zero (S := S256x256) hz]
  obtain ⟨e0, e1, e2, e3, e4, e5, e6, e7, e8, e9, e10, e11, e12, e13, e14, e15, e16, e17, e18, e19, e20, e21⟩ := idxf t
  funext j
  refine spointSum V c t j (((cfg3.win 8).blk t).view.emb j) ?_ ?_
  · have hj : (j 0).val < 1 := (j 0).isLt
    show win3_8.index t (0 : Fin 3) * 1 + 1 * (j 0).val = t.val; omega
  · show win3_8.index t (2 : Fin 3) * 256 + 1 * (j 2).val = (j 2).val; omega

theorem smem_blkSum (t : Fin cfg3.N) (i : S8x8x256.Idx) :
    i ∈ ((cfg3.win 8).blk t).view.set ↔ ∀ a : Fin 3, win3_8.index t a * S1x8x256.size a ≤ (i a).val
      ∧ (i a).val < win3_8.index t a * S1x8x256.size a + S1x8x256.size a := by
  show i ∈ ((View.whole main_v57_1).slice (win3_8.rect t)).set ↔ _
  rw [View.set_slice_whole, Rect.mem_set_unit]
  exact Iff.rfl

theorem scoverSum (i : S8x8x256.Idx) :
    ∃ t : Fin cfg3.N, (cfg3.win 8).flush t = true ∧ i ∈ ((cfg3.win 8).blk t).view.set := by
  have hN : grid3.N = 8 := N_3
  have hi0 : (i 0).val < 8 := (i 0).isLt
  have hi1 : (i 1).val < 8 := (i 1).isLt
  have hi2 : (i 2).val < 256 := (i 2).isLt
  have ht : (i 0).val < grid3.N := by rw [hN]; omega
  obtain ⟨e0, e1, e2, e3, e4, e5, e6, e7, e8, e9, e10, e11, e12, e13, e14, e15, e16, e17, e18, e19, e20, e21⟩ := idxf ⟨(i 0).val, ht⟩
  refine ⟨⟨(i 0).val, ht⟩, flush3_8 _, ?_⟩
  rw [smem_blkSum]
  intro a
  match a with
  | ⟨0, _⟩ =>
    show win3_8.index ⟨(i 0).val, ht⟩ (0 : Fin 3) * 1 ≤ (i 0).val
      ∧ (i 0).val < win3_8.index ⟨(i 0).val, ht⟩ (0 : Fin 3) * 1 + 1
    rw [e16]; show (i 0).val * 1 ≤ (i 0).val ∧ (i 0).val < (i 0).val * 1 + 1; omega
  | ⟨1, _⟩ =>
    show win3_8.index ⟨(i 0).val, ht⟩ (1 : Fin 3) * 8 ≤ (i 1).val
      ∧ (i 1).val < win3_8.index ⟨(i 0).val, ht⟩ (1 : Fin 3) * 8 + 8
    rw [e17]; omega
  | ⟨2, _⟩ =>
    show win3_8.index ⟨(i 0).val, ht⟩ (2 : Fin 3) * 256 ≤ (i 2).val
      ∧ (i 2).val < win3_8.index ⟨(i 0).val, ht⟩ (2 : Fin 3) * 256 + 256
    rw [e18]; omega

/-- After the launch the statistics array holds, per tile, the tile statistic of the stage's value. -/
theorem sfinalSum (c : Dev nD) : (dat3 V c).arrAt 8 cfg3.N = tileSum (layerBn (V c main_v39_0) (V c main_v52) (V c main_v53) (V c main_v54) (V c main_v55) (V c main_arg12) (V c main_v56)) :=
  (dat3 V c).arrAt_eq_of_cover 8 _ (fun t _ => sflushedSum V c t) scoverSum

/-- At a point, a statistics block entry is the tile statistic of the stage's value at the tile the point numbers. -/
theorem spointSumSq (c : Dev nD) (t : Fin cfg3.N) (y : S1x8x256.Idx) (i : S8x8x256.Idx)
    (hi0 : (i 0).val = t.val) (hi2 : (i 2).val = (y 2).val) :
    kQ3 (iblk3 V c 0 t) (iblk3 V c 1 t) (iblk3 V c 2 t) (iblk3 V c 3 t) (iblk3 V c 4 t) (iblk3 V c 5 t) (iblk3 V c 6 t) y = tileSumSq (layerBn (V c main_v39_0) (V c main_v52) (V c main_v53) (V c main_v54) (V c main_v55) (V c main_arg12) (V c main_v56)) i := by
  rw [paySumSq]
  unfold tileSumSq
  refine Finset.sum_congr rfl fun q _ => ?_
  have hp := point V c t (ix2 q (y 2)) (ix2 (tileRow (i 0) q) (i 2))
    (by show (i 0).val * 5000 + q.val = t.val * 5000 + q.val; rw [hi0]) hi2
  rw [hp]

theorem sflushedSumSq (c : Dev nD) (t : Fin cfg3.N) :
    (dat3 V c).flushed 9 t = ((cfg3.win 9).blk t).view.read (Elt Ideal) (tileSumSq (layerBn (V c main_v39_0) (V c main_v52) (V c main_v53) (V c main_v54) (V c main_v55) (V c main_arg12) (V c main_v56))) := by
  show (cfg3.win 9).cut (grid3.coords t) ((dat3 V c).after 9 t) = _
  rw [after3_9]
  unfold out3_9
  rw [View.canon_unit_zero hz3]
  simp only [View.ld_unit_zero (S := S5000x256) hz, View.ld_unit_zero (S := S1x256) hz, View.ld_unit_zero (S := S256x256) hz]
  obtain ⟨e0, e1, e2, e3, e4, e5, e6, e7, e8, e9, e10, e11, e12, e13, e14, e15, e16, e17, e18, e19, e20, e21⟩ := idxf t
  funext j
  refine spointSumSq V c t j (((cfg3.win 9).blk t).view.emb j) ?_ ?_
  · have hj : (j 0).val < 1 := (j 0).isLt
    show win3_9.index t (0 : Fin 3) * 1 + 1 * (j 0).val = t.val; omega
  · show win3_9.index t (2 : Fin 3) * 256 + 1 * (j 2).val = (j 2).val; omega

theorem smem_blkSumSq (t : Fin cfg3.N) (i : S8x8x256.Idx) :
    i ∈ ((cfg3.win 9).blk t).view.set ↔ ∀ a : Fin 3, win3_9.index t a * S1x8x256.size a ≤ (i a).val
      ∧ (i a).val < win3_9.index t a * S1x8x256.size a + S1x8x256.size a := by
  show i ∈ ((View.whole main_v57_2).slice (win3_9.rect t)).set ↔ _
  rw [View.set_slice_whole, Rect.mem_set_unit]
  exact Iff.rfl

theorem scoverSumSq (i : S8x8x256.Idx) :
    ∃ t : Fin cfg3.N, (cfg3.win 9).flush t = true ∧ i ∈ ((cfg3.win 9).blk t).view.set := by
  have hN : grid3.N = 8 := N_3
  have hi0 : (i 0).val < 8 := (i 0).isLt
  have hi1 : (i 1).val < 8 := (i 1).isLt
  have hi2 : (i 2).val < 256 := (i 2).isLt
  have ht : (i 0).val < grid3.N := by rw [hN]; omega
  obtain ⟨e0, e1, e2, e3, e4, e5, e6, e7, e8, e9, e10, e11, e12, e13, e14, e15, e16, e17, e18, e19, e20, e21⟩ := idxf ⟨(i 0).val, ht⟩
  refine ⟨⟨(i 0).val, ht⟩, flush3_9 _, ?_⟩
  rw [smem_blkSumSq]
  intro a
  match a with
  | ⟨0, _⟩ =>
    show win3_9.index ⟨(i 0).val, ht⟩ (0 : Fin 3) * 1 ≤ (i 0).val
      ∧ (i 0).val < win3_9.index ⟨(i 0).val, ht⟩ (0 : Fin 3) * 1 + 1
    rw [e19]; show (i 0).val * 1 ≤ (i 0).val ∧ (i 0).val < (i 0).val * 1 + 1; omega
  | ⟨1, _⟩ =>
    show win3_9.index ⟨(i 0).val, ht⟩ (1 : Fin 3) * 8 ≤ (i 1).val
      ∧ (i 1).val < win3_9.index ⟨(i 0).val, ht⟩ (1 : Fin 3) * 8 + 8
    rw [e20]; omega
  | ⟨2, _⟩ =>
    show win3_9.index ⟨(i 0).val, ht⟩ (2 : Fin 3) * 256 ≤ (i 2).val
      ∧ (i 2).val < win3_9.index ⟨(i 0).val, ht⟩ (2 : Fin 3) * 256 + 256
    rw [e21]; omega

/-- After the launch the statistics array holds, per tile, the tile statistic of the stage's value. -/
theorem sfinalSumSq (c : Dev nD) : (dat3 V c).arrAt 9 cfg3.N = tileSumSq (layerBn (V c main_v39_0) (V c main_v52) (V c main_v53) (V c main_v54) (V c main_v55) (V c main_arg12) (V c main_v56)) :=
  (dat3 V c).arrAt_eq_of_cover 9 _ (fun t _ => sflushedSumSq V c t) scoverSumSq

end Cert.KernelIdeal.Reg3

end
-- ==== Proof.Region4.lean ====
/-
  BatchNorm with given statistics, ReLU, then a dense layer (one branch's contribution to the combine).
-/
import proofs.«129683_j53085795779156_2_alg».proof.Proof.RegionCommon

set_option maxRecDepth 16384

noncomputable section

namespace Cert.KernelIdeal.Reg4

open Idealize.ShloMosaic Idealize.ShloMosaic.TcCoe Idealize.SL.Sem Idealize.ShloMosaic.ValueIdx
open Idealize.ShloMosaic.Pipeline (Dat)
open Cert.KernelIdeal Cert.KernelIdeal.Gen Cell Cert.KernelIdeal.RegCommon

/-- BatchNorm, ReLU and the dense layer, at an entry of the block. -/
theorem payMain (x0 : Vec Ideal S5000x256 .f32) (x1 x2 x3 x4 : Vec Ideal S1x256 .f32) (x5 : Vec Ideal S256x256 .f32) (x6 : Vec Ideal S1x256 .f32) (j : S5000x256.Idx) :
    k4_pay1 x0 x1 x2 x3 x4 x5 x6 j
      = (∑ k : Fin 256, max (x3 (ix2 0 k) * (x0 (ix2 (j 0) k) - x1 (ix2 0 k)) * Ideal.rsqrt (x2 (ix2 0 k) + bnEps) + x4 (ix2 0 k)) 0
            * x5 (ix2 k (j 1))) + x6 (ix2 0 (j 1)) := by
  unfold k4_pay1
  simp only [shapeCast_self]
  rw [addf_apply, mm, bcastRow]
  refine congrArg (· + _) (Finset.sum_congr rfl fun k _ => ?_)
  rw [truncf_apply, truncf_apply]
  exact congrArg (· * x5 (ix2 k (j 1))) (bnAt x0 x1 x2 x3 x4 (j 0) k)

variable (V : (c : Dev nD) → (b : Ref sig .tc) → Buf (Elt Ideal) ((c : Thread nD τ).loc b))

/-- The index maps over the grid. -/
theorem idxf : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 2) = 0
    ∧ win4_4.index t (1 : Fin 2) = 0
    ∧ win4_5.index t (0 : Fin 2) = 0
    ∧ win4_5.index t (1 : Fin 2) = 0
    ∧ win4_6.index t (0 : Fin 2) = 0
    ∧ win4_6.index t (1 : Fin 2) = 0
    ∧ win4_7.index t (0 : Fin 2) = t.val
    ∧ win4_7.index t (1 : Fin 2) = 0 :=
  (by decide +kernel : ∀ t : Fin grid4.N, _)

/-- At a point, the body's value at a block entry is the stage's value at the array entry the block entry sits at. -/
theorem point (c : Dev nD) (t : Fin cfg4.N) (y : S5000x256.Idx) (i : S40000x256.Idx)
    (hi0 : (i 0).val = t.val * 5000 + (y 0).val) (hi1 : (i 1).val = (y 1).val) :
    k4_pay1 (iblk4 V c 0 t) (iblk4 V c 1 t) (iblk4 V c 2 t) (iblk4 V c 3 t) (iblk4 V c 4 t) (iblk4 V c 5 t) (iblk4 V c 6 t) y = layerBn (V c main_v57_0) (V c main_v71) (V c main_v72) (V c main_v73) (V c main_v74) (V c main_v32) (V c main_v75) i := by
  obtain ⟨e0, e1, e2, e3, e4, e5, e6, e7, e8, e9, e10, e11, e12, e13, e14, e15⟩ := idxf t
  rw [payMain]
  have hy1 : (y 1).val < 256 := (y 1).isLt
  have h0 : ∀ k : Fin 256, iblk4 V c 0 t (ix2 (y 0) k) = V c main_v57_0 (ix2 (i 0) k) := fun k => by
    show V c main_v57_0 (((cfg4.win 0).blk t).view.emb _) = _
    congr 1; funext a; apply Fin.ext
    match a with
    | ⟨0, _⟩ => show win4_0.index t (0 : Fin 2) * 5000 + 1 * (y 0).val = (i 0).val; omega
    | ⟨1, _⟩ => show win4_0.index t (1 : Fin 2) * 256 + 1 * k.val = k.val; omega
  have h1 : ∀ k : Fin 256, iblk4 V c 1 t (ix2 0 k) = V c main_v71 (ix2 0 k) := fun k => by
    show V c main_v71 (((cfg4.win 1).blk t).view.emb _) = _
    congr 1; funext a; apply Fin.ext
    match a with
    | ⟨0, _⟩ => show win4_1.index t (0 : Fin 2) * 1 + 1 * 0 = 0; omega
    | ⟨1, _⟩ => show win4_1.index t (1 : Fin 2) * 256 + 1 * k.val = k.val; omega
  have h2 : ∀ k : Fin 256, iblk4 V c 2 t (ix2 0 k) = V c main_v72 (ix2 0 k) := fun k => by
    show V c main_v72 (((cfg4.win 2).blk t).view.emb _) = _
    congr 1; funext a; apply Fin.ext
    match a with
    | ⟨0, _⟩ => show win4_2.index t (0 : Fin 2) * 1 + 1 * 0 = 0; omega
    | ⟨1, _⟩ => show win4_2.index t (1 : Fin 2) * 256 + 1 * k.val = k.val; omega
  have h3 : ∀ k : Fin 256, iblk4 V c 3 t (ix2 0 k) = V c main_v73 (ix2 0 k) := fun k => by
    show V c main_v73 (((cfg4.win 3).blk t).view.emb _) = _
    congr 1; funext a; apply Fin.ext
    match a with
    | ⟨0, _⟩ => show win4_3.index t (0 : Fin 2) * 1 + 1 * 0 = 0; omega
    | ⟨1, _⟩ => show win4_3.index t (1 : Fin 2) * 256 + 1 * k.val = k.val; omega
  have h4 : ∀ k : Fin 256, iblk4 V c 4 t (ix2 0 k) = V c main_v74 (ix2 0 k) := fun k => by
    show V c main_v74 (((cfg4.win 4).blk t).view.emb _) = _
    congr 1; funext a; apply Fin.ext
    match a with
    | ⟨0, _⟩ => show win4_4.index t (0 : Fin 2) * 1 + 1 * 0 = 0; omega
    | ⟨1, _⟩ => show win4_4.index t (1 : Fin 2) * 256 + 1 * k.val = k.val; omega
  have h5 : ∀ k : Fin 256, iblk4 V c 5 t (ix2 k (y 1)) = V c main_v32 (ix2 k (i 1)) := fun k => by
    show V c main_v32 (((cfg4.win 5).blk t).view.emb _) = _
    congr 1; funext a; apply Fin.ext
    match a with
    | ⟨0, _⟩ => show win4_5.index t (0 : Fin 2) * 256 + 1 * k.val = k.val; omega
    | ⟨1, _⟩ => show win4_5.index t (1 : Fin 2) * 256 + 1 * (y 1).val = (i 1).val; omega
  have h6 : iblk4 V c 6 t (ix2 0 (y 1)) = V c main_v75 (ix2 0 (i 1)) := by
    show V c main_v75 (((cfg4.win 6).blk t).view.emb _) = _
    congr 1; funext a; apply Fin.ext
    match a with
    | ⟨0, _⟩ => show win4_6.index t (0 : Fin 2) * 1 + 1 * 0 = 0; omega
    | ⟨1, _⟩ => show win4_6.index t (1 : Fin 2) * 256 + 1 * (y 1).val = (i 1).val; omega
  simp only [h0, h1, h2, h3, h4, h5, h6]
  rfl

/-- What point `t` writes back to the row-block output is block `t` of the stage's value on the arrays as found. -/
theorem flushed (c : Dev nD) (t : Fin cfg4.N) :
    (dat4 V c).flushed 7 t = ((cfg4.win 7).blk t).view.read (Elt Ideal) (layerBn (V c main_v57_0) (V c main_v71) (V c main_v72) (V c main_v73) (V c main_v74) (V c main_v32) (V c main_v75)) := by
  show (cfg4.win 7).cut (grid4.coords t) ((dat4 V c).after 7 t) = _
  rw [after4_7]
  unfold out4_7
  rw [View.canon_unit_zero hz]
  simp only [View.ld_unit_zero (S := S5000x256) hz, View.ld_unit_zero (S := S1x256) hz, View.ld_unit_zero (S := S256x256) hz]
  obtain ⟨e0, e1, e2, e3, e4, e5, e6, e7, e8, e9, e10, e11, e12, e13, e14, e15⟩ := idxf t
  funext j
  refine point V c t j (((cfg4.win 7).blk t).view.emb j) ?_ ?_
  · show win4_7.index t (0 : Fin 2) * 5000 + 1 * (j 0).val = t.val * 5000 + (j 0).val; omega
  · show win4_7.index t (1 : Fin 2) * 256 + 1 * (j 1).val = (j 1).val; omega

theorem mem_blk (t : Fin cfg4.N) (i : S40000x256.Idx) :
    i ∈ ((cfg4.win 7).blk t).view.set ↔ ∀ a : Fin 2, win4_7.index t a * S5000x256.size a ≤ (i a).val
      ∧ (i a).val < win4_7.index t a * S5000x256.size a + S5000x256.size a := by
  show i ∈ ((View.whole main_v76).slice (win4_7.rect t)).set ↔ _
  rw [View.set_slice_whole, Rect.mem_set_unit]
  exact Iff.rfl

/-- Every row lies in the block of the point numbered by the row's quotient by the block height. -/
theorem cover (i : S40000x256.Idx) :
    ∃ t : Fin cfg4.N, (cfg4.win 7).flush t = true ∧ i ∈ ((cfg4.win 7).blk t).view.set := by
  have hN : grid4.N = 8 := N_4
  have hi0 : (i 0).val < 40000 := (i 0).isLt
  have hi1 : (i 1).val < 256 := (i 1).isLt
  have ht : (i 0).val / 5000 < grid4.N := by rw [hN]; omega
  obtain ⟨e0, e1, e2, e3, e4, e5, e6, e7, e8, e9, e10, e11, e12, e13, e14, e15⟩ := idxf ⟨(i 0).val / 5000, ht⟩
  refine ⟨⟨(i 0).val / 5000, ht⟩, flush4_7 _, ?_⟩
  rw [mem_blk]
  intro a
  match a with
  | ⟨0, _⟩ =>
    show win4_7.index ⟨(i 0).val / 5000, ht⟩ (0 : Fin 2) * 5000 ≤ (i 0).val
      ∧ (i 0).val < win4_7.index ⟨(i 0).val / 5000, ht⟩ (0 : Fin 2) * 5000 + 5000
    rw [e14]; show (i 0).val / 5000 * 5000 ≤ (i 0).val ∧ (i 0).val < (i 0).val / 5000 * 5000 + 5000; omega
  | ⟨1, _⟩ =>
    show win4_7.index ⟨(i 0).val / 5000, ht⟩ (1 : Fin 2) * 256 ≤ (i 1).val
      ∧ (i 1).val < win4_7.index ⟨(i 0).val / 5000, ht⟩ (1 : Fin 2) * 256 + 256
    rw [e15]; omega

/-- After the launch the row-block output array is the stage's value on the arrays the launch found. -/
theorem final (c : Dev nD) : (dat4 V c).arrAt 7 cfg4.N = layerBn (V c main_v57_0) (V c main_v71) (V c main_v72) (V c main_v73) (V c main_v74) (V c main_v32) (V c main_v75) :=
  (dat4 V c).arrAt_eq_of_cover 7 _ (fun t _ => flushed V c t) cover

end Cert.KernelIdeal.Reg4

end
-- ==== Proof.ChainU.lean ====
/-
  The upper-adjacency branch followed through its three launches and the host's statistics between them.
-/
import proofs.«129683_j53085795779156_2_alg».proof.Proof.ChainA
import proofs.«129683_j53085795779156_2_alg».proof.Proof.Region2
import proofs.«129683_j53085795779156_2_alg».proof.Proof.Region3
import proofs.«129683_j53085795779156_2_alg».proof.Proof.Region4

set_option maxRecDepth 16384

noncomputable section

namespace Cert.KernelIdeal.Chain

open Idealize.ShloMosaic Idealize.ShloMosaic.TcCoe Idealize.SL.Sem Idealize.ShloMosaic.ValueIdx
open Idealize.ShloMosaic.Pipeline (Dat)
open Cert.KernelIdeal Cert.KernelIdeal.Gen Cell Cert.KernelIdeal.RegCommon Cert.KernelIdeal.HostGlue

variable (m : (ℓ : Loc nD τ sig) → Buf (Elt Ideal) ℓ) (ρ : Dev nD → PrngReg)

/-- No operation of a host stretch writes the buffer, so the stretch leaves it as it was. -/
local macro "host_keep" ops:ident : term => `(StableHlo.after_of_forall_not_mem _ _ (List.forall_iff_forall_mem.mp (by
  simp only [$ops:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide))))

/-! ## Buffers that no step in between writes keep their contents -/

theorem keep_arg0_0_11 (c : Dev nD) : W11 m ρ c (Proc.devRef .tc main_arg0) = m ((c : Thread nD τ).loc main_arg0) :=
  calc W11 m ρ c (Proc.devRef .tc main_arg0)
    _ = W10 m ρ c (Proc.devRef .tc main_arg0) := host_keep hostOps2
    _ = W9 m ρ c (Proc.devRef .tc main_arg0) := W10_of_ne m ρ c main_arg0 (by decide)
    _ = W8 m ρ c (Proc.devRef .tc main_arg0) := host_keep hostOps1
    _ = W7 m ρ c (Proc.devRef .tc main_arg0) := W8_of_ne m ρ c main_arg0 (by decide)
    _ = W6 m ρ c (Proc.devRef .tc main_arg0) := host_keep hostOps0_6
    _ = W5 m ρ c (Proc.devRef .tc main_arg0) := host_keep hostOps0_5
    _ = W4 m ρ c (Proc.devRef .tc main_arg0) := host_keep hostOps0_4
    _ = W3 m ρ c (Proc.devRef .tc main_arg0) := host_keep hostOps0_3
    _ = W2 m ρ c (Proc.devRef .tc main_arg0) := host_keep hostOps0_2
    _ = W1 m ρ c (Proc.devRef .tc main_arg0) := host_keep hostOps0_1
    _ = W0 m ρ c (Proc.devRef .tc main_arg0) := host_keep hostOps0
    _ = m ((c : Thread nD τ).loc main_arg0) := rfl

theorem keep_arg8_0_11 (c : Dev nD) : W11 m ρ c (Proc.devRef .tc main_arg8) = m ((c : Thread nD τ).loc main_arg8) :=
  calc W11 m ρ c (Proc.devRef .tc main_arg8)
    _ = W10 m ρ c (Proc.devRef .tc main_arg8) := host_keep hostOps2
    _ = W9 m ρ c (Proc.devRef .tc main_arg8) := W10_of_ne m ρ c main_arg8 (by decide)
    _ = W8 m ρ c (Proc.devRef .tc main_arg8) := host_keep hostOps1
    _ = W7 m ρ c (Proc.devRef .tc main_arg8) := W8_of_ne m ρ c main_arg8 (by decide)
    _ = W6 m ρ c (Proc.devRef .tc main_arg8) := host_keep hostOps0_6
    _ = W5 m ρ c (Proc.devRef .tc main_arg8) := host_keep hostOps0_5
    _ = W4 m ρ c (Proc.devRef .tc main_arg8) := host_keep hostOps0_4
    _ = W3 m ρ c (Proc.devRef .tc main_arg8) := host_keep hostOps0_3
    _ = W2 m ρ c (Proc.devRef .tc main_arg8) := host_keep hostOps0_2
    _ = W1 m ρ c (Proc.devRef .tc main_arg8) := host_keep hostOps0_1
    _ = W0 m ρ c (Proc.devRef .tc main_arg8) := host_keep hostOps0
    _ = m ((c : Thread nD τ).loc main_arg8) := rfl

theorem keep_v39_0_12_13 (c : Dev nD) : W13 m ρ c (Proc.devRef .tc main_v39_0) = W12 m ρ c (Proc.devRef .tc main_v39_0) :=
  calc W13 m ρ c (Proc.devRef .tc main_v39_0)
    _ = W12 m ρ c (Proc.devRef .tc main_v39_0) := host_keep hostOps3

theorem keep_arg10_0_12 (c : Dev nD) : W12 m ρ c (Proc.devRef .tc main_arg10) = m ((c : Thread nD τ).loc main_arg10) :=
  calc W12 m ρ c (Proc.devRef .tc main_arg10)
    _ = W11 m ρ c (Proc.devRef .tc main_arg10) := W12_of_ne m ρ c main_arg10 (by decide)
    _ = W10 m ρ c (Proc.devRef .tc main_arg10) := host_keep hostOps2
    _ = W9 m ρ c (Proc.devRef .tc main_arg10) := W10_of_ne m ρ c main_arg10 (by decide)
    _ = W8 m ρ c (Proc.devRef .tc main_arg10) := host_keep hostOps1
    _ = W7 m ρ c (Proc.devRef .tc main_arg10) := W8_of_ne m ρ c main_arg10 (by decide)
    _ = W6 m ρ c (Proc.devRef .tc main_arg10) := host_keep hostOps0_6
    _ = W5 m ρ c (Proc.devRef .tc main_arg10) := host_keep hostOps0_5
    _ = W4 m ρ c (Proc.devRef .tc main_arg10) := host_keep hostOps0_4
    _ = W3 m ρ c (Proc.devRef .tc main_arg10) := host_keep hostOps0_3
    _ = W2 m ρ c (Proc.devRef .tc main_arg10) := host_keep hostOps0_2
    _ = W1 m ρ c (Proc.devRef .tc main_arg10) := host_keep hostOps0_1
    _ = W0 m ρ c (Proc.devRef .tc main_arg10) := host_keep hostOps0
    _ = m ((c : Thread nD τ).loc main_arg10) := rfl

theorem keep_arg11_0_12 (c : Dev nD) : W12 m ρ c (Proc.devRef .tc main_arg11) = m ((c : Thread nD τ).loc main_arg11) :=
  calc W12 m ρ c (Proc.devRef .tc main_arg11)
    _ = W11 m ρ c (Proc.devRef .tc main_arg11) := W12_of_ne m ρ c main_arg11 (by decide)
    _ = W10 m ρ c (Proc.devRef .tc main_arg11) := host_keep hostOps2
    _ = W9 m ρ c (Proc.devRef .tc main_arg11) := W10_of_ne m ρ c main_arg11 (by decide)
    _ = W8 m ρ c (Proc.devRef .tc main_arg11) := host_keep hostOps1
    _ = W7 m ρ c (Proc.devRef .tc main_arg11) := W8_of_ne m ρ c main_arg11 (by decide)
    _ = W6 m ρ c (Proc.devRef .tc main_arg11) := host_keep hostOps0_6
    _ = W5 m ρ c (Proc.devRef .tc main_arg11) := host_keep hostOps0_5
    _ = W4 m ρ c (Proc.devRef .tc main_arg11) := host_keep hostOps0_4
    _ = W3 m ρ c (Proc.devRef .tc main_arg11) := host_keep hostOps0_3
    _ = W2 m ρ c (Proc.devRef .tc main_arg11) := host_keep hostOps0_2
    _ = W1 m ρ c (Proc.devRef .tc main_arg11) := host_keep hostOps0_1
    _ = W0 m ρ c (Proc.devRef .tc main_arg11) := host_keep hostOps0
    _ = m ((c : Thread nD τ).loc main_arg11) := rfl

theorem keep_arg12_0_13 (c : Dev nD) : W13 m ρ c (Proc.devRef .tc main_arg12) = m ((c : Thread nD τ).loc main_arg12) :=
  calc W13 m ρ c (Proc.devRef .tc main_arg12)
    _ = W12 m ρ c (Proc.devRef .tc main_arg12) := host_keep hostOps3
    _ = W11 m ρ c (Proc.devRef .tc main_arg12) := W12_of_ne m ρ c main_arg12 (by decide)
    _ = W10 m ρ c (Proc.devRef .tc main_arg12) := host_keep hostOps2
    _ = W9 m ρ c (Proc.devRef .tc main_arg12) := W10_of_ne m ρ c main_arg12 (by decide)
    _ = W8 m ρ c (Proc.devRef .tc main_arg12) := host_keep hostOps1
    _ = W7 m ρ c (Proc.devRef .tc main_arg12) := W8_of_ne m ρ c main_arg12 (by decide)
    _ = W6 m ρ c (Proc.devRef .tc main_arg12) := host_keep hostOps0_6
    _ = W5 m ρ c (Proc.devRef .tc main_arg12) := host_keep hostOps0_5
    _ = W4 m ρ c (Proc.devRef .tc main_arg12) := host_keep hostOps0_4
    _ = W3 m ρ c (Proc.devRef .tc main_arg12) := host_keep hostOps0_3
    _ = W2 m ρ c (Proc.devRef .tc main_arg12) := host_keep hostOps0_2
    _ = W1 m ρ c (Proc.devRef .tc main_arg12) := host_keep hostOps0_1
    _ = W0 m ρ c (Proc.devRef .tc main_arg12) := host_keep hostOps0
    _ = m ((c : Thread nD τ).loc main_arg12) := rfl

theorem keep_arg13_0_12 (c : Dev nD) : W12 m ρ c (Proc.devRef .tc main_arg13) = m ((c : Thread nD τ).loc main_arg13) :=
  calc W12 m ρ c (Proc.devRef .tc main_arg13)
    _ = W11 m ρ c (Proc.devRef .tc main_arg13) := W12_of_ne m ρ c main_arg13 (by decide)
    _ = W10 m ρ c (Proc.devRef .tc main_arg13) := host_keep hostOps2
    _ = W9 m ρ c (Proc.devRef .tc main_arg13) := W10_of_ne m ρ c main_arg13 (by decide)
    _ = W8 m ρ c (Proc.devRef .tc main_arg13) := host_keep hostOps1
    _ = W7 m ρ c (Proc.devRef .tc main_arg13) := W8_of_ne m ρ c main_arg13 (by decide)
    _ = W6 m ρ c (Proc.devRef .tc main_arg13) := host_keep hostOps0_6
    _ = W5 m ρ c (Proc.devRef .tc main_arg13) := host_keep hostOps0_5
    _ = W4 m ρ c (Proc.devRef .tc main_arg13) := host_keep hostOps0_4
    _ = W3 m ρ c (Proc.devRef .tc main_arg13) := host_keep hostOps0_3
    _ = W2 m ρ c (Proc.devRef .tc main_arg13) := host_keep hostOps0_2
    _ = W1 m ρ c (Proc.devRef .tc main_arg13) := host_keep hostOps0_1
    _ = W0 m ρ c (Proc.devRef .tc main_arg13) := host_keep hostOps0
    _ = m ((c : Thread nD τ).loc main_arg13) := rfl

theorem keep_v57_0_14_15 (c : Dev nD) : W15 m ρ c (Proc.devRef .tc main_v57_0) = W14 m ρ c (Proc.devRef .tc main_v57_0) :=
  calc W15 m ρ c (Proc.devRef .tc main_v57_0)
    _ = W14 m ρ c (Proc.devRef .tc main_v57_0) := host_keep hostOps4

theorem keep_arg14_0_14 (c : Dev nD) : W14 m ρ c (Proc.devRef .tc main_arg14) = m ((c : Thread nD τ).loc main_arg14) :=
  calc W14 m ρ c (Proc.devRef .tc main_arg14)
    _ = W13 m ρ c (Proc.devRef .tc main_arg14) := W14_of_ne m ρ c main_arg14 (by decide)
    _ = W12 m ρ c (Proc.devRef .tc main_arg14) := host_keep hostOps3
    _ = W11 m ρ c (Proc.devRef .tc main_arg14) := W12_of_ne m ρ c main_arg14 (by decide)
    _ = W10 m ρ c (Proc.devRef .tc main_arg14) := host_keep hostOps2
    _ = W9 m ρ c (Proc.devRef .tc main_arg14) := W10_of_ne m ρ c main_arg14 (by decide)
    _ = W8 m ρ c (Proc.devRef .tc main_arg14) := host_keep hostOps1
    _ = W7 m ρ c (Proc.devRef .tc main_arg14) := W8_of_ne m ρ c main_arg14 (by decide)
    _ = W6 m ρ c (Proc.devRef .tc main_arg14) := host_keep hostOps0_6
    _ = W5 m ρ c (Proc.devRef .tc main_arg14) := host_keep hostOps0_5
    _ = W4 m ρ c (Proc.devRef .tc main_arg14) := host_keep hostOps0_4
    _ = W3 m ρ c (Proc.devRef .tc main_arg14) := host_keep hostOps0_3
    _ = W2 m ρ c (Proc.devRef .tc main_arg14) := host_keep hostOps0_2
    _ = W1 m ρ c (Proc.devRef .tc main_arg14) := host_keep hostOps0_1
    _ = W0 m ρ c (Proc.devRef .tc main_arg14) := host_keep hostOps0
    _ = m ((c : Thread nD τ).loc main_arg14) := rfl

theorem keep_arg15_0_14 (c : Dev nD) : W14 m ρ c (Proc.devRef .tc main_arg15) = m ((c : Thread nD τ).loc main_arg15) :=
  calc W14 m ρ c (Proc.devRef .tc main_arg15)
    _ = W13 m ρ c (Proc.devRef .tc main_arg15) := W14_of_ne m ρ c main_arg15 (by decide)
    _ = W12 m ρ c (Proc.devRef .tc main_arg15) := host_keep hostOps3
    _ = W11 m ρ c (Proc.devRef .tc main_arg15) := W12_of_ne m ρ c main_arg15 (by decide)
    _ = W10 m ρ c (Proc.devRef .tc main_arg15) := host_keep hostOps2
    _ = W9 m ρ c (Proc.devRef .tc main_arg15) := W10_of_ne m ρ c main_arg15 (by decide)
    _ = W8 m ρ c (Proc.devRef .tc main_arg15) := host_keep hostOps1
    _ = W7 m ρ c (Proc.devRef .tc main_arg15) := W8_of_ne m ρ c main_arg15 (by decide)
    _ = W6 m ρ c (Proc.devRef .tc main_arg15) := host_keep hostOps0_6
    _ = W5 m ρ c (Proc.devRef .tc main_arg15) := host_keep hostOps0_5
    _ = W4 m ρ c (Proc.devRef .tc main_arg15) := host_keep hostOps0_4
    _ = W3 m ρ c (Proc.devRef .tc main_arg15) := host_keep hostOps0_3
    _ = W2 m ρ c (Proc.devRef .tc main_arg15) := host_keep hostOps0_2
    _ = W1 m ρ c (Proc.devRef .tc main_arg15) := host_keep hostOps0_1
    _ = W0 m ρ c (Proc.devRef .tc main_arg15) := host_keep hostOps0
    _ = m ((c : Thread nD τ).loc main_arg15) := rfl

theorem keep_v32_11_15 (c : Dev nD) : W15 m ρ c (Proc.devRef .tc main_v32) = W11 m ρ c (Proc.devRef .tc main_v32) :=
  calc W15 m ρ c (Proc.devRef .tc main_v32)
    _ = W14 m ρ c (Proc.devRef .tc main_v32) := host_keep hostOps4
    _ = W13 m ρ c (Proc.devRef .tc main_v32) := W14_of_ne m ρ c main_v32 (by decide)
    _ = W12 m ρ c (Proc.devRef .tc main_v32) := host_keep hostOps3
    _ = W11 m ρ c (Proc.devRef .tc main_v32) := W12_of_ne m ρ c main_v32 (by decide)

/-- The branch's arrays: first dense layer of the residual mix, its batch statistics, the second dense layer after
    BatchNorm and ReLU, its statistics, and the branch's contribution through its block of the combining weight. -/
def l1U (c : Dev nD) : FVec Ideal S40000x256 .f32 :=
  layer1 (aggU m ρ c) (m ((c : Thread nD τ).loc main_arg0)) (scaleOf (m ((c : Thread nD τ).loc main_arg36))) (m ((c : Thread nD τ).loc main_arg8)) (asRow (m ((c : Thread nD τ).loc main_arg9)))
def m1U (c : Dev nD) : FVec Ideal S1x256 .f32 := asRow (meanH (tileSum (l1U m ρ c)))
def v1U (c : Dev nD) : FVec Ideal S1x256 .f32 := asRow (varH (tileSum (l1U m ρ c)) (tileSumSq (l1U m ρ c)))
def l2U (c : Dev nD) : FVec Ideal S40000x256 .f32 :=
  layerBn (l1U m ρ c) (m1U m ρ c) (v1U m ρ c) (asRow (m ((c : Thread nD τ).loc main_arg10))) (asRow (m ((c : Thread nD τ).loc main_arg11))) (m ((c : Thread nD τ).loc main_arg12)) (asRow (m ((c : Thread nD τ).loc main_arg13)))
def m2U (c : Dev nD) : FVec Ideal S1x256 .f32 := asRow (meanH (tileSum (l2U m ρ c)))
def v2U (c : Dev nD) : FVec Ideal S1x256 .f32 := asRow (varH (tileSum (l2U m ρ c)) (tileSumSq (l2U m ρ c)))
def conU (c : Dev nD) : FVec Ideal S40000x256 .f32 :=
  layerBn (l2U m ρ c) (m2U m ρ c) (v2U m ρ c) (asRow (m ((c : Thread nD τ).loc main_arg14))) (asRow (m ((c : Thread nD τ).loc main_arg15))) (wcBlock0 (m ((c : Thread nD τ).loc main_arg32))) (asRow zeros256)

/-! ## The launches' inputs and outputs -/

theorem e2_0 (c : Dev nD) : V11 m ρ c main_v21 = aggU m ρ c := a_v21 m ρ c
theorem e2_2 (c : Dev nD) : V11 m ρ c main_v37 = scaleOf (m ((c : Thread nD τ).loc main_arg36)) := a_v37 m ρ c
theorem e2_4 (c : Dev nD) : V11 m ρ c main_v38 = asRow (m ((c : Thread nD τ).loc main_arg9)) := a_v38 m ρ c
theorem e2_1 (c : Dev nD) : V11 m ρ c main_arg0 = (m ((c : Thread nD τ).loc main_arg0)) := keep_arg0_0_11 m ρ c
theorem e2_3 (c : Dev nD) : V11 m ρ c main_arg8 = (m ((c : Thread nD τ).loc main_arg8)) := keep_arg8_0_11 m ρ c
theorem o2 (c : Dev nD) : W12 m ρ c (Proc.devRef .tc main_v39_0) = l1U m ρ c :=
  (W12_arr m ρ c 5).trans ((Reg2.final (V11 m ρ) c).trans (by
    rw [e2_0 m ρ c, e2_1 m ρ c, e2_2 m ρ c, e2_3 m ρ c, e2_4 m ρ c]
    all_goals rfl))
theorem oS2 (c : Dev nD) : W12 m ρ c (Proc.devRef .tc main_v39_1) = tileSum (l1U m ρ c) :=
  (W12_arr m ρ c 6).trans ((Reg2.sfinalSum (V11 m ρ) c).trans (by
    rw [e2_0 m ρ c, e2_1 m ρ c, e2_2 m ρ c, e2_3 m ρ c, e2_4 m ρ c]
    all_goals rfl))
theorem oQ2 (c : Dev nD) : W12 m ρ c (Proc.devRef .tc main_v39_2) = tileSumSq (l1U m ρ c) :=
  (W12_arr m ρ c 7).trans ((Reg2.sfinalSumSq (V11 m ρ) c).trans (by
    rw [e2_0 m ρ c, e2_1 m ρ c, e2_2 m ρ c, e2_3 m ρ c, e2_4 m ρ c]
    all_goals rfl))
theorem e3_0 (c : Dev nD) : V13 m ρ c main_v39_0 = l1U m ρ c := (keep_v39_0_12_13 m ρ c).trans (o2 m ρ c)
set_option maxHeartbeats 2000000 in
theorem e3_1 (c : Dev nD) : V13 m ρ c main_v52 = m1U m ρ c := by
  show StableHlo.after hostOps3 (W12 m ρ c) (Proc.devRef .tc main_v52) = _
  dsimp only [hostOps3]
  after_results
  all_goals (rw [oS2 m ρ c])
  all_goals rfl
set_option maxHeartbeats 2000000 in
theorem e3_2 (c : Dev nD) : V13 m ρ c main_v53 = v1U m ρ c := by
  show StableHlo.after hostOps3 (W12 m ρ c) (Proc.devRef .tc main_v53) = _
  dsimp only [hostOps3]
  after_results
  all_goals (rw [oS2 m ρ c, oQ2 m ρ c])
  all_goals rfl
set_option maxHeartbeats 2000000 in
theorem e3_3 (c : Dev nD) : V13 m ρ c main_v54 = asRow (m ((c : Thread nD τ).loc main_arg10)) := by
  show StableHlo.after hostOps3 (W12 m ρ c) (Proc.devRef .tc main_v54) = _
  dsimp only [hostOps3]
  after_results
  all_goals (rw [keep_arg10_0_12 m ρ c])
  all_goals rfl
set_option maxHeartbeats 2000000 in
theorem e3_4 (c : Dev nD) : V13 m ρ c main_v55 = asRow (m ((c : Thread nD τ).loc main_arg11)) := by
  show StableHlo.after hostOps3 (W12 m ρ c) (Proc.devRef .tc main_v55) = _
  dsimp only [hostOps3]
  after_results
  all_goals (rw [keep_arg11_0_12 m ρ c])
  all_goals rfl
theorem e3_5 (c : Dev nD) : V13 m ρ c main_arg12 = (m ((c : Thread nD τ).loc main_arg12)) := keep_arg12_0_13 m ρ c
set_option maxHeartbeats 2000000 in
theorem e3_6 (c : Dev nD) : V13 m ρ c main_v56 = asRow (m ((c : Thread nD τ).loc main_arg13)) := by
  show StableHlo.after hostOps3 (W12 m ρ c) (Proc.devRef .tc main_v56) = _
  dsimp only [hostOps3]
  after_results
  all_goals (rw [keep_arg13_0_12 m ρ c])
  all_goals rfl
theorem o3 (c : Dev nD) : W14 m ρ c (Proc.devRef .tc main_v57_0) = l2U m ρ c :=
  (W14_arr m ρ c 7).trans ((Reg3.final (V13 m ρ) c).trans (by
    rw [e3_0 m ρ c, e3_1 m ρ c, e3_2 m ρ c, e3_3 m ρ c, e3_4 m ρ c, e3_5 m ρ c, e3_6 m ρ c]
    all_goals rfl))
theorem oS3 (c : Dev nD) : W14 m ρ c (Proc.devRef .tc main_v57_1) = tileSum (l2U m ρ c) :=
  (W14_arr m ρ c 8).trans ((Reg3.sfinalSum (V13 m ρ) c).trans (by
    rw [e3_0 m ρ c, e3_1 m ρ c, e3_2 m ρ c, e3_3 m ρ c, e3_4 m ρ c, e3_5 m ρ c, e3_6 m ρ c]
    all_goals rfl))
theorem oQ3 (c : Dev nD) : W14 m ρ c (Proc.devRef .tc main_v57_2) = tileSumSq (l2U m ρ c) :=
  (W14_arr m ρ c 9).trans ((Reg3.sfinalSumSq (V13 m ρ) c).trans (by
    rw [e3_0 m ρ c, e3_1 m ρ c, e3_2 m ρ c, e3_3 m ρ c, e3_4 m ρ c, e3_5 m ρ c, e3_6 m ρ c]
    all_goals rfl))
theorem e4_0 (c : Dev nD) : V15 m ρ c main_v57_0 = l2U m ρ c := (keep_v57_0_14_15 m ρ c).trans (o3 m ρ c)
set_option maxHeartbeats 2000000 in
theorem e4_1 (c : Dev nD) : V15 m ρ c main_v71 = m2U m ρ c := by
  show StableHlo.after hostOps4 (W14 m ρ c) (Proc.devRef .tc main_v71) = _
  dsimp only [hostOps4]
  after_results
  all_goals (rw [oS3 m ρ c])
  all_goals rfl
set_option maxHeartbeats 2000000 in
theorem e4_2 (c : Dev nD) : V15 m ρ c main_v72 = v2U m ρ c := by
  show StableHlo.after hostOps4 (W14 m ρ c) (Proc.devRef .tc main_v72) = _
  dsimp only [hostOps4]
  after_results
  all_goals (rw [oS3 m ρ c, oQ3 m ρ c])
  all_goals rfl
set_option maxHeartbeats 2000000 in
theorem e4_3 (c : Dev nD) : V15 m ρ c main_v73 = asRow (m ((c : Thread nD τ).loc main_arg14)) := by
  show StableHlo.after hostOps4 (W14 m ρ c) (Proc.devRef .tc main_v73) = _
  dsimp only [hostOps4]
  after_results
  all_goals (rw [keep_arg14_0_14 m ρ c])
  all_goals rfl
set_option maxHeartbeats 2000000 in
theorem e4_4 (c : Dev nD) : V15 m ρ c main_v74 = asRow (m ((c : Thread nD τ).loc main_arg15)) := by
  show StableHlo.after hostOps4 (W14 m ρ c) (Proc.devRef .tc main_v74) = _
  dsimp only [hostOps4]
  after_results
  all_goals (rw [keep_arg15_0_14 m ρ c])
  all_goals rfl
theorem e4_5 (c : Dev nD) : V15 m ρ c main_v32 = wcBlock0 (m ((c : Thread nD τ).loc main_arg32)) := (keep_v32_11_15 m ρ c).trans (a_v32 m ρ c)
set_option maxHeartbeats 2000000 in
theorem e4_6 (c : Dev nD) : V15 m ρ c main_v75 = asRow zeros256 := by
  show StableHlo.after hostOps4 (W14 m ρ c) (Proc.devRef .tc main_v75) = _
  dsimp only [hostOps4]
  after_results
  all_goals rfl
theorem o4 (c : Dev nD) : W16 m ρ c (Proc.devRef .tc main_v76) = conU m ρ c :=
  (W16_arr m ρ c 7).trans ((Reg4.final (V15 m ρ) c).trans (by
    rw [e4_0 m ρ c, e4_1 m ρ c, e4_2 m ρ c, e4_3 m ρ c, e4_4 m ρ c, e4_5 m ρ c, e4_6 m ρ c]
    all_goals rfl))

end Cert.KernelIdeal.Chain

end
-- ==== Proof.Region5.lean ====
/-
  The first dense layer of a branch with its statistics: per block of 5000 cells, (aggregate + scale · features) · W + b, and the block's column sums and column sums of squares; the blocks tile the cell array and the statistics array.
-/
import proofs.«129683_j53085795779156_2_alg».proof.Proof.RegionCommon

set_option maxRecDepth 16384

noncomputable section

namespace Cert.KernelIdeal.Reg5

open Idealize.ShloMosaic Idealize.ShloMosaic.TcCoe Idealize.SL.Sem Idealize.ShloMosaic.ValueIdx
open Idealize.ShloMosaic.Pipeline (Dat)
open Cert.KernelIdeal Cert.KernelIdeal.Gen Cell Cert.KernelIdeal.RegCommon

/-- The dense layer over the residual mix, at an entry of the block. -/
theorem pay1 (x0 x1 : Vec Ideal S5000x256 .f32) (x2 : Vec Ideal S1x1 .f32) (x3 : Vec Ideal S256x256 .f32) (x4 : Vec Ideal S1x256 .f32)
    (j : S5000x256.Idx) :
    k5_pay1 x0 x1 x2 x3 x4 j
      = (∑ k : Fin 256, (x0 (ix2 (j 0) k) + x2 (ix2 0 0) * x1 (ix2 (j 0) k)) * x3 (ix2 k (j 1))) + x4 (ix2 0 (j 1)) := by
  unfold k5_pay1
  simp only [shapeCast_self]
  rw [addf_apply, mm, bcastRow]
  simp only [truncf_apply, addf_apply, mulf_apply, broadcast_apply]
  rw [scal x2]

theorem pay2 (x0 x1 : Vec Ideal S5000x256 .f32) (x2 : Vec Ideal S1x1 .f32) (x3 : Vec Ideal S256x256 .f32) (x4 : Vec Ideal S1x256 .f32)
    (y : S1x8x256.Idx) :
    k5_pay2 x0 x1 x2 x3 x4 y = ∑ q : Fin 5000, k5_pay1 x0 x1 x2 x3 x4 (ix2 q (y 2)) := by
  unfold k5_pay2
  simp only [shapeCast_self]
  exact colBlock _ y

theorem pay3 (x0 x1 : Vec Ideal S5000x256 .f32) (x2 : Vec Ideal S1x1 .f32) (x3 : Vec Ideal S256x256 .f32) (x4 : Vec Ideal S1x256 .f32)
    (y : S1x8x256.Idx) :
    k5_pay3 x0 x1 x2 x3 x4 y = ∑ q : Fin 5000, k5_pay1 x0 x1 x2 x3 x4 (ix2 q (y 2)) * k5_pay1 x0 x1 x2 x3 x4 (ix2 q (y 2)) := by
  unfold k5_pay3
  simp only [shapeCast_self]
  exact (colBlock _ y).trans (Finset.sum_congr rfl fun q _ => mulf_apply _ _ _)

variable (V : (c : Dev nD) → (b : Ref sig .tc) → Buf (Elt Ideal) ((c : Thread nD τ).loc b))

/-- The index maps over the grid. -/
theorem idxf : ∀ t : Fin cfg5.N, win5_0.index t (0 : Fin 2) = t.val
    ∧ win5_0.index t (1 : Fin 2) = 0
    ∧ win5_1.index t (0 : Fin 2) = t.val
    ∧ win5_1.index t (1 : Fin 2) = 0
    ∧ win5_2.index t (0 : Fin 2) = 0
    ∧ win5_2.index t (1 : Fin 2) = 0
    ∧ win5_3.index t (0 : Fin 2) = 0
    ∧ win5_3.index t (1 : Fin 2) = 0
    ∧ win5_4.index t (0 : Fin 2) = 0
    ∧ win5_4.index t (1 : Fin 2) = 0
    ∧ win5_5.index t (0 : Fin 2) = t.val
    ∧ win5_5.index t (1 : Fin 2) = 0
    ∧ win5_6.index t (0 : Fin 3) = t.val
    ∧ win5_6.index t (1 : Fin 3) = 0
    ∧ win5_6.index t (2 : Fin 3) = 0
    ∧ win5_7.index t (0 : Fin 3) = t.val
    ∧ win5_7.index t (1 : Fin 3) = 0
    ∧ win5_7.index t (2 : Fin 3) = 0 :=
  (by decide +kernel : ∀ t : Fin grid5.N, _)

/-- At a point, the body's value at a block entry is the layer's value at the array entry the block entry sits at. -/
theorem point (c : Dev nD) (t : Fin cfg5.N) (y : S5000x256.Idx) (i : S40000x256.Idx)
    (hi0 : (i 0).val = t.val * 5000 + (y 0).val) (hi1 : (i 1).val = (y 1).val) :
    k5_pay1 (iblk5 V c 0 t) (iblk5 V c 1 t) (iblk5 V c 2 t) (iblk5 V c 3 t) (iblk5 V c 4 t) y = layer1 (V c main_v26) (V c main_arg0) (V c main_v79) (V c main_arg16) (V c main_v80) i := by
  obtain ⟨e0, e1, e2, e3, e4, e5, e6, e7, e8, e9, e10, e11, e12, e13, e14, e15, e16, e17⟩ := idxf t
  rw [pay1]
  simp only [layer1, lin, mix, dotP, row]
  have hy1 : (y 1).val < 256 := (y 1).isLt
  have h0 : ∀ k : Fin 256, iblk5 V c 0 t (ix2 (y 0) k) = V c main_v26 (ix2 (i 0) k) := fun k => by
    show V c main_v26 (((cfg5.win 0).blk t).view.emb _) = _
    congr 1; funext a; apply Fin.ext
    match a with
    | ⟨0, _⟩ => show win5_0.index t (0 : Fin 2) * 5000 + 1 * (y 0).val = (i 0).val; omega
    | ⟨1, _⟩ => show win5_0.index t (1 : Fin 2) * 256 + 1 * k.val = k.val; omega
  have h1 : ∀ k : Fin 256, iblk5 V c 1 t (ix2 (y 0) k) = V c main_arg0 (ix2 (i 0) k) := fun k => by
    show V c main_arg0 (((cfg5.win 1).blk t).view.emb _) = _
    congr 1; funext a; apply Fin.ext
    match a with
    | ⟨0, _⟩ => show win5_1.index t (0 : Fin 2) * 5000 + 1 * (y 0).val = (i 0).val; omega
    | ⟨1, _⟩ => show win5_1.index t (1 : Fin 2) * 256 + 1 * k.val = k.val; omega
  have h2 : iblk5 V c 2 t (ix2 0 0) = V c main_v79 (ix2 0 0) := by
    show V c main_v79 (((cfg5.win 2).blk t).view.emb _) = _
    congr 1; funext a; apply Fin.ext
    match a with
    | ⟨0, _⟩ => show win5_2.index t (0 : Fin 2) * 1 + 1 * 0 = 0; omega
    | ⟨1, _⟩ => show win5_2.index t (1 : Fin 2) * 1 + 1 * 0 = 0; omega
  have h3 : ∀ k : Fin 256, iblk5 V c 3 t (ix2 k (y 1)) = V c main_arg16 (ix2 k (i 1)) := fun k => by
    show V c main_arg16 (((cfg5.win 3).blk t).view.emb _) = _
    congr 1; funext a; apply Fin.ext
    match a with
    | ⟨0, _⟩ => show win5_3.index t (0 : Fin 2) * 256 + 1 * k.val = k.val; omega
    | ⟨1, _⟩ => show win5_3.index t (1 : Fin 2) * 256 + 1 * (y 1).val = (i 1).val; omega
  have h4 : iblk5 V c 4 t (ix2 0 (y 1)) = V c main_v80 (ix2 0 (i 1)) := by
    show V c main_v80 (((cfg5.win 4).blk t).view.emb _) = _
    congr 1; funext a; apply Fin.ext
    match a with
    | ⟨0, _⟩ => show win5_4.index t (0 : Fin 2) * 1 + 1 * 0 = 0; omega
    | ⟨1, _⟩ => show win5_4.index t (1 : Fin 2) * 256 + 1 * (y 1).val = (i 1).val; omega
  simp only [h0, h1, h2, h3, h4]

/-- What point `t` writes back to the row-block output is block `t` of the stage's value on the arrays as found. -/
theorem flushed (c : Dev nD) (t : Fin cfg5.N) :
    (dat5 V c).flushed 5 t = ((cfg5.win 5).blk t).view.read (Elt Ideal) (layer1 (V c main_v26) (V c main_arg0) (V c main_v79) (V c main_arg16) (V c main_v80)) := by
  show (cfg5.win 5).cut (grid5.coords t) ((dat5 V c).after 5 t) = _
  rw [after5_5]
  unfold out5_5
  rw [View.canon_unit_zero hz]
  simp only [View.ld_unit_zero (S := S5000x256) hz, View.ld_unit_zero (S := S1x1) hz, View.ld_unit_zero (S := S256x256) hz, View.ld_unit_zero (S := S1x256) hz]
  obtain ⟨e0, e1, e2, e3, e4, e5, e6, e7, e8, e9, e10, e11, e12, e13, e14, e15, e16, e17⟩ := idxf t
  funext j
  refine point V c t j (((cfg5.win 5).blk t).view.emb j) ?_ ?_
  · show win5_5.index t (0 : Fin 2) * 5000 + 1 * (j 0).val = t.val * 5000 + (j 0).val; omega
  · show win5_5.index t (1 : Fin 2) * 256 + 1 * (j 1).val = (j 1).val; omega

theorem mem_blk (t : Fin cfg5.N) (i : S40000x256.Idx) :
    i ∈ ((cfg5.win 5).blk t).view.set ↔ ∀ a : Fin 2, win5_5.index t a * S5000x256.size a ≤ (i a).val
      ∧ (i a).val < win5_5.index t a * S5000x256.size a + S5000x256.size a := by
  show i ∈ ((View.whole main_v81_0).slice (win5_5.rect t)).set ↔ _
  rw [View.set_slice_whole, Rect.mem_set_unit]
  exact Iff.rfl

/-- Every row lies in the block of the point numbered by the row's quotient by the block height. -/
theorem cover (i : S40000x256.Idx) :
    ∃ t : Fin cfg5.N, (cfg5.win 5).flush t = true ∧ i ∈ ((cfg5.win 5).blk t).view.set := by
  have hN : grid5.N = 8 := N_5
  have hi0 : (i 0).val < 40000 := (i 0).isLt
  have hi1 : (i 1).val < 256 := (i 1).isLt
  have ht : (i 0).val / 5000 < grid5.N := by rw [hN]; omega
  obtain ⟨e0, e1, e2, e3, e4, e5, e6, e7, e8, e9, e10, e11, e12, e13, e14, e15, e16, e17⟩ := idxf ⟨(i 0).val / 5000, ht⟩
  refine ⟨⟨(i 0).val / 5000, ht⟩, flush5_5 _, ?_⟩
  rw [mem_blk]
  intro a
  match a with
  | ⟨0, _⟩ =>
    show win5_5.index ⟨(i 0).val / 5000, ht⟩ (0 : Fin 2) * 5000 ≤ (i 0).val
      ∧ (i 0).val < win5_5.index ⟨(i 0).val / 5000, ht⟩ (0 : Fin 2) * 5000 + 5000
    rw [e10]; show (i 0).val / 5000 * 5000 ≤ (i 0).val ∧ (i 0).val < (i 0).val / 5000 * 5000 + 5000; omega
  | ⟨1, _⟩ =>
    show win5_5.index ⟨(i 0).val / 5000, ht⟩ (1 : Fin 2) * 256 ≤ (i 1).val
      ∧ (i 1).val < win5_5.index ⟨(i 0).val / 5000, ht⟩ (1 : Fin 2) * 256 + 256
    rw [e11]; omega

/-- After the launch the row-block output array is the stage's value on the arrays the launch found. -/
theorem final (c : Dev nD) : (dat5 V c).arrAt 5 cfg5.N = layer1 (V c main_v26) (V c main_arg0) (V c main_v79) (V c main_arg16) (V c main_v80) :=
  (dat5 V c).arrAt_eq_of_cover 5 _ (fun t _ => flushed V c t) cover

/-- At a point, a statistics block entry is the tile statistic of the stage's value at the tile the point numbers. -/
theorem spointSum (c : Dev nD) (t : Fin cfg5.N) (y : S1x8x256.Idx) (i : S8x8x256.Idx)
    (hi0 : (i 0).val = t.val) (hi2 : (i 2).val = (y 2).val) :
    k5_pay2 (iblk5 V c 0 t) (iblk5 V c 1 t) (iblk5 V c 2 t) (iblk5 V c 3 t) (iblk5 V c 4 t) y = tileSum (layer1 (V c main_v26) (V c main_arg0) (V c main_v79) (V c main_arg16) (V c main_v80)) i := by
  rw [pay2]
  unfold tileSum
  refine Finset.sum_congr rfl fun q _ => ?_
  have hp := point V c t (ix2 q (y 2)) (ix2 (tileRow (i 0) q) (i 2))
    (by show (i 0).val * 5000 + q.val = t.val * 5000 + q.val; rw [hi0]) hi2
  exact hp

theorem sflushedSum (c : Dev nD) (t : Fin cfg5.N) :
    (dat5 V c).flushed 6 t = ((cfg5.win 6).blk t).view.read (Elt Ideal) (tileSum (layer1 (V c main_v26) (V c main_arg0) (V c main_v79) (V c main_arg16) (V c main_v80))) := by
  show (cfg5.win 6).cut (grid5.coords t) ((dat5 V c).after 6 t) = _
  rw [after5_6]
  unfold out5_6
  rw [View.canon_unit_zero hz3]
  simp only [View.ld_unit_zero (S := S5000x256) hz, View.ld_unit_zero (S := S1x1) hz, View.ld_unit_zero (S := S256x256) hz, View.ld_unit_zero (S := S1x256) hz]
  obtain ⟨e0, e1, e2, e3, e4, e5, e6, e7, e8, e9, e10, e11, e12, e13, e14, e15, e16, e17⟩ := idxf t
  funext j
  refine spointSum V c t j (((cfg5.win 6).blk t).view.emb j) ?_ ?_
  · have hj : (j 0).val < 1 := (j 0).isLt
    show win5_6.index t (0 : Fin 3) * 1 + 1 * (j 0).val = t.val; omega
  · show win5_6.index t (2 : Fin 3) * 256 + 1 * (j 2).val = (j 2).val; omega

theorem smem_blkSum (t : Fin cfg5.N) (i : S8x8x256.Idx) :
    i ∈ ((cfg5.win 6).blk t).view.set ↔ ∀ a : Fin 3, win5_6.index t a * S1x8x256.size a ≤ (i a).val
      ∧ (i a).val < win5_6.index t a * S1x8x256.size a + S1x8x256.size a := by
  show i ∈ ((View.whole main_v81_1).slice (win5_6.rect t)).set ↔ _
  rw [View.set_slice_whole, Rect.mem_set_unit]
  exact Iff.rfl

theorem scoverSum (i : S8x8x256.Idx) :
    ∃ t : Fin cfg5.N, (cfg5.win 6).flush t = true ∧ i ∈ ((cfg5.win 6).blk t).view.set := by
  have hN : grid5.N = 8 := N_5
  have hi0 : (i 0).val < 8 := (i 0).isLt
  have hi1 : (i 1).val < 8 := (i 1).isLt
  have hi2 : (i 2).val < 256 := (i 2).isLt
  have ht : (i 0).val < grid5.N := by rw [hN]; omega
  obtain ⟨e0, e1, e2, e3, e4, e5, e6, e7, e8, e9, e10, e11, e12, e13, e14, e15, e16, e17⟩ := idxf ⟨(i 0).val, ht⟩
  refine ⟨⟨(i 0).val, ht⟩, flush5_6 _, ?_⟩
  rw [smem_blkSum]
  intro a
  match a with
  | ⟨0, _⟩ =>
    show win5_6.index ⟨(i 0).val, ht⟩ (0 : Fin 3) * 1 ≤ (i 0).val
      ∧ (i 0).val < win5_6.index ⟨(i 0).val, ht⟩ (0 : Fin 3) * 1 + 1
    rw [e12]; show (i 0).val * 1 ≤ (i 0).val ∧ (i 0).val < (i 0).val * 1 + 1; omega
  | ⟨1, _⟩ =>
    show win5_6.index ⟨(i 0).val, ht⟩ (1 : Fin 3) * 8 ≤ (i 1).val
      ∧ (i 1).val < win5_6.index ⟨(i 0).val, ht⟩ (1 : Fin 3) * 8 + 8
    rw [e13]; omega
  | ⟨2, _⟩ =>
    show win5_6.index ⟨(i 0).val, ht⟩ (2 : Fin 3) * 256 ≤ (i 2).val
      ∧ (i 2).val < win5_6.index ⟨(i 0).val, ht⟩ (2 : Fin 3) * 256 + 256
    rw [e14]; omega

/-- After the launch the statistics array holds, per tile, the tile statistic of the stage's value. -/
theorem sfinalSum (c : Dev nD) : (dat5 V c).arrAt 6 cfg5.N = tileSum (layer1 (V c main_v26) (V c main_arg0) (V c main_v79) (V c main_arg16) (V c main_v80)) :=
  (dat5 V c).arrAt_eq_of_cover 6 _ (fun t _ => sflushedSum V c t) scoverSum

/-- At a point, a statistics block entry is the tile statistic of the stage's value at the tile the point numbers. -/
theorem spointSumSq (c : Dev nD) (t : Fin cfg5.N) (y : S1x8x256.Idx) (i : S8x8x256.Idx)
    (hi0 : (i 0).val = t.val) (hi2 : (i 2).val = (y 2).val) :
    k5_pay3 (iblk5 V c 0 t) (iblk5 V c 1 t) (iblk5 V c 2 t) (iblk5 V c 3 t) (iblk5 V c 4 t) y = tileSumSq (layer1 (V c main_v26) (V c main_arg0) (V c main_v79) (V c main_arg16) (V c main_v80)) i := by
  rw [pay3]
  unfold tileSumSq
  refine Finset.sum_congr rfl fun q _ => ?_
  have hp := point V c t (ix2 q (y 2)) (ix2 (tileRow (i 0) q) (i 2))
    (by show (i 0).val * 5000 + q.val = t.val * 5000 + q.val; rw [hi0]) hi2
  rw [hp]

theorem sflushedSumSq (c : Dev nD) (t : Fin cfg5.N) :
    (dat5 V c).flushed 7 t = ((cfg5.win 7).blk t).view.read (Elt Ideal) (tileSumSq (layer1 (V c main_v26) (V c main_arg0) (V c main_v79) (V c main_arg16) (V c main_v80))) := by
  show (cfg5.win 7).cut (grid5.coords t) ((dat5 V c).after 7 t) = _
  rw [after5_7]
  unfold out5_7
  rw [View.canon_unit_zero hz3]
  simp only [View.ld_unit_zero (S := S5000x256) hz, View.ld_unit_zero (S := S1x1) hz, View.ld_unit_zero (S := S256x256) hz, View.ld_unit_zero (S := S1x256) hz]
  obtain ⟨e0, e1, e2, e3, e4, e5, e6, e7, e8, e9, e10, e11, e12, e13, e14, e15, e16, e17⟩ := idxf t
  funext j
  refine spointSumSq V c t j (((cfg5.win 7).blk t).view.emb j) ?_ ?_
  · have hj : (j 0).val < 1 := (j 0).isLt
    show win5_7.index t (0 : Fin 3) * 1 + 1 * (j 0).val = t.val; omega
  · show win5_7.index t (2 : Fin 3) * 256 + 1 * (j 2).val = (j 2).val; omega

theorem smem_blkSumSq (t : Fin cfg5.N) (i : S8x8x256.Idx) :
    i ∈ ((cfg5.win 7).blk t).view.set ↔ ∀ a : Fin 3, win5_7.index t a * S1x8x256.size a ≤ (i a).val
      ∧ (i a).val < win5_7.index t a * S1x8x256.size a + S1x8x256.size a := by
  show i ∈ ((View.whole main_v81_2).slice (win5_7.rect t)).set ↔ _
  rw [View.set_slice_whole, Rect.mem_set_unit]
  exact Iff.rfl

theorem scoverSumSq (i : S8x8x256.Idx) :
    ∃ t : Fin cfg5.N, (cfg5.win 7).flush t = true ∧ i ∈ ((cfg5.win 7).blk t).view.set := by
  have hN : grid5.N = 8 := N_5
  have hi0 : (i 0).val < 8 := (i 0).isLt
  have hi1 : (i 1).val < 8 := (i 1).isLt
  have hi2 : (i 2).val < 256 := (i 2).isLt
  have ht : (i 0).val < grid5.N := by rw [hN]; omega
  obtain ⟨e0, e1, e2, e3, e4, e5, e6, e7, e8, e9, e10, e11, e12, e13, e14, e15, e16, e17⟩ := idxf ⟨(i 0).val, ht⟩
  refine ⟨⟨(i 0).val, ht⟩, flush5_7 _, ?_⟩
  rw [smem_blkSumSq]
  intro a
  match a with
  | ⟨0, _⟩ =>
    show win5_7.index ⟨(i 0).val, ht⟩ (0 : Fin 3) * 1 ≤ (i 0).val
      ∧ (i 0).val < win5_7.index ⟨(i 0).val, ht⟩ (0 : Fin 3) * 1 + 1
    rw [e15]; show (i 0).val * 1 ≤ (i 0).val ∧ (i 0).val < (i 0).val * 1 + 1; omega
  | ⟨1, _⟩ =>
    show win5_7.index ⟨(i 0).val, ht⟩ (1 : Fin 3) * 8 ≤ (i 1).val
      ∧ (i 1).val < win5_7.index ⟨(i 0).val, ht⟩ (1 : Fin 3) * 8 + 8
    rw [e16]; omega
  | ⟨2, _⟩ =>
    show win5_7.index ⟨(i 0).val, ht⟩ (2 : Fin 3) * 256 ≤ (i 2).val
      ∧ (i 2).val < win5_7.index ⟨(i 0).val, ht⟩ (2 : Fin 3) * 256 + 256
    rw [e17]; omega

/-- After the launch the statistics array holds, per tile, the tile statistic of the stage's value. -/
theorem sfinalSumSq (c : Dev nD) : (dat5 V c).arrAt 7 cfg5.N = tileSumSq (layer1 (V c main_v26) (V c main_arg0) (V c main_v79) (V c main_arg16) (V c main_v80)) :=
  (dat5 V c).arrAt_eq_of_cover 7 _ (fun t _ => sflushedSumSq V c t) scoverSumSq

end Cert.KernelIdeal.Reg5

end
-- ==== Proof.Region6.lean ====
/-
  BatchNorm with given statistics, ReLU, then a dense layer, with the result's per-block column sums and sums of squares.
-/
import proofs.«129683_j53085795779156_2_alg».proof.Proof.RegionCommon

set_option maxRecDepth 16384

noncomputable section

namespace Cert.KernelIdeal.Reg6

open Idealize.ShloMosaic Idealize.ShloMosaic.TcCoe Idealize.SL.Sem Idealize.ShloMosaic.ValueIdx
open Idealize.ShloMosaic.Pipeline (Dat)
open Cert.KernelIdeal Cert.KernelIdeal.Gen Cell Cert.KernelIdeal.RegCommon

/-- BatchNorm, ReLU and the dense layer, at an entry of the block. -/
theorem payMain (x0 : Vec Ideal S5000x256 .f32) (x1 x2 x3 x4 : Vec Ideal S1x256 .f32) (x5 : Vec Ideal S256x256 .f32) (x6 : Vec Ideal S1x256 .f32) (j : S5000x256.Idx) :
    k6_pay3 x0 x1 x2 x3 x4 x5 x6 j
      = (∑ k : Fin 256, max (x3 (ix2 0 k) * (x0 (ix2 (j 0) k) - x1 (ix2 0 k)) * Ideal.rsqrt (x2 (ix2 0 k) + bnEps) + x4 (ix2 0 k)) 0
            * x5 (ix2 k (j 1))) + x6 (ix2 0 (j 1)) := by
  unfold k6_pay3
  simp only [shapeCast_self]
  rw [addf_apply, mm, bcastRow]
  refine congrArg (· + _) (Finset.sum_congr rfl fun k _ => ?_)
  rw [truncf_apply, truncf_apply]
  exact congrArg (· * x5 (ix2 k (j 1))) (bnAt x0 x1 x2 x3 x4 (j 0) k)

/-- The statistics payloads of this body, as the frame composes them. -/
abbrev kS6 (x0 : Vec Ideal S5000x256 .f32) (x1 x2 x3 x4 : Vec Ideal S1x256 .f32) (x5 : Vec Ideal S256x256 .f32) (x6 : Vec Ideal S1x256 .f32) : FVec Ideal S1x8x256 .f32 := k6_pay1 (k6_pay4 x0 x1 x2 x3 x4 x5 x6)
abbrev kQ6 (x0 : Vec Ideal S5000x256 .f32) (x1 x2 x3 x4 : Vec Ideal S1x256 .f32) (x5 : Vec Ideal S256x256 .f32) (x6 : Vec Ideal S1x256 .f32) : FVec Ideal S1x8x256 .f32 := k6_pay2 (k6_pay5 x0 x1 x2 x3 x4 x5 x6)

theorem paySum (x0 : Vec Ideal S5000x256 .f32) (x1 x2 x3 x4 : Vec Ideal S1x256 .f32) (x5 : Vec Ideal S256x256 .f32) (x6 : Vec Ideal S1x256 .f32) (y : S1x8x256.Idx) :
    kS6 x0 x1 x2 x3 x4 x5 x6 y = ∑ q : Fin 5000, k6_pay3 x0 x1 x2 x3 x4 x5 x6 (ix2 q (y 2)) := by
  unfold kS6 k6_pay1 k6_pay4
  simp only [shapeCast_self]
  exact colBlock _ y

theorem paySumSq (x0 : Vec Ideal S5000x256 .f32) (x1 x2 x3 x4 : Vec Ideal S1x256 .f32) (x5 : Vec Ideal S256x256 .f32) (x6 : Vec Ideal S1x256 .f32) (y : S1x8x256.Idx) :
    kQ6 x0 x1 x2 x3 x4 x5 x6 y
      = ∑ q : Fin 5000, k6_pay3 x0 x1 x2 x3 x4 x5 x6 (ix2 q (y 2)) * k6_pay3 x0 x1 x2 x3 x4 x5 x6 (ix2 q (y 2)) := by
  unfold kQ6 k6_pay2 k6_pay5
  simp only [shapeCast_self]
  exact (colBlock _ y).trans (Finset.sum_congr rfl fun q _ => mulf_apply _ _ _)

variable (V : (c : Dev nD) → (b : Ref sig .tc) → Buf (Elt Ideal) ((c : Thread nD τ).loc b))

/-- The index maps over the grid. -/
theorem idxf : ∀ t : Fin cfg6.N, win6_0.index t (0 : Fin 2) = t.val
    ∧ win6_0.index t (1 : Fin 2) = 0
    ∧ win6_1.index t (0 : Fin 2) = 0
    ∧ win6_1.index t (1 : Fin 2) = 0
    ∧ win6_2.index t (0 : Fin 2) = 0
    ∧ win6_2.index t (1 : Fin 2) = 0
    ∧ win6_3.index t (0 : Fin 2) = 0
    ∧ win6_3.index t (1 : Fin 2) = 0
    ∧ win6_4.index t (0 : Fin 2) = 0
    ∧ win6_4.index t (1 : Fin 2) = 0
    ∧ win6_5.index t (0 : Fin 2) = 0
    ∧ win6_5.index t (1 : Fin 2) = 0
    ∧ win6_6.index t (0 : Fin 2) = 0
    ∧ win6_6.index t (1 : Fin 2) = 0
    ∧ win6_7.index t (0 : Fin 2) = t.val
    ∧ win6_7.index t (1 : Fin 2) = 0
    ∧ win6_8.index t (0 : Fin 3) = t.val
    ∧ win6_8.index t (1 : Fin 3) = 0
    ∧ win6_8.index t (2 : Fin 3) = 0
    ∧ win6_9.index t (0 : Fin 3) = t.val
    ∧ win6_9.index t (1 : Fin 3) = 0
    ∧ win6_9.index t (2 : Fin 3) = 0 :=
  (by decide +kernel : ∀ t : Fin grid6.N, _)

/-- At a point, the body's value at a block entry is the stage's value at the array entry the block entry sits at. -/
theorem point (c : Dev nD) (t : Fin cfg6.N) (y : S5000x256.Idx) (i : S40000x256.Idx)
    (hi0 : (i 0).val = t.val * 5000 + (y 0).val) (hi1 : (i 1).val = (y 1).val) :
    k6_pay3 (iblk6 V c 0 t) (iblk6 V c 1 t) (iblk6 V c 2 t) (iblk6 V c 3 t) (iblk6 V c 4 t) (iblk6 V c 5 t) (iblk6 V c 6 t) y = layerBn (V c main_v81_0) (V c main_v94) (V c main_v95) (V c main_v96) (V c main_v97) (V c main_arg20) (V c main_v98) i := by
  obtain ⟨e0, e1, e2, e3, e4, e5, e6, e7, e8, e9, e10, e11, e12, e13, e14, e15, e16, e17, e18, e19, e20, e21⟩ := idxf t
  rw [payMain]
  have hy1 : (y 1).val < 256 := (y 1).isLt
  have h0 : ∀ k : Fin 256, iblk6 V c 0 t (ix2 (y 0) k) = V c main_v81_0 (ix2 (i 0) k) := fun k => by
    show V c main_v81_0 (((cfg6.win 0).blk t).view.emb _) = _
    congr 1; funext a; apply Fin.ext
    match a with
    | ⟨0, _⟩ => show win6_0.index t (0 : Fin 2) * 5000 + 1 * (y 0).val = (i 0).val; omega
    | ⟨1, _⟩ => show win6_0.index t (1 : Fin 2) * 256 + 1 * k.val = k.val; omega
  have h1 : ∀ k : Fin 256, iblk6 V c 1 t (ix2 0 k) = V c main_v94 (ix2 0 k) := fun k => by
    show V c main_v94 (((cfg6.win 1).blk t).view.emb _) = _
    congr 1; funext a; apply Fin.ext
    match a with
    | ⟨0, _⟩ => show win6_1.index t (0 : Fin 2) * 1 + 1 * 0 = 0; omega
    | ⟨1, _⟩ => show win6_1.index t (1 : Fin 2) * 256 + 1 * k.val = k.val; omega
  have h2 : ∀ k : Fin 256, iblk6 V c 2 t (ix2 0 k) = V c main_v95 (ix2 0 k) := fun k => by
    show V c main_v95 (((cfg6.win 2).blk t).view.emb _) = _
    congr 1; funext a; apply Fin.ext
    match a with
    | ⟨0, _⟩ => show win6_2.index t (0 : Fin 2) * 1 + 1 * 0 = 0; omega
    | ⟨1, _⟩ => show win6_2.index t (1 : Fin 2) * 256 + 1 * k.val = k.val; omega
  have h3 : ∀ k : Fin 256, iblk6 V c 3 t (ix2 0 k) = V c main_v96 (ix2 0 k) := fun k => by
    show V c main_v96 (((cfg6.win 3).blk t).view.emb _) = _
    congr 1; funext a; apply Fin.ext
    match a with
    | ⟨0, _⟩ => show win6_3.index t (0 : Fin 2) * 1 + 1 * 0 = 0; omega
    | ⟨1, _⟩ => show win6_3.index t (1 : Fin 2) * 256 + 1 * k.val = k.val; omega
  have h4 : ∀ k : Fin 256, iblk6 V c 4 t (ix2 0 k) = V c main_v97 (ix2 0 k) := fun k => by
    show V c main_v97 (((cfg6.win 4).blk t).view.emb _) = _
    congr 1; funext a; apply Fin.ext
    match a with
    | ⟨0, _⟩ => show win6_4.index t (0 : Fin 2) * 1 + 1 * 0 = 0; omega
    | ⟨1, _⟩ => show win6_4.index t (1 : Fin 2) * 256 + 1 * k.val = k.val; omega
  have h5 : ∀ k : Fin 256, iblk6 V c 5 t (ix2 k (y 1)) = V c main_arg20 (ix2 k (i 1)) := fun k => by
    show V c main_arg20 (((cfg6.win 5).blk t).view.emb _) = _
    congr 1; funext a; apply Fin.ext
    match a with
    | ⟨0, _⟩ => show win6_5.index t (0 : Fin 2) * 256 + 1 * k.val = k.val; omega
    | ⟨1, _⟩ => show win6_5.index t (1 : Fin 2) * 256 + 1 * (y 1).val = (i 1).val; omega
  have h6 : iblk6 V c 6 t (ix2 0 (y 1)) = V c main_v98 (ix2 0 (i 1)) := by
    show V c main_v98 (((cfg6.win 6).blk t).view.emb _) = _
    congr 1; funext a; apply Fin.ext
    match a with
    | ⟨0, _⟩ => show win6_6.index t (0 : Fin 2) * 1 + 1 * 0 = 0; omega
    | ⟨1, _⟩ => show win6_6.index t (1 : Fin 2) * 256 + 1 * (y 1).val = (i 1).val; omega
  simp only [h0, h1, h2, h3, h4, h5, h6]
  rfl

/-- What point `t` writes back to the row-block output is block `t` of the stage's value on the arrays as found. -/
theorem flushed (c : Dev nD) (t : Fin cfg6.N) :
    (dat6 V c).flushed 7 t = ((cfg6.win 7).blk t).view.read (Elt Ideal) (layerBn (V c main_v81_0) (V c main_v94) (V c main_v95) (V c main_v96) (V c main_v97) (V c main_arg20) (V c main_v98)) := by
  show (cfg6.win 7).cut (grid6.coords t) ((dat6 V c).after 7 t) = _
  rw [after6_7]
  unfold out6_7
  rw [View.canon_unit_zero hz]
  simp only [View.ld_unit_zero (S := S5000x256) hz, View.ld_unit_zero (S := S1x256) hz, View.ld_unit_zero (S := S256x256) hz]
  obtain ⟨e0, e1, e2, e3, e4, e5, e6, e7, e8, e9, e10, e11, e12, e13, e14, e15, e16, e17, e18, e19, e20, e21⟩ := idxf t
  funext j
  refine point V c t j (((cfg6.win 7).blk t).view.emb j) ?_ ?_
  · show win6_7.index t (0 : Fin 2) * 5000 + 1 * (j 0).val = t.val * 5000 + (j 0).val; omega
  · show win6_7.index t (1 : Fin 2) * 256 + 1 * (j 1).val = (j 1).val; omega

theorem mem_blk (t : Fin cfg6.N) (i : S40000x256.Idx) :
    i ∈ ((cfg6.win 7).blk t).view.set ↔ ∀ a : Fin 2, win6_7.index t a * S5000x256.size a ≤ (i a).val
      ∧ (i a).val < win6_7.index t a * S5000x256.size a + S5000x256.size a := by
  show i ∈ ((View.whole main_v99_0).slice (win6_7.rect t)).set ↔ _
  rw [View.set_slice_whole, Rect.mem_set_unit]
  exact Iff.rfl

/-- Every row lies in the block of the point numbered by the row's quotient by the block height. -/
theorem cover (i : S40000x256.Idx) :
    ∃ t : Fin cfg6.N, (cfg6.win 7).flush t = true ∧ i ∈ ((cfg6.win 7).blk t).view.set := by
  have hN : grid6.N = 8 := N_6
  have hi0 : (i 0).val < 40000 := (i 0).isLt
  have hi1 : (i 1).val < 256 := (i 1).isLt
  have ht : (i 0).val / 5000 < grid6.N := by rw [hN]; omega
  obtain ⟨e0, e1, e2, e3, e4, e5, e6, e7, e8, e9, e10, e11, e12, e13, e14, e15, e16, e17, e18, e19, e20, e21⟩ := idxf ⟨(i 0).val / 5000, ht⟩
  refine ⟨⟨(i 0).val / 5000, ht⟩, flush6_7 _, ?_⟩
  rw [mem_blk]
  intro a
  match a with
  | ⟨0, _⟩ =>
    show win6_7.index ⟨(i 0).val / 5000, ht⟩ (0 : Fin 2) * 5000 ≤ (i 0).val
      ∧ (i 0).val < win6_7.index ⟨(i 0).val / 5000, ht⟩ (0 : Fin 2) * 5000 + 5000
    rw [e14]; show (i 0).val / 5000 * 5000 ≤ (i 0).val ∧ (i 0).val < (i 0).val / 5000 * 5000 + 5000; omega
  | ⟨1, _⟩ =>
    show win6_7.index ⟨(i 0).val / 5000, ht⟩ (1 : Fin 2) * 256 ≤ (i 1).val
      ∧ (i 1).val < win6_7.index ⟨(i 0).val / 5000, ht⟩ (1 : Fin 2) * 256 + 256
    rw [e15]; omega

/-- After the launch the row-block output array is the stage's value on the arrays the launch found. -/
theorem final (c : Dev nD) : (dat6 V c).arrAt 7 cfg6.N = layerBn (V c main_v81_0) (V c main_v94) (V c main_v95) (V c main_v96) (V c main_v97) (V c main_arg20) (V c main_v98) :=
  (dat6 V c).arrAt_eq_of_cover 7 _ (fun t _ => flushed V c t) cover

/-- At a point, a statistics block entry is the tile statistic of the stage's value at the tile the point numbers. -/
theorem spointSum (c : Dev nD) (t : Fin cfg6.N) (y : S1x8x256.Idx) (i : S8x8x256.Idx)
    (hi0 : (i 0).val = t.val) (hi2 : (i 2).val = (y 2).val) :
    kS6 (iblk6 V c 0 t) (iblk6 V c 1 t) (iblk6 V c 2 t) (iblk6 V c 3 t) (iblk6 V c 4 t) (iblk6 V c 5 t) (iblk6 V c 6 t) y = tileSum (layerBn (V c main_v81_0) (V c main_v94) (V c main_v95) (V c main_v96) (V c main_v97) (V c main_arg20) (V c main_v98)) i := by
  rw [paySum]
  unfold tileSum
  refine Finset.sum_congr rfl fun q _ => ?_
  have hp := point V c t (ix2 q (y 2)) (ix2 (tileRow (i 0) q) (i 2))
    (by show (i 0).val * 5000 + q.val = t.val * 5000 + q.val; rw [hi0]) hi2
  exact hp

theorem sflushedSum (c : Dev nD) (t : Fin cfg6.N) :
    (dat6 V c).flushed 8 t = ((cfg6.win 8).blk t).view.read (Elt Ideal) (tileSum (layerBn (V c main_v81_0) (V c main_v94) (V c main_v95) (V c main_v96) (V c main_v97) (V c main_arg20) (V c main_v98))) := by
  show (cfg6.win 8).cut (grid6.coords t) ((dat6 V c).after 8 t) = _
  rw [after6_8]
  unfold out6_8
  rw [View.canon_unit_zero hz3]
  simp only [View.ld_unit_zero (S := S5000x256) hz, View.ld_unit_zero (S := S1x256) hz, View.ld_unit_zero (S := S256x256) hz]
  obtain ⟨e0, e1, e2, e3, e4, e5, e6, e7, e8, e9, e10, e11, e12, e13, e14, e15, e16, e17, e18, e19, e20, e21⟩ := idxf t
  funext j
  refine spointSum V c t j (((cfg6.win 8).blk t).view.emb j) ?_ ?_
  · have hj : (j 0).val < 1 := (j 0).isLt
    show win6_8.index t (0 : Fin 3) * 1 + 1 * (j 0).val = t.val; omega
  · show win6_8.index t (2 : Fin 3) * 256 + 1 * (j 2).val = (j 2).val; omega

theorem smem_blkSum (t : Fin cfg6.N) (i : S8x8x256.Idx) :
    i ∈ ((cfg6.win 8).blk t).view.set ↔ ∀ a : Fin 3, win6_8.index t a * S1x8x256.size a ≤ (i a).val
      ∧ (i a).val < win6_8.index t a * S1x8x256.size a + S1x8x256.size a := by
  show i ∈ ((View.whole main_v99_1).slice (win6_8.rect t)).set ↔ _
  rw [View.set_slice_whole, Rect.mem_set_unit]
  exact Iff.rfl

theorem scoverSum (i : S8x8x256.Idx) :
    ∃ t : Fin cfg6.N, (cfg6.win 8).flush t = true ∧ i ∈ ((cfg6.win 8).blk t).view.set := by
  have hN : grid6.N = 8 := N_6
  have hi0 : (i 0).val < 8 := (i 0).isLt
  have hi1 : (i 1).val < 8 := (i 1).isLt
  have hi2 : (i 2).val < 256 := (i 2).isLt
  have ht : (i 0).val < grid6.N := by rw [hN]; omega
  obtain ⟨e0, e1, e2, e3, e4, e5, e6, e7, e8, e9, e10, e11, e12, e13, e14, e15, e16, e17, e18, e19, e20, e21⟩ := idxf ⟨(i 0).val, ht⟩
  refine ⟨⟨(i 0).val, ht⟩, flush6_8 _, ?_⟩
  rw [smem_blkSum]
  intro a
  match a with
  | ⟨0, _⟩ =>
    show win6_8.index ⟨(i 0).val, ht⟩ (0 : Fin 3) * 1 ≤ (i 0).val
      ∧ (i 0).val < win6_8.index ⟨(i 0).val, ht⟩ (0 : Fin 3) * 1 + 1
    rw [e16]; show (i 0).val * 1 ≤ (i 0).val ∧ (i 0).val < (i 0).val * 1 + 1; omega
  | ⟨1, _⟩ =>
    show win6_8.index ⟨(i 0).val, ht⟩ (1 : Fin 3) * 8 ≤ (i 1).val
      ∧ (i 1).val < win6_8.index ⟨(i 0).val, ht⟩ (1 : Fin 3) * 8 + 8
    rw [e17]; omega
  | ⟨2, _⟩ =>
    show win6_8.index ⟨(i 0).val, ht⟩ (2 : Fin 3) * 256 ≤ (i 2).val
      ∧ (i 2).val < win6_8.index ⟨(i 0).val, ht⟩ (2 : Fin 3) * 256 + 256
    rw [e18]; omega

/-- After the launch the statistics array holds, per tile, the tile statistic of the stage's value. -/
theorem sfinalSum (c : Dev nD) : (dat6 V c).arrAt 8 cfg6.N = tileSum (layerBn (V c main_v81_0) (V c main_v94) (V c main_v95) (V c main_v96) (V c main_v97) (V c main_arg20) (V c main_v98)) :=
  (dat6 V c).arrAt_eq_of_cover 8 _ (fun t _ => sflushedSum V c t) scoverSum

/-- At a point, a statistics block entry is the tile statistic of the stage's value at the tile the point numbers. -/
theorem spointSumSq (c : Dev nD) (t : Fin cfg6.N) (y : S1x8x256.Idx) (i : S8x8x256.Idx)
    (hi0 : (i 0).val = t.val) (hi2 : (i 2).val = (y 2).val) :
    kQ6 (iblk6 V c 0 t) (iblk6 V c 1 t) (iblk6 V c 2 t) (iblk6 V c 3 t) (iblk6 V c 4 t) (iblk6 V c 5 t) (iblk6 V c 6 t) y = tileSumSq (layerBn (V c main_v81_0) (V c main_v94) (V c main_v95) (V c main_v96) (V c main_v97) (V c main_arg20) (V c main_v98)) i := by
  rw [paySumSq]
  unfold tileSumSq
  refine Finset.sum_congr rfl fun q _ => ?_
  have hp := point V c t (ix2 q (y 2)) (ix2 (tileRow (i 0) q) (i 2))
    (by show (i 0).val * 5000 + q.val = t.val * 5000 + q.val; rw [hi0]) hi2
  rw [hp]

theorem sflushedSumSq (c : Dev nD) (t : Fin cfg6.N) :
    (dat6 V c).flushed 9 t = ((cfg6.win 9).blk t).view.read (Elt Ideal) (tileSumSq (layerBn (V c main_v81_0) (V c main_v94) (V c main_v95) (V c main_v96) (V c main_v97) (V c main_arg20) (V c main_v98))) := by
  show (cfg6.win 9).cut (grid6.coords t) ((dat6 V c).after 9 t) = _
  rw [after6_9]
  unfold out6_9
  rw [View.canon_unit_zero hz3]
  simp only [View.ld_unit_zero (S := S5000x256) hz, View.ld_unit_zero (S := S1x256) hz, View.ld_unit_zero (S := S256x256) hz]
  obtain ⟨e0, e1, e2, e3, e4, e5, e6, e7, e8, e9, e10, e11, e12, e13, e14, e15, e16, e17, e18, e19, e20, e21⟩ := idxf t
  funext j
  refine spointSumSq V c t j (((cfg6.win 9).blk t).view.emb j) ?_ ?_
  · have hj : (j 0).val < 1 := (j 0).isLt
    show win6_9.index t (0 : Fin 3) * 1 + 1 * (j 0).val = t.val; omega
  · show win6_9.index t (2 : Fin 3) * 256 + 1 * (j 2).val = (j 2).val; omega

theorem smem_blkSumSq (t : Fin cfg6.N) (i : S8x8x256.Idx) :
    i ∈ ((cfg6.win 9).blk t).view.set ↔ ∀ a : Fin 3, win6_9.index t a * S1x8x256.size a ≤ (i a).val
      ∧ (i a).val < win6_9.index t a * S1x8x256.size a + S1x8x256.size a := by
  show i ∈ ((View.whole main_v99_2).slice (win6_9.rect t)).set ↔ _
  rw [View.set_slice_whole, Rect.mem_set_unit]
  exact Iff.rfl

theorem scoverSumSq (i : S8x8x256.Idx) :
    ∃ t : Fin cfg6.N, (cfg6.win 9).flush t = true ∧ i ∈ ((cfg6.win 9).blk t).view.set := by
  have hN : grid6.N = 8 := N_6
  have hi0 : (i 0).val < 8 := (i 0).isLt
  have hi1 : (i 1).val < 8 := (i 1).isLt
  have hi2 : (i 2).val < 256 := (i 2).isLt
  have ht : (i 0).val < grid6.N := by rw [hN]; omega
  obtain ⟨e0, e1, e2, e3, e4, e5, e6, e7, e8, e9, e10, e11, e12, e13, e14, e15, e16, e17, e18, e19, e20, e21⟩ := idxf ⟨(i 0).val, ht⟩
  refine ⟨⟨(i 0).val, ht⟩, flush6_9 _, ?_⟩
  rw [smem_blkSumSq]
  intro a
  match a with
  | ⟨0, _⟩ =>
    show win6_9.index ⟨(i 0).val, ht⟩ (0 : Fin 3) * 1 ≤ (i 0).val
      ∧ (i 0).val < win6_9.index ⟨(i 0).val, ht⟩ (0 : Fin 3) * 1 + 1
    rw [e19]; show (i 0).val * 1 ≤ (i 0).val ∧ (i 0).val < (i 0).val * 1 + 1; omega
  | ⟨1, _⟩ =>
    show win6_9.index ⟨(i 0).val, ht⟩ (1 : Fin 3) * 8 ≤ (i 1).val
      ∧ (i 1).val < win6_9.index ⟨(i 0).val, ht⟩ (1 : Fin 3) * 8 + 8
    rw [e20]; omega
  | ⟨2, _⟩ =>
    show win6_9.index ⟨(i 0).val, ht⟩ (2 : Fin 3) * 256 ≤ (i 2).val
      ∧ (i 2).val < win6_9.index ⟨(i 0).val, ht⟩ (2 : Fin 3) * 256 + 256
    rw [e21]; omega

/-- After the launch the statistics array holds, per tile, the tile statistic of the stage's value. -/
theorem sfinalSumSq (c : Dev nD) : (dat6 V c).arrAt 9 cfg6.N = tileSumSq (layerBn (V c main_v81_0) (V c main_v94) (V c main_v95) (V c main_v96) (V c main_v97) (V c main_arg20) (V c main_v98)) :=
  (dat6 V c).arrAt_eq_of_cover 9 _ (fun t _ => sflushedSumSq V c t) scoverSumSq

end Cert.KernelIdeal.Reg6

end
-- ==== Proof.Region7.lean ====
/-
  BatchNorm with given statistics, ReLU, then a dense layer (one branch's contribution to the combine).
-/
import proofs.«129683_j53085795779156_2_alg».proof.Proof.RegionCommon

set_option maxRecDepth 16384

noncomputable section

namespace Cert.KernelIdeal.Reg7

open Idealize.ShloMosaic Idealize.ShloMosaic.TcCoe Idealize.SL.Sem Idealize.ShloMosaic.ValueIdx
open Idealize.ShloMosaic.Pipeline (Dat)
open Cert.KernelIdeal Cert.KernelIdeal.Gen Cell Cert.KernelIdeal.RegCommon

/-- BatchNorm, ReLU and the dense layer, at an entry of the block. -/
theorem payMain (x0 : Vec Ideal S5000x256 .f32) (x1 x2 x3 x4 : Vec Ideal S1x256 .f32) (x5 : Vec Ideal S256x256 .f32) (x6 : Vec Ideal S1x256 .f32) (j : S5000x256.Idx) :
    k7_pay1 x0 x1 x2 x3 x4 x5 x6 j
      = (∑ k : Fin 256, max (x3 (ix2 0 k) * (x0 (ix2 (j 0) k) - x1 (ix2 0 k)) * Ideal.rsqrt (x2 (ix2 0 k) + bnEps) + x4 (ix2 0 k)) 0
            * x5 (ix2 k (j 1))) + x6 (ix2 0 (j 1)) := by
  unfold k7_pay1
  simp only [shapeCast_self]
  rw [addf_apply, mm, bcastRow]
  refine congrArg (· + _) (Finset.sum_congr rfl fun k _ => ?_)
  rw [truncf_apply, truncf_apply]
  exact congrArg (· * x5 (ix2 k (j 1))) (bnAt x0 x1 x2 x3 x4 (j 0) k)

variable (V : (c : Dev nD) → (b : Ref sig .tc) → Buf (Elt Ideal) ((c : Thread nD τ).loc b))

/-- The index maps over the grid. -/
theorem idxf : ∀ t : Fin cfg7.N, win7_0.index t (0 : Fin 2) = t.val
    ∧ win7_0.index t (1 : Fin 2) = 0
    ∧ win7_1.index t (0 : Fin 2) = 0
    ∧ win7_1.index t (1 : Fin 2) = 0
    ∧ win7_2.index t (0 : Fin 2) = 0
    ∧ win7_2.index t (1 : Fin 2) = 0
    ∧ win7_3.index t (0 : Fin 2) = 0
    ∧ win7_3.index t (1 : Fin 2) = 0
    ∧ win7_4.index t (0 : Fin 2) = 0
    ∧ win7_4.index t (1 : Fin 2) = 0
    ∧ win7_5.index t (0 : Fin 2) = 0
    ∧ win7_5.index t (1 : Fin 2) = 0
    ∧ win7_6.index t (0 : Fin 2) = 0
    ∧ win7_6.index t (1 : Fin 2) = 0
    ∧ win7_7.index t (0 : Fin 2) = t.val
    ∧ win7_7.index t (1 : Fin 2) = 0 :=
  (by decide +kernel : ∀ t : Fin grid7.N, _)

/-- At a point, the body's value at a block entry is the stage's value at the array entry the block entry sits at. -/
theorem point (c : Dev nD) (t : Fin cfg7.N) (y : S5000x256.Idx) (i : S40000x256.Idx)
    (hi0 : (i 0).val = t.val * 5000 + (y 0).val) (hi1 : (i 1).val = (y 1).val) :
    k7_pay1 (iblk7 V c 0 t) (iblk7 V c 1 t) (iblk7 V c 2 t) (iblk7 V c 3 t) (iblk7 V c 4 t) (iblk7 V c 5 t) (iblk7 V c 6 t) y = layerBn (V c main_v99_0) (V c main_v113) (V c main_v114) (V c main_v115) (V c main_v116) (V c main_v33) (V c main_v117) i := by
  obtain ⟨e0, e1, e2, e3, e4, e5, e6, e7, e8, e9, e10, e11, e12, e13, e14, e15⟩ := idxf t
  rw [payMain]
  have hy1 : (y 1).val < 256 := (y 1).isLt
  have h0 : ∀ k : Fin 256, iblk7 V c 0 t (ix2 (y 0) k) = V c main_v99_0 (ix2 (i 0) k) := fun k => by
    show V c main_v99_0 (((cfg7.win 0).blk t).view.emb _) = _
    congr 1; funext a; apply Fin.ext
    match a with
    | ⟨0, _⟩ => show win7_0.index t (0 : Fin 2) * 5000 + 1 * (y 0).val = (i 0).val; omega
    | ⟨1, _⟩ => show win7_0.index t (1 : Fin 2) * 256 + 1 * k.val = k.val; omega
  have h1 : ∀ k : Fin 256, iblk7 V c 1 t (ix2 0 k) = V c main_v113 (ix2 0 k) := fun k => by
    show V c main_v113 (((cfg7.win 1).blk t).view.emb _) = _
    congr 1; funext a; apply Fin.ext
    match a with
    | ⟨0, _⟩ => show win7_1.index t (0 : Fin 2) * 1 + 1 * 0 = 0; omega
    | ⟨1, _⟩ => show win7_1.index t (1 : Fin 2) * 256 + 1 * k.val = k.val; omega
  have h2 : ∀ k : Fin 256, iblk7 V c 2 t (ix2 0 k) = V c main_v114 (ix2 0 k) := fun k => by
    show V c main_v114 (((cfg7.win 2).blk t).view.emb _) = _
    congr 1; funext a; apply Fin.ext
    match a with
    | ⟨0, _⟩ => show win7_2.index t (0 : Fin 2) * 1 + 1 * 0 = 0; omega
    | ⟨1, _⟩ => show win7_2.index t (1 : Fin 2) * 256 + 1 * k.val = k.val; omega
  have h3 : ∀ k : Fin 256, iblk7 V c 3 t (ix2 0 k) = V c main_v115 (ix2 0 k) := fun k => by
    show V c main_v115 (((cfg7.win 3).blk t).view.emb _) = _
    congr 1; funext a; apply Fin.ext
    match a with
    | ⟨0, _⟩ => show win7_3.index t (0 : Fin 2) * 1 + 1 * 0 = 0; omega
    | ⟨1, _⟩ => show win7_3.index t (1 : Fin 2) * 256 + 1 * k.val = k.val; omega
  have h4 : ∀ k : Fin 256, iblk7 V c 4 t (ix2 0 k) = V c main_v116 (ix2 0 k) := fun k => by
    show V c main_v116 (((cfg7.win 4).blk t).view.emb _) = _
    congr 1; funext a; apply Fin.ext
    match a with
    | ⟨0, _⟩ => show win7_4.index t (0 : Fin 2) * 1 + 1 * 0 = 0; omega
    | ⟨1, _⟩ => show win7_4.index t (1 : Fin 2) * 256 + 1 * k.val = k.val; omega
  have h5 : ∀ k : Fin 256, iblk7 V c 5 t (ix2 k (y 1)) = V c main_v33 (ix2 k (i 1)) := fun k => by
    show V c main_v33 (((cfg7.win 5).blk t).view.emb _) = _
    congr 1; funext a; apply Fin.ext
    match a with
    | ⟨0, _⟩ => show win7_5.index t (0 : Fin 2) * 256 + 1 * k.val = k.val; omega
    | ⟨1, _⟩ => show win7_5.index t (1 : Fin 2) * 256 + 1 * (y 1).val = (i 1).val; omega
  have h6 : iblk7 V c 6 t (ix2 0 (y 1)) = V c main_v117 (ix2 0 (i 1)) := by
    show V c main_v117 (((cfg7.win 6).blk t).view.emb _) = _
    congr 1; funext a; apply Fin.ext
    match a with
    | ⟨0, _⟩ => show win7_6.index t (0 : Fin 2) * 1 + 1 * 0 = 0; omega
    | ⟨1, _⟩ => show win7_6.index t (1 : Fin 2) * 256 + 1 * (y 1).val = (i 1).val; omega
  simp only [h0, h1, h2, h3, h4, h5, h6]
  rfl

/-- What point `t` writes back to the row-block output is block `t` of the stage's value on the arrays as found. -/
theorem flushed (c : Dev nD) (t : Fin cfg7.N) :
    (dat7 V c).flushed 7 t = ((cfg7.win 7).blk t).view.read (Elt Ideal) (layerBn (V c main_v99_0) (V c main_v113) (V c main_v114) (V c main_v115) (V c main_v116) (V c main_v33) (V c main_v117)) := by
  show (cfg7.win 7).cut (grid7.coords t) ((dat7 V c).after 7 t) = _
  rw [after7_7]
  unfold out7_7
  rw [View.canon_unit_zero hz]
  simp only [View.ld_unit_zero (S := S5000x256) hz, View.ld_unit_zero (S := S1x256) hz, View.ld_unit_zero (S := S256x256) hz]
  obtain ⟨e0, e1, e2, e3, e4, e5, e6, e7, e8, e9, e10, e11, e12, e13, e14, e15⟩ := idxf t
  funext j
  refine point V c t j (((cfg7.win 7).blk t).view.emb j) ?_ ?_
  · show win7_7.index t (0 : Fin 2) * 5000 + 1 * (j 0).val = t.val * 5000 + (j 0).val; omega
  · show win7_7.index t (1 : Fin 2) * 256 + 1 * (j 1).val = (j 1).val; omega

theorem mem_blk (t : Fin cfg7.N) (i : S40000x256.Idx) :
    i ∈ ((cfg7.win 7).blk t).view.set ↔ ∀ a : Fin 2, win7_7.index t a * S5000x256.size a ≤ (i a).val
      ∧ (i a).val < win7_7.index t a * S5000x256.size a + S5000x256.size a := by
  show i ∈ ((View.whole main_v118).slice (win7_7.rect t)).set ↔ _
  rw [View.set_slice_whole, Rect.mem_set_unit]
  exact Iff.rfl

/-- Every row lies in the block of the point numbered by the row's quotient by the block height. -/
theorem cover (i : S40000x256.Idx) :
    ∃ t : Fin cfg7.N, (cfg7.win 7).flush t = true ∧ i ∈ ((cfg7.win 7).blk t).view.set := by
  have hN : grid7.N = 8 := N_7
  have hi0 : (i 0).val < 40000 := (i 0).isLt
  have hi1 : (i 1).val < 256 := (i 1).isLt
  have ht : (i 0).val / 5000 < grid7.N := by rw [hN]; omega
  obtain ⟨e0, e1, e2, e3, e4, e5, e6, e7, e8, e9, e10, e11, e12, e13, e14, e15⟩ := idxf ⟨(i 0).val / 5000, ht⟩
  refine ⟨⟨(i 0).val / 5000, ht⟩, flush7_7 _, ?_⟩
  rw [mem_blk]
  intro a
  match a with
  | ⟨0, _⟩ =>
    show win7_7.index ⟨(i 0).val / 5000, ht⟩ (0 : Fin 2) * 5000 ≤ (i 0).val
      ∧ (i 0).val < win7_7.index ⟨(i 0).val / 5000, ht⟩ (0 : Fin 2) * 5000 + 5000
    rw [e14]; show (i 0).val / 5000 * 5000 ≤ (i 0).val ∧ (i 0).val < (i 0).val / 5000 * 5000 + 5000; omega
  | ⟨1, _⟩ =>
    show win7_7.index ⟨(i 0).val / 5000, ht⟩ (1 : Fin 2) * 256 ≤ (i 1).val
      ∧ (i 1).val < win7_7.index ⟨(i 0).val / 5000, ht⟩ (1 : Fin 2) * 256 + 256
    rw [e15]; omega

/-- After the launch the row-block output array is the stage's value on the arrays the launch found. -/
theorem final (c : Dev nD) : (dat7 V c).arrAt 7 cfg7.N = layerBn (V c main_v99_0) (V c main_v113) (V c main_v114) (V c main_v115) (V c main_v116) (V c main_v33) (V c main_v117) :=
  (dat7 V c).arrAt_eq_of_cover 7 _ (fun t _ => flushed V c t) cover

end Cert.KernelIdeal.Reg7

end
-- ==== Proof.ChainD.lean ====
/-
  The lower-adjacency branch followed through its three launches and the host's statistics between them.
-/
import proofs.«129683_j53085795779156_2_alg».proof.Proof.ChainA
import proofs.«129683_j53085795779156_2_alg».proof.Proof.Region5
import proofs.«129683_j53085795779156_2_alg».proof.Proof.Region6
import proofs.«129683_j53085795779156_2_alg».proof.Proof.Region7

set_option maxRecDepth 16384

noncomputable section

namespace Cert.KernelIdeal.Chain

open Idealize.ShloMosaic Idealize.ShloMosaic.TcCoe Idealize.SL.Sem Idealize.ShloMosaic.ValueIdx
open Idealize.ShloMosaic.Pipeline (Dat)
open Cert.KernelIdeal Cert.KernelIdeal.Gen Cell Cert.KernelIdeal.RegCommon Cert.KernelIdeal.HostGlue

variable (m : (ℓ : Loc nD τ sig) → Buf (Elt Ideal) ℓ) (ρ : Dev nD → PrngReg)

/-- No operation of a host stretch writes the buffer, so the stretch leaves it as it was. -/
local macro "host_keep" ops:ident : term => `(StableHlo.after_of_forall_not_mem _ _ (List.forall_iff_forall_mem.mp (by
  simp only [$ops:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide))))

/-! ## Buffers that no step in between writes keep their contents -/

theorem keep_v26_11_17 (c : Dev nD) : W17 m ρ c (Proc.devRef .tc main_v26) = W11 m ρ c (Proc.devRef .tc main_v26) :=
  calc W17 m ρ c (Proc.devRef .tc main_v26)
    _ = W16 m ρ c (Proc.devRef .tc main_v26) := host_keep hostOps5
    _ = W15 m ρ c (Proc.devRef .tc main_v26) := W16_of_ne m ρ c main_v26 (by decide)
    _ = W14 m ρ c (Proc.devRef .tc main_v26) := host_keep hostOps4
    _ = W13 m ρ c (Proc.devRef .tc main_v26) := W14_of_ne m ρ c main_v26 (by decide)
    _ = W12 m ρ c (Proc.devRef .tc main_v26) := host_keep hostOps3
    _ = W11 m ρ c (Proc.devRef .tc main_v26) := W12_of_ne m ρ c main_v26 (by decide)

theorem keep_arg37_0_16 (c : Dev nD) : W16 m ρ c (Proc.devRef .tc main_arg37) = m ((c : Thread nD τ).loc main_arg37) :=
  calc W16 m ρ c (Proc.devRef .tc main_arg37)
    _ = W15 m ρ c (Proc.devRef .tc main_arg37) := W16_of_ne m ρ c main_arg37 (by decide)
    _ = W14 m ρ c (Proc.devRef .tc main_arg37) := host_keep hostOps4
    _ = W13 m ρ c (Proc.devRef .tc main_arg37) := W14_of_ne m ρ c main_arg37 (by decide)
    _ = W12 m ρ c (Proc.devRef .tc main_arg37) := host_keep hostOps3
    _ = W11 m ρ c (Proc.devRef .tc main_arg37) := W12_of_ne m ρ c main_arg37 (by decide)
    _ = W10 m ρ c (Proc.devRef .tc main_arg37) := host_keep hostOps2
    _ = W9 m ρ c (Proc.devRef .tc main_arg37) := W10_of_ne m ρ c main_arg37 (by decide)
    _ = W8 m ρ c (Proc.devRef .tc main_arg37) := host_keep hostOps1
    _ = W7 m ρ c (Proc.devRef .tc main_arg37) := W8_of_ne m ρ c main_arg37 (by decide)
    _ = W6 m ρ c (Proc.devRef .tc main_arg37) := host_keep hostOps0_6
    _ = W5 m ρ c (Proc.devRef .tc main_arg37) := host_keep hostOps0_5
    _ = W4 m ρ c (Proc.devRef .tc main_arg37) := host_keep hostOps0_4
    _ = W3 m ρ c (Proc.devRef .tc main_arg37) := host_keep hostOps0_3
    _ = W2 m ρ c (Proc.devRef .tc main_arg37) := host_keep hostOps0_2
    _ = W1 m ρ c (Proc.devRef .tc main_arg37) := host_keep hostOps0_1
    _ = W0 m ρ c (Proc.devRef .tc main_arg37) := host_keep hostOps0
    _ = m ((c : Thread nD τ).loc main_arg37) := rfl

theorem keep_arg17_0_16 (c : Dev nD) : W16 m ρ c (Proc.devRef .tc main_arg17) = m ((c : Thread nD τ).loc main_arg17) :=
  calc W16 m ρ c (Proc.devRef .tc main_arg17)
    _ = W15 m ρ c (Proc.devRef .tc main_arg17) := W16_of_ne m ρ c main_arg17 (by decide)
    _ = W14 m ρ c (Proc.devRef .tc main_arg17) := host_keep hostOps4
    _ = W13 m ρ c (Proc.devRef .tc main_arg17) := W14_of_ne m ρ c main_arg17 (by decide)
    _ = W12 m ρ c (Proc.devRef .tc main_arg17) := host_keep hostOps3
    _ = W11 m ρ c (Proc.devRef .tc main_arg17) := W12_of_ne m ρ c main_arg17 (by decide)
    _ = W10 m ρ c (Proc.devRef .tc main_arg17) := host_keep hostOps2
    _ = W9 m ρ c (Proc.devRef .tc main_arg17) := W10_of_ne m ρ c main_arg17 (by decide)
    _ = W8 m ρ c (Proc.devRef .tc main_arg17) := host_keep hostOps1
    _ = W7 m ρ c (Proc.devRef .tc main_arg17) := W8_of_ne m ρ c main_arg17 (by decide)
    _ = W6 m ρ c (Proc.devRef .tc main_arg17) := host_keep hostOps0_6
    _ = W5 m ρ c (Proc.devRef .tc main_arg17) := host_keep hostOps0_5
    _ = W4 m ρ c (Proc.devRef .tc main_arg17) := host_keep hostOps0_4
    _ = W3 m ρ c (Proc.devRef .tc main_arg17) := host_keep hostOps0_3
    _ = W2 m ρ c (Proc.devRef .tc main_arg17) := host_keep hostOps0_2
    _ = W1 m ρ c (Proc.devRef .tc main_arg17) := host_keep hostOps0_1
    _ = W0 m ρ c (Proc.devRef .tc main_arg17) := host_keep hostOps0
    _ = m ((c : Thread nD τ).loc main_arg17) := rfl

theorem keep_arg0_0_17 (c : Dev nD) : W17 m ρ c (Proc.devRef .tc main_arg0) = m ((c : Thread nD τ).loc main_arg0) :=
  calc W17 m ρ c (Proc.devRef .tc main_arg0)
    _ = W16 m ρ c (Proc.devRef .tc main_arg0) := host_keep hostOps5
    _ = W15 m ρ c (Proc.devRef .tc main_arg0) := W16_of_ne m ρ c main_arg0 (by decide)
    _ = W14 m ρ c (Proc.devRef .tc main_arg0) := host_keep hostOps4
    _ = W13 m ρ c (Proc.devRef .tc main_arg0) := W14_of_ne m ρ c main_arg0 (by decide)
    _ = W12 m ρ c (Proc.devRef .tc main_arg0) := host_keep hostOps3
    _ = W11 m ρ c (Proc.devRef .tc main_arg0) := (W12_arr m ρ c 1).trans (((dat2 (V11 m ρ) c).arrAt_in 1 rfl _).trans (A_eq2 (V11 m ρ) c 1))
    _ = W10 m ρ c (Proc.devRef .tc main_arg0) := host_keep hostOps2
    _ = W9 m ρ c (Proc.devRef .tc main_arg0) := W10_of_ne m ρ c main_arg0 (by decide)
    _ = W8 m ρ c (Proc.devRef .tc main_arg0) := host_keep hostOps1
    _ = W7 m ρ c (Proc.devRef .tc main_arg0) := W8_of_ne m ρ c main_arg0 (by decide)
    _ = W6 m ρ c (Proc.devRef .tc main_arg0) := host_keep hostOps0_6
    _ = W5 m ρ c (Proc.devRef .tc main_arg0) := host_keep hostOps0_5
    _ = W4 m ρ c (Proc.devRef .tc main_arg0) := host_keep hostOps0_4
    _ = W3 m ρ c (Proc.devRef .tc main_arg0) := host_keep hostOps0_3
    _ = W2 m ρ c (Proc.devRef .tc main_arg0) := host_keep hostOps0_2
    _ = W1 m ρ c (Proc.devRef .tc main_arg0) := host_keep hostOps0_1
    _ = W0 m ρ c (Proc.devRef .tc main_arg0) := host_keep hostOps0
    _ = m ((c : Thread nD τ).loc main_arg0) := rfl

theorem keep_arg16_0_17 (c : Dev nD) : W17 m ρ c (Proc.devRef .tc main_arg16) = m ((c : Thread nD τ).loc main_arg16) :=
  calc W17 m ρ c (Proc.devRef .tc main_arg16)
    _ = W16 m ρ c (Proc.devRef .tc main_arg16) := host_keep hostOps5
    _ = W15 m ρ c (Proc.devRef .tc main_arg16) := W16_of_ne m ρ c main_arg16 (by decide)
    _ = W14 m ρ c (Proc.devRef .tc main_arg16) := host_keep hostOps4
    _ = W13 m ρ c (Proc.devRef .tc main_arg16) := W14_of_ne m ρ c main_arg16 (by decide)
    _ = W12 m ρ c (Proc.devRef .tc main_arg16) := host_keep hostOps3
    _ = W11 m ρ c (Proc.devRef .tc main_arg16) := W12_of_ne m ρ c main_arg16 (by decide)
    _ = W10 m ρ c (Proc.devRef .tc main_arg16) := host_keep hostOps2
    _ = W9 m ρ c (Proc.devRef .tc main_arg16) := W10_of_ne m ρ c main_arg16 (by decide)
    _ = W8 m ρ c (Proc.devRef .tc main_arg16) := host_keep hostOps1
    _ = W7 m ρ c (Proc.devRef .tc main_arg16) := W8_of_ne m ρ c main_arg16 (by decide)
    _ = W6 m ρ c (Proc.devRef .tc main_arg16) := host_keep hostOps0_6
    _ = W5 m ρ c (Proc.devRef .tc main_arg16) := host_keep hostOps0_5
    _ = W4 m ρ c (Proc.devRef .tc main_arg16) := host_keep hostOps0_4
    _ = W3 m ρ c (Proc.devRef .tc main_arg16) := host_keep hostOps0_3
    _ = W2 m ρ c (Proc.devRef .tc main_arg16) := host_keep hostOps0_2
    _ = W1 m ρ c (Proc.devRef .tc main_arg16) := host_keep hostOps0_1
    _ = W0 m ρ c (Proc.devRef .tc main_arg16) := host_keep hostOps0
    _ = m ((c : Thread nD τ).loc main_arg16) := rfl

theorem keep_v81_0_18_19 (c : Dev nD) : W19 m ρ c (Proc.devRef .tc main_v81_0) = W18 m ρ c (Proc.devRef .tc main_v81_0) :=
  calc W19 m ρ c (Proc.devRef .tc main_v81_0)
    _ = W18 m ρ c (Proc.devRef .tc main_v81_0) := host_keep hostOps6

theorem keep_arg18_0_18 (c : Dev nD) : W18 m ρ c (Proc.devRef .tc main_arg18) = m ((c : Thread nD τ).loc main_arg18) :=
  calc W18 m ρ c (Proc.devRef .tc main_arg18)
    _ = W17 m ρ c (Proc.devRef .tc main_arg18) := W18_of_ne m ρ c main_arg18 (by decide)
    _ = W16 m ρ c (Proc.devRef .tc main_arg18) := host_keep hostOps5
    _ = W15 m ρ c (Proc.devRef .tc main_arg18) := W16_of_ne m ρ c main_arg18 (by decide)
    _ = W14 m ρ c (Proc.devRef .tc main_arg18) := host_keep hostOps4
    _ = W13 m ρ c (Proc.devRef .tc main_arg18) := W14_of_ne m ρ c main_arg18 (by decide)
    _ = W12 m ρ c (Proc.devRef .tc main_arg18) := host_keep hostOps3
    _ = W11 m ρ c (Proc.devRef .tc main_arg18) := W12_of_ne m ρ c main_arg18 (by decide)
    _ = W10 m ρ c (Proc.devRef .tc main_arg18) := host_keep hostOps2
    _ = W9 m ρ c (Proc.devRef .tc main_arg18) := W10_of_ne m ρ c main_arg18 (by decide)
    _ = W8 m ρ c (Proc.devRef .tc main_arg18) := host_keep hostOps1
    _ = W7 m ρ c (Proc.devRef .tc main_arg18) := W8_of_ne m ρ c main_arg18 (by decide)
    _ = W6 m ρ c (Proc.devRef .tc main_arg18) := host_keep hostOps0_6
    _ = W5 m ρ c (Proc.devRef .tc main_arg18) := host_keep hostOps0_5
    _ = W4 m ρ c (Proc.devRef .tc main_arg18) := host_keep hostOps0_4
    _ = W3 m ρ c (Proc.devRef .tc main_arg18) := host_keep hostOps0_3
    _ = W2 m ρ c (Proc.devRef .tc main_arg18) := host_keep hostOps0_2
    _ = W1 m ρ c (Proc.devRef .tc main_arg18) := host_keep hostOps0_1
    _ = W0 m ρ c (Proc.devRef .tc main_arg18) := host_keep hostOps0
    _ = m ((c : Thread nD τ).loc main_arg18) := rfl

theorem keep_arg19_0_18 (c : Dev nD) : W18 m ρ c (Proc.devRef .tc main_arg19) = m ((c : Thread nD τ).loc main_arg19) :=
  calc W18 m ρ c (Proc.devRef .tc main_arg19)
    _ = W17 m ρ c (Proc.devRef .tc main_arg19) := W18_of_ne m ρ c main_arg19 (by decide)
    _ = W16 m ρ c (Proc.devRef .tc main_arg19) := host_keep hostOps5
    _ = W15 m ρ c (Proc.devRef .tc main_arg19) := W16_of_ne m ρ c main_arg19 (by decide)
    _ = W14 m ρ c (Proc.devRef .tc main_arg19) := host_keep hostOps4
    _ = W13 m ρ c (Proc.devRef .tc main_arg19) := W14_of_ne m ρ c main_arg19 (by decide)
    _ = W12 m ρ c (Proc.devRef .tc main_arg19) := host_keep hostOps3
    _ = W11 m ρ c (Proc.devRef .tc main_arg19) := W12_of_ne m ρ c main_arg19 (by decide)
    _ = W10 m ρ c (Proc.devRef .tc main_arg19) := host_keep hostOps2
    _ = W9 m ρ c (Proc.devRef .tc main_arg19) := W10_of_ne m ρ c main_arg19 (by decide)
    _ = W8 m ρ c (Proc.devRef .tc main_arg19) := host_keep hostOps1
    _ = W7 m ρ c (Proc.devRef .tc main_arg19) := W8_of_ne m ρ c main_arg19 (by decide)
    _ = W6 m ρ c (Proc.devRef .tc main_arg19) := host_keep hostOps0_6
    _ = W5 m ρ c (Proc.devRef .tc main_arg19) := host_keep hostOps0_5
    _ = W4 m ρ c (Proc.devRef .tc main_arg19) := host_keep hostOps0_4
    _ = W3 m ρ c (Proc.devRef .tc main_arg19) := host_keep hostOps0_3
    _ = W2 m ρ c (Proc.devRef .tc main_arg19) := host_keep hostOps0_2
    _ = W1 m ρ c (Proc.devRef .tc main_arg19) := host_keep hostOps0_1
    _ = W0 m ρ c (Proc.devRef .tc main_arg19) := host_keep hostOps0
    _ = m ((c : Thread nD τ).loc main_arg19) := rfl

theorem keep_arg20_0_19 (c : Dev nD) : W19 m ρ c (Proc.devRef .tc main_arg20) = m ((c : Thread nD τ).loc main_arg20) :=
  calc W19 m ρ c (Proc.devRef .tc main_arg20)
    _ = W18 m ρ c (Proc.devRef .tc main_arg20) := host_keep hostOps6
    _ = W17 m ρ c (Proc.devRef .tc main_arg20) := W18_of_ne m ρ c main_arg20 (by decide)
    _ = W16 m ρ c (Proc.devRef .tc main_arg20) := host_keep hostOps5
    _ = W15 m ρ c (Proc.devRef .tc main_arg20) := W16_of_ne m ρ c main_arg20 (by decide)
    _ = W14 m ρ c (Proc.devRef .tc main_arg20) := host_keep hostOps4
    _ = W13 m ρ c (Proc.devRef .tc main_arg20) := W14_of_ne m ρ c main_arg20 (by decide)
    _ = W12 m ρ c (Proc.devRef .tc main_arg20) := host_keep hostOps3
    _ = W11 m ρ c (Proc.devRef .tc main_arg20) := W12_of_ne m ρ c main_arg20 (by decide)
    _ = W10 m ρ c (Proc.devRef .tc main_arg20) := host_keep hostOps2
    _ = W9 m ρ c (Proc.devRef .tc main_arg20) := W10_of_ne m ρ c main_arg20 (by decide)
    _ = W8 m ρ c (Proc.devRef .tc main_arg20) := host_keep hostOps1
    _ = W7 m ρ c (Proc.devRef .tc main_arg20) := W8_of_ne m ρ c main_arg20 (by decide)
    _ = W6 m ρ c (Proc.devRef .tc main_arg20) := host_keep hostOps0_6
    _ = W5 m ρ c (Proc.devRef .tc main_arg20) := host_keep hostOps0_5
    _ = W4 m ρ c (Proc.devRef .tc main_arg20) := host_keep hostOps0_4
    _ = W3 m ρ c (Proc.devRef .tc main_arg20) := host_keep hostOps0_3
    _ = W2 m ρ c (Proc.devRef .tc main_arg20) := host_keep hostOps0_2
    _ = W1 m ρ c (Proc.devRef .tc main_arg20) := host_keep hostOps0_1
    _ = W0 m ρ c (Proc.devRef .tc main_arg20) := host_keep hostOps0
    _ = m ((c : Thread nD τ).loc main_arg20) := rfl

theorem keep_arg21_0_18 (c : Dev nD) : W18 m ρ c (Proc.devRef .tc main_arg21) = m ((c : Thread nD τ).loc main_arg21) :=
  calc W18 m ρ c (Proc.devRef .tc main_arg21)
    _ = W17 m ρ c (Proc.devRef .tc main_arg21) := W18_of_ne m ρ c main_arg21 (by decide)
    _ = W16 m ρ c (Proc.devRef .tc main_arg21) := host_keep hostOps5
    _ = W15 m ρ c (Proc.devRef .tc main_arg21) := W16_of_ne m ρ c main_arg21 (by decide)
    _ = W14 m ρ c (Proc.devRef .tc main_arg21) := host_keep hostOps4
    _ = W13 m ρ c (Proc.devRef .tc main_arg21) := W14_of_ne m ρ c main_arg21 (by decide)
    _ = W12 m ρ c (Proc.devRef .tc main_arg21) := host_keep hostOps3
    _ = W11 m ρ c (Proc.devRef .tc main_arg21) := W12_of_ne m ρ c main_arg21 (by decide)
    _ = W10 m ρ c (Proc.devRef .tc main_arg21) := host_keep hostOps2
    _ = W9 m ρ c (Proc.devRef .tc main_arg21) := W10_of_ne m ρ c main_arg21 (by decide)
    _ = W8 m ρ c (Proc.devRef .tc main_arg21) := host_keep hostOps1
    _ = W7 m ρ c (Proc.devRef .tc main_arg21) := W8_of_ne m ρ c main_arg21 (by decide)
    _ = W6 m ρ c (Proc.devRef .tc main_arg21) := host_keep hostOps0_6
    _ = W5 m ρ c (Proc.devRef .tc main_arg21) := host_keep hostOps0_5
    _ = W4 m ρ c (Proc.devRef .tc main_arg21) := host_keep hostOps0_4
    _ = W3 m ρ c (Proc.devRef .tc main_arg21) := host_keep hostOps0_3
    _ = W2 m ρ c (Proc.devRef .tc main_arg21) := host_keep hostOps0_2
    _ = W1 m ρ c (Proc.devRef .tc main_arg21) := host_keep hostOps0_1
    _ = W0 m ρ c (Proc.devRef .tc main_arg21) := host_keep hostOps0
    _ = m ((c : Thread nD τ).loc main_arg21) := rfl

theorem keep_v99_0_20_21 (c : Dev nD) : W21 m ρ c (Proc.devRef .tc main_v99_0) = W20 m ρ c (Proc.devRef .tc main_v99_0) :=
  calc W21 m ρ c (Proc.devRef .tc main_v99_0)
    _ = W20 m ρ c (Proc.devRef .tc main_v99_0) := host_keep hostOps7

theorem keep_arg22_0_20 (c : Dev nD) : W20 m ρ c (Proc.devRef .tc main_arg22) = m ((c : Thread nD τ).loc main_arg22) :=
  calc W20 m ρ c (Proc.devRef .tc main_arg22)
    _ = W19 m ρ c (Proc.devRef .tc main_arg22) := W20_of_ne m ρ c main_arg22 (by decide)
    _ = W18 m ρ c (Proc.devRef .tc main_arg22) := host_keep hostOps6
    _ = W17 m ρ c (Proc.devRef .tc main_arg22) := W18_of_ne m ρ c main_arg22 (by decide)
    _ = W16 m ρ c (Proc.devRef .tc main_arg22) := host_keep hostOps5
    _ = W15 m ρ c (Proc.devRef .tc main_arg22) := W16_of_ne m ρ c main_arg22 (by decide)
    _ = W14 m ρ c (Proc.devRef .tc main_arg22) := host_keep hostOps4
    _ = W13 m ρ c (Proc.devRef .tc main_arg22) := W14_of_ne m ρ c main_arg22 (by decide)
    _ = W12 m ρ c (Proc.devRef .tc main_arg22) := host_keep hostOps3
    _ = W11 m ρ c (Proc.devRef .tc main_arg22) := W12_of_ne m ρ c main_arg22 (by decide)
    _ = W10 m ρ c (Proc.devRef .tc main_arg22) := host_keep hostOps2
    _ = W9 m ρ c (Proc.devRef .tc main_arg22) := W10_of_ne m ρ c main_arg22 (by decide)
    _ = W8 m ρ c (Proc.devRef .tc main_arg22) := host_keep hostOps1
    _ = W7 m ρ c (Proc.devRef .tc main_arg22) := W8_of_ne m ρ c main_arg22 (by decide)
    _ = W6 m ρ c (Proc.devRef .tc main_arg22) := host_keep hostOps0_6
    _ = W5 m ρ c (Proc.devRef .tc main_arg22) := host_keep hostOps0_5
    _ = W4 m ρ c (Proc.devRef .tc main_arg22) := host_keep hostOps0_4
    _ = W3 m ρ c (Proc.devRef .tc main_arg22) := host_keep hostOps0_3
    _ = W2 m ρ c (Proc.devRef .tc main_arg22) := host_keep hostOps0_2
    _ = W1 m ρ c (Proc.devRef .tc main_arg22) := host_keep hostOps0_1
    _ = W0 m ρ c (Proc.devRef .tc main_arg22) := host_keep hostOps0
    _ = m ((c : Thread nD τ).loc main_arg22) := rfl

theorem keep_arg23_0_20 (c : Dev nD) : W20 m ρ c (Proc.devRef .tc main_arg23) = m ((c : Thread nD τ).loc main_arg23) :=
  calc W20 m ρ c (Proc.devRef .tc main_arg23)
    _ = W19 m ρ c (Proc.devRef .tc main_arg23) := W20_of_ne m ρ c main_arg23 (by decide)
    _ = W18 m ρ c (Proc.devRef .tc main_arg23) := host_keep hostOps6
    _ = W17 m ρ c (Proc.devRef .tc main_arg23) := W18_of_ne m ρ c main_arg23 (by decide)
    _ = W16 m ρ c (Proc.devRef .tc main_arg23) := host_keep hostOps5
    _ = W15 m ρ c (Proc.devRef .tc main_arg23) := W16_of_ne m ρ c main_arg23 (by decide)
    _ = W14 m ρ c (Proc.devRef .tc main_arg23) := host_keep hostOps4
    _ = W13 m ρ c (Proc.devRef .tc main_arg23) := W14_of_ne m ρ c main_arg23 (by decide)
    _ = W12 m ρ c (Proc.devRef .tc main_arg23) := host_keep hostOps3
    _ = W11 m ρ c (Proc.devRef .tc main_arg23) := W12_of_ne m ρ c main_arg23 (by decide)
    _ = W10 m ρ c (Proc.devRef .tc main_arg23) := host_keep hostOps2
    _ = W9 m ρ c (Proc.devRef .tc main_arg23) := W10_of_ne m ρ c main_arg23 (by decide)
    _ = W8 m ρ c (Proc.devRef .tc main_arg23) := host_keep hostOps1
    _ = W7 m ρ c (Proc.devRef .tc main_arg23) := W8_of_ne m ρ c main_arg23 (by decide)
    _ = W6 m ρ c (Proc.devRef .tc main_arg23) := host_keep hostOps0_6
    _ = W5 m ρ c (Proc.devRef .tc main_arg23) := host_keep hostOps0_5
    _ = W4 m ρ c (Proc.devRef .tc main_arg23) := host_keep hostOps0_4
    _ = W3 m ρ c (Proc.devRef .tc main_arg23) := host_keep hostOps0_3
    _ = W2 m ρ c (Proc.devRef .tc main_arg23) := host_keep hostOps0_2
    _ = W1 m ρ c (Proc.devRef .tc main_arg23) := host_keep hostOps0_1
    _ = W0 m ρ c (Proc.devRef .tc main_arg23) := host_keep hostOps0
    _ = m ((c : Thread nD τ).loc main_arg23) := rfl

theorem keep_v33_11_21 (c : Dev nD) : W21 m ρ c (Proc.devRef .tc main_v33) = W11 m ρ c (Proc.devRef .tc main_v33) :=
  calc W21 m ρ c (Proc.devRef .tc main_v33)
    _ = W20 m ρ c (Proc.devRef .tc main_v33) := host_keep hostOps7
    _ = W19 m ρ c (Proc.devRef .tc main_v33) := W20_of_ne m ρ c main_v33 (by decide)
    _ = W18 m ρ c (Proc.devRef .tc main_v33) := host_keep hostOps6
    _ = W17 m ρ c (Proc.devRef .tc main_v33) := W18_of_ne m ρ c main_v33 (by decide)
    _ = W16 m ρ c (Proc.devRef .tc main_v33) := host_keep hostOps5
    _ = W15 m ρ c (Proc.devRef .tc main_v33) := W16_of_ne m ρ c main_v33 (by decide)
    _ = W14 m ρ c (Proc.devRef .tc main_v33) := host_keep hostOps4
    _ = W13 m ρ c (Proc.devRef .tc main_v33) := W14_of_ne m ρ c main_v33 (by decide)
    _ = W12 m ρ c (Proc.devRef .tc main_v33) := host_keep hostOps3
    _ = W11 m ρ c (Proc.devRef .tc main_v33) := W12_of_ne m ρ c main_v33 (by decide)

/-- The branch's arrays: first dense layer of the residual mix, its batch statistics, the second dense layer after
    BatchNorm and ReLU, its statistics, and the branch's contribution through its block of the combining weight. -/
def l1D (c : Dev nD) : FVec Ideal S40000x256 .f32 :=
  layer1 (aggD m ρ c) (m ((c : Thread nD τ).loc main_arg0)) (scaleOf (m ((c : Thread nD τ).loc main_arg37))) (m ((c : Thread nD τ).loc main_arg16)) (asRow (m ((c : Thread nD τ).loc main_arg17)))
def m1D (c : Dev nD) : FVec Ideal S1x256 .f32 := asRow (meanH (tileSum (l1D m ρ c)))
def v1D (c : Dev nD) : FVec Ideal S1x256 .f32 := asRow (varH (tileSum (l1D m ρ c)) (tileSumSq (l1D m ρ c)))
def l2D (c : Dev nD) : FVec Ideal S40000x256 .f32 :=
  layerBn (l1D m ρ c) (m1D m ρ c) (v1D m ρ c) (asRow (m ((c : Thread nD τ).loc main_arg18))) (asRow (m ((c : Thread nD τ).loc main_arg19))) (m ((c : Thread nD τ).loc main_arg20)) (asRow (m ((c : Thread nD τ).loc main_arg21)))
def m2D (c : Dev nD) : FVec Ideal S1x256 .f32 := asRow (meanH (tileSum (l2D m ρ c)))
def v2D (c : Dev nD) : FVec Ideal S1x256 .f32 := asRow (varH (tileSum (l2D m ρ c)) (tileSumSq (l2D m ρ c)))
def conD (c : Dev nD) : FVec Ideal S40000x256 .f32 :=
  layerBn (l2D m ρ c) (m2D m ρ c) (v2D m ρ c) (asRow (m ((c : Thread nD τ).loc main_arg22))) (asRow (m ((c : Thread nD τ).loc main_arg23))) (wcBlock1 (m ((c : Thread nD τ).loc main_arg32))) (asRow zeros256)

/-! ## The launches' inputs and outputs -/

theorem e5_0 (c : Dev nD) : V17 m ρ c main_v26 = aggD m ρ c := (keep_v26_11_17 m ρ c).trans (a_v26 m ρ c)
set_option maxHeartbeats 2000000 in
theorem e5_2 (c : Dev nD) : V17 m ρ c main_v79 = scaleOf (m ((c : Thread nD τ).loc main_arg37)) := by
  show StableHlo.after hostOps5 (W16 m ρ c) (Proc.devRef .tc main_v79) = _
  dsimp only [hostOps5]
  after_results
  all_goals (rw [keep_arg37_0_16 m ρ c])
  all_goals rfl
set_option maxHeartbeats 2000000 in
theorem e5_4 (c : Dev nD) : V17 m ρ c main_v80 = asRow (m ((c : Thread nD τ).loc main_arg17)) := by
  show StableHlo.after hostOps5 (W16 m ρ c) (Proc.devRef .tc main_v80) = _
  dsimp only [hostOps5]
  after_results
  all_goals (rw [keep_arg17_0_16 m ρ c])
  all_goals rfl
theorem e5_1 (c : Dev nD) : V17 m ρ c main_arg0 = (m ((c : Thread nD τ).loc main_arg0)) := keep_arg0_0_17 m ρ c
theorem e5_3 (c : Dev nD) : V17 m ρ c main_arg16 = (m ((c : Thread nD τ).loc main_arg16)) := keep_arg16_0_17 m ρ c
theorem o5 (c : Dev nD) : W18 m ρ c (Proc.devRef .tc main_v81_0) = l1D m ρ c :=
  (W18_arr m ρ c 5).trans ((Reg5.final (V17 m ρ) c).trans (by
    rw [e5_0 m ρ c, e5_1 m ρ c, e5_2 m ρ c, e5_3 m ρ c, e5_4 m ρ c]
    all_goals rfl))
theorem oS5 (c : Dev nD) : W18 m ρ c (Proc.devRef .tc main_v81_1) = tileSum (l1D m ρ c) :=
  (W18_arr m ρ c 6).trans ((Reg5.sfinalSum (V17 m ρ) c).trans (by
    rw [e5_0 m ρ c, e5_1 m ρ c, e5_2 m ρ c, e5_3 m ρ c, e5_4 m ρ c]
    all_goals rfl))
theorem oQ5 (c : Dev nD) : W18 m ρ c (Proc.devRef .tc main_v81_2) = tileSumSq (l1D m ρ c) :=
  (W18_arr m ρ c 7).trans ((Reg5.sfinalSumSq (V17 m ρ) c).trans (by
    rw [e5_0 m ρ c, e5_1 m ρ c, e5_2 m ρ c, e5_3 m ρ c, e5_4 m ρ c]
    all_goals rfl))
theorem e6_0 (c : Dev nD) : V19 m ρ c main_v81_0 = l1D m ρ c := (keep_v81_0_18_19 m ρ c).trans (o5 m ρ c)
set_option maxHeartbeats 2000000 in
theorem e6_1 (c : Dev nD) : V19 m ρ c main_v94 = m1D m ρ c := by
  show StableHlo.after hostOps6 (W18 m ρ c) (Proc.devRef .tc main_v94) = _
  dsimp only [hostOps6]
  after_results
  all_goals (rw [oS5 m ρ c])
  all_goals rfl
set_option maxHeartbeats 2000000 in
theorem e6_2 (c : Dev nD) : V19 m ρ c main_v95 = v1D m ρ c := by
  show StableHlo.after hostOps6 (W18 m ρ c) (Proc.devRef .tc main_v95) = _
  dsimp only [hostOps6]
  after_results
  all_goals (rw [oS5 m ρ c, oQ5 m ρ c])
  all_goals rfl
set_option maxHeartbeats 2000000 in
theorem e6_3 (c : Dev nD) : V19 m ρ c main_v96 = asRow (m ((c : Thread nD τ).loc main_arg18)) := by
  show StableHlo.after hostOps6 (W18 m ρ c) (Proc.devRef .tc main_v96) = _
  dsimp only [hostOps6]
  after_results
  all_goals (rw [keep_arg18_0_18 m ρ c])
  all_goals rfl
set_option maxHeartbeats 2000000 in
theorem e6_4 (c : Dev nD) : V19 m ρ c main_v97 = asRow (m ((c : Thread nD τ).loc main_arg19)) := by
  show StableHlo.after hostOps6 (W18 m ρ c) (Proc.devRef .tc main_v97) = _
  dsimp only [hostOps6]
  after_results
  all_goals (rw [keep_arg19_0_18 m ρ c])
  all_goals rfl
theorem e6_5 (c : Dev nD) : V19 m ρ c main_arg20 = (m ((c : Thread nD τ).loc main_arg20)) := keep_arg20_0_19 m ρ c
set_option maxHeartbeats 2000000 in
theorem e6_6 (c : Dev nD) : V19 m ρ c main_v98 = asRow (m ((c : Thread nD τ).loc main_arg21)) := by
  show StableHlo.after hostOps6 (W18 m ρ c) (Proc.devRef .tc main_v98) = _
  dsimp only [hostOps6]
  after_results
  all_goals (rw [keep_arg21_0_18 m ρ c])
  all_goals rfl
theorem o6 (c : Dev nD) : W20 m ρ c (Proc.devRef .tc main_v99_0) = l2D m ρ c :=
  (W20_arr m ρ c 7).trans ((Reg6.final (V19 m ρ) c).trans (by
    rw [e6_0 m ρ c, e6_1 m ρ c, e6_2 m ρ c, e6_3 m ρ c, e6_4 m ρ c, e6_5 m ρ c, e6_6 m ρ c]
    all_goals rfl))
theorem oS6 (c : Dev nD) : W20 m ρ c (Proc.devRef .tc main_v99_1) = tileSum (l2D m ρ c) :=
  (W20_arr m ρ c 8).trans ((Reg6.sfinalSum (V19 m ρ) c).trans (by
    rw [e6_0 m ρ c, e6_1 m ρ c, e6_2 m ρ c, e6_3 m ρ c, e6_4 m ρ c, e6_5 m ρ c, e6_6 m ρ c]
    all_goals rfl))
theorem oQ6 (c : Dev nD) : W20 m ρ c (Proc.devRef .tc main_v99_2) = tileSumSq (l2D m ρ c) :=
  (W20_arr m ρ c 9).trans ((Reg6.sfinalSumSq (V19 m ρ) c).trans (by
    rw [e6_0 m ρ c, e6_1 m ρ c, e6_2 m ρ c, e6_3 m ρ c, e6_4 m ρ c, e6_5 m ρ c, e6_6 m ρ c]
    all_goals rfl))
theorem e7_0 (c : Dev nD) : V21 m ρ c main_v99_0 = l2D m ρ c := (keep_v99_0_20_21 m ρ c).trans (o6 m ρ c)
set_option maxHeartbeats 2000000 in
theorem e7_1 (c : Dev nD) : V21 m ρ c main_v113 = m2D m ρ c := by
  show StableHlo.after hostOps7 (W20 m ρ c) (Proc.devRef .tc main_v113) = _
  dsimp only [hostOps7]
  after_results
  all_goals (rw [oS6 m ρ c])
  all_goals rfl
set_option maxHeartbeats 2000000 in
theorem e7_2 (c : Dev nD) : V21 m ρ c main_v114 = v2D m ρ c := by
  show StableHlo.after hostOps7 (W20 m ρ c) (Proc.devRef .tc main_v114) = _
  dsimp only [hostOps7]
  after_results
  all_goals (rw [oS6 m ρ c, oQ6 m ρ c])
  all_goals rfl
set_option maxHeartbeats 2000000 in
theorem e7_3 (c : Dev nD) : V21 m ρ c main_v115 = asRow (m ((c : Thread nD τ).loc main_arg22)) := by
  show StableHlo.after hostOps7 (W20 m ρ c) (Proc.devRef .tc main_v115) = _
  dsimp only [hostOps7]
  after_results
  all_goals (rw [keep_arg22_0_20 m ρ c])
  all_goals rfl
set_option maxHeartbeats 2000000 in
theorem e7_4 (c : Dev nD) : V21 m ρ c main_v116 = asRow (m ((c : Thread nD τ).loc main_arg23)) := by
  show StableHlo.after hostOps7 (W20 m ρ c) (Proc.devRef .tc main_v116) = _
  dsimp only [hostOps7]
  after_results
  all_goals (rw [keep_arg23_0_20 m ρ c])
  all_goals rfl
theorem e7_5 (c : Dev nD) : V21 m ρ c main_v33 = wcBlock1 (m ((c : Thread nD τ).loc main_arg32)) := (keep_v33_11_21 m ρ c).trans (a_v33 m ρ c)
set_option maxHeartbeats 2000000 in
theorem e7_6 (c : Dev nD) : V21 m ρ c main_v117 = asRow zeros256 := by
  show StableHlo.after hostOps7 (W20 m ρ c) (Proc.devRef .tc main_v117) = _
  dsimp only [hostOps7]
  after_results
  all_goals rfl
theorem o7 (c : Dev nD) : W22 m ρ c (Proc.devRef .tc main_v118) = conD m ρ c :=
  (W22_arr m ρ c 7).trans ((Reg7.final (V21 m ρ) c).trans (by
    rw [e7_0 m ρ c, e7_1 m ρ c, e7_2 m ρ c, e7_3 m ρ c, e7_4 m ρ c, e7_5 m ρ c, e7_6 m ρ c]
    all_goals rfl))

end Cert.KernelIdeal.Chain

end
-- ==== Proof.Region8.lean ====
/-
  The first dense layer of a branch with its statistics: per block of 5000 cells, (aggregate + scale · features) · W + b, and the block's column sums and column sums of squares; the blocks tile the cell array and the statistics array.
-/
import proofs.«129683_j53085795779156_2_alg».proof.Proof.RegionCommon

set_option maxRecDepth 16384

noncomputable section

namespace Cert.KernelIdeal.Reg8

open Idealize.ShloMosaic Idealize.ShloMosaic.TcCoe Idealize.SL.Sem Idealize.ShloMosaic.ValueIdx
open Idealize.ShloMosaic.Pipeline (Dat)
open Cert.KernelIdeal Cert.KernelIdeal.Gen Cell Cert.KernelIdeal.RegCommon

/-- The dense layer over the residual mix, at an entry of the block. -/
theorem pay1 (x0 x1 : Vec Ideal S5000x256 .f32) (x2 : Vec Ideal S1x1 .f32) (x3 : Vec Ideal S256x256 .f32) (x4 : Vec Ideal S1x256 .f32)
    (j : S5000x256.Idx) :
    k8_pay1 x0 x1 x2 x3 x4 j
      = (∑ k : Fin 256, (x0 (ix2 (j 0) k) + x2 (ix2 0 0) * x1 (ix2 (j 0) k)) * x3 (ix2 k (j 1))) + x4 (ix2 0 (j 1)) := by
  unfold k8_pay1
  simp only [shapeCast_self]
  rw [addf_apply, mm, bcastRow]
  simp only [truncf_apply, addf_apply, mulf_apply, broadcast_apply]
  rw [scal x2]

theorem pay2 (x0 x1 : Vec Ideal S5000x256 .f32) (x2 : Vec Ideal S1x1 .f32) (x3 : Vec Ideal S256x256 .f32) (x4 : Vec Ideal S1x256 .f32)
    (y : S1x8x256.Idx) :
    k8_pay2 x0 x1 x2 x3 x4 y = ∑ q : Fin 5000, k8_pay1 x0 x1 x2 x3 x4 (ix2 q (y 2)) := by
  unfold k8_pay2
  simp only [shapeCast_self]
  exact colBlock _ y

theorem pay3 (x0 x1 : Vec Ideal S5000x256 .f32) (x2 : Vec Ideal S1x1 .f32) (x3 : Vec Ideal S256x256 .f32) (x4 : Vec Ideal S1x256 .f32)
    (y : S1x8x256.Idx) :
    k8_pay3 x0 x1 x2 x3 x4 y = ∑ q : Fin 5000, k8_pay1 x0 x1 x2 x3 x4 (ix2 q (y 2)) * k8_pay1 x0 x1 x2 x3 x4 (ix2 q (y 2)) := by
  unfold k8_pay3
  simp only [shapeCast_self]
  exact (colBlock _ y).trans (Finset.sum_congr rfl fun q _ => mulf_apply _ _ _)

variable (V : (c : Dev nD) → (b : Ref sig .tc) → Buf (Elt Ideal) ((c : Thread nD τ).loc b))

/-- The index maps over the grid. -/
theorem idxf : ∀ t : Fin cfg8.N, win8_0.index t (0 : Fin 2) = t.val
    ∧ win8_0.index t (1 : Fin 2) = 0
    ∧ win8_1.index t (0 : Fin 2) = t.val
    ∧ win8_1.index t (1 : Fin 2) = 0
    ∧ win8_2.index t (0 : Fin 2) = 0
    ∧ win8_2.index t (1 : Fin 2) = 0
    ∧ win8_3.index t (0 : Fin 2) = 0
    ∧ win8_3.index t (1 : Fin 2) = 0
    ∧ win8_4.index t (0 : Fin 2) = 0
    ∧ win8_4.index t (1 : Fin 2) = 0
    ∧ win8_5.index t (0 : Fin 2) = t.val
    ∧ win8_5.index t (1 : Fin 2) = 0
    ∧ win8_6.index t (0 : Fin 3) = t.val
    ∧ win8_6.index t (1 : Fin 3) = 0
    ∧ win8_6.index t (2 : Fin 3) = 0
    ∧ win8_7.index t (0 : Fin 3) = t.val
    ∧ win8_7.index t (1 : Fin 3) = 0
    ∧ win8_7.index t (2 : Fin 3) = 0 :=
  (by decide +kernel : ∀ t : Fin grid8.N, _)

/-- At a point, the body's value at a block entry is the layer's value at the array entry the block entry sits at. -/
theorem point (c : Dev nD) (t : Fin cfg8.N) (y : S5000x256.Idx) (i : S40000x256.Idx)
    (hi0 : (i 0).val = t.val * 5000 + (y 0).val) (hi1 : (i 1).val = (y 1).val) :
    k8_pay1 (iblk8 V c 0 t) (iblk8 V c 1 t) (iblk8 V c 2 t) (iblk8 V c 3 t) (iblk8 V c 4 t) y = layer1 (V c main_v31) (V c main_arg0) (V c main_v121) (V c main_arg24) (V c main_v122) i := by
  obtain ⟨e0, e1, e2, e3, e4, e5, e6, e7, e8, e9, e10, e11, e12, e13, e14, e15, e16, e17⟩ := idxf t
  rw [pay1]
  simp only [layer1, lin, mix, dotP, row]
  have hy1 : (y 1).val < 256 := (y 1).isLt
  have h0 : ∀ k : Fin 256, iblk8 V c 0 t (ix2 (y 0) k) = V c main_v31 (ix2 (i 0) k) := fun k => by
    show V c main_v31 (((cfg8.win 0).blk t).view.emb _) = _
    congr 1; funext a; apply Fin.ext
    match a with
    | ⟨0, _⟩ => show win8_0.index t (0 : Fin 2) * 5000 + 1 * (y 0).val = (i 0).val; omega
    | ⟨1, _⟩ => show win8_0.index t (1 : Fin 2) * 256 + 1 * k.val = k.val; omega
  have h1 : ∀ k : Fin 256, iblk8 V c 1 t (ix2 (y 0) k) = V c main_arg0 (ix2 (i 0) k) := fun k => by
    show V c main_arg0 (((cfg8.win 1).blk t).view.emb _) = _
    congr 1; funext a; apply Fin.ext
    match a with
    | ⟨0, _⟩ => show win8_1.index t (0 : Fin 2) * 5000 + 1 * (y 0).val = (i 0).val; omega
    | ⟨1, _⟩ => show win8_1.index t (1 : Fin 2) * 256 + 1 * k.val = k.val; omega
  have h2 : iblk8 V c 2 t (ix2 0 0) = V c main_v121 (ix2 0 0) := by
    show V c main_v121 (((cfg8.win 2).blk t).view.emb _) = _
    congr 1; funext a; apply Fin.ext
    match a with
    | ⟨0, _⟩ => show win8_2.index t (0 : Fin 2) * 1 + 1 * 0 = 0; omega
    | ⟨1, _⟩ => show win8_2.index t (1 : Fin 2) * 1 + 1 * 0 = 0; omega
  have h3 : ∀ k : Fin 256, iblk8 V c 3 t (ix2 k (y 1)) = V c main_arg24 (ix2 k (i 1)) := fun k => by
    show V c main_arg24 (((cfg8.win 3).blk t).view.emb _) = _
    congr 1; funext a; apply Fin.ext
    match a with
    | ⟨0, _⟩ => show win8_3.index t (0 : Fin 2) * 256 + 1 * k.val = k.val; omega
    | ⟨1, _⟩ => show win8_3.index t (1 : Fin 2) * 256 + 1 * (y 1).val = (i 1).val; omega
  have h4 : iblk8 V c 4 t (ix2 0 (y 1)) = V c main_v122 (ix2 0 (i 1)) := by
    show V c main_v122 (((cfg8.win 4).blk t).view.emb _) = _
    congr 1; funext a; apply Fin.ext
    match a with
    | ⟨0, _⟩ => show win8_4.index t (0 : Fin 2) * 1 + 1 * 0 = 0; omega
    | ⟨1, _⟩ => show win8_4.index t (1 : Fin 2) * 256 + 1 * (y 1).val = (i 1).val; omega
  simp only [h0, h1, h2, h3, h4]

/-- What point `t` writes back to the row-block output is block `t` of the stage's value on the arrays as found. -/
theorem flushed (c : Dev nD) (t : Fin cfg8.N) :
    (dat8 V c).flushed 5 t = ((cfg8.win 5).blk t).view.read (Elt Ideal) (layer1 (V c main_v31) (V c main_arg0) (V c main_v121) (V c main_arg24) (V c main_v122)) := by
  show (cfg8.win 5).cut (grid8.coords t) ((dat8 V c).after 5 t) = _
  rw [after8_5]
  unfold out8_5
  rw [View.canon_unit_zero hz]
  simp only [View.ld_unit_zero (S := S5000x256) hz, View.ld_unit_zero (S := S1x1) hz, View.ld_unit_zero (S := S256x256) hz, View.ld_unit_zero (S := S1x256) hz]
  obtain ⟨e0, e1, e2, e3, e4, e5, e6, e7, e8, e9, e10, e11, e12, e13, e14, e15, e16, e17⟩ := idxf t
  funext j
  refine point V c t j (((cfg8.win 5).blk t).view.emb j) ?_ ?_
  · show win8_5.index t (0 : Fin 2) * 5000 + 1 * (j 0).val = t.val * 5000 + (j 0).val; omega
  · show win8_5.index t (1 : Fin 2) * 256 + 1 * (j 1).val = (j 1).val; omega

theorem mem_blk (t : Fin cfg8.N) (i : S40000x256.Idx) :
    i ∈ ((cfg8.win 5).blk t).view.set ↔ ∀ a : Fin 2, win8_5.index t a * S5000x256.size a ≤ (i a).val
      ∧ (i a).val < win8_5.index t a * S5000x256.size a + S5000x256.size a := by
  show i ∈ ((View.whole main_v123_0).slice (win8_5.rect t)).set ↔ _
  rw [View.set_slice_whole, Rect.mem_set_unit]
  exact Iff.rfl

/-- Every row lies in the block of the point numbered by the row's quotient by the block height. -/
theorem cover (i : S40000x256.Idx) :
    ∃ t : Fin cfg8.N, (cfg8.win 5).flush t = true ∧ i ∈ ((cfg8.win 5).blk t).view.set := by
  have hN : grid8.N = 8 := N_8
  have hi0 : (i 0).val < 40000 := (i 0).isLt
  have hi1 : (i 1).val < 256 := (i 1).isLt
  have ht : (i 0).val / 5000 < grid8.N := by rw [hN]; omega
  obtain ⟨e0, e1, e2, e3, e4, e5, e6, e7, e8, e9, e10, e11, e12, e13, e14, e15, e16, e17⟩ := idxf ⟨(i 0).val / 5000, ht⟩
  refine ⟨⟨(i 0).val / 5000, ht⟩, flush8_5 _, ?_⟩
  rw [mem_blk]
  intro a
  match a with
  | ⟨0, _⟩ =>
    show win8_5.index ⟨(i 0).val / 5000, ht⟩ (0 : Fin 2) * 5000 ≤ (i 0).val
      ∧ (i 0).val < win8_5.index ⟨(i 0).val / 5000, ht⟩ (0 : Fin 2) * 5000 + 5000
    rw [e10]; show (i 0).val / 5000 * 5000 ≤ (i 0).val ∧ (i 0).val < (i 0).val / 5000 * 5000 + 5000; omega
  | ⟨1, _⟩ =>
    show win8_5.index ⟨(i 0).val / 5000, ht⟩ (1 : Fin 2) * 256 ≤ (i 1).val
      ∧ (i 1).val < win8_5.index ⟨(i 0).val / 5000, ht⟩ (1 : Fin 2) * 256 + 256
    rw [e11]; omega

/-- After the launch the row-block output array is the stage's value on the arrays the launch found. -/
theorem final (c : Dev nD) : (dat8 V c).arrAt 5 cfg8.N = layer1 (V c main_v31) (V c main_arg0) (V c main_v121) (V c main_arg24) (V c main_v122) :=
  (dat8 V c).arrAt_eq_of_cover 5 _ (fun t _ => flushed V c t) cover

/-- At a point, a statistics block entry is the tile statistic of the stage's value at the tile the point numbers. -/
theorem spointSum (c : Dev nD) (t : Fin cfg8.N) (y : S1x8x256.Idx) (i : S8x8x256.Idx)
    (hi0 : (i 0).val = t.val) (hi2 : (i 2).val = (y 2).val) :
    k8_pay2 (iblk8 V c 0 t) (iblk8 V c 1 t) (iblk8 V c 2 t) (iblk8 V c 3 t) (iblk8 V c 4 t) y = tileSum (layer1 (V c main_v31) (V c main_arg0) (V c main_v121) (V c main_arg24) (V c main_v122)) i := by
  rw [pay2]
  unfold tileSum
  refine Finset.sum_congr rfl fun q _ => ?_
  have hp := point V c t (ix2 q (y 2)) (ix2 (tileRow (i 0) q) (i 2))
    (by show (i 0).val * 5000 + q.val = t.val * 5000 + q.val; rw [hi0]) hi2
  exact hp

theorem sflushedSum (c : Dev nD) (t : Fin cfg8.N) :
    (dat8 V c).flushed 6 t = ((cfg8.win 6).blk t).view.read (Elt Ideal) (tileSum (layer1 (V c main_v31) (V c main_arg0) (V c main_v121) (V c main_arg24) (V c main_v122))) := by
  show (cfg8.win 6).cut (grid8.coords t) ((dat8 V c).after 6 t) = _
  rw [after8_6]
  unfold out8_6
  rw [View.canon_unit_zero hz3]
  simp only [View.ld_unit_zero (S := S5000x256) hz, View.ld_unit_zero (S := S1x1) hz, View.ld_unit_zero (S := S256x256) hz, View.ld_unit_zero (S := S1x256) hz]
  obtain ⟨e0, e1, e2, e3, e4, e5, e6, e7, e8, e9, e10, e11, e12, e13, e14, e15, e16, e17⟩ := idxf t
  funext j
  refine spointSum V c t j (((cfg8.win 6).blk t).view.emb j) ?_ ?_
  · have hj : (j 0).val < 1 := (j 0).isLt
    show win8_6.index t (0 : Fin 3) * 1 + 1 * (j 0).val = t.val; omega
  · show win8_6.index t (2 : Fin 3) * 256 + 1 * (j 2).val = (j 2).val; omega

theorem smem_blkSum (t : Fin cfg8.N) (i : S8x8x256.Idx) :
    i ∈ ((cfg8.win 6).blk t).view.set ↔ ∀ a : Fin 3, win8_6.index t a * S1x8x256.size a ≤ (i a).val
      ∧ (i a).val < win8_6.index t a * S1x8x256.size a + S1x8x256.size a := by
  show i ∈ ((View.whole main_v123_1).slice (win8_6.rect t)).set ↔ _
  rw [View.set_slice_whole, Rect.mem_set_unit]
  exact Iff.rfl

theorem scoverSum (i : S8x8x256.Idx) :
    ∃ t : Fin cfg8.N, (cfg8.win 6).flush t = true ∧ i ∈ ((cfg8.win 6).blk t).view.set := by
  have hN : grid8.N = 8 := N_8
  have hi0 : (i 0).val < 8 := (i 0).isLt
  have hi1 : (i 1).val < 8 := (i 1).isLt
  have hi2 : (i 2).val < 256 := (i 2).isLt
  have ht : (i 0).val < grid8.N := by rw [hN]; omega
  obtain ⟨e0, e1, e2, e3, e4, e5, e6, e7, e8, e9, e10, e11, e12, e13, e14, e15, e16, e17⟩ := idxf ⟨(i 0).val, ht⟩
  refine ⟨⟨(i 0).val, ht⟩, flush8_6 _, ?_⟩
  rw [smem_blkSum]
  intro a
  match a with
  | ⟨0, _⟩ =>
    show win8_6.index ⟨(i 0).val, ht⟩ (0 : Fin 3) * 1 ≤ (i 0).val
      ∧ (i 0).val < win8_6.index ⟨(i 0).val, ht⟩ (0 : Fin 3) * 1 + 1
    rw [e12]; show (i 0).val * 1 ≤ (i 0).val ∧ (i 0).val < (i 0).val * 1 + 1; omega
  | ⟨1, _⟩ =>
    show win8_6.index ⟨(i 0).val, ht⟩ (1 : Fin 3) * 8 ≤ (i 1).val
      ∧ (i 1).val < win8_6.index ⟨(i 0).val, ht⟩ (1 : Fin 3) * 8 + 8
    rw [e13]; omega
  | ⟨2, _⟩ =>
    show win8_6.index ⟨(i 0).val, ht⟩ (2 : Fin 3) * 256 ≤ (i 2).val
      ∧ (i 2).val < win8_6.index ⟨(i 0).val, ht⟩ (2 : Fin 3) * 256 + 256
    rw [e14]; omega

/-- After the launch the statistics array holds, per tile, the tile statistic of the stage's value. -/
theorem sfinalSum (c : Dev nD) : (dat8 V c).arrAt 6 cfg8.N = tileSum (layer1 (V c main_v31) (V c main_arg0) (V c main_v121) (V c main_arg24) (V c main_v122)) :=
  (dat8 V c).arrAt_eq_of_cover 6 _ (fun t _ => sflushedSum V c t) scoverSum

/-- At a point, a statistics block entry is the tile statistic of the stage's value at the tile the point numbers. -/
theorem spointSumSq (c : Dev nD) (t : Fin cfg8.N) (y : S1x8x256.Idx) (i : S8x8x256.Idx)
    (hi0 : (i 0).val = t.val) (hi2 : (i 2).val = (y 2).val) :
    k8_pay3 (iblk8 V c 0 t) (iblk8 V c 1 t) (iblk8 V c 2 t) (iblk8 V c 3 t) (iblk8 V c 4 t) y = tileSumSq (layer1 (V c main_v31) (V c main_arg0) (V c main_v121) (V c main_arg24) (V c main_v122)) i := by
  rw [pay3]
  unfold tileSumSq
  refine Finset.sum_congr rfl fun q _ => ?_
  have hp := point V c t (ix2 q (y 2)) (ix2 (tileRow (i 0) q) (i 2))
    (by show (i 0).val * 5000 + q.val = t.val * 5000 + q.val; rw [hi0]) hi2
  rw [hp]

theorem sflushedSumSq (c : Dev nD) (t : Fin cfg8.N) :
    (dat8 V c).flushed 7 t = ((cfg8.win 7).blk t).view.read (Elt Ideal) (tileSumSq (layer1 (V c main_v31) (V c main_arg0) (V c main_v121) (V c main_arg24) (V c main_v122))) := by
  show (cfg8.win 7).cut (grid8.coords t) ((dat8 V c).after 7 t) = _
  rw [after8_7]
  unfold out8_7
  rw [View.canon_unit_zero hz3]
  simp only [View.ld_unit_zero (S := S5000x256) hz, View.ld_unit_zero (S := S1x1) hz, View.ld_unit_zero (S := S256x256) hz, View.ld_unit_zero (S := S1x256) hz]
  obtain ⟨e0, e1, e2, e3, e4, e5, e6, e7, e8, e9, e10, e11, e12, e13, e14, e15, e16, e17⟩ := idxf t
  funext j
  refine spointSumSq V c t j (((cfg8.win 7).blk t).view.emb j) ?_ ?_
  · have hj : (j 0).val < 1 := (j 0).isLt
    show win8_7.index t (0 : Fin 3) * 1 + 1 * (j 0).val = t.val; omega
  · show win8_7.index t (2 : Fin 3) * 256 + 1 * (j 2).val = (j 2).val; omega

theorem smem_blkSumSq (t : Fin cfg8.N) (i : S8x8x256.Idx) :
    i ∈ ((cfg8.win 7).blk t).view.set ↔ ∀ a : Fin 3, win8_7.index t a * S1x8x256.size a ≤ (i a).val
      ∧ (i a).val < win8_7.index t a * S1x8x256.size a + S1x8x256.size a := by
  show i ∈ ((View.whole main_v123_2).slice (win8_7.rect t)).set ↔ _
  rw [View.set_slice_whole, Rect.mem_set_unit]
  exact Iff.rfl

theorem scoverSumSq (i : S8x8x256.Idx) :
    ∃ t : Fin cfg8.N, (cfg8.win 7).flush t = true ∧ i ∈ ((cfg8.win 7).blk t).view.set := by
  have hN : grid8.N = 8 := N_8
  have hi0 : (i 0).val < 8 := (i 0).isLt
  have hi1 : (i 1).val < 8 := (i 1).isLt
  have hi2 : (i 2).val < 256 := (i 2).isLt
  have ht : (i 0).val < grid8.N := by rw [hN]; omega
  obtain ⟨e0, e1, e2, e3, e4, e5, e6, e7, e8, e9, e10, e11, e12, e13, e14, e15, e16, e17⟩ := idxf ⟨(i 0).val, ht⟩
  refine ⟨⟨(i 0).val, ht⟩, flush8_7 _, ?_⟩
  rw [smem_blkSumSq]
  intro a
  match a with
  | ⟨0, _⟩ =>
    show win8_7.index ⟨(i 0).val, ht⟩ (0 : Fin 3) * 1 ≤ (i 0).val
      ∧ (i 0).val < win8_7.index ⟨(i 0).val, ht⟩ (0 : Fin 3) * 1 + 1
    rw [e15]; show (i 0).val * 1 ≤ (i 0).val ∧ (i 0).val < (i 0).val * 1 + 1; omega
  | ⟨1, _⟩ =>
    show win8_7.index ⟨(i 0).val, ht⟩ (1 : Fin 3) * 8 ≤ (i 1).val
      ∧ (i 1).val < win8_7.index ⟨(i 0).val, ht⟩ (1 : Fin 3) * 8 + 8
    rw [e16]; omega
  | ⟨2, _⟩ =>
    show win8_7.index ⟨(i 0).val, ht⟩ (2 : Fin 3) * 256 ≤ (i 2).val
      ∧ (i 2).val < win8_7.index ⟨(i 0).val, ht⟩ (2 : Fin 3) * 256 + 256
    rw [e17]; omega

/-- After the launch the statistics array holds, per tile, the tile statistic of the stage's value. -/
theorem sfinalSumSq (c : Dev nD) : (dat8 V c).arrAt 7 cfg8.N = tileSumSq (layer1 (V c main_v31) (V c main_arg0) (V c main_v121) (V c main_arg24) (V c main_v122)) :=
  (dat8 V c).arrAt_eq_of_cover 7 _ (fun t _ => sflushedSumSq V c t) scoverSumSq

end Cert.KernelIdeal.Reg8

end
-- ==== Proof.Region9.lean ====
/-
  BatchNorm with given statistics, ReLU, then a dense layer, with the result's per-block column sums and sums of squares.
-/
import proofs.«129683_j53085795779156_2_alg».proof.Proof.RegionCommon

set_option maxRecDepth 16384

noncomputable section

namespace Cert.KernelIdeal.Reg9

open Idealize.ShloMosaic Idealize.ShloMosaic.TcCoe Idealize.SL.Sem Idealize.ShloMosaic.ValueIdx
open Idealize.ShloMosaic.Pipeline (Dat)
open Cert.KernelIdeal Cert.KernelIdeal.Gen Cell Cert.KernelIdeal.RegCommon

/-- BatchNorm, ReLU and the dense layer, at an entry of the block. -/
theorem payMain (x0 : Vec Ideal S5000x256 .f32) (x1 x2 x3 x4 : Vec Ideal S1x256 .f32) (x5 : Vec Ideal S256x256 .f32) (x6 : Vec Ideal S1x256 .f32) (j : S5000x256.Idx) :
    k9_pay3 x0 x1 x2 x3 x4 x5 x6 j
      = (∑ k : Fin 256, max (x3 (ix2 0 k) * (x0 (ix2 (j 0) k) - x1 (ix2 0 k)) * Ideal.rsqrt (x2 (ix2 0 k) + bnEps) + x4 (ix2 0 k)) 0
            * x5 (ix2 k (j 1))) + x6 (ix2 0 (j 1)) := by
  unfold k9_pay3
  simp only [shapeCast_self]
  rw [addf_apply, mm, bcastRow]
  refine congrArg (· + _) (Finset.sum_congr rfl fun k _ => ?_)
  rw [truncf_apply, truncf_apply]
  exact congrArg (· * x5 (ix2 k (j 1))) (bnAt x0 x1 x2 x3 x4 (j 0) k)

/-- The statistics payloads of this body, as the frame composes them. -/
abbrev kS9 (x0 : Vec Ideal S5000x256 .f32) (x1 x2 x3 x4 : Vec Ideal S1x256 .f32) (x5 : Vec Ideal S256x256 .f32) (x6 : Vec Ideal S1x256 .f32) : FVec Ideal S1x8x256 .f32 := k9_pay1 (k9_pay4 x0 x1 x2 x3 x4 x5 x6)
abbrev kQ9 (x0 : Vec Ideal S5000x256 .f32) (x1 x2 x3 x4 : Vec Ideal S1x256 .f32) (x5 : Vec Ideal S256x256 .f32) (x6 : Vec Ideal S1x256 .f32) : FVec Ideal S1x8x256 .f32 := k9_pay2 (k9_pay5 x0 x1 x2 x3 x4 x5 x6)

theorem paySum (x0 : Vec Ideal S5000x256 .f32) (x1 x2 x3 x4 : Vec Ideal S1x256 .f32) (x5 : Vec Ideal S256x256 .f32) (x6 : Vec Ideal S1x256 .f32) (y : S1x8x256.Idx) :
    kS9 x0 x1 x2 x3 x4 x5 x6 y = ∑ q : Fin 5000, k9_pay3 x0 x1 x2 x3 x4 x5 x6 (ix2 q (y 2)) := by
  unfold kS9 k9_pay1 k9_pay4
  simp only [shapeCast_self]
  exact colBlock _ y

theorem paySumSq (x0 : Vec Ideal S5000x256 .f32) (x1 x2 x3 x4 : Vec Ideal S1x256 .f32) (x5 : Vec Ideal S256x256 .f32) (x6 : Vec Ideal S1x256 .f32) (y : S1x8x256.Idx) :
    kQ9 x0 x1 x2 x3 x4 x5 x6 y
      = ∑ q : Fin 5000, k9_pay3 x0 x1 x2 x3 x4 x5 x6 (ix2 q (y 2)) * k9_pay3 x0 x1 x2 x3 x4 x5 x6 (ix2 q (y 2)) := by
  unfold kQ9 k9_pay2 k9_pay5
  simp only [shapeCast_self]
  exact (colBlock _ y).trans (Finset.sum_congr rfl fun q _ => mulf_apply _ _ _)

variable (V : (c : Dev nD) → (b : Ref sig .tc) → Buf (Elt Ideal) ((c : Thread nD τ).loc b))

/-- The index maps over the grid. -/
theorem idxf : ∀ t : Fin cfg9.N, win9_0.index t (0 : Fin 2) = t.val
    ∧ win9_0.index t (1 : Fin 2) = 0
    ∧ win9_1.index t (0 : Fin 2) = 0
    ∧ win9_1.index t (1 : Fin 2) = 0
    ∧ win9_2.index t (0 : Fin 2) = 0
    ∧ win9_2.index t (1 : Fin 2) = 0
    ∧ win9_3.index t (0 : Fin 2) = 0
    ∧ win9_3.index t (1 : Fin 2) = 0
    ∧ win9_4.index t (0 : Fin 2) = 0
    ∧ win9_4.index t (1 : Fin 2) = 0
    ∧ win9_5.index t (0 : Fin 2) = 0
    ∧ win9_5.index t (1 : Fin 2) = 0
    ∧ win9_6.index t (0 : Fin 2) = 0
    ∧ win9_6.index t (1 : Fin 2) = 0
    ∧ win9_7.index t (0 : Fin 2) = t.val
    ∧ win9_7.index t (1 : Fin 2) = 0
    ∧ win9_8.index t (0 : Fin 3) = t.val
    ∧ win9_8.index t (1 : Fin 3) = 0
    ∧ win9_8.index t (2 : Fin 3) = 0
    ∧ win9_9.index t (0 : Fin 3) = t.val
    ∧ win9_9.index t (1 : Fin 3) = 0
    ∧ win9_9.index t (2 : Fin 3) = 0 :=
  (by decide +kernel : ∀ t : Fin grid9.N, _)

/-- At a point, the body's value at a block entry is the stage's value at the array entry the block entry sits at. -/
theorem point (c : Dev nD) (t : Fin cfg9.N) (y : S5000x256.Idx) (i : S40000x256.Idx)
    (hi0 : (i 0).val = t.val * 5000 + (y 0).val) (hi1 : (i 1).val = (y 1).val) :
    k9_pay3 (iblk9 V c 0 t) (iblk9 V c 1 t) (iblk9 V c 2 t) (iblk9 V c 3 t) (iblk9 V c 4 t) (iblk9 V c 5 t) (iblk9 V c 6 t) y = layerBn (V c main_v123_0) (V c main_v136) (V c main_v137) (V c main_v138) (V c main_v139) (V c main_arg28) (V c main_v140) i := by
  obtain ⟨e0, e1, e2, e3, e4, e5, e6, e7, e8, e9, e10, e11, e12, e13, e14, e15, e16, e17, e18, e19, e20, e21⟩ := idxf t
  rw [payMain]
  have hy1 : (y 1).val < 256 := (y 1).isLt
  have h0 : ∀ k : Fin 256, iblk9 V c 0 t (ix2 (y 0) k) = V c main_v123_0 (ix2 (i 0) k) := fun k => by
    show V c main_v123_0 (((cfg9.win 0).blk t).view.emb _) = _
    congr 1; funext a; apply Fin.ext
    match a with
    | ⟨0, _⟩ => show win9_0.index t (0 : Fin 2) * 5000 + 1 * (y 0).val = (i 0).val; omega
    | ⟨1, _⟩ => show win9_0.index t (1 : Fin 2) * 256 + 1 * k.val = k.val; omega
  have h1 : ∀ k : Fin 256, iblk9 V c 1 t (ix2 0 k) = V c main_v136 (ix2 0 k) := fun k => by
    show V c main_v136 (((cfg9.win 1).blk t).view.emb _) = _
    congr 1; funext a; apply Fin.ext
    match a with
    | ⟨0, _⟩ => show win9_1.index t (0 : Fin 2) * 1 + 1 * 0 = 0; omega
    | ⟨1, _⟩ => show win9_1.index t (1 : Fin 2) * 256 + 1 * k.val = k.val; omega
  have h2 : ∀ k : Fin 256, iblk9 V c 2 t (ix2 0 k) = V c main_v137 (ix2 0 k) := fun k => by
    show V c main_v137 (((cfg9.win 2).blk t).view.emb _) = _
    congr 1; funext a; apply Fin.ext
    match a with
    | ⟨0, _⟩ => show win9_2.index t (0 : Fin 2) * 1 + 1 * 0 = 0; omega
    | ⟨1, _⟩ => show win9_2.index t (1 : Fin 2) * 256 + 1 * k.val = k.val; omega
  have h3 : ∀ k : Fin 256, iblk9 V c 3 t (ix2 0 k) = V c main_v138 (ix2 0 k) := fun k => by
    show V c main_v138 (((cfg9.win 3).blk t).view.emb _) = _
    congr 1; funext a; apply Fin.ext
    match a with
    | ⟨0, _⟩ => show win9_3.index t (0 : Fin 2) * 1 + 1 * 0 = 0; omega
    | ⟨1, _⟩ => show win9_3.index t (1 : Fin 2) * 256 + 1 * k.val = k.val; omega
  have h4 : ∀ k : Fin 256, iblk9 V c 4 t (ix2 0 k) = V c main_v139 (ix2 0 k) := fun k => by
    show V c main_v139 (((cfg9.win 4).blk t).view.emb _) = _
    congr 1; funext a; apply Fin.ext
    match a with
    | ⟨0, _⟩ => show win9_4.index t (0 : Fin 2) * 1 + 1 * 0 = 0; omega
    | ⟨1, _⟩ => show win9_4.index t (1 : Fin 2) * 256 + 1 * k.val = k.val; omega
  have h5 : ∀ k : Fin 256, iblk9 V c 5 t (ix2 k (y 1)) = V c main_arg28 (ix2 k (i 1)) := fun k => by
    show V c main_arg28 (((cfg9.win 5).blk t).view.emb _) = _
    congr 1; funext a; apply Fin.ext
    match a with
    | ⟨0, _⟩ => show win9_5.index t (0 : Fin 2) * 256 + 1 * k.val = k.val; omega
    | ⟨1, _⟩ => show win9_5.index t (1 : Fin 2) * 256 + 1 * (y 1).val = (i 1).val; omega
  have h6 : iblk9 V c 6 t (ix2 0 (y 1)) = V c main_v140 (ix2 0 (i 1)) := by
    show V c main_v140 (((cfg9.win 6).blk t).view.emb _) = _
    congr 1; funext a; apply Fin.ext
    match a with
    | ⟨0, _⟩ => show win9_6.index t (0 : Fin 2) * 1 + 1 * 0 = 0; omega
    | ⟨1, _⟩ => show win9_6.index t (1 : Fin 2) * 256 + 1 * (y 1).val = (i 1).val; omega
  simp only [h0, h1, h2, h3, h4, h5, h6]
  rfl

/-- What point `t` writes back to the row-block output is block `t` of the stage's value on the arrays as found. -/
theorem flushed (c : Dev nD) (t : Fin cfg9.N) :
    (dat9 V c).flushed 7 t = ((cfg9.win 7).blk t).view.read (Elt Ideal) (layerBn (V c main_v123_0) (V c main_v136) (V c main_v137) (V c main_v138) (V c main_v139) (V c main_arg28) (V c main_v140)) := by
  show (cfg9.win 7).cut (grid9.coords t) ((dat9 V c).after 7 t) = _
  rw [after9_7]
  unfold out9_7
  rw [View.canon_unit_zero hz]
  simp only [View.ld_unit_zero (S := S5000x256) hz, View.ld_unit_zero (S := S1x256) hz, View.ld_unit_zero (S := S256x256) hz]
  obtain ⟨e0, e1, e2, e3, e4, e5, e6, e7, e8, e9, e10, e11, e12, e13, e14, e15, e16, e17, e18, e19, e20, e21⟩ := idxf t
  funext j
  refine point V c t j (((cfg9.win 7).blk t).view.emb j) ?_ ?_
  · show win9_7.index t (0 : Fin 2) * 5000 + 1 * (j 0).val = t.val * 5000 + (j 0).val; omega
  · show win9_7.index t (1 : Fin 2) * 256 + 1 * (j 1).val = (j 1).val; omega

theorem mem_blk (t : Fin cfg9.N) (i : S40000x256.Idx) :
    i ∈ ((cfg9.win 7).blk t).view.set ↔ ∀ a : Fin 2, win9_7.index t a * S5000x256.size a ≤ (i a).val
      ∧ (i a).val < win9_7.index t a * S5000x256.size a + S5000x256.size a := by
  show i ∈ ((View.whole main_v141_0).slice (win9_7.rect t)).set ↔ _
  rw [View.set_slice_whole, Rect.mem_set_unit]
  exact Iff.rfl

/-- Every row lies in the block of the point numbered by the row's quotient by the block height. -/
theorem cover (i : S40000x256.Idx) :
    ∃ t : Fin cfg9.N, (cfg9.win 7).flush t = true ∧ i ∈ ((cfg9.win 7).blk t).view.set := by
  have hN : grid9.N = 8 := N_9
  have hi0 : (i 0).val < 40000 := (i 0).isLt
  have hi1 : (i 1).val < 256 := (i 1).isLt
  have ht : (i 0).val / 5000 < grid9.N := by rw [hN]; omega
  obtain ⟨e0, e1, e2, e3, e4, e5, e6, e7, e8, e9, e10, e11, e12, e13, e14, e15, e16, e17, e18, e19, e20, e21⟩ := idxf ⟨(i 0).val / 5000, ht⟩
  refine ⟨⟨(i 0).val / 5000, ht⟩, flush9_7 _, ?_⟩
  rw [mem_blk]
  intro a
  match a with
  | ⟨0, _⟩ =>
    show win9_7.index ⟨(i 0).val / 5000, ht⟩ (0 : Fin 2) * 5000 ≤ (i 0).val
      ∧ (i 0).val < win9_7.index ⟨(i 0).val / 5000, ht⟩ (0 : Fin 2) * 5000 + 5000
    rw [e14]; show (i 0).val / 5000 * 5000 ≤ (i 0).val ∧ (i 0).val < (i 0).val / 5000 * 5000 + 5000; omega
  | ⟨1, _⟩ =>
    show win9_7.index ⟨(i 0).val / 5000, ht⟩ (1 : Fin 2) * 256 ≤ (i 1).val
      ∧ (i 1).val < win9_7.index ⟨(i 0).val / 5000, ht⟩ (1 : Fin 2) * 256 + 256
    rw [e15]; omega

/-- After the launch the row-block output array is the stage's value on the arrays the launch found. -/
theorem final (c : Dev nD) : (dat9 V c).arrAt 7 cfg9.N = layerBn (V c main_v123_0) (V c main_v136) (V c main_v137) (V c main_v138) (V c main_v139) (V c main_arg28) (V c main_v140) :=
  (dat9 V c).arrAt_eq_of_cover 7 _ (fun t _ => flushed V c t) cover

/-- At a point, a statistics block entry is the tile statistic of the stage's value at the tile the point numbers. -/
theorem spointSum (c : Dev nD) (t : Fin cfg9.N) (y : S1x8x256.Idx) (i : S8x8x256.Idx)
    (hi0 : (i 0).val = t.val) (hi2 : (i 2).val = (y 2).val) :
    kS9 (iblk9 V c 0 t) (iblk9 V c 1 t) (iblk9 V c 2 t) (iblk9 V c 3 t) (iblk9 V c 4 t) (iblk9 V c 5 t) (iblk9 V c 6 t) y = tileSum (layerBn (V c main_v123_0) (V c main_v136) (V c main_v137) (V c main_v138) (V c main_v139) (V c main_arg28) (V c main_v140)) i := by
  rw [paySum]
  unfold tileSum
  refine Finset.sum_congr rfl fun q _ => ?_
  have hp := point V c t (ix2 q (y 2)) (ix2 (tileRow (i 0) q) (i 2))
    (by show (i 0).val * 5000 + q.val = t.val * 5000 + q.val; rw [hi0]) hi2
  exact hp

theorem sflushedSum (c : Dev nD) (t : Fin cfg9.N) :
    (dat9 V c).flushed 8 t = ((cfg9.win 8).blk t).view.read (Elt Ideal) (tileSum (layerBn (V c main_v123_0) (V c main_v136) (V c main_v137) (V c main_v138) (V c main_v139) (V c main_arg28) (V c main_v140))) := by
  show (cfg9.win 8).cut (grid9.coords t) ((dat9 V c).after 8 t) = _
  rw [after9_8]
  unfold out9_8
  rw [View.canon_unit_zero hz3]
  simp only [View.ld_unit_zero (S := S5000x256) hz, View.ld_unit_zero (S := S1x256) hz, View.ld_unit_zero (S := S256x256) hz]
  obtain ⟨e0, e1, e2, e3, e4, e5, e6, e7, e8, e9, e10, e11, e12, e13, e14, e15, e16, e17, e18, e19, e20, e21⟩ := idxf t
  funext j
  refine spointSum V c t j (((cfg9.win 8).blk t).view.emb j) ?_ ?_
  · have hj : (j 0).val < 1 := (j 0).isLt
    show win9_8.index t (0 : Fin 3) * 1 + 1 * (j 0).val = t.val; omega
  · show win9_8.index t (2 : Fin 3) * 256 + 1 * (j 2).val = (j 2).val; omega

theorem smem_blkSum (t : Fin cfg9.N) (i : S8x8x256.Idx) :
    i ∈ ((cfg9.win 8).blk t).view.set ↔ ∀ a : Fin 3, win9_8.index t a * S1x8x256.size a ≤ (i a).val
      ∧ (i a).val < win9_8.index t a * S1x8x256.size a + S1x8x256.size a := by
  show i ∈ ((View.whole main_v141_1).slice (win9_8.rect t)).set ↔ _
  rw [View.set_slice_whole, Rect.mem_set_unit]
  exact Iff.rfl

theorem scoverSum (i : S8x8x256.Idx) :
    ∃ t : Fin cfg9.N, (cfg9.win 8).flush t = true ∧ i ∈ ((cfg9.win 8).blk t).view.set := by
  have hN : grid9.N = 8 := N_9
  have hi0 : (i 0).val < 8 := (i 0).isLt
  have hi1 : (i 1).val < 8 := (i 1).isLt
  have hi2 : (i 2).val < 256 := (i 2).isLt
  have ht : (i 0).val < grid9.N := by rw [hN]; omega
  obtain ⟨e0, e1, e2, e3, e4, e5, e6, e7, e8, e9, e10, e11, e12, e13, e14, e15, e16, e17, e18, e19, e20, e21⟩ := idxf ⟨(i 0).val, ht⟩
  refine ⟨⟨(i 0).val, ht⟩, flush9_8 _, ?_⟩
  rw [smem_blkSum]
  intro a
  match a with
  | ⟨0, _⟩ =>
    show win9_8.index ⟨(i 0).val, ht⟩ (0 : Fin 3) * 1 ≤ (i 0).val
      ∧ (i 0).val < win9_8.index ⟨(i 0).val, ht⟩ (0 : Fin 3) * 1 + 1
    rw [e16]; show (i 0).val * 1 ≤ (i 0).val ∧ (i 0).val < (i 0).val * 1 + 1; omega
  | ⟨1, _⟩ =>
    show win9_8.index ⟨(i 0).val, ht⟩ (1 : Fin 3) * 8 ≤ (i 1).val
      ∧ (i 1).val < win9_8.index ⟨(i 0).val, ht⟩ (1 : Fin 3) * 8 + 8
    rw [e17]; omega
  | ⟨2, _⟩ =>
    show win9_8.index ⟨(i 0).val, ht⟩ (2 : Fin 3) * 256 ≤ (i 2).val
      ∧ (i 2).val < win9_8.index ⟨(i 0).val, ht⟩ (2 : Fin 3) * 256 + 256
    rw [e18]; omega

/-- After the launch the statistics array holds, per tile, the tile statistic of the stage's value. -/
theorem sfinalSum (c : Dev nD) : (dat9 V c).arrAt 8 cfg9.N = tileSum (layerBn (V c main_v123_0) (V c main_v136) (V c main_v137) (V c main_v138) (V c main_v139) (V c main_arg28) (V c main_v140)) :=
  (dat9 V c).arrAt_eq_of_cover 8 _ (fun t _ => sflushedSum V c t) scoverSum

/-- At a point, a statistics block entry is the tile statistic of the stage's value at the tile the point numbers. -/
theorem spointSumSq (c : Dev nD) (t : Fin cfg9.N) (y : S1x8x256.Idx) (i : S8x8x256.Idx)
    (hi0 : (i 0).val = t.val) (hi2 : (i 2).val = (y 2).val) :
    kQ9 (iblk9 V c 0 t) (iblk9 V c 1 t) (iblk9 V c 2 t) (iblk9 V c 3 t) (iblk9 V c 4 t) (iblk9 V c 5 t) (iblk9 V c 6 t) y = tileSumSq (layerBn (V c main_v123_0) (V c main_v136) (V c main_v137) (V c main_v138) (V c main_v139) (V c main_arg28) (V c main_v140)) i := by
  rw [paySumSq]
  unfold tileSumSq
  refine Finset.sum_congr rfl fun q _ => ?_
  have hp := point V c t (ix2 q (y 2)) (ix2 (tileRow (i 0) q) (i 2))
    (by show (i 0).val * 5000 + q.val = t.val * 5000 + q.val; rw [hi0]) hi2
  rw [hp]

theorem sflushedSumSq (c : Dev nD) (t : Fin cfg9.N) :
    (dat9 V c).flushed 9 t = ((cfg9.win 9).blk t).view.read (Elt Ideal) (tileSumSq (layerBn (V c main_v123_0) (V c main_v136) (V c main_v137) (V c main_v138) (V c main_v139) (V c main_arg28) (V c main_v140))) := by
  show (cfg9.win 9).cut (grid9.coords t) ((dat9 V c).after 9 t) = _
  rw [after9_9]
  unfold out9_9
  rw [View.canon_unit_zero hz3]
  simp only [View.ld_unit_zero (S := S5000x256) hz, View.ld_unit_zero (S := S1x256) hz, View.ld_unit_zero (S := S256x256) hz]
  obtain ⟨e0, e1, e2, e3, e4, e5, e6, e7, e8, e9, e10, e11, e12, e13, e14, e15, e16, e17, e18, e19, e20, e21⟩ := idxf t
  funext j
  refine spointSumSq V c t j (((cfg9.win 9).blk t).view.emb j) ?_ ?_
  · have hj : (j 0).val < 1 := (j 0).isLt
    show win9_9.index t (0 : Fin 3) * 1 + 1 * (j 0).val = t.val; omega
  · show win9_9.index t (2 : Fin 3) * 256 + 1 * (j 2).val = (j 2).val; omega

theorem smem_blkSumSq (t : Fin cfg9.N) (i : S8x8x256.Idx) :
    i ∈ ((cfg9.win 9).blk t).view.set ↔ ∀ a : Fin 3, win9_9.index t a * S1x8x256.size a ≤ (i a).val
      ∧ (i a).val < win9_9.index t a * S1x8x256.size a + S1x8x256.size a := by
  show i ∈ ((View.whole main_v141_2).slice (win9_9.rect t)).set ↔ _
  rw [View.set_slice_whole, Rect.mem_set_unit]
  exact Iff.rfl

theorem scoverSumSq (i : S8x8x256.Idx) :
    ∃ t : Fin cfg9.N, (cfg9.win 9).flush t = true ∧ i ∈ ((cfg9.win 9).blk t).view.set := by
  have hN : grid9.N = 8 := N_9
  have hi0 : (i 0).val < 8 := (i 0).isLt
  have hi1 : (i 1).val < 8 := (i 1).isLt
  have hi2 : (i 2).val < 256 := (i 2).isLt
  have ht : (i 0).val < grid9.N := by rw [hN]; omega
  obtain ⟨e0, e1, e2, e3, e4, e5, e6, e7, e8, e9, e10, e11, e12, e13, e14, e15, e16, e17, e18, e19, e20, e21⟩ := idxf ⟨(i 0).val, ht⟩
  refine ⟨⟨(i 0).val, ht⟩, flush9_9 _, ?_⟩
  rw [smem_blkSumSq]
  intro a
  match a with
  | ⟨0, _⟩ =>
    show win9_9.index ⟨(i 0).val, ht⟩ (0 : Fin 3) * 1 ≤ (i 0).val
      ∧ (i 0).val < win9_9.index ⟨(i 0).val, ht⟩ (0 : Fin 3) * 1 + 1
    rw [e19]; show (i 0).val * 1 ≤ (i 0).val ∧ (i 0).val < (i 0).val * 1 + 1; omega
  | ⟨1, _⟩ =>
    show win9_9.index ⟨(i 0).val, ht⟩ (1 : Fin 3) * 8 ≤ (i 1).val
      ∧ (i 1).val < win9_9.index ⟨(i 0).val, ht⟩ (1 : Fin 3) * 8 + 8
    rw [e20]; omega
  | ⟨2, _⟩ =>
    show win9_9.index ⟨(i 0).val, ht⟩ (2 : Fin 3) * 256 ≤ (i 2).val
      ∧ (i 2).val < win9_9.index ⟨(i 0).val, ht⟩ (2 : Fin 3) * 256 + 256
    rw [e21]; omega

/-- After the launch the statistics array holds, per tile, the tile statistic of the stage's value. -/
theorem sfinalSumSq (c : Dev nD) : (dat9 V c).arrAt 9 cfg9.N = tileSumSq (layerBn (V c main_v123_0) (V c main_v136) (V c main_v137) (V c main_v138) (V c main_v139) (V c main_arg28) (V c main_v140)) :=
  (dat9 V c).arrAt_eq_of_cover 9 _ (fun t _ => sflushedSumSq V c t) scoverSumSq

end Cert.KernelIdeal.Reg9

end
-- ==== Proof.Region10.lean ====
/-
  BatchNorm with given statistics, ReLU, then a dense layer (one branch's contribution to the combine).
-/
import proofs.«129683_j53085795779156_2_alg».proof.Proof.RegionCommon

set_option maxRecDepth 16384

noncomputable section

namespace Cert.KernelIdeal.Reg10

open Idealize.ShloMosaic Idealize.ShloMosaic.TcCoe Idealize.SL.Sem Idealize.ShloMosaic.ValueIdx
open Idealize.ShloMosaic.Pipeline (Dat)
open Cert.KernelIdeal Cert.KernelIdeal.Gen Cell Cert.KernelIdeal.RegCommon

/-- BatchNorm, ReLU and the dense layer, at an entry of the block. -/
theorem payMain (x0 : Vec Ideal S5000x256 .f32) (x1 x2 x3 x4 : Vec Ideal S1x256 .f32) (x5 : Vec Ideal S256x256 .f32) (x6 : Vec Ideal S1x256 .f32) (j : S5000x256.Idx) :
    k10_pay1 x0 x1 x2 x3 x4 x5 x6 j
      = (∑ k : Fin 256, max (x3 (ix2 0 k) * (x0 (ix2 (j 0) k) - x1 (ix2 0 k)) * Ideal.rsqrt (x2 (ix2 0 k) + bnEps) + x4 (ix2 0 k)) 0
            * x5 (ix2 k (j 1))) + x6 (ix2 0 (j 1)) := by
  unfold k10_pay1
  simp only [shapeCast_self]
  rw [addf_apply, mm, bcastRow]
  refine congrArg (· + _) (Finset.sum_congr rfl fun k _ => ?_)
  rw [truncf_apply, truncf_apply]
  exact congrArg (· * x5 (ix2 k (j 1))) (bnAt x0 x1 x2 x3 x4 (j 0) k)

variable (V : (c : Dev nD) → (b : Ref sig .tc) → Buf (Elt Ideal) ((c : Thread nD τ).loc b))

/-- The index maps over the grid. -/
theorem idxf : ∀ t : Fin cfg10.N, win10_0.index t (0 : Fin 2) = t.val
    ∧ win10_0.index t (1 : Fin 2) = 0
    ∧ win10_1.index t (0 : Fin 2) = 0
    ∧ win10_1.index t (1 : Fin 2) = 0
    ∧ win10_2.index t (0 : Fin 2) = 0
    ∧ win10_2.index t (1 : Fin 2) = 0
    ∧ win10_3.index t (0 : Fin 2) = 0
    ∧ win10_3.index t (1 : Fin 2) = 0
    ∧ win10_4.index t (0 : Fin 2) = 0
    ∧ win10_4.index t (1 : Fin 2) = 0
    ∧ win10_5.index t (0 : Fin 2) = 0
    ∧ win10_5.index t (1 : Fin 2) = 0
    ∧ win10_6.index t (0 : Fin 2) = 0
    ∧ win10_6.index t (1 : Fin 2) = 0
    ∧ win10_7.index t (0 : Fin 2) = t.val
    ∧ win10_7.index t (1 : Fin 2) = 0 :=
  (by decide +kernel : ∀ t : Fin grid10.N, _)

/-- At a point, the body's value at a block entry is the stage's value at the array entry the block entry sits at. -/
theorem point (c : Dev nD) (t : Fin cfg10.N) (y : S5000x256.Idx) (i : S40000x256.Idx)
    (hi0 : (i 0).val = t.val * 5000 + (y 0).val) (hi1 : (i 1).val = (y 1).val) :
    k10_pay1 (iblk10 V c 0 t) (iblk10 V c 1 t) (iblk10 V c 2 t) (iblk10 V c 3 t) (iblk10 V c 4 t) (iblk10 V c 5 t) (iblk10 V c 6 t) y = layerBn (V c main_v141_0) (V c main_v155) (V c main_v156) (V c main_v157) (V c main_v158) (V c main_v34) (V c main_v159) i := by
  obtain ⟨e0, e1, e2, e3, e4, e5, e6, e7, e8, e9, e10, e11, e12, e13, e14, e15⟩ := idxf t
  rw [payMain]
  have hy1 : (y 1).val < 256 := (y 1).isLt
  have h0 : ∀ k : Fin 256, iblk10 V c 0 t (ix2 (y 0) k) = V c main_v141_0 (ix2 (i 0) k) := fun k => by
    show V c main_v141_0 (((cfg10.win 0).blk t).view.emb _) = _
    congr 1; funext a; apply Fin.ext
    match a with
    | ⟨0, _⟩ => show win10_0.index t (0 : Fin 2) * 5000 + 1 * (y 0).val = (i 0).val; omega
    | ⟨1, _⟩ => show win10_0.index t (1 : Fin 2) * 256 + 1 * k.val = k.val; omega
  have h1 : ∀ k : Fin 256, iblk10 V c 1 t (ix2 0 k) = V c main_v155 (ix2 0 k) := fun k => by
    show V c main_v155 (((cfg10.win 1).blk t).view.emb _) = _
    congr 1; funext a; apply Fin.ext
    match a with
    | ⟨0, _⟩ => show win10_1.index t (0 : Fin 2) * 1 + 1 * 0 = 0; omega
    | ⟨1, _⟩ => show win10_1.index t (1 : Fin 2) * 256 + 1 * k.val = k.val; omega
  have h2 : ∀ k : Fin 256, iblk10 V c 2 t (ix2 0 k) = V c main_v156 (ix2 0 k) := fun k => by
    show V c main_v156 (((cfg10.win 2).blk t).view.emb _) = _
    congr 1; funext a; apply Fin.ext
    match a with
    | ⟨0, _⟩ => show win10_2.index t (0 : Fin 2) * 1 + 1 * 0 = 0; omega
    | ⟨1, _⟩ => show win10_2.index t (1 : Fin 2) * 256 + 1 * k.val = k.val; omega
  have h3 : ∀ k : Fin 256, iblk10 V c 3 t (ix2 0 k) = V c main_v157 (ix2 0 k) := fun k => by
    show V c main_v157 (((cfg10.win 3).blk t).view.emb _) = _
    congr 1; funext a; apply Fin.ext
    match a with
    | ⟨0, _⟩ => show win10_3.index t (0 : Fin 2) * 1 + 1 * 0 = 0; omega
    | ⟨1, _⟩ => show win10_3.index t (1 : Fin 2) * 256 + 1 * k.val = k.val; omega
  have h4 : ∀ k : Fin 256, iblk10 V c 4 t (ix2 0 k) = V c main_v158 (ix2 0 k) := fun k => by
    show V c main_v158 (((cfg10.win 4).blk t).view.emb _) = _
    congr 1; funext a; apply Fin.ext
    match a with
    | ⟨0, _⟩ => show win10_4.index t (0 : Fin 2) * 1 + 1 * 0 = 0; omega
    | ⟨1, _⟩ => show win10_4.index t (1 : Fin 2) * 256 + 1 * k.val = k.val; omega
  have h5 : ∀ k : Fin 256, iblk10 V c 5 t (ix2 k (y 1)) = V c main_v34 (ix2 k (i 1)) := fun k => by
    show V c main_v34 (((cfg10.win 5).blk t).view.emb _) = _
    congr 1; funext a; apply Fin.ext
    match a with
    | ⟨0, _⟩ => show win10_5.index t (0 : Fin 2) * 256 + 1 * k.val = k.val; omega
    | ⟨1, _⟩ => show win10_5.index t (1 : Fin 2) * 256 + 1 * (y 1).val = (i 1).val; omega
  have h6 : iblk10 V c 6 t (ix2 0 (y 1)) = V c main_v159 (ix2 0 (i 1)) := by
    show V c main_v159 (((cfg10.win 6).blk t).view.emb _) = _
    congr 1; funext a; apply Fin.ext
    match a with
    | ⟨0, _⟩ => show win10_6.index t (0 : Fin 2) * 1 + 1 * 0 = 0; omega
    | ⟨1, _⟩ => show win10_6.index t (1 : Fin 2) * 256 + 1 * (y 1).val = (i 1).val; omega
  simp only [h0, h1, h2, h3, h4, h5, h6]
  rfl

/-- What point `t` writes back to the row-block output is block `t` of the stage's value on the arrays as found. -/
theorem flushed (c : Dev nD) (t : Fin cfg10.N) :
    (dat10 V c).flushed 7 t = ((cfg10.win 7).blk t).view.read (Elt Ideal) (layerBn (V c main_v141_0) (V c main_v155) (V c main_v156) (V c main_v157) (V c main_v158) (V c main_v34) (V c main_v159)) := by
  show (cfg10.win 7).cut (grid10.coords t) ((dat10 V c).after 7 t) = _
  rw [after10_7]
  unfold out10_7
  rw [View.canon_unit_zero hz]
  simp only [View.ld_unit_zero (S := S5000x256) hz, View.ld_unit_zero (S := S1x256) hz, View.ld_unit_zero (S := S256x256) hz]
  obtain ⟨e0, e1, e2, e3, e4, e5, e6, e7, e8, e9, e10, e11, e12, e13, e14, e15⟩ := idxf t
  funext j
  refine point V c t j (((cfg10.win 7).blk t).view.emb j) ?_ ?_
  · show win10_7.index t (0 : Fin 2) * 5000 + 1 * (j 0).val = t.val * 5000 + (j 0).val; omega
  · show win10_7.index t (1 : Fin 2) * 256 + 1 * (j 1).val = (j 1).val; omega

theorem mem_blk (t : Fin cfg10.N) (i : S40000x256.Idx) :
    i ∈ ((cfg10.win 7).blk t).view.set ↔ ∀ a : Fin 2, win10_7.index t a * S5000x256.size a ≤ (i a).val
      ∧ (i a).val < win10_7.index t a * S5000x256.size a + S5000x256.size a := by
  show i ∈ ((View.whole main_v160).slice (win10_7.rect t)).set ↔ _
  rw [View.set_slice_whole, Rect.mem_set_unit]
  exact Iff.rfl

/-- Every row lies in the block of the point numbered by the row's quotient by the block height. -/
theorem cover (i : S40000x256.Idx) :
    ∃ t : Fin cfg10.N, (cfg10.win 7).flush t = true ∧ i ∈ ((cfg10.win 7).blk t).view.set := by
  have hN : grid10.N = 8 := N_10
  have hi0 : (i 0).val < 40000 := (i 0).isLt
  have hi1 : (i 1).val < 256 := (i 1).isLt
  have ht : (i 0).val / 5000 < grid10.N := by rw [hN]; omega
  obtain ⟨e0, e1, e2, e3, e4, e5, e6, e7, e8, e9, e10, e11, e12, e13, e14, e15⟩ := idxf ⟨(i 0).val / 5000, ht⟩
  refine ⟨⟨(i 0).val / 5000, ht⟩, flush10_7 _, ?_⟩
  rw [mem_blk]
  intro a
  match a with
  | ⟨0, _⟩ =>
    show win10_7.index ⟨(i 0).val / 5000, ht⟩ (0 : Fin 2) * 5000 ≤ (i 0).val
      ∧ (i 0).val < win10_7.index ⟨(i 0).val / 5000, ht⟩ (0 : Fin 2) * 5000 + 5000
    rw [e14]; show (i 0).val / 5000 * 5000 ≤ (i 0).val ∧ (i 0).val < (i 0).val / 5000 * 5000 + 5000; omega
  | ⟨1, _⟩ =>
    show win10_7.index ⟨(i 0).val / 5000, ht⟩ (1 : Fin 2) * 256 ≤ (i 1).val
      ∧ (i 1).val < win10_7.index ⟨(i 0).val / 5000, ht⟩ (1 : Fin 2) * 256 + 256
    rw [e15]; omega

/-- After the launch the row-block output array is the stage's value on the arrays the launch found. -/
theorem final (c : Dev nD) : (dat10 V c).arrAt 7 cfg10.N = layerBn (V c main_v141_0) (V c main_v155) (V c main_v156) (V c main_v157) (V c main_v158) (V c main_v34) (V c main_v159) :=
  (dat10 V c).arrAt_eq_of_cover 7 _ (fun t _ => flushed V c t) cover

end Cert.KernelIdeal.Reg10

end
-- ==== Proof.ChainB.lean ====
/-
  The boundary branch followed through its three launches and the host's statistics between them.
-/
import proofs.«129683_j53085795779156_2_alg».proof.Proof.ChainA
import proofs.«129683_j53085795779156_2_alg».proof.Proof.Region8
import proofs.«129683_j53085795779156_2_alg».proof.Proof.Region9
import proofs.«129683_j53085795779156_2_alg».proof.Proof.Region10

set_option maxRecDepth 16384

noncomputable section

namespace Cert.KernelIdeal.Chain

open Idealize.ShloMosaic Idealize.ShloMosaic.TcCoe Idealize.SL.Sem Idealize.ShloMosaic.ValueIdx
open Idealize.ShloMosaic.Pipeline (Dat)
open Cert.KernelIdeal Cert.KernelIdeal.Gen Cell Cert.KernelIdeal.RegCommon Cert.KernelIdeal.HostGlue

variable (m : (ℓ : Loc nD τ sig) → Buf (Elt Ideal) ℓ) (ρ : Dev nD → PrngReg)

/-- No operation of a host stretch writes the buffer, so the stretch leaves it as it was. -/
local macro "host_keep" ops:ident : term => `(StableHlo.after_of_forall_not_mem _ _ (List.forall_iff_forall_mem.mp (by
  simp only [$ops:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide))))

/-! ## Buffers that no step in between writes keep their contents -/

theorem keep_v31_11_23 (c : Dev nD) : W23 m ρ c (Proc.devRef .tc main_v31) = W11 m ρ c (Proc.devRef .tc main_v31) :=
  calc W23 m ρ c (Proc.devRef .tc main_v31)
    _ = W22 m ρ c (Proc.devRef .tc main_v31) := host_keep hostOps8
    _ = W21 m ρ c (Proc.devRef .tc main_v31) := W22_of_ne m ρ c main_v31 (by decide)
    _ = W20 m ρ c (Proc.devRef .tc main_v31) := host_keep hostOps7
    _ = W19 m ρ c (Proc.devRef .tc main_v31) := W20_of_ne m ρ c main_v31 (by decide)
    _ = W18 m ρ c (Proc.devRef .tc main_v31) := host_keep hostOps6
    _ = W17 m ρ c (Proc.devRef .tc main_v31) := W18_of_ne m ρ c main_v31 (by decide)
    _ = W16 m ρ c (Proc.devRef .tc main_v31) := host_keep hostOps5
    _ = W15 m ρ c (Proc.devRef .tc main_v31) := W16_of_ne m ρ c main_v31 (by decide)
    _ = W14 m ρ c (Proc.devRef .tc main_v31) := host_keep hostOps4
    _ = W13 m ρ c (Proc.devRef .tc main_v31) := W14_of_ne m ρ c main_v31 (by decide)
    _ = W12 m ρ c (Proc.devRef .tc main_v31) := host_keep hostOps3
    _ = W11 m ρ c (Proc.devRef .tc main_v31) := W12_of_ne m ρ c main_v31 (by decide)

theorem keep_arg38_0_22 (c : Dev nD) : W22 m ρ c (Proc.devRef .tc main_arg38) = m ((c : Thread nD τ).loc main_arg38) :=
  calc W22 m ρ c (Proc.devRef .tc main_arg38)
    _ = W21 m ρ c (Proc.devRef .tc main_arg38) := W22_of_ne m ρ c main_arg38 (by decide)
    _ = W20 m ρ c (Proc.devRef .tc main_arg38) := host_keep hostOps7
    _ = W19 m ρ c (Proc.devRef .tc main_arg38) := W20_of_ne m ρ c main_arg38 (by decide)
    _ = W18 m ρ c (Proc.devRef .tc main_arg38) := host_keep hostOps6
    _ = W17 m ρ c (Proc.devRef .tc main_arg38) := W18_of_ne m ρ c main_arg38 (by decide)
    _ = W16 m ρ c (Proc.devRef .tc main_arg38) := host_keep hostOps5
    _ = W15 m ρ c (Proc.devRef .tc main_arg38) := W16_of_ne m ρ c main_arg38 (by decide)
    _ = W14 m ρ c (Proc.devRef .tc main_arg38) := host_keep hostOps4
    _ = W13 m ρ c (Proc.devRef .tc main_arg38) := W14_of_ne m ρ c main_arg38 (by decide)
    _ = W12 m ρ c (Proc.devRef .tc main_arg38) := host_keep hostOps3
    _ = W11 m ρ c (Proc.devRef .tc main_arg38) := W12_of_ne m ρ c main_arg38 (by decide)
    _ = W10 m ρ c (Proc.devRef .tc main_arg38) := host_keep hostOps2
    _ = W9 m ρ c (Proc.devRef .tc main_arg38) := W10_of_ne m ρ c main_arg38 (by decide)
    _ = W8 m ρ c (Proc.devRef .tc main_arg38) := host_keep hostOps1
    _ = W7 m ρ c (Proc.devRef .tc main_arg38) := W8_of_ne m ρ c main_arg38 (by decide)
    _ = W6 m ρ c (Proc.devRef .tc main_arg38) := host_keep hostOps0_6
    _ = W5 m ρ c (Proc.devRef .tc main_arg38) := host_keep hostOps0_5
    _ = W4 m ρ c (Proc.devRef .tc main_arg38) := host_keep hostOps0_4
    _ = W3 m ρ c (Proc.devRef .tc main_arg38) := host_keep hostOps0_3
    _ = W2 m ρ c (Proc.devRef .tc main_arg38) := host_keep hostOps0_2
    _ = W1 m ρ c (Proc.devRef .tc main_arg38) := host_keep hostOps0_1
    _ = W0 m ρ c (Proc.devRef .tc main_arg38) := host_keep hostOps0
    _ = m ((c : Thread nD τ).loc main_arg38) := rfl

theorem keep_arg25_0_22 (c : Dev nD) : W22 m ρ c (Proc.devRef .tc main_arg25) = m ((c : Thread nD τ).loc main_arg25) :=
  calc W22 m ρ c (Proc.devRef .tc main_arg25)
    _ = W21 m ρ c (Proc.devRef .tc main_arg25) := W22_of_ne m ρ c main_arg25 (by decide)
    _ = W20 m ρ c (Proc.devRef .tc main_arg25) := host_keep hostOps7
    _ = W19 m ρ c (Proc.devRef .tc main_arg25) := W20_of_ne m ρ c main_arg25 (by decide)
    _ = W18 m ρ c (Proc.devRef .tc main_arg25) := host_keep hostOps6
    _ = W17 m ρ c (Proc.devRef .tc main_arg25) := W18_of_ne m ρ c main_arg25 (by decide)
    _ = W16 m ρ c (Proc.devRef .tc main_arg25) := host_keep hostOps5
    _ = W15 m ρ c (Proc.devRef .tc main_arg25) := W16_of_ne m ρ c main_arg25 (by decide)
    _ = W14 m ρ c (Proc.devRef .tc main_arg25) := host_keep hostOps4
    _ = W13 m ρ c (Proc.devRef .tc main_arg25) := W14_of_ne m ρ c main_arg25 (by decide)
    _ = W12 m ρ c (Proc.devRef .tc main_arg25) := host_keep hostOps3
    _ = W11 m ρ c (Proc.devRef .tc main_arg25) := W12_of_ne m ρ c main_arg25 (by decide)
    _ = W10 m ρ c (Proc.devRef .tc main_arg25) := host_keep hostOps2
    _ = W9 m ρ c (Proc.devRef .tc main_arg25) := W10_of_ne m ρ c main_arg25 (by decide)
    _ = W8 m ρ c (Proc.devRef .tc main_arg25) := host_keep hostOps1
    _ = W7 m ρ c (Proc.devRef .tc main_arg25) := W8_of_ne m ρ c main_arg25 (by decide)
    _ = W6 m ρ c (Proc.devRef .tc main_arg25) := host_keep hostOps0_6
    _ = W5 m ρ c (Proc.devRef .tc main_arg25) := host_keep hostOps0_5
    _ = W4 m ρ c (Proc.devRef .tc main_arg25) := host_keep hostOps0_4
    _ = W3 m ρ c (Proc.devRef .tc main_arg25) := host_keep hostOps0_3
    _ = W2 m ρ c (Proc.devRef .tc main_arg25) := host_keep hostOps0_2
    _ = W1 m ρ c (Proc.devRef .tc main_arg25) := host_keep hostOps0_1
    _ = W0 m ρ c (Proc.devRef .tc main_arg25) := host_keep hostOps0
    _ = m ((c : Thread nD τ).loc main_arg25) := rfl

theorem keep_arg0_0_23 (c : Dev nD) : W23 m ρ c (Proc.devRef .tc main_arg0) = m ((c : Thread nD τ).loc main_arg0) :=
  calc W23 m ρ c (Proc.devRef .tc main_arg0)
    _ = W22 m ρ c (Proc.devRef .tc main_arg0) := host_keep hostOps8
    _ = W21 m ρ c (Proc.devRef .tc main_arg0) := W22_of_ne m ρ c main_arg0 (by decide)
    _ = W20 m ρ c (Proc.devRef .tc main_arg0) := host_keep hostOps7
    _ = W19 m ρ c (Proc.devRef .tc main_arg0) := W20_of_ne m ρ c main_arg0 (by decide)
    _ = W18 m ρ c (Proc.devRef .tc main_arg0) := host_keep hostOps6
    _ = W17 m ρ c (Proc.devRef .tc main_arg0) := (W18_arr m ρ c 1).trans (((dat5 (V17 m ρ) c).arrAt_in 1 rfl _).trans (A_eq5 (V17 m ρ) c 1))
    _ = W16 m ρ c (Proc.devRef .tc main_arg0) := host_keep hostOps5
    _ = W15 m ρ c (Proc.devRef .tc main_arg0) := W16_of_ne m ρ c main_arg0 (by decide)
    _ = W14 m ρ c (Proc.devRef .tc main_arg0) := host_keep hostOps4
    _ = W13 m ρ c (Proc.devRef .tc main_arg0) := W14_of_ne m ρ c main_arg0 (by decide)
    _ = W12 m ρ c (Proc.devRef .tc main_arg0) := host_keep hostOps3
    _ = W11 m ρ c (Proc.devRef .tc main_arg0) := (W12_arr m ρ c 1).trans (((dat2 (V11 m ρ) c).arrAt_in 1 rfl _).trans (A_eq2 (V11 m ρ) c 1))
    _ = W10 m ρ c (Proc.devRef .tc main_arg0) := host_keep hostOps2
    _ = W9 m ρ c (Proc.devRef .tc main_arg0) := W10_of_ne m ρ c main_arg0 (by decide)
    _ = W8 m ρ c (Proc.devRef .tc main_arg0) := host_keep hostOps1
    _ = W7 m ρ c (Proc.devRef .tc main_arg0) := W8_of_ne m ρ c main_arg0 (by decide)
    _ = W6 m ρ c (Proc.devRef .tc main_arg0) := host_keep hostOps0_6
    _ = W5 m ρ c (Proc.devRef .tc main_arg0) := host_keep hostOps0_5
    _ = W4 m ρ c (Proc.devRef .tc main_arg0) := host_keep hostOps0_4
    _ = W3 m ρ c (Proc.devRef .tc main_arg0) := host_keep hostOps0_3
    _ = W2 m ρ c (Proc.devRef .tc main_arg0) := host_keep hostOps0_2
    _ = W1 m ρ c (Proc.devRef .tc main_arg0) := host_keep hostOps0_1
    _ = W0 m ρ c (Proc.devRef .tc main_arg0) := host_keep hostOps0
    _ = m ((c : Thread nD τ).loc main_arg0) := rfl

theorem keep_arg24_0_23 (c : Dev nD) : W23 m ρ c (Proc.devRef .tc main_arg24) = m ((c : Thread nD τ).loc main_arg24) :=
  calc W23 m ρ c (Proc.devRef .tc main_arg24)
    _ = W22 m ρ c (Proc.devRef .tc main_arg24) := host_keep hostOps8
    _ = W21 m ρ c (Proc.devRef .tc main_arg24) := W22_of_ne m ρ c main_arg24 (by decide)
    _ = W20 m ρ c (Proc.devRef .tc main_arg24) := host_keep hostOps7
    _ = W19 m ρ c (Proc.devRef .tc main_arg24) := W20_of_ne m ρ c main_arg24 (by decide)
    _ = W18 m ρ c (Proc.devRef .tc main_arg24) := host_keep hostOps6
    _ = W17 m ρ c (Proc.devRef .tc main_arg24) := W18_of_ne m ρ c main_arg24 (by decide)
    _ = W16 m ρ c (Proc.devRef .tc main_arg24) := host_keep hostOps5
    _ = W15 m ρ c (Proc.devRef .tc main_arg24) := W16_of_ne m ρ c main_arg24 (by decide)
    _ = W14 m ρ c (Proc.devRef .tc main_arg24) := host_keep hostOps4
    _ = W13 m ρ c (Proc.devRef .tc main_arg24) := W14_of_ne m ρ c main_arg24 (by decide)
    _ = W12 m ρ c (Proc.devRef .tc main_arg24) := host_keep hostOps3
    _ = W11 m ρ c (Proc.devRef .tc main_arg24) := W12_of_ne m ρ c main_arg24 (by decide)
    _ = W10 m ρ c (Proc.devRef .tc main_arg24) := host_keep hostOps2
    _ = W9 m ρ c (Proc.devRef .tc main_arg24) := W10_of_ne m ρ c main_arg24 (by decide)
    _ = W8 m ρ c (Proc.devRef .tc main_arg24) := host_keep hostOps1
    _ = W7 m ρ c (Proc.devRef .tc main_arg24) := W8_of_ne m ρ c main_arg24 (by decide)
    _ = W6 m ρ c (Proc.devRef .tc main_arg24) := host_keep hostOps0_6
    _ = W5 m ρ c (Proc.devRef .tc main_arg24) := host_keep hostOps0_5
    _ = W4 m ρ c (Proc.devRef .tc main_arg24) := host_keep hostOps0_4
    _ = W3 m ρ c (Proc.devRef .tc main_arg24) := host_keep hostOps0_3
    _ = W2 m ρ c (Proc.devRef .tc main_arg24) := host_keep hostOps0_2
    _ = W1 m ρ c (Proc.devRef .tc main_arg24) := host_keep hostOps0_1
    _ = W0 m ρ c (Proc.devRef .tc main_arg24) := host_keep hostOps0
    _ = m ((c : Thread nD τ).loc main_arg24) := rfl

theorem keep_v123_0_24_25 (c : Dev nD) : W25 m ρ c (Proc.devRef .tc main_v123_0) = W24 m ρ c (Proc.devRef .tc main_v123_0) :=
  calc W25 m ρ c (Proc.devRef .tc main_v123_0)
    _ = W24 m ρ c (Proc.devRef .tc main_v123_0) := host_keep hostOps9

theorem keep_arg26_0_24 (c : Dev nD) : W24 m ρ c (Proc.devRef .tc main_arg26) = m ((c : Thread nD τ).loc main_arg26) :=
  calc W24 m ρ c (Proc.devRef .tc main_arg26)
    _ = W23 m ρ c (Proc.devRef .tc main_arg26) := W24_of_ne m ρ c main_arg26 (by decide)
    _ = W22 m ρ c (Proc.devRef .tc main_arg26) := host_keep hostOps8
    _ = W21 m ρ c (Proc.devRef .tc main_arg26) := W22_of_ne m ρ c main_arg26 (by decide)
    _ = W20 m ρ c (Proc.devRef .tc main_arg26) := host_keep hostOps7
    _ = W19 m ρ c (Proc.devRef .tc main_arg26) := W20_of_ne m ρ c main_arg26 (by decide)
    _ = W18 m ρ c (Proc.devRef .tc main_arg26) := host_keep hostOps6
    _ = W17 m ρ c (Proc.devRef .tc main_arg26) := W18_of_ne m ρ c main_arg26 (by decide)
    _ = W16 m ρ c (Proc.devRef .tc main_arg26) := host_keep hostOps5
    _ = W15 m ρ c (Proc.devRef .tc main_arg26) := W16_of_ne m ρ c main_arg26 (by decide)
    _ = W14 m ρ c (Proc.devRef .tc main_arg26) := host_keep hostOps4
    _ = W13 m ρ c (Proc.devRef .tc main_arg26) := W14_of_ne m ρ c main_arg26 (by decide)
    _ = W12 m ρ c (Proc.devRef .tc main_arg26) := host_keep hostOps3
    _ = W11 m ρ c (Proc.devRef .tc main_arg26) := W12_of_ne m ρ c main_arg26 (by decide)
    _ = W10 m ρ c (Proc.devRef .tc main_arg26) := host_keep hostOps2
    _ = W9 m ρ c (Proc.devRef .tc main_arg26) := W10_of_ne m ρ c main_arg26 (by decide)
    _ = W8 m ρ c (Proc.devRef .tc main_arg26) := host_keep hostOps1
    _ = W7 m ρ c (Proc.devRef .tc main_arg26) := W8_of_ne m ρ c main_arg26 (by decide)
    _ = W6 m ρ c (Proc.devRef .tc main_arg26) := host_keep hostOps0_6
    _ = W5 m ρ c (Proc.devRef .tc main_arg26) := host_keep hostOps0_5
    _ = W4 m ρ c (Proc.devRef .tc main_arg26) := host_keep hostOps0_4
    _ = W3 m ρ c (Proc.devRef .tc main_arg26) := host_keep hostOps0_3
    _ = W2 m ρ c (Proc.devRef .tc main_arg26) := host_keep hostOps0_2
    _ = W1 m ρ c (Proc.devRef .tc main_arg26) := host_keep hostOps0_1
    _ = W0 m ρ c (Proc.devRef .tc main_arg26) := host_keep hostOps0
    _ = m ((c : Thread nD τ).loc main_arg26) := rfl

theorem keep_arg27_0_24 (c : Dev nD) : W24 m ρ c (Proc.devRef .tc main_arg27) = m ((c : Thread nD τ).loc main_arg27) :=
  calc W24 m ρ c (Proc.devRef .tc main_arg27)
    _ = W23 m ρ c (Proc.devRef .tc main_arg27) := W24_of_ne m ρ c main_arg27 (by decide)
    _ = W22 m ρ c (Proc.devRef .tc main_arg27) := host_keep hostOps8
    _ = W21 m ρ c (Proc.devRef .tc main_arg27) := W22_of_ne m ρ c main_arg27 (by decide)
    _ = W20 m ρ c (Proc.devRef .tc main_arg27) := host_keep hostOps7
    _ = W19 m ρ c (Proc.devRef .tc main_arg27) := W20_of_ne m ρ c main_arg27 (by decide)
    _ = W18 m ρ c (Proc.devRef .tc main_arg27) := host_keep hostOps6
    _ = W17 m ρ c (Proc.devRef .tc main_arg27) := W18_of_ne m ρ c main_arg27 (by decide)
    _ = W16 m ρ c (Proc.devRef .tc main_arg27) := host_keep hostOps5
    _ = W15 m ρ c (Proc.devRef .tc main_arg27) := W16_of_ne m ρ c main_arg27 (by decide)
    _ = W14 m ρ c (Proc.devRef .tc main_arg27) := host_keep hostOps4
    _ = W13 m ρ c (Proc.devRef .tc main_arg27) := W14_of_ne m ρ c main_arg27 (by decide)
    _ = W12 m ρ c (Proc.devRef .tc main_arg27) := host_keep hostOps3
    _ = W11 m ρ c (Proc.devRef .tc main_arg27) := W12_of_ne m ρ c main_arg27 (by decide)
    _ = W10 m ρ c (Proc.devRef .tc main_arg27) := host_keep hostOps2
    _ = W9 m ρ c (Proc.devRef .tc main_arg27) := W10_of_ne m ρ c main_arg27 (by decide)
    _ = W8 m ρ c (Proc.devRef .tc main_arg27) := host_keep hostOps1
    _ = W7 m ρ c (Proc.devRef .tc main_arg27) := W8_of_ne m ρ c main_arg27 (by decide)
    _ = W6 m ρ c (Proc.devRef .tc main_arg27) := host_keep hostOps0_6
    _ = W5 m ρ c (Proc.devRef .tc main_arg27) := host_keep hostOps0_5
    _ = W4 m ρ c (Proc.devRef .tc main_arg27) := host_keep hostOps0_4
    _ = W3 m ρ c (Proc.devRef .tc main_arg27) := host_keep hostOps0_3
    _ = W2 m ρ c (Proc.devRef .tc main_arg27) := host_keep hostOps0_2
    _ = W1 m ρ c (Proc.devRef .tc main_arg27) := host_keep hostOps0_1
    _ = W0 m ρ c (Proc.devRef .tc main_arg27) := host_keep hostOps0
    _ = m ((c : Thread nD τ).loc main_arg27) := rfl

theorem keep_arg28_0_25 (c : Dev nD) : W25 m ρ c (Proc.devRef .tc main_arg28) = m ((c : Thread nD τ).loc main_arg28) :=
  calc W25 m ρ c (Proc.devRef .tc main_arg28)
    _ = W24 m ρ c (Proc.devRef .tc main_arg28) := host_keep hostOps9
    _ = W23 m ρ c (Proc.devRef .tc main_arg28) := W24_of_ne m ρ c main_arg28 (by decide)
    _ = W22 m ρ c (Proc.devRef .tc main_arg28) := host_keep hostOps8
    _ = W21 m ρ c (Proc.devRef .tc main_arg28) := W22_of_ne m ρ c main_arg28 (by decide)
    _ = W20 m ρ c (Proc.devRef .tc main_arg28) := host_keep hostOps7
    _ = W19 m ρ c (Proc.devRef .tc main_arg28) := W20_of_ne m ρ c main_arg28 (by decide)
    _ = W18 m ρ c (Proc.devRef .tc main_arg28) := host_keep hostOps6
    _ = W17 m ρ c (Proc.devRef .tc main_arg28) := W18_of_ne m ρ c main_arg28 (by decide)
    _ = W16 m ρ c (Proc.devRef .tc main_arg28) := host_keep hostOps5
    _ = W15 m ρ c (Proc.devRef .tc main_arg28) := W16_of_ne m ρ c main_arg28 (by decide)
    _ = W14 m ρ c (Proc.devRef .tc main_arg28) := host_keep hostOps4
    _ = W13 m ρ c (Proc.devRef .tc main_arg28) := W14_of_ne m ρ c main_arg28 (by decide)
    _ = W12 m ρ c (Proc.devRef .tc main_arg28) := host_keep hostOps3
    _ = W11 m ρ c (Proc.devRef .tc main_arg28) := W12_of_ne m ρ c main_arg28 (by decide)
    _ = W10 m ρ c (Proc.devRef .tc main_arg28) := host_keep hostOps2
    _ = W9 m ρ c (Proc.devRef .tc main_arg28) := W10_of_ne m ρ c main_arg28 (by decide)
    _ = W8 m ρ c (Proc.devRef .tc main_arg28) := host_keep hostOps1
    _ = W7 m ρ c (Proc.devRef .tc main_arg28) := W8_of_ne m ρ c main_arg28 (by decide)
    _ = W6 m ρ c (Proc.devRef .tc main_arg28) := host_keep hostOps0_6
    _ = W5 m ρ c (Proc.devRef .tc main_arg28) := host_keep hostOps0_5
    _ = W4 m ρ c (Proc.devRef .tc main_arg28) := host_keep hostOps0_4
    _ = W3 m ρ c (Proc.devRef .tc main_arg28) := host_keep hostOps0_3
    _ = W2 m ρ c (Proc.devRef .tc main_arg28) := host_keep hostOps0_2
    _ = W1 m ρ c (Proc.devRef .tc main_arg28) := host_keep hostOps0_1
    _ = W0 m ρ c (Proc.devRef .tc main_arg28) := host_keep hostOps0
    _ = m ((c : Thread nD τ).loc main_arg28) := rfl

theorem keep_arg29_0_24 (c : Dev nD) : W24 m ρ c (Proc.devRef .tc main_arg29) = m ((c : Thread nD τ).loc main_arg29) :=
  calc W24 m ρ c (Proc.devRef .tc main_arg29)
    _ = W23 m ρ c (Proc.devRef .tc main_arg29) := W24_of_ne m ρ c main_arg29 (by decide)
    _ = W22 m ρ c (Proc.devRef .tc main_arg29) := host_keep hostOps8
    _ = W21 m ρ c (Proc.devRef .tc main_arg29) := W22_of_ne m ρ c main_arg29 (by decide)
    _ = W20 m ρ c (Proc.devRef .tc main_arg29) := host_keep hostOps7
    _ = W19 m ρ c (Proc.devRef .tc main_arg29) := W20_of_ne m ρ c main_arg29 (by decide)
    _ = W18 m ρ c (Proc.devRef .tc main_arg29) := host_keep hostOps6
    _ = W17 m ρ c (Proc.devRef .tc main_arg29) := W18_of_ne m ρ c main_arg29 (by decide)
    _ = W16 m ρ c (Proc.devRef .tc main_arg29) := host_keep hostOps5
    _ = W15 m ρ c (Proc.devRef .tc main_arg29) := W16_of_ne m ρ c main_arg29 (by decide)
    _ = W14 m ρ c (Proc.devRef .tc main_arg29) := host_keep hostOps4
    _ = W13 m ρ c (Proc.devRef .tc main_arg29) := W14_of_ne m ρ c main_arg29 (by decide)
    _ = W12 m ρ c (Proc.devRef .tc main_arg29) := host_keep hostOps3
    _ = W11 m ρ c (Proc.devRef .tc main_arg29) := W12_of_ne m ρ c main_arg29 (by decide)
    _ = W10 m ρ c (Proc.devRef .tc main_arg29) := host_keep hostOps2
    _ = W9 m ρ c (Proc.devRef .tc main_arg29) := W10_of_ne m ρ c main_arg29 (by decide)
    _ = W8 m ρ c (Proc.devRef .tc main_arg29) := host_keep hostOps1
    _ = W7 m ρ c (Proc.devRef .tc main_arg29) := W8_of_ne m ρ c main_arg29 (by decide)
    _ = W6 m ρ c (Proc.devRef .tc main_arg29) := host_keep hostOps0_6
    _ = W5 m ρ c (Proc.devRef .tc main_arg29) := host_keep hostOps0_5
    _ = W4 m ρ c (Proc.devRef .tc main_arg29) := host_keep hostOps0_4
    _ = W3 m ρ c (Proc.devRef .tc main_arg29) := host_keep hostOps0_3
    _ = W2 m ρ c (Proc.devRef .tc main_arg29) := host_keep hostOps0_2
    _ = W1 m ρ c (Proc.devRef .tc main_arg29) := host_keep hostOps0_1
    _ = W0 m ρ c (Proc.devRef .tc main_arg29) := host_keep hostOps0
    _ = m ((c : Thread nD τ).loc main_arg29) := rfl

theorem keep_v141_0_26_27 (c : Dev nD) : W27 m ρ c (Proc.devRef .tc main_v141_0) = W26 m ρ c (Proc.devRef .tc main_v141_0) :=
  calc W27 m ρ c (Proc.devRef .tc main_v141_0)
    _ = W26 m ρ c (Proc.devRef .tc main_v141_0) := host_keep hostOps10

theorem keep_arg30_0_26 (c : Dev nD) : W26 m ρ c (Proc.devRef .tc main_arg30) = m ((c : Thread nD τ).loc main_arg30) :=
  calc W26 m ρ c (Proc.devRef .tc main_arg30)
    _ = W25 m ρ c (Proc.devRef .tc main_arg30) := W26_of_ne m ρ c main_arg30 (by decide)
    _ = W24 m ρ c (Proc.devRef .tc main_arg30) := host_keep hostOps9
    _ = W23 m ρ c (Proc.devRef .tc main_arg30) := W24_of_ne m ρ c main_arg30 (by decide)
    _ = W22 m ρ c (Proc.devRef .tc main_arg30) := host_keep hostOps8
    _ = W21 m ρ c (Proc.devRef .tc main_arg30) := W22_of_ne m ρ c main_arg30 (by decide)
    _ = W20 m ρ c (Proc.devRef .tc main_arg30) := host_keep hostOps7
    _ = W19 m ρ c (Proc.devRef .tc main_arg30) := W20_of_ne m ρ c main_arg30 (by decide)
    _ = W18 m ρ c (Proc.devRef .tc main_arg30) := host_keep hostOps6
    _ = W17 m ρ c (Proc.devRef .tc main_arg30) := W18_of_ne m ρ c main_arg30 (by decide)
    _ = W16 m ρ c (Proc.devRef .tc main_arg30) := host_keep hostOps5
    _ = W15 m ρ c (Proc.devRef .tc main_arg30) := W16_of_ne m ρ c main_arg30 (by decide)
    _ = W14 m ρ c (Proc.devRef .tc main_arg30) := host_keep hostOps4
    _ = W13 m ρ c (Proc.devRef .tc main_arg30) := W14_of_ne m ρ c main_arg30 (by decide)
    _ = W12 m ρ c (Proc.devRef .tc main_arg30) := host_keep hostOps3
    _ = W11 m ρ c (Proc.devRef .tc main_arg30) := W12_of_ne m ρ c main_arg30 (by decide)
    _ = W10 m ρ c (Proc.devRef .tc main_arg30) := host_keep hostOps2
    _ = W9 m ρ c (Proc.devRef .tc main_arg30) := W10_of_ne m ρ c main_arg30 (by decide)
    _ = W8 m ρ c (Proc.devRef .tc main_arg30) := host_keep hostOps1
    _ = W7 m ρ c (Proc.devRef .tc main_arg30) := W8_of_ne m ρ c main_arg30 (by decide)
    _ = W6 m ρ c (Proc.devRef .tc main_arg30) := host_keep hostOps0_6
    _ = W5 m ρ c (Proc.devRef .tc main_arg30) := host_keep hostOps0_5
    _ = W4 m ρ c (Proc.devRef .tc main_arg30) := host_keep hostOps0_4
    _ = W3 m ρ c (Proc.devRef .tc main_arg30) := host_keep hostOps0_3
    _ = W2 m ρ c (Proc.devRef .tc main_arg30) := host_keep hostOps0_2
    _ = W1 m ρ c (Proc.devRef .tc main_arg30) := host_keep hostOps0_1
    _ = W0 m ρ c (Proc.devRef .tc main_arg30) := host_keep hostOps0
    _ = m ((c : Thread nD τ).loc main_arg30) := rfl

theorem keep_arg31_0_26 (c : Dev nD) : W26 m ρ c (Proc.devRef .tc main_arg31) = m ((c : Thread nD τ).loc main_arg31) :=
  calc W26 m ρ c (Proc.devRef .tc main_arg31)
    _ = W25 m ρ c (Proc.devRef .tc main_arg31) := W26_of_ne m ρ c main_arg31 (by decide)
    _ = W24 m ρ c (Proc.devRef .tc main_arg31) := host_keep hostOps9
    _ = W23 m ρ c (Proc.devRef .tc main_arg31) := W24_of_ne m ρ c main_arg31 (by decide)
    _ = W22 m ρ c (Proc.devRef .tc main_arg31) := host_keep hostOps8
    _ = W21 m ρ c (Proc.devRef .tc main_arg31) := W22_of_ne m ρ c main_arg31 (by decide)
    _ = W20 m ρ c (Proc.devRef .tc main_arg31) := host_keep hostOps7
    _ = W19 m ρ c (Proc.devRef .tc main_arg31) := W20_of_ne m ρ c main_arg31 (by decide)
    _ = W18 m ρ c (Proc.devRef .tc main_arg31) := host_keep hostOps6
    _ = W17 m ρ c (Proc.devRef .tc main_arg31) := W18_of_ne m ρ c main_arg31 (by decide)
    _ = W16 m ρ c (Proc.devRef .tc main_arg31) := host_keep hostOps5
    _ = W15 m ρ c (Proc.devRef .tc main_arg31) := W16_of_ne m ρ c main_arg31 (by decide)
    _ = W14 m ρ c (Proc.devRef .tc main_arg31) := host_keep hostOps4
    _ = W13 m ρ c (Proc.devRef .tc main_arg31) := W14_of_ne m ρ c main_arg31 (by decide)
    _ = W12 m ρ c (Proc.devRef .tc main_arg31) := host_keep hostOps3
    _ = W11 m ρ c (Proc.devRef .tc main_arg31) := W12_of_ne m ρ c main_arg31 (by decide)
    _ = W10 m ρ c (Proc.devRef .tc main_arg31) := host_keep hostOps2
    _ = W9 m ρ c (Proc.devRef .tc main_arg31) := W10_of_ne m ρ c main_arg31 (by decide)
    _ = W8 m ρ c (Proc.devRef .tc main_arg31) := host_keep hostOps1
    _ = W7 m ρ c (Proc.devRef .tc main_arg31) := W8_of_ne m ρ c main_arg31 (by decide)
    _ = W6 m ρ c (Proc.devRef .tc main_arg31) := host_keep hostOps0_6
    _ = W5 m ρ c (Proc.devRef .tc main_arg31) := host_keep hostOps0_5
    _ = W4 m ρ c (Proc.devRef .tc main_arg31) := host_keep hostOps0_4
    _ = W3 m ρ c (Proc.devRef .tc main_arg31) := host_keep hostOps0_3
    _ = W2 m ρ c (Proc.devRef .tc main_arg31) := host_keep hostOps0_2
    _ = W1 m ρ c (Proc.devRef .tc main_arg31) := host_keep hostOps0_1
    _ = W0 m ρ c (Proc.devRef .tc main_arg31) := host_keep hostOps0
    _ = m ((c : Thread nD τ).loc main_arg31) := rfl

theorem keep_v34_11_27 (c : Dev nD) : W27 m ρ c (Proc.devRef .tc main_v34) = W11 m ρ c (Proc.devRef .tc main_v34) :=
  calc W27 m ρ c (Proc.devRef .tc main_v34)
    _ = W26 m ρ c (Proc.devRef .tc main_v34) := host_keep hostOps10
    _ = W25 m ρ c (Proc.devRef .tc main_v34) := W26_of_ne m ρ c main_v34 (by decide)
    _ = W24 m ρ c (Proc.devRef .tc main_v34) := host_keep hostOps9
    _ = W23 m ρ c (Proc.devRef .tc main_v34) := W24_of_ne m ρ c main_v34 (by decide)
    _ = W22 m ρ c (Proc.devRef .tc main_v34) := host_keep hostOps8
    _ = W21 m ρ c (Proc.devRef .tc main_v34) := W22_of_ne m ρ c main_v34 (by decide)
    _ = W20 m ρ c (Proc.devRef .tc main_v34) := host_keep hostOps7
    _ = W19 m ρ c (Proc.devRef .tc main_v34) := W20_of_ne m ρ c main_v34 (by decide)
    _ = W18 m ρ c (Proc.devRef .tc main_v34) := host_keep hostOps6
    _ = W17 m ρ c (Proc.devRef .tc main_v34) := W18_of_ne m ρ c main_v34 (by decide)
    _ = W16 m ρ c (Proc.devRef .tc main_v34) := host_keep hostOps5
    _ = W15 m ρ c (Proc.devRef .tc main_v34) := W16_of_ne m ρ c main_v34 (by decide)
    _ = W14 m ρ c (Proc.devRef .tc main_v34) := host_keep hostOps4
    _ = W13 m ρ c (Proc.devRef .tc main_v34) := W14_of_ne m ρ c main_v34 (by decide)
    _ = W12 m ρ c (Proc.devRef .tc main_v34) := host_keep hostOps3
    _ = W11 m ρ c (Proc.devRef .tc main_v34) := W12_of_ne m ρ c main_v34 (by decide)

/-- The branch's arrays: first dense layer of the residual mix, its batch statistics, the second dense layer after
    BatchNorm and ReLU, its statistics, and the branch's contribution through its block of the combining weight. -/
def l1B (c : Dev nD) : FVec Ideal S40000x256 .f32 :=
  layer1 (aggB m ρ c) (m ((c : Thread nD τ).loc main_arg0)) (scaleOf (m ((c : Thread nD τ).loc main_arg38))) (m ((c : Thread nD τ).loc main_arg24)) (asRow (m ((c : Thread nD τ).loc main_arg25)))
def m1B (c : Dev nD) : FVec Ideal S1x256 .f32 := asRow (meanH (tileSum (l1B m ρ c)))
def v1B (c : Dev nD) : FVec Ideal S1x256 .f32 := asRow (varH (tileSum (l1B m ρ c)) (tileSumSq (l1B m ρ c)))
def l2B (c : Dev nD) : FVec Ideal S40000x256 .f32 :=
  layerBn (l1B m ρ c) (m1B m ρ c) (v1B m ρ c) (asRow (m ((c : Thread nD τ).loc main_arg26))) (asRow (m ((c : Thread nD τ).loc main_arg27))) (m ((c : Thread nD τ).loc main_arg28)) (asRow (m ((c : Thread nD τ).loc main_arg29)))
def m2B (c : Dev nD) : FVec Ideal S1x256 .f32 := asRow (meanH (tileSum (l2B m ρ c)))
def v2B (c : Dev nD) : FVec Ideal S1x256 .f32 := asRow (varH (tileSum (l2B m ρ c)) (tileSumSq (l2B m ρ c)))
def conB (c : Dev nD) : FVec Ideal S40000x256 .f32 :=
  layerBn (l2B m ρ c) (m2B m ρ c) (v2B m ρ c) (asRow (m ((c : Thread nD τ).loc main_arg30))) (asRow (m ((c : Thread nD τ).loc main_arg31))) (wcBlock2 (m ((c : Thread nD τ).loc main_arg32))) (asRow zeros256)

/-! ## The launches' inputs and outputs -/

theorem e8_0 (c : Dev nD) : V23 m ρ c main_v31 = aggB m ρ c := (keep_v31_11_23 m ρ c).trans (a_v31 m ρ c)
set_option maxHeartbeats 2000000 in
theorem e8_2 (c : Dev nD) : V23 m ρ c main_v121 = scaleOf (m ((c : Thread nD τ).loc main_arg38)) := by
  show StableHlo.after hostOps8 (W22 m ρ c) (Proc.devRef .tc main_v121) = _
  dsimp only [hostOps8]
  after_results
  all_goals (rw [keep_arg38_0_22 m ρ c])
  all_goals rfl
set_option maxHeartbeats 2000000 in
theorem e8_4 (c : Dev nD) : V23 m ρ c main_v122 = asRow (m ((c : Thread nD τ).loc main_arg25)) := by
  show StableHlo.after hostOps8 (W22 m ρ c) (Proc.devRef .tc main_v122) = _
  dsimp only [hostOps8]
  after_results
  all_goals (rw [keep_arg25_0_22 m ρ c])
  all_goals rfl
theorem e8_1 (c : Dev nD) : V23 m ρ c main_arg0 = (m ((c : Thread nD τ).loc main_arg0)) := keep_arg0_0_23 m ρ c
theorem e8_3 (c : Dev nD) : V23 m ρ c main_arg24 = (m ((c : Thread nD τ).loc main_arg24)) := keep_arg24_0_23 m ρ c
theorem o8 (c : Dev nD) : W24 m ρ c (Proc.devRef .tc main_v123_0) = l1B m ρ c :=
  (W24_arr m ρ c 5).trans ((Reg8.final (V23 m ρ) c).trans (by
    rw [e8_0 m ρ c, e8_1 m ρ c, e8_2 m ρ c, e8_3 m ρ c, e8_4 m ρ c]
    all_goals rfl))
theorem oS8 (c : Dev nD) : W24 m ρ c (Proc.devRef .tc main_v123_1) = tileSum (l1B m ρ c) :=
  (W24_arr m ρ c 6).trans ((Reg8.sfinalSum (V23 m ρ) c).trans (by
    rw [e8_0 m ρ c, e8_1 m ρ c, e8_2 m ρ c, e8_3 m ρ c, e8_4 m ρ c]
    all_goals rfl))
theorem oQ8 (c : Dev nD) : W24 m ρ c (Proc.devRef .tc main_v123_2) = tileSumSq (l1B m ρ c) :=
  (W24_arr m ρ c 7).trans ((Reg8.sfinalSumSq (V23 m ρ) c).trans (by
    rw [e8_0 m ρ c, e8_1 m ρ c, e8_2 m ρ c, e8_3 m ρ c, e8_4 m ρ c]
    all_goals rfl))
theorem e9_0 (c : Dev nD) : V25 m ρ c main_v123_0 = l1B m ρ c := (keep_v123_0_24_25 m ρ c).trans (o8 m ρ c)
set_option maxHeartbeats 2000000 in
theorem e9_1 (c : Dev nD) : V25 m ρ c main_v136 = m1B m ρ c := by
  show StableHlo.after hostOps9 (W24 m ρ c) (Proc.devRef .tc main_v136) = _
  dsimp only [hostOps9]
  after_results
  all_goals (rw [oS8 m ρ c])
  all_goals rfl
set_option maxHeartbeats 2000000 in
theorem e9_2 (c : Dev nD) : V25 m ρ c main_v137 = v1B m ρ c := by
  show StableHlo.after hostOps9 (W24 m ρ c) (Proc.devRef .tc main_v137) = _
  dsimp only [hostOps9]
  after_results
  all_goals (rw [oS8 m ρ c, oQ8 m ρ c])
  all_goals rfl
set_option maxHeartbeats 2000000 in
theorem e9_3 (c : Dev nD) : V25 m ρ c main_v138 = asRow (m ((c : Thread nD τ).loc main_arg26)) := by
  show StableHlo.after hostOps9 (W24 m ρ c) (Proc.devRef .tc main_v138) = _
  dsimp only [hostOps9]
  after_results
  all_goals (rw [keep_arg26_0_24 m ρ c])
  all_goals rfl
set_option maxHeartbeats 2000000 in
theorem e9_4 (c : Dev nD) : V25 m ρ c main_v139 = asRow (m ((c : Thread nD τ).loc main_arg27)) := by
  show StableHlo.after hostOps9 (W24 m ρ c) (Proc.devRef .tc main_v139) = _
  dsimp only [hostOps9]
  after_results
  all_goals (rw [keep_arg27_0_24 m ρ c])
  all_goals rfl
theorem e9_5 (c : Dev nD) : V25 m ρ c main_arg28 = (m ((c : Thread nD τ).loc main_arg28)) := keep_arg28_0_25 m ρ c
set_option maxHeartbeats 2000000 in
theorem e9_6 (c : Dev nD) : V25 m ρ c main_v140 = asRow (m ((c : Thread nD τ).loc main_arg29)) := by
  show StableHlo.after hostOps9 (W24 m ρ c) (Proc.devRef .tc main_v140) = _
  dsimp only [hostOps9]
  after_results
  all_goals (rw [keep_arg29_0_24 m ρ c])
  all_goals rfl
theorem o9 (c : Dev nD) : W26 m ρ c (Proc.devRef .tc main_v141_0) = l2B m ρ c :=
  (W26_arr m ρ c 7).trans ((Reg9.final (V25 m ρ) c).trans (by
    rw [e9_0 m ρ c, e9_1 m ρ c, e9_2 m ρ c, e9_3 m ρ c, e9_4 m ρ c, e9_5 m ρ c, e9_6 m ρ c]
    all_goals rfl))
theorem oS9 (c : Dev nD) : W26 m ρ c (Proc.devRef .tc main_v141_1) = tileSum (l2B m ρ c) :=
  (W26_arr m ρ c 8).trans ((Reg9.sfinalSum (V25 m ρ) c).trans (by
    rw [e9_0 m ρ c, e9_1 m ρ c, e9_2 m ρ c, e9_3 m ρ c, e9_4 m ρ c, e9_5 m ρ c, e9_6 m ρ c]
    all_goals rfl))
theorem oQ9 (c : Dev nD) : W26 m ρ c (Proc.devRef .tc main_v141_2) = tileSumSq (l2B m ρ c) :=
  (W26_arr m ρ c 9).trans ((Reg9.sfinalSumSq (V25 m ρ) c).trans (by
    rw [e9_0 m ρ c, e9_1 m ρ c, e9_2 m ρ c, e9_3 m ρ c, e9_4 m ρ c, e9_5 m ρ c, e9_6 m ρ c]
    all_goals rfl))
theorem e10_0 (c : Dev nD) : V27 m ρ c main_v141_0 = l2B m ρ c := (keep_v141_0_26_27 m ρ c).trans (o9 m ρ c)
set_option maxHeartbeats 2000000 in
theorem e10_1 (c : Dev nD) : V27 m ρ c main_v155 = m2B m ρ c := by
  show StableHlo.after hostOps10 (W26 m ρ c) (Proc.devRef .tc main_v155) = _
  dsimp only [hostOps10]
  after_results
  all_goals (rw [oS9 m ρ c])
  all_goals rfl
set_option maxHeartbeats 2000000 in
theorem e10_2 (c : Dev nD) : V27 m ρ c main_v156 = v2B m ρ c := by
  show StableHlo.after hostOps10 (W26 m ρ c) (Proc.devRef .tc main_v156) = _
  dsimp only [hostOps10]
  after_results
  all_goals (rw [oS9 m ρ c, oQ9 m ρ c])
  all_goals rfl
set_option maxHeartbeats 2000000 in
theorem e10_3 (c : Dev nD) : V27 m ρ c main_v157 = asRow (m ((c : Thread nD τ).loc main_arg30)) := by
  show StableHlo.after hostOps10 (W26 m ρ c) (Proc.devRef .tc main_v157) = _
  dsimp only [hostOps10]
  after_results
  all_goals (rw [keep_arg30_0_26 m ρ c])
  all_goals rfl
set_option maxHeartbeats 2000000 in
theorem e10_4 (c : Dev nD) : V27 m ρ c main_v158 = asRow (m ((c : Thread nD τ).loc main_arg31)) := by
  show StableHlo.after hostOps10 (W26 m ρ c) (Proc.devRef .tc main_v158) = _
  dsimp only [hostOps10]
  after_results
  all_goals (rw [keep_arg31_0_26 m ρ c])
  all_goals rfl
theorem e10_5 (c : Dev nD) : V27 m ρ c main_v34 = wcBlock2 (m ((c : Thread nD τ).loc main_arg32)) := (keep_v34_11_27 m ρ c).trans (a_v34 m ρ c)
set_option maxHeartbeats 2000000 in
theorem e10_6 (c : Dev nD) : V27 m ρ c main_v159 = asRow zeros256 := by
  show StableHlo.after hostOps10 (W26 m ρ c) (Proc.devRef .tc main_v159) = _
  dsimp only [hostOps10]
  after_results
  all_goals rfl
theorem o10 (c : Dev nD) : W28 m ρ c (Proc.devRef .tc main_v160) = conB m ρ c :=
  (W28_arr m ρ c 7).trans ((Reg10.final (V27 m ρ) c).trans (by
    rw [e10_0 m ρ c, e10_1 m ρ c, e10_2 m ρ c, e10_3 m ρ c, e10_4 m ρ c, e10_5 m ρ c, e10_6 m ρ c]
    all_goals rfl))

end Cert.KernelIdeal.Chain

end
-- ==== Proof.Region11.lean ====
/-
  The three branch contributions and the bias added, with per-block column sums and sums of squares.
-/
import proofs.«129683_j53085795779156_2_alg».proof.Proof.RegionCommon

set_option maxRecDepth 16384

noncomputable section

namespace Cert.KernelIdeal.Reg11

open Idealize.ShloMosaic Idealize.ShloMosaic.TcCoe Idealize.SL.Sem Idealize.ShloMosaic.ValueIdx
open Idealize.ShloMosaic.Pipeline (Dat)
open Cert.KernelIdeal Cert.KernelIdeal.Gen Cell Cert.KernelIdeal.RegCommon

/-- The three contributions and the bias, at an entry of the block. -/
theorem pay1 (x0 x1 x2 : Vec Ideal S5000x256 .f32) (x3 : Vec Ideal S1x256 .f32) (j : S5000x256.Idx) :
    k11_pay1 x0 x1 x2 x3 j = x0 j + x1 j + x2 j + x3 (ix2 0 (j 1)) := by
  unfold k11_pay1
  simp only [shapeCast_self]
  rw [addf_apply, addf_apply, addf_apply, bcastRow]

theorem pay2 (x0 x1 x2 : Vec Ideal S5000x256 .f32) (x3 : Vec Ideal S1x256 .f32) (y : S1x8x256.Idx) :
    k11_pay2 x0 x1 x2 x3 y = ∑ q : Fin 5000, k11_pay1 x0 x1 x2 x3 (ix2 q (y 2)) := by
  unfold k11_pay2
  simp only [shapeCast_self]
  exact colBlock _ y

theorem pay3 (x0 x1 x2 : Vec Ideal S5000x256 .f32) (x3 : Vec Ideal S1x256 .f32) (y : S1x8x256.Idx) :
    k11_pay3 x0 x1 x2 x3 y = ∑ q : Fin 5000, k11_pay1 x0 x1 x2 x3 (ix2 q (y 2)) * k11_pay1 x0 x1 x2 x3 (ix2 q (y 2)) := by
  unfold k11_pay3
  simp only [shapeCast_self]
  exact (colBlock _ y).trans (Finset.sum_congr rfl fun q _ => mulf_apply _ _ _)

variable (V : (c : Dev nD) → (b : Ref sig .tc) → Buf (Elt Ideal) ((c : Thread nD τ).loc b))

/-- The index maps over the grid. -/
theorem idxf : ∀ t : Fin cfg11.N, win11_0.index t (0 : Fin 2) = t.val
    ∧ win11_0.index t (1 : Fin 2) = 0
    ∧ win11_1.index t (0 : Fin 2) = t.val
    ∧ win11_1.index t (1 : Fin 2) = 0
    ∧ win11_2.index t (0 : Fin 2) = t.val
    ∧ win11_2.index t (1 : Fin 2) = 0
    ∧ win11_3.index t (0 : Fin 2) = 0
    ∧ win11_3.index t (1 : Fin 2) = 0
    ∧ win11_4.index t (0 : Fin 2) = t.val
    ∧ win11_4.index t (1 : Fin 2) = 0
    ∧ win11_5.index t (0 : Fin 3) = t.val
    ∧ win11_5.index t (1 : Fin 3) = 0
    ∧ win11_5.index t (2 : Fin 3) = 0
    ∧ win11_6.index t (0 : Fin 3) = t.val
    ∧ win11_6.index t (1 : Fin 3) = 0
    ∧ win11_6.index t (2 : Fin 3) = 0 :=
  (by decide +kernel : ∀ t : Fin grid11.N, _)

theorem point (c : Dev nD) (t : Fin cfg11.N) (y : S5000x256.Idx) (i : S40000x256.Idx)
    (hi0 : (i 0).val = t.val * 5000 + (y 0).val) (hi1 : (i 1).val = (y 1).val) :
    k11_pay1 (iblk11 V c 0 t) (iblk11 V c 1 t) (iblk11 V c 2 t) (iblk11 V c 3 t) y = combine (V c main_v76) (V c main_v118) (V c main_v160) (V c main_v161) i := by
  obtain ⟨e0, e1, e2, e3, e4, e5, e6, e7, e8, e9, e10, e11, e12, e13, e14, e15⟩ := idxf t
  rw [pay1]
  have hy1 : (y 1).val < 256 := (y 1).isLt
  have h0 : iblk11 V c 0 t y = V c main_v76 i := by
    show V c main_v76 (((cfg11.win 0).blk t).view.emb _) = _
    congr 1; funext a; apply Fin.ext
    match a with
    | ⟨0, _⟩ => show win11_0.index t (0 : Fin 2) * 5000 + 1 * (y 0).val = (i 0).val; omega
    | ⟨1, _⟩ => show win11_0.index t (1 : Fin 2) * 256 + 1 * (y 1).val = (i 1).val; omega
  have h1 : iblk11 V c 1 t y = V c main_v118 i := by
    show V c main_v118 (((cfg11.win 1).blk t).view.emb _) = _
    congr 1; funext a; apply Fin.ext
    match a with
    | ⟨0, _⟩ => show win11_1.index t (0 : Fin 2) * 5000 + 1 * (y 0).val = (i 0).val; omega
    | ⟨1, _⟩ => show win11_1.index t (1 : Fin 2) * 256 + 1 * (y 1).val = (i 1).val; omega
  have h2 : iblk11 V c 2 t y = V c main_v160 i := by
    show V c main_v160 (((cfg11.win 2).blk t).view.emb _) = _
    congr 1; funext a; apply Fin.ext
    match a with
    | ⟨0, _⟩ => show win11_2.index t (0 : Fin 2) * 5000 + 1 * (y 0).val = (i 0).val; omega
    | ⟨1, _⟩ => show win11_2.index t (1 : Fin 2) * 256 + 1 * (y 1).val = (i 1).val; omega
  have h3 : iblk11 V c 3 t (ix2 0 (y 1)) = V c main_v161 (ix2 0 (i 1)) := by
    show V c main_v161 (((cfg11.win 3).blk t).view.emb _) = _
    congr 1; funext a; apply Fin.ext
    match a with
    | ⟨0, _⟩ => show win11_3.index t (0 : Fin 2) * 1 + 1 * 0 = 0; omega
    | ⟨1, _⟩ => show win11_3.index t (1 : Fin 2) * 256 + 1 * (y 1).val = (i 1).val; omega
  rw [h0, h1, h2, h3]
  rfl

/-- What point `t` writes back to the row-block output is block `t` of the stage's value on the arrays as found. -/
theorem flushed (c : Dev nD) (t : Fin cfg11.N) :
    (dat11 V c).flushed 4 t = ((cfg11.win 4).blk t).view.read (Elt Ideal) (combine (V c main_v76) (V c main_v118) (V c main_v160) (V c main_v161)) := by
  show (cfg11.win 4).cut (grid11.coords t) ((dat11 V c).after 4 t) = _
  rw [after11_4]
  unfold out11_4
  rw [View.canon_unit_zero hz]
  simp only [View.ld_unit_zero (S := S5000x256) hz, View.ld_unit_zero (S := S1x256) hz]
  obtain ⟨e0, e1, e2, e3, e4, e5, e6, e7, e8, e9, e10, e11, e12, e13, e14, e15⟩ := idxf t
  funext j
  refine point V c t j (((cfg11.win 4).blk t).view.emb j) ?_ ?_
  · show win11_4.index t (0 : Fin 2) * 5000 + 1 * (j 0).val = t.val * 5000 + (j 0).val; omega
  · show win11_4.index t (1 : Fin 2) * 256 + 1 * (j 1).val = (j 1).val; omega

theorem mem_blk (t : Fin cfg11.N) (i : S40000x256.Idx) :
    i ∈ ((cfg11.win 4).blk t).view.set ↔ ∀ a : Fin 2, win11_4.index t a * S5000x256.size a ≤ (i a).val
      ∧ (i a).val < win11_4.index t a * S5000x256.size a + S5000x256.size a := by
  show i ∈ ((View.whole main_v162_0).slice (win11_4.rect t)).set ↔ _
  rw [View.set_slice_whole, Rect.mem_set_unit]
  exact Iff.rfl

/-- Every row lies in the block of the point numbered by the row's quotient by the block height. -/
theorem cover (i : S40000x256.Idx) :
    ∃ t : Fin cfg11.N, (cfg11.win 4).flush t = true ∧ i ∈ ((cfg11.win 4).blk t).view.set := by
  have hN : grid11.N = 8 := N_11
  have hi0 : (i 0).val < 40000 := (i 0).isLt
  have hi1 : (i 1).val < 256 := (i 1).isLt
  have ht : (i 0).val / 5000 < grid11.N := by rw [hN]; omega
  obtain ⟨e0, e1, e2, e3, e4, e5, e6, e7, e8, e9, e10, e11, e12, e13, e14, e15⟩ := idxf ⟨(i 0).val / 5000, ht⟩
  refine ⟨⟨(i 0).val / 5000, ht⟩, flush11_4 _, ?_⟩
  rw [mem_blk]
  intro a
  match a with
  | ⟨0, _⟩ =>
    show win11_4.index ⟨(i 0).val / 5000, ht⟩ (0 : Fin 2) * 5000 ≤ (i 0).val
      ∧ (i 0).val < win11_4.index ⟨(i 0).val / 5000, ht⟩ (0 : Fin 2) * 5000 + 5000
    rw [e8]; show (i 0).val / 5000 * 5000 ≤ (i 0).val ∧ (i 0).val < (i 0).val / 5000 * 5000 + 5000; omega
  | ⟨1, _⟩ =>
    show win11_4.index ⟨(i 0).val / 5000, ht⟩ (1 : Fin 2) * 256 ≤ (i 1).val
      ∧ (i 1).val < win11_4.index ⟨(i 0).val / 5000, ht⟩ (1 : Fin 2) * 256 + 256
    rw [e9]; omega

/-- After the launch the row-block output array is the stage's value on the arrays the launch found. -/
theorem final (c : Dev nD) : (dat11 V c).arrAt 4 cfg11.N = combine (V c main_v76) (V c main_v118) (V c main_v160) (V c main_v161) :=
  (dat11 V c).arrAt_eq_of_cover 4 _ (fun t _ => flushed V c t) cover

/-- At a point, a statistics block entry is the tile statistic of the stage's value at the tile the point numbers. -/
theorem spointSum (c : Dev nD) (t : Fin cfg11.N) (y : S1x8x256.Idx) (i : S8x8x256.Idx)
    (hi0 : (i 0).val = t.val) (hi2 : (i 2).val = (y 2).val) :
    k11_pay2 (iblk11 V c 0 t) (iblk11 V c 1 t) (iblk11 V c 2 t) (iblk11 V c 3 t) y = tileSum (combine (V c main_v76) (V c main_v118) (V c main_v160) (V c main_v161)) i := by
  rw [pay2]
  unfold tileSum
  refine Finset.sum_congr rfl fun q _ => ?_
  have hp := point V c t (ix2 q (y 2)) (ix2 (tileRow (i 0) q) (i 2))
    (by show (i 0).val * 5000 + q.val = t.val * 5000 + q.val; rw [hi0]) hi2
  exact hp

theorem sflushedSum (c : Dev nD) (t : Fin cfg11.N) :
    (dat11 V c).flushed 5 t = ((cfg11.win 5).blk t).view.read (Elt Ideal) (tileSum (combine (V c main_v76) (V c main_v118) (V c main_v160) (V c main_v161))) := by
  show (cfg11.win 5).cut (grid11.coords t) ((dat11 V c).after 5 t) = _
  rw [after11_5]
  unfold out11_5
  rw [View.canon_unit_zero hz3]
  simp only [View.ld_unit_zero (S := S5000x256) hz, View.ld_unit_zero (S := S1x256) hz]
  obtain ⟨e0, e1, e2, e3, e4, e5, e6, e7, e8, e9, e10, e11, e12, e13, e14, e15⟩ := idxf t
  funext j
  refine spointSum V c t j (((cfg11.win 5).blk t).view.emb j) ?_ ?_
  · have hj : (j 0).val < 1 := (j 0).isLt
    show win11_5.index t (0 : Fin 3) * 1 + 1 * (j 0).val = t.val; omega
  · show win11_5.index t (2 : Fin 3) * 256 + 1 * (j 2).val = (j 2).val; omega

theorem smem_blkSum (t : Fin cfg11.N) (i : S8x8x256.Idx) :
    i ∈ ((cfg11.win 5).blk t).view.set ↔ ∀ a : Fin 3, win11_5.index t a * S1x8x256.size a ≤ (i a).val
      ∧ (i a).val < win11_5.index t a * S1x8x256.size a + S1x8x256.size a := by
  show i ∈ ((View.whole main_v162_1).slice (win11_5.rect t)).set ↔ _
  rw [View.set_slice_whole, Rect.mem_set_unit]
  exact Iff.rfl

theorem scoverSum (i : S8x8x256.Idx) :
    ∃ t : Fin cfg11.N, (cfg11.win 5).flush t = true ∧ i ∈ ((cfg11.win 5).blk t).view.set := by
  have hN : grid11.N = 8 := N_11
  have hi0 : (i 0).val < 8 := (i 0).isLt
  have hi1 : (i 1).val < 8 := (i 1).isLt
  have hi2 : (i 2).val < 256 := (i 2).isLt
  have ht : (i 0).val < grid11.N := by rw [hN]; omega
  obtain ⟨e0, e1, e2, e3, e4, e5, e6, e7, e8, e9, e10, e11, e12, e13, e14, e15⟩ := idxf ⟨(i 0).val, ht⟩
  refine ⟨⟨(i 0).val, ht⟩, flush11_5 _, ?_⟩
  rw [smem_blkSum]
  intro a
  match a with
  | ⟨0, _⟩ =>
    show win11_5.index ⟨(i 0).val, ht⟩ (0 : Fin 3) * 1 ≤ (i 0).val
      ∧ (i 0).val < win11_5.index ⟨(i 0).val, ht⟩ (0 : Fin 3) * 1 + 1
    rw [e10]; show (i 0).val * 1 ≤ (i 0).val ∧ (i 0).val < (i 0).val * 1 + 1; omega
  | ⟨1, _⟩ =>
    show win11_5.index ⟨(i 0).val, ht⟩ (1 : Fin 3) * 8 ≤ (i 1).val
      ∧ (i 1).val < win11_5.index ⟨(i 0).val, ht⟩ (1 : Fin 3) * 8 + 8
    rw [e11]; omega
  | ⟨2, _⟩ =>
    show win11_5.index ⟨(i 0).val, ht⟩ (2 : Fin 3) * 256 ≤ (i 2).val
      ∧ (i 2).val < win11_5.index ⟨(i 0).val, ht⟩ (2 : Fin 3) * 256 + 256
    rw [e12]; omega

/-- After the launch the statistics array holds, per tile, the tile statistic of the stage's value. -/
theorem sfinalSum (c : Dev nD) : (dat11 V c).arrAt 5 cfg11.N = tileSum (combine (V c main_v76) (V c main_v118) (V c main_v160) (V c main_v161)) :=
  (dat11 V c).arrAt_eq_of_cover 5 _ (fun t _ => sflushedSum V c t) scoverSum

/-- At a point, a statistics block entry is the tile statistic of the stage's value at the tile the point numbers. -/
theorem spointSumSq (c : Dev nD) (t : Fin cfg11.N) (y : S1x8x256.Idx) (i : S8x8x256.Idx)
    (hi0 : (i 0).val = t.val) (hi2 : (i 2).val = (y 2).val) :
    k11_pay3 (iblk11 V c 0 t) (iblk11 V c 1 t) (iblk11 V c 2 t) (iblk11 V c 3 t) y = tileSumSq (combine (V c main_v76) (V c main_v118) (V c main_v160) (V c main_v161)) i := by
  rw [pay3]
  unfold tileSumSq
  refine Finset.sum_congr rfl fun q _ => ?_
  have hp := point V c t (ix2 q (y 2)) (ix2 (tileRow (i 0) q) (i 2))
    (by show (i 0).val * 5000 + q.val = t.val * 5000 + q.val; rw [hi0]) hi2
  rw [hp]

theorem sflushedSumSq (c : Dev nD) (t : Fin cfg11.N) :
    (dat11 V c).flushed 6 t = ((cfg11.win 6).blk t).view.read (Elt Ideal) (tileSumSq (combine (V c main_v76) (V c main_v118) (V c main_v160) (V c main_v161))) := by
  show (cfg11.win 6).cut (grid11.coords t) ((dat11 V c).after 6 t) = _
  rw [after11_6]
  unfold out11_6
  rw [View.canon_unit_zero hz3]
  simp only [View.ld_unit_zero (S := S5000x256) hz, View.ld_unit_zero (S := S1x256) hz]
  obtain ⟨e0, e1, e2, e3, e4, e5, e6, e7, e8, e9, e10, e11, e12, e13, e14, e15⟩ := idxf t
  funext j
  refine spointSumSq V c t j (((cfg11.win 6).blk t).view.emb j) ?_ ?_
  · have hj : (j 0).val < 1 := (j 0).isLt
    show win11_6.index t (0 : Fin 3) * 1 + 1 * (j 0).val = t.val; omega
  · show win11_6.index t (2 : Fin 3) * 256 + 1 * (j 2).val = (j 2).val; omega

theorem smem_blkSumSq (t : Fin cfg11.N) (i : S8x8x256.Idx) :
    i ∈ ((cfg11.win 6).blk t).view.set ↔ ∀ a : Fin 3, win11_6.index t a * S1x8x256.size a ≤ (i a).val
      ∧ (i a).val < win11_6.index t a * S1x8x256.size a + S1x8x256.size a := by
  show i ∈ ((View.whole main_v162_2).slice (win11_6.rect t)).set ↔ _
  rw [View.set_slice_whole, Rect.mem_set_unit]
  exact Iff.rfl

theorem scoverSumSq (i : S8x8x256.Idx) :
    ∃ t : Fin cfg11.N, (cfg11.win 6).flush t = true ∧ i ∈ ((cfg11.win 6).blk t).view.set := by
  have hN : grid11.N = 8 := N_11
  have hi0 : (i 0).val < 8 := (i 0).isLt
  have hi1 : (i 1).val < 8 := (i 1).isLt
  have hi2 : (i 2).val < 256 := (i 2).isLt
  have ht : (i 0).val < grid11.N := by rw [hN]; omega
  obtain ⟨e0, e1, e2, e3, e4, e5, e6, e7, e8, e9, e10, e11, e12, e13, e14, e15⟩ := idxf ⟨(i 0).val, ht⟩
  refine ⟨⟨(i 0).val, ht⟩, flush11_6 _, ?_⟩
  rw [smem_blkSumSq]
  intro a
  match a with
  | ⟨0, _⟩ =>
    show win11_6.index ⟨(i 0).val, ht⟩ (0 : Fin 3) * 1 ≤ (i 0).val
      ∧ (i 0).val < win11_6.index ⟨(i 0).val, ht⟩ (0 : Fin 3) * 1 + 1
    rw [e13]; show (i 0).val * 1 ≤ (i 0).val ∧ (i 0).val < (i 0).val * 1 + 1; omega
  | ⟨1, _⟩ =>
    show win11_6.index ⟨(i 0).val, ht⟩ (1 : Fin 3) * 8 ≤ (i 1).val
      ∧ (i 1).val < win11_6.index ⟨(i 0).val, ht⟩ (1 : Fin 3) * 8 + 8
    rw [e14]; omega
  | ⟨2, _⟩ =>
    show win11_6.index ⟨(i 0).val, ht⟩ (2 : Fin 3) * 256 ≤ (i 2).val
      ∧ (i 2).val < win11_6.index ⟨(i 0).val, ht⟩ (2 : Fin 3) * 256 + 256
    rw [e15]; omega

/-- After the launch the statistics array holds, per tile, the tile statistic of the stage's value. -/
theorem sfinalSumSq (c : Dev nD) : (dat11 V c).arrAt 6 cfg11.N = tileSumSq (combine (V c main_v76) (V c main_v118) (V c main_v160) (V c main_v161)) :=
  (dat11 V c).arrAt_eq_of_cover 6 _ (fun t _ => sflushedSumSq V c t) scoverSumSq

end Cert.KernelIdeal.Reg11

end
-- ==== Proof.Region12.lean ====
/-
  The final BatchNorm with given statistics, then ReLU.
-/
import proofs.«129683_j53085795779156_2_alg».proof.Proof.RegionCommon

set_option maxRecDepth 16384

noncomputable section

namespace Cert.KernelIdeal.Reg12

open Idealize.ShloMosaic Idealize.ShloMosaic.TcCoe Idealize.SL.Sem Idealize.ShloMosaic.ValueIdx
open Idealize.ShloMosaic.Pipeline (Dat)
open Cert.KernelIdeal Cert.KernelIdeal.Gen Cell Cert.KernelIdeal.RegCommon

/-- BatchNorm then ReLU, at an entry of the block. -/
theorem pay1 (x0 : Vec Ideal S5000x256 .f32) (x1 x2 x3 x4 : Vec Ideal S1x256 .f32) (j : S5000x256.Idx) :
    k12_pay1 x0 x1 x2 x3 x4 j
      = max (x3 (ix2 0 (j 1)) * (x0 j - x1 (ix2 0 (j 1))) * Ideal.rsqrt (x2 (ix2 0 (j 1)) + bnEps) + x4 (ix2 0 (j 1))) 0 := by
  unfold k12_pay1
  simp only [shapeCast_self]
  rw [maximumf_apply, addf_apply, mulf_apply, mulf_apply, subf_apply, bcastRow, bcastRow, bcastRow, bcastRow, broadcast_apply]
  show max (x3 (ix2 0 (j 1)) * (x0 j - x1 (ix2 0 (j 1))) * Ideal.rsqrt (x2 (ix2 0 (j 1)) + Ideal.ofBits .f32 0x3727C5AC#32) + x4 (ix2 0 (j 1)))
      (Ideal.ofBits .f32 0x00000000#32) = _
  rw [Ideal.ofBits_zero_f32]

variable (V : (c : Dev nD) → (b : Ref sig .tc) → Buf (Elt Ideal) ((c : Thread nD τ).loc b))

/-- The index maps over the grid. -/
theorem idxf : ∀ t : Fin cfg12.N, win12_0.index t (0 : Fin 2) = t.val
    ∧ win12_0.index t (1 : Fin 2) = 0
    ∧ win12_1.index t (0 : Fin 2) = 0
    ∧ win12_1.index t (1 : Fin 2) = 0
    ∧ win12_2.index t (0 : Fin 2) = 0
    ∧ win12_2.index t (1 : Fin 2) = 0
    ∧ win12_3.index t (0 : Fin 2) = 0
    ∧ win12_3.index t (1 : Fin 2) = 0
    ∧ win12_4.index t (0 : Fin 2) = 0
    ∧ win12_4.index t (1 : Fin 2) = 0
    ∧ win12_5.index t (0 : Fin 2) = t.val
    ∧ win12_5.index t (1 : Fin 2) = 0 :=
  (by decide +kernel : ∀ t : Fin grid12.N, _)

theorem point (c : Dev nD) (t : Fin cfg12.N) (y : S5000x256.Idx) (i : S40000x256.Idx)
    (hi0 : (i 0).val = t.val * 5000 + (y 0).val) (hi1 : (i 1).val = (y 1).val) :
    k12_pay1 (iblk12 V c 0 t) (iblk12 V c 1 t) (iblk12 V c 2 t) (iblk12 V c 3 t) (iblk12 V c 4 t) y = outBn (V c main_v162_0) (V c main_v175) (V c main_v176) (V c main_v177) (V c main_v178) i := by
  obtain ⟨e0, e1, e2, e3, e4, e5, e6, e7, e8, e9, e10, e11⟩ := idxf t
  rw [pay1]
  have hy1 : (y 1).val < 256 := (y 1).isLt
  have h0 : iblk12 V c 0 t y = V c main_v162_0 i := by
    show V c main_v162_0 (((cfg12.win 0).blk t).view.emb _) = _
    congr 1; funext a; apply Fin.ext
    match a with
    | ⟨0, _⟩ => show win12_0.index t (0 : Fin 2) * 5000 + 1 * (y 0).val = (i 0).val; omega
    | ⟨1, _⟩ => show win12_0.index t (1 : Fin 2) * 256 + 1 * (y 1).val = (i 1).val; omega
  have h1 : iblk12 V c 1 t (ix2 0 (y 1)) = V c main_v175 (ix2 0 (i 1)) := by
    show V c main_v175 (((cfg12.win 1).blk t).view.emb _) = _
    congr 1; funext a; apply Fin.ext
    match a with
    | ⟨0, _⟩ => show win12_1.index t (0 : Fin 2) * 1 + 1 * 0 = 0; omega
    | ⟨1, _⟩ => show win12_1.index t (1 : Fin 2) * 256 + 1 * (y 1).val = (i 1).val; omega
  have h2 : iblk12 V c 2 t (ix2 0 (y 1)) = V c main_v176 (ix2 0 (i 1)) := by
    show V c main_v176 (((cfg12.win 2).blk t).view.emb _) = _
    congr 1; funext a; apply Fin.ext
    match a with
    | ⟨0, _⟩ => show win12_2.index t (0 : Fin 2) * 1 + 1 * 0 = 0; omega
    | ⟨1, _⟩ => show win12_2.index t (1 : Fin 2) * 256 + 1 * (y 1).val = (i 1).val; omega
  have h3 : iblk12 V c 3 t (ix2 0 (y 1)) = V c main_v177 (ix2 0 (i 1)) := by
    show V c main_v177 (((cfg12.win 3).blk t).view.emb _) = _
    congr 1; funext a; apply Fin.ext
    match a with
    | ⟨0, _⟩ => show win12_3.index t (0 : Fin 2) * 1 + 1 * 0 = 0; omega
    | ⟨1, _⟩ => show win12_3.index t (1 : Fin 2) * 256 + 1 * (y 1).val = (i 1).val; omega
  have h4 : iblk12 V c 4 t (ix2 0 (y 1)) = V c main_v178 (ix2 0 (i 1)) := by
    show V c main_v178 (((cfg12.win 4).blk t).view.emb _) = _
    congr 1; funext a; apply Fin.ext
    match a with
    | ⟨0, _⟩ => show win12_4.index t (0 : Fin 2) * 1 + 1 * 0 = 0; omega
    | ⟨1, _⟩ => show win12_4.index t (1 : Fin 2) * 256 + 1 * (y 1).val = (i 1).val; omega
  rw [h0, h1, h2, h3, h4]
  rfl

/-- What point `t` writes back to the row-block output is block `t` of the stage's value on the arrays as found. -/
theorem flushed (c : Dev nD) (t : Fin cfg12.N) :
    (dat12 V c).flushed 5 t = ((cfg12.win 5).blk t).view.read (Elt Ideal) (outBn (V c main_v162_0) (V c main_v175) (V c main_v176) (V c main_v177) (V c main_v178)) := by
  show (cfg12.win 5).cut (grid12.coords t) ((dat12 V c).after 5 t) = _
  rw [after12_5]
  unfold out12_5
  rw [View.canon_unit_zero hz]
  simp only [View.ld_unit_zero (S := S5000x256) hz, View.ld_unit_zero (S := S1x256) hz]
  obtain ⟨e0, e1, e2, e3, e4, e5, e6, e7, e8, e9, e10, e11⟩ := idxf t
  funext j
  refine point V c t j (((cfg12.win 5).blk t).view.emb j) ?_ ?_
  · show win12_5.index t (0 : Fin 2) * 5000 + 1 * (j 0).val = t.val * 5000 + (j 0).val; omega
  · show win12_5.index t (1 : Fin 2) * 256 + 1 * (j 1).val = (j 1).val; omega

theorem mem_blk (t : Fin cfg12.N) (i : S40000x256.Idx) :
    i ∈ ((cfg12.win 5).blk t).view.set ↔ ∀ a : Fin 2, win12_5.index t a * S5000x256.size a ≤ (i a).val
      ∧ (i a).val < win12_5.index t a * S5000x256.size a + S5000x256.size a := by
  show i ∈ ((View.whole main_v179).slice (win12_5.rect t)).set ↔ _
  rw [View.set_slice_whole, Rect.mem_set_unit]
  exact Iff.rfl

/-- Every row lies in the block of the point numbered by the row's quotient by the block height. -/
theorem cover (i : S40000x256.Idx) :
    ∃ t : Fin cfg12.N, (cfg12.win 5).flush t = true ∧ i ∈ ((cfg12.win 5).blk t).view.set := by
  have hN : grid12.N = 8 := N_12
  have hi0 : (i 0).val < 40000 := (i 0).isLt
  have hi1 : (i 1).val < 256 := (i 1).isLt
  have ht : (i 0).val / 5000 < grid12.N := by rw [hN]; omega
  obtain ⟨e0, e1, e2, e3, e4, e5, e6, e7, e8, e9, e10, e11⟩ := idxf ⟨(i 0).val / 5000, ht⟩
  refine ⟨⟨(i 0).val / 5000, ht⟩, flush12_5 _, ?_⟩
  rw [mem_blk]
  intro a
  match a with
  | ⟨0, _⟩ =>
    show win12_5.index ⟨(i 0).val / 5000, ht⟩ (0 : Fin 2) * 5000 ≤ (i 0).val
      ∧ (i 0).val < win12_5.index ⟨(i 0).val / 5000, ht⟩ (0 : Fin 2) * 5000 + 5000
    rw [e10]; show (i 0).val / 5000 * 5000 ≤ (i 0).val ∧ (i 0).val < (i 0).val / 5000 * 5000 + 5000; omega
  | ⟨1, _⟩ =>
    show win12_5.index ⟨(i 0).val / 5000, ht⟩ (1 : Fin 2) * 256 ≤ (i 1).val
      ∧ (i 1).val < win12_5.index ⟨(i 0).val / 5000, ht⟩ (1 : Fin 2) * 256 + 256
    rw [e11]; omega

/-- After the launch the row-block output array is the stage's value on the arrays the launch found. -/
theorem final (c : Dev nD) : (dat12 V c).arrAt 5 cfg12.N = outBn (V c main_v162_0) (V c main_v175) (V c main_v176) (V c main_v177) (V c main_v178) :=
  (dat12 V c).arrAt_eq_of_cover 5 _ (fun t _ => flushed V c t) cover

end Cert.KernelIdeal.Reg12

end
-- ==== Proof.ChainH.lean ====
/-
  The head followed through its two launches: the three contributions and the bias added with their statistics, then the last BatchNorm and ReLU; the result buffer ends at the layer's output.
-/
import proofs.«129683_j53085795779156_2_alg».proof.Proof.ChainU
import proofs.«129683_j53085795779156_2_alg».proof.Proof.ChainD
import proofs.«129683_j53085795779156_2_alg».proof.Proof.ChainB
import proofs.«129683_j53085795779156_2_alg».proof.Proof.Region11
import proofs.«129683_j53085795779156_2_alg».proof.Proof.Region12

set_option maxRecDepth 16384

noncomputable section

namespace Cert.KernelIdeal.Chain

open Idealize.ShloMosaic Idealize.ShloMosaic.TcCoe Idealize.SL.Sem Idealize.ShloMosaic.ValueIdx
open Idealize.ShloMosaic.Pipeline (Dat)
open Cert.KernelIdeal Cert.KernelIdeal.Gen Cell Cert.KernelIdeal.RegCommon Cert.KernelIdeal.HostGlue

variable (m : (ℓ : Loc nD τ sig) → Buf (Elt Ideal) ℓ) (ρ : Dev nD → PrngReg)

/-- No operation of a host stretch writes the buffer, so the stretch leaves it as it was. -/
local macro "host_keep" ops:ident : term => `(StableHlo.after_of_forall_not_mem _ _ (List.forall_iff_forall_mem.mp (by
  simp only [$ops:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide))))

/-! ## Buffers that no step in between writes keep their contents -/

theorem keep_v76_16_29 (c : Dev nD) : W29 m ρ c (Proc.devRef .tc main_v76) = W16 m ρ c (Proc.devRef .tc main_v76) :=
  calc W29 m ρ c (Proc.devRef .tc main_v76)
    _ = W28 m ρ c (Proc.devRef .tc main_v76) := host_keep hostOps11
    _ = W27 m ρ c (Proc.devRef .tc main_v76) := W28_of_ne m ρ c main_v76 (by decide)
    _ = W26 m ρ c (Proc.devRef .tc main_v76) := host_keep hostOps10
    _ = W25 m ρ c (Proc.devRef .tc main_v76) := W26_of_ne m ρ c main_v76 (by decide)
    _ = W24 m ρ c (Proc.devRef .tc main_v76) := host_keep hostOps9
    _ = W23 m ρ c (Proc.devRef .tc main_v76) := W24_of_ne m ρ c main_v76 (by decide)
    _ = W22 m ρ c (Proc.devRef .tc main_v76) := host_keep hostOps8
    _ = W21 m ρ c (Proc.devRef .tc main_v76) := W22_of_ne m ρ c main_v76 (by decide)
    _ = W20 m ρ c (Proc.devRef .tc main_v76) := host_keep hostOps7
    _ = W19 m ρ c (Proc.devRef .tc main_v76) := W20_of_ne m ρ c main_v76 (by decide)
    _ = W18 m ρ c (Proc.devRef .tc main_v76) := host_keep hostOps6
    _ = W17 m ρ c (Proc.devRef .tc main_v76) := W18_of_ne m ρ c main_v76 (by decide)
    _ = W16 m ρ c (Proc.devRef .tc main_v76) := host_keep hostOps5

theorem keep_v118_22_29 (c : Dev nD) : W29 m ρ c (Proc.devRef .tc main_v118) = W22 m ρ c (Proc.devRef .tc main_v118) :=
  calc W29 m ρ c (Proc.devRef .tc main_v118)
    _ = W28 m ρ c (Proc.devRef .tc main_v118) := host_keep hostOps11
    _ = W27 m ρ c (Proc.devRef .tc main_v118) := W28_of_ne m ρ c main_v118 (by decide)
    _ = W26 m ρ c (Proc.devRef .tc main_v118) := host_keep hostOps10
    _ = W25 m ρ c (Proc.devRef .tc main_v118) := W26_of_ne m ρ c main_v118 (by decide)
    _ = W24 m ρ c (Proc.devRef .tc main_v118) := host_keep hostOps9
    _ = W23 m ρ c (Proc.devRef .tc main_v118) := W24_of_ne m ρ c main_v118 (by decide)
    _ = W22 m ρ c (Proc.devRef .tc main_v118) := host_keep hostOps8

theorem keep_v160_28_29 (c : Dev nD) : W29 m ρ c (Proc.devRef .tc main_v160) = W28 m ρ c (Proc.devRef .tc main_v160) :=
  calc W29 m ρ c (Proc.devRef .tc main_v160)
    _ = W28 m ρ c (Proc.devRef .tc main_v160) := host_keep hostOps11

theorem keep_arg33_0_28 (c : Dev nD) : W28 m ρ c (Proc.devRef .tc main_arg33) = m ((c : Thread nD τ).loc main_arg33) :=
  calc W28 m ρ c (Proc.devRef .tc main_arg33)
    _ = W27 m ρ c (Proc.devRef .tc main_arg33) := W28_of_ne m ρ c main_arg33 (by decide)
    _ = W26 m ρ c (Proc.devRef .tc main_arg33) := host_keep hostOps10
    _ = W25 m ρ c (Proc.devRef .tc main_arg33) := W26_of_ne m ρ c main_arg33 (by decide)
    _ = W24 m ρ c (Proc.devRef .tc main_arg33) := host_keep hostOps9
    _ = W23 m ρ c (Proc.devRef .tc main_arg33) := W24_of_ne m ρ c main_arg33 (by decide)
    _ = W22 m ρ c (Proc.devRef .tc main_arg33) := host_keep hostOps8
    _ = W21 m ρ c (Proc.devRef .tc main_arg33) := W22_of_ne m ρ c main_arg33 (by decide)
    _ = W20 m ρ c (Proc.devRef .tc main_arg33) := host_keep hostOps7
    _ = W19 m ρ c (Proc.devRef .tc main_arg33) := W20_of_ne m ρ c main_arg33 (by decide)
    _ = W18 m ρ c (Proc.devRef .tc main_arg33) := host_keep hostOps6
    _ = W17 m ρ c (Proc.devRef .tc main_arg33) := W18_of_ne m ρ c main_arg33 (by decide)
    _ = W16 m ρ c (Proc.devRef .tc main_arg33) := host_keep hostOps5
    _ = W15 m ρ c (Proc.devRef .tc main_arg33) := W16_of_ne m ρ c main_arg33 (by decide)
    _ = W14 m ρ c (Proc.devRef .tc main_arg33) := host_keep hostOps4
    _ = W13 m ρ c (Proc.devRef .tc main_arg33) := W14_of_ne m ρ c main_arg33 (by decide)
    _ = W12 m ρ c (Proc.devRef .tc main_arg33) := host_keep hostOps3
    _ = W11 m ρ c (Proc.devRef .tc main_arg33) := W12_of_ne m ρ c main_arg33 (by decide)
    _ = W10 m ρ c (Proc.devRef .tc main_arg33) := host_keep hostOps2
    _ = W9 m ρ c (Proc.devRef .tc main_arg33) := W10_of_ne m ρ c main_arg33 (by decide)
    _ = W8 m ρ c (Proc.devRef .tc main_arg33) := host_keep hostOps1
    _ = W7 m ρ c (Proc.devRef .tc main_arg33) := W8_of_ne m ρ c main_arg33 (by decide)
    _ = W6 m ρ c (Proc.devRef .tc main_arg33) := host_keep hostOps0_6
    _ = W5 m ρ c (Proc.devRef .tc main_arg33) := host_keep hostOps0_5
    _ = W4 m ρ c (Proc.devRef .tc main_arg33) := host_keep hostOps0_4
    _ = W3 m ρ c (Proc.devRef .tc main_arg33) := host_keep hostOps0_3
    _ = W2 m ρ c (Proc.devRef .tc main_arg33) := host_keep hostOps0_2
    _ = W1 m ρ c (Proc.devRef .tc main_arg33) := host_keep hostOps0_1
    _ = W0 m ρ c (Proc.devRef .tc main_arg33) := host_keep hostOps0
    _ = m ((c : Thread nD τ).loc main_arg33) := rfl

theorem keep_v162_0_30_31 (c : Dev nD) : W31 m ρ c (Proc.devRef .tc main_v162_0) = W30 m ρ c (Proc.devRef .tc main_v162_0) :=
  calc W31 m ρ c (Proc.devRef .tc main_v162_0)
    _ = W30 m ρ c (Proc.devRef .tc main_v162_0) := host_keep hostOps12

theorem keep_arg34_0_30 (c : Dev nD) : W30 m ρ c (Proc.devRef .tc main_arg34) = m ((c : Thread nD τ).loc main_arg34) :=
  calc W30 m ρ c (Proc.devRef .tc main_arg34)
    _ = W29 m ρ c (Proc.devRef .tc main_arg34) := W30_of_ne m ρ c main_arg34 (by decide)
    _ = W28 m ρ c (Proc.devRef .tc main_arg34) := host_keep hostOps11
    _ = W27 m ρ c (Proc.devRef .tc main_arg34) := W28_of_ne m ρ c main_arg34 (by decide)
    _ = W26 m ρ c (Proc.devRef .tc main_arg34) := host_keep hostOps10
    _ = W25 m ρ c (Proc.devRef .tc main_arg34) := W26_of_ne m ρ c main_arg34 (by decide)
    _ = W24 m ρ c (Proc.devRef .tc main_arg34) := host_keep hostOps9
    _ = W23 m ρ c (Proc.devRef .tc main_arg34) := W24_of_ne m ρ c main_arg34 (by decide)
    _ = W22 m ρ c (Proc.devRef .tc main_arg34) := host_keep hostOps8
    _ = W21 m ρ c (Proc.devRef .tc main_arg34) := W22_of_ne m ρ c main_arg34 (by decide)
    _ = W20 m ρ c (Proc.devRef .tc main_arg34) := host_keep hostOps7
    _ = W19 m ρ c (Proc.devRef .tc main_arg34) := W20_of_ne m ρ c main_arg34 (by decide)
    _ = W18 m ρ c (Proc.devRef .tc main_arg34) := host_keep hostOps6
    _ = W17 m ρ c (Proc.devRef .tc main_arg34) := W18_of_ne m ρ c main_arg34 (by decide)
    _ = W16 m ρ c (Proc.devRef .tc main_arg34) := host_keep hostOps5
    _ = W15 m ρ c (Proc.devRef .tc main_arg34) := W16_of_ne m ρ c main_arg34 (by decide)
    _ = W14 m ρ c (Proc.devRef .tc main_arg34) := host_keep hostOps4
    _ = W13 m ρ c (Proc.devRef .tc main_arg34) := W14_of_ne m ρ c main_arg34 (by decide)
    _ = W12 m ρ c (Proc.devRef .tc main_arg34) := host_keep hostOps3
    _ = W11 m ρ c (Proc.devRef .tc main_arg34) := W12_of_ne m ρ c main_arg34 (by decide)
    _ = W10 m ρ c (Proc.devRef .tc main_arg34) := host_keep hostOps2
    _ = W9 m ρ c (Proc.devRef .tc main_arg34) := W10_of_ne m ρ c main_arg34 (by decide)
    _ = W8 m ρ c (Proc.devRef .tc main_arg34) := host_keep hostOps1
    _ = W7 m ρ c (Proc.devRef .tc main_arg34) := W8_of_ne m ρ c main_arg34 (by decide)
    _ = W6 m ρ c (Proc.devRef .tc main_arg34) := host_keep hostOps0_6
    _ = W5 m ρ c (Proc.devRef .tc main_arg34) := host_keep hostOps0_5
    _ = W4 m ρ c (Proc.devRef .tc main_arg34) := host_keep hostOps0_4
    _ = W3 m ρ c (Proc.devRef .tc main_arg34) := host_keep hostOps0_3
    _ = W2 m ρ c (Proc.devRef .tc main_arg34) := host_keep hostOps0_2
    _ = W1 m ρ c (Proc.devRef .tc main_arg34) := host_keep hostOps0_1
    _ = W0 m ρ c (Proc.devRef .tc main_arg34) := host_keep hostOps0
    _ = m ((c : Thread nD τ).loc main_arg34) := rfl

theorem keep_arg35_0_30 (c : Dev nD) : W30 m ρ c (Proc.devRef .tc main_arg35) = m ((c : Thread nD τ).loc main_arg35) :=
  calc W30 m ρ c (Proc.devRef .tc main_arg35)
    _ = W29 m ρ c (Proc.devRef .tc main_arg35) := W30_of_ne m ρ c main_arg35 (by decide)
    _ = W28 m ρ c (Proc.devRef .tc main_arg35) := host_keep hostOps11
    _ = W27 m ρ c (Proc.devRef .tc main_arg35) := W28_of_ne m ρ c main_arg35 (by decide)
    _ = W26 m ρ c (Proc.devRef .tc main_arg35) := host_keep hostOps10
    _ = W25 m ρ c (Proc.devRef .tc main_arg35) := W26_of_ne m ρ c main_arg35 (by decide)
    _ = W24 m ρ c (Proc.devRef .tc main_arg35) := host_keep hostOps9
    _ = W23 m ρ c (Proc.devRef .tc main_arg35) := W24_of_ne m ρ c main_arg35 (by decide)
    _ = W22 m ρ c (Proc.devRef .tc main_arg35) := host_keep hostOps8
    _ = W21 m ρ c (Proc.devRef .tc main_arg35) := W22_of_ne m ρ c main_arg35 (by decide)
    _ = W20 m ρ c (Proc.devRef .tc main_arg35) := host_keep hostOps7
    _ = W19 m ρ c (Proc.devRef .tc main_arg35) := W20_of_ne m ρ c main_arg35 (by decide)
    _ = W18 m ρ c (Proc.devRef .tc main_arg35) := host_keep hostOps6
    _ = W17 m ρ c (Proc.devRef .tc main_arg35) := W18_of_ne m ρ c main_arg35 (by decide)
    _ = W16 m ρ c (Proc.devRef .tc main_arg35) := host_keep hostOps5
    _ = W15 m ρ c (Proc.devRef .tc main_arg35) := W16_of_ne m ρ c main_arg35 (by decide)
    _ = W14 m ρ c (Proc.devRef .tc main_arg35) := host_keep hostOps4
    _ = W13 m ρ c (Proc.devRef .tc main_arg35) := W14_of_ne m ρ c main_arg35 (by decide)
    _ = W12 m ρ c (Proc.devRef .tc main_arg35) := host_keep hostOps3
    _ = W11 m ρ c (Proc.devRef .tc main_arg35) := W12_of_ne m ρ c main_arg35 (by decide)
    _ = W10 m ρ c (Proc.devRef .tc main_arg35) := host_keep hostOps2
    _ = W9 m ρ c (Proc.devRef .tc main_arg35) := W10_of_ne m ρ c main_arg35 (by decide)
    _ = W8 m ρ c (Proc.devRef .tc main_arg35) := host_keep hostOps1
    _ = W7 m ρ c (Proc.devRef .tc main_arg35) := W8_of_ne m ρ c main_arg35 (by decide)
    _ = W6 m ρ c (Proc.devRef .tc main_arg35) := host_keep hostOps0_6
    _ = W5 m ρ c (Proc.devRef .tc main_arg35) := host_keep hostOps0_5
    _ = W4 m ρ c (Proc.devRef .tc main_arg35) := host_keep hostOps0_4
    _ = W3 m ρ c (Proc.devRef .tc main_arg35) := host_keep hostOps0_3
    _ = W2 m ρ c (Proc.devRef .tc main_arg35) := host_keep hostOps0_2
    _ = W1 m ρ c (Proc.devRef .tc main_arg35) := host_keep hostOps0_1
    _ = W0 m ρ c (Proc.devRef .tc main_arg35) := host_keep hostOps0
    _ = m ((c : Thread nD τ).loc main_arg35) := rfl

/-- The three contributions and the bias added, its batch statistics, and the layer's output. -/
def preK (c : Dev nD) : FVec Ideal S40000x256 .f32 := combine (conU m ρ c) (conD m ρ c) (conB m ρ c) (asRow (m ((c : Thread nD τ).loc main_arg33)))
def mF (c : Dev nD) : FVec Ideal S1x256 .f32 := asRow (meanH (tileSum (preK m ρ c)))
def vF (c : Dev nD) : FVec Ideal S1x256 .f32 := asRow (varH (tileSum (preK m ρ c)) (tileSumSq (preK m ρ c)))
def outK (c : Dev nD) : FVec Ideal S40000x256 .f32 := outBn (preK m ρ c) (mF m ρ c) (vF m ρ c) (asRow (m ((c : Thread nD τ).loc main_arg34))) (asRow (m ((c : Thread nD τ).loc main_arg35)))

/-! ## The launches' inputs and outputs -/

theorem e11_0 (c : Dev nD) : V29 m ρ c main_v76 = conU m ρ c := (keep_v76_16_29 m ρ c).trans (o4 m ρ c)
theorem e11_1 (c : Dev nD) : V29 m ρ c main_v118 = conD m ρ c := (keep_v118_22_29 m ρ c).trans (o7 m ρ c)
theorem e11_2 (c : Dev nD) : V29 m ρ c main_v160 = conB m ρ c := (keep_v160_28_29 m ρ c).trans (o10 m ρ c)
set_option maxHeartbeats 2000000 in
theorem e11_3 (c : Dev nD) : V29 m ρ c main_v161 = asRow (m ((c : Thread nD τ).loc main_arg33)) := by
  show StableHlo.after hostOps11 (W28 m ρ c) (Proc.devRef .tc main_v161) = _
  dsimp only [hostOps11]
  after_results
  all_goals (rw [keep_arg33_0_28 m ρ c])
  all_goals rfl
theorem o11 (c : Dev nD) : W30 m ρ c (Proc.devRef .tc main_v162_0) = preK m ρ c :=
  (W30_arr m ρ c 4).trans ((Reg11.final (V29 m ρ) c).trans (by
    rw [e11_0 m ρ c, e11_1 m ρ c, e11_2 m ρ c, e11_3 m ρ c]
    all_goals rfl))
theorem oS11 (c : Dev nD) : W30 m ρ c (Proc.devRef .tc main_v162_1) = tileSum (preK m ρ c) :=
  (W30_arr m ρ c 5).trans ((Reg11.sfinalSum (V29 m ρ) c).trans (by
    rw [e11_0 m ρ c, e11_1 m ρ c, e11_2 m ρ c, e11_3 m ρ c]
    all_goals rfl))
theorem oQ11 (c : Dev nD) : W30 m ρ c (Proc.devRef .tc main_v162_2) = tileSumSq (preK m ρ c) :=
  (W30_arr m ρ c 6).trans ((Reg11.sfinalSumSq (V29 m ρ) c).trans (by
    rw [e11_0 m ρ c, e11_1 m ρ c, e11_2 m ρ c, e11_3 m ρ c]
    all_goals rfl))
theorem e12_0 (c : Dev nD) : V31 m ρ c main_v162_0 = preK m ρ c := (keep_v162_0_30_31 m ρ c).trans (o11 m ρ c)
set_option maxHeartbeats 2000000 in
theorem e12_1 (c : Dev nD) : V31 m ρ c main_v175 = mF m ρ c := by
  show StableHlo.after hostOps12 (W30 m ρ c) (Proc.devRef .tc main_v175) = _
  dsimp only [hostOps12]
  after_results
  all_goals (rw [oS11 m ρ c])
  all_goals rfl
set_option maxHeartbeats 2000000 in
theorem e12_2 (c : Dev nD) : V31 m ρ c main_v176 = vF m ρ c := by
  show StableHlo.after hostOps12 (W30 m ρ c) (Proc.devRef .tc main_v176) = _
  dsimp only [hostOps12]
  after_results
  all_goals (rw [oS11 m ρ c, oQ11 m ρ c])
  all_goals rfl
set_option maxHeartbeats 2000000 in
theorem e12_3 (c : Dev nD) : V31 m ρ c main_v177 = asRow (m ((c : Thread nD τ).loc main_arg34)) := by
  show StableHlo.after hostOps12 (W30 m ρ c) (Proc.devRef .tc main_v177) = _
  dsimp only [hostOps12]
  after_results
  all_goals (rw [keep_arg34_0_30 m ρ c])
  all_goals rfl
set_option maxHeartbeats 2000000 in
theorem e12_4 (c : Dev nD) : V31 m ρ c main_v178 = asRow (m ((c : Thread nD τ).loc main_arg35)) := by
  show StableHlo.after hostOps12 (W30 m ρ c) (Proc.devRef .tc main_v178) = _
  dsimp only [hostOps12]
  after_results
  all_goals (rw [keep_arg35_0_30 m ρ c])
  all_goals rfl
theorem o12 (c : Dev nD) : W32 m ρ c (Proc.devRef .tc main_v179) = outK m ρ c :=
  (W32_arr m ρ c 5).trans ((Reg12.final (V31 m ρ) c).trans (by
    rw [e12_0 m ρ c, e12_1 m ρ c, e12_2 m ρ c, e12_3 m ρ c, e12_4 m ρ c]
    all_goals rfl))

end Cert.KernelIdeal.Chain

end
-- ==== Proof.Forward.lean ====
/-
  The layer as one function of its inputs, with the spelling of the batch variance left as a parameter.

  A branch is: first dense layer of the residual mix, BatchNorm and ReLU, second dense layer, BatchNorm and ReLU, then the
  branch's block of the combining weight (no bias).  The head adds the three branch contributions and the bias, and applies
  the last BatchNorm and ReLU.  With real inputs every intermediate array is real, so the two spellings of the variance
  give the same layer.
-/
import proofs.«129683_j53085795779156_2_alg».proof.Proof.Stages

noncomputable section

namespace Cell

open Idealize.ShloMosaic Idealize.ShloMosaic.ValueIdx BnStats

/-- A spelling of the batch variance of a 40000 × 256 array. -/
abbrev VarOf : Type := Arr 40000 256 → Fin 256 → EReal

/-- BatchNorm with the batch's own statistics, then ReLU. -/
def bnOwn (var : VarOf) (n eps : EReal) (L : Arr 40000 256) (g cc : Fin 256 → EReal) : Arr 40000 256 :=
  bnRelu L (mean L n) (var L) g cc eps

/-- One branch's contribution to the combine. -/
def branch (var : VarOf) (n eps : EReal) (agg x : Arr 40000 256) (s : EReal) (w1 : Arr 256 256) (b1 g1 c1 : Fin 256 → EReal)
    (w2 : Arr 256 256) (b2 g2 c2 : Fin 256 → EReal) (wc : Arr 256 256) : Arr 40000 256 :=
  lin (bnOwn var n eps (lin (bnOwn var n eps (lin (mix agg x s) w1 b1) g1 c1) w2 b2) g2 c2) wc (fun _ => 0)

/-- The head: the three contributions and the bias, then the last BatchNorm and ReLU. -/
def head (var : VarOf) (n eps : EReal) (cu cd cb : Arr 40000 256) (bc gc cc : Fin 256 → EReal) : Arr 40000 256 :=
  bnOwn var n eps (comb cu cd cb bc) gc cc

/-- With real entries, a divisor equal to the number of rows and a positive epsilon, BatchNorm-ReLU in the
    mean-of-squares spelling is BatchNorm-ReLU in the deviation spelling, and its entries are real. -/
theorem bnOwn_sq_eq_dev {L : Arr 40000 256} (hL : RealArr L) {g cc : Fin 256 → EReal} (n e : ℝ) (hn : (40000 : ℝ) = n) :
    bnOwn (fun L => varSq L (n : EReal)) (n : EReal) (e : EReal) L g cc
      = bnOwn (fun L => varDev L (n : EReal)) (n : EReal) (e : EReal) L g cc := by
  unfold bnOwn
  dsimp only
  rw [varDev_eq_varSq L hL n (by rw [← hn]; norm_num) (by rw [← hn]; norm_num)]

theorem bnOwn_dev_real {L : Arr 40000 256} (hL : RealArr L) {g cc : Fin 256 → EReal} (hg : RealRow g) (hc : RealRow cc)
    (n e : ℝ) (hn : 0 < n) (he : 0 < e) :
    RealArr (bnOwn (fun L => varDev L (n : EReal)) (n : EReal) (e : EReal) L g cc) :=
  bnRelu_real hL (mean_real hL hn.ne') hg hc (fun c => varDev_add_pos hL hn he c)

/-- A branch in the two spellings, for real inputs. -/
theorem branch_sq_eq_dev (n e : ℝ) (hn : (40000 : ℝ) = n) (he : 0 < e) {agg x : Arr 40000 256} {s : EReal} {w1 w2 wc : Arr 256 256}
    {b1 g1 c1 b2 g2 c2 : Fin 256 → EReal} (hagg : RealArr agg) (hx : RealArr x) (hs : IsReal s) (hw1 : RealArr w1)
    (hb1 : RealRow b1) (hg1 : RealRow g1) (hc1 : RealRow c1) (hw2 : RealArr w2) (hb2 : RealRow b2) (hg2 : RealRow g2)
    (hc2 : RealRow c2) :
    branch (fun L => varSq L (n : EReal)) (n : EReal) (e : EReal) agg x s w1 b1 g1 c1 w2 b2 g2 c2 wc
      = branch (fun L => varDev L (n : EReal)) (n : EReal) (e : EReal) agg x s w1 b1 g1 c1 w2 b2 g2 c2 wc := by
  have hn0 : 0 < n := by rw [← hn]; norm_num
  have h1 : RealArr (lin (mix agg x s) w1 b1) := lin_real (mix_real hagg hx hs) hw1 hb1
  unfold branch
  rw [bnOwn_sq_eq_dev h1 n e hn]
  have h2 : RealArr (lin (bnOwn (fun L => varDev L (n : EReal)) (n : EReal) (e : EReal) (lin (mix agg x s) w1 b1) g1 c1) w2 b2) :=
    lin_real (bnOwn_dev_real h1 hg1 hc1 n e hn0 he) hw2 hb2
  rw [bnOwn_sq_eq_dev h2 n e hn]

/-- A branch's contribution is real, for real inputs. -/
theorem branch_dev_real (n e : ℝ) (hn : 0 < n) (he : 0 < e) {agg x : Arr 40000 256} {s : EReal} {w1 w2 wc : Arr 256 256}
    {b1 g1 c1 b2 g2 c2 : Fin 256 → EReal} (hagg : RealArr agg) (hx : RealArr x) (hs : IsReal s) (hw1 : RealArr w1)
    (hb1 : RealRow b1) (hg1 : RealRow g1) (hc1 : RealRow c1) (hw2 : RealArr w2) (hb2 : RealRow b2) (hg2 : RealRow g2)
    (hc2 : RealRow c2) (hwc : RealArr wc) :
    RealArr (branch (fun L => varDev L (n : EReal)) (n : EReal) (e : EReal) agg x s w1 b1 g1 c1 w2 b2 g2 c2 wc) := by
  have h1 : RealArr (lin (mix agg x s) w1 b1) := lin_real (mix_real hagg hx hs) hw1 hb1
  have h2 := lin_real (bnOwn_dev_real h1 hg1 hc1 n e hn he) hw2 hb2
  exact lin_real (bnOwn_dev_real h2 hg2 hc2 n e hn he) hwc (fun _ => IsReal.zero)

/-- The head in the two spellings, for real contributions. -/
theorem head_sq_eq_dev (n e : ℝ) (hn : (40000 : ℝ) = n) {cu cd cb : Arr 40000 256} {bc gc cc : Fin 256 → EReal}
    (hu : RealArr cu) (hd : RealArr cd) (hb : RealArr cb) (hbc : RealRow bc) :
    head (fun L => varSq L (n : EReal)) (n : EReal) (e : EReal) cu cd cb bc gc cc
      = head (fun L => varDev L (n : EReal)) (n : EReal) (e : EReal) cu cd cb bc gc cc := by
  unfold head
  exact bnOwn_sq_eq_dev (comb_real hu hd hb hbc) n e hn

end Cell

end
-- ==== Proof.KernelSpec.lean ====
/-
  The kernel's result written through the layer's forward function: each branch is the forward branch, and the output the forward head, in the mean-of-squares spelling of the variance, with the host's 40000.0 word as divisor and the body's epsilon word.
-/
import proofs.«129683_j53085795779156_2_alg».proof.Proof.ChainH
import proofs.«129683_j53085795779156_2_alg».proof.Proof.Forward

set_option maxRecDepth 16384

noncomputable section

namespace Cert.KernelIdeal.Chain

open Idealize.ShloMosaic Idealize.ShloMosaic.TcCoe Idealize.SL.Sem Idealize.ShloMosaic.ValueIdx
open Idealize.ShloMosaic.Pipeline (Dat)
open Cert.KernelIdeal Cert.KernelIdeal.Gen Cell Cert.KernelIdeal.RegCommon Cert.KernelIdeal.HostGlue

variable (m : (ℓ : Loc nD τ sig) → Buf (Elt Ideal) ℓ) (ρ : Dev nD → PrngReg)

/-- No operation of a host stretch writes the buffer, so the stretch leaves it as it was. -/
local macro "host_keep" ops:ident : term => `(StableHlo.after_of_forall_not_mem _ _ (List.forall_iff_forall_mem.mp (by
  simp only [$ops:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide))))

/-- A 256-vector read as a row. -/
def rowv (v : FVec Ideal S256 .f32) : Fin 256 → EReal := fun c => v (ix1 c)

theorem row_asRow (v : FVec Ideal S256 .f32) : row (asRow v) = rowv v := funext fun c => asRow_apply v c

/-- The zero bias of a branch's last dense layer. -/
theorem row_zeros : row (asRow zeros256) = fun _ => (0 : EReal) := by
  funext c
  show asRow zeros256 (ix2 0 c) = 0
  rw [asRow_apply]
  unfold zeros256
  exact (broadcastInDim_apply _ bcast_S_S256 (constant (F := Ideal) S_ .f32 0x00000000#32) (ix1 c) (fun a => a.elim0)
    (fun a => a.elim0)).trans ((constant_apply _ _).trans Ideal.ofBits_zero_f32)

/-- The variance as the kernel's host code spells it. -/
abbrev vSq : VarOf := fun L => varSq L n40

/-- Three launches and the host's statistics between them are one forward branch. -/
theorem branch_closed (agg x : FVec Ideal S40000x256 .f32) (sc : FVec Ideal S1x1 .f32) (w1 w2 wc : FVec Ideal S256x256 .f32)
    (b1 g1 c1 b2 g2 c2 : FVec Ideal S256 .f32) :
    layerBn
        (layerBn (layer1 agg x sc w1 (asRow b1)) (asRow (meanH (tileSum (layer1 agg x sc w1 (asRow b1)))))
          (asRow (varH (tileSum (layer1 agg x sc w1 (asRow b1))) (tileSumSq (layer1 agg x sc w1 (asRow b1))))) (asRow g1) (asRow c1) w2 (asRow b2))
        (asRow (meanH (tileSum (layerBn (layer1 agg x sc w1 (asRow b1)) (asRow (meanH (tileSum (layer1 agg x sc w1 (asRow b1)))))
          (asRow (varH (tileSum (layer1 agg x sc w1 (asRow b1))) (tileSumSq (layer1 agg x sc w1 (asRow b1))))) (asRow g1) (asRow c1) w2 (asRow b2)))))
        (asRow (varH (tileSum (layerBn (layer1 agg x sc w1 (asRow b1)) (asRow (meanH (tileSum (layer1 agg x sc w1 (asRow b1)))))
          (asRow (varH (tileSum (layer1 agg x sc w1 (asRow b1))) (tileSumSq (layer1 agg x sc w1 (asRow b1))))) (asRow g1) (asRow c1) w2 (asRow b2)))
          (tileSumSq (layerBn (layer1 agg x sc w1 (asRow b1)) (asRow (meanH (tileSum (layer1 agg x sc w1 (asRow b1)))))
          (asRow (varH (tileSum (layer1 agg x sc w1 (asRow b1))) (tileSumSq (layer1 agg x sc w1 (asRow b1))))) (asRow g1) (asRow c1) w2 (asRow b2)))))
        (asRow g2) (asRow c2) wc (asRow zeros256)
      = branch vSq n40 bnEps agg x (sc (ix2 0 0)) w1 (rowv b1) (rowv g1) (rowv c1) w2 (rowv b2) (rowv g2) (rowv c2) wc := by
  unfold branch bnOwn
  simp only [layerBn, layer1, row_mean, row_var]
  simp only [row_zeros]
  simp only [row_asRow]

theorem conU_eq (c : Dev nD) : conU m ρ c = branch vSq n40 bnEps (aggU m ρ c) (m ((c : Thread nD τ).loc main_arg0)) (scaleOf (m ((c : Thread nD τ).loc main_arg36)) (ix2 0 0)) (m ((c : Thread nD τ).loc main_arg8)) (rowv (m ((c : Thread nD τ).loc main_arg9))) (rowv (m ((c : Thread nD τ).loc main_arg10))) (rowv (m ((c : Thread nD τ).loc main_arg11)))
      (m ((c : Thread nD τ).loc main_arg12)) (rowv (m ((c : Thread nD τ).loc main_arg13))) (rowv (m ((c : Thread nD τ).loc main_arg14))) (rowv (m ((c : Thread nD τ).loc main_arg15))) (wcBlock0 (m ((c : Thread nD τ).loc main_arg32))) := by
  unfold conU m2U v2U l2U m1U v1U l1U
  exact branch_closed _ _ _ _ _ _ _ _ _ _ _ _

theorem conD_eq (c : Dev nD) : conD m ρ c = branch vSq n40 bnEps (aggD m ρ c) (m ((c : Thread nD τ).loc main_arg0)) (scaleOf (m ((c : Thread nD τ).loc main_arg37)) (ix2 0 0)) (m ((c : Thread nD τ).loc main_arg16)) (rowv (m ((c : Thread nD τ).loc main_arg17))) (rowv (m ((c : Thread nD τ).loc main_arg18))) (rowv (m ((c : Thread nD τ).loc main_arg19)))
      (m ((c : Thread nD τ).loc main_arg20)) (rowv (m ((c : Thread nD τ).loc main_arg21))) (rowv (m ((c : Thread nD τ).loc main_arg22))) (rowv (m ((c : Thread nD τ).loc main_arg23))) (wcBlock1 (m ((c : Thread nD τ).loc main_arg32))) := by
  unfold conD m2D v2D l2D m1D v1D l1D
  exact branch_closed _ _ _ _ _ _ _ _ _ _ _ _

theorem conB_eq (c : Dev nD) : conB m ρ c = branch vSq n40 bnEps (aggB m ρ c) (m ((c : Thread nD τ).loc main_arg0)) (scaleOf (m ((c : Thread nD τ).loc main_arg38)) (ix2 0 0)) (m ((c : Thread nD τ).loc main_arg24)) (rowv (m ((c : Thread nD τ).loc main_arg25))) (rowv (m ((c : Thread nD τ).loc main_arg26))) (rowv (m ((c : Thread nD τ).loc main_arg27)))
      (m ((c : Thread nD τ).loc main_arg28)) (rowv (m ((c : Thread nD τ).loc main_arg29))) (rowv (m ((c : Thread nD τ).loc main_arg30))) (rowv (m ((c : Thread nD τ).loc main_arg31))) (wcBlock2 (m ((c : Thread nD τ).loc main_arg32))) := by
  unfold conB m2B v2B l2B m1B v1B l1B
  exact branch_closed _ _ _ _ _ _ _ _ _ _ _ _

/-- The two last launches and the statistics between them are the forward head. -/
theorem outK_eq (c : Dev nD) : outK m ρ c
    = head vSq n40 bnEps (conU m ρ c) (conD m ρ c) (conB m ρ c) (rowv (m ((c : Thread nD τ).loc main_arg33))) (rowv (m ((c : Thread nD τ).loc main_arg34))) (rowv (m ((c : Thread nD τ).loc main_arg35))) := by
  unfold outK mF vF preK head bnOwn
  simp only [outBn, combine, row_mean, row_var]
  simp only [row_asRow]

end Cert.KernelIdeal.Chain

end
-- ==== Proof.Rows.lean ====
/-
  A vector read as a row, for arrays of any width.
-/
import proofs.«129683_j53085795779156_2_alg».proof.Proof.Stages

noncomputable section

namespace Cell

open Idealize.ShloMosaic Idealize.ShloMosaic.ValueIdx

/-- An N-vector read as a row. -/
def rowOf {N : ℕ} (v : (⟨1, ![N]⟩ : Shape).Idx → EReal) : Fin N → EReal := fun c => v (ix1 c)

end Cell

end
-- ==== Proof.RefStages.lean ====
/-
  The reference's host operations, pattern by pattern, as the layer's stages: a dense layer, the residual mix, the message
  layer, and BatchNorm with the batch's own mean and deviation variance followed by ReLU.
-/
import proofs.«129683_j53085795779156_2_alg».proof.Proof.Gen.ReferenceIdeal
import proofs.«129683_j53085795779156_2_alg».proof.Proof.Forward
import proofs.«129683_j53085795779156_2_alg».proof.Proof.Rows
import proofs.«129683_j53085795779156_2_alg».proof.Proof.LibPlainDot
import Idealize.ShloMosaic.Lib.Pipeline.Value
import Idealize.ShloMosaic.Lib.ValueLayout

set_option maxRecDepth 16384

noncomputable section

namespace Cert.ReferenceIdeal.Stages

open Idealize.ShloMosaic Idealize.ShloMosaic.TcCoe Idealize.SL.Sem Idealize.ShloMosaic.ValueIdx
open Cert.ReferenceIdeal Cert.ReferenceIdeal.Gen Cell BnStats

/-- A 256-vector broadcast to every row of a 40000 × 256 array reads the vector's entry at the column. -/
theorem bcRows40000_apply (v : FVec Ideal S256 .f32) (j : S40000x256.Idx) :
    broadcastInDim S40000x256 ![0, 1] bcast_S1x256_S40000x256_0_1 (broadcastInDim S1x256 ![1] bcast_S256_S1x256_1 v) j = v (ix1 (j 1)) :=
  (broadcastInDim_apply _ bcast_S1x256_S40000x256_0_1 (broadcastInDim S1x256 ![1] bcast_S256_S1x256_1 v) j (ix2 0 (j 1)) (fun a => match a with
    | ⟨0, _⟩ => by show 0 = if (1 : Nat) = 1 then 0 else (j 0).val; rw [if_pos rfl]
    | ⟨1, _⟩ => by show (j 1).val = if (256 : Nat) = 1 then 0 else (j 1).val; rw [if_neg (by decide)])).trans
  (broadcastInDim_apply _ bcast_S256_S1x256_1 v (ix2 0 (j 1)) (ix1 (j 1)) (fun a => match a with
    | ⟨0, _⟩ => by show (j 1).val = if (256 : Nat) = 1 then 0 else (j 1).val; rw [if_neg (by decide)]))

/-- A splat of the zero word over a 40000 × 256 array is zero everywhere. -/
theorem zeros40000_apply (j : S40000x256.Idx) :
    broadcastInDim S40000x256 ![] bcast_S_S40000x256 (constant (F := Ideal) S_ .f32 0x00000000#32) j = 0 :=
  (broadcastInDim_apply _ bcast_S_S40000x256 (constant (F := Ideal) S_ .f32 0x00000000#32) j (fun a => a.elim0) (fun a => a.elim0)).trans
    ((constant_apply _ _).trans Ideal.ofBits_zero_f32)

/-- The host's plain product of a 40000 × 256 array with a square weight, entry by entry. -/
theorem dot40000_apply (l : FVec Ideal S40000x256 .f32) (w : FVec Ideal S256x256 .f32) (j : S40000x256.Idx) :
    Host.dotGeneral (F := Ideal) dot_S40000x256_S256x256_S40000x256_1_0_0_1_n_n none l w j = dotP l w j :=
  Mpnn.dotGeneral_plain 40000 256 256 none _ l w j

/-- A 256-vector broadcast to every row of a 200000 × 256 array reads the vector's entry at the column. -/
theorem bcRows200000_apply (v : FVec Ideal S256 .f32) (j : S200000x256.Idx) :
    broadcastInDim S200000x256 ![0, 1] bcast_S1x256_S200000x256_0_1 (broadcastInDim S1x256 ![1] bcast_S256_S1x256_1 v) j = v (ix1 (j 1)) :=
  (broadcastInDim_apply _ bcast_S1x256_S200000x256_0_1 (broadcastInDim S1x256 ![1] bcast_S256_S1x256_1 v) j (ix2 0 (j 1)) (fun a => match a with
    | ⟨0, _⟩ => by show 0 = if (1 : Nat) = 1 then 0 else (j 0).val; rw [if_pos rfl]
    | ⟨1, _⟩ => by show (j 1).val = if (256 : Nat) = 1 then 0 else (j 1).val; rw [if_neg (by decide)])).trans
  (broadcastInDim_apply _ bcast_S256_S1x256_1 v (ix2 0 (j 1)) (ix1 (j 1)) (fun a => match a with
    | ⟨0, _⟩ => by show (j 1).val = if (256 : Nat) = 1 then 0 else (j 1).val; rw [if_neg (by decide)]))

/-- A splat of the zero word over a 200000 × 256 array is zero everywhere. -/
theorem zeros200000_apply (j : S200000x256.Idx) :
    broadcastInDim S200000x256 ![] bcast_S_S200000x256 (constant (F := Ideal) S_ .f32 0x00000000#32) j = 0 :=
  (broadcastInDim_apply _ bcast_S_S200000x256 (constant (F := Ideal) S_ .f32 0x00000000#32) j (fun a => a.elim0) (fun a => a.elim0)).trans
    ((constant_apply _ _).trans Ideal.ofBits_zero_f32)

/-- The host's plain product of a 200000 × 256 array with a square weight, entry by entry. -/
theorem dot200000_apply (l : FVec Ideal S200000x256 .f32) (w : FVec Ideal S256x256 .f32) (j : S200000x256.Idx) :
    Host.dotGeneral (F := Ideal) dot_S200000x256_S256x256_S200000x256_1_0_0_1_n_n none l w j = dotP l w j :=
  Mpnn.dotGeneral_plain 200000 256 256 none _ l w j

/-- The divisor and the epsilon, as the extended reals their words denote. -/
abbrev n40 : EReal := Ideal.ofBits .f32 0x471C4000#32
abbrev bnEps : EReal := Ideal.ofBits .f32 0x3727C5AC#32

theorem splat256_apply (b : BitVec 32) (i : S256.Idx) :
    broadcastInDim S256 ![] bcast_S_S256 (constant (F := Ideal) S_ .f32 b) i = Ideal.ofBits .f32 b :=
  (broadcastInDim_apply _ bcast_S_S256 (constant (F := Ideal) S_ .f32 b) i (fun a => a.elim0) (fun a => a.elim0)).trans (constant_apply _ _)

/-- The host's dense layer: plain product plus the bias broadcast to every row. -/
theorem refLin (h : FVec Ideal S40000x256 .f32) (w : FVec Ideal S256x256 .f32) (b : FVec Ideal S256 .f32) :
    addf (Host.dotGeneral (F := Ideal) dot_S40000x256_S256x256_S40000x256_1_0_0_1_n_n none h w)
        (broadcastInDim S40000x256 ![0, 1] bcast_S1x256_S40000x256_0_1 (broadcastInDim S1x256 ![1] bcast_S256_S1x256_1 b))
      = lin h w (rowOf b) := by
  funext j
  rw [addf_apply, dot40000_apply, bcRows40000_apply]
  rfl

/-- The host's column sum of a 40000 × 256 array from a zero initial value. -/
theorem colSum_apply (L : FVec Ideal S40000x256 .f32) (i : S256.Idx) :
    Host.reduceAdd (F := Ideal) L (constant (F := Ideal) S_ .f32 0x00000000#32) reducesTo_S40000x256_S256_d0 h_S_ i
      = colSum L (i 0) := by
  simp only [Host.reduceAdd, Ideal.hostReduceAdd_def]
  rw [Ideal.hostReduceAdd_single reducesTo_S40000x256_S256_d0 (by decide), constant_apply, Ideal.ofBits_zero_f32, zero_add]
  unfold colSum
  exact Finset.sum_congr rfl fun r _ => congrArg L (funext fun a => Fin.ext (by match a with | ⟨0, _⟩ => rfl | ⟨1, _⟩ => rfl))

/-- The host's column mean. -/
theorem meanRef_apply (L : FVec Ideal S40000x256 .f32) (i : S256.Idx) :
    Host.divf (F := Ideal) (Host.reduceAdd (F := Ideal) L (constant (F := Ideal) S_ .f32 0x00000000#32) reducesTo_S40000x256_S256_d0 h_S_)
        (broadcastInDim S256 ![] bcast_S_S256 (constant (F := Ideal) S_ .f32 0x471C4000#32)) i
      = mean L n40 (i 0) := by
  show FloatOps.hostDivf (Host.reduceAdd (F := Ideal) L (constant (F := Ideal) S_ .f32 0x00000000#32) reducesTo_S40000x256_S256_d0 h_S_ i)
      (broadcastInDim S256 ![] bcast_S_S256 (constant (F := Ideal) S_ .f32 0x471C4000#32) i) = _
  rw [colSum_apply, splat256_apply, Ideal.hostDivf_def]
  rfl

/-- The host's mean as a function of the column. -/
abbrev meanRef (L : FVec Ideal S40000x256 .f32) : FVec Ideal S256 .f32 :=
  Host.divf (F := Ideal) (Host.reduceAdd (F := Ideal) L (constant (F := Ideal) S_ .f32 0x00000000#32) reducesTo_S40000x256_S256_d0 h_S_)
    (broadcastInDim S256 ![] bcast_S_S256 (constant (F := Ideal) S_ .f32 0x471C4000#32))

/-- The deviations from the column mean. -/
abbrev devRef (L : FVec Ideal S40000x256 .f32) : FVec Ideal S40000x256 .f32 :=
  subf L (broadcastInDim S40000x256 ![0, 1] bcast_S1x256_S40000x256_0_1 (broadcastInDim S1x256 ![1] bcast_S256_S1x256_1 (meanRef L)))

theorem devRef_apply (L : FVec Ideal S40000x256 .f32) (j : S40000x256.Idx) : devRef L j = L j - mean L n40 (j 1) := by
  show L j - _ = _
  rw [bcRows40000_apply]
  exact congrArg (L j - ·) (meanRef_apply L (ix1 (j 1)))

/-- The host's variance: the mean of the squared deviations. -/
abbrev varRef (L : FVec Ideal S40000x256 .f32) : FVec Ideal S256 .f32 :=
  Host.divf (F := Ideal) (Host.reduceAdd (F := Ideal) (mulf (devRef L) (devRef L)) (constant (F := Ideal) S_ .f32 0x00000000#32) reducesTo_S40000x256_S256_d0 h_S_)
    (broadcastInDim S256 ![] bcast_S_S256 (constant (F := Ideal) S_ .f32 0x471C4000#32))

theorem varRef_apply (L : FVec Ideal S40000x256 .f32) (i : S256.Idx) : varRef L i = varDev L n40 (i 0) := by
  show FloatOps.hostDivf (Host.reduceAdd (F := Ideal) (mulf (devRef L) (devRef L)) (constant (F := Ideal) S_ .f32 0x00000000#32) reducesTo_S40000x256_S256_d0 h_S_ i)
      (broadcastInDim S256 ![] bcast_S_S256 (constant (F := Ideal) S_ .f32 0x471C4000#32) i) = _
  rw [colSum_apply, splat256_apply, Ideal.hostDivf_def]
  unfold varDev colSum
  refine congrArg (fun s => Ideal.div s n40) (Finset.sum_congr rfl fun r _ => ?_)
  rw [mulf_apply, devRef_apply]

/-- The host's BatchNorm with the batch's own statistics, then ReLU. -/
theorem refBn (L : FVec Ideal S40000x256 .f32) (g cc : FVec Ideal S256 .f32) :
    maximumf
        (addf
          (mulf
            (mulf (broadcastInDim S40000x256 ![0, 1] bcast_S1x256_S40000x256_0_1 (broadcastInDim S1x256 ![1] bcast_S256_S1x256_1 g)) (devRef L))
            (broadcastInDim S40000x256 ![0, 1] bcast_S1x256_S40000x256_0_1 (broadcastInDim S1x256 ![1] bcast_S256_S1x256_1
              (Host.rsqrt (F := Ideal) (addf (varRef L) (broadcastInDim S256 ![] bcast_S_S256 (constant (F := Ideal) S_ .f32 0x3727C5AC#32)))))))
          (broadcastInDim S40000x256 ![0, 1] bcast_S1x256_S40000x256_0_1 (broadcastInDim S1x256 ![1] bcast_S256_S1x256_1 cc)))
        (broadcastInDim S40000x256 ![] bcast_S_S40000x256 (constant (F := Ideal) S_ .f32 0x00000000#32))
      = bnOwn (fun L => varDev L n40) n40 bnEps L (rowOf g) (rowOf cc) := by
  funext j
  rw [maximumf_apply, addf_apply, mulf_apply, mulf_apply, bcRows40000_apply, bcRows40000_apply, bcRows40000_apply, zeros40000_apply,
    devRef_apply]
  show max (g (ix1 (j 1)) * (L j - mean L n40 (j 1))
      * FloatOps.hostUnary .rsqrt (varRef L (ix1 (j 1)) + broadcastInDim S256 ![] bcast_S_S256 (constant (F := Ideal) S_ .f32 0x3727C5AC#32) (ix1 (j 1)))
      + cc (ix1 (j 1))) 0 = _
  rw [varRef_apply, splat256_apply, Ideal.hostUnary_rsqrt_def]
  rfl

/-- The host's residual mix: the aggregate plus (1 + ε) times the features. -/
theorem refMix (agg x : FVec Ideal S40000x256 .f32) (e : FVec Ideal S1 .f32) :
    addf agg (mulf (broadcastInDim S40000x256 ![0, 1] bcast_S1x1_S40000x256_0_1 (broadcastInDim S1x1 ![1] bcast_S1_S1x1_1
        (addf (broadcastInDim S1 ![] bcast_S_S1 (constant (F := Ideal) S_ .f32 0x3F800000#32)) e))) x)
      = mix agg x (Ideal.ofBits .f32 0x3F800000#32 + e (ix1 0)) := by
  funext j
  rw [addf_apply, mulf_apply]
  unfold mix
  refine congrArg (fun s => agg j + s * x j) ?_
  refine (broadcastInDim_apply _ bcast_S1x1_S40000x256_0_1 _ j (ix2 0 0) (fun a => match a with
    | ⟨0, _⟩ => by show 0 = if (1 : Nat) = 1 then 0 else (j 0).val; rw [if_pos rfl]
    | ⟨1, _⟩ => by show 0 = if (1 : Nat) = 1 then 0 else (j 1).val; rw [if_pos rfl])).trans ?_
  refine (broadcastInDim_apply _ bcast_S1_S1x1_1 _ (ix2 0 0) (ix1 0) (fun a => match a with
    | ⟨0, _⟩ => by show 0 = if (1 : Nat) = 1 then 0 else 0; rw [if_pos rfl])).trans ?_
  rw [addf_apply]
  refine congrArg (· + e (ix1 0)) ?_
  exact (broadcastInDim_apply _ bcast_S_S1 (constant (F := Ideal) S_ .f32 0x3F800000#32) (ix1 0) (fun a => a.elim0) (fun a => a.elim0)).trans (constant_apply _ _)

/-- The host's message layer. -/
theorem refMsg (xs at_ : FVec Ideal S200000x256 .f32) (wt wb : FVec Ideal S256x256 .f32) (b : FVec Ideal S256 .f32) :
    maximumf
        (addf
          (addf (Host.dotGeneral (F := Ideal) dot_S200000x256_S256x256_S200000x256_1_0_0_1_n_n none xs wt)
            (Host.dotGeneral (F := Ideal) dot_S200000x256_S256x256_S200000x256_1_0_0_1_n_n none at_ wb))
          (broadcastInDim S200000x256 ![0, 1] bcast_S1x256_S200000x256_0_1 (broadcastInDim S1x256 ![1] bcast_S256_S1x256_1 b)))
        (broadcastInDim S200000x256 ![] bcast_S_S200000x256 (constant (F := Ideal) S_ .f32 0x00000000#32))
      = msg xs at_ wt wb (rowOf b) := by
  funext j
  rw [maximumf_apply, addf_apply, addf_apply, dot200000_apply, dot200000_apply, bcRows200000_apply, zeros200000_apply]
  rfl

/-- Block `o` (of three, 256 rows each) of the 768 × 256 combining weight. -/
def blockOf (w : Arr 768 256) (o : Fin 3) : Arr 256 256 :=
  fun i => w (ix2 ⟨256 * o.val + (i 0).val, by have h0 : (i 0).val < 256 := (i 0).isLt; have := o.isLt; omega⟩ (i 1))

/-- Piece `o` of the three arrays laid side by side, read at a column inside the piece. -/
theorem cat_apply (a0 a1 a2 : FVec Ideal S40000x256 .f32) (r : Fin 40000) (o : Fin 3) (k : Fin 256) (h : 256 * o.val + k.val < 768) :
    concatenate S40000x768 1 [⟨S40000x256, a0⟩, ⟨S40000x256, a1⟩, ⟨S40000x256, a2⟩]
        concatenates_S40000x256_S40000x256_S40000x256_S40000x768_d1 (ix2 r ⟨256 * o.val + k.val, h⟩)
      = (match o with | 0 => a0 | 1 => a1 | 2 => a2) (ix2 r k) := by
  have hi : ∀ b : Fin S40000x256.rank, b.cast (rfl : S40000x256.rank = S40000x768.rank) ≠ (1 : Fin 2) →
      ((ix2 r k : S40000x256.Idx) b).val = ((ix2 r ⟨256 * o.val + k.val, h⟩ : S40000x768.Idx) (b.cast rfl)).val := fun b hb => by
    match b with
    | ⟨0, _⟩ => rfl
    | ⟨1, _⟩ => exact absurd rfl hb
  match o with
  | 0 => exact concatenate_apply_piece (t := S40000x768) 1 [⟨S40000x256, a0⟩, ⟨S40000x256, a1⟩, ⟨S40000x256, a2⟩] concatenates_S40000x256_S40000x256_S40000x256_S40000x768_d1 (ix2 r ⟨256 * (0 : Fin 3).val + k.val, h⟩) 0 (by simp) S40000x256 a0 rfl rfl 0 rfl (ix2 r k) hi (by show 0 + k.val = 256 * 0 + k.val; omega)
  | 1 => exact concatenate_apply_piece (t := S40000x768) 1 [⟨S40000x256, a0⟩, ⟨S40000x256, a1⟩, ⟨S40000x256, a2⟩] concatenates_S40000x256_S40000x256_S40000x256_S40000x768_d1 (ix2 r ⟨256 * (1 : Fin 3).val + k.val, h⟩) 1 (by simp) S40000x256 a1 rfl rfl 256 rfl (ix2 r k) hi (by show 256 + k.val = 256 * 1 + k.val; omega)
  | 2 => exact concatenate_apply_piece (t := S40000x768) 1 [⟨S40000x256, a0⟩, ⟨S40000x256, a1⟩, ⟨S40000x256, a2⟩] concatenates_S40000x256_S40000x256_S40000x256_S40000x768_d1 (ix2 r ⟨256 * (2 : Fin 3).val + k.val, h⟩) 2 (by simp) S40000x256 a2 rfl rfl 512 rfl (ix2 r k) hi (by show 512 + k.val = 256 * 2 + k.val; omega)

/-- The host's combine: one product of the three arrays laid side by side with the 768 × 256 weight, plus the bias, is
    the sum of the three arrays' products with their blocks of the weight, plus the bias. -/
theorem refCombine (a0 a1 a2 : FVec Ideal S40000x256 .f32) (w : FVec Ideal S768x256 .f32) (b : FVec Ideal S256 .f32) :
    addf (Host.dotGeneral (F := Ideal) dot_S40000x768_S768x256_S40000x256_1_0_0_1_n_n none
          (concatenate S40000x768 1 [⟨S40000x256, a0⟩, ⟨S40000x256, a1⟩, ⟨S40000x256, a2⟩]
            concatenates_S40000x256_S40000x256_S40000x256_S40000x768_d1) w)
        (broadcastInDim S40000x256 ![0, 1] bcast_S1x256_S40000x256_0_1 (broadcastInDim S1x256 ![1] bcast_S256_S1x256_1 b))
      = comb (lin a0 (blockOf w 0) (fun _ => 0)) (lin a1 (blockOf w 1) (fun _ => 0)) (lin a2 (blockOf w 2) (fun _ => 0)) (rowOf b) := by
  funext j
  rw [addf_apply, bcRows40000_apply]
  refine congrArg (· + b (ix1 (j 1))) ?_
  refine (Mpnn.dotGeneral_plain 40000 768 256 none _ _ w j).trans ?_
  unfold lin dotP blockOf
  simp only [add_zero]
  rw [sum_tiles 3 256 (fun k : Fin 768 => concatenate S40000x768 1 [⟨S40000x256, a0⟩, ⟨S40000x256, a1⟩, ⟨S40000x256, a2⟩]
      concatenates_S40000x256_S40000x256_S40000x256_S40000x768_d1 (ix2 (j 0) k) * w (ix2 k (j 1))), Fin.sum_univ_three]
  have piece : ∀ (o : Fin 3) (q : Fin 256),
      concatenate S40000x768 1 [⟨S40000x256, a0⟩, ⟨S40000x256, a1⟩, ⟨S40000x256, a2⟩]
          concatenates_S40000x256_S40000x256_S40000x256_S40000x768_d1 (ix2 (j 0) (finProdFinEquiv (o, q))) * w (ix2 (finProdFinEquiv (o, q)) (j 1))
        = (match o with | 0 => a0 | 1 => a1 | 2 => a2) (ix2 (j 0) q)
            * w (ix2 ⟨256 * o.val + q.val, by have := o.isLt; have := q.isLt; omega⟩ (j 1)) := fun o q => by
    have hq : (finProdFinEquiv (o, q) : Fin (3 * 256)) = ⟨256 * o.val + q.val, by have := o.isLt; have := q.isLt; omega⟩ :=
      Fin.ext (by show q.val + 256 * o.val = 256 * o.val + q.val; omega)
    rw [hq]
    exact congrArg (· * _) (cat_apply a0 a1 a2 (j 0) o q _)
  simp only [piece]

end Cert.ReferenceIdeal.Stages

end
-- ==== Proof.RefRead.lean ====
/-
  The reference read stage by stage: each stretch of its host operations is one of the layer's stages applied to the
  stage before it, and the whole is the forward head over the three forward branches in the deviation spelling.
-/
import proofs.«129683_j53085795779156_2_alg».proof.Proof.ReadP
import proofs.«129683_j53085795779156_2_alg».proof.Proof.RefStages

set_option maxRecDepth 16384
set_option maxHeartbeats 4000000

noncomputable section

namespace Cert.ReferenceIdeal.RefRead

open Idealize.ShloMosaic Idealize.ShloMosaic.TcCoe Idealize.SL.Sem Idealize.ShloMosaic.ValueIdx
open Cert.ReferenceIdeal Cert.ReferenceIdeal.Gen Cell Cert.ReferenceIdeal.Stages

theorem R_msgU (x0 : (⟨S40000x256, .f32⟩ : BufTy).Contents (Elt Ideal)) (x1 : (⟨S200000x256, .f32⟩ : BufTy).Contents (Elt Ideal)) (x4 : (⟨S512x256, .f32⟩ : BufTy).Contents (Elt Ideal)) (x5 : (⟨S256, .f32⟩ : BufTy).Contents (Elt Ideal)) (x39 : (⟨S2x200000, .i32⟩ : BufTy).Contents (Elt Ideal)) :
    (ReadP.val_main_v17 (F := Ideal) x0 x1 x4 x5 x39) = msg (ReadP.val_main_v8 (F := Ideal) x0 x39) x1 (ReadP.val_main_v9 (F := Ideal) x4) (ReadP.val_main_v11 (F := Ideal) x4) (rowOf x5) := by
  unfold ReadP.val_main_v17 ReadP.val_main_v16 ReadP.val_main_v13 ReadP.val_main_v10 ReadP.val_main_v12 ReadP.val_main_v15 ReadP.val_main_v14 ReadP.val_main_call0_v0 ReadP.val_main_call0_cst
  exact refMsg _ _ _ _ _
theorem R_mixU (x0 : (⟨S40000x256, .f32⟩ : BufTy).Contents (Elt Ideal)) (x1 : (⟨S200000x256, .f32⟩ : BufTy).Contents (Elt Ideal)) (x4 : (⟨S512x256, .f32⟩ : BufTy).Contents (Elt Ideal)) (x5 : (⟨S256, .f32⟩ : BufTy).Contents (Elt Ideal)) (x36 : (⟨S1, .f32⟩ : BufTy).Contents (Elt Ideal)) (x39 : (⟨S2x200000, .i32⟩ : BufTy).Contents (Elt Ideal)) :
    (ReadP.val_main_v65 (F := Ideal) x0 x1 x4 x5 x36 x39) = mix (ReadP.val_main_v22 (F := Ideal) x0 x1 x4 x5 x39) x0 (Ideal.ofBits .f32 0x3F800000#32 + x36 (ix1 0)) := by
  unfold ReadP.val_main_v65 ReadP.val_main_v64 ReadP.val_main_v63 ReadP.val_main_v62 ReadP.val_main_v61 ReadP.val_main_v60 ReadP.val_main_cst_7
  exact refMix _ _ _
theorem R_l1U (x0 : (⟨S40000x256, .f32⟩ : BufTy).Contents (Elt Ideal)) (x1 : (⟨S200000x256, .f32⟩ : BufTy).Contents (Elt Ideal)) (x4 : (⟨S512x256, .f32⟩ : BufTy).Contents (Elt Ideal)) (x5 : (⟨S256, .f32⟩ : BufTy).Contents (Elt Ideal)) (x8 : (⟨S256x256, .f32⟩ : BufTy).Contents (Elt Ideal)) (x9 : (⟨S256, .f32⟩ : BufTy).Contents (Elt Ideal)) (x36 : (⟨S1, .f32⟩ : BufTy).Contents (Elt Ideal)) (x39 : (⟨S2x200000, .i32⟩ : BufTy).Contents (Elt Ideal)) :
    (ReadP.val_main_v69 (F := Ideal) x0 x1 x4 x5 x8 x9 x36 x39) = lin (ReadP.val_main_v65 (F := Ideal) x0 x1 x4 x5 x36 x39) x8 (rowOf x9) := by
  unfold ReadP.val_main_v69 ReadP.val_main_v66 ReadP.val_main_v68 ReadP.val_main_v67
  exact refLin _ _ _
theorem R_bn1U (x0 : (⟨S40000x256, .f32⟩ : BufTy).Contents (Elt Ideal)) (x1 : (⟨S200000x256, .f32⟩ : BufTy).Contents (Elt Ideal)) (x4 : (⟨S512x256, .f32⟩ : BufTy).Contents (Elt Ideal)) (x5 : (⟨S256, .f32⟩ : BufTy).Contents (Elt Ideal)) (x8 : (⟨S256x256, .f32⟩ : BufTy).Contents (Elt Ideal)) (x9 : (⟨S256, .f32⟩ : BufTy).Contents (Elt Ideal)) (x10 : (⟨S256, .f32⟩ : BufTy).Contents (Elt Ideal)) (x11 : (⟨S256, .f32⟩ : BufTy).Contents (Elt Ideal)) (x36 : (⟨S1, .f32⟩ : BufTy).Contents (Elt Ideal)) (x39 : (⟨S2x200000, .i32⟩ : BufTy).Contents (Elt Ideal)) :
    (ReadP.val_main_v95 (F := Ideal) x0 x1 x4 x5 x8 x9 x10 x11 x36 x39) = bnOwn (fun L => varDev L n40) n40 bnEps (ReadP.val_main_v69 (F := Ideal) x0 x1 x4 x5 x8 x9 x36 x39) (rowOf x10) (rowOf x11) := by
  unfold ReadP.val_main_v95 ReadP.val_main_v94 ReadP.val_main_v91 ReadP.val_main_v85 ReadP.val_main_v84 ReadP.val_main_v83 ReadP.val_main_v82 ReadP.val_main_v81 ReadP.val_main_v80 ReadP.val_main_v72 ReadP.val_main_v70 ReadP.val_main_cst_8 ReadP.val_main_v71 ReadP.val_main_cst_9 ReadP.val_main_v90 ReadP.val_main_v89 ReadP.val_main_v88 ReadP.val_main_v87 ReadP.val_main_v79 ReadP.val_main_v77 ReadP.val_main_v76 ReadP.val_main_v75 ReadP.val_main_v74 ReadP.val_main_v73 ReadP.val_main_cst_10 ReadP.val_main_v78 ReadP.val_main_cst_11 ReadP.val_main_v86 ReadP.val_main_cst_12 ReadP.val_main_v93 ReadP.val_main_v92 ReadP.val_main_call2_v0 ReadP.val_main_call2_cst
  exact refBn _ _ _
theorem R_l2U (x0 : (⟨S40000x256, .f32⟩ : BufTy).Contents (Elt Ideal)) (x1 : (⟨S200000x256, .f32⟩ : BufTy).Contents (Elt Ideal)) (x4 : (⟨S512x256, .f32⟩ : BufTy).Contents (Elt Ideal)) (x5 : (⟨S256, .f32⟩ : BufTy).Contents (Elt Ideal)) (x8 : (⟨S256x256, .f32⟩ : BufTy).Contents (Elt Ideal)) (x9 : (⟨S256, .f32⟩ : BufTy).Contents (Elt Ideal)) (x10 : (⟨S256, .f32⟩ : BufTy).Contents (Elt Ideal)) (x11 : (⟨S256, .f32⟩ : BufTy).Contents (Elt Ideal)) (x12 : (⟨S256x256, .f32⟩ : BufTy).Contents (Elt Ideal)) (x13 : (⟨S256, .f32⟩ : BufTy).Contents (Elt Ideal)) (x36 : (⟨S1, .f32⟩ : BufTy).Contents (Elt Ideal)) (x39 : (⟨S2x200000, .i32⟩ : BufTy).Contents (Elt Ideal)) :
    (ReadP.val_main_v99 (F := Ideal) x0 x1 x4 x5 x8 x9 x10 x11 x12 x13 x36 x39) = lin (ReadP.val_main_v95 (F := Ideal) x0 x1 x4 x5 x8 x9 x10 x11 x36 x39) x12 (rowOf x13) := by
  unfold ReadP.val_main_v99 ReadP.val_main_v96 ReadP.val_main_v98 ReadP.val_main_v97
  exact refLin _ _ _
theorem R_bn2U (x0 : (⟨S40000x256, .f32⟩ : BufTy).Contents (Elt Ideal)) (x1 : (⟨S200000x256, .f32⟩ : BufTy).Contents (Elt Ideal)) (x4 : (⟨S512x256, .f32⟩ : BufTy).Contents (Elt Ideal)) (x5 : (⟨S256, .f32⟩ : BufTy).Contents (Elt Ideal)) (x8 : (⟨S256x256, .f32⟩ : BufTy).Contents (Elt Ideal)) (x9 : (⟨S256, .f32⟩ : BufTy).Contents (Elt Ideal)) (x10 : (⟨S256, .f32⟩ : BufTy).Contents (Elt Ideal)) (x11 : (⟨S256, .f32⟩ : BufTy).Contents (Elt Ideal)) (x12 : (⟨S256x256, .f32⟩ : BufTy).Contents (Elt Ideal)) (x13 : (⟨S256, .f32⟩ : BufTy).Contents (Elt Ideal)) (x14 : (⟨S256, .f32⟩ : BufTy).Contents (Elt Ideal)) (x15 : (⟨S256, .f32⟩ : BufTy).Contents (Elt Ideal)) (x36 : (⟨S1, .f32⟩ : BufTy).Contents (Elt Ideal)) (x39 : (⟨S2x200000, .i32⟩ : BufTy).Contents (Elt Ideal)) :
    (ReadP.val_main_v125 (F := Ideal) x0 x1 x4 x5 x8 x9 x10 x11 x12 x13 x14 x15 x36 x39) = bnOwn (fun L => varDev L n40) n40 bnEps (ReadP.val_main_v99 (F := Ideal) x0 x1 x4 x5 x8 x9 x10 x11 x12 x13 x36 x39) (rowOf x14) (rowOf x15) := by
  unfold ReadP.val_main_v125 ReadP.val_main_v124 ReadP.val_main_v121 ReadP.val_main_v115 ReadP.val_main_v114 ReadP.val_main_v113 ReadP.val_main_v112 ReadP.val_main_v111 ReadP.val_main_v110 ReadP.val_main_v102 ReadP.val_main_v100 ReadP.val_main_cst_13 ReadP.val_main_v101 ReadP.val_main_cst_14 ReadP.val_main_v120 ReadP.val_main_v119 ReadP.val_main_v118 ReadP.val_main_v117 ReadP.val_main_v109 ReadP.val_main_v107 ReadP.val_main_v106 ReadP.val_main_v105 ReadP.val_main_v104 ReadP.val_main_v103 ReadP.val_main_cst_15 ReadP.val_main_v108 ReadP.val_main_cst_16 ReadP.val_main_v116 ReadP.val_main_cst_17 ReadP.val_main_v123 ReadP.val_main_v122 ReadP.val_main_call3_v0 ReadP.val_main_call3_cst
  exact refBn _ _ _
theorem R_msgD (x0 : (⟨S40000x256, .f32⟩ : BufTy).Contents (Elt Ideal)) (x2 : (⟨S200000x256, .f32⟩ : BufTy).Contents (Elt Ideal)) (x6 : (⟨S512x256, .f32⟩ : BufTy).Contents (Elt Ideal)) (x7 : (⟨S256, .f32⟩ : BufTy).Contents (Elt Ideal)) (x40 : (⟨S2x200000, .i32⟩ : BufTy).Contents (Elt Ideal)) :
    (ReadP.val_main_v40 (F := Ideal) x0 x2 x6 x7 x40) = msg (ReadP.val_main_v31 (F := Ideal) x0 x40) x2 (ReadP.val_main_v32 (F := Ideal) x6) (ReadP.val_main_v34 (F := Ideal) x6) (rowOf x7) := by
  unfold ReadP.val_main_v40 ReadP.val_main_v39 ReadP.val_main_v36 ReadP.val_main_v33 ReadP.val_main_v35 ReadP.val_main_v38 ReadP.val_main_v37 ReadP.val_main_call1_v0 ReadP.val_main_call1_cst
  exact refMsg _ _ _ _ _
theorem R_mixD (x0 : (⟨S40000x256, .f32⟩ : BufTy).Contents (Elt Ideal)) (x2 : (⟨S200000x256, .f32⟩ : BufTy).Contents (Elt Ideal)) (x6 : (⟨S512x256, .f32⟩ : BufTy).Contents (Elt Ideal)) (x7 : (⟨S256, .f32⟩ : BufTy).Contents (Elt Ideal)) (x37 : (⟨S1, .f32⟩ : BufTy).Contents (Elt Ideal)) (x40 : (⟨S2x200000, .i32⟩ : BufTy).Contents (Elt Ideal)) :
    (ReadP.val_main_v131 (F := Ideal) x0 x2 x6 x7 x37 x40) = mix (ReadP.val_main_v45 (F := Ideal) x0 x2 x6 x7 x40) x0 (Ideal.ofBits .f32 0x3F800000#32 + x37 (ix1 0)) := by
  unfold ReadP.val_main_v131 ReadP.val_main_v130 ReadP.val_main_v129 ReadP.val_main_v128 ReadP.val_main_v127 ReadP.val_main_v126 ReadP.val_main_cst_18
  exact refMix _ _ _
theorem R_l1D (x0 : (⟨S40000x256, .f32⟩ : BufTy).Contents (Elt Ideal)) (x2 : (⟨S200000x256, .f32⟩ : BufTy).Contents (Elt Ideal)) (x6 : (⟨S512x256, .f32⟩ : BufTy).Contents (Elt Ideal)) (x7 : (⟨S256, .f32⟩ : BufTy).Contents (Elt Ideal)) (x16 : (⟨S256x256, .f32⟩ : BufTy).Contents (Elt Ideal)) (x17 : (⟨S256, .f32⟩ : BufTy).Contents (Elt Ideal)) (x37 : (⟨S1, .f32⟩ : BufTy).Contents (Elt Ideal)) (x40 : (⟨S2x200000, .i32⟩ : BufTy).Contents (Elt Ideal)) :
    (ReadP.val_main_v135 (F := Ideal) x0 x2 x6 x7 x16 x17 x37 x40) = lin (ReadP.val_main_v131 (F := Ideal) x0 x2 x6 x7 x37 x40) x16 (rowOf x17) := by
  unfold ReadP.val_main_v135 ReadP.val_main_v132 ReadP.val_main_v134 ReadP.val_main_v133
  exact refLin _ _ _
theorem R_bn1D (x0 : (⟨S40000x256, .f32⟩ : BufTy).Contents (Elt Ideal)) (x2 : (⟨S200000x256, .f32⟩ : BufTy).Contents (Elt Ideal)) (x6 : (⟨S512x256, .f32⟩ : BufTy).Contents (Elt Ideal)) (x7 : (⟨S256, .f32⟩ : BufTy).Contents (Elt Ideal)) (x16 : (⟨S256x256, .f32⟩ : BufTy).Contents (Elt Ideal)) (x17 : (⟨S256, .f32⟩ : BufTy).Contents (Elt Ideal)) (x18 : (⟨S256, .f32⟩ : BufTy).Contents (Elt Ideal)) (x19 : (⟨S256, .f32⟩ : BufTy).Contents (Elt Ideal)) (x37 : (⟨S1, .f32⟩ : BufTy).Contents (Elt Ideal)) (x40 : (⟨S2x200000, .i32⟩ : BufTy).Contents (Elt Ideal)) :
    (ReadP.val_main_v161 (F := Ideal) x0 x2 x6 x7 x16 x17 x18 x19 x37 x40) = bnOwn (fun L => varDev L n40) n40 bnEps (ReadP.val_main_v135 (F := Ideal) x0 x2 x6 x7 x16 x17 x37 x40) (rowOf x18) (rowOf x19) := by
  unfold ReadP.val_main_v161 ReadP.val_main_v160 ReadP.val_main_v157 ReadP.val_main_v151 ReadP.val_main_v150 ReadP.val_main_v149 ReadP.val_main_v148 ReadP.val_main_v147 ReadP.val_main_v146 ReadP.val_main_v138 ReadP.val_main_v136 ReadP.val_main_cst_19 ReadP.val_main_v137 ReadP.val_main_cst_20 ReadP.val_main_v156 ReadP.val_main_v155 ReadP.val_main_v154 ReadP.val_main_v153 ReadP.val_main_v145 ReadP.val_main_v143 ReadP.val_main_v142 ReadP.val_main_v141 ReadP.val_main_v140 ReadP.val_main_v139 ReadP.val_main_cst_21 ReadP.val_main_v144 ReadP.val_main_cst_22 ReadP.val_main_v152 ReadP.val_main_cst_23 ReadP.val_main_v159 ReadP.val_main_v158 ReadP.val_main_call4_v0 ReadP.val_main_call4_cst
  exact refBn _ _ _
theorem R_l2D (x0 : (⟨S40000x256, .f32⟩ : BufTy).Contents (Elt Ideal)) (x2 : (⟨S200000x256, .f32⟩ : BufTy).Contents (Elt Ideal)) (x6 : (⟨S512x256, .f32⟩ : BufTy).Contents (Elt Ideal)) (x7 : (⟨S256, .f32⟩ : BufTy).Contents (Elt Ideal)) (x16 : (⟨S256x256, .f32⟩ : BufTy).Contents (Elt Ideal)) (x17 : (⟨S256, .f32⟩ : BufTy).Contents (Elt Ideal)) (x18 : (⟨S256, .f32⟩ : BufTy).Contents (Elt Ideal)) (x19 : (⟨S256, .f32⟩ : BufTy).Contents (Elt Ideal)) (x20 : (⟨S256x256, .f32⟩ : BufTy).Contents (Elt Ideal)) (x21 : (⟨S256, .f32⟩ : BufTy).Contents (Elt Ideal)) (x37 : (⟨S1, .f32⟩ : BufTy).Contents (Elt Ideal)) (x40 : (⟨S2x200000, .i32⟩ : BufTy).Contents (Elt Ideal)) :
    (ReadP.val_main_v165 (F := Ideal) x0 x2 x6 x7 x16 x17 x18 x19 x20 x21 x37 x40) = lin (ReadP.val_main_v161 (F := Ideal) x0 x2 x6 x7 x16 x17 x18 x19 x37 x40) x20 (rowOf x21) := by
  unfold ReadP.val_main_v165 ReadP.val_main_v162 ReadP.val_main_v164 ReadP.val_main_v163
  exact refLin _ _ _
theorem R_bn2D (x0 : (⟨S40000x256, .f32⟩ : BufTy).Contents (Elt Ideal)) (x2 : (⟨S200000x256, .f32⟩ : BufTy).Contents (Elt Ideal)) (x6 : (⟨S512x256, .f32⟩ : BufTy).Contents (Elt Ideal)) (x7 : (⟨S256, .f32⟩ : BufTy).Contents (Elt Ideal)) (x16 : (⟨S256x256, .f32⟩ : BufTy).Contents (Elt Ideal)) (x17 : (⟨S256, .f32⟩ : BufTy).Contents (Elt Ideal)) (x18 : (⟨S256, .f32⟩ : BufTy).Contents (Elt Ideal)) (x19 : (⟨S256, .f32⟩ : BufTy).Contents (Elt Ideal)) (x20 : (⟨S256x256, .f32⟩ : BufTy).Contents (Elt Ideal)) (x21 : (⟨S256, .f32⟩ : BufTy).Contents (Elt Ideal)) (x22 : (⟨S256, .f32⟩ : BufTy).Contents (Elt Ideal)) (x23 : (⟨S256, .f32⟩ : BufTy).Contents (Elt Ideal)) (x37 : (⟨S1, .f32⟩ : BufTy).Contents (Elt Ideal)) (x40 : (⟨S2x200000, .i32⟩ : BufTy).Contents (Elt Ideal)) :
    (ReadP.val_main_v191 (F := Ideal) x0 x2 x6 x7 x16 x17 x18 x19 x20 x21 x22 x23 x37 x40) = bnOwn (fun L => varDev L n40) n40 bnEps (ReadP.val_main_v165 (F := Ideal) x0 x2 x6 x7 x16 x17 x18 x19 x20 x21 x37 x40) (rowOf x22) (rowOf x23) := by
  unfold ReadP.val_main_v191 ReadP.val_main_v190 ReadP.val_main_v187 ReadP.val_main_v181 ReadP.val_main_v180 ReadP.val_main_v179 ReadP.val_main_v178 ReadP.val_main_v177 ReadP.val_main_v176 ReadP.val_main_v168 ReadP.val_main_v166 ReadP.val_main_cst_24 ReadP.val_main_v167 ReadP.val_main_cst_25 ReadP.val_main_v186 ReadP.val_main_v185 ReadP.val_main_v184 ReadP.val_main_v183 ReadP.val_main_v175 ReadP.val_main_v173 ReadP.val_main_v172 ReadP.val_main_v171 ReadP.val_main_v170 ReadP.val_main_v169 ReadP.val_main_cst_26 ReadP.val_main_v174 ReadP.val_main_cst_27 ReadP.val_main_v182 ReadP.val_main_cst_28 ReadP.val_main_v189 ReadP.val_main_v188 ReadP.val_main_call5_v0 ReadP.val_main_call5_cst
  exact refBn _ _ _
theorem R_mixB (x0 : (⟨S40000x256, .f32⟩ : BufTy).Contents (Elt Ideal)) (x3 : (⟨S60000x256, .f32⟩ : BufTy).Contents (Elt Ideal)) (x38 : (⟨S1, .f32⟩ : BufTy).Contents (Elt Ideal)) (x41 : (⟨S2x120000, .i32⟩ : BufTy).Contents (Elt Ideal)) :
    (ReadP.val_main_v197 (F := Ideal) x0 x3 x38 x41) = mix (ReadP.val_main_v59 (F := Ideal) x3 x41) x0 (Ideal.ofBits .f32 0x3F800000#32 + x38 (ix1 0)) := by
  unfold ReadP.val_main_v197 ReadP.val_main_v196 ReadP.val_main_v195 ReadP.val_main_v194 ReadP.val_main_v193 ReadP.val_main_v192 ReadP.val_main_cst_29
  exact refMix _ _ _
theorem R_l1B (x0 : (⟨S40000x256, .f32⟩ : BufTy).Contents (Elt Ideal)) (x3 : (⟨S60000x256, .f32⟩ : BufTy).Contents (Elt Ideal)) (x24 : (⟨S256x256, .f32⟩ : BufTy).Contents (Elt Ideal)) (x25 : (⟨S256, .f32⟩ : BufTy).Contents (Elt Ideal)) (x38 : (⟨S1, .f32⟩ : BufTy).Contents (Elt Ideal)) (x41 : (⟨S2x120000, .i32⟩ : BufTy).Contents (Elt Ideal)) :
    (ReadP.val_main_v201 (F := Ideal) x0 x3 x24 x25 x38 x41) = lin (ReadP.val_main_v197 (F := Ideal) x0 x3 x38 x41) x24 (rowOf x25) := by
  unfold ReadP.val_main_v201 ReadP.val_main_v198 ReadP.val_main_v200 ReadP.val_main_v199
  exact refLin _ _ _
theorem R_bn1B (x0 : (⟨S40000x256, .f32⟩ : BufTy).Contents (Elt Ideal)) (x3 : (⟨S60000x256, .f32⟩ : BufTy).Contents (Elt Ideal)) (x24 : (⟨S256x256, .f32⟩ : BufTy).Contents (Elt Ideal)) (x25 : (⟨S256, .f32⟩ : BufTy).Contents (Elt Ideal)) (x26 : (⟨S256, .f32⟩ : BufTy).Contents (Elt Ideal)) (x27 : (⟨S256, .f32⟩ : BufTy).Contents (Elt Ideal)) (x38 : (⟨S1, .f32⟩ : BufTy).Contents (Elt Ideal)) (x41 : (⟨S2x120000, .i32⟩ : BufTy).Contents (Elt Ideal)) :
    (ReadP.val_main_v227 (F := Ideal) x0 x3 x24 x25 x26 x27 x38 x41) = bnOwn (fun L => varDev L n40) n40 bnEps (ReadP.val_main_v201 (F := Ideal) x0 x3 x24 x25 x38 x41) (rowOf x26) (rowOf x27) := by
  unfold ReadP.val_main_v227 ReadP.val_main_v226 ReadP.val_main_v223 ReadP.val_main_v217 ReadP.val_main_v216 ReadP.val_main_v215 ReadP.val_main_v214 ReadP.val_main_v213 ReadP.val_main_v212 ReadP.val_main_v204 ReadP.val_main_v202 ReadP.val_main_cst_30 ReadP.val_main_v203 ReadP.val_main_cst_31 ReadP.val_main_v222 ReadP.val_main_v221 ReadP.val_main_v220 ReadP.val_main_v219 ReadP.val_main_v211 ReadP.val_main_v209 ReadP.val_main_v208 ReadP.val_main_v207 ReadP.val_main_v206 ReadP.val_main_v205 ReadP.val_main_cst_32 ReadP.val_main_v210 ReadP.val_main_cst_33 ReadP.val_main_v218 ReadP.val_main_cst_34 ReadP.val_main_v225 ReadP.val_main_v224 ReadP.val_main_call6_v0 ReadP.val_main_call6_cst
  exact refBn _ _ _
theorem R_l2B (x0 : (⟨S40000x256, .f32⟩ : BufTy).Contents (Elt Ideal)) (x3 : (⟨S60000x256, .f32⟩ : BufTy).Contents (Elt Ideal)) (x24 : (⟨S256x256, .f32⟩ : BufTy).Contents (Elt Ideal)) (x25 : (⟨S256, .f32⟩ : BufTy).Contents (Elt Ideal)) (x26 : (⟨S256, .f32⟩ : BufTy).Contents (Elt Ideal)) (x27 : (⟨S256, .f32⟩ : BufTy).Contents (Elt Ideal)) (x28 : (⟨S256x256, .f32⟩ : BufTy).Contents (Elt Ideal)) (x29 : (⟨S256, .f32⟩ : BufTy).Contents (Elt Ideal)) (x38 : (⟨S1, .f32⟩ : BufTy).Contents (Elt Ideal)) (x41 : (⟨S2x120000, .i32⟩ : BufTy).Contents (Elt Ideal)) :
    (ReadP.val_main_v231 (F := Ideal) x0 x3 x24 x25 x26 x27 x28 x29 x38 x41) = lin (ReadP.val_main_v227 (F := Ideal) x0 x3 x24 x25 x26 x27 x38 x41) x28 (rowOf x29) := by
  unfold ReadP.val_main_v231 ReadP.val_main_v228 ReadP.val_main_v230 ReadP.val_main_v229
  exact refLin _ _ _
theorem R_bn2B (x0 : (⟨S40000x256, .f32⟩ : BufTy).Contents (Elt Ideal)) (x3 : (⟨S60000x256, .f32⟩ : BufTy).Contents (Elt Ideal)) (x24 : (⟨S256x256, .f32⟩ : BufTy).Contents (Elt Ideal)) (x25 : (⟨S256, .f32⟩ : BufTy).Contents (Elt Ideal)) (x26 : (⟨S256, .f32⟩ : BufTy).Contents (Elt Ideal)) (x27 : (⟨S256, .f32⟩ : BufTy).Contents (Elt Ideal)) (x28 : (⟨S256x256, .f32⟩ : BufTy).Contents (Elt Ideal)) (x29 : (⟨S256, .f32⟩ : BufTy).Contents (Elt Ideal)) (x30 : (⟨S256, .f32⟩ : BufTy).Contents (Elt Ideal)) (x31 : (⟨S256, .f32⟩ : BufTy).Contents (Elt Ideal)) (x38 : (⟨S1, .f32⟩ : BufTy).Contents (Elt Ideal)) (x41 : (⟨S2x120000, .i32⟩ : BufTy).Contents (Elt Ideal)) :
    (ReadP.val_main_v257 (F := Ideal) x0 x3 x24 x25 x26 x27 x28 x29 x30 x31 x38 x41) = bnOwn (fun L => varDev L n40) n40 bnEps (ReadP.val_main_v231 (F := Ideal) x0 x3 x24 x25 x26 x27 x28 x29 x38 x41) (rowOf x30) (rowOf x31) := by
  unfold ReadP.val_main_v257 ReadP.val_main_v256 ReadP.val_main_v253 ReadP.val_main_v247 ReadP.val_main_v246 ReadP.val_main_v245 ReadP.val_main_v244 ReadP.val_main_v243 ReadP.val_main_v242 ReadP.val_main_v234 ReadP.val_main_v232 ReadP.val_main_cst_35 ReadP.val_main_v233 ReadP.val_main_cst_36 ReadP.val_main_v252 ReadP.val_main_v251 ReadP.val_main_v250 ReadP.val_main_v249 ReadP.val_main_v241 ReadP.val_main_v239 ReadP.val_main_v238 ReadP.val_main_v237 ReadP.val_main_v236 ReadP.val_main_v235 ReadP.val_main_cst_37 ReadP.val_main_v240 ReadP.val_main_cst_38 ReadP.val_main_v248 ReadP.val_main_cst_39 ReadP.val_main_v255 ReadP.val_main_v254 ReadP.val_main_call7_v0 ReadP.val_main_call7_cst
  exact refBn _ _ _
theorem R_pre (x0 : (⟨S40000x256, .f32⟩ : BufTy).Contents (Elt Ideal)) (x1 : (⟨S200000x256, .f32⟩ : BufTy).Contents (Elt Ideal)) (x2 : (⟨S200000x256, .f32⟩ : BufTy).Contents (Elt Ideal)) (x3 : (⟨S60000x256, .f32⟩ : BufTy).Contents (Elt Ideal)) (x4 : (⟨S512x256, .f32⟩ : BufTy).Contents (Elt Ideal)) (x5 : (⟨S256, .f32⟩ : BufTy).Contents (Elt Ideal)) (x6 : (⟨S512x256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal)) (x10 : (⟨S256, .f32⟩ : BufTy).Contents (Elt Ideal)) (x11 : (⟨S256, .f32⟩ : BufTy).Contents (Elt Ideal)) (x12 : (⟨S256x256, .f32⟩ : BufTy).Contents (Elt Ideal)) (x13 : (⟨S256, .f32⟩ : BufTy).Contents (Elt Ideal)) (x14 : (⟨S256, .f32⟩ : BufTy).Contents (Elt Ideal)) (x15 : (⟨S256, .f32⟩ : BufTy).Contents (Elt Ideal)) (x16 : (⟨S256x256, .f32⟩ : BufTy).Contents (Elt Ideal)) (x17 : (⟨S256, .f32⟩ : BufTy).Contents (Elt Ideal)) (x18 : (⟨S256, .f32⟩ : BufTy).Contents (Elt Ideal)) (x19 : (⟨S256, .f32⟩ : BufTy).Contents (Elt Ideal)) (x20 : (⟨S256x256, .f32⟩ : BufTy).Contents (Elt Ideal)) (x21 : (⟨S256, .f32⟩ : BufTy).Contents (Elt Ideal)) (x22 : (⟨S256, .f32⟩ : BufTy).Contents (Elt Ideal)) (x23 : (⟨S256, .f32⟩ : BufTy).Contents (Elt Ideal)) (x24 : (⟨S256x256, .f32⟩ : BufTy).Contents (Elt Ideal)) (x25 : (⟨S256, .f32⟩ : BufTy).Contents (Elt Ideal)) (x26 : (⟨S256, .f32⟩ : BufTy).Contents (Elt Ideal)) (x27 : (⟨S256, .f32⟩ : BufTy).Contents (Elt Ideal)) (x28 : (⟨S256x256, .f32⟩ : BufTy).Contents (Elt Ideal)) (x29 : (⟨S256, .f32⟩ : BufTy).Contents (Elt Ideal)) (x30 : (⟨S256, .f32⟩ : BufTy).Contents (Elt Ideal)) (x31 : (⟨S256, .f32⟩ : BufTy).Contents (Elt Ideal)) (x32 : (⟨S768x256, .f32⟩ : BufTy).Contents (Elt Ideal)) (x33 : (⟨S256, .f32⟩ : BufTy).Contents (Elt Ideal)) (x36 : (⟨S1, .f32⟩ : BufTy).Contents (Elt Ideal)) (x37 : (⟨S1, .f32⟩ : BufTy).Contents (Elt Ideal)) (x38 : (⟨S1, .f32⟩ : BufTy).Contents (Elt Ideal)) (x39 : (⟨S2x200000, .i32⟩ : BufTy).Contents (Elt Ideal)) (x40 : (⟨S2x200000, .i32⟩ : BufTy).Contents (Elt Ideal)) (x41 : (⟨S2x120000, .i32⟩ : BufTy).Contents (Elt Ideal)) :
    (ReadP.val_main_v262 (F := Ideal) x0 x1 x2 x3 x4 x5 x6 x7 x8 x9 x10 x11 x12 x13 x14 x15 x16 x17 x18 x19 x20 x21 x22 x23 x24 x25 x26 x27 x28 x29 x30 x31 x32 x33 x36 x37 x38 x39 x40 x41) = comb (lin (ReadP.val_main_v125 (F := Ideal) x0 x1 x4 x5 x8 x9 x10 x11 x12 x13 x14 x15 x36 x39) (blockOf x32 0) (fun _ => 0)) (lin (ReadP.val_main_v191 (F := Ideal) x0 x2 x6 x7 x16 x17 x18 x19 x20 x21 x22 x23 x37 x40) (blockOf x32 1) (fun _ => 0)) (lin (ReadP.val_main_v257 (F := Ideal) x0 x3 x24 x25 x26 x27 x28 x29 x30 x31 x38 x41) (blockOf x32 2) (fun _ => 0)) (rowOf x33) := by
  unfold ReadP.val_main_v262 ReadP.val_main_v259 ReadP.val_main_v258 ReadP.val_main_v261 ReadP.val_main_v260
  exact refCombine _ _ _ _ _
theorem R_out (x0 : (⟨S40000x256, .f32⟩ : BufTy).Contents (Elt Ideal)) (x1 : (⟨S200000x256, .f32⟩ : BufTy).Contents (Elt Ideal)) (x2 : (⟨S200000x256, .f32⟩ : BufTy).Contents (Elt Ideal)) (x3 : (⟨S60000x256, .f32⟩ : BufTy).Contents (Elt Ideal)) (x4 : (⟨S512x256, .f32⟩ : BufTy).Contents (Elt Ideal)) (x5 : (⟨S256, .f32⟩ : BufTy).Contents (Elt Ideal)) (x6 : (⟨S512x256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal)) (x10 : (⟨S256, .f32⟩ : BufTy).Contents (Elt Ideal)) (x11 : (⟨S256, .f32⟩ : BufTy).Contents (Elt Ideal)) (x12 : (⟨S256x256, .f32⟩ : BufTy).Contents (Elt Ideal)) (x13 : (⟨S256, .f32⟩ : BufTy).Contents (Elt Ideal)) (x14 : (⟨S256, .f32⟩ : BufTy).Contents (Elt Ideal)) (x15 : (⟨S256, .f32⟩ : BufTy).Contents (Elt Ideal)) (x16 : (⟨S256x256, .f32⟩ : BufTy).Contents (Elt Ideal)) (x17 : (⟨S256, .f32⟩ : BufTy).Contents (Elt Ideal)) (x18 : (⟨S256, .f32⟩ : BufTy).Contents (Elt Ideal)) (x19 : (⟨S256, .f32⟩ : BufTy).Contents (Elt Ideal)) (x20 : (⟨S256x256, .f32⟩ : BufTy).Contents (Elt Ideal)) (x21 : (⟨S256, .f32⟩ : BufTy).Contents (Elt Ideal)) (x22 : (⟨S256, .f32⟩ : BufTy).Contents (Elt Ideal)) (x23 : (⟨S256, .f32⟩ : BufTy).Contents (Elt Ideal)) (x24 : (⟨S256x256, .f32⟩ : BufTy).Contents (Elt Ideal)) (x25 : (⟨S256, .f32⟩ : BufTy).Contents (Elt Ideal)) (x26 : (⟨S256, .f32⟩ : BufTy).Contents (Elt Ideal)) (x27 : (⟨S256, .f32⟩ : BufTy).Contents (Elt Ideal)) (x28 : (⟨S256x256, .f32⟩ : BufTy).Contents (Elt Ideal)) (x29 : (⟨S256, .f32⟩ : BufTy).Contents (Elt Ideal)) (x30 : (⟨S256, .f32⟩ : BufTy).Contents (Elt Ideal)) (x31 : (⟨S256, .f32⟩ : BufTy).Contents (Elt Ideal)) (x32 : (⟨S768x256, .f32⟩ : BufTy).Contents (Elt Ideal)) (x33 : (⟨S256, .f32⟩ : BufTy).Contents (Elt Ideal)) (x34 : (⟨S256, .f32⟩ : BufTy).Contents (Elt Ideal)) (x35 : (⟨S256, .f32⟩ : BufTy).Contents (Elt Ideal)) (x36 : (⟨S1, .f32⟩ : BufTy).Contents (Elt Ideal)) (x37 : (⟨S1, .f32⟩ : BufTy).Contents (Elt Ideal)) (x38 : (⟨S1, .f32⟩ : BufTy).Contents (Elt Ideal)) (x39 : (⟨S2x200000, .i32⟩ : BufTy).Contents (Elt Ideal)) (x40 : (⟨S2x200000, .i32⟩ : BufTy).Contents (Elt Ideal)) (x41 : (⟨S2x120000, .i32⟩ : BufTy).Contents (Elt Ideal)) :
    (ReadP.val_main_v288 (F := Ideal) x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41) = bnOwn (fun L => varDev L n40) n40 bnEps (ReadP.val_main_v262 (F := Ideal) x0 x1 x2 x3 x4 x5 x6 x7 x8 x9 x10 x11 x12 x13 x14 x15 x16 x17 x18 x19 x20 x21 x22 x23 x24 x25 x26 x27 x28 x29 x30 x31 x32 x33 x36 x37 x38 x39 x40 x41) (rowOf x34) (rowOf x35) := by
  unfold ReadP.val_main_v288 ReadP.val_main_v287 ReadP.val_main_v284 ReadP.val_main_v278 ReadP.val_main_v277 ReadP.val_main_v276 ReadP.val_main_v275 ReadP.val_main_v274 ReadP.val_main_v273 ReadP.val_main_v265 ReadP.val_main_v263 ReadP.val_main_cst_40 ReadP.val_main_v264 ReadP.val_main_cst_41 ReadP.val_main_v283 ReadP.val_main_v282 ReadP.val_main_v281 ReadP.val_main_v280 ReadP.val_main_v272 ReadP.val_main_v270 ReadP.val_main_v269 ReadP.val_main_v268 ReadP.val_main_v267 ReadP.val_main_v266 ReadP.val_main_cst_42 ReadP.val_main_v271 ReadP.val_main_cst_43 ReadP.val_main_v279 ReadP.val_main_cst_44 ReadP.val_main_v286 ReadP.val_main_v285 ReadP.val_main_call8_v0 ReadP.val_main_call8_cst
  exact refBn _ _ _

/-- The reference's result is the forward head over the three forward branches, in the deviation spelling of the
    variance, at the aggregates the reference computes. -/
theorem ref_spec (x0 : (⟨S40000x256, .f32⟩ : BufTy).Contents (Elt Ideal)) (x1 : (⟨S200000x256, .f32⟩ : BufTy).Contents (Elt Ideal)) (x2 : (⟨S200000x256, .f32⟩ : BufTy).Contents (Elt Ideal)) (x3 : (⟨S60000x256, .f32⟩ : BufTy).Contents (Elt Ideal)) (x4 : (⟨S512x256, .f32⟩ : BufTy).Contents (Elt Ideal)) (x5 : (⟨S256, .f32⟩ : BufTy).Contents (Elt Ideal)) (x6 : (⟨S512x256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal)) (x10 : (⟨S256, .f32⟩ : BufTy).Contents (Elt Ideal)) (x11 : (⟨S256, .f32⟩ : BufTy).Contents (Elt Ideal)) (x12 : (⟨S256x256, .f32⟩ : BufTy).Contents (Elt Ideal)) (x13 : (⟨S256, .f32⟩ : BufTy).Contents (Elt Ideal)) (x14 : (⟨S256, .f32⟩ : BufTy).Contents (Elt Ideal)) (x15 : (⟨S256, .f32⟩ : BufTy).Contents (Elt Ideal)) (x16 : (⟨S256x256, .f32⟩ : BufTy).Contents (Elt Ideal)) (x17 : (⟨S256, .f32⟩ : BufTy).Contents (Elt Ideal)) (x18 : (⟨S256, .f32⟩ : BufTy).Contents (Elt Ideal)) (x19 : (⟨S256, .f32⟩ : BufTy).Contents (Elt Ideal)) (x20 : (⟨S256x256, .f32⟩ : BufTy).Contents (Elt Ideal)) (x21 : (⟨S256, .f32⟩ : BufTy).Contents (Elt Ideal)) (x22 : (⟨S256, .f32⟩ : BufTy).Contents (Elt Ideal)) (x23 : (⟨S256, .f32⟩ : BufTy).Contents (Elt Ideal)) (x24 : (⟨S256x256, .f32⟩ : BufTy).Contents (Elt Ideal)) (x25 : (⟨S256, .f32⟩ : BufTy).Contents (Elt Ideal)) (x26 : (⟨S256, .f32⟩ : BufTy).Contents (Elt Ideal)) (x27 : (⟨S256, .f32⟩ : BufTy).Contents (Elt Ideal)) (x28 : (⟨S256x256, .f32⟩ : BufTy).Contents (Elt Ideal)) (x29 : (⟨S256, .f32⟩ : BufTy).Contents (Elt Ideal)) (x30 : (⟨S256, .f32⟩ : BufTy).Contents (Elt Ideal)) (x31 : (⟨S256, .f32⟩ : BufTy).Contents (Elt Ideal)) (x32 : (⟨S768x256, .f32⟩ : BufTy).Contents (Elt Ideal)) (x33 : (⟨S256, .f32⟩ : BufTy).Contents (Elt Ideal)) (x34 : (⟨S256, .f32⟩ : BufTy).Contents (Elt Ideal)) (x35 : (⟨S256, .f32⟩ : BufTy).Contents (Elt Ideal)) (x36 : (⟨S1, .f32⟩ : BufTy).Contents (Elt Ideal)) (x37 : (⟨S1, .f32⟩ : BufTy).Contents (Elt Ideal)) (x38 : (⟨S1, .f32⟩ : BufTy).Contents (Elt Ideal)) (x39 : (⟨S2x200000, .i32⟩ : BufTy).Contents (Elt Ideal)) (x40 : (⟨S2x200000, .i32⟩ : BufTy).Contents (Elt Ideal)) (x41 : (⟨S2x120000, .i32⟩ : BufTy).Contents (Elt Ideal)) :
    (ReadP.val_main_v288 (F := Ideal) x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41)
      = head (fun L => varDev L n40) n40 bnEps
      (branch (fun L => varDev L n40) n40 bnEps (ReadP.val_main_v22 (F := Ideal) x0 x1 x4 x5 x39) x0 (Ideal.ofBits .f32 0x3F800000#32 + x36 (ix1 0)) x8 (rowOf x9) (rowOf x10) (rowOf x11)
        x12 (rowOf x13) (rowOf x14) (rowOf x15) (blockOf x32 0))
      (branch (fun L => varDev L n40) n40 bnEps (ReadP.val_main_v45 (F := Ideal) x0 x2 x6 x7 x40) x0 (Ideal.ofBits .f32 0x3F800000#32 + x37 (ix1 0)) x16 (rowOf x17) (rowOf x18) (rowOf x19)
        x20 (rowOf x21) (rowOf x22) (rowOf x23) (blockOf x32 1))
      (branch (fun L => varDev L n40) n40 bnEps (ReadP.val_main_v59 (F := Ideal) x3 x41) x0 (Ideal.ofBits .f32 0x3F800000#32 + x38 (ix1 0)) x24 (rowOf x25) (rowOf x26) (rowOf x27)
        x28 (rowOf x29) (rowOf x30) (rowOf x31) (blockOf x32 2))
      (rowOf x33) (rowOf x34) (rowOf x35) := by
  rw [R_out, R_pre, R_bn2U, R_l2U, R_bn1U, R_l1U, R_mixU, R_bn2D, R_l2D, R_bn1D, R_l1D, R_mixD, R_bn2B, R_l2B, R_bn1B, R_l1B, R_mixB]
  rfl

end Cert.ReferenceIdeal.RefRead

end
-- ==== Proof.BridgeK.lean ====
/-
  The program's take, read: the guarded row gather it computes, which under in-range source indices is the plain row gather; and the residual scale and the blocks of the combining weight read at an entry.
-/
import proofs.«129683_j53085795779156_2_alg».proof.Proof.ChainA
import proofs.«129683_j53085795779156_2_alg».proof.Proof.KernelSpec
import proofs.«129683_j53085795779156_2_alg».proof.Proof.RefRead
import proofs.«129683_j53085795779156_2_alg».proof.Proof.RefStages
import Idealize.ShloMosaic.Lib.Affine
import Idealize.ShloMosaic.PureOps.Reduce

set_option maxRecDepth 16384

noncomputable section

namespace TakeMask

open Idealize.ShloMosaic

theorem foldl_andi_all_one {ι : Type} (x : ι → BitVec 1) (hx : ∀ i, x i = 1#1) (l : List ι) :
    l.foldl (fun r i => IntOp.andi r (x i)) 1#1 = 1#1 := by
  induction l with
  | nil => rfl
  | cons a l ih =>
    rw [List.foldl_cons, hx a, show IntOp.andi 1#1 1#1 = 1#1 from by decide]
    exact ih

/-- `jnp.all` of an array of ones is one. -/
theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_all_one x hx _

/-- For an index word in `[0, lim)` the normalization keeps the word, and both guard bits are set. -/
theorem inRange_bits (v lim lim1 : BitVec 32) (h0 : IntOp.cmpi .sge v 0#32 = 1#1) (h1 : IntOp.cmpi .slt v lim = 1#1)
    (hl : lim1.toInt + 1 = lim.toInt) :
    Scalar.select (IntOp.cmpi .slt v 0#32) (IntOp.addi v lim) v = v
    ∧ IntOp.andi (IntOp.cmpi .sge v 0#32) (IntOp.cmpi .sle v lim1) = 1#1 := by
  have hv0 : (0#32 : BitVec 32).toInt ≤ v.toInt := IntOp.cmpi_sge.mp h0
  have hv1 : v.toInt < lim.toInt := IntOp.cmpi_slt.mp h1
  have hz : (0#32 : BitVec 32).toInt = 0 := by decide
  have hneg : IntOp.cmpi .slt v 0#32 = 0#1 := by
    rcases BitVec.eq_zero_or_eq_one (IntOp.cmpi .slt v 0#32) with h | h
    · exact h
    · have := IntOp.cmpi_slt.mp h; omega
  refine ⟨by rw [hneg]; exact ValueIdx.select_zero _ _, ?_⟩
  exact IntOp.andi_eq_one.mpr ⟨h0, IntOp.cmpi_sle.mpr (by omega)⟩

end TakeMask

namespace Cert.KernelIdeal.Chain

open Idealize.ShloMosaic Idealize.ShloMosaic.TcCoe Idealize.SL.Sem Idealize.ShloMosaic.ValueIdx
open Idealize.ShloMosaic.Pipeline (Dat)
open Cert.KernelIdeal Cert.KernelIdeal.Gen Cell Cert.KernelIdeal.RegCommon Cert.KernelIdeal.HostGlue

variable (m : (ℓ : Loc nD τ sig) → Buf (Elt Ideal) ℓ) (ρ : Dev nD → PrngReg)

/-- No operation of a host stretch writes the buffer, so the stretch leaves it as it was. -/
local macro "host_keep" ops:ident : term => `(StableHlo.after_of_forall_not_mem _ _ (List.forall_iff_forall_mem.mp (by
  simp only [$ops:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide))))

/-- Row 0 of a 2 × 200000 index array: the source indices. -/
def row0_e (ix : IVec S2x200000 32) : IVec S200000 32 :=
  shapeCast S200000 (extractStridedSlice S1x200000 ![0, 0] ix slices_S2x200000_S1x200000_0_0) shapeCasts_S1x200000_S200000

/-- Negative indices wrapped around by the extent 40000. -/
def norm_e (v : IVec S200000 32) : IVec S200000 32 :=
  select (cmpi .slt v (broadcastInDim S200000 ![] bcast_S_S200000 (constantI S_ 32 0#32)))
    (addi v (broadcastInDim S200000 ![] bcast_S_S200000 (constantI S_ 32 40000#32))) v

/-- The gather's start indices, one per edge. -/
def start_e (v : IVec S200000 32) : IVec S200000x1 32 := broadcastInDim S200000x1 ![0] bcast_S200000_S200000x1_0 (norm_e v)

/-- The guard: per edge, whether the start index lies in [0, 39999], repeated along the row. -/
def mask_e (v : IVec S200000 32) : IVec S200000x256 1 :=
  broadcastInDim S200000x256 ![0] bcast_S200000_S200000x256_0
    (Host.reduce IntOp.andi
      (andi (cmpi .sge (start_e v) (broadcastInDim S200000x1 ![] bcast_S_S200000x1 (constantI S_ 32 0#32)))
        (cmpi .sle (start_e v) (broadcastInDim S200000x1 ![0, 1] bcast_S1x1_S200000x1_0_1
          (broadcastInDim S1x1 ![1] bcast_S1_S1x1_1 (constantI S1 32 39999#32)))))
      (constantI S_ 1 1#1) reducesTo_S200000x1_S200000_d1 h_S_)

/-- The guarded row gather as the program's take computes it. -/
def take_e (x : FVec Ideal S40000x256 .f32) (v : IVec S200000 32) : FVec Ideal S200000x256 .f32 :=
  select (mask_e v) (Host.gather gather_S40000x256_S200000x1_S200000x256_1_0_n_n_0_1_1256 x (start_e v))
    (broadcastInDim S200000x256 ![] bcast_S_S200000x256 (constant (F := Ideal) S_ .f32 0x7FC00000#32))

theorem start_e_apply (v : IVec S200000 32) (i : S200000x1.Idx) :
    start_e v i = Scalar.select (IntOp.cmpi .slt (v (ix1 (i 0))) 0#32) (IntOp.addi (v (ix1 (i 0))) 40000#32) (v (ix1 (i 0))) := by
  unfold start_e
  refine (broadcastInDim_apply _ bcast_S200000_S200000x1_0 (norm_e v) i (ix1 (i 0)) (fun a => match a with
    | ⟨0, _⟩ => by show (i 0).val = if (200000 : Nat) = 1 then 0 else (i 0).val; rw [if_neg (by decide)])).trans ?_
  unfold norm_e
  rw [select_apply]
  show Scalar.select (IntOp.cmpi .slt (v (ix1 (i 0))) (broadcastInDim S200000 ![] bcast_S_S200000 (constantI S_ 32 0#32) (ix1 (i 0))))
      (IntOp.addi (v (ix1 (i 0))) (broadcastInDim S200000 ![] bcast_S_S200000 (constantI S_ 32 40000#32) (ix1 (i 0)))) (v (ix1 (i 0))) = _
  rw [broadcastInDim_apply _ bcast_S_S200000 (constantI S_ 32 0#32) (ix1 (i 0)) (fun a => a.elim0) (fun a => a.elim0),
    broadcastInDim_apply _ bcast_S_S200000 (constantI S_ 32 40000#32) (ix1 (i 0)) (fun a => a.elim0) (fun a => a.elim0)]
  rfl

/-- With every source index in [0, 40000) the guard is set everywhere, and the take is the plain row gather. -/
theorem take_e_eq (x : FVec Ideal S40000x256 .f32) (v : IVec S200000 32)
    (hv : ∀ r : S200000.Idx, IntOp.cmpi .sge (v r) 0#32 = 1#1 ∧ IntOp.cmpi .slt (v r) 40000#32 = 1#1) :
    take_e x v = Host.gather gather_S40000x256_S200000x1_S200000x256_1_0_n_n_0_1_1256 x (start_e v) := by
  have hbits : ∀ i : S200000x1.Idx,
      andi (cmpi .sge (start_e v) (broadcastInDim S200000x1 ![] bcast_S_S200000x1 (constantI S_ 32 0#32)))
        (cmpi .sle (start_e v) (broadcastInDim S200000x1 ![0, 1] bcast_S1x1_S200000x1_0_1
          (broadcastInDim S1x1 ![1] bcast_S1_S1x1_1 (constantI S1 32 39999#32)))) i = 1#1 := fun i => by
    obtain ⟨h0, h1⟩ := hv (ix1 (i 0))
    obtain ⟨hk, hb⟩ := TakeMask.inRange_bits (v (ix1 (i 0))) 40000#32 39999#32 h0 h1 (by decide)
    show IntOp.andi (IntOp.cmpi .sge (start_e v i) (broadcastInDim S200000x1 ![] bcast_S_S200000x1 (constantI S_ 32 0#32) i))
        (IntOp.cmpi .sle (start_e v i) (broadcastInDim S200000x1 ![0, 1] bcast_S1x1_S200000x1_0_1
          (broadcastInDim S1x1 ![1] bcast_S1_S1x1_1 (constantI S1 32 39999#32)) i)) = 1#1
    rw [start_e_apply, hk,
      broadcastInDim_apply _ bcast_S_S200000x1 (constantI S_ 32 0#32) i (fun a => a.elim0) (fun a => a.elim0),
      (broadcastInDim_apply _ bcast_S1x1_S200000x1_0_1 (broadcastInDim S1x1 ![1] bcast_S1_S1x1_1 (constantI S1 32 39999#32)) i (ix2 0 0) (fun a => match a with
        | ⟨0, _⟩ => by show 0 = if (1 : Nat) = 1 then 0 else (i 0).val; rw [if_pos rfl]
        | ⟨1, _⟩ => by show 0 = if (1 : Nat) = 1 then 0 else (i 1).val; rw [if_pos rfl])).trans
      (broadcastInDim_apply _ bcast_S1_S1x1_1 (constantI S1 32 39999#32) (ix2 0 0) (ix1 0) (fun a => match a with
        | ⟨0, _⟩ => by show 0 = if (1 : Nat) = 1 then 0 else 0; rw [if_pos rfl]))]
    exact hb
  funext j
  unfold take_e
  rw [select_apply]
  have hm : mask_e v j = 1#1 := by
    unfold mask_e
    refine (broadcastInDim_apply _ bcast_S200000_S200000x256_0 _ j (ix1 (j 0)) (fun a => match a with
      | ⟨0, _⟩ => by show (j 0).val = if (200000 : Nat) = 1 then 0 else (j 0).val; rw [if_neg (by decide)])).trans ?_
    exact TakeMask.reduce_andi_of_all _ _ reducesTo_S200000x1_S200000_d1 h_S_ rfl hbits _
  rw [hm, select_one]

/-- Row 0 of a 2 × 120000 index array: the source indices. -/
def row0_b (ix : IVec S2x120000 32) : IVec S120000 32 :=
  shapeCast S120000 (extractStridedSlice S1x120000 ![0, 0] ix slices_S2x120000_S1x120000_0_0) shapeCasts_S1x120000_S120000

/-- Negative indices wrapped around by the extent 60000. -/
def norm_b (v : IVec S120000 32) : IVec S120000 32 :=
  select (cmpi .slt v (broadcastInDim S120000 ![] bcast_S_S120000 (constantI S_ 32 0#32)))
    (addi v (broadcastInDim S120000 ![] bcast_S_S120000 (constantI S_ 32 60000#32))) v

/-- The gather's start indices, one per edge. -/
def start_b (v : IVec S120000 32) : IVec S120000x1 32 := broadcastInDim S120000x1 ![0] bcast_S120000_S120000x1_0 (norm_b v)

/-- The guard: per edge, whether the start index lies in [0, 59999], repeated along the row. -/
def mask_b (v : IVec S120000 32) : IVec S120000x256 1 :=
  broadcastInDim S120000x256 ![0] bcast_S120000_S120000x256_0
    (Host.reduce IntOp.andi
      (andi (cmpi .sge (start_b v) (broadcastInDim S120000x1 ![] bcast_S_S120000x1 (constantI S_ 32 0#32)))
        (cmpi .sle (start_b v) (broadcastInDim S120000x1 ![0, 1] bcast_S1x1_S120000x1_0_1
          (broadcastInDim S1x1 ![1] bcast_S1_S1x1_1 (constantI S1 32 59999#32)))))
      (constantI S_ 1 1#1) reducesTo_S120000x1_S120000_d1 h_S_)

/-- The guarded row gather as the program's take computes it. -/
def take_b (x : FVec Ideal S60000x256 .f32) (v : IVec S120000 32) : FVec Ideal S120000x256 .f32 :=
  select (mask_b v) (Host.gather gather_S60000x256_S120000x1_S120000x256_1_0_n_n_0_1_1256 x (start_b v))
    (broadcastInDim S120000x256 ![] bcast_S_S120000x256 (constant (F := Ideal) S_ .f32 0x7FC00000#32))

theorem start_b_apply (v : IVec S120000 32) (i : S120000x1.Idx) :
    start_b v i = Scalar.select (IntOp.cmpi .slt (v (ix1 (i 0))) 0#32) (IntOp.addi (v (ix1 (i 0))) 60000#32) (v (ix1 (i 0))) := by
  unfold start_b
  refine (broadcastInDim_apply _ bcast_S120000_S120000x1_0 (norm_b v) i (ix1 (i 0)) (fun a => match a with
    | ⟨0, _⟩ => by show (i 0).val = if (120000 : Nat) = 1 then 0 else (i 0).val; rw [if_neg (by decide)])).trans ?_
  unfold norm_b
  rw [select_apply]
  show Scalar.select (IntOp.cmpi .slt (v (ix1 (i 0))) (broadcastInDim S120000 ![] bcast_S_S120000 (constantI S_ 32 0#32) (ix1 (i 0))))
      (IntOp.addi (v (ix1 (i 0))) (broadcastInDim S120000 ![] bcast_S_S120000 (constantI S_ 32 60000#32) (ix1 (i 0)))) (v (ix1 (i 0))) = _
  rw [broadcastInDim_apply _ bcast_S_S120000 (constantI S_ 32 0#32) (ix1 (i 0)) (fun a => a.elim0) (fun a => a.elim0),
    broadcastInDim_apply _ bcast_S_S120000 (constantI S_ 32 60000#32) (ix1 (i 0)) (fun a => a.elim0) (fun a => a.elim0)]
  rfl

/-- With every source index in [0, 60000) the guard is set everywhere, and the take is the plain row gather. -/
theorem take_b_eq (x : FVec Ideal S60000x256 .f32) (v : IVec S120000 32)
    (hv : ∀ r : S120000.Idx, IntOp.cmpi .sge (v r) 0#32 = 1#1 ∧ IntOp.cmpi .slt (v r) 60000#32 = 1#1) :
    take_b x v = Host.gather gather_S60000x256_S120000x1_S120000x256_1_0_n_n_0_1_1256 x (start_b v) := by
  have hbits : ∀ i : S120000x1.Idx,
      andi (cmpi .sge (start_b v) (broadcastInDim S120000x1 ![] bcast_S_S120000x1 (constantI S_ 32 0#32)))
        (cmpi .sle (start_b v) (broadcastInDim S120000x1 ![0, 1] bcast_S1x1_S120000x1_0_1
          (broadcastInDim S1x1 ![1] bcast_S1_S1x1_1 (constantI S1 32 59999#32)))) i = 1#1 := fun i => by
    obtain ⟨h0, h1⟩ := hv (ix1 (i 0))
    obtain ⟨hk, hb⟩ := TakeMask.inRange_bits (v (ix1 (i 0))) 60000#32 59999#32 h0 h1 (by decide)
    show IntOp.andi (IntOp.cmpi .sge (start_b v i) (broadcastInDim S120000x1 ![] bcast_S_S120000x1 (constantI S_ 32 0#32) i))
        (IntOp.cmpi .sle (start_b v i) (broadcastInDim S120000x1 ![0, 1] bcast_S1x1_S120000x1_0_1
          (broadcastInDim S1x1 ![1] bcast_S1_S1x1_1 (constantI S1 32 59999#32)) i)) = 1#1
    rw [start_b_apply, hk,
      broadcastInDim_apply _ bcast_S_S120000x1 (constantI S_ 32 0#32) i (fun a => a.elim0) (fun a => a.elim0),
      (broadcastInDim_apply _ bcast_S1x1_S120000x1_0_1 (broadcastInDim S1x1 ![1] bcast_S1_S1x1_1 (constantI S1 32 59999#32)) i (ix2 0 0) (fun a => match a with
        | ⟨0, _⟩ => by show 0 = if (1 : Nat) = 1 then 0 else (i 0).val; rw [if_pos rfl]
        | ⟨1, _⟩ => by show 0 = if (1 : Nat) = 1 then 0 else (i 1).val; rw [if_pos rfl])).trans
      (broadcastInDim_apply _ bcast_S1_S1x1_1 (constantI S1 32 59999#32) (ix2 0 0) (ix1 0) (fun a => match a with
        | ⟨0, _⟩ => by show 0 = if (1 : Nat) = 1 then 0 else 0; rw [if_pos rfl]))]
    exact hb
  funext j
  unfold take_b
  rw [select_apply]
  have hm : mask_b v j = 1#1 := by
    unfold mask_b
    refine (broadcastInDim_apply _ bcast_S120000_S120000x256_0 _ j (ix1 (j 0)) (fun a => match a with
      | ⟨0, _⟩ => by show (j 0).val = if (120000 : Nat) = 1 then 0 else (j 0).val; rw [if_neg (by decide)])).trans ?_
    exact TakeMask.reduce_andi_of_all _ _ reducesTo_S120000x1_S120000_d1 h_S_ rfl hbits _
  rw [hm, select_one]

set_option maxHeartbeats 4000000 in
/-- The three take results are the guarded gathers of the features at the relations' source indices. -/
theorem takeU_eq (c : Dev nD) : takeU m ρ c = take_e (m ((c : Thread nD τ).loc main_arg0)) (row0_e (m ((c : Thread nD τ).loc main_arg39))) := by
  show StableHlo.after hostOps0_1 (W1 m ρ c) (Proc.devRef .tc main_v2) = _
  dsimp only [hostOps0_1]
  after_results_simp
  simp only [StableHlo.TRef.toBuf, StableHlo.TRef.ofBuf, cast_eq]
  rfl

set_option maxHeartbeats 4000000 in
theorem takeD_eq (c : Dev nD) : takeD m ρ c = take_e (m ((c : Thread nD τ).loc main_arg0)) (row0_e (m ((c : Thread nD τ).loc main_arg40))) := by
  show StableHlo.after hostOps0_3 (W3 m ρ c) (Proc.devRef .tc main_v5) = _
  dsimp only [hostOps0_3]
  after_results_simp
  simp only [StableHlo.TRef.toBuf, StableHlo.TRef.ofBuf, cast_eq]
  rfl

set_option maxHeartbeats 4000000 in
theorem takeB_eq (c : Dev nD) : takeB m ρ c = take_b (m ((c : Thread nD τ).loc main_arg3)) (row0_b (m ((c : Thread nD τ).loc main_arg41))) := by
  show StableHlo.after hostOps0_5 (W5 m ρ c) (Proc.devRef .tc main_v8) = _
  dsimp only [hostOps0_5]
  after_results_simp
  simp only [StableHlo.TRef.toBuf, StableHlo.TRef.ofBuf, cast_eq]
  rfl

/-! ## Realness through the row gather, the scatter-add and the slices -/

open BnStats in
theorem gather_real {s si t : Shape} {w : Nat} (d : GatherDims s si t) (x : s.Idx → EReal) (idx : IVec si w)
    (hx : ∀ i, IsReal (x i)) (j : t.Idx) : IsReal (Host.gather d x idx j) := hx _

open BnStats in
theorem scatterAdd_real {s si su : Shape} {w : Nat} (d : ScatterDims s si su) (z : FVec Ideal s .f32) (idx : IVec si w)
    (u : FVec Ideal su .f32) (hz : ∀ i, IsReal (z i)) (hu : ∀ j, IsReal (u j)) (i : s.Idx) :
    IsReal (Host.scatterAdd (F := Ideal) d z idx u i) := by
  show IsReal (Ideal.hostScatterAdd d z idx u i)
  unfold Ideal.hostScatterAdd
  exact (hz i).add (IsReal.sum _ fun j _ => hu j)

open BnStats in
theorem zeros40k_real (i : S40000x256.Idx) : IsReal (zeros40k i) := by
  have h : zeros40k i = 0 :=
    (broadcastInDim_apply _ bcast_S_S40000x256 (constant (F := Ideal) S_ .f32 0x00000000#32) i (fun a => a.elim0) (fun a => a.elim0)).trans
      ((constant_apply _ _).trans Ideal.ofBits_zero_f32)
  rw [h]; exact IsReal.zero

open BnStats in
theorem slice_real {s t : Shape} (off : Fin s.rank → Nat) (x : s.Idx → EReal) (h : s.Slices off t) (hx : ∀ i, IsReal (x i)) (j : t.Idx) :
    IsReal (extractStridedSlice t off x h j) := hx _

/-! ## The residual scale and the blocks of the combining weight, read at an entry -/

theorem scaleOf_apply (e : FVec Ideal S1 .f32) : scaleOf e (ix2 0 0) = Ideal.ofBits .f32 0x3F800000#32 + e (ix1 0) := by
  unfold scaleOf
  refine (shapeCast_apply _ shapeCasts_S_S1x1 (ix2 0 0) ix0 ?_).trans ?_
  · rw [Shape.rowMajor_val_two]
    have h : (S_.rowMajor ix0).val < 1 := (S_.rowMajor ix0).isLt
    simp; omega
  rw [addf_apply, constant_apply]
  refine congrArg (Ideal.ofBits .f32 0x3F800000#32 + ·) ?_
  refine shapeCast_apply _ shapeCasts_S1_S_ ix0 (ix1 0) ?_
  rw [Shape.rowMajor_val_one]
  have h : (S_.rowMajor ix0).val < 1 := (S_.rowMajor ix0).isLt
  simp; omega

theorem wcBlock0_eq (w : FVec Ideal S768x256 .f32) : wcBlock0 w = Cert.ReferenceIdeal.Stages.blockOf w 0 := by
  funext i
  unfold wcBlock0 Cert.ReferenceIdeal.Stages.blockOf
  exact extractStridedSlice_apply ![0, 0] w slices_S768x256_S256x256_0_0 i _ (fun a => match a with
    | ⟨0, _⟩ => by show 256 * 0 + (i 0).val = 0 + (i 0).val; omega
    | ⟨1, _⟩ => by show (i 1).val = 0 + (i 1).val; omega)
theorem wcBlock1_eq (w : FVec Ideal S768x256 .f32) : wcBlock1 w = Cert.ReferenceIdeal.Stages.blockOf w 1 := by
  funext i
  unfold wcBlock1 Cert.ReferenceIdeal.Stages.blockOf
  exact extractStridedSlice_apply ![256, 0] w slices_S768x256_S256x256_256_0 i _ (fun a => match a with
    | ⟨0, _⟩ => by show 256 * 1 + (i 0).val = 256 + (i 0).val; omega
    | ⟨1, _⟩ => by show (i 1).val = 0 + (i 1).val; omega)
theorem wcBlock2_eq (w : FVec Ideal S768x256 .f32) : wcBlock2 w = Cert.ReferenceIdeal.Stages.blockOf w 2 := by
  funext i
  unfold wcBlock2 Cert.ReferenceIdeal.Stages.blockOf
  exact extractStridedSlice_apply ![512, 0] w slices_S768x256_S256x256_512_0 i _ (fun a => match a with
    | ⟨0, _⟩ => by show 256 * 2 + (i 0).val = 512 + (i 0).val; omega
    | ⟨1, _⟩ => by show (i 1).val = 0 + (i 1).val; omega)

/-! ## The same arrays, as the two programs spell them -/

open Cert.ReferenceIdeal in
theorem zerosU_eq : zeros40k = ReadP.val_main_v20 (F := Ideal) := by unfold zeros40k ReadP.val_main_v20 ReadP.val_main_cst; rfl
open Cert.ReferenceIdeal in
theorem zerosD_eq : zeros40k = ReadP.val_main_v43 (F := Ideal) := by unfold zeros40k ReadP.val_main_v43 ReadP.val_main_cst_3; rfl
open Cert.ReferenceIdeal in
theorem zerosB_eq : zeros40k = ReadP.val_main_v57 (F := Ideal) := by unfold zeros40k ReadP.val_main_v57 ReadP.val_main_cst_6; rfl
open Cert.ReferenceIdeal in
theorem segU_eq (x : IVec S2x200000 32) : segIdx200 x = ReadP.val_main_v21 (F := Ideal) x := by
  unfold segIdx200 ReadP.val_main_v21 ReadP.val_main_v19 ReadP.val_main_v18; rfl
open Cert.ReferenceIdeal in
theorem segD_eq (x : IVec S2x200000 32) : segIdx200 x = ReadP.val_main_v44 (F := Ideal) x := by
  unfold segIdx200 ReadP.val_main_v44 ReadP.val_main_v42 ReadP.val_main_v41; rfl
open Cert.ReferenceIdeal in
theorem segB_eq (x : IVec S2x120000 32) : segIdx120 x = ReadP.val_main_v58 (F := Ideal) x := by
  unfold segIdx120 ReadP.val_main_v58 ReadP.val_main_v56 ReadP.val_main_v55; rfl
open Cert.ReferenceIdeal in
theorem startU_eq (x : IVec S2x200000 32) : start_e (row0_e x) = ReadP.val_main_v7 (F := Ideal) x := by
  unfold start_e norm_e row0_e ReadP.val_main_v7 ReadP.val_main_v6 ReadP.val_main_v5 ReadP.val_main_v4 ReadP.val_main_c_0 ReadP.val_main_v3
    ReadP.val_main_v2 ReadP.val_main_c ReadP.val_main_v1 ReadP.val_main_v0; rfl
open Cert.ReferenceIdeal in
theorem startD_eq (x : IVec S2x200000 32) : start_e (row0_e x) = ReadP.val_main_v30 (F := Ideal) x := by
  unfold start_e norm_e row0_e ReadP.val_main_v30 ReadP.val_main_v29 ReadP.val_main_v28 ReadP.val_main_v27 ReadP.val_main_c_2 ReadP.val_main_v26
    ReadP.val_main_v25 ReadP.val_main_c_1 ReadP.val_main_v24 ReadP.val_main_v23; rfl
open Cert.ReferenceIdeal in
theorem startB_eq (x : IVec S2x120000 32) : start_b (row0_b x) = ReadP.val_main_v53 (F := Ideal) x := by
  unfold start_b norm_b row0_b ReadP.val_main_v53 ReadP.val_main_v52 ReadP.val_main_v51 ReadP.val_main_v50 ReadP.val_main_c_5 ReadP.val_main_v49
    ReadP.val_main_v48 ReadP.val_main_c_4 ReadP.val_main_v47 ReadP.val_main_v46; rfl
open Cert.ReferenceIdeal in
theorem halvesU_eq (w : FVec Ideal S512x256 .f32) : topHalf w = ReadP.val_main_v9 (F := Ideal) w ∧ botHalf w = ReadP.val_main_v11 (F := Ideal) w := ⟨rfl, rfl⟩
open Cert.ReferenceIdeal in
theorem halvesD_eq (w : FVec Ideal S512x256 .f32) : topHalf w = ReadP.val_main_v32 (F := Ideal) w ∧ botHalf w = ReadP.val_main_v34 (F := Ideal) w := ⟨rfl, rfl⟩

/-! ## The two float words the algebra depends on -/

/-- The word 0x471C4000 denotes the real 40000. -/
theorem n40_real : Ideal.ofBits .f32 0x471C4000#32 = ((40000 : ℝ) : EReal) := by
  simp [Ideal.ofBits, Ideal.ieee, -EReal.coe_mul]; norm_num

/-- The word 0x3727C5AC denotes a positive real. -/
theorem eps_pos : ∃ e : ℝ, 0 < e ∧ Ideal.ofBits .f32 0x3727C5AC#32 = (e : EReal) := by
  refine ⟨_, ?_, by simp [Ideal.ofBits, Ideal.ieee, -EReal.coe_mul]; rfl⟩
  positivity

/-- The word 0x3F800000 denotes 1. -/
theorem one_real : Ideal.ofBits .f32 0x3F800000#32 = ((1 : ℝ) : EReal) := by
  simp [Ideal.ofBits, Ideal.ieee, -EReal.coe_mul]; norm_num

open Cert.ReferenceIdeal BnStats in
theorem aggU_bridge (x0 : FVec Ideal S40000x256 .f32) (x1 : FVec Ideal S200000x256 .f32) (x4 : FVec Ideal S512x256 .f32) (x5 : FVec Ideal S256 .f32) (x39 : IVec S2x200000 32) (hi39 : ∀ r, IntOp.cmpi .sge (row0_e x39 r) 0#32 = 1#1 ∧ IntOp.cmpi .slt (row0_e x39 r) 40000#32 = 1#1) :
    aggOf200 x39 (messages (take_e x0 (row0_e x39)) x1 (topHalf x4) (botHalf x4) (asRow x5)) = ReadP.val_main_v22 (F := Ideal) x0 x1 x4 x5 x39 := by
  rw [take_e_eq x0 _ hi39]
  unfold ReadP.val_main_v22
  rw [Cert.ReferenceIdeal.RefRead.R_msgU]
  unfold aggOf200 messages
  rw [row_asRow, zerosU_eq, segU_eq, startU_eq, (halvesU_eq x4).1, (halvesU_eq x4).2]
  unfold ReadP.val_main_v8
  rfl

open Cert.ReferenceIdeal BnStats in
theorem aggU_real (x0 : FVec Ideal S40000x256 .f32) (x1 : FVec Ideal S200000x256 .f32) (x4 : FVec Ideal S512x256 .f32) (x5 : FVec Ideal S256 .f32) (x39 : IVec S2x200000 32) (h0 : ∀ i, IsReal (x0 i)) (h1 : ∀ i, IsReal (x1 i)) (h4 : ∀ i, IsReal (x4 i)) (h5 : ∀ i, IsReal (x5 i)) (hi39 : ∀ r, IntOp.cmpi .sge (row0_e x39 r) 0#32 = 1#1 ∧ IntOp.cmpi .slt (row0_e x39 r) 40000#32 = 1#1) :
    RealArr (aggOf200 x39 (messages (take_e x0 (row0_e x39)) x1 (topHalf x4) (botHalf x4) (asRow x5))) := by
  rw [take_e_eq x0 _ hi39]
  intro i
  unfold aggOf200
  refine scatterAdd_real _ _ _ _ zeros40k_real (fun j => ?_) i
  unfold messages
  refine msg_real (fun j => gather_real _ _ _ h0 j) h1 (fun j => slice_real _ _ _ h4 j) (fun j => slice_real _ _ _ h4 j) (fun c => ?_) j
  rw [row_asRow]
  exact h5 _

open Cert.ReferenceIdeal BnStats in
theorem aggD_bridge (x0 : FVec Ideal S40000x256 .f32) (x2 : FVec Ideal S200000x256 .f32) (x6 : FVec Ideal S512x256 .f32) (x7 : FVec Ideal S256 .f32) (x40 : IVec S2x200000 32) (hi40 : ∀ r, IntOp.cmpi .sge (row0_e x40 r) 0#32 = 1#1 ∧ IntOp.cmpi .slt (row0_e x40 r) 40000#32 = 1#1) :
    aggOf200 x40 (messages (take_e x0 (row0_e x40)) x2 (topHalf x6) (botHalf x6) (asRow x7)) = ReadP.val_main_v45 (F := Ideal) x0 x2 x6 x7 x40 := by
  rw [take_e_eq x0 _ hi40]
  unfold ReadP.val_main_v45
  rw [Cert.ReferenceIdeal.RefRead.R_msgD]
  unfold aggOf200 messages
  rw [row_asRow, zerosD_eq, segD_eq, startD_eq, (halvesD_eq x6).1, (halvesD_eq x6).2]
  unfold ReadP.val_main_v31
  rfl

open Cert.ReferenceIdeal BnStats in
theorem aggD_real (x0 : FVec Ideal S40000x256 .f32) (x2 : FVec Ideal S200000x256 .f32) (x6 : FVec Ideal S512x256 .f32) (x7 : FVec Ideal S256 .f32) (x40 : IVec S2x200000 32) (h0 : ∀ i, IsReal (x0 i)) (h2 : ∀ i, IsReal (x2 i)) (h6 : ∀ i, IsReal (x6 i)) (h7 : ∀ i, IsReal (x7 i)) (hi40 : ∀ r, IntOp.cmpi .sge (row0_e x40 r) 0#32 = 1#1 ∧ IntOp.cmpi .slt (row0_e x40 r) 40000#32 = 1#1) :
    RealArr (aggOf200 x40 (messages (take_e x0 (row0_e x40)) x2 (topHalf x6) (botHalf x6) (asRow x7))) := by
  rw [take_e_eq x0 _ hi40]
  intro i
  unfold aggOf200
  refine scatterAdd_real _ _ _ _ zeros40k_real (fun j => ?_) i
  unfold messages
  refine msg_real (fun j => gather_real _ _ _ h0 j) h2 (fun j => slice_real _ _ _ h6 j) (fun j => slice_real _ _ _ h6 j) (fun c => ?_) j
  rw [row_asRow]
  exact h7 _

open Cert.ReferenceIdeal BnStats in
theorem aggB_bridge (x3 : FVec Ideal S60000x256 .f32) (x41 : IVec S2x120000 32) (hi41 : ∀ r, IntOp.cmpi .sge (row0_b x41 r) 0#32 = 1#1 ∧ IntOp.cmpi .slt (row0_b x41 r) 60000#32 = 1#1) :
    aggOf120 x41 (take_b x3 (row0_b x41)) = ReadP.val_main_v59 (F := Ideal) x3 x41 := by
  rw [take_b_eq x3 _ hi41]
  unfold ReadP.val_main_v59 aggOf120
  rw [zerosB_eq, segB_eq, startB_eq]
  unfold ReadP.val_main_v54
  rfl

open Cert.ReferenceIdeal BnStats in
theorem aggB_real (x3 : FVec Ideal S60000x256 .f32) (x41 : IVec S2x120000 32) (h3 : ∀ i, IsReal (x3 i)) (hi41 : ∀ r, IntOp.cmpi .sge (row0_b x41 r) 0#32 = 1#1 ∧ IntOp.cmpi .slt (row0_b x41 r) 60000#32 = 1#1) :
    RealArr (aggOf120 x41 (take_b x3 (row0_b x41))) := by
  rw [take_b_eq x3 _ hi41]
  intro i
  unfold aggOf120
  exact scatterAdd_real _ _ _ _ zeros40k_real (fun j => gather_real _ _ _ h3 j) i

open Cert.ReferenceIdeal BnStats in
/-- The upper branch: the kernel's spelling is the reference's. -/
theorem branchU_bridge (x0 : FVec Ideal S40000x256 .f32) (x1 : FVec Ideal S200000x256 .f32) (x4 : FVec Ideal S512x256 .f32) (x5 : FVec Ideal S256 .f32) (x8 : FVec Ideal S256x256 .f32) (x9 : FVec Ideal S256 .f32) (x10 : FVec Ideal S256 .f32) (x11 : FVec Ideal S256 .f32) (x12 : FVec Ideal S256x256 .f32) (x13 : FVec Ideal S256 .f32) (x14 : FVec Ideal S256 .f32) (x15 : FVec Ideal S256 .f32) (x32 : FVec Ideal S768x256 .f32) (x36 : FVec Ideal S1 .f32) (x39 : IVec S2x200000 32) (h0 : ∀ i, IsReal (x0 i)) (h1 : ∀ i, IsReal (x1 i)) (h4 : ∀ i, IsReal (x4 i)) (h5 : ∀ i, IsReal (x5 i)) (h8 : ∀ i, IsReal (x8 i)) (h9 : ∀ i, IsReal (x9 i)) (h10 : ∀ i, IsReal (x10 i)) (h11 : ∀ i, IsReal (x11 i)) (h12 : ∀ i, IsReal (x12 i)) (h13 : ∀ i, IsReal (x13 i)) (h14 : ∀ i, IsReal (x14 i)) (h15 : ∀ i, IsReal (x15 i)) (h32 : ∀ i, IsReal (x32 i)) (h36 : ∀ i, IsReal (x36 i)) (hi39 : ∀ r, IntOp.cmpi .sge (row0_e x39 r) 0#32 = 1#1 ∧ IntOp.cmpi .slt (row0_e x39 r) 40000#32 = 1#1) :
    branch vSq n40 bnEps (aggOf200 x39 (messages (take_e x0 (row0_e x39)) x1 (topHalf x4) (botHalf x4) (asRow x5))) x0 (scaleOf x36 (ix2 0 0)) x8 (rowv x9) (rowv x10) (rowv x11) x12 (rowv x13) (rowv x14) (rowv x15) (wcBlock0 x32)
      = branch (fun L => varDev L Cert.ReferenceIdeal.Stages.n40) Cert.ReferenceIdeal.Stages.n40 Cert.ReferenceIdeal.Stages.bnEps (ReadP.val_main_v22 (F := Ideal) x0 x1 x4 x5 x39)
          x0 (Ideal.ofBits .f32 0x3F800000#32 + x36 (ix1 0)) x8 (rowOf x9) (rowOf x10) (rowOf x11) x12 (rowOf x13) (rowOf x14) (rowOf x15) (Cert.ReferenceIdeal.Stages.blockOf x32 0) := by
  have hA := aggU_real x0 x1 x4 x5 x39 h0 h1 h4 h5 hi39
  rw [← aggU_bridge x0 x1 x4 x5 x39 hi39, scaleOf_apply, wcBlock0_eq]
  obtain ⟨e, he, hbe⟩ := eps_pos
  show branch (fun L => varSq L (Ideal.ofBits .f32 0x471C4000#32)) (Ideal.ofBits .f32 0x471C4000#32) (Ideal.ofBits .f32 0x3727C5AC#32) _ _ _ _ _ _ _ _ _ _ _ _
    = branch (fun L => varDev L (Ideal.ofBits .f32 0x471C4000#32)) (Ideal.ofBits .f32 0x471C4000#32) (Ideal.ofBits .f32 0x3727C5AC#32) _ _ _ _ _ _ _ _ _ _ _ _
  rw [n40_real, hbe]
  exact branch_sq_eq_dev 40000 e rfl he hA h0 (by rw [one_real]; exact (IsReal.coe 1).add (h36 _)) h8 (fun c => h9 _) (fun c => h10 _) (fun c => h11 _) h12 (fun c => h13 _) (fun c => h14 _) (fun c => h15 _)

open Cert.ReferenceIdeal BnStats in
theorem branchU_real (x0 : FVec Ideal S40000x256 .f32) (x1 : FVec Ideal S200000x256 .f32) (x4 : FVec Ideal S512x256 .f32) (x5 : FVec Ideal S256 .f32) (x8 : FVec Ideal S256x256 .f32) (x9 : FVec Ideal S256 .f32) (x10 : FVec Ideal S256 .f32) (x11 : FVec Ideal S256 .f32) (x12 : FVec Ideal S256x256 .f32) (x13 : FVec Ideal S256 .f32) (x14 : FVec Ideal S256 .f32) (x15 : FVec Ideal S256 .f32) (x32 : FVec Ideal S768x256 .f32) (x36 : FVec Ideal S1 .f32) (x39 : IVec S2x200000 32) (h0 : ∀ i, IsReal (x0 i)) (h1 : ∀ i, IsReal (x1 i)) (h4 : ∀ i, IsReal (x4 i)) (h5 : ∀ i, IsReal (x5 i)) (h8 : ∀ i, IsReal (x8 i)) (h9 : ∀ i, IsReal (x9 i)) (h10 : ∀ i, IsReal (x10 i)) (h11 : ∀ i, IsReal (x11 i)) (h12 : ∀ i, IsReal (x12 i)) (h13 : ∀ i, IsReal (x13 i)) (h14 : ∀ i, IsReal (x14 i)) (h15 : ∀ i, IsReal (x15 i)) (h32 : ∀ i, IsReal (x32 i)) (h36 : ∀ i, IsReal (x36 i)) (hi39 : ∀ r, IntOp.cmpi .sge (row0_e x39 r) 0#32 = 1#1 ∧ IntOp.cmpi .slt (row0_e x39 r) 40000#32 = 1#1) (e : ℝ) (he : 0 < e) :
    RealArr (branch (fun L => varDev L ((40000 : ℝ) : EReal)) ((40000 : ℝ) : EReal) (e : EReal) (ReadP.val_main_v22 (F := Ideal) x0 x1 x4 x5 x39)
          x0 (Ideal.ofBits .f32 0x3F800000#32 + x36 (ix1 0)) x8 (rowOf x9) (rowOf x10) (rowOf x11) x12 (rowOf x13) (rowOf x14) (rowOf x15) (Cert.ReferenceIdeal.Stages.blockOf x32 0)) := by
  have hA := aggU_real x0 x1 x4 x5 x39 h0 h1 h4 h5 hi39
  rw [← aggU_bridge x0 x1 x4 x5 x39 hi39]
  exact branch_dev_real 40000 e (by norm_num) he hA h0 (by rw [one_real]; exact (IsReal.coe 1).add (h36 _)) h8 (fun c => h9 _) (fun c => h10 _) (fun c => h11 _) h12 (fun c => h13 _) (fun c => h14 _) (fun c => h15 _) (fun i => h32 _)

open Cert.ReferenceIdeal BnStats in
/-- The lower branch: the kernel's spelling is the reference's. -/
theorem branchD_bridge (x0 : FVec Ideal S40000x256 .f32) (x2 : FVec Ideal S200000x256 .f32) (x6 : FVec Ideal S512x256 .f32) (x7 : FVec Ideal S256 .f32) (x16 : FVec Ideal S256x256 .f32) (x17 : FVec Ideal S256 .f32) (x18 : FVec Ideal S256 .f32) (x19 : FVec Ideal S256 .f32) (x20 : FVec Ideal S256x256 .f32) (x21 : FVec Ideal S256 .f32) (x22 : FVec Ideal S256 .f32) (x23 : FVec Ideal S256 .f32) (x32 : FVec Ideal S768x256 .f32) (x37 : FVec Ideal S1 .f32) (x40 : IVec S2x200000 32) (h0 : ∀ i, IsReal (x0 i)) (h2 : ∀ i, IsReal (x2 i)) (h6 : ∀ i, IsReal (x6 i)) (h7 : ∀ i, IsReal (x7 i)) (h16 : ∀ i, IsReal (x16 i)) (h17 : ∀ i, IsReal (x17 i)) (h18 : ∀ i, IsReal (x18 i)) (h19 : ∀ i, IsReal (x19 i)) (h20 : ∀ i, IsReal (x20 i)) (h21 : ∀ i, IsReal (x21 i)) (h22 : ∀ i, IsReal (x22 i)) (h23 : ∀ i, IsReal (x23 i)) (h32 : ∀ i, IsReal (x32 i)) (h37 : ∀ i, IsReal (x37 i)) (hi40 : ∀ r, IntOp.cmpi .sge (row0_e x40 r) 0#32 = 1#1 ∧ IntOp.cmpi .slt (row0_e x40 r) 40000#32 = 1#1) :
    branch vSq n40 bnEps (aggOf200 x40 (messages (take_e x0 (row0_e x40)) x2 (topHalf x6) (botHalf x6) (asRow x7))) x0 (scaleOf x37 (ix2 0 0)) x16 (rowv x17) (rowv x18) (rowv x19) x20 (rowv x21) (rowv x22) (rowv x23) (wcBlock1 x32)
      = branch (fun L => varDev L Cert.ReferenceIdeal.Stages.n40) Cert.ReferenceIdeal.Stages.n40 Cert.ReferenceIdeal.Stages.bnEps (ReadP.val_main_v45 (F := Ideal) x0 x2 x6 x7 x40)
          x0 (Ideal.ofBits .f32 0x3F800000#32 + x37 (ix1 0)) x16 (rowOf x17) (rowOf x18) (rowOf x19) x20 (rowOf x21) (rowOf x22) (rowOf x23) (Cert.ReferenceIdeal.Stages.blockOf x32 1) := by
  have hA := aggD_real x0 x2 x6 x7 x40 h0 h2 h6 h7 hi40
  rw [← aggD_bridge x0 x2 x6 x7 x40 hi40, scaleOf_apply, wcBlock1_eq]
  obtain ⟨e, he, hbe⟩ := eps_pos
  show branch (fun L => varSq L (Ideal.ofBits .f32 0x471C4000#32)) (Ideal.ofBits .f32 0x471C4000#32) (Ideal.ofBits .f32 0x3727C5AC#32) _ _ _ _ _ _ _ _ _ _ _ _
    = branch (fun L => varDev L (Ideal.ofBits .f32 0x471C4000#32)) (Ideal.ofBits .f32 0x471C4000#32) (Ideal.ofBits .f32 0x3727C5AC#32) _ _ _ _ _ _ _ _ _ _ _ _
  rw [n40_real, hbe]
  exact branch_sq_eq_dev 40000 e rfl he hA h0 (by rw [one_real]; exact (IsReal.coe 1).add (h37 _)) h16 (fun c => h17 _) (fun c => h18 _) (fun c => h19 _) h20 (fun c => h21 _) (fun c => h22 _) (fun c => h23 _)

open Cert.ReferenceIdeal BnStats in
theorem branchD_real (x0 : FVec Ideal S40000x256 .f32) (x2 : FVec Ideal S200000x256 .f32) (x6 : FVec Ideal S512x256 .f32) (x7 : FVec Ideal S256 .f32) (x16 : FVec Ideal S256x256 .f32) (x17 : FVec Ideal S256 .f32) (x18 : FVec Ideal S256 .f32) (x19 : FVec Ideal S256 .f32) (x20 : FVec Ideal S256x256 .f32) (x21 : FVec Ideal S256 .f32) (x22 : FVec Ideal S256 .f32) (x23 : FVec Ideal S256 .f32) (x32 : FVec Ideal S768x256 .f32) (x37 : FVec Ideal S1 .f32) (x40 : IVec S2x200000 32) (h0 : ∀ i, IsReal (x0 i)) (h2 : ∀ i, IsReal (x2 i)) (h6 : ∀ i, IsReal (x6 i)) (h7 : ∀ i, IsReal (x7 i)) (h16 : ∀ i, IsReal (x16 i)) (h17 : ∀ i, IsReal (x17 i)) (h18 : ∀ i, IsReal (x18 i)) (h19 : ∀ i, IsReal (x19 i)) (h20 : ∀ i, IsReal (x20 i)) (h21 : ∀ i, IsReal (x21 i)) (h22 : ∀ i, IsReal (x22 i)) (h23 : ∀ i, IsReal (x23 i)) (h32 : ∀ i, IsReal (x32 i)) (h37 : ∀ i, IsReal (x37 i)) (hi40 : ∀ r, IntOp.cmpi .sge (row0_e x40 r) 0#32 = 1#1 ∧ IntOp.cmpi .slt (row0_e x40 r) 40000#32 = 1#1) (e : ℝ) (he : 0 < e) :
    RealArr (branch (fun L => varDev L ((40000 : ℝ) : EReal)) ((40000 : ℝ) : EReal) (e : EReal) (ReadP.val_main_v45 (F := Ideal) x0 x2 x6 x7 x40)
          x0 (Ideal.ofBits .f32 0x3F800000#32 + x37 (ix1 0)) x16 (rowOf x17) (rowOf x18) (rowOf x19) x20 (rowOf x21) (rowOf x22) (rowOf x23) (Cert.ReferenceIdeal.Stages.blockOf x32 1)) := by
  have hA := aggD_real x0 x2 x6 x7 x40 h0 h2 h6 h7 hi40
  rw [← aggD_bridge x0 x2 x6 x7 x40 hi40]
  exact branch_dev_real 40000 e (by norm_num) he hA h0 (by rw [one_real]; exact (IsReal.coe 1).add (h37 _)) h16 (fun c => h17 _) (fun c => h18 _) (fun c => h19 _) h20 (fun c => h21 _) (fun c => h22 _) (fun c => h23 _) (fun i => h32 _)

open Cert.ReferenceIdeal BnStats in
/-- The boundary branch: the kernel's spelling is the reference's. -/
theorem branchB_bridge (x0 : FVec Ideal S40000x256 .f32) (x3 : FVec Ideal S60000x256 .f32) (x24 : FVec Ideal S256x256 .f32) (x25 : FVec Ideal S256 .f32) (x26 : FVec Ideal S256 .f32) (x27 : FVec Ideal S256 .f32) (x28 : FVec Ideal S256x256 .f32) (x29 : FVec Ideal S256 .f32) (x30 : FVec Ideal S256 .f32) (x31 : FVec Ideal S256 .f32) (x32 : FVec Ideal S768x256 .f32) (x38 : FVec Ideal S1 .f32) (x41 : IVec S2x120000 32) (h0 : ∀ i, IsReal (x0 i)) (h3 : ∀ i, IsReal (x3 i)) (h24 : ∀ i, IsReal (x24 i)) (h25 : ∀ i, IsReal (x25 i)) (h26 : ∀ i, IsReal (x26 i)) (h27 : ∀ i, IsReal (x27 i)) (h28 : ∀ i, IsReal (x28 i)) (h29 : ∀ i, IsReal (x29 i)) (h30 : ∀ i, IsReal (x30 i)) (h31 : ∀ i, IsReal (x31 i)) (h32 : ∀ i, IsReal (x32 i)) (h38 : ∀ i, IsReal (x38 i)) (hi41 : ∀ r, IntOp.cmpi .sge (row0_b x41 r) 0#32 = 1#1 ∧ IntOp.cmpi .slt (row0_b x41 r) 60000#32 = 1#1) :
    branch vSq n40 bnEps (aggOf120 x41 (take_b x3 (row0_b x41))) x0 (scaleOf x38 (ix2 0 0)) x24 (rowv x25) (rowv x26) (rowv x27) x28 (rowv x29) (rowv x30) (rowv x31) (wcBlock2 x32)
      = branch (fun L => varDev L Cert.ReferenceIdeal.Stages.n40) Cert.ReferenceIdeal.Stages.n40 Cert.ReferenceIdeal.Stages.bnEps (ReadP.val_main_v59 (F := Ideal) x3 x41)
          x0 (Ideal.ofBits .f32 0x3F800000#32 + x38 (ix1 0)) x24 (rowOf x25) (rowOf x26) (rowOf x27) x28 (rowOf x29) (rowOf x30) (rowOf x31) (Cert.ReferenceIdeal.Stages.blockOf x32 2) := by
  have hA := aggB_real x3 x41 h3 hi41
  rw [← aggB_bridge x3 x41 hi41, scaleOf_apply, wcBlock2_eq]
  obtain ⟨e, he, hbe⟩ := eps_pos
  show branch (fun L => varSq L (Ideal.ofBits .f32 0x471C4000#32)) (Ideal.ofBits .f32 0x471C4000#32) (Ideal.ofBits .f32 0x3727C5AC#32) _ _ _ _ _ _ _ _ _ _ _ _
    = branch (fun L => varDev L (Ideal.ofBits .f32 0x471C4000#32)) (Ideal.ofBits .f32 0x471C4000#32) (Ideal.ofBits .f32 0x3727C5AC#32) _ _ _ _ _ _ _ _ _ _ _ _
  rw [n40_real, hbe]
  exact branch_sq_eq_dev 40000 e rfl he hA h0 (by rw [one_real]; exact (IsReal.coe 1).add (h38 _)) h24 (fun c => h25 _) (fun c => h26 _) (fun c => h27 _) h28 (fun c => h29 _) (fun c => h30 _) (fun c => h31 _)

open Cert.ReferenceIdeal BnStats in
theorem branchB_real (x0 : FVec Ideal S40000x256 .f32) (x3 : FVec Ideal S60000x256 .f32) (x24 : FVec Ideal S256x256 .f32) (x25 : FVec Ideal S256 .f32) (x26 : FVec Ideal S256 .f32) (x27 : FVec Ideal S256 .f32) (x28 : FVec Ideal S256x256 .f32) (x29 : FVec Ideal S256 .f32) (x30 : FVec Ideal S256 .f32) (x31 : FVec Ideal S256 .f32) (x32 : FVec Ideal S768x256 .f32) (x38 : FVec Ideal S1 .f32) (x41 : IVec S2x120000 32) (h0 : ∀ i, IsReal (x0 i)) (h3 : ∀ i, IsReal (x3 i)) (h24 : ∀ i, IsReal (x24 i)) (h25 : ∀ i, IsReal (x25 i)) (h26 : ∀ i, IsReal (x26 i)) (h27 : ∀ i, IsReal (x27 i)) (h28 : ∀ i, IsReal (x28 i)) (h29 : ∀ i, IsReal (x29 i)) (h30 : ∀ i, IsReal (x30 i)) (h31 : ∀ i, IsReal (x31 i)) (h32 : ∀ i, IsReal (x32 i)) (h38 : ∀ i, IsReal (x38 i)) (hi41 : ∀ r, IntOp.cmpi .sge (row0_b x41 r) 0#32 = 1#1 ∧ IntOp.cmpi .slt (row0_b x41 r) 60000#32 = 1#1) (e : ℝ) (he : 0 < e) :
    RealArr (branch (fun L => varDev L ((40000 : ℝ) : EReal)) ((40000 : ℝ) : EReal) (e : EReal) (ReadP.val_main_v59 (F := Ideal) x3 x41)
          x0 (Ideal.ofBits .f32 0x3F800000#32 + x38 (ix1 0)) x24 (rowOf x25) (rowOf x26) (rowOf x27) x28 (rowOf x29) (rowOf x30) (rowOf x31) (Cert.ReferenceIdeal.Stages.blockOf x32 2)) := by
  have hA := aggB_real x3 x41 h3 hi41
  rw [← aggB_bridge x3 x41 hi41]
  exact branch_dev_real 40000 e (by norm_num) he hA h0 (by rw [one_real]; exact (IsReal.coe 1).add (h38 _)) h24 (fun c => h25 _) (fun c => h26 _) (fun c => h27 _) h28 (fun c => h29 _) (fun c => h30 _) (fun c => h31 _) (fun i => h32 _)

open Cert.ReferenceIdeal BnStats in
/-- The layer: the kernel's spelling of the whole forward pass is the reference's last stage. -/
theorem layer_bridge (x0 : FVec Ideal S40000x256 .f32) (x1 : FVec Ideal S200000x256 .f32) (x2 : FVec Ideal S200000x256 .f32) (x3 : FVec Ideal S60000x256 .f32) (x4 : FVec Ideal S512x256 .f32) (x5 : FVec Ideal S256 .f32) (x6 : FVec Ideal S512x256 .f32) (x7 : FVec Ideal S256 .f32) (x8 : FVec Ideal S256x256 .f32) (x9 : FVec Ideal S256 .f32) (x10 : FVec Ideal S256 .f32) (x11 : FVec Ideal S256 .f32) (x12 : FVec Ideal S256x256 .f32) (x13 : FVec Ideal S256 .f32) (x14 : FVec Ideal S256 .f32) (x15 : FVec Ideal S256 .f32) (x16 : FVec Ideal S256x256 .f32) (x17 : FVec Ideal S256 .f32) (x18 : FVec Ideal S256 .f32) (x19 : FVec Ideal S256 .f32) (x20 : FVec Ideal S256x256 .f32) (x21 : FVec Ideal S256 .f32) (x22 : FVec Ideal S256 .f32) (x23 : FVec Ideal S256 .f32) (x24 : FVec Ideal S256x256 .f32) (x25 : FVec Ideal S256 .f32) (x26 : FVec Ideal S256 .f32) (x27 : FVec Ideal S256 .f32) (x28 : FVec Ideal S256x256 .f32) (x29 : FVec Ideal S256 .f32) (x30 : FVec Ideal S256 .f32) (x31 : FVec Ideal S256 .f32) (x32 : FVec Ideal S768x256 .f32) (x33 : FVec Ideal S256 .f32) (x34 : FVec Ideal S256 .f32) (x35 : FVec Ideal S256 .f32) (x36 : FVec Ideal S1 .f32) (x37 : FVec Ideal S1 .f32) (x38 : FVec Ideal S1 .f32) (x39 : IVec S2x200000 32) (x40 : IVec S2x200000 32) (x41 : IVec S2x120000 32)
    (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (h6 : ∀ i, IsReal (x6 i)) (h7 : ∀ i, IsReal (x7 i)) (h8 : ∀ i, IsReal (x8 i)) (h9 : ∀ i, IsReal (x9 i)) (h10 : ∀ i, IsReal (x10 i)) (h11 : ∀ i, IsReal (x11 i)) (h12 : ∀ i, IsReal (x12 i)) (h13 : ∀ i, IsReal (x13 i)) (h14 : ∀ i, IsReal (x14 i)) (h15 : ∀ i, IsReal (x15 i)) (h16 : ∀ i, IsReal (x16 i)) (h17 : ∀ i, IsReal (x17 i)) (h18 : ∀ i, IsReal (x18 i)) (h19 : ∀ i, IsReal (x19 i)) (h20 : ∀ i, IsReal (x20 i)) (h21 : ∀ i, IsReal (x21 i)) (h22 : ∀ i, IsReal (x22 i)) (h23 : ∀ i, IsReal (x23 i)) (h24 : ∀ i, IsReal (x24 i)) (h25 : ∀ i, IsReal (x25 i)) (h26 : ∀ i, IsReal (x26 i)) (h27 : ∀ i, IsReal (x27 i)) (h28 : ∀ i, IsReal (x28 i)) (h29 : ∀ i, IsReal (x29 i)) (h30 : ∀ i, IsReal (x30 i)) (h31 : ∀ i, IsReal (x31 i)) (h32 : ∀ i, IsReal (x32 i)) (h33 : ∀ i, IsReal (x33 i)) (h34 : ∀ i, IsReal (x34 i)) (h35 : ∀ i, IsReal (x35 i)) (h36 : ∀ i, IsReal (x36 i)) (h37 : ∀ i, IsReal (x37 i)) (h38 : ∀ i, IsReal (x38 i))
    (hi39 : ∀ r, IntOp.cmpi .sge (row0_e x39 r) 0#32 = 1#1 ∧ IntOp.cmpi .slt (row0_e x39 r) 40000#32 = 1#1) (hi40 : ∀ r, IntOp.cmpi .sge (row0_e x40 r) 0#32 = 1#1 ∧ IntOp.cmpi .slt (row0_e x40 r) 40000#32 = 1#1) (hi41 : ∀ r, IntOp.cmpi .sge (row0_b x41 r) 0#32 = 1#1 ∧ IntOp.cmpi .slt (row0_b x41 r) 60000#32 = 1#1) :
    head vSq n40 bnEps
      (branch vSq n40 bnEps (aggOf200 x39 (messages (take_e x0 (row0_e x39)) x1 (topHalf x4) (botHalf x4) (asRow x5))) x0 (scaleOf x36 (ix2 0 0)) x8 (rowv x9) (rowv x10) (rowv x11) x12 (rowv x13) (rowv x14) (rowv x15) (wcBlock0 x32))
      (branch vSq n40 bnEps (aggOf200 x40 (messages (take_e x0 (row0_e x40)) x2 (topHalf x6) (botHalf x6) (asRow x7))) x0 (scaleOf x37 (ix2 0 0)) x16 (rowv x17) (rowv x18) (rowv x19) x20 (rowv x21) (rowv x22) (rowv x23) (wcBlock1 x32))
      (branch vSq n40 bnEps (aggOf120 x41 (take_b x3 (row0_b x41))) x0 (scaleOf x38 (ix2 0 0)) x24 (rowv x25) (rowv x26) (rowv x27) x28 (rowv x29) (rowv x30) (rowv x31) (wcBlock2 x32))
      (rowv x33) (rowv x34) (rowv x35)
      = ReadP.val_main_v288 (F := Ideal) x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 := by
  rw [Cert.ReferenceIdeal.RefRead.ref_spec, branchU_bridge x0 x1 x4 x5 x8 x9 x10 x11 x12 x13 x14 x15 x32 x36 x39 h0 h1 h4 h5 h8 h9 h10 h11 h12 h13 h14 h15 h32 h36 hi39, branchD_bridge x0 x2 x6 x7 x16 x17 x18 x19 x20 x21 x22 x23 x32 x37 x40 h0 h2 h6 h7 h16 h17 h18 h19 h20 h21 h22 h23 h32 h37 hi40,
    branchB_bridge x0 x3 x24 x25 x26 x27 x28 x29 x30 x31 x32 x38 x41 h0 h3 h24 h25 h26 h27 h28 h29 h30 h31 h32 h38 hi41]
  obtain ⟨e, he, hbe⟩ := eps_pos
  have e33 : rowv x33 = rowOf x33 := rfl
  have e34 : rowv x34 = rowOf x34 := rfl
  have e35 : rowv x35 = rowOf x35 := rfl
  rw [e33, e34, e35]
  unfold vSq
  dsimp only [Cert.ReferenceIdeal.Stages.n40, Cert.ReferenceIdeal.Stages.bnEps, n40, bnEps]
  rw [n40_real, hbe]
  exact head_sq_eq_dev 40000 e rfl (branchU_real x0 x1 x4 x5 x8 x9 x10 x11 x12 x13 x14 x15 x32 x36 x39 h0 h1 h4 h5 h8 h9 h10 h11 h12 h13 h14 h15 h32 h36 hi39 e he) (branchD_real x0 x2 x6 x7 x16 x17 x18 x19 x20 x21 x22 x23 x32 x37 x40 h0 h2 h6 h7 h16 h17 h18 h19 h20 h21 h22 h23 h32 h37 hi40 e he)
    (branchB_real x0 x3 x24 x25 x26 x27 x28 x29 x30 x31 x32 x38 x41 h0 h3 h24 h25 h26 h27 h28 h29 h30 h31 h32 h38 hi41 e he) (fun c => h33 (ix1 c))

end Cert.KernelIdeal.Chain

end
-- ==== Proof.PreFacts.lean ====
/-
  The precondition read: every float input is finite, so every entry is a real number; and every source index of the
  three relations lies in the range of the array it indexes.
-/
import proofs.«129683_j53085795779156_2_alg».proof.Proof.Gen.Pre_finite_inputs
import proofs.«129683_j53085795779156_2_alg».proof.Proof.LibBnStats
import Idealize.ShloMosaic.Lib.ReduceAll
import Idealize.ShloMosaic.Lib.ValueIdx
import Idealize.ShloMosaic.Lib.Affine

set_option maxRecDepth 16384
set_option maxHeartbeats 4000000

noncomputable section

namespace Cert.PreFacts

open Idealize.ShloMosaic Idealize.ShloMosaic.ValueIdx BnStats
open Cert.Pre_finite_inputs Cert.Pre_finite_inputs.Facts

variable [Cert.Pre_finite_inputs.Facts]

instance : Subsingleton S_.Idx := ⟨fun a b => funext fun d => d.elim0⟩

/-- An extended real whose absolute value compares below the infinity word is a real number. -/
theorem real_of_bit (x : EReal)
    (h : FloatOps.cmpf (F := Ideal) .olt (FloatOps.hostAbsf x) (FloatOps.ofBits (F := Ideal) .f32 0x7F800000#32) = 1#1) : IsReal x := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  have hlt : max x (-x) < ⊤ := by
    by_contra hc
    simp [Ideal.cmp, hc] at h
  induction x using EReal.rec with
  | bot => simp at hlt
  | coe r => exact ⟨r, rfl⟩
  | top => simp at hlt

/-- What the precondition says of the inputs. -/
theorem decode (a0 : FVec Ideal S40000x256 .f32) (a1 : FVec Ideal S200000x256 .f32) (a2 : FVec Ideal S200000x256 .f32) (a3 : FVec Ideal S60000x256 .f32) (a4 : FVec Ideal S512x256 .f32) (a5 : FVec Ideal S256 .f32) (a6 : FVec Ideal S512x256 .f32) (a7 : FVec Ideal S256 .f32) (a8 : FVec Ideal S256x256 .f32) (a9 : FVec Ideal S256 .f32) (a10 : FVec Ideal S256 .f32) (a11 : FVec Ideal S256 .f32) (a12 : FVec Ideal S256x256 .f32) (a13 : FVec Ideal S256 .f32) (a14 : FVec Ideal S256 .f32) (a15 : FVec Ideal S256 .f32) (a16 : FVec Ideal S256x256 .f32) (a17 : FVec Ideal S256 .f32) (a18 : FVec Ideal S256 .f32) (a19 : FVec Ideal S256 .f32) (a20 : FVec Ideal S256x256 .f32) (a21 : FVec Ideal S256 .f32) (a22 : FVec Ideal S256 .f32) (a23 : FVec Ideal S256 .f32) (a24 : FVec Ideal S256x256 .f32) (a25 : FVec Ideal S256 .f32) (a26 : FVec Ideal S256 .f32) (a27 : FVec Ideal S256 .f32) (a28 : FVec Ideal S256x256 .f32) (a29 : FVec Ideal S256 .f32) (a30 : FVec Ideal S256 .f32) (a31 : FVec Ideal S256 .f32) (a32 : FVec Ideal S768x256 .f32) (a33 : FVec Ideal S256 .f32) (a34 : FVec Ideal S256 .f32) (a35 : FVec Ideal S256 .f32) (a36 : FVec Ideal S1 .f32) (a37 : FVec Ideal S1 .f32) (a38 : FVec Ideal S1 .f32) (a39 : IVec S2x200000 32) (a40 : IVec S2x200000 32) (a41 : IVec S2x120000 32)
    (h : Cert.Pre_finite_inputs.fn (F := Ideal) a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 = fun _ => 1#1) :
    (∀ i, IsReal (a0 i))
    ∧ (∀ i, IsReal (a1 i))
    ∧ (∀ i, IsReal (a2 i))
    ∧ (∀ i, IsReal (a3 i))
    ∧ (∀ i, IsReal (a4 i))
    ∧ (∀ i, IsReal (a5 i))
    ∧ (∀ i, IsReal (a6 i))
    ∧ (∀ i, IsReal (a7 i))
    ∧ (∀ i, IsReal (a8 i))
    ∧ (∀ i, IsReal (a9 i))
    ∧ (∀ i, IsReal (a10 i))
    ∧ (∀ i, IsReal (a11 i))
    ∧ (∀ i, IsReal (a12 i))
    ∧ (∀ i, IsReal (a13 i))
    ∧ (∀ i, IsReal (a14 i))
    ∧ (∀ i, IsReal (a15 i))
    ∧ (∀ i, IsReal (a16 i))
    ∧ (∀ i, IsReal (a17 i))
    ∧ (∀ i, IsReal (a18 i))
    ∧ (∀ i, IsReal (a19 i))
    ∧ (∀ i, IsReal (a20 i))
    ∧ (∀ i, IsReal (a21 i))
    ∧ (∀ i, IsReal (a22 i))
    ∧ (∀ i, IsReal (a23 i))
    ∧ (∀ i, IsReal (a24 i))
    ∧ (∀ i, IsReal (a25 i))
    ∧ (∀ i, IsReal (a26 i))
    ∧ (∀ i, IsReal (a27 i))
    ∧ (∀ i, IsReal (a28 i))
    ∧ (∀ i, IsReal (a29 i))
    ∧ (∀ i, IsReal (a30 i))
    ∧ (∀ i, IsReal (a31 i))
    ∧ (∀ i, IsReal (a32 i))
    ∧ (∀ i, IsReal (a33 i))
    ∧ (∀ i, IsReal (a34 i))
    ∧ (∀ i, IsReal (a35 i))
    ∧ (∀ i, IsReal (a36 i))
    ∧ (∀ i, IsReal (a37 i))
    ∧ (∀ i, IsReal (a38 i))
    ∧ (∀ r : S200000.Idx, IntOp.cmpi .sge (shapeCast S200000 (extractStridedSlice S1x200000 ![0, 0] a39 slices_S2x200000_S1x200000_0_0) shapeCasts_S1x200000_S200000 r) 0#32 = 1#1
        ∧ IntOp.cmpi .slt (shapeCast S200000 (extractStridedSlice S1x200000 ![0, 0] a39 slices_S2x200000_S1x200000_0_0) shapeCasts_S1x200000_S200000 r) 40000#32 = 1#1)
    ∧ (∀ r : S200000.Idx, IntOp.cmpi .sge (shapeCast S200000 (extractStridedSlice S1x200000 ![0, 0] a40 slices_S2x200000_S1x200000_0_0) shapeCasts_S1x200000_S200000 r) 0#32 = 1#1
        ∧ IntOp.cmpi .slt (shapeCast S200000 (extractStridedSlice S1x200000 ![0, 0] a40 slices_S2x200000_S1x200000_0_0) shapeCasts_S1x200000_S200000 r) 40000#32 = 1#1)
    ∧ (∀ r : S120000.Idx, IntOp.cmpi .sge (shapeCast S120000 (extractStridedSlice S1x120000 ![0, 0] a41 slices_S2x120000_S1x120000_0_0) shapeCasts_S1x120000_S120000 r) 0#32 = 1#1
        ∧ IntOp.cmpi .slt (shapeCast S120000 (extractStridedSlice S1x120000 ![0, 0] a41 slices_S2x120000_S1x120000_0_0) shapeCasts_S1x120000_S120000 r) 60000#32 = 1#1) := by
  have h0 := congrFun h ix0
  dsimp only [Cert.Pre_finite_inputs.fn, Cert.Pre_finite_inputs.fn_part1, Cert.Pre_finite_inputs.fn_part2, Cert.Pre_finite_inputs.fn_part3, Cert.Pre_finite_inputs.fn_part4, Cert.Pre_finite_inputs.fn_part5, Cert.Pre_finite_inputs.fn_part6, Cert.Pre_finite_inputs.fn_part7, Cert.Pre_finite_inputs.fn_part8, Cert.Pre_finite_inputs.fn_part9, Cert.Pre_finite_inputs.fn_part10, Cert.Pre_finite_inputs.fn_part11, Cert.Pre_finite_inputs.fn_part12, Cert.Pre_finite_inputs.fn_part13] at h0
  simp only [andi, IntOp.andi_eq_one] at h0
  obtain ⟨⟨⟨⟨⟨⟨⟨⟨⟨⟨⟨⟨⟨⟨⟨⟨⟨⟨⟨⟨⟨⟨⟨⟨⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩, h18⟩, h19⟩, h20⟩, h21⟩, h22⟩, h23⟩, h24⟩, h25⟩, h26⟩, h27⟩, h28⟩, h29⟩, h30⟩, h31⟩, h32⟩, h33⟩, h34⟩, h35⟩, h36⟩, h37⟩, h38⟩, h39⟩, h40⟩, h41⟩ := h0
  refine ⟨fun i => real_of_bit _ (Host.reduce_andi_all _ _ _ _ _ h0 i),
    fun i => real_of_bit _ (Host.reduce_andi_all _ _ _ _ _ h1 i),
    fun i => real_of_bit _ (Host.reduce_andi_all _ _ _ _ _ h2 i),
    fun i => real_of_bit _ (Host.reduce_andi_all _ _ _ _ _ h3 i),
    fun i => real_of_bit _ (Host.reduce_andi_all _ _ _ _ _ h4 i),
    fun i => real_of_bit _ (Host.reduce_andi_all _ _ _ _ _ h5 i),
    fun i => real_of_bit _ (Host.reduce_andi_all _ _ _ _ _ h6 i),
    fun i => real_of_bit _ (Host.reduce_andi_all _ _ _ _ _ h7 i),
    fun i => real_of_bit _ (Host.reduce_andi_all _ _ _ _ _ h8 i),
    fun i => real_of_bit _ (Host.reduce_andi_all _ _ _ _ _ h9 i),
    fun i => real_of_bit _ (Host.reduce_andi_all _ _ _ _ _ h10 i),
    fun i => real_of_bit _ (Host.reduce_andi_all _ _ _ _ _ h11 i),
    fun i => real_of_bit _ (Host.reduce_andi_all _ _ _ _ _ h12 i),
    fun i => real_of_bit _ (Host.reduce_andi_all _ _ _ _ _ h13 i),
    fun i => real_of_bit _ (Host.reduce_andi_all _ _ _ _ _ h14 i),
    fun i => real_of_bit _ (Host.reduce_andi_all _ _ _ _ _ h15 i),
    fun i => real_of_bit _ (Host.reduce_andi_all _ _ _ _ _ h16 i),
    fun i => real_of_bit _ (Host.reduce_andi_all _ _ _ _ _ h17 i),
    fun i => real_of_bit _ (Host.reduce_andi_all _ _ _ _ _ h18 i),
    fun i => real_of_bit _ (Host.reduce_andi_all _ _ _ _ _ h19 i),
    fun i => real_of_bit _ (Host.reduce_andi_all _ _ _ _ _ h20 i),
    fun i => real_of_bit _ (Host.reduce_andi_all _ _ _ _ _ h21 i),
    fun i => real_of_bit _ (Host.reduce_andi_all _ _ _ _ _ h22 i),
    fun i => real_of_bit _ (Host.reduce_andi_all _ _ _ _ _ h23 i),
    fun i => real_of_bit _ (Host.reduce_andi_all _ _ _ _ _ h24 i),
    fun i => real_of_bit _ (Host.reduce_andi_all _ _ _ _ _ h25 i),
    fun i => real_of_bit _ (Host.reduce_andi_all _ _ _ _ _ h26 i),
    fun i => real_of_bit _ (Host.reduce_andi_all _ _ _ _ _ h27 i),
    fun i => real_of_bit _ (Host.reduce_andi_all _ _ _ _ _ h28 i),
    fun i => real_of_bit _ (Host.reduce_andi_all _ _ _ _ _ h29 i),
    fun i => real_of_bit _ (Host.reduce_andi_all _ _ _ _ _ h30 i),
    fun i => real_of_bit _ (Host.reduce_andi_all _ _ _ _ _ h31 i),
    fun i => real_of_bit _ (Host.reduce_andi_all _ _ _ _ _ h32 i),
    fun i => real_of_bit _ (Host.reduce_andi_all _ _ _ _ _ h33 i),
    fun i => real_of_bit _ (Host.reduce_andi_all _ _ _ _ _ h34 i),
    fun i => real_of_bit _ (Host.reduce_andi_all _ _ _ _ _ h35 i),
    fun i => real_of_bit _ (Host.reduce_andi_all _ _ _ _ _ h36 i),
    fun i => real_of_bit _ (Host.reduce_andi_all _ _ _ _ _ h37 i),
    fun i => real_of_bit _ (Host.reduce_andi_all _ _ _ _ _ h38 i),
    fun r => IntOp.andi_eq_one.mp (Host.reduce_andi_all _ _ _ _ _ h39 r),
    fun r => IntOp.andi_eq_one.mp (Host.reduce_andi_all _ _ _ _ _ h40 r),
    fun r => IntOp.andi_eq_one.mp (Host.reduce_andi_all _ _ _ _ _ h41 r)⟩

end Cert.PreFacts

end
-- ==== Proof.RefLink.lean ====
/-
  The reference run's result term is the last stage of the reference read stage by stage.
-/
import proofs.«129683_j53085795779156_2_alg».proof.Proof.RunP
import proofs.«129683_j53085795779156_2_alg».proof.Proof.ReadP

set_option maxRecDepth 16384
set_option maxHeartbeats 4000000

noncomputable section

namespace Cert.ReferenceIdeal.RefLink

open Cert.ReferenceIdeal Cert.ReferenceIdeal.Gen Idealize.ShloMosaic Idealize.ShloMosaic.TcCoe Idealize.SL.Sem Idealize.ShloMosaic.StableHlo

variable {F : FTy → Type} [FloatOps F]

theorem val_main_v288_eq (m : (ℓ : Loc nD τ sig) → Buf (Elt F) ℓ) (c : Dev nD) :
    Cert.ReferenceIdeal.ValueP.res_main_v288 m c = ReadP.val_main_v288 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (m ((c.tc : Thread nD τ).loc main_arg33)) (m ((c.tc : Thread nD τ).loc main_arg34)) (m ((c.tc : Thread nD τ).loc main_arg35)) (m ((c.tc : Thread nD τ).loc main_arg36)) (m ((c.tc : Thread nD τ).loc main_arg37)) (m ((c.tc : Thread nD τ).loc main_arg38)) (m ((c.tc : Thread nD τ).loc main_arg39)) (m ((c.tc : Thread nD τ).loc main_arg40)) (m ((c.tc : Thread nD τ).loc main_arg41)) := by
  unfold Cert.ReferenceIdeal.ValueP.res_main_v288; rfl

end Cert.ReferenceIdeal.RefLink

end
-- ==== Proof.lean ====
/- The five conjuncts of the claim for the three-branch cellular message-passing layer: messages on upper and lower
   adjacencies and boundary gathers are aggregated by scatter-add, each branch runs Linear → BatchNorm → ReLU twice, and the
   three branch outputs are combined by one more Linear → BatchNorm → ReLU.

   The kernel computes each BatchNorm's variance as the mean of the squares minus the squared mean, from per-tile partial
   sums; the reference as the mean of the squared deviations, over all rows at once.  With finite inputs every intermediate
   array is real and the two agree.  The kernel's take fills an out-of-range row with a not-a-number, the reference clamps:
   with the source indices in range the two gathers are the same rows. -/
import proofs.«129683_j53085795779156_2_alg».proof.Defs
import proofs.«129683_j53085795779156_2_alg».proof.Proof.Gen.Kernel
import proofs.«129683_j53085795779156_2_alg».proof.Proof.Gen.Kernel.Skeleton
import proofs.«129683_j53085795779156_2_alg».proof.Proof.Gen.Kernel.Launch
import proofs.«129683_j53085795779156_2_alg».proof.Proof.Gen.Kernel.Points
import proofs.«129683_j53085795779156_2_alg».proof.Proof.Gen.Kernel.Frame
import proofs.«129683_j53085795779156_2_alg».proof.Proof.Gen.KernelIdeal
import proofs.«129683_j53085795779156_2_alg».proof.Proof.Gen.KernelIdeal.Skeleton
import proofs.«129683_j53085795779156_2_alg».proof.Proof.Gen.KernelIdeal.Launch
import proofs.«129683_j53085795779156_2_alg».proof.Proof.Gen.KernelIdeal.Points
import proofs.«129683_j53085795779156_2_alg».proof.Proof.Gen.KernelIdeal.Frame
import proofs.«129683_j53085795779156_2_alg».proof.Proof.Gen.ReferenceIdeal
import proofs.«129683_j53085795779156_2_alg».proof.Proof.Gen.Pre_finite_inputs
import proofs.«129683_j53085795779156_2_alg».proof.Proof.KernelRun
import proofs.«129683_j53085795779156_2_alg».proof.Proof.ChainH
import proofs.«129683_j53085795779156_2_alg».proof.Proof.KernelSpec
import proofs.«129683_j53085795779156_2_alg».proof.Proof.BridgeK
import proofs.«129683_j53085795779156_2_alg».proof.Proof.PreFacts
import proofs.«129683_j53085795779156_2_alg».proof.Proof.RefRead
import proofs.«129683_j53085795779156_2_alg».proof.Proof.RefLink
import Idealize.ShloMosaic.Adequacy
import Idealize.ShloMosaic.Init

set_option maxRecDepth 16384
set_option maxHeartbeats 4000000

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

open Cert.KernelIdeal.Chain in
/-- From memories that agree on the arguments, with finite floats and in-range source indices, both programs end with the
    layer's output: the kernel's in the mean-of-squares spelling, the reference's in the deviation spelling. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => outK m ρ c, ?_, ?_⟩
  · exact (θ_run Cert.KernelIdeal.defs _ _).mono (fun r h c =>
      ⟨(h c _ (Cert.KernelIdeal.Gen.mem_uc Cert.KernelIdeal.main_v179 (by decide))).trans (o12 m ρ c),
        (h c _ (Cert.KernelIdeal.Gen.mem_uc Cert.KernelIdeal.main_arg0 (by decide))).trans (Cert.KernelIdeal.Gen.W32_main_arg0 m ρ c),
        (h c _ (Cert.KernelIdeal.Gen.mem_uc Cert.KernelIdeal.main_arg1 (by decide))).trans (Cert.KernelIdeal.Gen.W32_main_arg1 m ρ c),
        (h c _ (Cert.KernelIdeal.Gen.mem_uc Cert.KernelIdeal.main_arg2 (by decide))).trans (Cert.KernelIdeal.Gen.W32_main_arg2 m ρ c),
        (h c _ (Cert.KernelIdeal.Gen.mem_uc Cert.KernelIdeal.main_arg3 (by decide))).trans (Cert.KernelIdeal.Gen.W32_main_arg3 m ρ c),
        (h c _ (Cert.KernelIdeal.Gen.mem_uc Cert.KernelIdeal.main_arg4 (by decide))).trans (Cert.KernelIdeal.Gen.W32_main_arg4 m ρ c),
        (h c _ (Cert.KernelIdeal.Gen.mem_uc Cert.KernelIdeal.main_arg5 (by decide))).trans (Cert.KernelIdeal.Gen.W32_main_arg5 m ρ c),
        (h c _ (Cert.KernelIdeal.Gen.mem_uc Cert.KernelIdeal.main_arg6 (by decide))).trans (Cert.KernelIdeal.Gen.W32_main_arg6 m ρ c),
        (h c _ (Cert.KernelIdeal.Gen.mem_uc Cert.KernelIdeal.main_arg7 (by decide))).trans (Cert.KernelIdeal.Gen.W32_main_arg7 m ρ c),
        (h c _ (Cert.KernelIdeal.Gen.mem_uc Cert.KernelIdeal.main_arg8 (by decide))).trans (Cert.KernelIdeal.Gen.W32_main_arg8 m ρ c),
        (h c _ (Cert.KernelIdeal.Gen.mem_uc Cert.KernelIdeal.main_arg9 (by decide))).trans (Cert.KernelIdeal.Gen.W32_main_arg9 m ρ c),
        (h c _ (Cert.KernelIdeal.Gen.mem_uc Cert.KernelIdeal.main_arg10 (by decide))).trans (Cert.KernelIdeal.Gen.W32_main_arg10 m ρ c),
        (h c _ (Cert.KernelIdeal.Gen.mem_uc Cert.KernelIdeal.main_arg11 (by decide))).trans (Cert.KernelIdeal.Gen.W32_main_arg11 m ρ c),
        (h c _ (Cert.KernelIdeal.Gen.mem_uc Cert.KernelIdeal.main_arg12 (by decide))).trans (Cert.KernelIdeal.Gen.W32_main_arg12 m ρ c),
        (h c _ (Cert.KernelIdeal.Gen.mem_uc Cert.KernelIdeal.main_arg13 (by decide))).trans (Cert.KernelIdeal.Gen.W32_main_arg13 m ρ c),
        (h c _ (Cert.KernelIdeal.Gen.mem_uc Cert.KernelIdeal.main_arg14 (by decide))).trans (Cert.KernelIdeal.Gen.W32_main_arg14 m ρ c),
        (h c _ (Cert.KernelIdeal.Gen.mem_uc Cert.KernelIdeal.main_arg15 (by decide))).trans (Cert.KernelIdeal.Gen.W32_main_arg15 m ρ c),
        (h c _ (Cert.KernelIdeal.Gen.mem_uc Cert.KernelIdeal.main_arg16 (by decide))).trans (Cert.KernelIdeal.Gen.W32_main_arg16 m ρ c),
        (h c _ (Cert.KernelIdeal.Gen.mem_uc Cert.KernelIdeal.main_arg17 (by decide))).trans (Cert.KernelIdeal.Gen.W32_main_arg17 m ρ c),
        (h c _ (Cert.KernelIdeal.Gen.mem_uc Cert.KernelIdeal.main_arg18 (by decide))).trans (Cert.KernelIdeal.Gen.W32_main_arg18 m ρ c),
        (h c _ (Cert.KernelIdeal.Gen.mem_uc Cert.KernelIdeal.main_arg19 (by decide))).trans (Cert.KernelIdeal.Gen.W32_main_arg19 m ρ c),
        (h c _ (Cert.KernelIdeal.Gen.mem_uc Cert.KernelIdeal.main_arg20 (by decide))).trans (Cert.KernelIdeal.Gen.W32_main_arg20 m ρ c),
        (h c _ (Cert.KernelIdeal.Gen.mem_uc Cert.KernelIdeal.main_arg21 (by decide))).trans (Cert.KernelIdeal.Gen.W32_main_arg21 m ρ c),
        (h c _ (Cert.KernelIdeal.Gen.mem_uc Cert.KernelIdeal.main_arg22 (by decide))).trans (Cert.KernelIdeal.Gen.W32_main_arg22 m ρ c),
        (h c _ (Cert.KernelIdeal.Gen.mem_uc Cert.KernelIdeal.main_arg23 (by decide))).trans (Cert.KernelIdeal.Gen.W32_main_arg23 m ρ c),
        (h c _ (Cert.KernelIdeal.Gen.mem_uc Cert.KernelIdeal.main_arg24 (by decide))).trans (Cert.KernelIdeal.Gen.W32_main_arg24 m ρ c),
        (h c _ (Cert.KernelIdeal.Gen.mem_uc Cert.KernelIdeal.main_arg25 (by decide))).trans (Cert.KernelIdeal.Gen.W32_main_arg25 m ρ c),
        (h c _ (Cert.KernelIdeal.Gen.mem_uc Cert.KernelIdeal.main_arg26 (by decide))).trans (Cert.KernelIdeal.Gen.W32_main_arg26 m ρ c),
        (h c _ (Cert.KernelIdeal.Gen.mem_uc Cert.KernelIdeal.main_arg27 (by decide))).trans (Cert.KernelIdeal.Gen.W32_main_arg27 m ρ c),
        (h c _ (Cert.KernelIdeal.Gen.mem_uc Cert.KernelIdeal.main_arg28 (by decide))).trans (Cert.KernelIdeal.Gen.W32_main_arg28 m ρ c),
        (h c _ (Cert.KernelIdeal.Gen.mem_uc Cert.KernelIdeal.main_arg29 (by decide))).trans (Cert.KernelIdeal.Gen.W32_main_arg29 m ρ c),
        (h c _ (Cert.KernelIdeal.Gen.mem_uc Cert.KernelIdeal.main_arg30 (by decide))).trans (Cert.KernelIdeal.Gen.W32_main_arg30 m ρ c),
        (h c _ (Cert.KernelIdeal.Gen.mem_uc Cert.KernelIdeal.main_arg31 (by decide))).trans (Cert.KernelIdeal.Gen.W32_main_arg31 m ρ c),
        (h c _ (Cert.KernelIdeal.Gen.mem_uc Cert.KernelIdeal.main_arg32 (by decide))).trans (Cert.KernelIdeal.Gen.W32_main_arg32 m ρ c),
        (h c _ (Cert.KernelIdeal.Gen.mem_uc Cert.KernelIdeal.main_arg33 (by decide))).trans (Cert.KernelIdeal.Gen.W32_main_arg33 m ρ c),
        (h c _ (Cert.KernelIdeal.Gen.mem_uc Cert.KernelIdeal.main_arg34 (by decide))).trans (Cert.KernelIdeal.Gen.W32_main_arg34 m ρ c),
        (h c _ (Cert.KernelIdeal.Gen.mem_uc Cert.KernelIdeal.main_arg35 (by decide))).trans (Cert.KernelIdeal.Gen.W32_main_arg35 m ρ c),
        (h c _ (Cert.KernelIdeal.Gen.mem_uc Cert.KernelIdeal.main_arg36 (by decide))).trans (Cert.KernelIdeal.Gen.W32_main_arg36 m ρ c),
        (h c _ (Cert.KernelIdeal.Gen.mem_uc Cert.KernelIdeal.main_arg37 (by decide))).trans (Cert.KernelIdeal.Gen.W32_main_arg37 m ρ c),
        (h c _ (Cert.KernelIdeal.Gen.mem_uc Cert.KernelIdeal.main_arg38 (by decide))).trans (Cert.KernelIdeal.Gen.W32_main_arg38 m ρ c),
        (h c _ (Cert.KernelIdeal.Gen.mem_uc Cert.KernelIdeal.main_arg39 (by decide))).trans (Cert.KernelIdeal.Gen.W32_main_arg39 m ρ c),
        (h c _ (Cert.KernelIdeal.Gen.mem_uc Cert.KernelIdeal.main_arg40 (by decide))).trans (Cert.KernelIdeal.Gen.W32_main_arg40 m ρ c),
        (h c _ (Cert.KernelIdeal.Gen.mem_uc Cert.KernelIdeal.main_arg41 (by decide))).trans (Cert.KernelIdeal.Gen.W32_main_arg41 m ρ c)⟩)
      (Cert.KernelIdeal.RunValue.run_boundary m ρ)
  · refine (θ_run Cert.ReferenceIdeal.defs _ _).mono (fun r h c => ⟨(h c).1.trans ?_, (h c).2⟩)
      (Cert.ReferenceIdeal.ValueP.run (F := Ideal) m' ρ')
    show Cert.ReferenceIdeal.ValueP.res_main_v288 m' c = outK m ρ c
    rw [Cert.ReferenceIdeal.RefLink.val_main_v288_eq m' c]
    obtain ⟨g0, g1, g2, g3, g4, g5, g6, g7, g8, g9, g10, g11, g12, g13, g14, g15, g16, g17, g18, g19, g20, g21, g22, g23, g24, g25, g26, g27, g28, g29, g30, g31, g32, g33, g34, g35, g36, g37, g38, g39, g40, g41⟩ := hagree c
    rw [g0, g1, g2, g3, g4, g5, g6, g7, g8, g9, g10, g11, g12, g13, g14, g15, g16, g17, g18, g19, g20, g21, g22, g23, g24, g25, g26, g27, g28, g29, g30, g31, g32, g33, g34, g35, g36, g37, g38, g39, g40, g41]
    rw [outK_eq, conU_eq, conD_eq, conB_eq]
    unfold aggU aggD aggB msgU msgD
    rw [takeU_eq, takeD_eq, takeB_eq]
    obtain ⟨p0, p1, p2, p3, p4, p5, p6, p7, p8, p9, p10, p11, p12, p13, p14, p15, p16, p17, p18, p19, p20, p21, p22, p23, p24, p25, p26, p27, p28, p29, p30, p31, p32, p33, p34, p35, p36, p37, p38, q39, q40, q41⟩ := Cert.PreFacts.decode _ _ _ _ _ _ _ _ _ _ _ _ _ _ _ _ _ _ _ _ _ _ _ _ _ _ _ _ _ _ _ _ _ _ _ _ _ _ _ _ _ _ (hpre c)
    exact (layer_bridge _ _ _ _ _ _ _ _ _ _ _ _ _ _ _ _ _ _ _ _ _ _ _ _ _ _ _ _ _ _ _ _ _ _ _ _ _ _ _ _ _ _
      p0 p1 p2 p3 p4 p5 p6 p7 p8 p9 p10 p11 p12 p13 p14 p15 p16 p17 p18 p19 p20 p21 p22 p23 p24 p25 p26 p27 p28 p29 p30 p31 p32 p33 p34 p35 p36 p37 p38 q39 q40 q41).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
